-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S512x512x8 : Shape := ⟨3, ![512, 512, 8]⟩
abbrev S8x24 : Shape := ⟨2, ![8, 24]⟩
abbrev S8 : Shape := ⟨1, ![8]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S512x512x8 : S_.BroadcastsInDim S512x512x8 (![] : Fin 0 → Fin S512x512x8.rank)
  reducesTo_S512x512x8_S_d0_1_2 : S512x512x8.ReducesTo [0, 1, 2] S_
  bcast_S_S8x24 : S_.BroadcastsInDim S8x24 (![] : Fin 0 → Fin S8x24.rank)
  reducesTo_S8x24_S_d0_1 : S8x24.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8x24 .f32) (main_arg5 : FVec F S8 .f32) (main_v13 : IVec S_ 1) (main_v16 : IVec S512x512x8 1) : IVec S_ 1 :=
  let main_c_5 : IVec S_ 1 := constantI S_ 1 1#1
  let main_v17 : IVec S_ 1 := (fun x v => Host.reduce IntOp.andi x v reducesTo_S512x512x8_S_d0_1_2 h_S_) main_v16 main_c_5
  let main_v18 : IVec S_ 1 := andi main_v13 main_v17
  let main_v19 : FVec F S8x24 .f32 := Host.absf main_arg4
  let main_cst_6 : FVec F S_ .f32 := constant S_ .f32 0x7F800000#32
  let main_v20 : FVec F S8x24 .f32 := broadcastInDim S8x24 ![] bcast_S_S8x24 main_cst_6
  let main_v21 : IVec S8x24 1 := cmpf .olt main_v19 main_v20
  let main_c_7 : IVec S_ 1 := constantI S_ 1 1#1
  let main_v22 : IVec S_ 1 := (fun x v => Host.reduce IntOp.andi x v reducesTo_S8x24_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S4000000x3 .f32) (main_arg1 : FVec F S512x512x8 .f32) (main_arg2 : FVec F S512x512x8 .f32) (main_arg3 : FVec F S512x512x8 .f32) (main_arg4 : FVec F S8x24 .f32) (main_arg5 : FVec F S8 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S512x512x8 .f32 := Host.absf main_arg1
  let main_cst_0 : FVec F S_ .f32 := constant S_ .f32 0x7F800000#32
  let main_v5 : FVec F S512x512x8 .f32 := broadcastInDim S512x512x8 ![] bcast_S_S512x512x8 main_cst_0
  let main_v6 : IVec S512x512x8 1 := cmpf .olt main_v4 main_v5
  let main_c_1 : IVec S_ 1 := constantI S_ 1 1#1
  let main_v7 : IVec S_ 1 := (fun x v => Host.reduce IntOp.andi x v reducesTo_S512x512x8_S_d0_1_2 h_S_) main_v6 main_c_1
  let main_v8 : IVec S_ 1 := andi main_v3 main_v7
  let main_v9 : FVec F S512x512x8 .f32 := Host.absf main_arg2
  let main_cst_2 : FVec F S_ .f32 := constant S_ .f32 0x7F800000#32
  let main_v10 : FVec F S512x512x8 .f32 := broadcastInDim S512x512x8 ![] bcast_S_S512x512x8 main_cst_2
  let main_v11 : IVec S512x512x8 1 := cmpf .olt main_v9 main_v10
  let main_c_3 : IVec S_ 1 := constantI S_ 1 1#1
  let main_v12 : IVec S_ 1 := (fun x v => Host.reduce IntOp.andi x v reducesTo_S512x512x8_S_d0_1_2 h_S_) main_v11 main_c_3
  let main_v13 : IVec S_ 1 := andi main_v8 main_v12
  let main_v14 : FVec F S512x512x8 .f32 := Host.absf main_arg3
  let main_cst_4 : FVec F S_ .f32 := constant S_ .f32 0x7F800000#32
  let main_v15 : FVec F S512x512x8 .f32 := broadcastInDim S512x512x8 ![] bcast_S_S512x512x8 main_cst_4
  let main_v16 : IVec S512x512x8 1 := cmpf .olt main_v14 main_v15
  fn_part1 (F := F) main_arg4 main_arg5 main_v13 main_v16
-- ==== Kernel.lean ====
abbrev S4000000x3 : Shape := ⟨2, ![4000000, 3]⟩
abbrev S512x512x8 : Shape := ⟨3, ![512, 512, 8]⟩
abbrev S8x24 : Shape := ⟨2, ![8, 24]⟩
abbrev S8 : Shape := ⟨1, ![8]⟩
abbrev S_ : Shape := ⟨0, ![]⟩
abbrev S4000000x1 : Shape := ⟨2, ![4000000, 1]⟩
abbrev S4000000 : Shape := ⟨1, ![4000000]⟩
abbrev S262144x8 : Shape := ⟨2, ![262144, 8]⟩
abbrev S4000000x4 : Shape := ⟨2, ![4000000, 4]⟩
abbrev S4000000x4x1 : Shape := ⟨3, ![4000000, 4, 1]⟩
abbrev S1 : Shape := ⟨1, ![1]⟩
abbrev S1x1x1 : Shape := ⟨3, ![1, 1, 1]⟩
abbrev S4000000x4x8 : Shape := ⟨3, ![4000000, 4, 8]⟩
abbrev S4000000x32 : Shape := ⟨2, ![4000000, 32]⟩
abbrev S24x8 : Shape := ⟨2, ![24, 8]⟩
abbrev S4000000x8 : Shape := ⟨2, ![4000000, 8]⟩
abbrev S5000x32 : Shape := ⟨2, ![5000, 32]⟩
abbrev S5000x3 : Shape := ⟨2, ![5000, 3]⟩
abbrev S5000x8 : Shape := ⟨2, ![5000, 8]⟩
abbrev S5000x1 : Shape := ⟨2, ![5000, 1]⟩
abbrev S8x8 : Shape := ⟨2, ![8, 8]⟩
abbrev S1x8 : Shape := ⟨2, ![1, 8]⟩

abbrev nBuf : Space → Nat
  | .hbm => 334
  | .vmem => 12
  | .smem => 0
  | _ => 0

abbrev hbmTy0_0 (i : Nat) : BufTy := match i % 128 with
  | 0 => ⟨S4000000x3, .f32⟩
  | 1 => ⟨S512x512x8, .f32⟩
  | 2 => ⟨S512x512x8, .f32⟩
  | 3 => ⟨S512x512x8, .f32⟩
  | 4 => ⟨S8x24, .f32⟩
  | 5 => ⟨S8, .f32⟩
  | 6 => ⟨S_, .f32⟩
  | 7 => ⟨S_, .f32⟩
  | 8 => ⟨S_, .f32⟩
  | 9 => ⟨S4000000x3, .f32⟩
  | 10 => ⟨S4000000x3, .f32⟩
  | 11 => ⟨S_, .f32⟩
  | 12 => ⟨S4000000x3, .f32⟩
  | 13 => ⟨S4000000x3, .f32⟩
  | 14 => ⟨S4000000x1, .f32⟩
  | 15 => ⟨S4000000, .f32⟩
  | 16 => ⟨S4000000x1, .f32⟩
  | 17 => ⟨S4000000, .f32⟩
  | 18 => ⟨S_, .f32⟩
  | 19 => ⟨S4000000, .f32⟩
  | 20 => ⟨S4000000, .f32⟩
  | 21 => ⟨S_, .f32⟩
  | 22 => ⟨S4000000, .f32⟩
  | 23 => ⟨S4000000, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S_, .f32⟩
  | 31 => ⟨S_, .f32⟩
  | 32 => ⟨S_, .f32⟩
  | 33 => ⟨S4000000, .f32⟩
  | 34 => ⟨S4000000, .f32⟩
  | 35 => ⟨S_, .f32⟩
  | 36 => ⟨S4000000, .f32⟩
  | 37 => ⟨S4000000, .f32⟩
  | 38 => ⟨S_, .f32⟩
  | 39 => ⟨S4000000, .f32⟩
  | 40 => ⟨S4000000, .f32⟩
  | 41 => ⟨S_, .f32⟩
  | 42 => ⟨S4000000, .f32⟩
  | 43 => ⟨S4000000, .f32⟩
  | 44 => ⟨S_, .f32⟩
  | 45 => ⟨S4000000, .f32⟩
  | 46 => ⟨S4000000, .f32⟩
  | 47 => ⟨S_, .f32⟩
  | 48 => ⟨S4000000, .f32⟩
  | 49 => ⟨S4000000, .f32⟩
  | 50 => ⟨S_, .f32⟩
  | 51 => ⟨S_, .f32⟩
  | 52 => ⟨S_, .f32⟩
  | 53 => ⟨S4000000, .f32⟩
  | 54 => ⟨S4000000, .f32⟩
  | 55 => ⟨S_, .f32⟩
  | 56 => ⟨S4000000, .f32⟩
  | 57 => ⟨S4000000, .f32⟩
  | 58 => ⟨S4000000, .f32⟩
  | 59 => ⟨S4000000, .i32⟩
  | 60 => ⟨S4000000, .f32⟩
  | 61 => ⟨S4000000, .i32⟩
  | 62 => ⟨S_, .i32⟩
  | 63 => ⟨S4000000, .i32⟩
  | 64 => ⟨S4000000, .i32⟩
  | 65 => ⟨S_, .i32⟩
  | 66 => ⟨S4000000, .i32⟩
  | 67 => ⟨S4000000, .i32⟩
  | 68 => ⟨S_, .i32⟩
  | 69 => ⟨S4000000, .i32⟩
  | 70 => ⟨S4000000, .i32⟩
  | 71 => ⟨S_, .i32⟩
  | 72 => ⟨S4000000, .i32⟩
  | 73 => ⟨S4000000, .i32⟩
  | 74 => ⟨S262144x8, .f32⟩
  | 75 => ⟨S_, .i32⟩
  | 76 => ⟨S4000000, .i32⟩
  | 77 => ⟨S4000000, .i32⟩
  | 78 => ⟨S4000000, .i32⟩
  | 79 => ⟨S_, .i32⟩
  | 80 => ⟨S4000000, .i32⟩
  | 81 => ⟨S4000000, .i32⟩
  | 82 => ⟨S4000000, .i32⟩
  | 83 => ⟨S_, .i32⟩
  | 84 => ⟨S4000000, .i32⟩
  | 85 => ⟨S4000000, .i32⟩
  | 86 => ⟨S4000000, .i32⟩
  | 87 => ⟨S_, .i32⟩
  | 88 => ⟨S4000000, .i32⟩
  | 89 => ⟨S4000000, .i32⟩
  | 90 => ⟨S4000000, .i32⟩
  | 91 => ⟨S4000000x1, .i32⟩
  | 92 => ⟨S4000000x1, .i32⟩
  | 93 => ⟨S4000000x1, .i32⟩
  | 94 => ⟨S4000000x1, .i32⟩
  | 95 => ⟨S4000000x4, .i32⟩
  | 96 => ⟨S_, .i32⟩
  | 97 => ⟨S4000000x4, .i32⟩
  | 98 => ⟨S4000000x4, .i1⟩
  | 99 => ⟨S_, .i32⟩
  | 100 => ⟨S4000000x4, .i32⟩
  | 101 => ⟨S4000000x4, .i32⟩
  | 102 => ⟨S4000000x4, .i32⟩
  | 103 => ⟨S4000000x4x1, .i32⟩
  | 104 => ⟨S1, .i32⟩
  | 105 => ⟨S_, .i32⟩
  | 106 => ⟨S4000000x4x1, .i32⟩
  | 107 => ⟨S4000000x4x1, .i1⟩
  | 108 => ⟨S1x1x1, .i32⟩
  | 109 => ⟨S4000000x4x1, .i32⟩
  | 110 => ⟨S4000000x4x1, .i1⟩
  | 111 => ⟨S4000000x4x1, .i1⟩
  | 112 => ⟨S_, .i1⟩
  | 113 => ⟨S4000000x4, .i1⟩
  | 114 => ⟨S4000000x4x8, .f32⟩
  | 115 => ⟨S4000000x4x8, .i1⟩
  | 116 => ⟨S_, .f32⟩
  | 117 => ⟨S4000000x4x8, .f32⟩
  | 118 => ⟨S4000000x4x8, .f32⟩
  | 119 => ⟨S4000000x32, .f32⟩
  | 120 => ⟨S4000000x1, .f32⟩
  | 121 => ⟨S4000000, .f32⟩
  | 122 => ⟨S4000000x1, .f32⟩
  | 123 => ⟨S4000000, .f32⟩
  | 124 => ⟨S_, .f32⟩
  | 125 => ⟨S4000000, .f32⟩
  | 126 => ⟨S4000000, .f32⟩
  | 127 => ⟨S_, .f32⟩
  | _ => ⟨S4000000x3, .f32⟩

abbrev hbmTy0_1 (i : Nat) : BufTy := match i % 128 with
  | 0 => ⟨S4000000, .f32⟩
  | 1 => ⟨S4000000, .f32⟩
  | 2 => ⟨S_, .f32⟩
  | 3 => ⟨S4000000, .f32⟩
  | 4 => ⟨S4000000, .f32⟩
  | 5 => ⟨S_, .f32⟩
  | 6 => ⟨S4000000, .f32⟩
  | 7 => ⟨S4000000, .f32⟩
  | 8 => ⟨S_, .f32⟩
  | 9 => ⟨S_, .f32⟩
  | 10 => ⟨S_, .f32⟩
  | 11 => ⟨S4000000, .f32⟩
  | 12 => ⟨S4000000, .f32⟩
  | 13 => ⟨S_, .f32⟩
  | 14 => ⟨S4000000, .f32⟩
  | 15 => ⟨S4000000, .f32⟩
  | 16 => ⟨S_, .f32⟩
  | 17 => ⟨S4000000, .f32⟩
  | 18 => ⟨S4000000, .f32⟩
  | 19 => ⟨S_, .f32⟩
  | 20 => ⟨S4000000, .f32⟩
  | 21 => ⟨S4000000, .f32⟩
  | 22 => ⟨S_, .f32⟩
  | 23 => ⟨S4000000, .f32⟩
  | 24 => ⟨S4000000, .f32⟩
  | 25 => ⟨S_, .f32⟩
  | 26 => ⟨S4000000, .f32⟩
  | 27 => ⟨S4000000, .f32⟩
  | 28 => ⟨S_, .f32⟩
  | 29 => ⟨S_, .f32⟩
  | 30 => ⟨S_, .f32⟩
  | 31 => ⟨S4000000, .f32⟩
  | 32 => ⟨S4000000, .f32⟩
  | 33 => ⟨S_, .f32⟩
  | 34 => ⟨S4000000, .f32⟩
  | 35 => ⟨S4000000, .f32⟩
  | 36 => ⟨S4000000, .f32⟩
  | 37 => ⟨S4000000, .i32⟩
  | 38 => ⟨S4000000, .f32⟩
  | 39 => ⟨S4000000, .i32⟩
  | 40 => ⟨S_, .i32⟩
  | 41 => ⟨S4000000, .i32⟩
  | 42 => ⟨S4000000, .i32⟩
  | 43 => ⟨S_, .i32⟩
  | 44 => ⟨S4000000, .i32⟩
  | 45 => ⟨S4000000, .i32⟩
  | 46 => ⟨S_, .i32⟩
  | 47 => ⟨S4000000, .i32⟩
  | 48 => ⟨S4000000, .i32⟩
  | 49 => ⟨S_, .i32⟩
  | 50 => ⟨S4000000, .i32⟩
  | 51 => ⟨S4000000, .i32⟩
  | 52 => ⟨S262144x8, .f32⟩
  | 53 => ⟨S_, .i32⟩
  | 54 => ⟨S4000000, .i32⟩
  | 55 => ⟨S4000000, .i32⟩
  | 56 => ⟨S4000000, .i32⟩
  | 57 => ⟨S_, .i32⟩
  | 58 => ⟨S4000000, .i32⟩
  | 59 => ⟨S4000000, .i32⟩
  | 60 => ⟨S4000000, .i32⟩
  | 61 => ⟨S_, .i32⟩
  | 62 => ⟨S4000000, .i32⟩
  | 63 => ⟨S4000000, .i32⟩
  | 64 => ⟨S4000000, .i32⟩
  | 65 => ⟨S_, .i32⟩
  | 66 => ⟨S4000000, .i32⟩
  | 67 => ⟨S4000000, .i32⟩
  | 68 => ⟨S4000000, .i32⟩
  | 69 => ⟨S4000000x1, .i32⟩
  | 70 => ⟨S4000000x1, .i32⟩
  | 71 => ⟨S4000000x1, .i32⟩
  | 72 => ⟨S4000000x1, .i32⟩
  | 73 => ⟨S4000000x4, .i32⟩
  | 74 => ⟨S_, .i32⟩
  | 75 => ⟨S4000000x4, .i32⟩
  | 76 => ⟨S4000000x4, .i1⟩
  | 77 => ⟨S_, .i32⟩
  | 78 => ⟨S4000000x4, .i32⟩
  | 79 => ⟨S4000000x4, .i32⟩
  | 80 => ⟨S4000000x4, .i32⟩
  | 81 => ⟨S4000000x4x1, .i32⟩
  | 82 => ⟨S1, .i32⟩
  | 83 => ⟨S_, .i32⟩
  | 84 => ⟨S4000000x4x1, .i32⟩
  | 85 => ⟨S4000000x4x1, .i1⟩
  | 86 => ⟨S1x1x1, .i32⟩
  | 87 => ⟨S4000000x4x1, .i32⟩
  | 88 => ⟨S4000000x4x1, .i1⟩
  | 89 => ⟨S4000000x4x1, .i1⟩
  | 90 => ⟨S_, .i1⟩
  | 91 => ⟨S4000000x4, .i1⟩
  | 92 => ⟨S4000000x4x8, .f32⟩
  | 93 => ⟨S4000000x4x8, .i1⟩
  | 94 => ⟨S_, .f32⟩
  | 95 => ⟨S4000000x4x8, .f32⟩
  | 96 => ⟨S4000000x4x8, .f32⟩
  | 97 => ⟨S4000000x32, .f32⟩
  | 98 => ⟨S4000000x1, .f32⟩
  | 99 => ⟨S4000000, .f32⟩
  | 100 => ⟨S4000000x1, .f32⟩
  | 101 => ⟨S4000000, .f32⟩
  | 102 => ⟨S_, .f32⟩
  | 103 => ⟨S4000000, .f32⟩
  | 104 => ⟨S4000000, .f32⟩
  | 105 => ⟨S_, .f32⟩
  | 106 => ⟨S4000000, .f32⟩
  | 107 => ⟨S4000000, .f32⟩
  | 108 => ⟨S_, .f32⟩
  | 109 => ⟨S4000000, .f32⟩
  | 110 => ⟨S4000000, .f32⟩
  | 111 => ⟨S_, .f32⟩
  | 112 => ⟨S4000000, .f32⟩
  | 113 => ⟨S4000000, .f32⟩
  | 114 => ⟨S_, .f32⟩
  | 115 => ⟨S_, .f32⟩
  | 116 => ⟨S_, .f32⟩
  | 117 => ⟨S4000000, .f32⟩
  | 118 => ⟨S4000000, .f32⟩
  | 119 => ⟨S_, .f32⟩
  | 120 => ⟨S4000000, .f32⟩
  | 121 => ⟨S4000000, .f32⟩
  | 122 => ⟨S_, .f32⟩
  | 123 => ⟨S4000000, .f32⟩
  | 124 => ⟨S4000000, .f32⟩
  | 125 => ⟨S_, .f32⟩
  | 126 => ⟨S4000000, .f32⟩
  | 127 => ⟨S4000000, .f32⟩
  | _ => ⟨S4000000x3, .f32⟩

abbrev hbmTy0_2 (i : Nat) : BufTy := match i % 128 with
  | 0 => ⟨S_, .f32⟩
  | 1 => ⟨S4000000, .f32⟩
  | 2 => ⟨S4000000, .f32⟩
  | 3 => ⟨S_, .f32⟩
  | 4 => ⟨S4000000, .f32⟩
  | 5 => ⟨S4000000, .f32⟩
  | 6 => ⟨S_, .f32⟩
  | 7 => ⟨S_, .f32⟩
  | 8 => ⟨S_, .f32⟩
  | 9 => ⟨S4000000, .f32⟩
  | 10 => ⟨S4000000, .f32⟩
  | 11 => ⟨S_, .f32⟩
  | 12 => ⟨S4000000, .f32⟩
  | 13 => ⟨S4000000, .f32⟩
  | 14 => ⟨S4000000, .f32⟩
  | 15 => ⟨S4000000, .i32⟩
  | 16 => ⟨S4000000, .f32⟩
  | 17 => ⟨S4000000, .i32⟩
  | 18 => ⟨S_, .i32⟩
  | 19 => ⟨S4000000, .i32⟩
  | 20 => ⟨S4000000, .i32⟩
  | 21 => ⟨S_, .i32⟩
  | 22 => ⟨S4000000, .i32⟩
  | 23 => ⟨S4000000, .i32⟩
  | 24 => ⟨S_, .i32⟩
  | 25 => ⟨S4000000, .i32⟩
  | 26 => ⟨S4000000, .i32⟩
  | 27 => ⟨S_, .i32⟩
  | 28 => ⟨S4000000, .i32⟩
  | 29 => ⟨S4000000, .i32⟩
  | 30 => ⟨S262144x8, .f32⟩
  | 31 => ⟨S_, .i32⟩
  | 32 => ⟨S4000000, .i32⟩
  | 33 => ⟨S4000000, .i32⟩
  | 34 => ⟨S4000000, .i32⟩
  | 35 => ⟨S_, .i32⟩
  | 36 => ⟨S4000000, .i32⟩
  | 37 => ⟨S4000000, .i32⟩
  | 38 => ⟨S4000000, .i32⟩
  | 39 => ⟨S_, .i32⟩
  | 40 => ⟨S4000000, .i32⟩
  | 41 => ⟨S4000000, .i32⟩
  | 42 => ⟨S4000000, .i32⟩
  | 43 => ⟨S_, .i32⟩
  | 44 => ⟨S4000000, .i32⟩
  | 45 => ⟨S4000000, .i32⟩
  | 46 => ⟨S4000000, .i32⟩
  | 47 => ⟨S4000000x1, .i32⟩
  | 48 => ⟨S4000000x1, .i32⟩
  | 49 => ⟨S4000000x1, .i32⟩
  | 50 => ⟨S4000000x1, .i32⟩
  | 51 => ⟨S4000000x4, .i32⟩
  | 52 => ⟨S_, .i32⟩
  | 53 => ⟨S4000000x4, .i32⟩
  | 54 => ⟨S4000000x4, .i1⟩
  | 55 => ⟨S_, .i32⟩
  | 56 => ⟨S4000000x4, .i32⟩
  | 57 => ⟨S4000000x4, .i32⟩
  | 58 => ⟨S4000000x4, .i32⟩
  | 59 => ⟨S4000000x4x1, .i32⟩
  | 60 => ⟨S1, .i32⟩
  | 61 => ⟨S_, .i32⟩
  | 62 => ⟨S4000000x4x1, .i32⟩
  | 63 => ⟨S4000000x4x1, .i1⟩
  | 64 => ⟨S1x1x1, .i32⟩
  | 65 => ⟨S4000000x4x1, .i32⟩
  | 66 => ⟨S4000000x4x1, .i1⟩
  | 67 => ⟨S4000000x4x1, .i1⟩
  | 68 => ⟨S_, .i1⟩
  | 69 => ⟨S4000000x4, .i1⟩
  | 70 => ⟨S4000000x4x8, .f32⟩
  | 71 => ⟨S4000000x4x8, .i1⟩
  | 72 => ⟨S_, .f32⟩
  | 73 => ⟨S4000000x4x8, .f32⟩
  | 74 => ⟨S4000000x4x8, .f32⟩
  | 75 => ⟨S4000000x32, .f32⟩
  | 76 => ⟨S24x8, .f32⟩
  | 77 => ⟨S4000000x8, .f32⟩
  | _ => ⟨S4000000x3, .f32⟩

abbrev hbmTy (i : Nat) : BufTy := match i / 128 with
  | 0 => hbmTy0_0 i
  | 1 => hbmTy0_1 i
  | 2 => hbmTy0_2 i
  | _ => ⟨S4000000x3, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x3, .f32⟩
  | .local _ .vmem, ⟨7, _⟩ => ⟨S5000x3, .f32⟩
  | .local _ .vmem, ⟨8, _⟩ => ⟨S24x8, .f32⟩
  | .local _ .vmem, ⟨9, _⟩ => ⟨S8, .f32⟩
  | .local _ .vmem, ⟨10, _⟩ => ⟨S5000x8, .f32⟩
  | .local _ .vmem, ⟨11, _⟩ => ⟨S5000x8, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v13 : Ref sig .tc := ⟨.hbm, 37, rfl⟩
abbrev main_cst_7 : Ref sig .tc := ⟨.hbm, 38, rfl⟩
abbrev main_v14 : Ref sig .tc := ⟨.hbm, 39, rfl⟩
abbrev main_v15 : Ref sig .tc := ⟨.hbm, 40, rfl⟩
abbrev main_cst_8 : Ref sig .tc := ⟨.hbm, 41, rfl⟩
abbrev main_v16 : Ref sig .tc := ⟨.hbm, 42, rfl⟩
abbrev main_v17 : Ref sig .tc := ⟨.hbm, 43, rfl⟩
abbrev main_cst_9 : Ref sig .tc := ⟨.hbm, 44, rfl⟩
abbrev main_v18 : Ref sig .tc := ⟨.hbm, 45, rfl⟩
abbrev main_v19 : Ref sig .tc := ⟨.hbm, 46, rfl⟩
abbrev main_cst_10 : Ref sig .tc := ⟨.hbm, 47, rfl⟩
abbrev main_v20 : Ref sig .tc := ⟨.hbm, 48, rfl⟩
abbrev main_v21 : Ref sig .tc := ⟨.hbm, 49, rfl⟩
abbrev main_cst_11 : Ref sig .tc := ⟨.hbm, 50, rfl⟩
abbrev main_cst_12 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c : Ref sig .tc := ⟨.hbm, 62, rfl⟩
abbrev main_v27 : Ref sig .tc := ⟨.hbm, 63, rfl⟩
abbrev main_v28 : Ref sig .tc := ⟨.hbm, 64, rfl⟩
abbrev main_c_13 : Ref sig .tc := ⟨.hbm, 65, rfl⟩
abbrev main_v29 : Ref sig .tc := ⟨.hbm, 66, rfl⟩
abbrev main_v30 : Ref sig .tc := ⟨.hbm, 67, rfl⟩
abbrev main_c_14 : Ref sig .tc := ⟨.hbm, 68, rfl⟩
abbrev main_v31 : Ref sig .tc := ⟨.hbm, 69, rfl⟩
abbrev main_v32 : Ref sig .tc := ⟨.hbm, 70, rfl⟩
abbrev main_c_15 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c_16 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_17 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_18 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_19 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_cst_20 : Ref sig .tc := ⟨.hbm, 124, rfl⟩
abbrev main_v59 : Ref sig .tc := ⟨.hbm, 125, rfl⟩
abbrev main_v60 : Ref sig .tc := ⟨.hbm, 126, rfl⟩
abbrev main_cst_21 : Ref sig .tc := ⟨.hbm, 127, rfl⟩
abbrev main_v61 : Ref sig .tc := ⟨.hbm, 128, rfl⟩
abbrev main_v62 : Ref sig .tc := ⟨.hbm, 129, rfl⟩
abbrev main_cst_22 : Ref sig .tc := ⟨.hbm, 130, rfl⟩
abbrev main_v63 : Ref sig .tc := ⟨.hbm, 131, rfl⟩
abbrev main_v64 : Ref sig .tc := ⟨.hbm, 132, rfl⟩
abbrev main_cst_23 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_cst_25 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_v67 : Ref sig .tc := ⟨.hbm, 143, rfl⟩
abbrev main_cst_26 : Ref sig .tc := ⟨.hbm, 144, rfl⟩
abbrev main_v68 : Ref sig .tc := ⟨.hbm, 145, rfl⟩
abbrev main_v69 : Ref sig .tc := ⟨.hbm, 146, rfl⟩
abbrev main_cst_27 : Ref sig .tc := ⟨.hbm, 147, rfl⟩
abbrev main_v70 : Ref sig .tc := ⟨.hbm, 148, rfl⟩
abbrev main_v71 : Ref sig .tc := ⟨.hbm, 149, rfl⟩
abbrev main_cst_28 : Ref sig .tc := ⟨.hbm, 150, rfl⟩
abbrev main_v72 : Ref sig .tc := ⟨.hbm, 151, rfl⟩
abbrev main_v73 : Ref sig .tc := ⟨.hbm, 152, rfl⟩
abbrev main_cst_29 : Ref sig .tc := ⟨.hbm, 153, rfl⟩
abbrev main_v74 : Ref sig .tc := ⟨.hbm, 154, rfl⟩
abbrev main_v75 : Ref sig .tc := ⟨.hbm, 155, rfl⟩
abbrev main_cst_30 : Ref sig .tc := ⟨.hbm, 156, rfl⟩
abbrev main_cst_31 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_c_32 : Ref sig .tc := ⟨.hbm, 168, rfl⟩
abbrev main_v81 : Ref sig .tc := ⟨.hbm, 169, rfl⟩
abbrev main_v82 : Ref sig .tc := ⟨.hbm, 170, rfl⟩
abbrev main_c_33 : Ref sig .tc := ⟨.hbm, 171, rfl⟩
abbrev main_v83 : Ref sig .tc := ⟨.hbm, 172, rfl⟩
abbrev main_v84 : Ref sig .tc := ⟨.hbm, 173, rfl⟩
abbrev main_c_34 : Ref sig .tc := ⟨.hbm, 174, rfl⟩
abbrev main_v85 : Ref sig .tc := ⟨.hbm, 175, rfl⟩
abbrev main_v86 : Ref sig .tc := ⟨.hbm, 176, rfl⟩
abbrev main_c_35 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_c_36 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_c_37 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_c_38 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_c_39 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_call6_c : Ref sig .tc := ⟨.hbm, 202, rfl⟩
abbrev main_call6_v0 : Ref sig .tc := ⟨.hbm, 203, rfl⟩
abbrev main_call6_v1 : Ref sig .tc := ⟨.hbm, 204, rfl⟩
abbrev main_call6_c_0 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_call6_v5 : Ref sig .tc := ⟨.hbm, 209, rfl⟩
abbrev main_call6_c_1 : Ref sig .tc := ⟨.hbm, 210, rfl⟩
abbrev main_call6_c_2 : Ref sig .tc := ⟨.hbm, 211, rfl⟩
abbrev main_call6_v6 : Ref sig .tc := ⟨.hbm, 212, rfl⟩
abbrev main_call6_v7 : Ref sig .tc := ⟨.hbm, 213, rfl⟩
abbrev main_call6_v8 : Ref sig .tc := ⟨.hbm, 214, rfl⟩
abbrev main_call6_v9 : Ref sig .tc := ⟨.hbm, 215, rfl⟩
abbrev main_call6_v10 : Ref sig .tc := ⟨.hbm, 216, rfl⟩
abbrev main_call6_v11 : Ref sig .tc := ⟨.hbm, 217, rfl⟩
abbrev main_call6_c_3 : Ref sig .tc := ⟨.hbm, 218, rfl⟩
abbrev main_call6_v12 : Ref sig .tc := ⟨.hbm, 219, rfl⟩
abbrev main_call6_v13 : Ref sig .tc := ⟨.hbm, 220, rfl⟩
abbrev main_call6_v14 : Ref sig .tc := ⟨.hbm, 221, rfl⟩
abbrev main_call6_cst : Ref sig .tc := ⟨.hbm, 222, rfl⟩
abbrev main_call6_v15 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_cst_40 : Ref sig .tc := ⟨.hbm, 230, rfl⟩
abbrev main_v113 : Ref sig .tc := ⟨.hbm, 231, rfl⟩
abbrev main_v114 : Ref sig .tc := ⟨.hbm, 232, rfl⟩
abbrev main_cst_41 : Ref sig .tc := ⟨.hbm, 233, rfl⟩
abbrev main_v115 : Ref sig .tc := ⟨.hbm, 234, rfl⟩
abbrev main_v116 : Ref sig .tc := ⟨.hbm, 235, rfl⟩
abbrev main_cst_42 : Ref sig .tc := ⟨.hbm, 236, rfl⟩
abbrev main_v117 : Ref sig .tc := ⟨.hbm, 237, rfl⟩
abbrev main_v118 : Ref sig .tc := ⟨.hbm, 238, rfl⟩
abbrev main_cst_43 : Ref sig .tc := ⟨.hbm, 239, rfl⟩
abbrev main_v119 : Ref sig .tc := ⟨.hbm, 240, rfl⟩
abbrev main_v120 : Ref sig .tc := ⟨.hbm, 241, rfl⟩
abbrev main_cst_44 : Ref sig .tc := ⟨.hbm, 242, rfl⟩
abbrev main_cst_45 : Ref sig .tc := ⟨.hbm, 243, rfl⟩
abbrev main_call7_v0 : Ref sig .tc := ⟨.hbm, 244, rfl⟩
abbrev main_call7_v1 : Ref sig .tc := ⟨.hbm, 245, rfl⟩
abbrev main_call7_v2 : Ref sig .tc := ⟨.hbm, 246, rfl⟩
abbrev main_call7_v3 : Ref sig .tc := ⟨.hbm, 247, rfl⟩
abbrev main_call7_v4 : Ref sig .tc := ⟨.hbm, 248, rfl⟩
abbrev main_v121 : Ref sig .tc := ⟨.hbm, 249, rfl⟩
abbrev main_cst_46 : Ref sig .tc := ⟨.hbm, 250, rfl⟩
abbrev main_v122 : Ref sig .tc := ⟨.hbm, 251, rfl⟩
abbrev main_v123 : Ref sig .tc := ⟨.hbm, 252, rfl⟩
abbrev main_cst_47 : Ref sig .tc := ⟨.hbm, 253, rfl⟩
abbrev main_v124 : Ref sig .tc := ⟨.hbm, 254, rfl⟩
abbrev main_v125 : Ref sig .tc := ⟨.hbm, 255, rfl⟩
abbrev main_cst_48 : Ref sig .tc := ⟨.hbm, 256, rfl⟩
abbrev main_v126 : Ref sig .tc := ⟨.hbm, 257, rfl⟩
abbrev main_v127 : Ref sig .tc := ⟨.hbm, 258, rfl⟩
abbrev main_cst_49 : Ref sig .tc := ⟨.hbm, 259, rfl⟩
abbrev main_v128 : Ref sig .tc := ⟨.hbm, 260, rfl⟩
abbrev main_v129 : Ref sig .tc := ⟨.hbm, 261, rfl⟩
abbrev main_cst_50 : Ref sig .tc := ⟨.hbm, 262, rfl⟩
abbrev main_cst_51 : Ref sig .tc := ⟨.hbm, 263, rfl⟩
abbrev main_call8_v0 : Ref sig .tc := ⟨.hbm, 264, rfl⟩
abbrev main_call8_v1 : Ref sig .tc := ⟨.hbm, 265, rfl⟩
abbrev main_call8_v2 : Ref sig .tc := ⟨.hbm, 266, rfl⟩
abbrev main_call8_v3 : Ref sig .tc := ⟨.hbm, 267, rfl⟩
abbrev main_call8_v4 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_v133 : Ref sig .tc := ⟨.hbm, 272, rfl⟩
abbrev main_v134 : Ref sig .tc := ⟨.hbm, 273, rfl⟩
abbrev main_c_52 : Ref sig .tc := ⟨.hbm, 274, rfl⟩
abbrev main_v135 : Ref sig .tc := ⟨.hbm, 275, rfl⟩
abbrev main_v136 : Ref sig .tc := ⟨.hbm, 276, rfl⟩
abbrev main_c_53 : Ref sig .tc := ⟨.hbm, 277, rfl⟩
abbrev main_v137 : Ref sig .tc := ⟨.hbm, 278, rfl⟩
abbrev main_v138 : Ref sig .tc := ⟨.hbm, 279, rfl⟩
abbrev main_c_54 : Ref sig .tc := ⟨.hbm, 280, rfl⟩
abbrev main_v139 : Ref sig .tc := ⟨.hbm, 281, rfl⟩
abbrev main_v140 : Ref sig .tc := ⟨.hbm, 282, rfl⟩
abbrev main_c_55 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_c_56 : Ref sig .tc := ⟨.hbm, 287, rfl⟩
abbrev main_v144 : Ref sig .tc := ⟨.hbm, 288, rfl⟩
abbrev main_v145 : Ref sig .tc := ⟨.hbm, 289, rfl⟩
abbrev main_v146 : Ref sig .tc := ⟨.hbm, 290, rfl⟩
abbrev main_c_57 : Ref sig .tc := ⟨.hbm, 291, rfl⟩
abbrev main_v147 : Ref sig .tc := ⟨.hbm, 292, rfl⟩
abbrev main_v148 : Ref sig .tc := ⟨.hbm, 293, rfl⟩
abbrev main_v149 : Ref sig .tc := ⟨.hbm, 294, rfl⟩
abbrev main_c_58 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_c_59 : Ref sig .tc := ⟨.hbm, 299, rfl⟩
abbrev main_v153 : Ref sig .tc := ⟨.hbm, 300, rfl⟩
abbrev main_v154 : Ref sig .tc := ⟨.hbm, 301, rfl⟩
abbrev main_v155 : Ref sig .tc := ⟨.hbm, 302, rfl⟩
abbrev main_v156 : Ref sig .tc := ⟨.hbm, 303, rfl⟩
abbrev main_v157 : Ref sig .tc := ⟨.hbm, 304, rfl⟩
abbrev main_v158 : Ref sig .tc := ⟨.hbm, 305, rfl⟩
abbrev main_v159 : Ref sig .tc := ⟨.hbm, 306, rfl⟩
abbrev main_v160 : Ref sig .tc := ⟨.hbm, 307, rfl⟩
abbrev main_call9_c : Ref sig .tc := ⟨.hbm, 308, rfl⟩
abbrev main_call9_v0 : Ref sig .tc := ⟨.hbm, 309, rfl⟩
abbrev main_call9_v1 : Ref sig .tc := ⟨.hbm, 310, rfl⟩
abbrev main_call9_c_0 : Ref sig .tc := ⟨.hbm, 311, rfl⟩
abbrev main_call9_v2 : Ref sig .tc := ⟨.hbm, 312, rfl⟩
abbrev main_call9_v3 : Ref sig .tc := ⟨.hbm, 313, rfl⟩
abbrev main_call9_v4 : Ref sig .tc := ⟨.hbm, 314, rfl⟩
abbrev main_call9_v5 : Ref sig .tc := ⟨.hbm, 315, rfl⟩
abbrev main_call9_c_1 : Ref sig .tc := ⟨.hbm, 316, rfl⟩
abbrev main_call9_c_2 : Ref sig .tc := ⟨.hbm, 317, rfl⟩
abbrev main_call9_v6 : Ref sig .tc := ⟨.hbm, 318, rfl⟩
abbrev main_call9_v7 : Ref sig .tc := ⟨.hbm, 319, rfl⟩
abbrev main_call9_v8 : Ref sig .tc := ⟨.hbm, 320, rfl⟩
abbrev main_call9_v9 : Ref sig .tc := ⟨.hbm, 321, rfl⟩
abbrev main_call9_v10 : Ref sig .tc := ⟨.hbm, 322, rfl⟩
abbrev main_call9_v11 : Ref sig .tc := ⟨.hbm, 323, rfl⟩
abbrev main_call9_c_3 : Ref sig .tc := ⟨.hbm, 324, rfl⟩
abbrev main_call9_v12 : Ref sig .tc := ⟨.hbm, 325, rfl⟩
abbrev main_call9_v13 : Ref sig .tc := ⟨.hbm, 326, rfl⟩
abbrev main_call9_v14 : Ref sig .tc := ⟨.hbm, 327, rfl⟩
abbrev main_call9_cst : Ref sig .tc := ⟨.hbm, 328, rfl⟩
abbrev main_call9_v15 : Ref sig .tc := ⟨.hbm, 329, rfl⟩
abbrev main_v161 : Ref sig .tc := ⟨.hbm, 330, rfl⟩
abbrev main_v162 : Ref sig .tc := ⟨.hbm, 331, rfl⟩
abbrev main_v163 : Ref sig .tc := ⟨.hbm, 332, rfl⟩
abbrev main_v164 : Ref sig .tc := ⟨.hbm, 333, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S24x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S4000000x3 : S_.BroadcastsInDim S4000000x3 (![] : Fin 0 → Fin S4000000x3.rank)
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  bcast_S_S4000000 : S_.BroadcastsInDim S4000000 (![] : Fin 0 → Fin S4000000.rank)
  shapeCasts_S512x512x8_S262144x8 : S512x512x8.ShapeCasts S262144x8
  bcast_S4000000_S4000000x1_0 : S4000000.BroadcastsInDim S4000000x1 (![0] : Fin 1 → Fin S4000000x1.rank)
  concatenates_S4000000x1_S4000000x1_S4000000x1_S4000000x1_S4000000x4_d1 : Shape.Concatenates [S4000000x1, S4000000x1, S4000000x1, S4000000x1] S4000000x4 1
  bcast_S_S4000000x4 : S_.BroadcastsInDim S4000000x4 (![] : Fin 0 → Fin S4000000x4.rank)
  bcast_S4000000x4_S4000000x4x1_0_1 : S4000000x4.BroadcastsInDim S4000000x4x1 (![0, 1] : Fin 2 → Fin S4000000x4x1.rank)
  bcast_S_S4000000x4x1 : S_.BroadcastsInDim S4000000x4x1 (![] : Fin 0 → Fin S4000000x4x1.rank)
  bcast_S1_S1x1x1_2 : S1.BroadcastsInDim S1x1x1 (![2] : Fin 1 → Fin S1x1x1.rank)
  bcast_S1x1x1_S4000000x4x1_0_1_2 : S1x1x1.BroadcastsInDim S4000000x4x1 (![0, 1, 2] : Fin 3 → Fin S4000000x4x1.rank)
  reducesTo_S4000000x4x1_S4000000x4_d2 : S4000000x4x1.ReducesTo [2] S4000000x4
  h_S_ : 0 < S_.numel
  bcast_S4000000x4_S4000000x4x8_0_1 : S4000000x4.BroadcastsInDim S4000000x4x8 (![0, 1] : Fin 2 → Fin S4000000x4x8.rank)
  bcast_S_S4000000x4x8 : S_.BroadcastsInDim S4000000x4x8 (![] : Fin 0 → Fin S4000000x4x8.rank)
  shapeCasts_S4000000x4x8_S4000000x32 : S4000000x4x8.ShapeCasts S4000000x32
  slices_S4000000x3_S4000000x1_0_2 : S4000000x3.Slices ![0, 2] S4000000x1
  transposes_S8x24_S24x8_1_0 : S8x24.Transposes [1, 0] S24x8
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  slices_S5000x3_o0_0_S5000x1 : S5000x3.Slices ![0, 0] S5000x1
  slices_S5000x3_o0_1_S5000x1 : S5000x3.Slices ![0, 1] S5000x1
  slices_S5000x3_o0_2_S5000x1 : S5000x3.Slices ![0, 2] S5000x1
  slices_S5000x32_o0_0_S5000x8 : S5000x32.Slices ![0, 0] S5000x8
  slices_S5000x32_o0_8_S5000x8 : S5000x32.Slices ![0, 8] S5000x8
  slices_S5000x32_o0_16_S5000x8 : S5000x32.Slices ![0, 16] S5000x8
  slices_S5000x32_o0_24_S5000x8 : S5000x32.Slices ![0, 24] S5000x8
  broadcasts_S5000x1_S5000x8 : S5000x1.Broadcasts S5000x8
  inb_S24x8_S24x8_0_0 : ∀ a, (![0, 0] : Fin 2 → Nat) a + S24x8.size a ≤ S24x8.size a
  h_S24x8 : 0 < S24x8.numel
  shapeCasts_S24x8_S24x8 : S24x8.ShapeCasts S24x8
  slices_S24x8_o0_0_S8x8 : S24x8.Slices ![0, 0] S8x8
  slices_S24x8_o8_0_S8x8 : S24x8.Slices ![8, 0] S8x8
  slices_S24x8_o16_0_S8x8 : S24x8.Slices ![16, 0] S8x8
  bitsLt_bf16_f32 : FTy.bits .bf16 < FTy.bits .f32
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  gather_S262144x8_S4000000x4x1_S4000000x4x8_2_0_n_n_0_2_18_wf : GatherDims.WF S262144x8 S4000000x4x1 S4000000x4x8 [2] [0] [] [0] [] 2 ![1, 8]
  dot_S5000x8_S8x8_S5000x8_1_0_0_1_n_n_wf : DotDims.WF S5000x8 S8x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S4000000x32.size a
  hwx0_0 : ∀ i : grid0.Coords, EltTy.bits .f32 = 32 ∨ (Rect.block (s := S4000000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S4000000x32.size a
  hwx0_1 : ∀ i : grid0.Coords, EltTy.bits .f32 = 32 ∨ (Rect.block (s := S4000000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S4000000x32.size a
  hwx0_2 : ∀ i : grid0.Coords, EltTy.bits .f32 = 32 ∨ (Rect.block (s := S4000000x32) S5000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x3.size a ≤ S4000000x3.size a
  hwx0_3 : ∀ i : grid0.Coords, EltTy.bits .f32 = 32 ∨ (Rect.block (s := S4000000x3) S5000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x8.size a ≤ S24x8.size a
  hwx0_4 : ∀ i : grid0.Coords, EltTy.bits .f32 = 32 ∨ (Rect.block (s := S24x8) S24x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x8.size a ≤ S4000000x8.size a
  hwx0_6 : ∀ i : grid0.Coords, EltTy.bits .f32 = 32 ∨ (Rect.block (s := S4000000x8) S5000x8.size (cc0_transform_6 i) (hinb0_6 i)).WholeWords (EltTy.packing .f32)

variable [Facts₀]

def gather_S262144x8_S4000000x4x1_S4000000x4x8_2_0_n_n_0_2_18 : GatherDims S262144x8 S4000000x4x1 S4000000x4x8 where
  offsetDims := [2]
  collapsedSliceDims := [0]
  operandBatchingDims := []
  startIndicesBatchingDims := []
  startIndexMap := [0]
  indexVectorDim := 2
  sliceSizes := ![1, 8]
  wf := gather_S262144x8_S4000000x4x1_S4000000x4x8_2_0_n_n_0_2_18_wf
def dot_S5000x8_S8x8_S5000x8_1_0_0_1_n_n : DotDims S5000x8 S8x8 S5000x8 where
  lhsContracting := [1]
  rhsContracting := [0]
  lhsNonContracting := [0]
  rhsNonContracting := [1]
  lhsBatch := []
  rhsBatch := []
  wf := dot_S5000x8_S8x8_S5000x8_1_0_0_1_n_n_wf

abbrev win0_0 : Pipeline.Window sig grid0 :=
  Pipeline.Window.ofSpec (Memref.whole main_v54) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v108) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v162) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v163) S24x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v164) S5000x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S512x512x8 : Shape := ⟨3, ![512, 512, 8]⟩
abbrev S8x24 : Shape := ⟨2, ![8, 24]⟩
abbrev S8 : Shape := ⟨1, ![8]⟩
abbrev S2 : Shape := ⟨1, ![2]⟩
abbrev S_ : Shape := ⟨0, ![]⟩
abbrev S4000000x2 : Shape := ⟨2, ![4000000, 2]⟩
abbrev S4000000x1 : Shape := ⟨2, ![4000000, 1]⟩
abbrev S4000000 : Shape := ⟨1, ![4000000]⟩
abbrev S4000000x8 : Shape := ⟨2, ![4000000, 8]⟩
abbrev S2x1 : Shape := ⟨2, ![2, 1]⟩
abbrev S4000000x24 : Shape := ⟨2, ![4000000, 24]⟩
abbrev S24x8 : Shape := ⟨2, ![24, 8]⟩
abbrev S1x8 : Shape := ⟨2, ![1, 8]⟩

abbrev nBuf : Space → Nat
  | .hbm => 484
  | .vmem => 0
  | .smem => 0
  | _ => 0

abbrev hbmTy0_0 (i : Nat) : BufTy := match i % 128 with
  | 0 => ⟨S4000000x3, .f32⟩
  | 1 => ⟨S512x512x8, .f32⟩
  | 2 => ⟨S512x512x8, .f32⟩
  | 3 => ⟨S512x512x8, .f32⟩
  | 4 => ⟨S8x24, .f32⟩
  | 5 => ⟨S8, .f32⟩
  | 6 => ⟨S2, .i32⟩
  | 7 => ⟨S_, .f32⟩
  | 8 => ⟨S_, .f32⟩
  | 9 => ⟨S_, .f32⟩
  | 10 => ⟨S4000000x3, .f32⟩
  | 11 => ⟨S4000000x3, .f32⟩
  | 12 => ⟨S_, .f32⟩
  | 13 => ⟨S4000000x3, .f32⟩
  | 14 => ⟨S4000000x3, .f32⟩
  | 15 => ⟨S4000000x2, .f32⟩
  | 16 => ⟨S4000000x1, .f32⟩
  | 17 => ⟨S4000000, .f32⟩
  | 18 => ⟨S_, .f32⟩
  | 19 => ⟨S4000000, .f32⟩
  | 20 => ⟨S4000000, .f32⟩
  | 21 => ⟨S_, .f32⟩
  | 22 => ⟨S4000000, .f32⟩
  | 23 => ⟨S4000000, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S_, .f32⟩
  | 31 => ⟨S_, .f32⟩
  | 32 => ⟨S_, .f32⟩
  | 33 => ⟨S4000000, .f32⟩
  | 34 => ⟨S4000000, .f32⟩
  | 35 => ⟨S_, .f32⟩
  | 36 => ⟨S4000000, .f32⟩
  | 37 => ⟨S4000000, .f32⟩
  | 38 => ⟨S4000000x1, .f32⟩
  | 39 => ⟨S4000000, .f32⟩
  | 40 => ⟨S_, .f32⟩
  | 41 => ⟨S4000000, .f32⟩
  | 42 => ⟨S4000000, .f32⟩
  | 43 => ⟨S_, .f32⟩
  | 44 => ⟨S4000000, .f32⟩
  | 45 => ⟨S4000000, .f32⟩
  | 46 => ⟨S_, .f32⟩
  | 47 => ⟨S4000000, .f32⟩
  | 48 => ⟨S4000000, .f32⟩
  | 49 => ⟨S_, .f32⟩
  | 50 => ⟨S4000000, .f32⟩
  | 51 => ⟨S4000000, .f32⟩
  | 52 => ⟨S_, .f32⟩
  | 53 => ⟨S_, .f32⟩
  | 54 => ⟨S_, .f32⟩
  | 55 => ⟨S4000000, .f32⟩
  | 56 => ⟨S4000000, .f32⟩
  | 57 => ⟨S_, .f32⟩
  | 58 => ⟨S4000000, .f32⟩
  | 59 => ⟨S4000000, .f32⟩
  | 60 => ⟨S4000000, .f32⟩
  | 61 => ⟨S4000000, .f32⟩
  | 62 => ⟨S4000000, .f32⟩
  | 63 => ⟨S4000000x1, .f32⟩
  | 64 => ⟨S4000000, .f32⟩
  | 65 => ⟨S4000000x1, .f32⟩
  | 66 => ⟨S4000000, .i32⟩
  | 67 => ⟨S4000000, .i32⟩
  | 68 => ⟨S_, .i32⟩
  | 69 => ⟨S4000000, .i32⟩
  | 70 => ⟨S4000000, .i32⟩
  | 71 => ⟨S_, .i32⟩
  | 72 => ⟨S4000000, .i32⟩
  | 73 => ⟨S4000000, .i32⟩
  | 74 => ⟨S_, .i32⟩
  | 75 => ⟨S4000000, .i32⟩
  | 76 => ⟨S4000000, .i32⟩
  | 77 => ⟨S_, .i32⟩
  | 78 => ⟨S4000000, .i32⟩
  | 79 => ⟨S4000000, .i32⟩
  | 80 => ⟨S_, .i32⟩
  | 81 => ⟨S4000000, .i32⟩
  | 82 => ⟨S4000000, .i1⟩
  | 83 => ⟨S_, .i32⟩
  | 84 => ⟨S4000000, .i32⟩
  | 85 => ⟨S4000000, .i32⟩
  | 86 => ⟨S4000000, .i32⟩
  | 87 => ⟨S_, .i32⟩
  | 88 => ⟨S4000000, .i32⟩
  | 89 => ⟨S4000000, .i1⟩
  | 90 => ⟨S_, .i32⟩
  | 91 => ⟨S4000000, .i32⟩
  | 92 => ⟨S4000000, .i32⟩
  | 93 => ⟨S4000000, .i32⟩
  | 94 => ⟨S4000000x1, .i32⟩
  | 95 => ⟨S4000000x1, .i32⟩
  | 96 => ⟨S4000000x2, .i32⟩
  | 97 => ⟨S4000000x8, .f32⟩
  | 98 => ⟨S_, .i32⟩
  | 99 => ⟨S4000000, .i32⟩
  | 100 => ⟨S4000000, .i1⟩
  | 101 => ⟨S_, .i32⟩
  | 102 => ⟨S4000000, .i32⟩
  | 103 => ⟨S4000000, .i32⟩
  | 104 => ⟨S4000000, .i32⟩
  | 105 => ⟨S_, .i32⟩
  | 106 => ⟨S4000000, .i32⟩
  | 107 => ⟨S4000000, .i1⟩
  | 108 => ⟨S_, .i32⟩
  | 109 => ⟨S4000000, .i32⟩
  | 110 => ⟨S4000000, .i32⟩
  | 111 => ⟨S4000000, .i32⟩
  | 112 => ⟨S4000000x1, .i32⟩
  | 113 => ⟨S4000000x1, .i32⟩
  | 114 => ⟨S4000000x2, .i32⟩
  | 115 => ⟨S4000000x8, .f32⟩
  | 116 => ⟨S_, .i32⟩
  | 117 => ⟨S4000000, .i32⟩
  | 118 => ⟨S4000000, .i1⟩
  | 119 => ⟨S_, .i32⟩
  | 120 => ⟨S4000000, .i32⟩
  | 121 => ⟨S4000000, .i32⟩
  | 122 => ⟨S4000000, .i32⟩
  | 123 => ⟨S_, .i32⟩
  | 124 => ⟨S4000000, .i32⟩
  | 125 => ⟨S4000000, .i1⟩
  | 126 => ⟨S_, .i32⟩
  | 127 => ⟨S4000000, .i32⟩
  | _ => ⟨S4000000x3, .f32⟩

abbrev hbmTy0_1 (i : Nat) : BufTy := match i % 128 with
  | 0 => ⟨S4000000, .i32⟩
  | 1 => ⟨S4000000, .i32⟩
  | 2 => ⟨S4000000x1, .i32⟩
  | 3 => ⟨S4000000x1, .i32⟩
  | 4 => ⟨S4000000x2, .i32⟩
  | 5 => ⟨S4000000x8, .f32⟩
  | 6 => ⟨S_, .i32⟩
  | 7 => ⟨S4000000, .i32⟩
  | 8 => ⟨S4000000, .i1⟩
  | 9 => ⟨S_, .i32⟩
  | 10 => ⟨S4000000, .i32⟩
  | 11 => ⟨S4000000, .i32⟩
  | 12 => ⟨S4000000, .i32⟩
  | 13 => ⟨S_, .i32⟩
  | 14 => ⟨S4000000, .i32⟩
  | 15 => ⟨S4000000, .i1⟩
  | 16 => ⟨S_, .i32⟩
  | 17 => ⟨S4000000, .i32⟩
  | 18 => ⟨S4000000, .i32⟩
  | 19 => ⟨S4000000, .i32⟩
  | 20 => ⟨S4000000x1, .i32⟩
  | 21 => ⟨S4000000x1, .i32⟩
  | 22 => ⟨S4000000x2, .i32⟩
  | 23 => ⟨S4000000x8, .f32⟩
  | 24 => ⟨S4000000x8, .f32⟩
  | 25 => ⟨S4000000x8, .f32⟩
  | 26 => ⟨S4000000x8, .f32⟩
  | 27 => ⟨S4000000x8, .f32⟩
  | 28 => ⟨S4000000x8, .f32⟩
  | 29 => ⟨S4000000x8, .f32⟩
  | 30 => ⟨S4000000x8, .f32⟩
  | 31 => ⟨S4000000x8, .f32⟩
  | 32 => ⟨S4000000x8, .f32⟩
  | 33 => ⟨S4000000x8, .f32⟩
  | 34 => ⟨S4000000x8, .f32⟩
  | 35 => ⟨S4000000x8, .f32⟩
  | 36 => ⟨S_, .i32⟩
  | 37 => ⟨S2, .i32⟩
  | 38 => ⟨S2, .i1⟩
  | 39 => ⟨S_, .i32⟩
  | 40 => ⟨S2, .i32⟩
  | 41 => ⟨S2, .i32⟩
  | 42 => ⟨S2, .i32⟩
  | 43 => ⟨S2x1, .i32⟩
  | 44 => ⟨S4000000x2, .f32⟩
  | 45 => ⟨S4000000x1, .f32⟩
  | 46 => ⟨S4000000, .f32⟩
  | 47 => ⟨S_, .f32⟩
  | 48 => ⟨S4000000, .f32⟩
  | 49 => ⟨S4000000, .f32⟩
  | 50 => ⟨S_, .f32⟩
  | 51 => ⟨S4000000, .f32⟩
  | 52 => ⟨S4000000, .f32⟩
  | 53 => ⟨S_, .f32⟩
  | 54 => ⟨S4000000, .f32⟩
  | 55 => ⟨S4000000, .f32⟩
  | 56 => ⟨S_, .f32⟩
  | 57 => ⟨S4000000, .f32⟩
  | 58 => ⟨S4000000, .f32⟩
  | 59 => ⟨S_, .f32⟩
  | 60 => ⟨S_, .f32⟩
  | 61 => ⟨S_, .f32⟩
  | 62 => ⟨S4000000, .f32⟩
  | 63 => ⟨S4000000, .f32⟩
  | 64 => ⟨S_, .f32⟩
  | 65 => ⟨S4000000, .f32⟩
  | 66 => ⟨S4000000, .f32⟩
  | 67 => ⟨S4000000x1, .f32⟩
  | 68 => ⟨S4000000, .f32⟩
  | 69 => ⟨S_, .f32⟩
  | 70 => ⟨S4000000, .f32⟩
  | 71 => ⟨S4000000, .f32⟩
  | 72 => ⟨S_, .f32⟩
  | 73 => ⟨S4000000, .f32⟩
  | 74 => ⟨S4000000, .f32⟩
  | 75 => ⟨S_, .f32⟩
  | 76 => ⟨S4000000, .f32⟩
  | 77 => ⟨S4000000, .f32⟩
  | 78 => ⟨S_, .f32⟩
  | 79 => ⟨S4000000, .f32⟩
  | 80 => ⟨S4000000, .f32⟩
  | 81 => ⟨S_, .f32⟩
  | 82 => ⟨S_, .f32⟩
  | 83 => ⟨S_, .f32⟩
  | 84 => ⟨S4000000, .f32⟩
  | 85 => ⟨S4000000, .f32⟩
  | 86 => ⟨S_, .f32⟩
  | 87 => ⟨S4000000, .f32⟩
  | 88 => ⟨S4000000, .f32⟩
  | 89 => ⟨S4000000, .f32⟩
  | 90 => ⟨S4000000, .f32⟩
  | 91 => ⟨S4000000, .f32⟩
  | 92 => ⟨S4000000x1, .f32⟩
  | 93 => ⟨S4000000, .f32⟩
  | 94 => ⟨S4000000x1, .f32⟩
  | 95 => ⟨S4000000, .i32⟩
  | 96 => ⟨S4000000, .i32⟩
  | 97 => ⟨S_, .i32⟩
  | 98 => ⟨S4000000, .i32⟩
  | 99 => ⟨S4000000, .i32⟩
  | 100 => ⟨S_, .i32⟩
  | 101 => ⟨S4000000, .i32⟩
  | 102 => ⟨S4000000, .i32⟩
  | 103 => ⟨S_, .i32⟩
  | 104 => ⟨S4000000, .i32⟩
  | 105 => ⟨S4000000, .i32⟩
  | 106 => ⟨S_, .i32⟩
  | 107 => ⟨S4000000, .i32⟩
  | 108 => ⟨S4000000, .i32⟩
  | 109 => ⟨S_, .i32⟩
  | 110 => ⟨S4000000, .i32⟩
  | 111 => ⟨S4000000, .i1⟩
  | 112 => ⟨S_, .i32⟩
  | 113 => ⟨S4000000, .i32⟩
  | 114 => ⟨S4000000, .i32⟩
  | 115 => ⟨S4000000, .i32⟩
  | 116 => ⟨S_, .i32⟩
  | 117 => ⟨S4000000, .i32⟩
  | 118 => ⟨S4000000, .i1⟩
  | 119 => ⟨S_, .i32⟩
  | 120 => ⟨S4000000, .i32⟩
  | 121 => ⟨S4000000, .i32⟩
  | 122 => ⟨S4000000, .i32⟩
  | 123 => ⟨S4000000x1, .i32⟩
  | 124 => ⟨S4000000x1, .i32⟩
  | 125 => ⟨S4000000x2, .i32⟩
  | 126 => ⟨S4000000x8, .f32⟩
  | 127 => ⟨S_, .i32⟩
  | _ => ⟨S4000000x3, .f32⟩

abbrev hbmTy0_2 (i : Nat) : BufTy := match i % 128 with
  | 0 => ⟨S4000000, .i32⟩
  | 1 => ⟨S4000000, .i1⟩
  | 2 => ⟨S_, .i32⟩
  | 3 => ⟨S4000000, .i32⟩
  | 4 => ⟨S4000000, .i32⟩
  | 5 => ⟨S4000000, .i32⟩
  | 6 => ⟨S_, .i32⟩
  | 7 => ⟨S4000000, .i32⟩
  | 8 => ⟨S4000000, .i1⟩
  | 9 => ⟨S_, .i32⟩
  | 10 => ⟨S4000000, .i32⟩
  | 11 => ⟨S4000000, .i32⟩
  | 12 => ⟨S4000000, .i32⟩
  | 13 => ⟨S4000000x1, .i32⟩
  | 14 => ⟨S4000000x1, .i32⟩
  | 15 => ⟨S4000000x2, .i32⟩
  | 16 => ⟨S4000000x8, .f32⟩
  | 17 => ⟨S_, .i32⟩
  | 18 => ⟨S4000000, .i32⟩
  | 19 => ⟨S4000000, .i1⟩
  | 20 => ⟨S_, .i32⟩
  | 21 => ⟨S4000000, .i32⟩
  | 22 => ⟨S4000000, .i32⟩
  | 23 => ⟨S4000000, .i32⟩
  | 24 => ⟨S_, .i32⟩
  | 25 => ⟨S4000000, .i32⟩
  | 26 => ⟨S4000000, .i1⟩
  | 27 => ⟨S_, .i32⟩
  | 28 => ⟨S4000000, .i32⟩
  | 29 => ⟨S4000000, .i32⟩
  | 30 => ⟨S4000000, .i32⟩
  | 31 => ⟨S4000000x1, .i32⟩
  | 32 => ⟨S4000000x1, .i32⟩
  | 33 => ⟨S4000000x2, .i32⟩
  | 34 => ⟨S4000000x8, .f32⟩
  | 35 => ⟨S_, .i32⟩
  | 36 => ⟨S4000000, .i32⟩
  | 37 => ⟨S4000000, .i1⟩
  | 38 => ⟨S_, .i32⟩
  | 39 => ⟨S4000000, .i32⟩
  | 40 => ⟨S4000000, .i32⟩
  | 41 => ⟨S4000000, .i32⟩
  | 42 => ⟨S_, .i32⟩
  | 43 => ⟨S4000000, .i32⟩
  | 44 => ⟨S4000000, .i1⟩
  | 45 => ⟨S_, .i32⟩
  | 46 => ⟨S4000000, .i32⟩
  | 47 => ⟨S4000000, .i32⟩
  | 48 => ⟨S4000000, .i32⟩
  | 49 => ⟨S4000000x1, .i32⟩
  | 50 => ⟨S4000000x1, .i32⟩
  | 51 => ⟨S4000000x2, .i32⟩
  | 52 => ⟨S4000000x8, .f32⟩
  | 53 => ⟨S4000000x8, .f32⟩
  | 54 => ⟨S4000000x8, .f32⟩
  | 55 => ⟨S4000000x8, .f32⟩
  | 56 => ⟨S4000000x8, .f32⟩
  | 57 => ⟨S4000000x8, .f32⟩
  | 58 => ⟨S4000000x8, .f32⟩
  | 59 => ⟨S4000000x8, .f32⟩
  | 60 => ⟨S4000000x8, .f32⟩
  | 61 => ⟨S4000000x8, .f32⟩
  | 62 => ⟨S4000000x8, .f32⟩
  | 63 => ⟨S4000000x8, .f32⟩
  | 64 => ⟨S4000000x8, .f32⟩
  | 65 => ⟨S4000000x2, .f32⟩
  | 66 => ⟨S4000000x1, .f32⟩
  | 67 => ⟨S4000000, .f32⟩
  | 68 => ⟨S_, .f32⟩
  | 69 => ⟨S4000000, .f32⟩
  | 70 => ⟨S4000000, .f32⟩
  | 71 => ⟨S_, .f32⟩
  | 72 => ⟨S4000000, .f32⟩
  | 73 => ⟨S4000000, .f32⟩
  | 74 => ⟨S_, .f32⟩
  | 75 => ⟨S4000000, .f32⟩
  | 76 => ⟨S4000000, .f32⟩
  | 77 => ⟨S_, .f32⟩
  | 78 => ⟨S4000000, .f32⟩
  | 79 => ⟨S4000000, .f32⟩
  | 80 => ⟨S_, .f32⟩
  | 81 => ⟨S_, .f32⟩
  | 82 => ⟨S_, .f32⟩
  | 83 => ⟨S4000000, .f32⟩
  | 84 => ⟨S4000000, .f32⟩
  | 85 => ⟨S_, .f32⟩
  | 86 => ⟨S4000000, .f32⟩
  | 87 => ⟨S4000000, .f32⟩
  | 88 => ⟨S4000000x1, .f32⟩
  | 89 => ⟨S4000000, .f32⟩
  | 90 => ⟨S_, .f32⟩
  | 91 => ⟨S4000000, .f32⟩
  | 92 => ⟨S4000000, .f32⟩
  | 93 => ⟨S_, .f32⟩
  | 94 => ⟨S4000000, .f32⟩
  | 95 => ⟨S4000000, .f32⟩
  | 96 => ⟨S_, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S_, .f32⟩
  | 103 => ⟨S_, .f32⟩
  | 104 => ⟨S_, .f32⟩
  | 105 => ⟨S4000000, .f32⟩
  | 106 => ⟨S4000000, .f32⟩
  | 107 => ⟨S_, .f32⟩
  | 108 => ⟨S4000000, .f32⟩
  | 109 => ⟨S4000000, .f32⟩
  | 110 => ⟨S4000000, .f32⟩
  | 111 => ⟨S4000000, .f32⟩
  | 112 => ⟨S4000000, .f32⟩
  | 113 => ⟨S4000000x1, .f32⟩
  | 114 => ⟨S4000000, .f32⟩
  | 115 => ⟨S4000000x1, .f32⟩
  | 116 => ⟨S4000000, .i32⟩
  | 117 => ⟨S4000000, .i32⟩
  | 118 => ⟨S_, .i32⟩
  | 119 => ⟨S4000000, .i32⟩
  | 120 => ⟨S4000000, .i32⟩
  | 121 => ⟨S_, .i32⟩
  | 122 => ⟨S4000000, .i32⟩
  | 123 => ⟨S4000000, .i32⟩
  | 124 => ⟨S_, .i32⟩
  | 125 => ⟨S4000000, .i32⟩
  | 126 => ⟨S4000000, .i32⟩
  | 127 => ⟨S_, .i32⟩
  | _ => ⟨S4000000x3, .f32⟩

abbrev hbmTy0_3 (i : Nat) : BufTy := match i % 128 with
  | 0 => ⟨S4000000, .i32⟩
  | 1 => ⟨S4000000, .i32⟩
  | 2 => ⟨S_, .i32⟩
  | 3 => ⟨S4000000, .i32⟩
  | 4 => ⟨S4000000, .i1⟩
  | 5 => ⟨S_, .i32⟩
  | 6 => ⟨S4000000, .i32⟩
  | 7 => ⟨S4000000, .i32⟩
  | 8 => ⟨S4000000, .i32⟩
  | 9 => ⟨S_, .i32⟩
  | 10 => ⟨S4000000, .i32⟩
  | 11 => ⟨S4000000, .i1⟩
  | 12 => ⟨S_, .i32⟩
  | 13 => ⟨S4000000, .i32⟩
  | 14 => ⟨S4000000, .i32⟩
  | 15 => ⟨S4000000, .i32⟩
  | 16 => ⟨S4000000x1, .i32⟩
  | 17 => ⟨S4000000x1, .i32⟩
  | 18 => ⟨S4000000x2, .i32⟩
  | 19 => ⟨S4000000x8, .f32⟩
  | 20 => ⟨S_, .i32⟩
  | 21 => ⟨S4000000, .i32⟩
  | 22 => ⟨S4000000, .i1⟩
  | 23 => ⟨S_, .i32⟩
  | 24 => ⟨S4000000, .i32⟩
  | 25 => ⟨S4000000, .i32⟩
  | 26 => ⟨S4000000, .i32⟩
  | 27 => ⟨S_, .i32⟩
  | 28 => ⟨S4000000, .i32⟩
  | 29 => ⟨S4000000, .i1⟩
  | 30 => ⟨S_, .i32⟩
  | 31 => ⟨S4000000, .i32⟩
  | 32 => ⟨S4000000, .i32⟩
  | 33 => ⟨S4000000, .i32⟩
  | 34 => ⟨S4000000x1, .i32⟩
  | 35 => ⟨S4000000x1, .i32⟩
  | 36 => ⟨S4000000x2, .i32⟩
  | 37 => ⟨S4000000x8, .f32⟩
  | 38 => ⟨S_, .i32⟩
  | 39 => ⟨S4000000, .i32⟩
  | 40 => ⟨S4000000, .i1⟩
  | 41 => ⟨S_, .i32⟩
  | 42 => ⟨S4000000, .i32⟩
  | 43 => ⟨S4000000, .i32⟩
  | 44 => ⟨S4000000, .i32⟩
  | 45 => ⟨S_, .i32⟩
  | 46 => ⟨S4000000, .i32⟩
  | 47 => ⟨S4000000, .i1⟩
  | 48 => ⟨S_, .i32⟩
  | 49 => ⟨S4000000, .i32⟩
  | 50 => ⟨S4000000, .i32⟩
  | 51 => ⟨S4000000, .i32⟩
  | 52 => ⟨S4000000x1, .i32⟩
  | 53 => ⟨S4000000x1, .i32⟩
  | 54 => ⟨S4000000x2, .i32⟩
  | 55 => ⟨S4000000x8, .f32⟩
  | 56 => ⟨S_, .i32⟩
  | 57 => ⟨S4000000, .i32⟩
  | 58 => ⟨S4000000, .i1⟩
  | 59 => ⟨S_, .i32⟩
  | 60 => ⟨S4000000, .i32⟩
  | 61 => ⟨S4000000, .i32⟩
  | 62 => ⟨S4000000, .i32⟩
  | 63 => ⟨S_, .i32⟩
  | 64 => ⟨S4000000, .i32⟩
  | 65 => ⟨S4000000, .i1⟩
  | 66 => ⟨S_, .i32⟩
  | 67 => ⟨S4000000, .i32⟩
  | 68 => ⟨S4000000, .i32⟩
  | 69 => ⟨S4000000, .i32⟩
  | 70 => ⟨S4000000x1, .i32⟩
  | 71 => ⟨S4000000x1, .i32⟩
  | 72 => ⟨S4000000x2, .i32⟩
  | 73 => ⟨S4000000x8, .f32⟩
  | 74 => ⟨S4000000x8, .f32⟩
  | 75 => ⟨S4000000x8, .f32⟩
  | 76 => ⟨S4000000x8, .f32⟩
  | 77 => ⟨S4000000x8, .f32⟩
  | 78 => ⟨S4000000x8, .f32⟩
  | 79 => ⟨S4000000x8, .f32⟩
  | 80 => ⟨S4000000x8, .f32⟩
  | 81 => ⟨S4000000x8, .f32⟩
  | 82 => ⟨S4000000x8, .f32⟩
  | 83 => ⟨S4000000x8, .f32⟩
  | 84 => ⟨S4000000x8, .f32⟩
  | 85 => ⟨S4000000x8, .f32⟩
  | 86 => ⟨S4000000x24, .f32⟩
  | 87 => ⟨S24x8, .f32⟩
  | 88 => ⟨S4000000x8, .f32⟩
  | 89 => ⟨S1x8, .f32⟩
  | 90 => ⟨S4000000x8, .f32⟩
  | 91 => ⟨S4000000x8, .f32⟩
  | 92 => ⟨S_, .f32⟩
  | 93 => ⟨S_, .f32⟩
  | 94 => ⟨S_, .f32⟩
  | 95 => ⟨S4000000x8, .f32⟩
  | 96 => ⟨S4000000x8, .f32⟩
  | 97 => ⟨S_, .f32⟩
  | 98 => ⟨S4000000x8, .f32⟩
  | 99 => ⟨S4000000x8, .f32⟩
  | _ => ⟨S4000000x3, .f32⟩

abbrev hbmTy (i : Nat) : BufTy := match i / 128 with
  | 0 => hbmTy0_0 i
  | 1 => hbmTy0_1 i
  | 2 => hbmTy0_2 i
  | 3 => hbmTy0_3 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_cst_5 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_7 : Ref sig .tc := ⟨.hbm, 40, rfl⟩
abbrev main_v15 : Ref sig .tc := ⟨.hbm, 41, rfl⟩
abbrev main_v16 : Ref sig .tc := ⟨.hbm, 42, rfl⟩
abbrev main_cst_8 : Ref sig .tc := ⟨.hbm, 43, rfl⟩
abbrev main_v17 : Ref sig .tc := ⟨.hbm, 44, rfl⟩
abbrev main_v18 : Ref sig .tc := ⟨.hbm, 45, rfl⟩
abbrev main_cst_9 : Ref sig .tc := ⟨.hbm, 46, rfl⟩
abbrev main_v19 : Ref sig .tc := ⟨.hbm, 47, rfl⟩
abbrev main_v20 : Ref sig .tc := ⟨.hbm, 48, rfl⟩
abbrev main_cst_10 : Ref sig .tc := ⟨.hbm, 49, rfl⟩
abbrev main_v21 : Ref sig .tc := ⟨.hbm, 50, rfl⟩
abbrev main_v22 : Ref sig .tc := ⟨.hbm, 51, rfl⟩
abbrev main_cst_11 : Ref sig .tc := ⟨.hbm, 52, rfl⟩
abbrev main_cst_12 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_13 : Ref sig .tc := ⟨.hbm, 68, rfl⟩
abbrev main_v32 : Ref sig .tc := ⟨.hbm, 69, rfl⟩
abbrev main_v33 : Ref sig .tc := ⟨.hbm, 70, rfl⟩
abbrev main_c_14 : Ref sig .tc := ⟨.hbm, 71, rfl⟩
abbrev main_v34 : Ref sig .tc := ⟨.hbm, 72, rfl⟩
abbrev main_v35 : Ref sig .tc := ⟨.hbm, 73, rfl⟩
abbrev main_c_15 : Ref sig .tc := ⟨.hbm, 74, rfl⟩
abbrev main_v36 : Ref sig .tc := ⟨.hbm, 75, rfl⟩
abbrev main_v37 : Ref sig .tc := ⟨.hbm, 76, rfl⟩
abbrev main_c_16 : Ref sig .tc := ⟨.hbm, 77, rfl⟩
abbrev main_v38 : Ref sig .tc := ⟨.hbm, 78, rfl⟩
abbrev main_v39 : Ref sig .tc := ⟨.hbm, 79, rfl⟩
abbrev main_c_17 : Ref sig .tc := ⟨.hbm, 80, rfl⟩
abbrev main_v40 : Ref sig .tc := ⟨.hbm, 81, rfl⟩
abbrev main_v41 : Ref sig .tc := ⟨.hbm, 82, rfl⟩
abbrev main_c_18 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_19 : Ref sig .tc := ⟨.hbm, 87, rfl⟩
abbrev main_v45 : Ref sig .tc := ⟨.hbm, 88, rfl⟩
abbrev main_v46 : Ref sig .tc := ⟨.hbm, 89, rfl⟩
abbrev main_c_20 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_21 : Ref sig .tc := ⟨.hbm, 98, rfl⟩
abbrev main_v54 : Ref sig .tc := ⟨.hbm, 99, rfl⟩
abbrev main_v55 : Ref sig .tc := ⟨.hbm, 100, rfl⟩
abbrev main_c_22 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_23 : Ref sig .tc := ⟨.hbm, 105, rfl⟩
abbrev main_v59 : Ref sig .tc := ⟨.hbm, 106, rfl⟩
abbrev main_v60 : Ref sig .tc := ⟨.hbm, 107, rfl⟩
abbrev main_c_24 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_c_25 : Ref sig .tc := ⟨.hbm, 116, rfl⟩
abbrev main_v68 : Ref sig .tc := ⟨.hbm, 117, rfl⟩
abbrev main_v69 : Ref sig .tc := ⟨.hbm, 118, rfl⟩
abbrev main_c_26 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_c_27 : Ref sig .tc := ⟨.hbm, 123, rfl⟩
abbrev main_v73 : Ref sig .tc := ⟨.hbm, 124, rfl⟩
abbrev main_v74 : Ref sig .tc := ⟨.hbm, 125, rfl⟩
abbrev main_c_28 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_29 : Ref sig .tc := ⟨.hbm, 134, rfl⟩
abbrev main_v82 : Ref sig .tc := ⟨.hbm, 135, rfl⟩
abbrev main_v83 : Ref sig .tc := ⟨.hbm, 136, rfl⟩
abbrev main_c_30 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_c_31 : Ref sig .tc := ⟨.hbm, 141, rfl⟩
abbrev main_v87 : Ref sig .tc := ⟨.hbm, 142, rfl⟩
abbrev main_v88 : Ref sig .tc := ⟨.hbm, 143, rfl⟩
abbrev main_c_32 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_c_33 : Ref sig .tc := ⟨.hbm, 164, rfl⟩
abbrev main_v108 : Ref sig .tc := ⟨.hbm, 165, rfl⟩
abbrev main_v109 : Ref sig .tc := ⟨.hbm, 166, rfl⟩
abbrev main_c_34 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_35 : Ref sig .tc := ⟨.hbm, 175, rfl⟩
abbrev main_v117 : Ref sig .tc := ⟨.hbm, 176, rfl⟩
abbrev main_v118 : Ref sig .tc := ⟨.hbm, 177, rfl⟩
abbrev main_cst_36 : Ref sig .tc := ⟨.hbm, 178, rfl⟩
abbrev main_v119 : Ref sig .tc := ⟨.hbm, 179, rfl⟩
abbrev main_v120 : Ref sig .tc := ⟨.hbm, 180, rfl⟩
abbrev main_cst_37 : Ref sig .tc := ⟨.hbm, 181, rfl⟩
abbrev main_v121 : Ref sig .tc := ⟨.hbm, 182, rfl⟩
abbrev main_v122 : Ref sig .tc := ⟨.hbm, 183, rfl⟩
abbrev main_cst_38 : Ref sig .tc := ⟨.hbm, 184, rfl⟩
abbrev main_v123 : Ref sig .tc := ⟨.hbm, 185, rfl⟩
abbrev main_v124 : Ref sig .tc := ⟨.hbm, 186, rfl⟩
abbrev main_cst_39 : Ref sig .tc := ⟨.hbm, 187, rfl⟩
abbrev main_cst_40 : Ref sig .tc := ⟨.hbm, 188, rfl⟩
abbrev main_call3_v0 : Ref sig .tc := ⟨.hbm, 189, rfl⟩
abbrev main_call3_v1 : Ref sig .tc := ⟨.hbm, 190, rfl⟩
abbrev main_call3_v2 : Ref sig .tc := ⟨.hbm, 191, rfl⟩
abbrev main_call3_v3 : Ref sig .tc := ⟨.hbm, 192, rfl⟩
abbrev main_call3_v4 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_cst_41 : Ref sig .tc := ⟨.hbm, 197, rfl⟩
abbrev main_v128 : Ref sig .tc := ⟨.hbm, 198, rfl⟩
abbrev main_v129 : Ref sig .tc := ⟨.hbm, 199, rfl⟩
abbrev main_cst_42 : Ref sig .tc := ⟨.hbm, 200, rfl⟩
abbrev main_v130 : Ref sig .tc := ⟨.hbm, 201, rfl⟩
abbrev main_v131 : Ref sig .tc := ⟨.hbm, 202, rfl⟩
abbrev main_cst_43 : Ref sig .tc := ⟨.hbm, 203, rfl⟩
abbrev main_v132 : Ref sig .tc := ⟨.hbm, 204, rfl⟩
abbrev main_v133 : Ref sig .tc := ⟨.hbm, 205, rfl⟩
abbrev main_cst_44 : Ref sig .tc := ⟨.hbm, 206, rfl⟩
abbrev main_v134 : Ref sig .tc := ⟨.hbm, 207, rfl⟩
abbrev main_v135 : Ref sig .tc := ⟨.hbm, 208, rfl⟩
abbrev main_cst_45 : Ref sig .tc := ⟨.hbm, 209, rfl⟩
abbrev main_cst_46 : Ref sig .tc := ⟨.hbm, 210, rfl⟩
abbrev main_call4_v0 : Ref sig .tc := ⟨.hbm, 211, rfl⟩
abbrev main_call4_v1 : Ref sig .tc := ⟨.hbm, 212, rfl⟩
abbrev main_call4_v2 : Ref sig .tc := ⟨.hbm, 213, rfl⟩
abbrev main_call4_v3 : Ref sig .tc := ⟨.hbm, 214, rfl⟩
abbrev main_call4_v4 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_c_47 : Ref sig .tc := ⟨.hbm, 225, rfl⟩
abbrev main_v145 : Ref sig .tc := ⟨.hbm, 226, rfl⟩
abbrev main_v146 : Ref sig .tc := ⟨.hbm, 227, rfl⟩
abbrev main_c_48 : Ref sig .tc := ⟨.hbm, 228, rfl⟩
abbrev main_v147 : Ref sig .tc := ⟨.hbm, 229, rfl⟩
abbrev main_v148 : Ref sig .tc := ⟨.hbm, 230, rfl⟩
abbrev main_c_49 : Ref sig .tc := ⟨.hbm, 231, rfl⟩
abbrev main_v149 : Ref sig .tc := ⟨.hbm, 232, rfl⟩
abbrev main_v150 : Ref sig .tc := ⟨.hbm, 233, rfl⟩
abbrev main_c_50 : Ref sig .tc := ⟨.hbm, 234, rfl⟩
abbrev main_v151 : Ref sig .tc := ⟨.hbm, 235, rfl⟩
abbrev main_v152 : Ref sig .tc := ⟨.hbm, 236, rfl⟩
abbrev main_c_51 : Ref sig .tc := ⟨.hbm, 237, rfl⟩
abbrev main_v153 : Ref sig .tc := ⟨.hbm, 238, rfl⟩
abbrev main_v154 : Ref sig .tc := ⟨.hbm, 239, rfl⟩
abbrev main_c_52 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_c_53 : Ref sig .tc := ⟨.hbm, 244, rfl⟩
abbrev main_v158 : Ref sig .tc := ⟨.hbm, 245, rfl⟩
abbrev main_v159 : Ref sig .tc := ⟨.hbm, 246, rfl⟩
abbrev main_c_54 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_c_55 : Ref sig .tc := ⟨.hbm, 255, rfl⟩
abbrev main_v167 : Ref sig .tc := ⟨.hbm, 256, rfl⟩
abbrev main_v168 : Ref sig .tc := ⟨.hbm, 257, rfl⟩
abbrev main_c_56 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_c_57 : Ref sig .tc := ⟨.hbm, 262, rfl⟩
abbrev main_v172 : Ref sig .tc := ⟨.hbm, 263, rfl⟩
abbrev main_v173 : Ref sig .tc := ⟨.hbm, 264, rfl⟩
abbrev main_c_58 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_c_59 : Ref sig .tc := ⟨.hbm, 273, rfl⟩
abbrev main_v181 : Ref sig .tc := ⟨.hbm, 274, rfl⟩
abbrev main_v182 : Ref sig .tc := ⟨.hbm, 275, rfl⟩
abbrev main_c_60 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_c_61 : Ref sig .tc := ⟨.hbm, 280, rfl⟩
abbrev main_v186 : Ref sig .tc := ⟨.hbm, 281, rfl⟩
abbrev main_v187 : Ref sig .tc := ⟨.hbm, 282, rfl⟩
abbrev main_c_62 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_c_63 : Ref sig .tc := ⟨.hbm, 291, rfl⟩
abbrev main_v195 : Ref sig .tc := ⟨.hbm, 292, rfl⟩
abbrev main_v196 : Ref sig .tc := ⟨.hbm, 293, rfl⟩
abbrev main_c_64 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_c_65 : Ref sig .tc := ⟨.hbm, 298, rfl⟩
abbrev main_v200 : Ref sig .tc := ⟨.hbm, 299, rfl⟩
abbrev main_v201 : Ref sig .tc := ⟨.hbm, 300, rfl⟩
abbrev main_c_66 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_cst_67 : Ref sig .tc := ⟨.hbm, 324, rfl⟩
abbrev main_v224 : Ref sig .tc := ⟨.hbm, 325, rfl⟩
abbrev main_v225 : Ref sig .tc := ⟨.hbm, 326, rfl⟩
abbrev main_cst_68 : Ref sig .tc := ⟨.hbm, 327, rfl⟩
abbrev main_v226 : Ref sig .tc := ⟨.hbm, 328, rfl⟩
abbrev main_v227 : Ref sig .tc := ⟨.hbm, 329, rfl⟩
abbrev main_cst_69 : Ref sig .tc := ⟨.hbm, 330, rfl⟩
abbrev main_v228 : Ref sig .tc := ⟨.hbm, 331, rfl⟩
abbrev main_v229 : Ref sig .tc := ⟨.hbm, 332, rfl⟩
abbrev main_cst_70 : Ref sig .tc := ⟨.hbm, 333, rfl⟩
abbrev main_v230 : Ref sig .tc := ⟨.hbm, 334, rfl⟩
abbrev main_v231 : Ref sig .tc := ⟨.hbm, 335, rfl⟩
abbrev main_cst_71 : Ref sig .tc := ⟨.hbm, 336, rfl⟩
abbrev main_cst_72 : Ref sig .tc := ⟨.hbm, 337, rfl⟩
abbrev main_call5_v0 : Ref sig .tc := ⟨.hbm, 338, rfl⟩
abbrev main_call5_v1 : Ref sig .tc := ⟨.hbm, 339, rfl⟩
abbrev main_call5_v2 : Ref sig .tc := ⟨.hbm, 340, rfl⟩
abbrev main_call5_v3 : Ref sig .tc := ⟨.hbm, 341, rfl⟩
abbrev main_call5_v4 : Ref sig .tc := ⟨.hbm, 342, rfl⟩
abbrev main_v232 : Ref sig .tc := ⟨.hbm, 343, rfl⟩
abbrev main_v233 : Ref sig .tc := ⟨.hbm, 344, rfl⟩
abbrev main_v234 : Ref sig .tc := ⟨.hbm, 345, rfl⟩
abbrev main_cst_73 : Ref sig .tc := ⟨.hbm, 346, rfl⟩
abbrev main_v235 : Ref sig .tc := ⟨.hbm, 347, rfl⟩
abbrev main_v236 : Ref sig .tc := ⟨.hbm, 348, rfl⟩
abbrev main_cst_74 : Ref sig .tc := ⟨.hbm, 349, rfl⟩
abbrev main_v237 : Ref sig .tc := ⟨.hbm, 350, rfl⟩
abbrev main_v238 : Ref sig .tc := ⟨.hbm, 351, rfl⟩
abbrev main_cst_75 : Ref sig .tc := ⟨.hbm, 352, rfl⟩
abbrev main_v239 : Ref sig .tc := ⟨.hbm, 353, rfl⟩
abbrev main_v240 : Ref sig .tc := ⟨.hbm, 354, rfl⟩
abbrev main_cst_76 : Ref sig .tc := ⟨.hbm, 355, rfl⟩
abbrev main_v241 : Ref sig .tc := ⟨.hbm, 356, rfl⟩
abbrev main_v242 : Ref sig .tc := ⟨.hbm, 357, rfl⟩
abbrev main_cst_77 : Ref sig .tc := ⟨.hbm, 358, rfl⟩
abbrev main_cst_78 : Ref sig .tc := ⟨.hbm, 359, rfl⟩
abbrev main_call6_v0 : Ref sig .tc := ⟨.hbm, 360, rfl⟩
abbrev main_call6_v1 : Ref sig .tc := ⟨.hbm, 361, rfl⟩
abbrev main_call6_v2 : Ref sig .tc := ⟨.hbm, 362, rfl⟩
abbrev main_call6_v3 : Ref sig .tc := ⟨.hbm, 363, rfl⟩
abbrev main_call6_v4 : Ref sig .tc := ⟨.hbm, 364, rfl⟩
abbrev main_v243 : Ref sig .tc := ⟨.hbm, 365, rfl⟩
abbrev main_v244 : Ref sig .tc := ⟨.hbm, 366, rfl⟩
abbrev main_v245 : Ref sig .tc := ⟨.hbm, 367, rfl⟩
abbrev main_v246 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_v251 : Ref sig .tc := ⟨.hbm, 373, rfl⟩
abbrev main_c_79 : Ref sig .tc := ⟨.hbm, 374, rfl⟩
abbrev main_v252 : Ref sig .tc := ⟨.hbm, 375, rfl⟩
abbrev main_v253 : Ref sig .tc := ⟨.hbm, 376, rfl⟩
abbrev main_c_80 : Ref sig .tc := ⟨.hbm, 377, rfl⟩
abbrev main_v254 : Ref sig .tc := ⟨.hbm, 378, rfl⟩
abbrev main_v255 : Ref sig .tc := ⟨.hbm, 379, rfl⟩
abbrev main_c_81 : Ref sig .tc := ⟨.hbm, 380, rfl⟩
abbrev main_v256 : Ref sig .tc := ⟨.hbm, 381, rfl⟩
abbrev main_v257 : Ref sig .tc := ⟨.hbm, 382, rfl⟩
abbrev main_c_82 : Ref sig .tc := ⟨.hbm, 383, rfl⟩
abbrev main_v258 : Ref sig .tc := ⟨.hbm, 384, rfl⟩
abbrev main_v259 : Ref sig .tc := ⟨.hbm, 385, rfl⟩
abbrev main_c_83 : Ref sig .tc := ⟨.hbm, 386, rfl⟩
abbrev main_v260 : Ref sig .tc := ⟨.hbm, 387, rfl⟩
abbrev main_v261 : Ref sig .tc := ⟨.hbm, 388, rfl⟩
abbrev main_c_84 : Ref sig .tc := ⟨.hbm, 389, rfl⟩
abbrev main_v262 : Ref sig .tc := ⟨.hbm, 390, rfl⟩
abbrev main_v263 : Ref sig .tc := ⟨.hbm, 391, rfl⟩
abbrev main_v264 : Ref sig .tc := ⟨.hbm, 392, rfl⟩
abbrev main_c_85 : Ref sig .tc := ⟨.hbm, 393, rfl⟩
abbrev main_v265 : Ref sig .tc := ⟨.hbm, 394, rfl⟩
abbrev main_v266 : Ref sig .tc := ⟨.hbm, 395, rfl⟩
abbrev main_c_86 : Ref sig .tc := ⟨.hbm, 396, rfl⟩
abbrev main_v267 : Ref sig .tc := ⟨.hbm, 397, rfl⟩
abbrev main_v268 : Ref sig .tc := ⟨.hbm, 398, rfl⟩
abbrev main_v269 : Ref sig .tc := ⟨.hbm, 399, rfl⟩
abbrev main_v270 : Ref sig .tc := ⟨.hbm, 400, rfl⟩
abbrev main_v271 : Ref sig .tc := ⟨.hbm, 401, rfl⟩
abbrev main_v272 : Ref sig .tc := ⟨.hbm, 402, rfl⟩
abbrev main_v273 : Ref sig .tc := ⟨.hbm, 403, rfl⟩
abbrev main_c_87 : Ref sig .tc := ⟨.hbm, 404, rfl⟩
abbrev main_v274 : Ref sig .tc := ⟨.hbm, 405, rfl⟩
abbrev main_v275 : Ref sig .tc := ⟨.hbm, 406, rfl⟩
abbrev main_c_88 : Ref sig .tc := ⟨.hbm, 407, rfl⟩
abbrev main_v276 : Ref sig .tc := ⟨.hbm, 408, rfl⟩
abbrev main_v277 : Ref sig .tc := ⟨.hbm, 409, rfl⟩
abbrev main_v278 : Ref sig .tc := ⟨.hbm, 410, rfl⟩
abbrev main_c_89 : Ref sig .tc := ⟨.hbm, 411, rfl⟩
abbrev main_v279 : Ref sig .tc := ⟨.hbm, 412, rfl⟩
abbrev main_v280 : Ref sig .tc := ⟨.hbm, 413, rfl⟩
abbrev main_c_90 : Ref sig .tc := ⟨.hbm, 414, rfl⟩
abbrev main_v281 : Ref sig .tc := ⟨.hbm, 415, rfl⟩
abbrev main_v282 : Ref sig .tc := ⟨.hbm, 416, rfl⟩
abbrev main_v283 : Ref sig .tc := ⟨.hbm, 417, rfl⟩
abbrev main_v284 : Ref sig .tc := ⟨.hbm, 418, rfl⟩
abbrev main_v285 : Ref sig .tc := ⟨.hbm, 419, rfl⟩
abbrev main_v286 : Ref sig .tc := ⟨.hbm, 420, rfl⟩
abbrev main_v287 : Ref sig .tc := ⟨.hbm, 421, rfl⟩
abbrev main_c_91 : Ref sig .tc := ⟨.hbm, 422, rfl⟩
abbrev main_v288 : Ref sig .tc := ⟨.hbm, 423, rfl⟩
abbrev main_v289 : Ref sig .tc := ⟨.hbm, 424, rfl⟩
abbrev main_c_92 : Ref sig .tc := ⟨.hbm, 425, rfl⟩
abbrev main_v290 : Ref sig .tc := ⟨.hbm, 426, rfl⟩
abbrev main_v291 : Ref sig .tc := ⟨.hbm, 427, rfl⟩
abbrev main_v292 : Ref sig .tc := ⟨.hbm, 428, rfl⟩
abbrev main_c_93 : Ref sig .tc := ⟨.hbm, 429, rfl⟩
abbrev main_v293 : Ref sig .tc := ⟨.hbm, 430, rfl⟩
abbrev main_v294 : Ref sig .tc := ⟨.hbm, 431, rfl⟩
abbrev main_c_94 : Ref sig .tc := ⟨.hbm, 432, rfl⟩
abbrev main_v295 : Ref sig .tc := ⟨.hbm, 433, rfl⟩
abbrev main_v296 : Ref sig .tc := ⟨.hbm, 434, rfl⟩
abbrev main_v297 : Ref sig .tc := ⟨.hbm, 435, rfl⟩
abbrev main_v298 : Ref sig .tc := ⟨.hbm, 436, rfl⟩
abbrev main_v299 : Ref sig .tc := ⟨.hbm, 437, rfl⟩
abbrev main_v300 : Ref sig .tc := ⟨.hbm, 438, rfl⟩
abbrev main_v301 : Ref sig .tc := ⟨.hbm, 439, rfl⟩
abbrev main_c_95 : Ref sig .tc := ⟨.hbm, 440, rfl⟩
abbrev main_v302 : Ref sig .tc := ⟨.hbm, 441, rfl⟩
abbrev main_v303 : Ref sig .tc := ⟨.hbm, 442, rfl⟩
abbrev main_c_96 : Ref sig .tc := ⟨.hbm, 443, rfl⟩
abbrev main_v304 : Ref sig .tc := ⟨.hbm, 444, rfl⟩
abbrev main_v305 : Ref sig .tc := ⟨.hbm, 445, rfl⟩
abbrev main_v306 : Ref sig .tc := ⟨.hbm, 446, rfl⟩
abbrev main_c_97 : Ref sig .tc := ⟨.hbm, 447, rfl⟩
abbrev main_v307 : Ref sig .tc := ⟨.hbm, 448, rfl⟩
abbrev main_v308 : Ref sig .tc := ⟨.hbm, 449, rfl⟩
abbrev main_c_98 : Ref sig .tc := ⟨.hbm, 450, rfl⟩
abbrev main_v309 : Ref sig .tc := ⟨.hbm, 451, rfl⟩
abbrev main_v310 : Ref sig .tc := ⟨.hbm, 452, rfl⟩
abbrev main_v311 : Ref sig .tc := ⟨.hbm, 453, rfl⟩
abbrev main_v312 : Ref sig .tc := ⟨.hbm, 454, rfl⟩
abbrev main_v313 : Ref sig .tc := ⟨.hbm, 455, rfl⟩
abbrev main_v314 : Ref sig .tc := ⟨.hbm, 456, rfl⟩
abbrev main_v315 : Ref sig .tc := ⟨.hbm, 457, rfl⟩
abbrev main_v316 : Ref sig .tc := ⟨.hbm, 458, rfl⟩
abbrev main_v317 : Ref sig .tc := ⟨.hbm, 459, rfl⟩
abbrev main_v318 : Ref sig .tc := ⟨.hbm, 460, rfl⟩
abbrev main_v319 : Ref sig .tc := ⟨.hbm, 461, rfl⟩
abbrev main_v320 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_v324 : Ref sig .tc := ⟨.hbm, 466, rfl⟩
abbrev main_v325 : Ref sig .tc := ⟨.hbm, 467, rfl⟩
abbrev main_v326 : Ref sig .tc := ⟨.hbm, 468, rfl⟩
abbrev main_v327 : Ref sig .tc := ⟨.hbm, 469, rfl⟩
abbrev main_v328 : Ref sig .tc := ⟨.hbm, 470, rfl⟩
abbrev main_v329 : Ref sig .tc := ⟨.hbm, 471, rfl⟩
abbrev main_v330 : Ref sig .tc := ⟨.hbm, 472, rfl⟩
abbrev main_v331 : Ref sig .tc := ⟨.hbm, 473, rfl⟩
abbrev main_v332 : Ref sig .tc := ⟨.hbm, 474, rfl⟩
abbrev main_v333 : Ref sig .tc := ⟨.hbm, 475, rfl⟩
abbrev main_cst_99 : Ref sig .tc := ⟨.hbm, 476, rfl⟩
abbrev main_cst_100 : Ref sig .tc := ⟨.hbm, 477, rfl⟩
abbrev main_call7_v0 : Ref sig .tc := ⟨.hbm, 478, rfl⟩
abbrev main_call7_v1 : Ref sig .tc := ⟨.hbm, 479, rfl⟩
abbrev main_call7_v2 : Ref sig .tc := ⟨.hbm, 480, rfl⟩
abbrev main_call7_v3 : Ref sig .tc := ⟨.hbm, 481, rfl⟩
abbrev main_call7_v4 : Ref sig .tc := ⟨.hbm, 482, rfl⟩
abbrev main_v334 : Ref sig .tc := ⟨.hbm, 483, rfl⟩

abbrev nD : Nat := 1
abbrev τ : Topo := Topo.v7x

variable {F : FTy → Type} [FloatOps F]

class Facts₀ : Prop where
  bcast_S_S4000000x3 : S_.BroadcastsInDim S4000000x3 (![] : Fin 0 → Fin S4000000x3.rank)
  slices_S4000000x3_S4000000x2_0_0 : S4000000x3.Slices ![0, 0] S4000000x2
  slices_S4000000x2_S4000000x1_0_0 : S4000000x2.Slices ![0, 0] S4000000x1
  shapeCasts_S4000000x1_S4000000 : S4000000x1.ShapeCasts S4000000
  bcast_S_S4000000 : S_.BroadcastsInDim S4000000 (![] : Fin 0 → Fin S4000000.rank)
  slices_S4000000x2_S4000000x1_0_1 : S4000000x2.Slices ![0, 1] S4000000x1
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  bcast_S4000000x1_S4000000x8_0_1 : S4000000x1.BroadcastsInDim S4000000x8 (![0, 1] : Fin 2 → Fin S4000000x8.rank)
  bcast_S_S2 : S_.BroadcastsInDim S2 (![] : Fin 0 → Fin S2.rank)
  bcast_S2_S2x1_0 : S2.BroadcastsInDim S2x1 (![0] : Fin 1 → Fin S2x1.rank)
  slices_S4000000x3_S4000000x2_0_1 : S4000000x3.Slices ![0, 1] S4000000x2
  concatenates_S4000000x8_S4000000x8_S4000000x8_S4000000x24_d1 : Shape.Concatenates [S4000000x8, S4000000x8, S4000000x8] S4000000x24 1
  transposes_S8x24_S24x8_1_0 : S8x24.Transposes [1, 0] S24x8
  bcast_S8_S1x8_1 : S8.BroadcastsInDim S1x8 (![1] : Fin 1 → Fin S1x8.rank)
  bcast_S1x8_S4000000x8_0_1 : S1x8.BroadcastsInDim S4000000x8 (![0, 1] : Fin 2 → Fin S4000000x8.rank)
  bcast_S_S4000000x8 : S_.BroadcastsInDim S4000000x8 (![] : Fin 0 → Fin S4000000x8.rank)
  gather_S512x512x8_S4000000x2_S4000000x8_1_01_n_n_01_1_118_wf : GatherDims.WF S512x512x8 S4000000x2 S4000000x8 [1] [0, 1] [] [0, 1] [] 1 ![1, 1, 8]
  gather_S4000000x3_S2x1_S4000000x2_0_1_n_n_1_1_40000001_wf : GatherDims.WF S4000000x3 S2x1 S4000000x2 [0] [1] [] [1] [] 1 ![4000000, 1]
  dot_S4000000x24_S24x8_S4000000x8_1_0_0_1_n_n_wf : DotDims.WF S4000000x24 S24x8 S4000000x8 [1] [0] [0] [1] [] []

variable [Facts₀]

def gather_S512x512x8_S4000000x2_S4000000x8_1_01_n_n_01_1_118 : GatherDims S512x512x8 S4000000x2 S4000000x8 where
  offsetDims := [1]
  collapsedSliceDims := [0, 1]
  operandBatchingDims := []
  startIndicesBatchingDims := []
  startIndexMap := [0, 1]
  indexVectorDim := 1
  sliceSizes := ![1, 1, 8]
  wf := gather_S512x512x8_S4000000x2_S4000000x8_1_01_n_n_01_1_118_wf
def gather_S4000000x3_S2x1_S4000000x2_0_1_n_n_1_1_40000001 : GatherDims S4000000x3 S2x1 S4000000x2 where
  offsetDims := [0]
  collapsedSliceDims := [1]
  operandBatchingDims := []
  startIndicesBatchingDims := []
  startIndexMap := [1]
  indexVectorDim := 1
  sliceSizes := ![4000000, 1]
  wf := gather_S4000000x3_S2x1_S4000000x2_0_1_n_n_1_1_40000001_wf
def dot_S4000000x24_S24x8_S4000000x8_1_0_0_1_n_n : DotDims S4000000x24 S24x8 S4000000x8 where
  lhsContracting := [1]
  rhsContracting := [0]
  lhsNonContracting := [0]
  rhsNonContracting := [1]
  lhsBatch := []
  rhsBatch := []
  wf := dot_S4000000x24_S24x8_S4000000x8_1_0_0_1_n_n_wf

class Facts : Prop extends Facts₀ where

variable [Facts]
-- ==== Proof.FrameKHost.lean ====
/-
  The host side of the frame of the tri-plane sampler's kernel program, up to its one region: the program
  is twenty-one stretches of host operations (the clipping of the coordinates, and per plane the pixel
  coordinates, the four flat corner indices, their concatenation into an index array and the row gather
  with its in-range mask) followed by the region. `V` names what core `c`'s buffers hold when the region
  is entered: the stretches' operations applied in order to the launch memory. None of them writes an
  argument array, so the region finds the six arguments as launched.
-/
import proofs.«114771_j71983651881269_2_alg».proof.Proof.Gen.Kernel.Launch
import proofs.«114771_j71983651881269_2_alg».proof.Proof.Gen.Kernel.Skeleton
import proofs.«114771_j71983651881269_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- Core `c`'s TensorCore buffers when the region is entered: after every host operation before it. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

/-- @main is the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F)) (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.FrameKBody.lean ====
/-
  The body of the blend-and-project kernel on whole staging buffers: it loads the three planes' corner rows
  (5000 x 32 each), the clipped coordinates (5000 x 3), the transposed projection (24 x 8) and the bias (8),
  and stores ONE 5000 x 8 block: the bilinear blends' three small products summed, plus the bias, clipped.
  `pay` is that stored value as a function of the six loaded blocks (the generated payload names composed
  as the body composes them); `out0_6` is what the output buffer then holds; `sound_kernel` is the body's
  triple: inputs left as they were, the output at `out0_6`.
-/
import proofs.«114771_j71983651881269_2_alg».proof.Proof.Gen.Kernel.Launch
import proofs.«114771_j71983651881269_2_alg».proof.Proof.Gen.Kernel.Skeleton
import proofs.«114771_j71983651881269_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every one is the whole buffer -/

abbrev r32 : Rect S5000x32 := Rect.unit (s := S5000x32) ![0, 0] S5000x32.size inb_S5000x32_S5000x32_0_0
abbrev r3 : Rect S5000x3 := Rect.unit (s := S5000x3) ![0, 0] S5000x3.size inb_S5000x3_S5000x3_0_0
abbrev r24 : Rect S24x8 := Rect.unit (s := S24x8) ![0, 0] S24x8.size inb_S24x8_S24x8_0_0
abbrev r8 : Rect S8 := Rect.unit (s := S8) ![0] S8.size inb_S8_S8_0
abbrev r58 : Rect S5000x8 := Rect.unit (s := S5000x8) ![0, 0] S5000x8.size inb_S5000x8_S5000x8_0_0

/-- The stored block as a function of the six loaded blocks: per plane the blend of its four corner rows with
    the weights recomputed from the coordinates, the three products with the projection's row blocks summed,
    the bias added, the result clipped. -/
def pay (v0 v2 v4 : Vec F S5000x32 .f32) (v6 : Vec F S5000x3 .f32) (v143 : Vec F S24x8 .f32) (v159 : Vec F S8 .f32) : FVec F S5000x8 .f32 :=
  k0_pay1 (k0_pay15 (k0_pay13 (k0_pay7 v6))) (k0_pay16 (k0_pay8 v6) (k0_pay14 (F := F)))
    (k0_pay17 (k0_pay2 v0) (k0_pay9 v6) (k0_pay10 v6))
    (k0_pay18 (k0_pay3 v2) (k0_pay11 (k0_pay6 v6)) (k0_pay12 (k0_pay8 v6)))
    (k0_pay19 (k0_pay4 v4)) (k0_pay20 (k0_pay4 v4)) (k0_pay21 (k0_pay4 v4) (k0_pay13 (k0_pay7 v6))) v143 v159

/-- The output buffer after the body, from the input buffers' contents: its one store, of the whole block. -/
def out0_6 (x0 x1 x2 : Vec F S5000x32 .f32) (x3 : Vec F S5000x3 .f32) (x4 : Vec F S24x8 .f32) (x5 : Vec F S8 .f32) : Vec F S5000x8 .f32 :=
  View.canon [⟨r58, pay (View.ld x0 r32) (View.ld x1 r32) (View.ld x2 r32) (View.ld x3 r3) (View.ld x4 r24) (View.ld x5 r8)⟩]

/-- The one store covers the buffer. -/
theorem cover0_6 (p0 : Vec F S5000x8 .f32) (y : S5000x8.Idx) :
    ∃ pc ∈ ([⟨r58, p0⟩] : List (View.Piece (Elt F) S5000x8 .f32)), y ∈ pc.1.set :=
  View.cover_of_tiled [⟨r58, p0⟩] S5000x8.size (by rfl) y

/-! ## The body's triple -/

set_option maxHeartbeats 4000000 in
/-- The body on whole staging buffers, the inputs' at read contents `xW` and the output's at anything, runs to the
    continuation holding the inputs' as they were and the output's at `out0_6` of the inputs'. -/
theorem sound_kernel (c : Dev nD) (E : Set ℕ) (i : grid0.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S5000x3 .f32) (harg4 : arg4.IsWhole)
    (arg5 : Memref sig .tc .vmem S24x8 .f32) (harg5 : arg5.IsWhole) (arg6 : Memref sig .tc .vmem S8 .f32) (harg6 : arg6.IsWhole)
    (arg7 : Memref sig .tc .vmem S5000x8 .f32) (harg7 : arg7.IsWhole)
    (x0 x1 x2 : Vec F S5000x32 .f32) (x3 : Vec F S5000x3 .f32) (x4 : Vec F S24x8 .f32) (x5 : Vec F S8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__blend_proj_kernel i arg1 harg1 arg2 harg2 arg3 harg3 arg4 harg4 arg5 harg5 arg6 harg6 arg7 harg7) K := by
  simp only [cc0__blend_proj_kernel_eq_skeleton]; unfold cc0__blend_proj_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

end Cert.Kernel.Hand

end
-- ==== Proof.FrameK.lean ====
/-
  The frame of the tri-plane sampler's kernel program: the proof data of its one pipeline (every input
  window's buffer holds its block of the array the region found, the output window's holds the body's stored
  block of those), the body obligation at a generic grid point, the run of @main — every weakly fair
  execution terminates, nothing faults, every output array ends at what the blocks written back compose
  and every other buffer as the region found it — and from it the frame: the six arguments end unchanged.
-/
import proofs.«114771_j71983651881269_2_alg».proof.Proof.FrameKHost
import proofs.«114771_j71983651881269_2_alg».proof.Proof.FrameKBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched
    window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (an unfetched
    window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (an unfetched
    window's block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (an unfetched
    window's block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (an unfetched
    window's block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the three argument arrays no window stages (the planes) are among the buffers the
    region leaves as found; argument 5 (the bias) is window 5's array, an input; argument 0 and 4 are staged only
    through host results, so they too are left as found; each is then as launched (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c)))⟩) h

/-! ## The pipeline's proof data -/

/-- The proof data of the one pipeline on core `c`: the arrays as the region finds them; after the body at point `t`
    each input's buffer at its block and the output's at the body's stored block of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    blocks written back compose and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.FrameKIHost.lean ====
/-
  The host side of the frame of the tri-plane sampler's kernel program, up to its one region: the program
  is twenty-one stretches of host operations (the clipping of the coordinates, and per plane the pixel
  coordinates, the four flat corner indices, their concatenation into an index array and the row gather
  with its in-range mask) followed by the region. `V` names what core `c`'s buffers hold when the region
  is entered: the stretches' operations applied in order to the launch memory. None of them writes an
  argument array, so the region finds the six arguments as launched.
-/
import proofs.«114771_j71983651881269_2_alg».proof.Proof.Gen.KernelIdeal.Launch
import proofs.«114771_j71983651881269_2_alg».proof.Proof.Gen.KernelIdeal.Skeleton
import proofs.«114771_j71983651881269_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- Core `c`'s TensorCore buffers when the region is entered: after every host operation before it. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

/-- @main is the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F)) (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.FrameKIBody.lean ====
/-
  The body of the blend-and-project kernel on whole staging buffers: it loads the three planes' corner rows
  (5000 x 32 each), the clipped coordinates (5000 x 3), the transposed projection (24 x 8) and the bias (8),
  and stores ONE 5000 x 8 block: the bilinear blends' three small products summed, plus the bias, clipped.
  `pay` is that stored value as a function of the six loaded blocks (the generated payload names composed
  as the body composes them); `out0_6` is what the output buffer then holds; `sound_kernel` is the body's
  triple: inputs left as they were, the output at `out0_6`.
-/
import proofs.«114771_j71983651881269_2_alg».proof.Proof.Gen.KernelIdeal.Launch
import proofs.«114771_j71983651881269_2_alg».proof.Proof.Gen.KernelIdeal.Skeleton
import proofs.«114771_j71983651881269_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every one is the whole buffer -/

abbrev r32 : Rect S5000x32 := Rect.unit (s := S5000x32) ![0, 0] S5000x32.size inb_S5000x32_S5000x32_0_0
abbrev r3 : Rect S5000x3 := Rect.unit (s := S5000x3) ![0, 0] S5000x3.size inb_S5000x3_S5000x3_0_0
abbrev r24 : Rect S24x8 := Rect.unit (s := S24x8) ![0, 0] S24x8.size inb_S24x8_S24x8_0_0
abbrev r8 : Rect S8 := Rect.unit (s := S8) ![0] S8.size inb_S8_S8_0
abbrev r58 : Rect S5000x8 := Rect.unit (s := S5000x8) ![0, 0] S5000x8.size inb_S5000x8_S5000x8_0_0

/-- The stored block as a function of the six loaded blocks: per plane the blend of its four corner rows with
    the weights recomputed from the coordinates, the three products with the projection's row blocks summed,
    the bias added, the result clipped. -/
def pay (v0 v2 v4 : Vec F S5000x32 .f32) (v6 : Vec F S5000x3 .f32) (v143 : Vec F S24x8 .f32) (v159 : Vec F S8 .f32) : FVec F S5000x8 .f32 :=
  k0_pay1 (k0_pay15 (k0_pay13 (k0_pay7 v6))) (k0_pay16 (k0_pay8 v6) (k0_pay14 (F := F)))
    (k0_pay17 (k0_pay2 v0) (k0_pay9 v6) (k0_pay10 v6))
    (k0_pay18 (k0_pay3 v2) (k0_pay11 (k0_pay6 v6)) (k0_pay12 (k0_pay8 v6)))
    (k0_pay19 (k0_pay4 v4)) (k0_pay20 (k0_pay4 v4)) (k0_pay21 (k0_pay4 v4) (k0_pay13 (k0_pay7 v6))) v143 v159

/-- The output buffer after the body, from the input buffers' contents: its one store, of the whole block. -/
def out0_6 (x0 x1 x2 : Vec F S5000x32 .f32) (x3 : Vec F S5000x3 .f32) (x4 : Vec F S24x8 .f32) (x5 : Vec F S8 .f32) : Vec F S5000x8 .f32 :=
  View.canon [⟨r58, pay (View.ld x0 r32) (View.ld x1 r32) (View.ld x2 r32) (View.ld x3 r3) (View.ld x4 r24) (View.ld x5 r8)⟩]

/-- The one store covers the buffer. -/
theorem cover0_6 (p0 : Vec F S5000x8 .f32) (y : S5000x8.Idx) :
    ∃ pc ∈ ([⟨r58, p0⟩] : List (View.Piece (Elt F) S5000x8 .f32)), y ∈ pc.1.set :=
  View.cover_of_tiled [⟨r58, p0⟩] S5000x8.size (by rfl) y

/-! ## The body's triple -/

set_option maxHeartbeats 4000000 in
/-- The body on whole staging buffers, the inputs' at read contents `xW` and the output's at anything, runs to the
    continuation holding the inputs' as they were and the output's at `out0_6` of the inputs'. -/
theorem sound_kernel (c : Dev nD) (E : Set ℕ) (i : grid0.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S5000x3 .f32) (harg4 : arg4.IsWhole)
    (arg5 : Memref sig .tc .vmem S24x8 .f32) (harg5 : arg5.IsWhole) (arg6 : Memref sig .tc .vmem S8 .f32) (harg6 : arg6.IsWhole)
    (arg7 : Memref sig .tc .vmem S5000x8 .f32) (harg7 : arg7.IsWhole)
    (x0 x1 x2 : Vec F S5000x32 .f32) (x3 : Vec F S5000x3 .f32) (x4 : Vec F S24x8 .f32) (x5 : Vec F S8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__blend_proj_kernel i arg1 harg1 arg2 harg2 arg3 harg3 arg4 harg4 arg5 harg5 arg6 harg6 arg7 harg7) K := by
  simp only [cc0__blend_proj_kernel_eq_skeleton]; unfold cc0__blend_proj_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

end Cert.KernelIdeal.Hand

end
-- ==== Proof.FrameKI.lean ====
/-
  The frame of the tri-plane sampler's kernel program: the proof data of its one pipeline (every input
  window's buffer holds its block of the array the region found, the output window's holds the body's stored
  block of those), the body obligation at a generic grid point, the run of @main — every weakly fair
  execution terminates, nothing faults, every output array ends at what the blocks written back compose
  and every other buffer as the region found it — and from it the frame: the six arguments end unchanged.
-/
import proofs.«114771_j71983651881269_2_alg».proof.Proof.FrameKIHost
import proofs.«114771_j71983651881269_2_alg».proof.Proof.FrameKIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched
    window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (an unfetched
    window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (an unfetched
    window's block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (an unfetched
    window's block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (an unfetched
    window's block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the three argument arrays no window stages (the planes) are among the buffers the
    region leaves as found; argument 5 (the bias) is window 5's array, an input; argument 0 and 4 are staged only
    through host results, so they too are left as found; each is then as launched (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c)))⟩) h

/-! ## The pipeline's proof data -/

/-- The proof data of the one pipeline on core `c`: the arrays as the region finds them; after the body at point `t`
    each input's buffer at its block and the output's at the body's stored block of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    blocks written back compose and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KernelValue.lean ====
/-
  The output array of the tri-plane sampler's kernel program after its run, as ONE function of the six arrays
  the region stages (the three corner arrays, the clipped coordinates, the transposed projection, the bias).
  The grid has 800 points; point t stages rows 5000 t … 5000 t + 4999 of the four row-wise arrays and the whole
  of the projection and the bias, and writes back rows 5000 t … 5000 t + 4999 of the output: the body's stored
  block of those. Row n of the output is therefore the body's value on block n / 5000 at local row n % 5000
  (`GK`); the 800 blocks cover the array.
-/
import proofs.«114771_j71983651881269_2_alg».proof.Proof.FrameKI
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What each point writes back -/

/-- After the frame run the result array is what the blocks written back compose. -/
theorem post6 (r : PUnit × MemSt nD τ sig (Elt F)) (h : Pipeline.FramePost cfgs (dats m) 0 (V m) r) (c : Dev nD) :
    r.2.mem ((c : Thread nD τ).loc main_v164) = (dats m 0 c).arrAt 6 cfg0.N :=
  (h c).1 6

/-- Point `t` writes back the body's stored block of the six input blocks at `t`. -/
theorem flushed6 (c : Dev nD) (t : Fin cfg0.N) :
    (dats m 0 c).flushed 6 t = (cfg0.win 6).cut (grid0.coords t)
      (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the four row-wise inputs and the output are at block row `t`, the projection
    and the bias at block 0. -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-! ## The whole array as one function -/

/-- Rows `5000 t … 5000 t + 4999` of an array of 4000000 rows, as a block of 5000 rows. -/
def rowsOf {L : ℕ} {α : Type} (A : (⟨2, ![4000000, L]⟩ : Shape).Idx → α) (t : ℕ) : (⟨2, ![5000, L]⟩ : Shape).Idx → α :=
  fun j => A (ValueIdx.ix2 ⟨(t * 5000 + (j 0).val) % 4000000, Nat.mod_lt _ (by norm_num)⟩ ⟨(j 1).val, (j 1).isLt⟩)

/-- The block an output row lies in, and the row's place inside it. -/
def blkNo (i : S4000000x8.Idx) : ℕ := (i 0).val / 5000
def locIdx (i : S4000000x8.Idx) : S5000x8.Idx :=
  ValueIdx.ix2 ⟨(i 0).val % 5000, Nat.mod_lt _ (by norm_num)⟩ ⟨(i 1).val, (i 1).isLt⟩

/-- The output array as one function of the six staged arrays: at row `n` the body's stored value on block `n / 5000`,
    local row `n % 5000`. -/
def GK (A0 A1 A2 : Vec F S4000000x32 .f32) (A3 : Vec F S4000000x3 .f32) (A4 : Vec F S24x8 .f32) (A5 : Vec F S8 .f32) :
    Vec F S4000000x8 .f32 :=
  fun i => pay (rowsOf A0 (blkNo i)) (rowsOf A1 (blkNo i)) (rowsOf A2 (blkNo i)) (rowsOf A3 (blkNo i)) A4 A5 (locIdx i)

set_option maxHeartbeats 4000000 in
/-- An index of the array is in point `t`'s block iff each coordinate is in the block's range on its axis. -/
theorem mem_blk6 (t : Fin cfg0.N) (i : S4000000x8.Idx) :
    i ∈ ((cfg0.win 6).blk t).view.set ↔ ∀ a : Fin 2, win0_6.index t a * S5000x8.size a ≤ (i a).val ∧ (i a).val < win0_6.index t a * S5000x8.size a + S5000x8.size a := by
  show i ∈ ((View.whole main_v164).slice (win0_6.rect t)).set ↔ _
  rw [View.set_slice_whole, Rect.mem_set_unit]
  exact Iff.rfl

/-! ## The input blocks at a point, read off a variable array -/

theorem rows0 (A : Vec F S4000000x32 .f32) (t : Fin cfg0.N) : ((cfg0.win 0).blk t).view.read (Elt F) A = rowsOf A t.val := by
  obtain ⟨e60, e61, e00, e01, e10, e11, e20, e21, e30, e31, e40, e41, e50⟩ := idx_facts t
  have ht : t.val < 800 := lt_of_lt_of_eq t.isLt N_0
  funext y
  show A (((cfg0.win 0).blk t).view.emb y) = A _
  refine congrArg A ?_
  funext a; apply Fin.ext
  match a with
  | ⟨0, _⟩ => show win0_0.index t (0 : Fin 2) * 5000 + 1 * (y 0).val = (t.val * 5000 + (y 0).val) % 4000000; have hy : (y 0).val < 5000 := (y 0).isLt; omega
  | ⟨1, _⟩ => show win0_0.index t (1 : Fin 2) * 32 + 1 * (y 1).val = (y 1).val; omega
theorem rows1 (A : Vec F S4000000x32 .f32) (t : Fin cfg0.N) : ((cfg0.win 1).blk t).view.read (Elt F) A = rowsOf A t.val := by
  obtain ⟨e60, e61, e00, e01, e10, e11, e20, e21, e30, e31, e40, e41, e50⟩ := idx_facts t
  have ht : t.val < 800 := lt_of_lt_of_eq t.isLt N_0
  funext y
  show A (((cfg0.win 1).blk t).view.emb y) = A _
  refine congrArg A ?_
  funext a; apply Fin.ext
  match a with
  | ⟨0, _⟩ => show win0_1.index t (0 : Fin 2) * 5000 + 1 * (y 0).val = (t.val * 5000 + (y 0).val) % 4000000; have hy : (y 0).val < 5000 := (y 0).isLt; omega
  | ⟨1, _⟩ => show win0_1.index t (1 : Fin 2) * 32 + 1 * (y 1).val = (y 1).val; omega
theorem rows2 (A : Vec F S4000000x32 .f32) (t : Fin cfg0.N) : ((cfg0.win 2).blk t).view.read (Elt F) A = rowsOf A t.val := by
  obtain ⟨e60, e61, e00, e01, e10, e11, e20, e21, e30, e31, e40, e41, e50⟩ := idx_facts t
  have ht : t.val < 800 := lt_of_lt_of_eq t.isLt N_0
  funext y
  show A (((cfg0.win 2).blk t).view.emb y) = A _
  refine congrArg A ?_
  funext a; apply Fin.ext
  match a with
  | ⟨0, _⟩ => show win0_2.index t (0 : Fin 2) * 5000 + 1 * (y 0).val = (t.val * 5000 + (y 0).val) % 4000000; have hy : (y 0).val < 5000 := (y 0).isLt; omega
  | ⟨1, _⟩ => show win0_2.index t (1 : Fin 2) * 32 + 1 * (y 1).val = (y 1).val; omega
theorem rows3 (A : Vec F S4000000x3 .f32) (t : Fin cfg0.N) : ((cfg0.win 3).blk t).view.read (Elt F) A = rowsOf A t.val := by
  obtain ⟨e60, e61, e00, e01, e10, e11, e20, e21, e30, e31, e40, e41, e50⟩ := idx_facts t
  have ht : t.val < 800 := lt_of_lt_of_eq t.isLt N_0
  funext y
  show A (((cfg0.win 3).blk t).view.emb y) = A _
  refine congrArg A ?_
  funext a; apply Fin.ext
  match a with
  | ⟨0, _⟩ => show win0_3.index t (0 : Fin 2) * 5000 + 1 * (y 0).val = (t.val * 5000 + (y 0).val) % 4000000; have hy : (y 0).val < 5000 := (y 0).isLt; omega
  | ⟨1, _⟩ => show win0_3.index t (1 : Fin 2) * 3 + 1 * (y 1).val = (y 1).val; omega
theorem whole4 (A : Vec F S24x8 .f32) (t : Fin cfg0.N) : ((cfg0.win 4).blk t).view.read (Elt F) A = A := by
  obtain ⟨e60, e61, e00, e01, e10, e11, e20, e21, e30, e31, e40, e41, e50⟩ := idx_facts t
  funext y
  show A (((cfg0.win 4).blk t).view.emb y) = A y
  refine congrArg A ?_
  funext a; apply Fin.ext
  match a with
  | ⟨0, _⟩ => show win0_4.index t (0 : Fin 2) * 24 + 1 * (y 0).val = (y 0).val; omega
  | ⟨1, _⟩ => show win0_4.index t (1 : Fin 2) * 8 + 1 * (y 1).val = (y 1).val; omega
theorem whole5 (A : Vec F S8 .f32) (t : Fin cfg0.N) : ((cfg0.win 5).blk t).view.read (Elt F) A = A := by
  obtain ⟨e60, e61, e00, e01, e10, e11, e20, e21, e30, e31, e40, e41, e50⟩ := idx_facts t
  funext y
  show A (((cfg0.win 5).blk t).view.emb y) = A y
  refine congrArg A ?_
  funext a; apply Fin.ext
  match a with
  | ⟨0, _⟩ => show win0_5.index t (0 : Fin 1) * 8 + 1 * (y 0).val = (y 0).val; omega

set_option maxHeartbeats 2000000 in
/-- Point `t` writes back block `t` of `GK` of the arrays as the region finds them. -/
theorem flushed6_eq (c : Dev nD) (t : Fin cfg0.N) :
    (dats m 0 c).flushed 6 t = ((cfg0.win 6).blk t).view.read (Elt F)
      (GK (V m c main_v54) (V m c main_v108) (V m c main_v162) (V m c main_v0) (V m c main_v163) (V m c main_arg5)) := by
  show (cfg0.win 6).cut (grid0.coords t) ((dats m 0 c).after 6 t) = _
  rw [after0_6]
  unfold out0_6
  rw [View.canon_unit_zero hz2]
  simp only [View.ld_unit_zero (S := S5000x32) hz2, View.ld_unit_zero (S := S5000x3) hz2, View.ld_unit_zero (S := S24x8) hz2,
    View.ld_unit_zero (S := S8) hz1]
  obtain ⟨e60, e61, e00, e01, e10, e11, e20, e21, e30, e31, e40, e41, e50⟩ := idx_facts t
  have ht : t.val < 800 := lt_of_lt_of_eq t.isLt N_0
  have h0 : (iblk m c 0 t : Vec F S5000x32 .f32) = rowsOf (V m c main_v54) t.val := by unfold iblk; exact rows0 _ t
  have h1 : (iblk m c 1 t : Vec F S5000x32 .f32) = rowsOf (V m c main_v108) t.val := by unfold iblk; exact rows1 _ t
  have h2 : (iblk m c 2 t : Vec F S5000x32 .f32) = rowsOf (V m c main_v162) t.val := by unfold iblk; exact rows2 _ t
  have h3 : (iblk m c 3 t : Vec F S5000x3 .f32) = rowsOf (V m c main_v0) t.val := by unfold iblk; exact rows3 _ t
  have h4 : (iblk m c 4 t : Vec F S24x8 .f32) = V m c main_v163 := by unfold iblk; exact whole4 _ t
  have h5 : (iblk m c 5 t : Vec F S8 .f32) = V m c main_arg5 := by unfold iblk; exact whole5 _ t
  funext j
  have hq : blkNo (((cfg0.win 6).blk t).view.emb j) = t.val := by
    show (win0_6.index t (0 : Fin 2) * 5000 + 1 * (j 0).val) / 5000 = t.val
    have hj : (j 0).val < 5000 := (j 0).isLt; omega
  have hl : locIdx (((cfg0.win 6).blk t).view.emb j) = j := by
    funext a; apply Fin.ext
    match a with
    | ⟨0, _⟩ => show (win0_6.index t (0 : Fin 2) * 5000 + 1 * (j 0).val) % 5000 = (j 0).val; have hj : (j 0).val < 5000 := (j 0).isLt; omega
    | ⟨1, _⟩ => show win0_6.index t (1 : Fin 2) * 8 + 1 * (j 1).val = (j 1).val; omega
  show pay (iblk m c 0 t) (iblk m c 1 t) (iblk m c 2 t) (iblk m c 3 t) (iblk m c 4 t) (iblk m c 5 t) j
    = GK (V m c main_v54) (V m c main_v108) (V m c main_v162) (V m c main_v0) (V m c main_v163) (V m c main_arg5) (((cfg0.win 6).blk t).view.emb j)
  unfold GK
  rw [hq, hl, h0, h1, h2, h3, h4, h5]

/-- Every row of the output lies in some point's block. -/
theorem cover6 (i : S4000000x8.Idx) : ∃ t : Fin cfg0.N, (cfg0.win 6).flush t = true ∧ i ∈ ((cfg0.win 6).blk t).view.set := by
  have hi0 : (i 0).val < 4000000 := (i 0).isLt
  have hi1 : (i 1).val < 8 := (i 1).isLt
  let t : Fin cfg0.N := ⟨(i 0).val / 5000, lt_of_lt_of_eq (by omega : (i 0).val / 5000 < 800) N_0.symm⟩
  obtain ⟨e60, e61, -⟩ := idx_facts t
  have e60' : win0_6.index t (0 : Fin 2) = (i 0).val / 5000 := e60
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 8 ≤ (i 1).val ∧ (i 1).val < win0_6.index t (1 : Fin 2) * 8 + 8; omega

/-- The output array after the run is `GK` of the six arrays as the region finds them. -/
theorem final6 (c : Dev nD) : (dats m 0 c).arrAt 6 cfg0.N
    = GK (V m c main_v54) (V m c main_v108) (V m c main_v162) (V m c main_v0) (V m c main_v163) (V m c main_arg5) :=
  (dats m 0 c).arrAt_eq_of_cover 6 _ (fun t _ => flushed6_eq m c t) cover6

/-! ## The run, read -/

/-- The frame run re-posted: the result array at `GK` of the staged arrays, the six arguments unchanged. -/
theorem run : θ_run defs (onTc (τ := τ) (main (F := F))) ⟨m, fun _ => 0, ρ⟩ fun r => ∀ c : Dev nD,
      r.2.mem ((c : Thread nD τ).loc main_v164)
        = GK (V m c main_v54) (V m c main_v108) (V m c main_v162) (V m c main_v0) (V m c main_v163) (V m c main_arg5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c)))⟩)
    (run_main m ρ)

end Cert.KernelIdeal.HandValue

end
-- ==== Proof.RefOpsBase.lean ====
/- What the run of the reference program's @main asks of a line of host operations, and what such a line then gives.
   The program names one HBM buffer per tensor value, numbered in the order the values are defined: the six arguments are
   indices 0 … 5, and the operation at position `i` of @main's line writes the buffer of index `6 + i`, reading only buffers of
   smaller index (each value is defined once, before its uses). `GoodFrom n l` states the first half of that of a line `l` whose
   first operation writes index `n` — with the two side conditions of the library's `run_seq` (TensorCore references only, every
   result determined). From it: the line runs; it leaves every buffer of index below `n` as it was (`keep_lt`); after the whole
   line a buffer of index below `n + i` holds what it held after the first `i` operations (`after_eq_take`); and so the
   buffer an operation writes ends holding that operation's function of what its operands END holding (`at_unary`, `at_binary`, …:
   one equation per operation, all about the one final valuation `after l V`). -/
import proofs.«114771_j71983651881269_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffers after the line `l₁ ++ l₂`: the line `l₂`'s fold over what `l₁` leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation the run accepts that writes the buffer of index `n`: everything it touches is a TensorCore reference, it
    determines what it writes, and it writes exactly one buffer, a reference of index `n` in its memory space. -/
def GoodAt (n : Nat) (op : HloOp τ sig (Elt F)) : Prop :=
  op.bufs ⊆ tcRefs τ sig ∧ op.fresh = ∅ ∧ ∃ y : Ref sig .tc, op.writes = {Proc.devRef .tc y} ∧ y.idx.val = n

/-- A line of such operations writing the indices `n`, `n + 1`, … in order. -/
def GoodFrom : Nat → List (HloOp τ sig (Elt F)) → Prop
  | _, [] => True
  | n, op :: l => GoodAt n op ∧ GoodFrom (n + 1) l

/-- Two such lines one after the other, the second starting at the index the first stops before. -/
theorem GoodFrom.append {l₁ l₂ : List (HloOp τ sig (Elt F))} : ∀ {n m : Nat}, GoodFrom n l₁ → GoodFrom m l₂ → m = n + l₁.length →
    GoodFrom n (l₁ ++ l₂) := by
  induction l₁ with
  | nil => intro n m _ h e; simp only [List.length_nil, Nat.add_zero] at e; subst e; exact h
  | cons op l ih =>
    intro n m h₁ h₂ e
    refine ⟨h₁.1, ih h₁.2 h₂ ?_⟩
    rw [List.length_cons] at e
    omega

/-- Each operation of such a line, with a lower bound on the index it writes. -/
theorem GoodFrom.mem {l : List (HloOp τ sig (Elt F))} : ∀ {n : Nat}, GoodFrom n l → ∀ op ∈ l,
    op.bufs ⊆ tcRefs τ sig ∧ op.fresh = ∅ ∧ ∃ y : Ref sig .tc, op.writes = {Proc.devRef .tc y} ∧ n ≤ y.idx.val := by
  induction l with
  | nil => intro n _ op h; exact nomatch h
  | cons o l ih =>
    intro n h op hop
    rcases List.mem_cons.mp hop with rfl | hop
    · obtain ⟨hb, hf, y, hw, hy⟩ := h.1
      exact ⟨hb, hf, y, hw, hy.ge⟩
    · obtain ⟨hb, hf, y, hw, hy⟩ := ih h.2 op hop
      exact ⟨hb, hf, y, hw, by omega⟩

/-- The first side condition of the run: the operations touch TensorCore references only. -/
theorem GoodFrom.bufs_sub {n : Nat} {l : List (HloOp τ sig (Elt F))} (h : GoodFrom n l) :
    l.Forall fun op => op.bufs ⊆ tcRefs τ sig :=
  List.forall_iff_forall_mem.mpr fun op hop => (h.mem op hop).1

/-- The second: each determines its results. -/
theorem GoodFrom.fresh {n : Nat} {l : List (HloOp τ sig (Elt F))} (h : GoodFrom n l) : ∀ op ∈ l, op.fresh = ∅ :=
  fun op hop => (h.mem op hop).2.1

/-- The line leaves a buffer of index below `n` at the contents it had: no operation of it writes that buffer. -/
theorem GoodFrom.keep_lt {n : Nat} {l : List (HloOp τ sig (Elt F))} (h : GoodFrom n l) (V : Valuation τ sig (Elt F))
    {r : Ref sig .tc} (hr : r.idx.val < n) : after l V (Proc.devRef .tc r) = V (Proc.devRef .tc r) :=
  after_of_forall_not_mem l V fun op hop hb => by
    obtain ⟨-, -, y, hw, hy⟩ := h.mem op hop
    rw [hw, Finset.mem_singleton] at hb
    have e : r = y := Proc.devRef_injective _ hb
    subst e
    omega

theorem GoodFrom.take {l : List (HloOp τ sig (Elt F))} : ∀ {n : Nat} (i : Nat), GoodFrom n l → GoodFrom n (l.take i) := by
  induction l with
  | nil => intro n i _; simp [GoodFrom]
  | cons o l ih =>
    intro n i h
    cases i with
    | zero => trivial
    | succ i => exact ⟨h.1, ih i h.2⟩

theorem GoodFrom.drop {l : List (HloOp τ sig (Elt F))} : ∀ {n : Nat} (i : Nat), GoodFrom n l → GoodFrom (n + i) (l.drop i) := by
  induction l with
  | nil => intro n i _; simp [GoodFrom]
  | cons o l ih =>
    intro n i h
    cases i with
    | zero => exact h
    | succ i =>
      have := ih i h.2
      rwa [Nat.add_assoc, Nat.add_comm 1] at this

/-- The operation at position `i` writes the buffer of index `n + i`. -/
theorem GoodFrom.getElem {l : List (HloOp τ sig (Elt F))} : ∀ {n : Nat} (i : Nat) (hi : i < l.length), GoodFrom n l →
    GoodAt (n + i) l[i] := by
  induction l with
  | nil => intro n i hi; exact absurd hi (Nat.not_lt_zero _)
  | cons o l ih =>
    intro n i hi h
    cases i with
    | zero => exact h.1
    | succ i =>
      have := ih i (Nat.lt_of_succ_lt_succ hi) h.2
      rwa [Nat.add_assoc, Nat.add_comm 1] at this

/-- After the whole line a buffer of index below `n + i` holds what it held after the first `i` operations: the rest write
    indices from `n + i` on. -/
theorem GoodFrom.after_eq_take {n : Nat} {l : List (HloOp τ sig (Elt F))} (h : GoodFrom n l) (V : Valuation τ sig (Elt F)) (i : Nat)
    {r : Ref sig .tc} (hr : r.idx.val < n + i) :
    after l V (Proc.devRef .tc r) = after (l.take i) V (Proc.devRef .tc r) := by
  conv_lhs => rw [← List.take_append_drop i l, after_append]
  exact (h.drop i).keep_lt _ hr

/-- After the whole line a buffer of index at most `n + i` holds what the operation at position `i` left there, run from what
    the first `i` operations leave. -/
theorem GoodFrom.after_eq_result {n : Nat} {l : List (HloOp τ sig (Elt F))} (h : GoodFrom n l) (V : Valuation τ sig (Elt F)) (i : Nat)
    (hi : i < l.length) {r : Ref sig .tc} (hr : r.idx.val ≤ n + i) :
    after l V (Proc.devRef .tc r) = l[i].result (after (l.take i) V) (Proc.devRef .tc r) := by
  rw [h.after_eq_take V (i + 1) (by omega), List.take_succ_eq_append_getElem hi, after_append]
  rfl

/-- The operation at the position of the buffer `y` (its index less `n`), if it is one that writes `y'`, is at position
    `y'`'s: the two are one buffer. -/
private theorem pos_eq {n : Nat} {l : List (HloOp τ sig (Elt F))} (h : GoodFrom n l) {y y' : Ref sig .tc} {op : HloOp τ sig (Elt F)}
    (he : l[y.idx.val - n]? = some op) (hw : op.writes = {Proc.devRef .tc y'}) (hn : n ≤ y.idx.val) :
    ∃ hi : y.idx.val - n < l.length, l[y.idx.val - n] = op ∧ y'.idx.val = y.idx.val := by
  obtain ⟨hi, e⟩ := List.getElem?_eq_some_iff.mp he
  obtain ⟨-, -, z, hz, hzi⟩ := h.getElem _ hi
  rw [e, hw] at hz
  have : y' = z := Proc.devRef_injective _ (Finset.singleton_inj.mp hz)
  subst this
  exact ⟨hi, e, by omega⟩

variable {n : Nat} {l : List (HloOp τ sig (Elt F))}

/-- A constant's buffer ends holding the constant. -/
theorem GoodFrom.at_nullary (h : GoodFrom n l) {y : Ref sig .tc} {v : y.ty.Contents (Elt F)} {hy}
    (he : l[y.idx.val - n]? = some (nullary y v hy)) (hn : n ≤ y.idx.val) (V : Valuation τ sig (Elt F)) :
    after l V (Proc.devRef .tc y) = v := by
  obtain ⟨hi, e, -⟩ := pos_eq h he (y' := y) rfl hn
  rw [h.after_eq_result V _ hi (by omega), e, nullary_result]

/-- A one-operand operation's result buffer ends holding its function of what the operand ends holding. -/
theorem GoodFrom.at_unary (h : GoodFrom n l) {x y : Ref sig .tc} {f : x.ty.Contents (Elt F) → y.ty.Contents (Elt F)} {hx hy}
    (he : l[y.idx.val - n]? = some (unary x y f hx hy)) (hn : n ≤ y.idx.val) (hxy : x.idx.val < y.idx.val)
    (V : Valuation τ sig (Elt F)) :
    after l V (Proc.devRef .tc y) = f (after l V (Proc.devRef .tc x)) := by
  obtain ⟨hi, e, -⟩ := pos_eq h he (y' := y) rfl hn
  rw [h.after_eq_result V _ hi (by omega), e, unary_result, h.after_eq_take V (y.idx.val - n) (r := x) (by omega)]

/-- A two-operand operation's. -/
theorem GoodFrom.at_binary (h : GoodFrom n l) {a b y : Ref sig .tc}
    {f : a.ty.Contents (Elt F) → b.ty.Contents (Elt F) → y.ty.Contents (Elt F)} {ha hb hy}
    (he : l[y.idx.val - n]? = some (binary a b y f ha hb hy)) (hn : n ≤ y.idx.val) (hay : a.idx.val < y.idx.val)
    (hby : b.idx.val < y.idx.val) (V : Valuation τ sig (Elt F)) :
    after l V (Proc.devRef .tc y) = f (after l V (Proc.devRef .tc a)) (after l V (Proc.devRef .tc b)) := by
  obtain ⟨hi, e, -⟩ := pos_eq h he (y' := y) rfl hn
  rw [h.after_eq_result V _ hi (by omega), e, binary_result, h.after_eq_take V (y.idx.val - n) (r := a) (by omega),
    h.after_eq_take V (y.idx.val - n) (r := b) (by omega)]

/-- A three-operand operation's (a select: the mask first). -/
theorem GoodFrom.at_ternary (h : GoodFrom n l) {c a b y : Ref sig .tc}
    {f : c.ty.Contents (Elt F) → a.ty.Contents (Elt F) → b.ty.Contents (Elt F) → y.ty.Contents (Elt F)} {hc ha hb hy}
    (he : l[y.idx.val - n]? = some (ternary c a b y f hc ha hb hy)) (hn : n ≤ y.idx.val) (hcy : c.idx.val < y.idx.val)
    (hay : a.idx.val < y.idx.val) (hby : b.idx.val < y.idx.val) (V : Valuation τ sig (Elt F)) :
    after l V (Proc.devRef .tc y)
      = f (after l V (Proc.devRef .tc c)) (after l V (Proc.devRef .tc a)) (after l V (Proc.devRef .tc b)) := by
  obtain ⟨hi, e, -⟩ := pos_eq h he (y' := y) rfl hn
  rw [h.after_eq_result V _ hi (by omega), e, ternary_result, h.after_eq_take V (y.idx.val - n) (r := c) (by omega),
    h.after_eq_take V (y.idx.val - n) (r := a) (by omega), h.after_eq_take V (y.idx.val - n) (r := b) (by omega)]

/-- A reshape's: the operand's elements in row-major order at the result's shape. -/
theorem GoodFrom.at_reshape (h : GoodFrom n l) {x y : Ref sig .tc} {hel : x.ty.elt = y.ty.elt} {hsc : x.ty.shape.ShapeCasts y.ty.shape} {hx hy}
    (he : l[y.idx.val - n]? = some (reshape x y hel hsc hx hy)) (hn : n ≤ y.idx.val) (hxy : x.idx.val < y.idx.val)
    (V : Valuation τ sig (Elt F)) :
    after l V (Proc.devRef .tc y) = fun i => hel ▸ shapeCast y.ty.shape (after l V (Proc.devRef .tc x)) hsc i := by
  obtain ⟨hi, e, -⟩ := pos_eq h he (y' := y) rfl hn
  rw [h.after_eq_result V _ hi (by omega), e, reshape_result, h.after_eq_take V (y.idx.val - n) (r := x) (by omega)]

/-- An operation's over a family of operands (a concatenation): its function of the family of what the operands end holding. -/
theorem GoodFrom.at_nary (h : GoodFrom n l) {k : Nat} {xs : Fin k → Ref sig .tc} {y : Ref sig .tc}
    {f : ((j : Fin k) → (xs j).ty.Contents (Elt F)) → y.ty.Contents (Elt F)} {hxs hy}
    (he : l[y.idx.val - n]? = some (nary xs y f hxs hy)) (hn : n ≤ y.idx.val) (hxy : ∀ j, (xs j).idx.val < y.idx.val)
    (V : Valuation τ sig (Elt F)) :
    after l V (Proc.devRef .tc y) = f (fun j => after l V (Proc.devRef .tc (xs j))) := by
  obtain ⟨hi, e, -⟩ := pos_eq h he (y' := y) rfl hn
  rw [h.after_eq_result V _ hi (by omega), e, nary_result]
  congr 1
  funext j
  exact (h.after_eq_take V (y.idx.val - n) (r := xs j) (by have := hxy j; omega)).symm

end Cert.ReferenceIdeal.HandRun

end
-- ==== Proof.RefOps0.lean ====
/- The reference program's @main, windows 0 of 8, each as the LIST of its host operations in order:
   a call of an outlined function is listed as the callee's operations over that call's buffer record (the
   inliner's substitution: the callee's arguments are the call's operands, its values the record's fields).
   Beside each list: every operation touches TensorCore references only, determines its result, and writes one
   buffer, the HBM buffers of consecutive indices in order (`GoodFrom`); and the printed window is the list run in order. -/
import proofs.«114771_j71983651881269_2_alg».proof.Proof.RefOpsBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 75 operations of @main's statements 1 … 60 of 439 (60 statements), in order. -/
abbrev ops0 : List (HloOp τ sig (Elt F)) :=
  [ StableHlo.nullary main_c (fun i => lit0 (S2.rowMajor i)),
    StableHlo.nullary main_cst (constant S_ .f32 0xBF800000#32),
    StableHlo.nullary main_cst_0 (constant S_ .f32 0x3F800000#32),
    -- the call of @clip over main_call0: its 6 operations
    StableHlo.TRef.unary (.of main_cst : TRef sig ⟨S_, .f32⟩) main_call0.v0 id,
    StableHlo.TRef.unary main_call0.v0 main_call0.v1 (broadcastInDim S4000000x3 ![] bcast_S_S4000000x3),
    StableHlo.TRef.binary main_call0.v1 (.of main_arg0 : TRef sig ⟨S4000000x3, .f32⟩) main_call0.v2 maximumf,
    StableHlo.TRef.unary (.of main_cst_0 : TRef sig ⟨S_, .f32⟩) main_call0.v3 id,
    StableHlo.TRef.unary main_call0.v3 main_call0.v4 (broadcastInDim S4000000x3 ![] bcast_S_S4000000x3),
    StableHlo.TRef.binary main_call0.v4 main_call0.v2 main_call0.v5 minimumf,
    StableHlo.unary main_v0 main_v1 ((extractStridedSlice S4000000x2 ![0, 0] · slices_S4000000x3_S4000000x2_0_0) : (⟨S4000000x3, .f32⟩ : BufTy).Contents (Elt F) → (⟨S4000000x2, .f32⟩ : BufTy).Contents (Elt F)),
    StableHlo.unary main_v1 main_v2 ((extractStridedSlice S4000000x1 ![0, 0] · slices_S4000000x2_S4000000x1_0_0) : (⟨S4000000x2, .f32⟩ : BufTy).Contents (Elt F) → (⟨S4000000x1, .f32⟩ : BufTy).Contents (Elt F)),
    StableHlo.reshape main_v2 main_v3 rfl shapeCasts_S4000000x1_S4000000,
    StableHlo.nullary main_cst_1 (constant S_ .f32 0x3F800000#32),
    StableHlo.unary main_cst_1 main_v4 (broadcastInDim S4000000 ![] bcast_S_S4000000 : (⟨S_, .f32⟩ : BufTy).Contents (Elt F) → (⟨S4000000, .f32⟩ : BufTy).Contents (Elt F)),
    StableHlo.binary main_v3 main_v4 main_v5 (addf : (⟨S4000000, .f32⟩ : BufTy).Contents (Elt F) → (⟨S4000000, .f32⟩ : BufTy).Contents (Elt F) → (⟨S4000000, .f32⟩ : BufTy).Contents (Elt F)),
    StableHlo.nullary main_cst_2 (constant S_ .f32 0x44000000#32),
    StableHlo.unary main_cst_2 main_v6 (broadcastInDim S4000000 ![] bcast_S_S4000000 : (⟨S_, .f32⟩ : BufTy).Contents (Elt F) → (⟨S4000000, .f32⟩ : BufTy).Contents (Elt F)),
    StableHlo.binary main_v5 main_v6 main_v7 (mulf : (⟨S4000000, .f32⟩ : BufTy).Contents (Elt F) → (⟨S4000000, .f32⟩ : BufTy).Contents (Elt F) → (⟨S4000000, .f32⟩ : BufTy).Contents (Elt F)),
    StableHlo.nullary main_cst_3 (constant S_ .f32 0x3F800000#32),
    StableHlo.unary main_cst_3 main_v8 (broadcastInDim S4000000 ![] bcast_S_S4000000 : (⟨S_, .f32⟩ : BufTy).Contents (Elt F) → (⟨S4000000, .f32⟩ : BufTy).Contents (Elt F)),
    StableHlo.binary main_v7 main_v8 main_v9 (subf : (⟨S4000000, .f32⟩ : BufTy).Contents (Elt F) → (⟨S4000000, .f32⟩ : BufTy).Contents (Elt F) → (⟨S4000000, .f32⟩ : BufTy).Contents (Elt F)),
    StableHlo.nullary main_cst_4 (constant S_ .f32 0x3F000000#32),
    StableHlo.unary main_cst_4 main_v10 (broadcastInDim S4000000 ![] bcast_S_S4000000 : (⟨S_, .f32⟩ : BufTy).Contents (Elt F) → (⟨S4000000, .f32⟩ : BufTy).Contents (Elt F)),
    StableHlo.binary main_v9 main_v10 main_v11 (mulf : (⟨S4000000, .f32⟩ : BufTy).Contents (Elt F) → (⟨S4000000, .f32⟩ : BufTy).Contents (Elt F) → (⟨S4000000, .f32⟩ : BufTy).Contents (Elt F)),
    StableHlo.nullary main_cst_5 (constant S_ .f32 0x00000000#32),
    StableHlo.nullary main_cst_6 (constant S_ .f32 0x43FF8000#32),
    -- the call of @clip_0 over main_call1: its 6 operations
    StableHlo.TRef.unary (.of main_cst_5 : TRef sig ⟨S_, .f32⟩) main_call1.v0 id,
    StableHlo.TRef.unary main_call1.v0 main_call1.v1 (broadcastInDim S4000000 ![] bcast_S_S4000000),
    StableHlo.TRef.binary main_call1.v1 (.of main_v11 : TRef sig ⟨S4000000, .f32⟩) main_call1.v2 maximumf,
    StableHlo.TRef.unary (.of main_cst_6 : TRef sig ⟨S_, .f32⟩) main_call1.v3 id,
    StableHlo.TRef.unary main_call1.v3 main_call1.v4 (broadcastInDim S4000000 ![] bcast_S_S4000000),
    StableHlo.TRef.binary main_call1.v4 main_call1.v2 main_call1.v5 minimumf,
    StableHlo.unary main_v1 main_v13 ((extractStridedSlice S4000000x1 ![0, 1] · slices_S4000000x2_S4000000x1_0_1) : (⟨S4000000x2, .f32⟩ : BufTy).Contents (Elt F) → (⟨S4000000x1, .f32⟩ : BufTy).Contents (Elt F)),
    StableHlo.reshape main_v13 main_v14 rfl shapeCasts_S4000000x1_S4000000,
    StableHlo.nullary main_cst_7 (constant S_ .f32 0x3F800000#32),
    StableHlo.unary main_cst_7 main_v15 (broadcastInDim S4000000 ![] bcast_S_S4000000 : (⟨S_, .f32⟩ : BufTy).Contents (Elt F) → (⟨S4000000, .f32⟩ : BufTy).Contents (Elt F)),
    StableHlo.binary main_v14 main_v15 main_v16 (addf : (⟨S4000000, .f32⟩ : BufTy).Contents (Elt F) → (⟨S4000000, .f32⟩ : BufTy).Contents (Elt F) → (⟨S4000000, .f32⟩ : BufTy).Contents (Elt F)),
    StableHlo.nullary main_cst_8 (constant S_ .f32 0x44000000#32),
    StableHlo.unary main_cst_8 main_v17 (broadcastInDim S4000000 ![] bcast_S_S4000000 : (⟨S_, .f32⟩ : BufTy).Contents (Elt F) → (⟨S4000000, .f32⟩ : BufTy).Contents (Elt F)),
    StableHlo.binary main_v16 main_v17 main_v18 (mulf : (⟨S4000000, .f32⟩ : BufTy).Contents (Elt F) → (⟨S4000000, .f32⟩ : BufTy).Contents (Elt F) → (⟨S4000000, .f32⟩ : BufTy).Contents (Elt F)),
    StableHlo.nullary main_cst_9 (constant S_ .f32 0x3F800000#32),
    StableHlo.unary main_cst_9 main_v19 (broadcastInDim S4000000 ![] bcast_S_S4000000 : (⟨S_, .f32⟩ : BufTy).Contents (Elt F) → (⟨S4000000, .f32⟩ : BufTy).Contents (Elt F)),
    StableHlo.binary main_v18 main_v19 main_v20 (subf : (⟨S4000000, .f32⟩ : BufTy).Contents (Elt F) → (⟨S4000000, .f32⟩ : BufTy).Contents (Elt F) → (⟨S4000000, .f32⟩ : BufTy).Contents (Elt F)),
    StableHlo.nullary main_cst_10 (constant S_ .f32 0x3F000000#32),
    StableHlo.unary main_cst_10 main_v21 (broadcastInDim S4000000 ![] bcast_S_S4000000 : (⟨S_, .f32⟩ : BufTy).Contents (Elt F) → (⟨S4000000, .f32⟩ : BufTy).Contents (Elt F)),
    StableHlo.binary main_v20 main_v21 main_v22 (mulf : (⟨S4000000, .f32⟩ : BufTy).Contents (Elt F) → (⟨S4000000, .f32⟩ : BufTy).Contents (Elt F) → (⟨S4000000, .f32⟩ : BufTy).Contents (Elt F)),
    StableHlo.nullary main_cst_11 (constant S_ .f32 0x00000000#32),
    StableHlo.nullary main_cst_12 (constant S_ .f32 0x43FF8000#32),
    -- the call of @clip_0 over main_call2: its 6 operations
    StableHlo.TRef.unary (.of main_cst_11 : TRef sig ⟨S_, .f32⟩) main_call2.v0 id,
    StableHlo.TRef.unary main_call2.v0 main_call2.v1 (broadcastInDim S4000000 ![] bcast_S_S4000000),
    StableHlo.TRef.binary main_call2.v1 (.of main_v22 : TRef sig ⟨S4000000, .f32⟩) main_call2.v2 maximumf,
    StableHlo.TRef.unary (.of main_cst_12 : TRef sig ⟨S_, .f32⟩) main_call2.v3 id,
    StableHlo.TRef.unary main_call2.v3 main_call2.v4 (broadcastInDim S4000000 ![] bcast_S_S4000000),
    StableHlo.TRef.binary main_call2.v4 main_call2.v2 main_call2.v5 minimumf,
    StableHlo.unary main_v12 main_v24 (Host.floor : (⟨S4000000, .f32⟩ : BufTy).Contents (Elt F) → (⟨S4000000, .f32⟩ : BufTy).Contents (Elt F)),
    StableHlo.unary main_v23 main_v25 (Host.floor : (⟨S4000000, .f32⟩ : BufTy).Contents (Elt F) → (⟨S4000000, .f32⟩ : BufTy).Contents (Elt F)),
    StableHlo.binary main_v12 main_v24 main_v26 (subf : (⟨S4000000, .f32⟩ : BufTy).Contents (Elt F) → (⟨S4000000, .f32⟩ : BufTy).Contents (Elt F) → (⟨S4000000, .f32⟩ : BufTy).Contents (Elt F)),
    StableHlo.unary main_v26 main_v27 (broadcastInDim S4000000x1 ![0] bcast_S4000000_S4000000x1_0 : (⟨S4000000, .f32⟩ : BufTy).Contents (Elt F) → (⟨S4000000x1, .f32⟩ : BufTy).Contents (Elt F)),
    StableHlo.binary main_v23 main_v25 main_v28 (subf : (⟨S4000000, .f32⟩ : BufTy).Contents (Elt F) → (⟨S4000000, .f32⟩ : BufTy).Contents (Elt F) → (⟨S4000000, .f32⟩ : BufTy).Contents (Elt F)),
    StableHlo.unary main_v28 main_v29 (broadcastInDim S4000000x1 ![0] bcast_S4000000_S4000000x1_0 : (⟨S4000000, .f32⟩ : BufTy).Contents (Elt F) → (⟨S4000000x1, .f32⟩ : BufTy).Contents (Elt F)),
    StableHlo.unary main_v24 main_v30 (fptosi 32 : (⟨S4000000, .f32⟩ : BufTy).Contents (Elt F) → (⟨S4000000, .i32⟩ : BufTy).Contents (Elt F)),
    StableHlo.unary main_v25 main_v31 (fptosi 32 : (⟨S4000000, .f32⟩ : BufTy).Contents (Elt F) → (⟨S4000000, .i32⟩ : BufTy).Contents (Elt F)),
    StableHlo.nullary main_c_13 (constantI S_ 32 1#32),
    StableHlo.unary main_c_13 main_v32 (broadcastInDim S4000000 ![] bcast_S_S4000000 : (⟨S_, .i32⟩ : BufTy).Contents (Elt F) → (⟨S4000000, .i32⟩ : BufTy).Contents (Elt F)),
    StableHlo.binary main_v30 main_v32 main_v33 (addi : (⟨S4000000, .i32⟩ : BufTy).Contents (Elt F) → (⟨S4000000, .i32⟩ : BufTy).Contents (Elt F) → (⟨S4000000, .i32⟩ : BufTy).Contents (Elt F)),
    StableHlo.nullary main_c_14 (constantI S_ 32 511#32),
    StableHlo.unary main_c_14 main_v34 (broadcastInDim S4000000 ![] bcast_S_S4000000 : (⟨S_, .i32⟩ : BufTy).Contents (Elt F) → (⟨S4000000, .i32⟩ : BufTy).Contents (Elt F)),
    StableHlo.binary main_v33 main_v34 main_v35 (minsi : (⟨S4000000, .i32⟩ : BufTy).Contents (Elt F) → (⟨S4000000, .i32⟩ : BufTy).Contents (Elt F) → (⟨S4000000, .i32⟩ : BufTy).Contents (Elt F)),
    StableHlo.nullary main_c_15 (constantI S_ 32 1#32),
    StableHlo.unary main_c_15 main_v36 (broadcastInDim S4000000 ![] bcast_S_S4000000 : (⟨S_, .i32⟩ : BufTy).Contents (Elt F) → (⟨S4000000, .i32⟩ : BufTy).Contents (Elt F)),
    StableHlo.binary main_v31 main_v36 main_v37 (addi : (⟨S4000000, .i32⟩ : BufTy).Contents (Elt F) → (⟨S4000000, .i32⟩ : BufTy).Contents (Elt F) → (⟨S4000000, .i32⟩ : BufTy).Contents (Elt F)),
    StableHlo.nullary main_c_16 (constantI S_ 32 511#32),
    StableHlo.unary main_c_16 main_v38 (broadcastInDim S4000000 ![] bcast_S_S4000000 : (⟨S_, .i32⟩ : BufTy).Contents (Elt F) → (⟨S4000000, .i32⟩ : BufTy).Contents (Elt F)),
    StableHlo.binary main_v37 main_v38 main_v39 (minsi : (⟨S4000000, .i32⟩ : BufTy).Contents (Elt F) → (⟨S4000000, .i32⟩ : BufTy).Contents (Elt F) → (⟨S4000000, .i32⟩ : BufTy).Contents (Elt F)),
    StableHlo.nullary main_c_17 (constantI S_ 32 0#32) ]

/-- The line is `GoodFrom 6`: each operation's buffers are TensorCore references (the builder's `*_bufs_sub`), it leaves
    no buffer undetermined, and the one buffer it writes is the reference of the next index, from 6 (to 80). -/
theorem good0 : GoodFrom 6 (ops0 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (nullary_bufs_sub ..), g (nullary_bufs_sub ..), g (unary_bufs_sub ..),
   g (unary_bufs_sub ..), g (binary_bufs_sub ..), g (unary_bufs_sub ..), g (unary_bufs_sub ..),
   g (binary_bufs_sub ..), g (unary_bufs_sub ..), g (unary_bufs_sub ..), g (reshape_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (nullary_bufs_sub ..), g (nullary_bufs_sub ..), g (unary_bufs_sub ..), g (unary_bufs_sub ..),
   g (binary_bufs_sub ..), g (unary_bufs_sub ..), g (unary_bufs_sub ..), g (binary_bufs_sub ..),
   g (unary_bufs_sub ..), g (reshape_bufs_sub ..), g (nullary_bufs_sub ..), g (unary_bufs_sub ..),
   g (binary_bufs_sub ..), g (nullary_bufs_sub ..), g (unary_bufs_sub ..), g (binary_bufs_sub ..),
   g (nullary_bufs_sub ..), g (unary_bufs_sub ..), g (binary_bufs_sub ..), g (nullary_bufs_sub ..),
   g (unary_bufs_sub ..), g (binary_bufs_sub ..), g (nullary_bufs_sub ..), g (nullary_bufs_sub ..),
   g (unary_bufs_sub ..), g (unary_bufs_sub ..), g (binary_bufs_sub ..), g (unary_bufs_sub ..),
   g (unary_bufs_sub ..), g (binary_bufs_sub ..), g (unary_bufs_sub ..), g (unary_bufs_sub ..),
   g (binary_bufs_sub ..), g (unary_bufs_sub ..), g (binary_bufs_sub ..), g (unary_bufs_sub ..),
   g (unary_bufs_sub ..), g (unary_bufs_sub ..), g (nullary_bufs_sub ..), g (unary_bufs_sub ..),
   g (binary_bufs_sub ..), g (nullary_bufs_sub ..), g (unary_bufs_sub ..), g (binary_bufs_sub ..),
   g (nullary_bufs_sub ..), g (unary_bufs_sub ..), g (binary_bufs_sub ..), g (nullary_bufs_sub ..),
   g (unary_bufs_sub ..), g (binary_bufs_sub ..), g (nullary_bufs_sub ..), trivial⟩

/-- The printed window is these operations run in order: the callees' definitions unfolded at the calls, both sides are
    one chain of `hlo` steps once sequencing is reassociated. -/
theorem part0_eq (c : Dev nD) : main_part0 (F := F) c = seq ops0 := by
  simp only [main_part0, fn_clip.body, fn_clip_0.body, fn_clip_1.body, seq, bind_assoc, pure_bind] <;> rfl

end Cert.ReferenceIdeal.HandRun

end
-- ==== Proof.RefOps1.lean ====
/- The reference program's @main, windows 1 of 8, each as the LIST of its host operations in order:
   a call of an outlined function is listed as the callee's operations over that call's buffer record (the
   inliner's substitution: the callee's arguments are the call's operands, its values the record's fields).
   Beside each list: every operation touches TensorCore references only, determines its result, and writes one
   buffer, the HBM buffers of consecutive indices in order (`GoodFrom`); and the printed window is the list run in order. -/
import proofs.«114771_j71983651881269_2_alg».proof.Proof.RefOpsBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 60 operations of @main's statements 61 … 120 of 439 (60 statements), in order. -/
abbrev ops1 : List (HloOp τ sig (Elt F)) :=
  [ StableHlo.unary main_c_17 main_v40 (broadcastInDim S4000000 ![] bcast_S_S4000000 : (⟨S_, .i32⟩ : BufTy).Contents (Elt F) → (⟨S4000000, .i32⟩ : BufTy).Contents (Elt F)),
    StableHlo.binary main_v31 main_v40 main_v41 (cmpi .slt : (⟨S4000000, .i32⟩ : BufTy).Contents (Elt F) → (⟨S4000000, .i32⟩ : BufTy).Contents (Elt F) → (⟨S4000000, .i1⟩ : BufTy).Contents (Elt F)),
    StableHlo.nullary main_c_18 (constantI S_ 32 512#32),
    StableHlo.unary main_c_18 main_v42 (broadcastInDim S4000000 ![] bcast_S_S4000000 : (⟨S_, .i32⟩ : BufTy).Contents (Elt F) → (⟨S4000000, .i32⟩ : BufTy).Contents (Elt F)),
    StableHlo.binary main_v31 main_v42 main_v43 (addi : (⟨S4000000, .i32⟩ : BufTy).Contents (Elt F) → (⟨S4000000, .i32⟩ : BufTy).Contents (Elt F) → (⟨S4000000, .i32⟩ : BufTy).Contents (Elt F)),
    StableHlo.ternary main_v41 main_v43 main_v31 main_v44 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_19 (constantI S_ 32 0#32),
    StableHlo.unary main_c_19 main_v45 (broadcastInDim S4000000 ![] bcast_S_S4000000 : (⟨S_, .i32⟩ : BufTy).Contents (Elt F) → (⟨S4000000, .i32⟩ : BufTy).Contents (Elt F)),
    StableHlo.binary main_v30 main_v45 main_v46 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 512#32),
    StableHlo.unary main_c_20 main_v47 (broadcastInDim S4000000 ![] bcast_S_S4000000 : (⟨S_, .i32⟩ : BufTy).Contents (Elt F) → (⟨S4000000, .i32⟩ : BufTy).Contents (Elt F)),
    StableHlo.binary main_v30 main_v47 main_v48 (addi : (⟨S4000000, .i32⟩ : BufTy).Contents (Elt F) → (⟨S4000000, .i32⟩ : BufTy).Contents (Elt F) → (⟨S4000000, .i32⟩ : BufTy).Contents (Elt F)),
    StableHlo.ternary main_v46 main_v48 main_v30 main_v49 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v44 main_v50 (broadcastInDim S4000000x1 ![0] bcast_S4000000_S4000000x1_0 : (⟨S4000000, .i32⟩ : BufTy).Contents (Elt F) → (⟨S4000000x1, .i32⟩ : BufTy).Contents (Elt F)),
    StableHlo.unary main_v49 main_v51 (broadcastInDim S4000000x1 ![0] bcast_S4000000_S4000000x1_0 : (⟨S4000000, .i32⟩ : BufTy).Contents (Elt F) → (⟨S4000000x1, .i32⟩ : BufTy).Contents (Elt F)),
    StableHlo.binary main_v50 main_v51 main_v52 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg1 main_v52 main_v53 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.nullary main_c_21 (constantI S_ 32 0#32),
    StableHlo.unary main_c_21 main_v54 (broadcastInDim S4000000 ![] bcast_S_S4000000 : (⟨S_, .i32⟩ : BufTy).Contents (Elt F) → (⟨S4000000, .i32⟩ : BufTy).Contents (Elt F)),
    StableHlo.binary main_v31 main_v54 main_v55 (cmpi .slt : (⟨S4000000, .i32⟩ : BufTy).Contents (Elt F) → (⟨S4000000, .i32⟩ : BufTy).Contents (Elt F) → (⟨S4000000, .i1⟩ : BufTy).Contents (Elt F)),
    StableHlo.nullary main_c_22 (constantI S_ 32 512#32),
    StableHlo.unary main_c_22 main_v56 (broadcastInDim S4000000 ![] bcast_S_S4000000 : (⟨S_, .i32⟩ : BufTy).Contents (Elt F) → (⟨S4000000, .i32⟩ : BufTy).Contents (Elt F)),
    StableHlo.binary main_v31 main_v56 main_v57 (addi : (⟨S4000000, .i32⟩ : BufTy).Contents (Elt F) → (⟨S4000000, .i32⟩ : BufTy).Contents (Elt F) → (⟨S4000000, .i32⟩ : BufTy).Contents (Elt F)),
    StableHlo.ternary main_v55 main_v57 main_v31 main_v58 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_23 (constantI S_ 32 0#32),
    StableHlo.unary main_c_23 main_v59 (broadcastInDim S4000000 ![] bcast_S_S4000000 : (⟨S_, .i32⟩ : BufTy).Contents (Elt F) → (⟨S4000000, .i32⟩ : BufTy).Contents (Elt F)),
    StableHlo.binary main_v35 main_v59 main_v60 (cmpi .slt : (⟨S4000000, .i32⟩ : BufTy).Contents (Elt F) → (⟨S4000000, .i32⟩ : BufTy).Contents (Elt F) → (⟨S4000000, .i1⟩ : BufTy).Contents (Elt F)),
    StableHlo.nullary main_c_24 (constantI S_ 32 512#32),
    StableHlo.unary main_c_24 main_v61 (broadcastInDim S4000000 ![] bcast_S_S4000000 : (⟨S_, .i32⟩ : BufTy).Contents (Elt F) → (⟨S4000000, .i32⟩ : BufTy).Contents (Elt F)),
    StableHlo.binary main_v35 main_v61 main_v62 (addi : (⟨S4000000, .i32⟩ : BufTy).Contents (Elt F) → (⟨S4000000, .i32⟩ : BufTy).Contents (Elt F) → (⟨S4000000, .i32⟩ : BufTy).Contents (Elt F)),
    StableHlo.ternary main_v60 main_v62 main_v35 main_v63 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v58 main_v64 (broadcastInDim S4000000x1 ![0] bcast_S4000000_S4000000x1_0 : (⟨S4000000, .i32⟩ : BufTy).Contents (Elt F) → (⟨S4000000x1, .i32⟩ : BufTy).Contents (Elt F)),
    StableHlo.unary main_v63 main_v65 (broadcastInDim S4000000x1 ![0] bcast_S4000000_S4000000x1_0 : (⟨S4000000, .i32⟩ : BufTy).Contents (Elt F) → (⟨S4000000x1, .i32⟩ : BufTy).Contents (Elt F)),
    StableHlo.binary main_v64 main_v65 main_v66 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg1 main_v66 main_v67 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.nullary main_c_25 (constantI S_ 32 0#32),
    StableHlo.unary main_c_25 main_v68 (broadcastInDim S4000000 ![] bcast_S_S4000000 : (⟨S_, .i32⟩ : BufTy).Contents (Elt F) → (⟨S4000000, .i32⟩ : BufTy).Contents (Elt F)),
    StableHlo.binary main_v39 main_v68 main_v69 (cmpi .slt : (⟨S4000000, .i32⟩ : BufTy).Contents (Elt F) → (⟨S4000000, .i32⟩ : BufTy).Contents (Elt F) → (⟨S4000000, .i1⟩ : BufTy).Contents (Elt F)),
    StableHlo.nullary main_c_26 (constantI S_ 32 512#32),
    StableHlo.unary main_c_26 main_v70 (broadcastInDim S4000000 ![] bcast_S_S4000000 : (⟨S_, .i32⟩ : BufTy).Contents (Elt F) → (⟨S4000000, .i32⟩ : BufTy).Contents (Elt F)),
    StableHlo.binary main_v39 main_v70 main_v71 (addi : (⟨S4000000, .i32⟩ : BufTy).Contents (Elt F) → (⟨S4000000, .i32⟩ : BufTy).Contents (Elt F) → (⟨S4000000, .i32⟩ : BufTy).Contents (Elt F)),
    StableHlo.ternary main_v69 main_v71 main_v39 main_v72 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_27 (constantI S_ 32 0#32),
    StableHlo.unary main_c_27 main_v73 (broadcastInDim S4000000 ![] bcast_S_S4000000 : (⟨S_, .i32⟩ : BufTy).Contents (Elt F) → (⟨S4000000, .i32⟩ : BufTy).Contents (Elt F)),
    StableHlo.binary main_v30 main_v73 main_v74 (cmpi .slt : (⟨S4000000, .i32⟩ : BufTy).Contents (Elt F) → (⟨S4000000, .i32⟩ : BufTy).Contents (Elt F) → (⟨S4000000, .i1⟩ : BufTy).Contents (Elt F)),
    StableHlo.nullary main_c_28 (constantI S_ 32 512#32),
    StableHlo.unary main_c_28 main_v75 (broadcastInDim S4000000 ![] bcast_S_S4000000 : (⟨S_, .i32⟩ : BufTy).Contents (Elt F) → (⟨S4000000, .i32⟩ : BufTy).Contents (Elt F)),
    StableHlo.binary main_v30 main_v75 main_v76 (addi : (⟨S4000000, .i32⟩ : BufTy).Contents (Elt F) → (⟨S4000000, .i32⟩ : BufTy).Contents (Elt F) → (⟨S4000000, .i32⟩ : BufTy).Contents (Elt F)),
    StableHlo.ternary main_v74 main_v76 main_v30 main_v77 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v72 main_v78 (broadcastInDim S4000000x1 ![0] bcast_S4000000_S4000000x1_0 : (⟨S4000000, .i32⟩ : BufTy).Contents (Elt F) → (⟨S4000000x1, .i32⟩ : BufTy).Contents (Elt F)),
    StableHlo.unary main_v77 main_v79 (broadcastInDim S4000000x1 ![0] bcast_S4000000_S4000000x1_0 : (⟨S4000000, .i32⟩ : BufTy).Contents (Elt F) → (⟨S4000000x1, .i32⟩ : BufTy).Contents (Elt F)),
    StableHlo.binary main_v78 main_v79 main_v80 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg1 main_v80 main_v81 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.nullary main_c_29 (constantI S_ 32 0#32),
    StableHlo.unary main_c_29 main_v82 (broadcastInDim S4000000 ![] bcast_S_S4000000 : (⟨S_, .i32⟩ : BufTy).Contents (Elt F) → (⟨S4000000, .i32⟩ : BufTy).Contents (Elt F)),
    StableHlo.binary main_v39 main_v82 main_v83 (cmpi .slt : (⟨S4000000, .i32⟩ : BufTy).Contents (Elt F) → (⟨S4000000, .i32⟩ : BufTy).Contents (Elt F) → (⟨S4000000, .i1⟩ : BufTy).Contents (Elt F)),
    StableHlo.nullary main_c_30 (constantI S_ 32 512#32),
    StableHlo.unary main_c_30 main_v84 (broadcastInDim S4000000 ![] bcast_S_S4000000 : (⟨S_, .i32⟩ : BufTy).Contents (Elt F) → (⟨S4000000, .i32⟩ : BufTy).Contents (Elt F)),
    StableHlo.binary main_v39 main_v84 main_v85 (addi : (⟨S4000000, .i32⟩ : BufTy).Contents (Elt F) → (⟨S4000000, .i32⟩ : BufTy).Contents (Elt F) → (⟨S4000000, .i32⟩ : BufTy).Contents (Elt F)),
    StableHlo.ternary main_v83 main_v85 main_v39 main_v86 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) ]

/-- The line is `GoodFrom 81`: each operation's buffers are TensorCore references (the builder's `*_bufs_sub`), it leaves
    no buffer undetermined, and the one buffer it writes is the reference of the next index, from 81 (to 140). -/
theorem good1 : GoodFrom 81 (ops1 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (binary_bufs_sub ..), g (nullary_bufs_sub ..), g (unary_bufs_sub ..),
   g (binary_bufs_sub ..), g (ternary_bufs_sub ..), g (nullary_bufs_sub ..), g (unary_bufs_sub ..),
   g (binary_bufs_sub ..), g (nullary_bufs_sub ..), g (unary_bufs_sub ..), g (binary_bufs_sub ..),
   g (ternary_bufs_sub ..), g (unary_bufs_sub ..), g (unary_bufs_sub ..), g (binary_bufs_sub ..),
   g (binary_bufs_sub ..), g (nullary_bufs_sub ..), g (unary_bufs_sub ..), g (binary_bufs_sub ..),
   g (nullary_bufs_sub ..), g (unary_bufs_sub ..), g (binary_bufs_sub ..), g (ternary_bufs_sub ..),
   g (nullary_bufs_sub ..), g (unary_bufs_sub ..), g (binary_bufs_sub ..), g (nullary_bufs_sub ..),
   g (unary_bufs_sub ..), g (binary_bufs_sub ..), g (ternary_bufs_sub ..), g (unary_bufs_sub ..),
   g (unary_bufs_sub ..), g (binary_bufs_sub ..), g (binary_bufs_sub ..), g (nullary_bufs_sub ..),
   g (unary_bufs_sub ..), g (binary_bufs_sub ..), g (nullary_bufs_sub ..), g (unary_bufs_sub ..),
   g (binary_bufs_sub ..), g (ternary_bufs_sub ..), g (nullary_bufs_sub ..), g (unary_bufs_sub ..),
   g (binary_bufs_sub ..), g (nullary_bufs_sub ..), g (unary_bufs_sub ..), g (binary_bufs_sub ..),
   g (ternary_bufs_sub ..), g (unary_bufs_sub ..), g (unary_bufs_sub ..), g (binary_bufs_sub ..),
   g (binary_bufs_sub ..), g (nullary_bufs_sub ..), g (unary_bufs_sub ..), g (binary_bufs_sub ..),
   g (nullary_bufs_sub ..), g (unary_bufs_sub ..), g (binary_bufs_sub ..), g (ternary_bufs_sub ..), trivial⟩

/-- The printed window is these operations run in order: the callees' definitions unfolded at the calls, both sides are
    one chain of `hlo` steps once sequencing is reassociated. -/
theorem part1_eq (c : Dev nD) : main_part1 (F := F) c = seq ops1 := by
  simp only [main_part1, fn_clip.body, fn_clip_0.body, fn_clip_1.body, seq, bind_assoc, pure_bind] <;> rfl

end Cert.ReferenceIdeal.HandRun

end
-- ==== Proof.RefOps2.lean ====
/- The reference program's @main, windows 2 of 8, each as the LIST of its host operations in order:
   a call of an outlined function is listed as the callee's operations over that call's buffer record (the
   inliner's substitution: the callee's arguments are the call's operands, its values the record's fields).
   Beside each list: every operation touches TensorCore references only, determines its result, and writes one
   buffer, the HBM buffers of consecutive indices in order (`GoodFrom`); and the printed window is the list run in order. -/
import proofs.«114771_j71983651881269_2_alg».proof.Proof.RefOpsBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 65 operations of @main's statements 121 … 180 of 439 (60 statements), in order. -/
abbrev ops2 : List (HloOp τ sig (Elt F)) :=
  [ StableHlo.nullary main_c_31 (constantI S_ 32 0#32),
    StableHlo.unary main_c_31 main_v87 (broadcastInDim S4000000 ![] bcast_S_S4000000 : (⟨S_, .i32⟩ : BufTy).Contents (Elt F) → (⟨S4000000, .i32⟩ : BufTy).Contents (Elt F)),
    StableHlo.binary main_v35 main_v87 main_v88 (cmpi .slt : (⟨S4000000, .i32⟩ : BufTy).Contents (Elt F) → (⟨S4000000, .i32⟩ : BufTy).Contents (Elt F) → (⟨S4000000, .i1⟩ : BufTy).Contents (Elt F)),
    StableHlo.nullary main_c_32 (constantI S_ 32 512#32),
    StableHlo.unary main_c_32 main_v89 (broadcastInDim S4000000 ![] bcast_S_S4000000 : (⟨S_, .i32⟩ : BufTy).Contents (Elt F) → (⟨S4000000, .i32⟩ : BufTy).Contents (Elt F)),
    StableHlo.binary main_v35 main_v89 main_v90 (addi : (⟨S4000000, .i32⟩ : BufTy).Contents (Elt F) → (⟨S4000000, .i32⟩ : BufTy).Contents (Elt F) → (⟨S4000000, .i32⟩ : BufTy).Contents (Elt F)),
    StableHlo.ternary main_v88 main_v90 main_v35 main_v91 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v86 main_v92 (broadcastInDim S4000000x1 ![0] bcast_S4000000_S4000000x1_0 : (⟨S4000000, .i32⟩ : BufTy).Contents (Elt F) → (⟨S4000000x1, .i32⟩ : BufTy).Contents (Elt F)),
    StableHlo.unary main_v91 main_v93 (broadcastInDim S4000000x1 ![0] bcast_S4000000_S4000000x1_0 : (⟨S4000000, .i32⟩ : BufTy).Contents (Elt F) → (⟨S4000000x1, .i32⟩ : BufTy).Contents (Elt F)),
    StableHlo.binary main_v92 main_v93 main_v94 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg1 main_v94 main_v95 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.binary main_v67 main_v53 main_v96 (subf : (⟨S4000000x8, .f32⟩ : BufTy).Contents (Elt F) → (⟨S4000000x8, .f32⟩ : BufTy).Contents (Elt F) → (⟨S4000000x8, .f32⟩ : BufTy).Contents (Elt F)),
    StableHlo.unary main_v27 main_v97 (broadcastInDim S4000000x8 ![0, 1] bcast_S4000000x1_S4000000x8_0_1 : (⟨S4000000x1, .f32⟩ : BufTy).Contents (Elt F) → (⟨S4000000x8, .f32⟩ : BufTy).Contents (Elt F)),
    StableHlo.binary main_v97 main_v96 main_v98 (mulf : (⟨S4000000x8, .f32⟩ : BufTy).Contents (Elt F) → (⟨S4000000x8, .f32⟩ : BufTy).Contents (Elt F) → (⟨S4000000x8, .f32⟩ : BufTy).Contents (Elt F)),
    StableHlo.binary main_v53 main_v98 main_v99 (addf : (⟨S4000000x8, .f32⟩ : BufTy).Contents (Elt F) → (⟨S4000000x8, .f32⟩ : BufTy).Contents (Elt F) → (⟨S4000000x8, .f32⟩ : BufTy).Contents (Elt F)),
    StableHlo.binary main_v95 main_v81 main_v100 (subf : (⟨S4000000x8, .f32⟩ : BufTy).Contents (Elt F) → (⟨S4000000x8, .f32⟩ : BufTy).Contents (Elt F) → (⟨S4000000x8, .f32⟩ : BufTy).Contents (Elt F)),
    StableHlo.unary main_v27 main_v101 (broadcastInDim S4000000x8 ![0, 1] bcast_S4000000x1_S4000000x8_0_1 : (⟨S4000000x1, .f32⟩ : BufTy).Contents (Elt F) → (⟨S4000000x8, .f32⟩ : BufTy).Contents (Elt F)),
    StableHlo.binary main_v101 main_v100 main_v102 (mulf : (⟨S4000000x8, .f32⟩ : BufTy).Contents (Elt F) → (⟨S4000000x8, .f32⟩ : BufTy).Contents (Elt F) → (⟨S4000000x8, .f32⟩ : BufTy).Contents (Elt F)),
    StableHlo.binary main_v81 main_v102 main_v103 (addf : (⟨S4000000x8, .f32⟩ : BufTy).Contents (Elt F) → (⟨S4000000x8, .f32⟩ : BufTy).Contents (Elt F) → (⟨S4000000x8, .f32⟩ : BufTy).Contents (Elt F)),
    StableHlo.binary main_v103 main_v99 main_v104 (subf : (⟨S4000000x8, .f32⟩ : BufTy).Contents (Elt F) → (⟨S4000000x8, .f32⟩ : BufTy).Contents (Elt F) → (⟨S4000000x8, .f32⟩ : BufTy).Contents (Elt F)),
    StableHlo.unary main_v29 main_v105 (broadcastInDim S4000000x8 ![0, 1] bcast_S4000000x1_S4000000x8_0_1 : (⟨S4000000x1, .f32⟩ : BufTy).Contents (Elt F) → (⟨S4000000x8, .f32⟩ : BufTy).Contents (Elt F)),
    StableHlo.binary main_v105 main_v104 main_v106 (mulf : (⟨S4000000x8, .f32⟩ : BufTy).Contents (Elt F) → (⟨S4000000x8, .f32⟩ : BufTy).Contents (Elt F) → (⟨S4000000x8, .f32⟩ : BufTy).Contents (Elt F)),
    StableHlo.binary main_v99 main_v106 main_v107 (addf : (⟨S4000000x8, .f32⟩ : BufTy).Contents (Elt F) → (⟨S4000000x8, .f32⟩ : BufTy).Contents (Elt F) → (⟨S4000000x8, .f32⟩ : BufTy).Contents (Elt F)),
    StableHlo.nullary main_c_33 (constantI S_ 32 0#32),
    StableHlo.unary main_c_33 main_v108 (broadcastInDim S2 ![] bcast_S_S2 : (⟨S_, .i32⟩ : BufTy).Contents (Elt F) → (⟨S2, .i32⟩ : BufTy).Contents (Elt F)),
    StableHlo.binary main_c main_v108 main_v109 (cmpi .slt : (⟨S2, .i32⟩ : BufTy).Contents (Elt F) → (⟨S2, .i32⟩ : BufTy).Contents (Elt F) → (⟨S2, .i1⟩ : BufTy).Contents (Elt F)),
    StableHlo.nullary main_c_34 (constantI S_ 32 3#32),
    StableHlo.unary main_c_34 main_v110 (broadcastInDim S2 ![] bcast_S_S2 : (⟨S_, .i32⟩ : BufTy).Contents (Elt F) → (⟨S2, .i32⟩ : BufTy).Contents (Elt F)),
    StableHlo.binary main_c main_v110 main_v111 (addi : (⟨S2, .i32⟩ : BufTy).Contents (Elt F) → (⟨S2, .i32⟩ : BufTy).Contents (Elt F) → (⟨S2, .i32⟩ : BufTy).Contents (Elt F)),
    StableHlo.ternary main_v109 main_v111 main_c main_v112 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v112 main_v113 (broadcastInDim S2x1 ![0] bcast_S2_S2x1_0 : (⟨S2, .i32⟩ : BufTy).Contents (Elt F) → (⟨S2x1, .i32⟩ : BufTy).Contents (Elt F)),
    StableHlo.binary main_v0 main_v113 main_v114 ((fun x i => Host.gather gather_S4000000x3_S2x1_S4000000x2_0_1_n_n_1_1_40000001 x i) : (⟨S4000000x3, .f32⟩ : BufTy).Contents (Elt F) → (⟨S2x1, .i32⟩ : BufTy).Contents (Elt F) → (⟨S4000000x2, .f32⟩ : BufTy).Contents (Elt F)),
    StableHlo.unary main_v114 main_v115 ((extractStridedSlice S4000000x1 ![0, 0] · slices_S4000000x2_S4000000x1_0_0) : (⟨S4000000x2, .f32⟩ : BufTy).Contents (Elt F) → (⟨S4000000x1, .f32⟩ : BufTy).Contents (Elt F)),
    StableHlo.reshape main_v115 main_v116 rfl shapeCasts_S4000000x1_S4000000,
    StableHlo.nullary main_cst_35 (constant S_ .f32 0x3F800000#32),
    StableHlo.unary main_cst_35 main_v117 (broadcastInDim S4000000 ![] bcast_S_S4000000 : (⟨S_, .f32⟩ : BufTy).Contents (Elt F) → (⟨S4000000, .f32⟩ : BufTy).Contents (Elt F)),
    StableHlo.binary main_v116 main_v117 main_v118 (addf : (⟨S4000000, .f32⟩ : BufTy).Contents (Elt F) → (⟨S4000000, .f32⟩ : BufTy).Contents (Elt F) → (⟨S4000000, .f32⟩ : BufTy).Contents (Elt F)),
    StableHlo.nullary main_cst_36 (constant S_ .f32 0x44000000#32),
    StableHlo.unary main_cst_36 main_v119 (broadcastInDim S4000000 ![] bcast_S_S4000000 : (⟨S_, .f32⟩ : BufTy).Contents (Elt F) → (⟨S4000000, .f32⟩ : BufTy).Contents (Elt F)),
    StableHlo.binary main_v118 main_v119 main_v120 (mulf : (⟨S4000000, .f32⟩ : BufTy).Contents (Elt F) → (⟨S4000000, .f32⟩ : BufTy).Contents (Elt F) → (⟨S4000000, .f32⟩ : BufTy).Contents (Elt F)),
    StableHlo.nullary main_cst_37 (constant S_ .f32 0x3F800000#32),
    StableHlo.unary main_cst_37 main_v121 (broadcastInDim S4000000 ![] bcast_S_S4000000 : (⟨S_, .f32⟩ : BufTy).Contents (Elt F) → (⟨S4000000, .f32⟩ : BufTy).Contents (Elt F)),
    StableHlo.binary main_v120 main_v121 main_v122 (subf : (⟨S4000000, .f32⟩ : BufTy).Contents (Elt F) → (⟨S4000000, .f32⟩ : BufTy).Contents (Elt F) → (⟨S4000000, .f32⟩ : BufTy).Contents (Elt F)),
    StableHlo.nullary main_cst_38 (constant S_ .f32 0x3F000000#32),
    StableHlo.unary main_cst_38 main_v123 (broadcastInDim S4000000 ![] bcast_S_S4000000 : (⟨S_, .f32⟩ : BufTy).Contents (Elt F) → (⟨S4000000, .f32⟩ : BufTy).Contents (Elt F)),
    StableHlo.binary main_v122 main_v123 main_v124 (mulf : (⟨S4000000, .f32⟩ : BufTy).Contents (Elt F) → (⟨S4000000, .f32⟩ : BufTy).Contents (Elt F) → (⟨S4000000, .f32⟩ : BufTy).Contents (Elt F)),
    StableHlo.nullary main_cst_39 (constant S_ .f32 0x00000000#32),
    StableHlo.nullary main_cst_40 (constant S_ .f32 0x43FF8000#32),
    -- the call of @clip_0 over main_call3: its 6 operations
    StableHlo.TRef.unary (.of main_cst_39 : TRef sig ⟨S_, .f32⟩) main_call3.v0 id,
    StableHlo.TRef.unary main_call3.v0 main_call3.v1 (broadcastInDim S4000000 ![] bcast_S_S4000000),
    StableHlo.TRef.binary main_call3.v1 (.of main_v124 : TRef sig ⟨S4000000, .f32⟩) main_call3.v2 maximumf,
    StableHlo.TRef.unary (.of main_cst_40 : TRef sig ⟨S_, .f32⟩) main_call3.v3 id,
    StableHlo.TRef.unary main_call3.v3 main_call3.v4 (broadcastInDim S4000000 ![] bcast_S_S4000000),
    StableHlo.TRef.binary main_call3.v4 main_call3.v2 main_call3.v5 minimumf,
    StableHlo.unary main_v114 main_v126 ((extractStridedSlice S4000000x1 ![0, 1] · slices_S4000000x2_S4000000x1_0_1) : (⟨S4000000x2, .f32⟩ : BufTy).Contents (Elt F) → (⟨S4000000x1, .f32⟩ : BufTy).Contents (Elt F)),
    StableHlo.reshape main_v126 main_v127 rfl shapeCasts_S4000000x1_S4000000,
    StableHlo.nullary main_cst_41 (constant S_ .f32 0x3F800000#32),
    StableHlo.unary main_cst_41 main_v128 (broadcastInDim S4000000 ![] bcast_S_S4000000 : (⟨S_, .f32⟩ : BufTy).Contents (Elt F) → (⟨S4000000, .f32⟩ : BufTy).Contents (Elt F)),
    StableHlo.binary main_v127 main_v128 main_v129 (addf : (⟨S4000000, .f32⟩ : BufTy).Contents (Elt F) → (⟨S4000000, .f32⟩ : BufTy).Contents (Elt F) → (⟨S4000000, .f32⟩ : BufTy).Contents (Elt F)),
    StableHlo.nullary main_cst_42 (constant S_ .f32 0x44000000#32),
    StableHlo.unary main_cst_42 main_v130 (broadcastInDim S4000000 ![] bcast_S_S4000000 : (⟨S_, .f32⟩ : BufTy).Contents (Elt F) → (⟨S4000000, .f32⟩ : BufTy).Contents (Elt F)),
    StableHlo.binary main_v129 main_v130 main_v131 (mulf : (⟨S4000000, .f32⟩ : BufTy).Contents (Elt F) → (⟨S4000000, .f32⟩ : BufTy).Contents (Elt F) → (⟨S4000000, .f32⟩ : BufTy).Contents (Elt F)),
    StableHlo.nullary main_cst_43 (constant S_ .f32 0x3F800000#32),
    StableHlo.unary main_cst_43 main_v132 (broadcastInDim S4000000 ![] bcast_S_S4000000 : (⟨S_, .f32⟩ : BufTy).Contents (Elt F) → (⟨S4000000, .f32⟩ : BufTy).Contents (Elt F)),
    StableHlo.binary main_v131 main_v132 main_v133 (subf : (⟨S4000000, .f32⟩ : BufTy).Contents (Elt F) → (⟨S4000000, .f32⟩ : BufTy).Contents (Elt F) → (⟨S4000000, .f32⟩ : BufTy).Contents (Elt F)) ]

/-- The line is `GoodFrom 141`: each operation's buffers are TensorCore references (the builder's `*_bufs_sub`), it leaves
    no buffer undetermined, and the one buffer it writes is the reference of the next index, from 141 (to 205). -/
theorem good2 : GoodFrom 141 (ops2 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (unary_bufs_sub ..), g (binary_bufs_sub ..), g (nullary_bufs_sub ..),
   g (unary_bufs_sub ..), g (binary_bufs_sub ..), g (ternary_bufs_sub ..), g (unary_bufs_sub ..),
   g (unary_bufs_sub ..), g (binary_bufs_sub ..), g (binary_bufs_sub ..), g (binary_bufs_sub ..),
   g (unary_bufs_sub ..), g (binary_bufs_sub ..), g (binary_bufs_sub ..), g (binary_bufs_sub ..),
   g (unary_bufs_sub ..), g (binary_bufs_sub ..), g (binary_bufs_sub ..), g (binary_bufs_sub ..),
   g (unary_bufs_sub ..), g (binary_bufs_sub ..), g (binary_bufs_sub ..), g (nullary_bufs_sub ..),
   g (unary_bufs_sub ..), g (binary_bufs_sub ..), g (nullary_bufs_sub ..), g (unary_bufs_sub ..),
   g (binary_bufs_sub ..), g (ternary_bufs_sub ..), g (unary_bufs_sub ..), g (binary_bufs_sub ..),
   g (unary_bufs_sub ..), g (reshape_bufs_sub ..), g (nullary_bufs_sub ..), g (unary_bufs_sub ..),
   g (binary_bufs_sub ..), g (nullary_bufs_sub ..), g (unary_bufs_sub ..), g (binary_bufs_sub ..),
   g (nullary_bufs_sub ..), g (unary_bufs_sub ..), g (binary_bufs_sub ..), g (nullary_bufs_sub ..),
   g (unary_bufs_sub ..), g (binary_bufs_sub ..), g (nullary_bufs_sub ..), g (nullary_bufs_sub ..),
   g (unary_bufs_sub ..), g (unary_bufs_sub ..), g (binary_bufs_sub ..), g (unary_bufs_sub ..),
   g (unary_bufs_sub ..), g (binary_bufs_sub ..), g (unary_bufs_sub ..), g (reshape_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), trivial⟩

/-- The printed window is these operations run in order: the callees' definitions unfolded at the calls, both sides are
    one chain of `hlo` steps once sequencing is reassociated. -/
theorem part2_eq (c : Dev nD) : main_part2 (F := F) c = seq ops2 := by
  simp only [main_part2, fn_clip.body, fn_clip_0.body, fn_clip_1.body, seq, bind_assoc, pure_bind] <;> rfl

end Cert.ReferenceIdeal.HandRun

end
-- ==== Proof.RefOps3.lean ====
/- The reference program's @main, windows 3 of 8, each as the LIST of its host operations in order:
   a call of an outlined function is listed as the callee's operations over that call's buffer record (the
   inliner's substitution: the callee's arguments are the call's operands, its values the record's fields).
   Beside each list: every operation touches TensorCore references only, determines its result, and writes one
   buffer, the HBM buffers of consecutive indices in order (`GoodFrom`); and the printed window is the list run in order. -/
import proofs.«114771_j71983651881269_2_alg».proof.Proof.RefOpsBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 65 operations of @main's statements 181 … 240 of 439 (60 statements), in order. -/
abbrev ops3 : List (HloOp τ sig (Elt F)) :=
  [ StableHlo.nullary main_cst_44 (constant S_ .f32 0x3F000000#32),
    StableHlo.unary main_cst_44 main_v134 (broadcastInDim S4000000 ![] bcast_S_S4000000 : (⟨S_, .f32⟩ : BufTy).Contents (Elt F) → (⟨S4000000, .f32⟩ : BufTy).Contents (Elt F)),
    StableHlo.binary main_v133 main_v134 main_v135 (mulf : (⟨S4000000, .f32⟩ : BufTy).Contents (Elt F) → (⟨S4000000, .f32⟩ : BufTy).Contents (Elt F) → (⟨S4000000, .f32⟩ : BufTy).Contents (Elt F)),
    StableHlo.nullary main_cst_45 (constant S_ .f32 0x00000000#32),
    StableHlo.nullary main_cst_46 (constant S_ .f32 0x43FF8000#32),
    -- the call of @clip_0 over main_call4: its 6 operations
    StableHlo.TRef.unary (.of main_cst_45 : TRef sig ⟨S_, .f32⟩) main_call4.v0 id,
    StableHlo.TRef.unary main_call4.v0 main_call4.v1 (broadcastInDim S4000000 ![] bcast_S_S4000000),
    StableHlo.TRef.binary main_call4.v1 (.of main_v135 : TRef sig ⟨S4000000, .f32⟩) main_call4.v2 maximumf,
    StableHlo.TRef.unary (.of main_cst_46 : TRef sig ⟨S_, .f32⟩) main_call4.v3 id,
    StableHlo.TRef.unary main_call4.v3 main_call4.v4 (broadcastInDim S4000000 ![] bcast_S_S4000000),
    StableHlo.TRef.binary main_call4.v4 main_call4.v2 main_call4.v5 minimumf,
    StableHlo.unary main_v125 main_v137 (Host.floor : (⟨S4000000, .f32⟩ : BufTy).Contents (Elt F) → (⟨S4000000, .f32⟩ : BufTy).Contents (Elt F)),
    StableHlo.unary main_v136 main_v138 (Host.floor : (⟨S4000000, .f32⟩ : BufTy).Contents (Elt F) → (⟨S4000000, .f32⟩ : BufTy).Contents (Elt F)),
    StableHlo.binary main_v125 main_v137 main_v139 (subf : (⟨S4000000, .f32⟩ : BufTy).Contents (Elt F) → (⟨S4000000, .f32⟩ : BufTy).Contents (Elt F) → (⟨S4000000, .f32⟩ : BufTy).Contents (Elt F)),
    StableHlo.unary main_v139 main_v140 (broadcastInDim S4000000x1 ![0] bcast_S4000000_S4000000x1_0 : (⟨S4000000, .f32⟩ : BufTy).Contents (Elt F) → (⟨S4000000x1, .f32⟩ : BufTy).Contents (Elt F)),
    StableHlo.binary main_v136 main_v138 main_v141 (subf : (⟨S4000000, .f32⟩ : BufTy).Contents (Elt F) → (⟨S4000000, .f32⟩ : BufTy).Contents (Elt F) → (⟨S4000000, .f32⟩ : BufTy).Contents (Elt F)),
    StableHlo.unary main_v141 main_v142 (broadcastInDim S4000000x1 ![0] bcast_S4000000_S4000000x1_0 : (⟨S4000000, .f32⟩ : BufTy).Contents (Elt F) → (⟨S4000000x1, .f32⟩ : BufTy).Contents (Elt F)),
    StableHlo.unary main_v137 main_v143 (fptosi 32 : (⟨S4000000, .f32⟩ : BufTy).Contents (Elt F) → (⟨S4000000, .i32⟩ : BufTy).Contents (Elt F)),
    StableHlo.unary main_v138 main_v144 (fptosi 32 : (⟨S4000000, .f32⟩ : BufTy).Contents (Elt F) → (⟨S4000000, .i32⟩ : BufTy).Contents (Elt F)),
    StableHlo.nullary main_c_47 (constantI S_ 32 1#32),
    StableHlo.unary main_c_47 main_v145 (broadcastInDim S4000000 ![] bcast_S_S4000000 : (⟨S_, .i32⟩ : BufTy).Contents (Elt F) → (⟨S4000000, .i32⟩ : BufTy).Contents (Elt F)),
    StableHlo.binary main_v143 main_v145 main_v146 (addi : (⟨S4000000, .i32⟩ : BufTy).Contents (Elt F) → (⟨S4000000, .i32⟩ : BufTy).Contents (Elt F) → (⟨S4000000, .i32⟩ : BufTy).Contents (Elt F)),
    StableHlo.nullary main_c_48 (constantI S_ 32 511#32),
    StableHlo.unary main_c_48 main_v147 (broadcastInDim S4000000 ![] bcast_S_S4000000 : (⟨S_, .i32⟩ : BufTy).Contents (Elt F) → (⟨S4000000, .i32⟩ : BufTy).Contents (Elt F)),
    StableHlo.binary main_v146 main_v147 main_v148 (minsi : (⟨S4000000, .i32⟩ : BufTy).Contents (Elt F) → (⟨S4000000, .i32⟩ : BufTy).Contents (Elt F) → (⟨S4000000, .i32⟩ : BufTy).Contents (Elt F)),
    StableHlo.nullary main_c_49 (constantI S_ 32 1#32),
    StableHlo.unary main_c_49 main_v149 (broadcastInDim S4000000 ![] bcast_S_S4000000 : (⟨S_, .i32⟩ : BufTy).Contents (Elt F) → (⟨S4000000, .i32⟩ : BufTy).Contents (Elt F)),
    StableHlo.binary main_v144 main_v149 main_v150 (addi : (⟨S4000000, .i32⟩ : BufTy).Contents (Elt F) → (⟨S4000000, .i32⟩ : BufTy).Contents (Elt F) → (⟨S4000000, .i32⟩ : BufTy).Contents (Elt F)),
    StableHlo.nullary main_c_50 (constantI S_ 32 511#32),
    StableHlo.unary main_c_50 main_v151 (broadcastInDim S4000000 ![] bcast_S_S4000000 : (⟨S_, .i32⟩ : BufTy).Contents (Elt F) → (⟨S4000000, .i32⟩ : BufTy).Contents (Elt F)),
    StableHlo.binary main_v150 main_v151 main_v152 (minsi : (⟨S4000000, .i32⟩ : BufTy).Contents (Elt F) → (⟨S4000000, .i32⟩ : BufTy).Contents (Elt F) → (⟨S4000000, .i32⟩ : BufTy).Contents (Elt F)),
    StableHlo.nullary main_c_51 (constantI S_ 32 0#32),
    StableHlo.unary main_c_51 main_v153 (broadcastInDim S4000000 ![] bcast_S_S4000000 : (⟨S_, .i32⟩ : BufTy).Contents (Elt F) → (⟨S4000000, .i32⟩ : BufTy).Contents (Elt F)),
    StableHlo.binary main_v144 main_v153 main_v154 (cmpi .slt : (⟨S4000000, .i32⟩ : BufTy).Contents (Elt F) → (⟨S4000000, .i32⟩ : BufTy).Contents (Elt F) → (⟨S4000000, .i1⟩ : BufTy).Contents (Elt F)),
    StableHlo.nullary main_c_52 (constantI S_ 32 512#32),
    StableHlo.unary main_c_52 main_v155 (broadcastInDim S4000000 ![] bcast_S_S4000000 : (⟨S_, .i32⟩ : BufTy).Contents (Elt F) → (⟨S4000000, .i32⟩ : BufTy).Contents (Elt F)),
    StableHlo.binary main_v144 main_v155 main_v156 (addi : (⟨S4000000, .i32⟩ : BufTy).Contents (Elt F) → (⟨S4000000, .i32⟩ : BufTy).Contents (Elt F) → (⟨S4000000, .i32⟩ : BufTy).Contents (Elt F)),
    StableHlo.ternary main_v154 main_v156 main_v144 main_v157 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_53 (constantI S_ 32 0#32),
    StableHlo.unary main_c_53 main_v158 (broadcastInDim S4000000 ![] bcast_S_S4000000 : (⟨S_, .i32⟩ : BufTy).Contents (Elt F) → (⟨S4000000, .i32⟩ : BufTy).Contents (Elt F)),
    StableHlo.binary main_v143 main_v158 main_v159 (cmpi .slt : (⟨S4000000, .i32⟩ : BufTy).Contents (Elt F) → (⟨S4000000, .i32⟩ : BufTy).Contents (Elt F) → (⟨S4000000, .i1⟩ : BufTy).Contents (Elt F)),
    StableHlo.nullary main_c_54 (constantI S_ 32 512#32),
    StableHlo.unary main_c_54 main_v160 (broadcastInDim S4000000 ![] bcast_S_S4000000 : (⟨S_, .i32⟩ : BufTy).Contents (Elt F) → (⟨S4000000, .i32⟩ : BufTy).Contents (Elt F)),
    StableHlo.binary main_v143 main_v160 main_v161 (addi : (⟨S4000000, .i32⟩ : BufTy).Contents (Elt F) → (⟨S4000000, .i32⟩ : BufTy).Contents (Elt F) → (⟨S4000000, .i32⟩ : BufTy).Contents (Elt F)),
    StableHlo.ternary main_v159 main_v161 main_v143 main_v162 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v157 main_v163 (broadcastInDim S4000000x1 ![0] bcast_S4000000_S4000000x1_0 : (⟨S4000000, .i32⟩ : BufTy).Contents (Elt F) → (⟨S4000000x1, .i32⟩ : BufTy).Contents (Elt F)),
    StableHlo.unary main_v162 main_v164 (broadcastInDim S4000000x1 ![0] bcast_S4000000_S4000000x1_0 : (⟨S4000000, .i32⟩ : BufTy).Contents (Elt F) → (⟨S4000000x1, .i32⟩ : BufTy).Contents (Elt F)),
    StableHlo.binary main_v163 main_v164 main_v165 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg2 main_v165 main_v166 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.nullary main_c_55 (constantI S_ 32 0#32),
    StableHlo.unary main_c_55 main_v167 (broadcastInDim S4000000 ![] bcast_S_S4000000 : (⟨S_, .i32⟩ : BufTy).Contents (Elt F) → (⟨S4000000, .i32⟩ : BufTy).Contents (Elt F)),
    StableHlo.binary main_v144 main_v167 main_v168 (cmpi .slt : (⟨S4000000, .i32⟩ : BufTy).Contents (Elt F) → (⟨S4000000, .i32⟩ : BufTy).Contents (Elt F) → (⟨S4000000, .i1⟩ : BufTy).Contents (Elt F)),
    StableHlo.nullary main_c_56 (constantI S_ 32 512#32),
    StableHlo.unary main_c_56 main_v169 (broadcastInDim S4000000 ![] bcast_S_S4000000 : (⟨S_, .i32⟩ : BufTy).Contents (Elt F) → (⟨S4000000, .i32⟩ : BufTy).Contents (Elt F)),
    StableHlo.binary main_v144 main_v169 main_v170 (addi : (⟨S4000000, .i32⟩ : BufTy).Contents (Elt F) → (⟨S4000000, .i32⟩ : BufTy).Contents (Elt F) → (⟨S4000000, .i32⟩ : BufTy).Contents (Elt F)),
    StableHlo.ternary main_v168 main_v170 main_v144 main_v171 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_57 (constantI S_ 32 0#32),
    StableHlo.unary main_c_57 main_v172 (broadcastInDim S4000000 ![] bcast_S_S4000000 : (⟨S_, .i32⟩ : BufTy).Contents (Elt F) → (⟨S4000000, .i32⟩ : BufTy).Contents (Elt F)),
    StableHlo.binary main_v148 main_v172 main_v173 (cmpi .slt : (⟨S4000000, .i32⟩ : BufTy).Contents (Elt F) → (⟨S4000000, .i32⟩ : BufTy).Contents (Elt F) → (⟨S4000000, .i1⟩ : BufTy).Contents (Elt F)),
    StableHlo.nullary main_c_58 (constantI S_ 32 512#32),
    StableHlo.unary main_c_58 main_v174 (broadcastInDim S4000000 ![] bcast_S_S4000000 : (⟨S_, .i32⟩ : BufTy).Contents (Elt F) → (⟨S4000000, .i32⟩ : BufTy).Contents (Elt F)),
    StableHlo.binary main_v148 main_v174 main_v175 (addi : (⟨S4000000, .i32⟩ : BufTy).Contents (Elt F) → (⟨S4000000, .i32⟩ : BufTy).Contents (Elt F) → (⟨S4000000, .i32⟩ : BufTy).Contents (Elt F)),
    StableHlo.ternary main_v173 main_v175 main_v148 main_v176 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v171 main_v177 (broadcastInDim S4000000x1 ![0] bcast_S4000000_S4000000x1_0 : (⟨S4000000, .i32⟩ : BufTy).Contents (Elt F) → (⟨S4000000x1, .i32⟩ : BufTy).Contents (Elt F)),
    StableHlo.unary main_v176 main_v178 (broadcastInDim S4000000x1 ![0] bcast_S4000000_S4000000x1_0 : (⟨S4000000, .i32⟩ : BufTy).Contents (Elt F) → (⟨S4000000x1, .i32⟩ : BufTy).Contents (Elt F)) ]

/-- The line is `GoodFrom 206`: each operation's buffers are TensorCore references (the builder's `*_bufs_sub`), it leaves
    no buffer undetermined, and the one buffer it writes is the reference of the next index, from 206 (to 270). -/
theorem good3 : GoodFrom 206 (ops3 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (unary_bufs_sub ..), g (binary_bufs_sub ..), g (nullary_bufs_sub ..),
   g (nullary_bufs_sub ..), g (unary_bufs_sub ..), g (unary_bufs_sub ..), g (binary_bufs_sub ..),
   g (unary_bufs_sub ..), g (unary_bufs_sub ..), g (binary_bufs_sub ..), g (unary_bufs_sub ..),
   g (unary_bufs_sub ..), g (binary_bufs_sub ..), g (unary_bufs_sub ..), g (binary_bufs_sub ..),
   g (unary_bufs_sub ..), g (unary_bufs_sub ..), g (unary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (ternary_bufs_sub ..), g (nullary_bufs_sub ..), g (unary_bufs_sub ..),
   g (binary_bufs_sub ..), g (nullary_bufs_sub ..), g (unary_bufs_sub ..), g (binary_bufs_sub ..),
   g (ternary_bufs_sub ..), g (unary_bufs_sub ..), g (unary_bufs_sub ..), g (binary_bufs_sub ..),
   g (binary_bufs_sub ..), g (nullary_bufs_sub ..), g (unary_bufs_sub ..), g (binary_bufs_sub ..),
   g (nullary_bufs_sub ..), g (unary_bufs_sub ..), g (binary_bufs_sub ..), g (ternary_bufs_sub ..),
   g (nullary_bufs_sub ..), g (unary_bufs_sub ..), g (binary_bufs_sub ..), g (nullary_bufs_sub ..),
   g (unary_bufs_sub ..), g (binary_bufs_sub ..), g (ternary_bufs_sub ..), g (unary_bufs_sub ..),
   g (unary_bufs_sub ..), trivial⟩

/-- The printed window is these operations run in order: the callees' definitions unfolded at the calls, both sides are
    one chain of `hlo` steps once sequencing is reassociated. -/
theorem part3_eq (c : Dev nD) : main_part3 (F := F) c = seq ops3 := by
  simp only [main_part3, fn_clip.body, fn_clip_0.body, fn_clip_1.body, seq, bind_assoc, pure_bind] <;> rfl

end Cert.ReferenceIdeal.HandRun

end
-- ==== Proof.RefOps4.lean ====
/- The reference program's @main, windows 4 of 8, each as the LIST of its host operations in order:
   a call of an outlined function is listed as the callee's operations over that call's buffer record (the
   inliner's substitution: the callee's arguments are the call's operands, its values the record's fields).
   Beside each list: every operation touches TensorCore references only, determines its result, and writes one
   buffer, the HBM buffers of consecutive indices in order (`GoodFrom`); and the printed window is the list run in order. -/
import proofs.«114771_j71983651881269_2_alg».proof.Proof.RefOpsBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 60 operations of @main's statements 241 … 300 of 439 (60 statements), in order. -/
abbrev ops4 : List (HloOp τ sig (Elt F)) :=
  [ StableHlo.binary main_v177 main_v178 main_v179 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg2 main_v179 main_v180 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.nullary main_c_59 (constantI S_ 32 0#32),
    StableHlo.unary main_c_59 main_v181 (broadcastInDim S4000000 ![] bcast_S_S4000000 : (⟨S_, .i32⟩ : BufTy).Contents (Elt F) → (⟨S4000000, .i32⟩ : BufTy).Contents (Elt F)),
    StableHlo.binary main_v152 main_v181 main_v182 (cmpi .slt : (⟨S4000000, .i32⟩ : BufTy).Contents (Elt F) → (⟨S4000000, .i32⟩ : BufTy).Contents (Elt F) → (⟨S4000000, .i1⟩ : BufTy).Contents (Elt F)),
    StableHlo.nullary main_c_60 (constantI S_ 32 512#32),
    StableHlo.unary main_c_60 main_v183 (broadcastInDim S4000000 ![] bcast_S_S4000000 : (⟨S_, .i32⟩ : BufTy).Contents (Elt F) → (⟨S4000000, .i32⟩ : BufTy).Contents (Elt F)),
    StableHlo.binary main_v152 main_v183 main_v184 (addi : (⟨S4000000, .i32⟩ : BufTy).Contents (Elt F) → (⟨S4000000, .i32⟩ : BufTy).Contents (Elt F) → (⟨S4000000, .i32⟩ : BufTy).Contents (Elt F)),
    StableHlo.ternary main_v182 main_v184 main_v152 main_v185 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_61 (constantI S_ 32 0#32),
    StableHlo.unary main_c_61 main_v186 (broadcastInDim S4000000 ![] bcast_S_S4000000 : (⟨S_, .i32⟩ : BufTy).Contents (Elt F) → (⟨S4000000, .i32⟩ : BufTy).Contents (Elt F)),
    StableHlo.binary main_v143 main_v186 main_v187 (cmpi .slt : (⟨S4000000, .i32⟩ : BufTy).Contents (Elt F) → (⟨S4000000, .i32⟩ : BufTy).Contents (Elt F) → (⟨S4000000, .i1⟩ : BufTy).Contents (Elt F)),
    StableHlo.nullary main_c_62 (constantI S_ 32 512#32),
    StableHlo.unary main_c_62 main_v188 (broadcastInDim S4000000 ![] bcast_S_S4000000 : (⟨S_, .i32⟩ : BufTy).Contents (Elt F) → (⟨S4000000, .i32⟩ : BufTy).Contents (Elt F)),
    StableHlo.binary main_v143 main_v188 main_v189 (addi : (⟨S4000000, .i32⟩ : BufTy).Contents (Elt F) → (⟨S4000000, .i32⟩ : BufTy).Contents (Elt F) → (⟨S4000000, .i32⟩ : BufTy).Contents (Elt F)),
    StableHlo.ternary main_v187 main_v189 main_v143 main_v190 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v185 main_v191 (broadcastInDim S4000000x1 ![0] bcast_S4000000_S4000000x1_0 : (⟨S4000000, .i32⟩ : BufTy).Contents (Elt F) → (⟨S4000000x1, .i32⟩ : BufTy).Contents (Elt F)),
    StableHlo.unary main_v190 main_v192 (broadcastInDim S4000000x1 ![0] bcast_S4000000_S4000000x1_0 : (⟨S4000000, .i32⟩ : BufTy).Contents (Elt F) → (⟨S4000000x1, .i32⟩ : BufTy).Contents (Elt F)),
    StableHlo.binary main_v191 main_v192 main_v193 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg2 main_v193 main_v194 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.nullary main_c_63 (constantI S_ 32 0#32),
    StableHlo.unary main_c_63 main_v195 (broadcastInDim S4000000 ![] bcast_S_S4000000 : (⟨S_, .i32⟩ : BufTy).Contents (Elt F) → (⟨S4000000, .i32⟩ : BufTy).Contents (Elt F)),
    StableHlo.binary main_v152 main_v195 main_v196 (cmpi .slt : (⟨S4000000, .i32⟩ : BufTy).Contents (Elt F) → (⟨S4000000, .i32⟩ : BufTy).Contents (Elt F) → (⟨S4000000, .i1⟩ : BufTy).Contents (Elt F)),
    StableHlo.nullary main_c_64 (constantI S_ 32 512#32),
    StableHlo.unary main_c_64 main_v197 (broadcastInDim S4000000 ![] bcast_S_S4000000 : (⟨S_, .i32⟩ : BufTy).Contents (Elt F) → (⟨S4000000, .i32⟩ : BufTy).Contents (Elt F)),
    StableHlo.binary main_v152 main_v197 main_v198 (addi : (⟨S4000000, .i32⟩ : BufTy).Contents (Elt F) → (⟨S4000000, .i32⟩ : BufTy).Contents (Elt F) → (⟨S4000000, .i32⟩ : BufTy).Contents (Elt F)),
    StableHlo.ternary main_v196 main_v198 main_v152 main_v199 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_65 (constantI S_ 32 0#32),
    StableHlo.unary main_c_65 main_v200 (broadcastInDim S4000000 ![] bcast_S_S4000000 : (⟨S_, .i32⟩ : BufTy).Contents (Elt F) → (⟨S4000000, .i32⟩ : BufTy).Contents (Elt F)),
    StableHlo.binary main_v148 main_v200 main_v201 (cmpi .slt : (⟨S4000000, .i32⟩ : BufTy).Contents (Elt F) → (⟨S4000000, .i32⟩ : BufTy).Contents (Elt F) → (⟨S4000000, .i1⟩ : BufTy).Contents (Elt F)),
    StableHlo.nullary main_c_66 (constantI S_ 32 512#32),
    StableHlo.unary main_c_66 main_v202 (broadcastInDim S4000000 ![] bcast_S_S4000000 : (⟨S_, .i32⟩ : BufTy).Contents (Elt F) → (⟨S4000000, .i32⟩ : BufTy).Contents (Elt F)),
    StableHlo.binary main_v148 main_v202 main_v203 (addi : (⟨S4000000, .i32⟩ : BufTy).Contents (Elt F) → (⟨S4000000, .i32⟩ : BufTy).Contents (Elt F) → (⟨S4000000, .i32⟩ : BufTy).Contents (Elt F)),
    StableHlo.ternary main_v201 main_v203 main_v148 main_v204 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v199 main_v205 (broadcastInDim S4000000x1 ![0] bcast_S4000000_S4000000x1_0 : (⟨S4000000, .i32⟩ : BufTy).Contents (Elt F) → (⟨S4000000x1, .i32⟩ : BufTy).Contents (Elt F)),
    StableHlo.unary main_v204 main_v206 (broadcastInDim S4000000x1 ![0] bcast_S4000000_S4000000x1_0 : (⟨S4000000, .i32⟩ : BufTy).Contents (Elt F) → (⟨S4000000x1, .i32⟩ : BufTy).Contents (Elt F)),
    StableHlo.binary main_v205 main_v206 main_v207 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg2 main_v207 main_v208 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.binary main_v180 main_v166 main_v209 (subf : (⟨S4000000x8, .f32⟩ : BufTy).Contents (Elt F) → (⟨S4000000x8, .f32⟩ : BufTy).Contents (Elt F) → (⟨S4000000x8, .f32⟩ : BufTy).Contents (Elt F)),
    StableHlo.unary main_v140 main_v210 (broadcastInDim S4000000x8 ![0, 1] bcast_S4000000x1_S4000000x8_0_1 : (⟨S4000000x1, .f32⟩ : BufTy).Contents (Elt F) → (⟨S4000000x8, .f32⟩ : BufTy).Contents (Elt F)),
    StableHlo.binary main_v210 main_v209 main_v211 (mulf : (⟨S4000000x8, .f32⟩ : BufTy).Contents (Elt F) → (⟨S4000000x8, .f32⟩ : BufTy).Contents (Elt F) → (⟨S4000000x8, .f32⟩ : BufTy).Contents (Elt F)),
    StableHlo.binary main_v166 main_v211 main_v212 (addf : (⟨S4000000x8, .f32⟩ : BufTy).Contents (Elt F) → (⟨S4000000x8, .f32⟩ : BufTy).Contents (Elt F) → (⟨S4000000x8, .f32⟩ : BufTy).Contents (Elt F)),
    StableHlo.binary main_v208 main_v194 main_v213 (subf : (⟨S4000000x8, .f32⟩ : BufTy).Contents (Elt F) → (⟨S4000000x8, .f32⟩ : BufTy).Contents (Elt F) → (⟨S4000000x8, .f32⟩ : BufTy).Contents (Elt F)),
    StableHlo.unary main_v140 main_v214 (broadcastInDim S4000000x8 ![0, 1] bcast_S4000000x1_S4000000x8_0_1 : (⟨S4000000x1, .f32⟩ : BufTy).Contents (Elt F) → (⟨S4000000x8, .f32⟩ : BufTy).Contents (Elt F)),
    StableHlo.binary main_v214 main_v213 main_v215 (mulf : (⟨S4000000x8, .f32⟩ : BufTy).Contents (Elt F) → (⟨S4000000x8, .f32⟩ : BufTy).Contents (Elt F) → (⟨S4000000x8, .f32⟩ : BufTy).Contents (Elt F)),
    StableHlo.binary main_v194 main_v215 main_v216 (addf : (⟨S4000000x8, .f32⟩ : BufTy).Contents (Elt F) → (⟨S4000000x8, .f32⟩ : BufTy).Contents (Elt F) → (⟨S4000000x8, .f32⟩ : BufTy).Contents (Elt F)),
    StableHlo.binary main_v216 main_v212 main_v217 (subf : (⟨S4000000x8, .f32⟩ : BufTy).Contents (Elt F) → (⟨S4000000x8, .f32⟩ : BufTy).Contents (Elt F) → (⟨S4000000x8, .f32⟩ : BufTy).Contents (Elt F)),
    StableHlo.unary main_v142 main_v218 (broadcastInDim S4000000x8 ![0, 1] bcast_S4000000x1_S4000000x8_0_1 : (⟨S4000000x1, .f32⟩ : BufTy).Contents (Elt F) → (⟨S4000000x8, .f32⟩ : BufTy).Contents (Elt F)),
    StableHlo.binary main_v218 main_v217 main_v219 (mulf : (⟨S4000000x8, .f32⟩ : BufTy).Contents (Elt F) → (⟨S4000000x8, .f32⟩ : BufTy).Contents (Elt F) → (⟨S4000000x8, .f32⟩ : BufTy).Contents (Elt F)),
    StableHlo.binary main_v212 main_v219 main_v220 (addf : (⟨S4000000x8, .f32⟩ : BufTy).Contents (Elt F) → (⟨S4000000x8, .f32⟩ : BufTy).Contents (Elt F) → (⟨S4000000x8, .f32⟩ : BufTy).Contents (Elt F)),
    StableHlo.unary main_v0 main_v221 ((extractStridedSlice S4000000x2 ![0, 1] · slices_S4000000x3_S4000000x2_0_1) : (⟨S4000000x3, .f32⟩ : BufTy).Contents (Elt F) → (⟨S4000000x2, .f32⟩ : BufTy).Contents (Elt F)),
    StableHlo.unary main_v221 main_v222 ((extractStridedSlice S4000000x1 ![0, 0] · slices_S4000000x2_S4000000x1_0_0) : (⟨S4000000x2, .f32⟩ : BufTy).Contents (Elt F) → (⟨S4000000x1, .f32⟩ : BufTy).Contents (Elt F)),
    StableHlo.reshape main_v222 main_v223 rfl shapeCasts_S4000000x1_S4000000,
    StableHlo.nullary main_cst_67 (constant S_ .f32 0x3F800000#32),
    StableHlo.unary main_cst_67 main_v224 (broadcastInDim S4000000 ![] bcast_S_S4000000 : (⟨S_, .f32⟩ : BufTy).Contents (Elt F) → (⟨S4000000, .f32⟩ : BufTy).Contents (Elt F)),
    StableHlo.binary main_v223 main_v224 main_v225 (addf : (⟨S4000000, .f32⟩ : BufTy).Contents (Elt F) → (⟨S4000000, .f32⟩ : BufTy).Contents (Elt F) → (⟨S4000000, .f32⟩ : BufTy).Contents (Elt F)),
    StableHlo.nullary main_cst_68 (constant S_ .f32 0x44000000#32),
    StableHlo.unary main_cst_68 main_v226 (broadcastInDim S4000000 ![] bcast_S_S4000000 : (⟨S_, .f32⟩ : BufTy).Contents (Elt F) → (⟨S4000000, .f32⟩ : BufTy).Contents (Elt F)),
    StableHlo.binary main_v225 main_v226 main_v227 (mulf : (⟨S4000000, .f32⟩ : BufTy).Contents (Elt F) → (⟨S4000000, .f32⟩ : BufTy).Contents (Elt F) → (⟨S4000000, .f32⟩ : BufTy).Contents (Elt F)),
    StableHlo.nullary main_cst_69 (constant S_ .f32 0x3F800000#32) ]

/-- The line is `GoodFrom 271`: each operation's buffers are TensorCore references (the builder's `*_bufs_sub`), it leaves
    no buffer undetermined, and the one buffer it writes is the reference of the next index, from 271 (to 330). -/
theorem good4 : GoodFrom 271 (ops4 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (binary_bufs_sub ..), g (binary_bufs_sub ..), g (nullary_bufs_sub ..), g (unary_bufs_sub ..),
   g (binary_bufs_sub ..), g (nullary_bufs_sub ..), g (unary_bufs_sub ..), g (binary_bufs_sub ..),
   g (ternary_bufs_sub ..), g (nullary_bufs_sub ..), g (unary_bufs_sub ..), g (binary_bufs_sub ..),
   g (nullary_bufs_sub ..), g (unary_bufs_sub ..), g (binary_bufs_sub ..), g (ternary_bufs_sub ..),
   g (unary_bufs_sub ..), g (unary_bufs_sub ..), g (binary_bufs_sub ..), g (binary_bufs_sub ..),
   g (nullary_bufs_sub ..), g (unary_bufs_sub ..), g (binary_bufs_sub ..), g (nullary_bufs_sub ..),
   g (unary_bufs_sub ..), g (binary_bufs_sub ..), g (ternary_bufs_sub ..), g (nullary_bufs_sub ..),
   g (unary_bufs_sub ..), g (binary_bufs_sub ..), g (nullary_bufs_sub ..), g (unary_bufs_sub ..),
   g (binary_bufs_sub ..), g (ternary_bufs_sub ..), g (unary_bufs_sub ..), g (unary_bufs_sub ..),
   g (binary_bufs_sub ..), g (binary_bufs_sub ..), g (binary_bufs_sub ..), g (unary_bufs_sub ..),
   g (binary_bufs_sub ..), g (binary_bufs_sub ..), g (binary_bufs_sub ..), g (unary_bufs_sub ..),
   g (binary_bufs_sub ..), g (binary_bufs_sub ..), g (binary_bufs_sub ..), g (unary_bufs_sub ..),
   g (binary_bufs_sub ..), g (binary_bufs_sub ..), g (unary_bufs_sub ..), g (unary_bufs_sub ..),
   g (reshape_bufs_sub ..), g (nullary_bufs_sub ..), g (unary_bufs_sub ..), g (binary_bufs_sub ..),
   g (nullary_bufs_sub ..), g (unary_bufs_sub ..), g (binary_bufs_sub ..), g (nullary_bufs_sub ..), trivial⟩

/-- The printed window is these operations run in order: the callees' definitions unfolded at the calls, both sides are
    one chain of `hlo` steps once sequencing is reassociated. -/
theorem part4_eq (c : Dev nD) : main_part4 (F := F) c = seq ops4 := by
  simp only [main_part4, fn_clip.body, fn_clip_0.body, fn_clip_1.body, seq, bind_assoc, pure_bind] <;> rfl

end Cert.ReferenceIdeal.HandRun

end
-- ==== Proof.RefOps5.lean ====
/- The reference program's @main, windows 5 of 8, each as the LIST of its host operations in order:
   a call of an outlined function is listed as the callee's operations over that call's buffer record (the
   inliner's substitution: the callee's arguments are the call's operands, its values the record's fields).
   Beside each list: every operation touches TensorCore references only, determines its result, and writes one
   buffer, the HBM buffers of consecutive indices in order (`GoodFrom`); and the printed window is the list run in order. -/
import proofs.«114771_j71983651881269_2_alg».proof.Proof.RefOpsBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 70 operations of @main's statements 301 … 360 of 439 (60 statements), in order. -/
abbrev ops5 : List (HloOp τ sig (Elt F)) :=
  [ StableHlo.unary main_cst_69 main_v228 (broadcastInDim S4000000 ![] bcast_S_S4000000 : (⟨S_, .f32⟩ : BufTy).Contents (Elt F) → (⟨S4000000, .f32⟩ : BufTy).Contents (Elt F)),
    StableHlo.binary main_v227 main_v228 main_v229 (subf : (⟨S4000000, .f32⟩ : BufTy).Contents (Elt F) → (⟨S4000000, .f32⟩ : BufTy).Contents (Elt F) → (⟨S4000000, .f32⟩ : BufTy).Contents (Elt F)),
    StableHlo.nullary main_cst_70 (constant S_ .f32 0x3F000000#32),
    StableHlo.unary main_cst_70 main_v230 (broadcastInDim S4000000 ![] bcast_S_S4000000 : (⟨S_, .f32⟩ : BufTy).Contents (Elt F) → (⟨S4000000, .f32⟩ : BufTy).Contents (Elt F)),
    StableHlo.binary main_v229 main_v230 main_v231 (mulf : (⟨S4000000, .f32⟩ : BufTy).Contents (Elt F) → (⟨S4000000, .f32⟩ : BufTy).Contents (Elt F) → (⟨S4000000, .f32⟩ : BufTy).Contents (Elt F)),
    StableHlo.nullary main_cst_71 (constant S_ .f32 0x00000000#32),
    StableHlo.nullary main_cst_72 (constant S_ .f32 0x43FF8000#32),
    -- the call of @clip_0 over main_call5: its 6 operations
    StableHlo.TRef.unary (.of main_cst_71 : TRef sig ⟨S_, .f32⟩) main_call5.v0 id,
    StableHlo.TRef.unary main_call5.v0 main_call5.v1 (broadcastInDim S4000000 ![] bcast_S_S4000000),
    StableHlo.TRef.binary main_call5.v1 (.of main_v231 : TRef sig ⟨S4000000, .f32⟩) main_call5.v2 maximumf,
    StableHlo.TRef.unary (.of main_cst_72 : TRef sig ⟨S_, .f32⟩) main_call5.v3 id,
    StableHlo.TRef.unary main_call5.v3 main_call5.v4 (broadcastInDim S4000000 ![] bcast_S_S4000000),
    StableHlo.TRef.binary main_call5.v4 main_call5.v2 main_call5.v5 minimumf,
    StableHlo.unary main_v221 main_v233 ((extractStridedSlice S4000000x1 ![0, 1] · slices_S4000000x2_S4000000x1_0_1) : (⟨S4000000x2, .f32⟩ : BufTy).Contents (Elt F) → (⟨S4000000x1, .f32⟩ : BufTy).Contents (Elt F)),
    StableHlo.reshape main_v233 main_v234 rfl shapeCasts_S4000000x1_S4000000,
    StableHlo.nullary main_cst_73 (constant S_ .f32 0x3F800000#32),
    StableHlo.unary main_cst_73 main_v235 (broadcastInDim S4000000 ![] bcast_S_S4000000 : (⟨S_, .f32⟩ : BufTy).Contents (Elt F) → (⟨S4000000, .f32⟩ : BufTy).Contents (Elt F)),
    StableHlo.binary main_v234 main_v235 main_v236 (addf : (⟨S4000000, .f32⟩ : BufTy).Contents (Elt F) → (⟨S4000000, .f32⟩ : BufTy).Contents (Elt F) → (⟨S4000000, .f32⟩ : BufTy).Contents (Elt F)),
    StableHlo.nullary main_cst_74 (constant S_ .f32 0x44000000#32),
    StableHlo.unary main_cst_74 main_v237 (broadcastInDim S4000000 ![] bcast_S_S4000000 : (⟨S_, .f32⟩ : BufTy).Contents (Elt F) → (⟨S4000000, .f32⟩ : BufTy).Contents (Elt F)),
    StableHlo.binary main_v236 main_v237 main_v238 (mulf : (⟨S4000000, .f32⟩ : BufTy).Contents (Elt F) → (⟨S4000000, .f32⟩ : BufTy).Contents (Elt F) → (⟨S4000000, .f32⟩ : BufTy).Contents (Elt F)),
    StableHlo.nullary main_cst_75 (constant S_ .f32 0x3F800000#32),
    StableHlo.unary main_cst_75 main_v239 (broadcastInDim S4000000 ![] bcast_S_S4000000 : (⟨S_, .f32⟩ : BufTy).Contents (Elt F) → (⟨S4000000, .f32⟩ : BufTy).Contents (Elt F)),
    StableHlo.binary main_v238 main_v239 main_v240 (subf : (⟨S4000000, .f32⟩ : BufTy).Contents (Elt F) → (⟨S4000000, .f32⟩ : BufTy).Contents (Elt F) → (⟨S4000000, .f32⟩ : BufTy).Contents (Elt F)),
    StableHlo.nullary main_cst_76 (constant S_ .f32 0x3F000000#32),
    StableHlo.unary main_cst_76 main_v241 (broadcastInDim S4000000 ![] bcast_S_S4000000 : (⟨S_, .f32⟩ : BufTy).Contents (Elt F) → (⟨S4000000, .f32⟩ : BufTy).Contents (Elt F)),
    StableHlo.binary main_v240 main_v241 main_v242 (mulf : (⟨S4000000, .f32⟩ : BufTy).Contents (Elt F) → (⟨S4000000, .f32⟩ : BufTy).Contents (Elt F) → (⟨S4000000, .f32⟩ : BufTy).Contents (Elt F)),
    StableHlo.nullary main_cst_77 (constant S_ .f32 0x00000000#32),
    StableHlo.nullary main_cst_78 (constant S_ .f32 0x43FF8000#32),
    -- the call of @clip_0 over main_call6: its 6 operations
    StableHlo.TRef.unary (.of main_cst_77 : TRef sig ⟨S_, .f32⟩) main_call6.v0 id,
    StableHlo.TRef.unary main_call6.v0 main_call6.v1 (broadcastInDim S4000000 ![] bcast_S_S4000000),
    StableHlo.TRef.binary main_call6.v1 (.of main_v242 : TRef sig ⟨S4000000, .f32⟩) main_call6.v2 maximumf,
    StableHlo.TRef.unary (.of main_cst_78 : TRef sig ⟨S_, .f32⟩) main_call6.v3 id,
    StableHlo.TRef.unary main_call6.v3 main_call6.v4 (broadcastInDim S4000000 ![] bcast_S_S4000000),
    StableHlo.TRef.binary main_call6.v4 main_call6.v2 main_call6.v5 minimumf,
    StableHlo.unary main_v232 main_v244 (Host.floor : (⟨S4000000, .f32⟩ : BufTy).Contents (Elt F) → (⟨S4000000, .f32⟩ : BufTy).Contents (Elt F)),
    StableHlo.unary main_v243 main_v245 (Host.floor : (⟨S4000000, .f32⟩ : BufTy).Contents (Elt F) → (⟨S4000000, .f32⟩ : BufTy).Contents (Elt F)),
    StableHlo.binary main_v232 main_v244 main_v246 (subf : (⟨S4000000, .f32⟩ : BufTy).Contents (Elt F) → (⟨S4000000, .f32⟩ : BufTy).Contents (Elt F) → (⟨S4000000, .f32⟩ : BufTy).Contents (Elt F)),
    StableHlo.unary main_v246 main_v247 (broadcastInDim S4000000x1 ![0] bcast_S4000000_S4000000x1_0 : (⟨S4000000, .f32⟩ : BufTy).Contents (Elt F) → (⟨S4000000x1, .f32⟩ : BufTy).Contents (Elt F)),
    StableHlo.binary main_v243 main_v245 main_v248 (subf : (⟨S4000000, .f32⟩ : BufTy).Contents (Elt F) → (⟨S4000000, .f32⟩ : BufTy).Contents (Elt F) → (⟨S4000000, .f32⟩ : BufTy).Contents (Elt F)),
    StableHlo.unary main_v248 main_v249 (broadcastInDim S4000000x1 ![0] bcast_S4000000_S4000000x1_0 : (⟨S4000000, .f32⟩ : BufTy).Contents (Elt F) → (⟨S4000000x1, .f32⟩ : BufTy).Contents (Elt F)),
    StableHlo.unary main_v244 main_v250 (fptosi 32 : (⟨S4000000, .f32⟩ : BufTy).Contents (Elt F) → (⟨S4000000, .i32⟩ : BufTy).Contents (Elt F)),
    StableHlo.unary main_v245 main_v251 (fptosi 32 : (⟨S4000000, .f32⟩ : BufTy).Contents (Elt F) → (⟨S4000000, .i32⟩ : BufTy).Contents (Elt F)),
    StableHlo.nullary main_c_79 (constantI S_ 32 1#32),
    StableHlo.unary main_c_79 main_v252 (broadcastInDim S4000000 ![] bcast_S_S4000000 : (⟨S_, .i32⟩ : BufTy).Contents (Elt F) → (⟨S4000000, .i32⟩ : BufTy).Contents (Elt F)),
    StableHlo.binary main_v250 main_v252 main_v253 (addi : (⟨S4000000, .i32⟩ : BufTy).Contents (Elt F) → (⟨S4000000, .i32⟩ : BufTy).Contents (Elt F) → (⟨S4000000, .i32⟩ : BufTy).Contents (Elt F)),
    StableHlo.nullary main_c_80 (constantI S_ 32 511#32),
    StableHlo.unary main_c_80 main_v254 (broadcastInDim S4000000 ![] bcast_S_S4000000 : (⟨S_, .i32⟩ : BufTy).Contents (Elt F) → (⟨S4000000, .i32⟩ : BufTy).Contents (Elt F)),
    StableHlo.binary main_v253 main_v254 main_v255 (minsi : (⟨S4000000, .i32⟩ : BufTy).Contents (Elt F) → (⟨S4000000, .i32⟩ : BufTy).Contents (Elt F) → (⟨S4000000, .i32⟩ : BufTy).Contents (Elt F)),
    StableHlo.nullary main_c_81 (constantI S_ 32 1#32),
    StableHlo.unary main_c_81 main_v256 (broadcastInDim S4000000 ![] bcast_S_S4000000 : (⟨S_, .i32⟩ : BufTy).Contents (Elt F) → (⟨S4000000, .i32⟩ : BufTy).Contents (Elt F)),
    StableHlo.binary main_v251 main_v256 main_v257 (addi : (⟨S4000000, .i32⟩ : BufTy).Contents (Elt F) → (⟨S4000000, .i32⟩ : BufTy).Contents (Elt F) → (⟨S4000000, .i32⟩ : BufTy).Contents (Elt F)),
    StableHlo.nullary main_c_82 (constantI S_ 32 511#32),
    StableHlo.unary main_c_82 main_v258 (broadcastInDim S4000000 ![] bcast_S_S4000000 : (⟨S_, .i32⟩ : BufTy).Contents (Elt F) → (⟨S4000000, .i32⟩ : BufTy).Contents (Elt F)),
    StableHlo.binary main_v257 main_v258 main_v259 (minsi : (⟨S4000000, .i32⟩ : BufTy).Contents (Elt F) → (⟨S4000000, .i32⟩ : BufTy).Contents (Elt F) → (⟨S4000000, .i32⟩ : BufTy).Contents (Elt F)),
    StableHlo.nullary main_c_83 (constantI S_ 32 0#32),
    StableHlo.unary main_c_83 main_v260 (broadcastInDim S4000000 ![] bcast_S_S4000000 : (⟨S_, .i32⟩ : BufTy).Contents (Elt F) → (⟨S4000000, .i32⟩ : BufTy).Contents (Elt F)),
    StableHlo.binary main_v251 main_v260 main_v261 (cmpi .slt : (⟨S4000000, .i32⟩ : BufTy).Contents (Elt F) → (⟨S4000000, .i32⟩ : BufTy).Contents (Elt F) → (⟨S4000000, .i1⟩ : BufTy).Contents (Elt F)),
    StableHlo.nullary main_c_84 (constantI S_ 32 512#32),
    StableHlo.unary main_c_84 main_v262 (broadcastInDim S4000000 ![] bcast_S_S4000000 : (⟨S_, .i32⟩ : BufTy).Contents (Elt F) → (⟨S4000000, .i32⟩ : BufTy).Contents (Elt F)),
    StableHlo.binary main_v251 main_v262 main_v263 (addi : (⟨S4000000, .i32⟩ : BufTy).Contents (Elt F) → (⟨S4000000, .i32⟩ : BufTy).Contents (Elt F) → (⟨S4000000, .i32⟩ : BufTy).Contents (Elt F)),
    StableHlo.ternary main_v261 main_v263 main_v251 main_v264 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_85 (constantI S_ 32 0#32),
    StableHlo.unary main_c_85 main_v265 (broadcastInDim S4000000 ![] bcast_S_S4000000 : (⟨S_, .i32⟩ : BufTy).Contents (Elt F) → (⟨S4000000, .i32⟩ : BufTy).Contents (Elt F)),
    StableHlo.binary main_v250 main_v265 main_v266 (cmpi .slt : (⟨S4000000, .i32⟩ : BufTy).Contents (Elt F) → (⟨S4000000, .i32⟩ : BufTy).Contents (Elt F) → (⟨S4000000, .i1⟩ : BufTy).Contents (Elt F)),
    StableHlo.nullary main_c_86 (constantI S_ 32 512#32),
    StableHlo.unary main_c_86 main_v267 (broadcastInDim S4000000 ![] bcast_S_S4000000 : (⟨S_, .i32⟩ : BufTy).Contents (Elt F) → (⟨S4000000, .i32⟩ : BufTy).Contents (Elt F)),
    StableHlo.binary main_v250 main_v267 main_v268 (addi : (⟨S4000000, .i32⟩ : BufTy).Contents (Elt F) → (⟨S4000000, .i32⟩ : BufTy).Contents (Elt F) → (⟨S4000000, .i32⟩ : BufTy).Contents (Elt F)),
    StableHlo.ternary main_v266 main_v268 main_v250 main_v269 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v264 main_v270 (broadcastInDim S4000000x1 ![0] bcast_S4000000_S4000000x1_0 : (⟨S4000000, .i32⟩ : BufTy).Contents (Elt F) → (⟨S4000000x1, .i32⟩ : BufTy).Contents (Elt F)) ]

/-- The line is `GoodFrom 331`: each operation's buffers are TensorCore references (the builder's `*_bufs_sub`), it leaves
    no buffer undetermined, and the one buffer it writes is the reference of the next index, from 331 (to 400). -/
theorem good5 : GoodFrom 331 (ops5 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (binary_bufs_sub ..), g (nullary_bufs_sub ..), g (unary_bufs_sub ..),
   g (binary_bufs_sub ..), g (nullary_bufs_sub ..), g (nullary_bufs_sub ..), g (unary_bufs_sub ..),
   g (unary_bufs_sub ..), g (binary_bufs_sub ..), g (unary_bufs_sub ..), g (unary_bufs_sub ..),
   g (binary_bufs_sub ..), g (unary_bufs_sub ..), g (reshape_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (nullary_bufs_sub ..), g (unary_bufs_sub ..), g (binary_bufs_sub ..), g (nullary_bufs_sub ..),
   g (nullary_bufs_sub ..), g (unary_bufs_sub ..), g (unary_bufs_sub ..), g (binary_bufs_sub ..),
   g (unary_bufs_sub ..), g (unary_bufs_sub ..), g (binary_bufs_sub ..), g (unary_bufs_sub ..),
   g (unary_bufs_sub ..), g (binary_bufs_sub ..), g (unary_bufs_sub ..), g (binary_bufs_sub ..),
   g (unary_bufs_sub ..), g (unary_bufs_sub ..), g (unary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (ternary_bufs_sub ..), g (nullary_bufs_sub ..), g (unary_bufs_sub ..),
   g (binary_bufs_sub ..), g (nullary_bufs_sub ..), g (unary_bufs_sub ..), g (binary_bufs_sub ..),
   g (ternary_bufs_sub ..), g (unary_bufs_sub ..), trivial⟩

/-- The printed window is these operations run in order: the callees' definitions unfolded at the calls, both sides are
    one chain of `hlo` steps once sequencing is reassociated. -/
theorem part5_eq (c : Dev nD) : main_part5 (F := F) c = seq ops5 := by
  simp only [main_part5, fn_clip.body, fn_clip_0.body, fn_clip_1.body, seq, bind_assoc, pure_bind] <;> rfl

end Cert.ReferenceIdeal.HandRun

end
-- ==== Proof.RefOps6.lean ====
/- The reference program's @main, windows 6 of 8, each as the LIST of its host operations in order:
   a call of an outlined function is listed as the callee's operations over that call's buffer record (the
   inliner's substitution: the callee's arguments are the call's operands, its values the record's fields).
   Beside each list: every operation touches TensorCore references only, determines its result, and writes one
   buffer, the HBM buffers of consecutive indices in order (`GoodFrom`); and the printed window is the list run in order. -/
import proofs.«114771_j71983651881269_2_alg».proof.Proof.RefOpsBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 60 operations of @main's statements 361 … 420 of 439 (60 statements), in order. -/
abbrev ops6 : List (HloOp τ sig (Elt F)) :=
  [ StableHlo.unary main_v269 main_v271 (broadcastInDim S4000000x1 ![0] bcast_S4000000_S4000000x1_0 : (⟨S4000000, .i32⟩ : BufTy).Contents (Elt F) → (⟨S4000000x1, .i32⟩ : BufTy).Contents (Elt F)),
    StableHlo.binary main_v270 main_v271 main_v272 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg3 main_v272 main_v273 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.nullary main_c_87 (constantI S_ 32 0#32),
    StableHlo.unary main_c_87 main_v274 (broadcastInDim S4000000 ![] bcast_S_S4000000 : (⟨S_, .i32⟩ : BufTy).Contents (Elt F) → (⟨S4000000, .i32⟩ : BufTy).Contents (Elt F)),
    StableHlo.binary main_v251 main_v274 main_v275 (cmpi .slt : (⟨S4000000, .i32⟩ : BufTy).Contents (Elt F) → (⟨S4000000, .i32⟩ : BufTy).Contents (Elt F) → (⟨S4000000, .i1⟩ : BufTy).Contents (Elt F)),
    StableHlo.nullary main_c_88 (constantI S_ 32 512#32),
    StableHlo.unary main_c_88 main_v276 (broadcastInDim S4000000 ![] bcast_S_S4000000 : (⟨S_, .i32⟩ : BufTy).Contents (Elt F) → (⟨S4000000, .i32⟩ : BufTy).Contents (Elt F)),
    StableHlo.binary main_v251 main_v276 main_v277 (addi : (⟨S4000000, .i32⟩ : BufTy).Contents (Elt F) → (⟨S4000000, .i32⟩ : BufTy).Contents (Elt F) → (⟨S4000000, .i32⟩ : BufTy).Contents (Elt F)),
    StableHlo.ternary main_v275 main_v277 main_v251 main_v278 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_89 (constantI S_ 32 0#32),
    StableHlo.unary main_c_89 main_v279 (broadcastInDim S4000000 ![] bcast_S_S4000000 : (⟨S_, .i32⟩ : BufTy).Contents (Elt F) → (⟨S4000000, .i32⟩ : BufTy).Contents (Elt F)),
    StableHlo.binary main_v255 main_v279 main_v280 (cmpi .slt : (⟨S4000000, .i32⟩ : BufTy).Contents (Elt F) → (⟨S4000000, .i32⟩ : BufTy).Contents (Elt F) → (⟨S4000000, .i1⟩ : BufTy).Contents (Elt F)),
    StableHlo.nullary main_c_90 (constantI S_ 32 512#32),
    StableHlo.unary main_c_90 main_v281 (broadcastInDim S4000000 ![] bcast_S_S4000000 : (⟨S_, .i32⟩ : BufTy).Contents (Elt F) → (⟨S4000000, .i32⟩ : BufTy).Contents (Elt F)),
    StableHlo.binary main_v255 main_v281 main_v282 (addi : (⟨S4000000, .i32⟩ : BufTy).Contents (Elt F) → (⟨S4000000, .i32⟩ : BufTy).Contents (Elt F) → (⟨S4000000, .i32⟩ : BufTy).Contents (Elt F)),
    StableHlo.ternary main_v280 main_v282 main_v255 main_v283 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v278 main_v284 (broadcastInDim S4000000x1 ![0] bcast_S4000000_S4000000x1_0 : (⟨S4000000, .i32⟩ : BufTy).Contents (Elt F) → (⟨S4000000x1, .i32⟩ : BufTy).Contents (Elt F)),
    StableHlo.unary main_v283 main_v285 (broadcastInDim S4000000x1 ![0] bcast_S4000000_S4000000x1_0 : (⟨S4000000, .i32⟩ : BufTy).Contents (Elt F) → (⟨S4000000x1, .i32⟩ : BufTy).Contents (Elt F)),
    StableHlo.binary main_v284 main_v285 main_v286 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg3 main_v286 main_v287 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.nullary main_c_91 (constantI S_ 32 0#32),
    StableHlo.unary main_c_91 main_v288 (broadcastInDim S4000000 ![] bcast_S_S4000000 : (⟨S_, .i32⟩ : BufTy).Contents (Elt F) → (⟨S4000000, .i32⟩ : BufTy).Contents (Elt F)),
    StableHlo.binary main_v259 main_v288 main_v289 (cmpi .slt : (⟨S4000000, .i32⟩ : BufTy).Contents (Elt F) → (⟨S4000000, .i32⟩ : BufTy).Contents (Elt F) → (⟨S4000000, .i1⟩ : BufTy).Contents (Elt F)),
    StableHlo.nullary main_c_92 (constantI S_ 32 512#32),
    StableHlo.unary main_c_92 main_v290 (broadcastInDim S4000000 ![] bcast_S_S4000000 : (⟨S_, .i32⟩ : BufTy).Contents (Elt F) → (⟨S4000000, .i32⟩ : BufTy).Contents (Elt F)),
    StableHlo.binary main_v259 main_v290 main_v291 (addi : (⟨S4000000, .i32⟩ : BufTy).Contents (Elt F) → (⟨S4000000, .i32⟩ : BufTy).Contents (Elt F) → (⟨S4000000, .i32⟩ : BufTy).Contents (Elt F)),
    StableHlo.ternary main_v289 main_v291 main_v259 main_v292 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_93 (constantI S_ 32 0#32),
    StableHlo.unary main_c_93 main_v293 (broadcastInDim S4000000 ![] bcast_S_S4000000 : (⟨S_, .i32⟩ : BufTy).Contents (Elt F) → (⟨S4000000, .i32⟩ : BufTy).Contents (Elt F)),
    StableHlo.binary main_v250 main_v293 main_v294 (cmpi .slt : (⟨S4000000, .i32⟩ : BufTy).Contents (Elt F) → (⟨S4000000, .i32⟩ : BufTy).Contents (Elt F) → (⟨S4000000, .i1⟩ : BufTy).Contents (Elt F)),
    StableHlo.nullary main_c_94 (constantI S_ 32 512#32),
    StableHlo.unary main_c_94 main_v295 (broadcastInDim S4000000 ![] bcast_S_S4000000 : (⟨S_, .i32⟩ : BufTy).Contents (Elt F) → (⟨S4000000, .i32⟩ : BufTy).Contents (Elt F)),
    StableHlo.binary main_v250 main_v295 main_v296 (addi : (⟨S4000000, .i32⟩ : BufTy).Contents (Elt F) → (⟨S4000000, .i32⟩ : BufTy).Contents (Elt F) → (⟨S4000000, .i32⟩ : BufTy).Contents (Elt F)),
    StableHlo.ternary main_v294 main_v296 main_v250 main_v297 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v292 main_v298 (broadcastInDim S4000000x1 ![0] bcast_S4000000_S4000000x1_0 : (⟨S4000000, .i32⟩ : BufTy).Contents (Elt F) → (⟨S4000000x1, .i32⟩ : BufTy).Contents (Elt F)),
    StableHlo.unary main_v297 main_v299 (broadcastInDim S4000000x1 ![0] bcast_S4000000_S4000000x1_0 : (⟨S4000000, .i32⟩ : BufTy).Contents (Elt F) → (⟨S4000000x1, .i32⟩ : BufTy).Contents (Elt F)),
    StableHlo.binary main_v298 main_v299 main_v300 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg3 main_v300 main_v301 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.nullary main_c_95 (constantI S_ 32 0#32),
    StableHlo.unary main_c_95 main_v302 (broadcastInDim S4000000 ![] bcast_S_S4000000 : (⟨S_, .i32⟩ : BufTy).Contents (Elt F) → (⟨S4000000, .i32⟩ : BufTy).Contents (Elt F)),
    StableHlo.binary main_v259 main_v302 main_v303 (cmpi .slt : (⟨S4000000, .i32⟩ : BufTy).Contents (Elt F) → (⟨S4000000, .i32⟩ : BufTy).Contents (Elt F) → (⟨S4000000, .i1⟩ : BufTy).Contents (Elt F)),
    StableHlo.nullary main_c_96 (constantI S_ 32 512#32),
    StableHlo.unary main_c_96 main_v304 (broadcastInDim S4000000 ![] bcast_S_S4000000 : (⟨S_, .i32⟩ : BufTy).Contents (Elt F) → (⟨S4000000, .i32⟩ : BufTy).Contents (Elt F)),
    StableHlo.binary main_v259 main_v304 main_v305 (addi : (⟨S4000000, .i32⟩ : BufTy).Contents (Elt F) → (⟨S4000000, .i32⟩ : BufTy).Contents (Elt F) → (⟨S4000000, .i32⟩ : BufTy).Contents (Elt F)),
    StableHlo.ternary main_v303 main_v305 main_v259 main_v306 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_97 (constantI S_ 32 0#32),
    StableHlo.unary main_c_97 main_v307 (broadcastInDim S4000000 ![] bcast_S_S4000000 : (⟨S_, .i32⟩ : BufTy).Contents (Elt F) → (⟨S4000000, .i32⟩ : BufTy).Contents (Elt F)),
    StableHlo.binary main_v255 main_v307 main_v308 (cmpi .slt : (⟨S4000000, .i32⟩ : BufTy).Contents (Elt F) → (⟨S4000000, .i32⟩ : BufTy).Contents (Elt F) → (⟨S4000000, .i1⟩ : BufTy).Contents (Elt F)),
    StableHlo.nullary main_c_98 (constantI S_ 32 512#32),
    StableHlo.unary main_c_98 main_v309 (broadcastInDim S4000000 ![] bcast_S_S4000000 : (⟨S_, .i32⟩ : BufTy).Contents (Elt F) → (⟨S4000000, .i32⟩ : BufTy).Contents (Elt F)),
    StableHlo.binary main_v255 main_v309 main_v310 (addi : (⟨S4000000, .i32⟩ : BufTy).Contents (Elt F) → (⟨S4000000, .i32⟩ : BufTy).Contents (Elt F) → (⟨S4000000, .i32⟩ : BufTy).Contents (Elt F)),
    StableHlo.ternary main_v308 main_v310 main_v255 main_v311 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v306 main_v312 (broadcastInDim S4000000x1 ![0] bcast_S4000000_S4000000x1_0 : (⟨S4000000, .i32⟩ : BufTy).Contents (Elt F) → (⟨S4000000x1, .i32⟩ : BufTy).Contents (Elt F)),
    StableHlo.unary main_v311 main_v313 (broadcastInDim S4000000x1 ![0] bcast_S4000000_S4000000x1_0 : (⟨S4000000, .i32⟩ : BufTy).Contents (Elt F) → (⟨S4000000x1, .i32⟩ : BufTy).Contents (Elt F)),
    StableHlo.binary main_v312 main_v313 main_v314 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.binary main_arg3 main_v314 main_v315 ((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)),
    StableHlo.binary main_v287 main_v273 main_v316 (subf : (⟨S4000000x8, .f32⟩ : BufTy).Contents (Elt F) → (⟨S4000000x8, .f32⟩ : BufTy).Contents (Elt F) → (⟨S4000000x8, .f32⟩ : BufTy).Contents (Elt F)),
    StableHlo.unary main_v247 main_v317 (broadcastInDim S4000000x8 ![0, 1] bcast_S4000000x1_S4000000x8_0_1 : (⟨S4000000x1, .f32⟩ : BufTy).Contents (Elt F) → (⟨S4000000x8, .f32⟩ : BufTy).Contents (Elt F)),
    StableHlo.binary main_v317 main_v316 main_v318 (mulf : (⟨S4000000x8, .f32⟩ : BufTy).Contents (Elt F) → (⟨S4000000x8, .f32⟩ : BufTy).Contents (Elt F) → (⟨S4000000x8, .f32⟩ : BufTy).Contents (Elt F)) ]

/-- The line is `GoodFrom 401`: each operation's buffers are TensorCore references (the builder's `*_bufs_sub`), it leaves
    no buffer undetermined, and the one buffer it writes is the reference of the next index, from 401 (to 460). -/
theorem good6 : GoodFrom 401 (ops6 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (binary_bufs_sub ..), g (binary_bufs_sub ..), g (nullary_bufs_sub ..),
   g (unary_bufs_sub ..), g (binary_bufs_sub ..), g (nullary_bufs_sub ..), g (unary_bufs_sub ..),
   g (binary_bufs_sub ..), g (ternary_bufs_sub ..), g (nullary_bufs_sub ..), g (unary_bufs_sub ..),
   g (binary_bufs_sub ..), g (nullary_bufs_sub ..), g (unary_bufs_sub ..), g (binary_bufs_sub ..),
   g (ternary_bufs_sub ..), g (unary_bufs_sub ..), g (unary_bufs_sub ..), g (binary_bufs_sub ..),
   g (binary_bufs_sub ..), g (nullary_bufs_sub ..), g (unary_bufs_sub ..), g (binary_bufs_sub ..),
   g (nullary_bufs_sub ..), g (unary_bufs_sub ..), g (binary_bufs_sub ..), g (ternary_bufs_sub ..),
   g (nullary_bufs_sub ..), g (unary_bufs_sub ..), g (binary_bufs_sub ..), g (nullary_bufs_sub ..),
   g (unary_bufs_sub ..), g (binary_bufs_sub ..), g (ternary_bufs_sub ..), g (unary_bufs_sub ..),
   g (unary_bufs_sub ..), g (binary_bufs_sub ..), g (binary_bufs_sub ..), g (nullary_bufs_sub ..),
   g (unary_bufs_sub ..), g (binary_bufs_sub ..), g (nullary_bufs_sub ..), g (unary_bufs_sub ..),
   g (binary_bufs_sub ..), g (ternary_bufs_sub ..), g (nullary_bufs_sub ..), g (unary_bufs_sub ..),
   g (binary_bufs_sub ..), g (nullary_bufs_sub ..), g (unary_bufs_sub ..), g (binary_bufs_sub ..),
   g (ternary_bufs_sub ..), g (unary_bufs_sub ..), g (unary_bufs_sub ..), g (binary_bufs_sub ..),
   g (binary_bufs_sub ..), g (binary_bufs_sub ..), g (unary_bufs_sub ..), g (binary_bufs_sub ..), trivial⟩

/-- The printed window is these operations run in order: the callees' definitions unfolded at the calls, both sides are
    one chain of `hlo` steps once sequencing is reassociated. -/
theorem part6_eq (c : Dev nD) : main_part6 (F := F) c = seq ops6 := by
  simp only [main_part6, fn_clip.body, fn_clip_0.body, fn_clip_1.body, seq, bind_assoc, pure_bind] <;> rfl

end Cert.ReferenceIdeal.HandRun

end
-- ==== Proof.RefOps7.lean ====
/- The reference program's @main, windows 7 of 8, each as the LIST of its host operations in order:
   a call of an outlined function is listed as the callee's operations over that call's buffer record (the
   inliner's substitution: the callee's arguments are the call's operands, its values the record's fields).
   Beside each list: every operation touches TensorCore references only, determines its result, and writes one
   buffer, the HBM buffers of consecutive indices in order (`GoodFrom`); and the printed window is the list run in order. -/
import proofs.«114771_j71983651881269_2_alg».proof.Proof.RefOpsBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 23 operations of @main's statements 421 … 439 of 439 (19 statements), in order. -/
abbrev ops7 : List (HloOp τ sig (Elt F)) :=
  [ StableHlo.binary main_v273 main_v318 main_v319 (addf : (⟨S4000000x8, .f32⟩ : BufTy).Contents (Elt F) → (⟨S4000000x8, .f32⟩ : BufTy).Contents (Elt F) → (⟨S4000000x8, .f32⟩ : BufTy).Contents (Elt F)),
    StableHlo.binary main_v315 main_v301 main_v320 (subf : (⟨S4000000x8, .f32⟩ : BufTy).Contents (Elt F) → (⟨S4000000x8, .f32⟩ : BufTy).Contents (Elt F) → (⟨S4000000x8, .f32⟩ : BufTy).Contents (Elt F)),
    StableHlo.unary main_v247 main_v321 (broadcastInDim S4000000x8 ![0, 1] bcast_S4000000x1_S4000000x8_0_1 : (⟨S4000000x1, .f32⟩ : BufTy).Contents (Elt F) → (⟨S4000000x8, .f32⟩ : BufTy).Contents (Elt F)),
    StableHlo.binary main_v321 main_v320 main_v322 (mulf : (⟨S4000000x8, .f32⟩ : BufTy).Contents (Elt F) → (⟨S4000000x8, .f32⟩ : BufTy).Contents (Elt F) → (⟨S4000000x8, .f32⟩ : BufTy).Contents (Elt F)),
    StableHlo.binary main_v301 main_v322 main_v323 (addf : (⟨S4000000x8, .f32⟩ : BufTy).Contents (Elt F) → (⟨S4000000x8, .f32⟩ : BufTy).Contents (Elt F) → (⟨S4000000x8, .f32⟩ : BufTy).Contents (Elt F)),
    StableHlo.binary main_v323 main_v319 main_v324 (subf : (⟨S4000000x8, .f32⟩ : BufTy).Contents (Elt F) → (⟨S4000000x8, .f32⟩ : BufTy).Contents (Elt F) → (⟨S4000000x8, .f32⟩ : BufTy).Contents (Elt F)),
    StableHlo.unary main_v249 main_v325 (broadcastInDim S4000000x8 ![0, 1] bcast_S4000000x1_S4000000x8_0_1 : (⟨S4000000x1, .f32⟩ : BufTy).Contents (Elt F) → (⟨S4000000x8, .f32⟩ : BufTy).Contents (Elt F)),
    StableHlo.binary main_v325 main_v324 main_v326 (mulf : (⟨S4000000x8, .f32⟩ : BufTy).Contents (Elt F) → (⟨S4000000x8, .f32⟩ : BufTy).Contents (Elt F) → (⟨S4000000x8, .f32⟩ : BufTy).Contents (Elt F)),
    StableHlo.binary main_v319 main_v326 main_v327 (addf : (⟨S4000000x8, .f32⟩ : BufTy).Contents (Elt F) → (⟨S4000000x8, .f32⟩ : BufTy).Contents (Elt F) → (⟨S4000000x8, .f32⟩ : BufTy).Contents (Elt F)),
    StableHlo.nary ![main_v107, main_v220, main_v327] main_v328 (fun u => concatenate S4000000x24 1 [⟨S4000000x8, u 0⟩, ⟨S4000000x8, u 1⟩, ⟨S4000000x8, u 2⟩] concatenates_S4000000x8_S4000000x8_S4000000x8_S4000000x24_d1),
    StableHlo.unary main_arg4 main_v329 ((transpose S24x8 [1, 0] · transposes_S8x24_S24x8_1_0) : (⟨S8x24, .f32⟩ : BufTy).Contents (Elt F) → (⟨S24x8, .f32⟩ : BufTy).Contents (Elt F)),
    StableHlo.binary main_v328 main_v329 main_v330 ((fun l r => Host.dotGeneral dot_S4000000x24_S24x8_S4000000x8_1_0_0_1_n_n none l r) : (⟨S4000000x24, .f32⟩ : BufTy).Contents (Elt F) → (⟨S24x8, .f32⟩ : BufTy).Contents (Elt F) → (⟨S4000000x8, .f32⟩ : BufTy).Contents (Elt F)),
    StableHlo.unary main_arg5 main_v331 (broadcastInDim S1x8 ![1] bcast_S8_S1x8_1 : (⟨S8, .f32⟩ : BufTy).Contents (Elt F) → (⟨S1x8, .f32⟩ : BufTy).Contents (Elt F)),
    StableHlo.unary main_v331 main_v332 (broadcastInDim S4000000x8 ![0, 1] bcast_S1x8_S4000000x8_0_1 : (⟨S1x8, .f32⟩ : BufTy).Contents (Elt F) → (⟨S4000000x8, .f32⟩ : BufTy).Contents (Elt F)),
    StableHlo.binary main_v330 main_v332 main_v333 (addf : (⟨S4000000x8, .f32⟩ : BufTy).Contents (Elt F) → (⟨S4000000x8, .f32⟩ : BufTy).Contents (Elt F) → (⟨S4000000x8, .f32⟩ : BufTy).Contents (Elt F)),
    StableHlo.nullary main_cst_99 (constant S_ .f32 0xC1200000#32),
    StableHlo.nullary main_cst_100 (constant S_ .f32 0x41200000#32),
    -- the call of @clip_1 over main_call7: its 6 operations
    StableHlo.TRef.unary (.of main_cst_99 : TRef sig ⟨S_, .f32⟩) main_call7.v0 id,
    StableHlo.TRef.unary main_call7.v0 main_call7.v1 (broadcastInDim S4000000x8 ![] bcast_S_S4000000x8),
    StableHlo.TRef.binary main_call7.v1 (.of main_v333 : TRef sig ⟨S4000000x8, .f32⟩) main_call7.v2 maximumf,
    StableHlo.TRef.unary (.of main_cst_100 : TRef sig ⟨S_, .f32⟩) main_call7.v3 id,
    StableHlo.TRef.unary main_call7.v3 main_call7.v4 (broadcastInDim S4000000x8 ![] bcast_S_S4000000x8),
    StableHlo.TRef.binary main_call7.v4 main_call7.v2 main_call7.v5 minimumf ]

/-- The line is `GoodFrom 461`: each operation's buffers are TensorCore references (the builder's `*_bufs_sub`), it leaves
    no buffer undetermined, and the one buffer it writes is the reference of the next index, from 461 (to 483). -/
theorem good7 : GoodFrom 461 (ops7 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (binary_bufs_sub ..), g (binary_bufs_sub ..), g (unary_bufs_sub ..), g (binary_bufs_sub ..),
   g (binary_bufs_sub ..), g (binary_bufs_sub ..), g (unary_bufs_sub ..), g (binary_bufs_sub ..),
   g (binary_bufs_sub ..), g (nary_bufs_sub ..), g (unary_bufs_sub ..), g (binary_bufs_sub ..),
   g (unary_bufs_sub ..), g (unary_bufs_sub ..), g (binary_bufs_sub ..), g (nullary_bufs_sub ..),
   g (nullary_bufs_sub ..), g (unary_bufs_sub ..), g (unary_bufs_sub ..), g (binary_bufs_sub ..),
   g (unary_bufs_sub ..), g (unary_bufs_sub ..), g (binary_bufs_sub ..), trivial⟩

/-- The printed window is these operations run in order: the callees' definitions unfolded at the calls, both sides are
    one chain of `hlo` steps once sequencing is reassociated. -/
theorem part7_eq (c : Dev nD) : main_part7 (F := F) c = seq ops7 := by
  simp only [main_part7, fn_clip.body, fn_clip_0.body, fn_clip_1.body, seq, bind_assoc, pure_bind] <;> rfl

end Cert.ReferenceIdeal.HandRun

end
-- ==== Proof.RefRun.lean ====
/- The reference program's run, by hand. @main is a straight line of 478 host operations — its own 430 and, at each of
   its eight calls of an outlined clamp (`fn_clip`, `fn_clip_0`, `fn_clip_1`: a lower bound broadcast and taken as a
   maximum, an upper bound broadcast and taken as a minimum), the callee's six over that call's buffers. `ops` is that line,
   the eight printed windows' lists one after the other; `main_eq`: @main is `seq ops`. Every operation of the line touches
   TensorCore references only, determines what it writes, and writes one buffer: the operation at position `i` the HBM
   buffer of index `6 + i`, past the six arguments (`good`); and the signature scopes no buffer and no semaphore. So
   (`run`) from any memory with zero counters every weakly fair execution of @main terminates, faults nowhere, leaves the six
   arguments at their launch contents, and leaves in the result buffer `main_v334` the fold `after ops` of the operations'
   results over the launch contents. `frame` is the part of that about the arguments, at the exact arithmetic.

   The fold is read one operation at a time: every value is defined once, before its uses, so after the whole line the buffer
   an operation writes holds that operation's function of what its operand buffers hold after the whole line
   (`good.at_unary`, `good.at_binary`, … of the base module, the position found from the buffer's index). The lemmas
   `after_…` below are that at the stages of the computation: the clamped coordinates, each plane's bilinear sample, their
   concatenation, the projection, the bias added, the final clamp. -/
import proofs.«114771_j71983651881269_2_alg».proof.Proof.RefOps0
import proofs.«114771_j71983651881269_2_alg».proof.Proof.RefOps1
import proofs.«114771_j71983651881269_2_alg».proof.Proof.RefOps2
import proofs.«114771_j71983651881269_2_alg».proof.Proof.RefOps3
import proofs.«114771_j71983651881269_2_alg».proof.Proof.RefOps4
import proofs.«114771_j71983651881269_2_alg».proof.Proof.RefOps5
import proofs.«114771_j71983651881269_2_alg».proof.Proof.RefOps6
import proofs.«114771_j71983651881269_2_alg».proof.Proof.RefOps7
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- ALL of @main's 478 host operations, in order: the eight windows' lists one after the other (each call's six
    operations inline in its window's list). -/
abbrev ops : List (HloOp τ sig (Elt F)) :=
  ops0 ++ (ops1 ++ (ops2 ++ (ops3 ++ (ops4 ++ (ops5 ++ (ops6 ++ ops7))))))

/-- @main is that line: it runs its eight windows in order, each window is its list run in order (`partK_eq`), and lines
    run one after the other are their concatenation run as one (`seq_append`). -/
theorem main_eq (c : Dev nD) : main (F := F) c = seq ops := by
  simp only [ops, seq_append]
  rw [← part0_eq c, ← part1_eq c, ← part2_eq c, ← part3_eq c, ← part4_eq c, ← part5_eq c, ← part6_eq c, ← part7_eq c]
  rfl

/-- The line writes the HBM buffers of indices 6, 7, …, 483 in order, one per operation (window by window: each window
    starts at the index the one before stops at), every operation acceptable to the run. -/
theorem good : GoodFrom 6 (ops (F := F)) :=
  good0.append (good1.append (good2.append (good3.append (good4.append (good5.append (good6.append good7
    rfl) rfl) rfl) rfl) rfl) rfl) rfl

/-- The signature scopes no TensorCore buffer: its only buffers are the HBM ones, each a tensor value of @main (the other
    memory spaces are empty). -/
theorem scopedRefs_eq : (Finset.univ.filter fun b : Ref sig .tc => b.isScoped) = ∅ :=
  Finset.filter_eq_empty_iff.mpr fun b _ => by
    obtain ⟨sp, i, hn⟩ := b
    cases sp <;> first | exact Bool.false_ne_true | exact Fin.elim0 i

/-- It has no semaphore at all. -/
theorem scopedSems_eq : (Finset.univ.filter fun sm : SemLoc sig => sm.isScoped .tc) = ∅ := by decide

/-- On the device, for any float values, from any memory with zero counters: every weakly fair execution of @main
    terminates, faulting nowhere, with the result buffer `main_v334` at the fold of the 478 operations' results over the
    launch contents (`after ops`: each operation rewrites the buffer it writes to its function of its operands' contents and
    leaves the rest) and each of the six arguments at its launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v334) = after ops (fun b => m (c, b)) (Proc.devRef .tc main_v334)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v334,
      (h c main_arg0).trans (good.keep_lt _ (by decide)),
      (h c main_arg1).trans (good.keep_lt _ (by decide)),
      (h c main_arg2).trans (good.keep_lt _ (by decide)),
      (h c main_arg3).trans (good.keep_lt _ (by decide)),
      (h c main_arg4).trans (good.keep_lt _ (by decide)),
      (h c main_arg5).trans (good.keep_lt _ (by decide))⟩)
    (run_seq scopedRefs_eq scopedSems_eq defs main (fun _ => ops) main_eq (fun _ => good.bufs_sub) m ρ (fun _ => good.fresh))

/-- The arguments' part of `run` at the exact arithmetic (floats the extended reals): every weakly fair execution of
    @main terminates and leaves its six arguments unchanged. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m g)

/-! ## The fold at the stages of the computation

Each is one operation's equation between what buffers hold after the whole line (`V` the launch contents). -/

/-- An argument buffer holds after the line what it held at launch. -/
theorem after_arg (V : Valuation τ sig (Elt F)) {r : Ref sig .tc} (hr : r.idx.val < 6 := by decide) :
    after ops V (Proc.devRef .tc r) = V (Proc.devRef .tc r) :=
  good.keep_lt V hr

/-- The clamped coordinates: the minimum of the broadcast upper bound and (the maximum of the broadcast lower bound and the
    coordinates). -/
theorem after_v0 (V : Valuation τ sig (Elt F)) :
    after ops V (Proc.devRef .tc main_v0)
      = (minimumf : (⟨S4000000x3, .f32⟩ : BufTy).Contents (Elt F) → (⟨S4000000x3, .f32⟩ : BufTy).Contents (Elt F) → (⟨S4000000x3, .f32⟩ : BufTy).Contents (Elt F))
          (after ops V (Proc.devRef .tc main_call0_v4)) (after ops V (Proc.devRef .tc main_call0_v2)) :=
  good.at_binary rfl (by decide) (by decide) (by decide) V

/-- The first plane's sample: the top blend plus the vertical weight times (bottom less top). -/
theorem after_v107 (V : Valuation τ sig (Elt F)) :
    after ops V (Proc.devRef .tc main_v107)
      = (addf : (⟨S4000000x8, .f32⟩ : BufTy).Contents (Elt F) → (⟨S4000000x8, .f32⟩ : BufTy).Contents (Elt F) → (⟨S4000000x8, .f32⟩ : BufTy).Contents (Elt F))
          (after ops V (Proc.devRef .tc main_v99)) (after ops V (Proc.devRef .tc main_v106)) :=
  good.at_binary rfl (by decide) (by decide) (by decide) V

/-- The second plane's. -/
theorem after_v220 (V : Valuation τ sig (Elt F)) :
    after ops V (Proc.devRef .tc main_v220)
      = (addf : (⟨S4000000x8, .f32⟩ : BufTy).Contents (Elt F) → (⟨S4000000x8, .f32⟩ : BufTy).Contents (Elt F) → (⟨S4000000x8, .f32⟩ : BufTy).Contents (Elt F))
          (after ops V (Proc.devRef .tc main_v212)) (after ops V (Proc.devRef .tc main_v219)) :=
  good.at_binary rfl (by decide) (by decide) (by decide) V

/-- The third plane's. -/
theorem after_v327 (V : Valuation τ sig (Elt F)) :
    after ops V (Proc.devRef .tc main_v327)
      = (addf : (⟨S4000000x8, .f32⟩ : BufTy).Contents (Elt F) → (⟨S4000000x8, .f32⟩ : BufTy).Contents (Elt F) → (⟨S4000000x8, .f32⟩ : BufTy).Contents (Elt F))
          (after ops V (Proc.devRef .tc main_v319)) (after ops V (Proc.devRef .tc main_v326)) :=
  good.at_binary rfl (by decide) (by decide) (by decide) V

/-- The three samples side by side: 24 features a point. -/
theorem after_v328 (V : Valuation τ sig (Elt F)) :
    after ops V (Proc.devRef .tc main_v328)
      = concatenate S4000000x24 1 [⟨S4000000x8, after ops V (Proc.devRef .tc main_v107)⟩, ⟨S4000000x8, after ops V (Proc.devRef .tc main_v220)⟩,
          ⟨S4000000x8, after ops V (Proc.devRef .tc main_v327)⟩] concatenates_S4000000x8_S4000000x8_S4000000x8_S4000000x24_d1 :=
  good.at_nary (xs := ![main_v107, main_v220, main_v327]) (y := main_v328) rfl (by decide) (by decide) V

/-- The projection matrix transposed. -/
theorem after_v329 (V : Valuation τ sig (Elt F)) :
    after ops V (Proc.devRef .tc main_v329) = transpose S24x8 [1, 0] (V (Proc.devRef .tc main_arg4)) transposes_S8x24_S24x8_1_0 :=
  (good.at_unary rfl (by decide) (by decide) V).trans (congrArg (fun x : (⟨S8x24, .f32⟩ : BufTy).Contents (Elt F) => transpose S24x8 [1, 0] x transposes_S8x24_S24x8_1_0)
      (good.keep_lt V (r := main_arg4) (by decide)))

/-- The projection: the 24 features contracted with the transposed matrix. -/
theorem after_v330 (V : Valuation τ sig (Elt F)) :
    after ops V (Proc.devRef .tc main_v330)
      = Host.dotGeneral dot_S4000000x24_S24x8_S4000000x8_1_0_0_1_n_n none (after ops V (Proc.devRef .tc main_v328)) (after ops V (Proc.devRef .tc main_v329)) :=
  good.at_binary rfl (by decide) (by decide) (by decide) V

/-- The bias added (broadcast along the points). -/
theorem after_v333 (V : Valuation τ sig (Elt F)) :
    after ops V (Proc.devRef .tc main_v333)
      = (addf : (⟨S4000000x8, .f32⟩ : BufTy).Contents (Elt F) → (⟨S4000000x8, .f32⟩ : BufTy).Contents (Elt F) → (⟨S4000000x8, .f32⟩ : BufTy).Contents (Elt F))
          (after ops V (Proc.devRef .tc main_v330)) (after ops V (Proc.devRef .tc main_v332)) :=
  good.at_binary rfl (by decide) (by decide) (by decide) V

/-- The result: the final clamp's minimum of the broadcast upper bound and (the maximum of the broadcast lower bound and the
    biased projection). -/
theorem after_v334 (V : Valuation τ sig (Elt F)) :
    after ops V (Proc.devRef .tc main_v334)
      = (minimumf : (⟨S4000000x8, .f32⟩ : BufTy).Contents (Elt F) → (⟨S4000000x8, .f32⟩ : BufTy).Contents (Elt F) → (⟨S4000000x8, .f32⟩ : BufTy).Contents (Elt F))
          (after ops V (Proc.devRef .tc main_call7_v4)) (after ops V (Proc.devRef .tc main_call7_v2)) :=
  good.at_binary rfl (by decide) (by decide) (by decide) V

end Cert.ReferenceIdeal.HandRun

end
-- ==== Proof.LibTakeRows.lean ====
/-
  Taking rows of a matrix through an array of row numbers, read at an index.

  An operand with R rows of length L is read through an integer array of N × J row numbers held as an N × J × 1 array
  (one scalar start index per result row): entry (n, j, l) of the result is the operand at (r, l), where r is the
  word at (n, j, 0) read as a signed integer and clamped into [0, R − 1] — negative to 0, beyond the end to the last
  row — as a gather clamps every start index.  When the word read signed is already a row number, r is that number.

  Also: a reduction of an N × J × 1 array over its last axis, of extent one, by a commutative and associative
  operation: entry (n, j) of the result combines the one element (n, j, 0) with the initial value.  For the bitwise
  "and" of one-bit words from the initial value 1 it is that element itself.
-/
import Idealize.ShloMosaic.PureOps.ShapeOps
import Idealize.ShloMosaic.PureOps.Reduce
import Idealize.ShloMosaic.Lib.ValueIdx

noncomputable section

namespace Cert.Lib.TakeRows

open Idealize.ShloMosaic Idealize.ShloMosaic.ValueIdx

variable {α : Type}

/-- An index word read as a signed integer and clamped into an axis of positive extent `R`: negative words to 0,
    words beyond the end to `R − 1`. -/
def clampIdx {w : Nat} (R : Nat) (hR : 0 < R) (v : BitVec w) : Fin R := ⟨min v.toInt.toNat (R - 1), by omega⟩

/-- A word that, read signed, is the number of a row is clamped to that row. -/
theorem clampIdx_of_toInt {w : Nat} (R : Nat) (hR : 0 < R) (v : BitVec w) (k : Fin R) (hk : v.toInt = (k.val : Int)) :
    clampIdx R hR v = k := by
  apply Fin.ext
  show min v.toInt.toNat (R - 1) = k.val
  rw [hk, Int.toNat_natCast]
  have := k.isLt
  omega

/-- A word whose signed reading lies in `[0, R)` is clamped to that reading. -/
theorem clampIdx_val_of_range {w : Nat} (R : Nat) (hR : 0 < R) (v : BitVec w) (h0 : 0 ≤ v.toInt) (h1 : v.toInt < (R : Int)) :
    ((clampIdx R hR v).val : Int) = v.toInt := by
  show ((min v.toInt.toNat (R - 1) : Nat) : Int) = v.toInt
  omega

/-- The dimension numbers of a gather of rows: operand `[R, L]`, start indices `[N, J, 1]` (the last axis holds the
    one-component index vector), result `[N, J, L]`; the operand's row axis is collapsed and indexed, the result's last
    axis runs along the row. -/
abbrev rowsDims (R L N J : Nat)
    (wf : GatherDims.WF ⟨2, ![R, L]⟩ ⟨3, ![N, J, 1]⟩ ⟨3, ![N, J, L]⟩ [2] [0] [] [0] [] 2 ![1, L]) :
    GatherDims ⟨2, ![R, L]⟩ ⟨3, ![N, J, 1]⟩ ⟨3, ![N, J, L]⟩ where
  offsetDims := [2]
  collapsedSliceDims := [0]
  operandBatchingDims := []
  startIndicesBatchingDims := []
  startIndexMap := [0]
  indexVectorDim := 2
  sliceSizes := ![1, L]
  wf := wf

/-- THE GATHER OF ROWS READ AT `(n, j, l)`: the operand at `(r, l)`, `r` the start index `idx[n, j, 0]` read signed and
    clamped into `[0, R − 1]`. -/
theorem gather_rows_apply_clamp {R L N J w : Nat} (hR : 0 < R)
    (wf : GatherDims.WF ⟨2, ![R, L]⟩ ⟨3, ![N, J, 1]⟩ ⟨3, ![N, J, L]⟩ [2] [0] [] [0] [] 2 ![1, L])
    (x : (⟨2, ![R, L]⟩ : Shape).Idx → α) (idx : IVec ⟨3, ![N, J, 1]⟩ w) (n : Fin N) (j : Fin J) (l : Fin L) :
    Host.gather (rowsDims R L N J wf) x idx (ix3 n j l) = x (ix2 (clampIdx R hR (idx (ix3 n j (0 : Fin 1)))) l) := by
  unfold Host.gather
  congr 1
  funext a
  refine Fin.ext ?_
  match a with
  | ⟨0, _⟩ =>
    show (rowsDims R L N J wf).start (ix3 n j l) idx 0 + (rowsDims R L N J wf).batchCoord (ix3 n j l) 0
      + (rowsDims R L N J wf).offCoord (ix3 n j l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims R L N J wf).startIndexMap from List.mem_singleton.mpr rfl)]
    have hsi : (rowsDims R L N J wf).siIdx (ix3 n j l) ⟨List.idxOf (0 : Fin 2) (rowsDims R L N J wf).startIndexMap,
        List.idxOf_lt_length_iff.2 (List.mem_singleton.mpr rfl)⟩ = ix3 n j (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims R L N J wf).start (ix3 n j l) idx 1 + (rowsDims R L N J wf).batchCoord (ix3 n j l) 1
      + (rowsDims R L N J wf).offCoord (ix3 n j l) 1 = l.val
    rw [GatherDims.batchCoord_eq_zero _ _ _ List.not_mem_nil]
    have hs : (rowsDims R L N J wf).start (ix3 n j l) idx 1 = 0 := by
      unfold GatherDims.start
      rw [dif_neg (show (1 : Fin 2) ∉ (rowsDims R L N J wf).startIndexMap from
        by show (1 : Fin 2) ∉ ([0] : List (Fin 2)); decide)]
    rw [hs]
    simp only [Nat.add_zero, Nat.zero_add]
    rfl

/-- THE GATHER OF ROWS AT AN IN-RANGE ROW NUMBER: when the start index `idx[n, j, 0]`, read as a signed integer, is
    the row number `k` (so `0 ≤ k < R`), entry `(n, j, l)` of the result is the operand at `(k, l)`. -/
theorem gather_rows_apply {R L N J w : Nat}
    (wf : GatherDims.WF ⟨2, ![R, L]⟩ ⟨3, ![N, J, 1]⟩ ⟨3, ![N, J, L]⟩ [2] [0] [] [0] [] 2 ![1, L])
    (x : (⟨2, ![R, L]⟩ : Shape).Idx → α) (idx : IVec ⟨3, ![N, J, 1]⟩ w) (n : Fin N) (j : Fin J) (l : Fin L)
    (k : Fin R) (hk : (idx (ix3 n j (0 : Fin 1))).toInt = (k.val : Int)) :
    Host.gather (rowsDims R L N J wf) x idx (ix3 n j l) = x (ix2 k l) := by
  rw [gather_rows_apply_clamp (Fin.pos k) wf x idx n j l, clampIdx_of_toInt R (Fin.pos k) _ k hk]

/-! ## Reducing over a last axis of extent one -/

/-- A REDUCTION OVER THE UNIT AXIS READ AT `(n, j)`: exactly one operand index, `(n, j, 0)`, reduces into `(n, j)`, so
    the result there is the operation applied to that element and the initial value. -/
theorem reduce_unit_axis_apply (f : α → α → α) [Std.Commutative f] [Std.Associative f] {N J : Nat} {u : Shape}
    (x : (⟨3, ![N, J, 1]⟩ : Shape).Idx → α) (init : u.Idx → α)
    (h : (⟨3, ![N, J, 1]⟩ : Shape).ReducesTo [2] ⟨2, ![N, J]⟩) (hu : 0 < u.numel) (n : Fin N) (j : Fin J) :
    Host.reduce f x init h hu (ix2 n j) = f (x (ix3 n j (0 : Fin 1))) (init (Shape.Idx.first hu)) := by
  rw [Host.reduce_eq_fold]
  have hset : (Finset.univ.filter fun i => h.drop i = ix2 n j) = {ix3 n j (0 : Fin 1)} := by
    ext i
    simp only [Finset.mem_filter, Finset.mem_univ, true_and, Finset.mem_singleton]
    constructor
    · intro hi
      have h0 : (i 0).val = n.val := congrArg (fun q : (⟨2, ![N, J]⟩ : Shape).Idx => (q 0).val) hi
      have h1 : (i 1).val = j.val := congrArg (fun q : (⟨2, ![N, J]⟩ : Shape).Idx => (q 1).val) hi
      have h2 : (i 2).val < 1 := (i 2).isLt
      funext b
      refine Fin.ext ?_
      match b with
      | ⟨0, _⟩ => exact h0
      | ⟨1, _⟩ => exact h1
      | ⟨2, _⟩ => show (i 2).val = 0; omega
    · rintro rfl
      funext b
      refine Fin.ext ?_
      match b with
      | ⟨0, _⟩ => rfl
      | ⟨1, _⟩ => rfl
  rw [hset, Finset.fold_singleton]

/-- The bitwise "and" of a one-bit word with 1 is the word. -/
theorem andi_one_right (b : BitVec 1) : IntOp.andi b 1#1 = b := by revert b; decide

/-- THE "AND" OVER THE UNIT AXIS READ AT `(n, j)`: the element `(n, j, 0)` "and" the initial value. -/
theorem reduce_andi_unit_apply {N J : Nat} {u : Shape} (x : IVec ⟨3, ![N, J, 1]⟩ 1) (init : u.Idx → BitVec 1)
    (h : (⟨3, ![N, J, 1]⟩ : Shape).ReducesTo [2] ⟨2, ![N, J]⟩) (hu : 0 < u.numel) (n : Fin N) (j : Fin J) :
    Host.reduce IntOp.andi x init h hu (ix2 n j) = IntOp.andi (x (ix3 n j (0 : Fin 1))) (init (Shape.Idx.first hu)) :=
  reduce_unit_axis_apply IntOp.andi x init h hu n j

/-- THE "AND" OVER THE UNIT AXIS FROM THE INITIAL VALUE 1, READ AT `(n, j)`: the element `(n, j, 0)` itself. -/
theorem reduce_andi_unit_apply_one {N J : Nat} {u : Shape} (x : IVec ⟨3, ![N, J, 1]⟩ 1) (init : u.Idx → BitVec 1)
    (h : (⟨3, ![N, J, 1]⟩ : Shape).ReducesTo [2] ⟨2, ![N, J]⟩) (hu : 0 < u.numel) (hinit : ∀ i, init i = 1#1)
    (n : Fin N) (j : Fin J) :
    Host.reduce IntOp.andi x init h hu (ix2 n j) = x (ix3 n j (0 : Fin 1)) := by
  rw [reduce_andi_unit_apply x init h hu n j, hinit, andi_one_right]

end Cert.Lib.TakeRows

end
-- ==== Proof.Spec.lean ====
/-
  THE TRI-PLANE SAMPLER'S SCALAR VOCABULARY on the extended reals: no program is imported here, so that both sides of
  the certificate can state their values over the same names.

  A coordinate is first clipped into `[-1, 1]` (`clip1`). A clipped coordinate `u` has the pixel coordinate
  `pix u = min 511 (max 0 (((u + 1) · 512 − 1) · ½))`; its cell is `⌊pix u⌋` converted to a 32-bit integer (`xw`), the
  next cell is that plus one, capped at 511 (`xw1`); read as row numbers of an axis of extent 512 they are `cellLo` and
  `cellHi`; the interpolation weight is the fractional part `frac u = pix u − ⌊pix u⌋`. Four corner values are blended
  bilinearly (`blend`: `top = v00 + wx·(v01 − v00)`, `bot = v10 + wx·(v11 − v10)`, `top + wy·(bot − top)`). The three
  planes' eight features each meet their `8 × 8` blocks of a `24 × 8` projection column, are summed left to right, the
  bias is added and the result is clipped into `[-10, 10]` (`outRow`). Every float literal stays the word the programs
  print; the operations are the extended reals' own.
-/
import Idealize.ShloMosaic.PureOps.Ideal
import proofs.«114771_j71983651881269_2_alg».proof.Proof.LibTakeRows

noncomputable section

namespace Cert.TriPlane

open Idealize.ShloMosaic
open scoped BigOperators

/-- The clip of a coordinate into `[-1, 1]`: `min 1 (max (−1) x)`. -/
def clip1 (x : EReal) : EReal :=
  min (Ideal.ofBits .f32 0x3F800000#32) (max (Ideal.ofBits .f32 0xBF800000#32) x)

/-- The pixel coordinate of a clipped coordinate `u`: `((u + 1) · 512 − 1) · ½` clamped into `[0, 511]`. -/
def pix (u : EReal) : EReal :=
  min (Ideal.ofBits .f32 0x43FF8000#32) (max (Ideal.ofBits .f32 0x00000000#32)
    (((u + Ideal.ofBits .f32 0x3F800000#32) * Ideal.ofBits .f32 0x44000000#32 - Ideal.ofBits .f32 0x3F800000#32)
      * Ideal.ofBits .f32 0x3F000000#32))

/-- The interpolation weight of `u`: the fractional part `pix u − ⌊pix u⌋` of its pixel coordinate. -/
def frac (u : EReal) : EReal := pix u - Ideal.liftRound Int.floor (pix u)

/-- The bilinear blend of four corner values with weights `wx`, `wy`:
    `top = v00 + wx·(v01 − v00)`, `bot = v10 + wx·(v11 − v10)`, `top + wy·(bot − top)`. -/
def blend (v00 v01 v10 v11 wx wy : EReal) : EReal :=
  (v00 + wx * (v01 - v00)) + wy * ((v10 + wx * (v11 - v10)) - (v00 + wx * (v01 - v00)))

/-- The cell of `u` as a 32-bit integer: `⌊pix u⌋` converted. -/
def xw (u : EReal) : BitVec 32 := Ideal.fptosi 32 (Ideal.liftRound Int.floor (pix u))

/-- The next cell, capped at the last one: `min (xw u + 1) 511` on signed 32-bit integers. -/
def xw1 (u : EReal) : BitVec 32 := IntOp.minsi (IntOp.addi (xw u) 1#32) 511#32

/-- The cell of `u` as a row number of an axis of extent 512. -/
def cellLo (u : EReal) : Fin 512 := Cert.Lib.TakeRows.clampIdx 512 (by norm_num) (xw u)

/-- The next cell of `u` as a row number of an axis of extent 512. -/
def cellHi (u : EReal) : Fin 512 := Cert.Lib.TakeRows.clampIdx 512 (by norm_num) (xw1 u)

/-- Lane `8c + k` of a row of four corners' features: feature `k` of corner `c` (corners in the order v00, v01, v10,
    v11). -/
abbrev lane (c : Fin 4) (k : Fin 8) : Fin 32 := ⟨8 * c.val + k.val, by have := c.isLt; have := k.isLt; omega⟩

/-- Row `8p + k` of the projection matrix: row `k` of plane `p`'s `8 × 8` block. -/
abbrev wrow (p : Fin 3) (k : Fin 8) : Fin 24 := ⟨8 * p.val + k.val, by have := p.isLt; have := k.isLt; omega⟩

/-- One output entry: the three planes' features `f1`, `f2`, `f3` against their blocks of the projection column `wt`,
    summed left to right, plus the bias `b`, clipped into `[-10, 10]`. -/
def outRow (f1 f2 f3 : Fin 8 → EReal) (wt : Fin 24 → EReal) (b : EReal) : EReal :=
  min (Ideal.ofBits .f32 0x41200000#32) (max (Ideal.ofBits .f32 0xC1200000#32)
    ((((∑ k : Fin 8, f1 k * wt (wrow 0 k)) + (∑ k : Fin 8, f2 k * wt (wrow 1 k)))
      + (∑ k : Fin 8, f3 k * wt (wrow 2 k))) + b))

end Cert.TriPlane

end
-- ==== Proof.BodyWeights.lean ====
/-
  THE INTERPOLATION WEIGHTS of the tri-plane sampler's body, read at a row, on the extended reals.
  A clipped coordinate `u` has the pixel coordinate `pix u = min 511 (max 0 (((u + 1) · 512 − 1) · ½))` and the
  weight `frac u = pix u − ⌊pix u⌋` (the scalar vocabulary's `pix` and `frac`). The body forms six weight columns
  `[5000, 1]` from the three columns of the coordinate block; each, at row `y`, is `frac` of the coordinate block at
  `(y, c)` for its column `c`: columns 0 and 1 for the first plane, 0 and 2 for the second, 1 and 2 for the third.
  All arithmetic is the extended reals' own and the float literals stay the words the program prints.
-/
import proofs.«114771_j71983651881269_2_alg».proof.Proof.Gen.KernelIdeal.Skeleton
import proofs.«114771_j71983651881269_2_alg».proof.Proof.Spec
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.ValueIdx Cert.KernelIdeal Cert.KernelIdeal.Gen Cert.TriPlane
open scoped BigOperators

/-- Column `c` of the coordinate block, as a `[5000, 1]` slice, reads at row `y` the block at `(y, c)`. -/
theorem col_apply (c : Nat) (x4 : Vec Ideal S5000x3 .f32) (h : S5000x3.Slices ![0, c] S5000x1) (y : Fin 5000) (k : Fin 3)
    (hk : k.val = c) :
    extractStridedSlice S5000x1 ![0, c] (k0_pay5 x4) h (ix2 y (0 : Fin 1)) = x4 (ix2 y k) :=
  (slice2_axis1_apply c (k0_pay5 x4) h y (0 : Fin 1) k (by rw [hk]; rfl)).trans
    (congrFun (shapeCast_self x4 shapeCasts_S5000x3_S5000x3) (ix2 y k))

theorem pay6_apply (x4 : Vec Ideal S5000x3 .f32) (y : Fin 5000) :
    k0_pay6 x4 (ix2 y (0 : Fin 1)) = x4 (ix2 y (0 : Fin 3)) :=
  col_apply 0 x4 slices_S5000x3_o0_0_S5000x1 y 0 rfl
theorem pay7_apply (x4 : Vec Ideal S5000x3 .f32) (y : Fin 5000) :
    k0_pay7 x4 (ix2 y (0 : Fin 1)) = x4 (ix2 y (1 : Fin 3)) :=
  col_apply 1 x4 slices_S5000x3_o0_1_S5000x1 y 1 rfl
theorem pay8_apply (x4 : Vec Ideal S5000x3 .f32) (y : Fin 5000) :
    k0_pay8 x4 (ix2 y (0 : Fin 1)) = x4 (ix2 y (2 : Fin 3)) :=
  col_apply 2 x4 slices_S5000x3_o0_2_S5000x1 y 2 rfl

/-- The six weight columns, each the fractional part of the pixel coordinate of one coordinate column. -/
theorem pay9_apply (x4 : Vec Ideal S5000x3 .f32) (y : Fin 5000) :
    k0_pay9 x4 (ix2 y (0 : Fin 1)) = frac (x4 (ix2 y (0 : Fin 3))) :=
  (show k0_pay9 x4 (ix2 y (0 : Fin 1)) = frac (k0_pay6 x4 (ix2 y (0 : Fin 1))) from rfl).trans
    (congrArg frac (pay6_apply x4 y))
theorem pay10_apply (x4 : Vec Ideal S5000x3 .f32) (y : Fin 5000) :
    k0_pay10 x4 (ix2 y (0 : Fin 1)) = frac (x4 (ix2 y (1 : Fin 3))) :=
  (show k0_pay10 x4 (ix2 y (0 : Fin 1)) = frac (k0_pay7 x4 (ix2 y (0 : Fin 1))) from rfl).trans
    (congrArg frac (pay7_apply x4 y))
theorem pay11_apply (x4 : Vec Ideal S5000x3 .f32) (y : Fin 5000) :
    k0_pay11 (k0_pay6 x4) (ix2 y (0 : Fin 1)) = frac (x4 (ix2 y (0 : Fin 3))) :=
  (show k0_pay11 (k0_pay6 x4) (ix2 y (0 : Fin 1)) = frac (k0_pay6 x4 (ix2 y (0 : Fin 1))) from rfl).trans
    (congrArg frac (pay6_apply x4 y))
theorem pay12_apply (x4 : Vec Ideal S5000x3 .f32) (y : Fin 5000) :
    k0_pay12 (k0_pay8 x4) (ix2 y (0 : Fin 1)) = frac (x4 (ix2 y (2 : Fin 3))) :=
  (show k0_pay12 (k0_pay8 x4) (ix2 y (0 : Fin 1)) = frac (k0_pay8 x4 (ix2 y (0 : Fin 1))) from rfl).trans
    (congrArg frac (pay8_apply x4 y))
theorem pay15_apply (x4 : Vec Ideal S5000x3 .f32) (y : Fin 5000) :
    k0_pay15 (k0_pay13 (k0_pay7 x4)) (ix2 y (0 : Fin 1)) = frac (x4 (ix2 y (1 : Fin 3))) :=
  (show k0_pay15 (k0_pay13 (k0_pay7 x4)) (ix2 y (0 : Fin 1)) = frac (k0_pay7 x4 (ix2 y (0 : Fin 1))) from rfl).trans
    (congrArg frac (pay7_apply x4 y))
theorem pay16_apply (x4 : Vec Ideal S5000x3 .f32) (y : Fin 5000) :
    k0_pay16 (k0_pay8 x4) (k0_pay14 (F := Ideal)) (ix2 y (0 : Fin 1)) = frac (x4 (ix2 y (2 : Fin 3))) :=
  (show k0_pay16 (k0_pay8 x4) (k0_pay14 (F := Ideal)) (ix2 y (0 : Fin 1)) = frac (k0_pay8 x4 (ix2 y (0 : Fin 1))) from rfl).trans
    (congrArg frac (pay8_apply x4 y))

end Cert.KernelIdeal.BodyValue

end
-- ==== Proof.BodyBlend.lean ====
/-
  ONE PLANE'S BILINEAR BLEND of the tri-plane sampler's body, read at an index, on the extended reals.
  A loaded block `[5000, 32]` holds, per row, the four corner rows of one plane: lanes 0–7 the corner v00, 8–15 v01,
  16–23 v10, 24–31 v11 (`lane c k` is lane `8c + k`). With the weights `wx`, `wy` of the row, feature `k` is
  `blend v00 v01 v10 v11 wx wy = top + wy · (bot − top)`, `top = v00 + wx · (v01 − v00)`, `bot = v10 + wx · (v11 − v10)`.
  The lane slices and the column broadcasts of the weights are read at an index here, so that the blended plane at
  `(y, k)` is `feat` of the block and the two weights at row `y`.
-/
import proofs.«114771_j71983651881269_2_alg».proof.Proof.Gen.KernelIdeal.Skeleton
import proofs.«114771_j71983651881269_2_alg».proof.Proof.Spec
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.ValueIdx Cert.KernelIdeal Cert.KernelIdeal.Gen Cert.TriPlane
open scoped BigOperators

theorem blend_congr {a a' b b' c c' d d' e e' f f' : EReal} (h0 : a = a') (h1 : b = b') (h2 : c = c') (h3 : d = d')
    (h4 : e = e') (h5 : f = f') : blend a b c d e f = blend a' b' c' d' e' f' := by
  subst h0 h1 h2 h3 h4 h5; rfl

/-- Feature `k` of one plane at row `y`: the blend of the four corner values in lanes `k`, `8 + k`, `16 + k`, `24 + k`. -/
def feat (x : Vec Ideal S5000x32 .f32) (wx wy : EReal) (y : Fin 5000) (k : Fin 8) : EReal :=
  blend (x (ix2 y (lane 0 k))) (x (ix2 y (lane 1 k))) (x (ix2 y (lane 2 k))) (x (ix2 y (lane 3 k))) wx wy

/-- A `[5000, 1]` column broadcast along the lanes reads, at `(y, k)`, the column at row `y`. -/
theorem colBroadcast_apply (w : FVec Ideal S5000x1 .f32) (y : Fin 5000) (k : Fin 8) :
    broadcastTo S5000x8 w broadcasts_S5000x1_S5000x8 (ix2 y k) = w (ix2 y (0 : Fin 1)) := by
  refine broadcastTo_apply w broadcasts_S5000x1_S5000x8 (ix2 y k) (ix2 y (0 : Fin 1)) fun ax => ?_
  match ax with
  | ⟨0, _⟩ => rfl
  | ⟨1, _⟩ => rfl

/-- The blended plane value, with the layout operations still in it. -/
theorem pay17_read (v : FVec Ideal S5000x32 .f32) (wx wy : FVec Ideal S5000x1 .f32) (j : S5000x8.Idx) :
    k0_pay17 v wx wy j
      = blend (extractStridedSlice S5000x8 ![0, 0] v slices_S5000x32_o0_0_S5000x8 j)
          (extractStridedSlice S5000x8 ![0, 8] v slices_S5000x32_o0_8_S5000x8 j)
          (extractStridedSlice S5000x8 ![0, 16] v slices_S5000x32_o0_16_S5000x8 j)
          (extractStridedSlice S5000x8 ![0, 24] v slices_S5000x32_o0_24_S5000x8 j)
          (broadcastTo S5000x8 wx broadcasts_S5000x1_S5000x8 j) (broadcastTo S5000x8 wy broadcasts_S5000x1_S5000x8 j) := rfl

/-- The second plane's blend is the same function of its operands as the first's. -/
theorem pay18_eq (v : FVec Ideal S5000x32 .f32) (wx wy : FVec Ideal S5000x1 .f32) :
    k0_pay18 v wx wy = k0_pay17 v wx wy := rfl

/-- ONE PLANE AT AN INDEX: the blended value at `(y, k)` is `feat` of the loaded block with the two weights at row `y`. -/
theorem plane_apply (x : Vec Ideal S5000x32 .f32) (wx wy : FVec Ideal S5000x1 .f32) (y : Fin 5000) (k : Fin 8) :
    k0_pay17 (shapeCast S5000x32 x shapeCasts_S5000x32_S5000x32) wx wy (ix2 y k)
      = feat x (wx (ix2 y (0 : Fin 1))) (wy (ix2 y (0 : Fin 1))) y k := by
  have hs : shapeCast S5000x32 x shapeCasts_S5000x32_S5000x32 = x := shapeCast_self x _
  refine (pay17_read _ wx wy (ix2 y k)).trans ?_
  rw [hs]
  exact blend_congr
    (slice2_axis1_apply 0 x slices_S5000x32_o0_0_S5000x8 y k (lane 0 k) rfl)
    (slice2_axis1_apply 8 x slices_S5000x32_o0_8_S5000x8 y k (lane 1 k) rfl)
    (slice2_axis1_apply 16 x slices_S5000x32_o0_16_S5000x8 y k (lane 2 k) rfl)
    (slice2_axis1_apply 24 x slices_S5000x32_o0_24_S5000x8 y k (lane 3 k) rfl)
    (colBroadcast_apply wx y k) (colBroadcast_apply wy y k)

end Cert.KernelIdeal.BodyValue

end
-- ==== Proof.BodyValue.lean ====
/-
  THE BODY'S STORED VALUE AT AN INDEX, on the extended reals. `body` is the composition of the generated payloads over
  the six loaded blocks (three planes' corner rows, the clipped coordinates, the projection matrix `[24, 8]`, the
  bias `[8]`). At row `y` and output feature `o` it is the scalar vocabulary's `outRow`:
  `min 10 (max (−10) (((∑ₖ f₁ k · W (k, o) + ∑ₖ f₂ k · W (8 + k, o)) + ∑ₖ f₃ k · W (16 + k, o)) + b o))`,
  where `fₚ k` is plane `p`'s blended feature `k` at row `y` (BodyBlend) with that plane's two weights (BodyWeights).
  Each projection is a matrix product into a zero accumulator whose operands pass through a format change that is the
  identity on extended reals; it reads as the sum over the one contracted coordinate.
-/
import proofs.«114771_j71983651881269_2_alg».proof.Proof.Gen.KernelIdeal.Skeleton
import proofs.«114771_j71983651881269_2_alg».proof.Proof.Spec
import proofs.«114771_j71983651881269_2_alg».proof.Proof.BodyWeights
import proofs.«114771_j71983651881269_2_alg».proof.Proof.BodyBlend
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.ValueIdx Cert.KernelIdeal Cert.KernelIdeal.Gen Cert.TriPlane
open scoped BigOperators

/-- One plane's projection: the plane's features against rows `[r, r + 8)` of the projection matrix, both through the
    format change that is the identity on extended reals, accumulated from zero. -/
abbrev proj (r : Nat) (h : S24x8.Slices ![r, 0] S8x8) (A : FVec Ideal S5000x8 .f32) (x5 : Vec Ideal S24x8 .f32) :
    FVec Ideal S5000x8 .f32 :=
  matmul dot_S5000x8_S8x8_S5000x8_1_0_0_1_n_n none (truncf .bf16 A bitsLt_bf16_f32)
    (truncf .bf16 (extractStridedSlice S8x8 ![r, 0] (shapeCast S24x8 x5 shapeCasts_S24x8_S24x8) h) bitsLt_bf16_f32)
    (constant (F := Ideal) S5000x8 .f32 0x00000000#32)

/-- ONE PROJECTION AT AN INDEX: `∑ k, A (y, k) · W (r + k, o)`. -/
theorem proj_apply (r : Nat) (h : S24x8.Slices ![r, 0] S8x8) (A : FVec Ideal S5000x8 .f32) (x5 : Vec Ideal S24x8 .f32)
    (y : Fin 5000) (o : Fin 8) (row : Fin 8 → Fin 24) (hrow : ∀ k, (row k).val = r + k.val) :
    proj r h A x5 (ix2 y o) = ∑ k : Fin 8, A (ix2 y k) * x5 (ix2 (row k) o) := by
  refine (Ideal.matmul_constant_zero_apply dot_S5000x8_S8x8_S5000x8_1_0_0_1_n_n none _ _ (ix2 y o)).trans ?_
  rw [← Equiv.sum_comp (contrEquiv1 dot_S5000x8_S8x8_S5000x8_1_0_0_1_n_n 8 rfl rfl).symm]
  refine Finset.sum_congr rfl fun k _ => ?_
  have c2 := contrEquiv1_symm_val dot_S5000x8_S8x8_S5000x8_1_0_0_1_n_n 8 rfl rfl k
  have l2 : dot_S5000x8_S8x8_S5000x8_1_0_0_1_n_n.lhsIdx (ix2 y o)
      ((contrEquiv1 dot_S5000x8_S8x8_S5000x8_1_0_0_1_n_n 8 rfl rfl).symm k) = ix2 y k := by
    funext ax; apply Fin.ext
    match ax with
    | ⟨0, _⟩ => first | rfl | (simp [DotDims.lhsIdx, dot_S5000x8_S8x8_S5000x8_1_0_0_1_n_n]; rfl)
    | ⟨1, _⟩ =>
      exact (DotDims.lhsIdx_val_of_single dot_S5000x8_S8x8_S5000x8_1_0_0_1_n_n (cl := ⟨1, by decide⟩) rfl _ _).trans c2
  have r2 : dot_S5000x8_S8x8_S5000x8_1_0_0_1_n_n.rhsIdx (ix2 y o)
      ((contrEquiv1 dot_S5000x8_S8x8_S5000x8_1_0_0_1_n_n 8 rfl rfl).symm k) = ix2 k o := by
    funext ax; apply Fin.ext
    match ax with
    | ⟨0, _⟩ =>
      exact (DotDims.rhsIdx_val_of_single dot_S5000x8_S8x8_S5000x8_1_0_0_1_n_n (cr := ⟨0, by decide⟩) rfl _ _).trans c2
    | ⟨1, _⟩ => first | rfl | (simp [DotDims.rhsIdx, dot_S5000x8_S8x8_S5000x8_1_0_0_1_n_n]; rfl)
  rw [l2, r2]
  exact congrArg (A (ix2 y k) * ·)
    ((slice2_axis0_apply r (shapeCast S24x8 x5 shapeCasts_S24x8_S24x8) h k o (row k) (hrow k)).trans
      (congrFun (shapeCast_self x5 shapeCasts_S24x8_S24x8) (ix2 (row k) o)))

/-- The bias row broadcast over the block reads, at `(y, o)`, the bias at `o`. -/
theorem bias_apply (x6 : Vec Ideal S8 .f32) (y : Fin 5000) (o : Fin 8) :
    broadcastTo S5000x8 (shapeCast S1x8 x6 shapeCasts_S8_S1x8) broadcasts_S1x8_S5000x8 (ix2 y o) = x6 (ix1 o) :=
  (broadcastTo_1b_ab_apply (shapeCast S1x8 x6 shapeCasts_S8_S1x8) broadcasts_S1x8_S5000x8 y o).trans
    (shapeCast_a_1a_apply x6 shapeCasts_S8_S1x8 (0 : Fin 1) o)

/-- The value the body stores, as the composition of the generated payloads over the six loaded blocks. -/
def body (x1 x2 x3 : Vec Ideal S5000x32 .f32) (x4 : Vec Ideal S5000x3 .f32) (x5 : Vec Ideal S24x8 .f32)
    (x6 : Vec Ideal S8 .f32) : Vec Ideal S5000x8 .f32 :=
  k0_pay1 (k0_pay15 (k0_pay13 (k0_pay7 x4))) (k0_pay16 (k0_pay8 x4) (k0_pay14 (F := Ideal)))
    (k0_pay17 (k0_pay2 x1) (k0_pay9 x4) (k0_pay10 x4))
    (k0_pay18 (k0_pay3 x2) (k0_pay11 (k0_pay6 x4)) (k0_pay12 (k0_pay8 x4)))
    (k0_pay19 (k0_pay4 x3)) (k0_pay20 (k0_pay4 x3)) (k0_pay21 (k0_pay4 x3) (k0_pay13 (k0_pay7 x4))) x5 x6

/-- The stored value with the third plane's blend recognised and the three projections and the bias row named, the
    layout operations still in it. -/
theorem pay1_read (v5 : FVec Ideal S5000x32 .f32) (v78 v94 : FVec Ideal S5000x1 .f32) (v110 v126 : FVec Ideal S5000x8 .f32)
    (x5 : Vec Ideal S24x8 .f32) (x6 : Vec Ideal S8 .f32) (j : S5000x8.Idx) :
    k0_pay1 (k0_pay15 v78) v94 v110 v126 (k0_pay19 v5) (k0_pay20 v5) (k0_pay21 v5 v78) x5 x6 j
      = min (Ideal.ofBits .f32 0x41200000#32) (max (Ideal.ofBits .f32 0xC1200000#32)
          (((proj 0 slices_S24x8_o0_0_S8x8 v110 x5 j + proj 8 slices_S24x8_o8_0_S8x8 v126 x5 j)
            + proj 16 slices_S24x8_o16_0_S8x8 (k0_pay17 v5 (k0_pay15 v78) v94) x5 j)
            + broadcastTo S5000x8 (shapeCast S1x8 x6 shapeCasts_S8_S1x8) broadcasts_S1x8_S5000x8 j)) := rfl

theorem out_congr {a a' b b' c c' d d' : EReal} (ha : a = a') (hb : b = b') (hc : c = c') (hd : d = d') :
    min (Ideal.ofBits .f32 0x41200000#32) (max (Ideal.ofBits .f32 0xC1200000#32) (((a + b) + c) + d))
      = min (Ideal.ofBits .f32 0x41200000#32) (max (Ideal.ofBits .f32 0xC1200000#32) (((a' + b') + c') + d')) := by
  subst ha hb hc hd; rfl

/-- THE BODY AT AN INDEX: at row `y` and output feature `o`, the three planes' blended features (plane 1 with the
    weights of coordinate columns 0 and 1, plane 2 of columns 0 and 2, plane 3 of columns 1 and 2) each against its
    `8 × 8` block of the projection matrix, summed left to right, plus the bias, clamped into `[-10, 10]`. -/
theorem body_apply (x1 x2 x3 : Vec Ideal S5000x32 .f32) (x4 : Vec Ideal S5000x3 .f32) (x5 : Vec Ideal S24x8 .f32)
    (x6 : Vec Ideal S8 .f32) (y : Fin 5000) (o : Fin 8) :
    body x1 x2 x3 x4 x5 x6 (ix2 y o)
      = outRow (feat x1 (frac (x4 (ix2 y (0 : Fin 3)))) (frac (x4 (ix2 y (1 : Fin 3)))) y)
          (feat x2 (frac (x4 (ix2 y (0 : Fin 3)))) (frac (x4 (ix2 y (2 : Fin 3)))) y)
          (feat x3 (frac (x4 (ix2 y (1 : Fin 3)))) (frac (x4 (ix2 y (2 : Fin 3)))) y)
          (fun r => x5 (ix2 r o)) (x6 (ix1 o)) := by
  have p1 : ∀ k : Fin 8, k0_pay17 (k0_pay2 x1) (k0_pay9 x4) (k0_pay10 x4) (ix2 y k)
      = feat x1 (frac (x4 (ix2 y (0 : Fin 3)))) (frac (x4 (ix2 y (1 : Fin 3)))) y k := fun k =>
    (plane_apply x1 (k0_pay9 x4) (k0_pay10 x4) y k).trans
      (congrArg₂ (fun a b => feat x1 a b y k) (pay9_apply x4 y) (pay10_apply x4 y))
  have p2 : ∀ k : Fin 8, k0_pay18 (k0_pay3 x2) (k0_pay11 (k0_pay6 x4)) (k0_pay12 (k0_pay8 x4)) (ix2 y k)
      = feat x2 (frac (x4 (ix2 y (0 : Fin 3)))) (frac (x4 (ix2 y (2 : Fin 3)))) y k := fun k =>
    (plane_apply x2 (k0_pay11 (k0_pay6 x4)) (k0_pay12 (k0_pay8 x4)) y k).trans
      (congrArg₂ (fun a b => feat x2 a b y k) (pay11_apply x4 y) (pay12_apply x4 y))
  have p3 : ∀ k : Fin 8, k0_pay17 (k0_pay4 x3) (k0_pay15 (k0_pay13 (k0_pay7 x4))) (k0_pay16 (k0_pay8 x4) (k0_pay14 (F := Ideal))) (ix2 y k)
      = feat x3 (frac (x4 (ix2 y (1 : Fin 3)))) (frac (x4 (ix2 y (2 : Fin 3)))) y k := fun k =>
    (plane_apply x3 (k0_pay15 (k0_pay13 (k0_pay7 x4))) (k0_pay16 (k0_pay8 x4) (k0_pay14 (F := Ideal))) y k).trans
      (congrArg₂ (fun a b => feat x3 a b y k) (pay15_apply x4 y) (pay16_apply x4 y))
  have s1 := (proj_apply 0 slices_S24x8_o0_0_S8x8 (k0_pay17 (k0_pay2 x1) (k0_pay9 x4) (k0_pay10 x4)) x5 y o (wrow 0)
      (fun k => rfl)).trans (Finset.sum_congr rfl fun k _ => congrArg (· * x5 (ix2 (wrow 0 k) o)) (p1 k))
  have s2 := (proj_apply 8 slices_S24x8_o8_0_S8x8 (k0_pay18 (k0_pay3 x2) (k0_pay11 (k0_pay6 x4)) (k0_pay12 (k0_pay8 x4))) x5 y o (wrow 1)
      (fun k => rfl)).trans (Finset.sum_congr rfl fun k _ => congrArg (· * x5 (ix2 (wrow 1 k) o)) (p2 k))
  have s3 := (proj_apply 16 slices_S24x8_o16_0_S8x8
      (k0_pay17 (k0_pay4 x3) (k0_pay15 (k0_pay13 (k0_pay7 x4))) (k0_pay16 (k0_pay8 x4) (k0_pay14 (F := Ideal)))) x5 y o (wrow 2)
      (fun k => rfl)).trans (Finset.sum_congr rfl fun k _ => congrArg (· * x5 (ix2 (wrow 2 k) o)) (p3 k))
  exact (pay1_read (k0_pay4 x3) (k0_pay13 (k0_pay7 x4)) (k0_pay16 (k0_pay8 x4) (k0_pay14 (F := Ideal)))
      (k0_pay17 (k0_pay2 x1) (k0_pay9 x4) (k0_pay10 x4))
      (k0_pay18 (k0_pay3 x2) (k0_pay11 (k0_pay6 x4)) (k0_pay12 (k0_pay8 x4))) x5 x6 (ix2 y o)).trans
    (out_congr s1 s2 s3 (bias_apply x6 y o))

end Cert.KernelIdeal.BodyValue

end
-- ==== Proof.KernelRow.lean ====
/-
  ONE ROW OF THE KERNEL PROGRAM'S OUTPUT ARRAY, on the extended reals. The output array is, at row `n`, the body's
  stored value on block `n / 5000` at local row `n % 5000` of the staged arrays. Rows `5000 t … 5000 t + 4999` of an
  array, read at local row `n % 5000` for `t = n / 5000`, are the array at row `n`
  (`(n / 5000) · 5000 + n % 5000 = n < 4000000`). So entry `(n, o)` of the output is the scalar vocabulary's `outRow` of
  the three planes' blended features at row `n` of the corner arrays — plane 1 with the weights of coordinate columns 0
  and 1, plane 2 of columns 0 and 2, plane 3 of columns 1 and 2 of the clipped coordinates at row `n` —, column `o` of
  the projection matrix and entry `o` of the bias.
-/
import proofs.«114771_j71983651881269_2_alg».proof.Proof.KernelValue
import proofs.«114771_j71983651881269_2_alg».proof.Proof.BodyValue
import proofs.«114771_j71983651881269_2_alg».proof.Proof.Spec

noncomputable section

namespace Cert.KernelIdeal.Row

open Idealize.ShloMosaic Idealize.ShloMosaic.ValueIdx Cert.KernelIdeal Cert.KernelIdeal.Gen Cert.KernelIdeal.Hand
  Cert.KernelIdeal.HandValue Cert.KernelIdeal.BodyValue Cert.TriPlane

/-- Feature `k` of one plane at row `n` of its corner array: the blend of the four corner values in lanes `k`, `8 + k`,
    `16 + k`, `24 + k`. -/
def featA (A : Vec Ideal S4000000x32 .f32) (wx wy : EReal) (n : Fin 4000000) (k : Fin 8) : EReal :=
  blend (A (ix2 n (lane 0 k))) (A (ix2 n (lane 1 k))) (A (ix2 n (lane 2 k))) (A (ix2 n (lane 3 k))) wx wy

/-- The place of row `n` inside its block of 5000 rows. -/
abbrev locRow (n : Fin 4000000) : Fin 5000 := ⟨n.val % 5000, Nat.mod_lt _ (by norm_num)⟩

/-- Block `n / 5000` of an array of 4000000 rows, at local row `n % 5000`, is the array at row `n`. -/
theorem rowsOf_apply {L : ℕ} {α : Type} (A : (⟨2, ![4000000, L]⟩ : Shape).Idx → α) (n : Fin 4000000) (c : Fin L) :
    rowsOf A (n.val / 5000) (ix2 (locRow n) c) = A (ix2 n c) := by
  unfold rowsOf
  refine congrArg A ?_
  funext a; apply Fin.ext
  match a with
  | ⟨0, _⟩ =>
    show (n.val / 5000 * 5000 + n.val % 5000) % 4000000 = n.val
    have := n.isLt
    omega
  | ⟨1, _⟩ => rfl

/-- A plane's features of block `n / 5000` at local row `n % 5000` are its features of the whole array at row `n`. -/
theorem feat_rowsOf (A : Vec Ideal S4000000x32 .f32) (wx wy : EReal) (n : Fin 4000000) :
    feat (rowsOf A (n.val / 5000)) wx wy (locRow n) = featA A wx wy n := by
  funext k
  exact blend_congr (rowsOf_apply A n (lane 0 k)) (rowsOf_apply A n (lane 1 k)) (rowsOf_apply A n (lane 2 k))
    (rowsOf_apply A n (lane 3 k)) rfl rfl

/-- The output array at `(n, o)` is the body's stored value of block `n / 5000` at `(n % 5000, o)`. -/
theorem GK_eq_body (A0 A1 A2 : Vec Ideal S4000000x32 .f32) (A3 : Vec Ideal S4000000x3 .f32) (A4 : Vec Ideal S24x8 .f32)
    (A5 : Vec Ideal S8 .f32) (n : Fin 4000000) (o : Fin 8) :
    GK A0 A1 A2 A3 A4 A5 (ix2 n o)
      = body (rowsOf A0 (n.val / 5000)) (rowsOf A1 (n.val / 5000)) (rowsOf A2 (n.val / 5000)) (rowsOf A3 (n.val / 5000))
          A4 A5 (ix2 (locRow n) o) := rfl

/-- THE OUTPUT ARRAY AT AN INDEX: entry `(n, o)` is `outRow` of the three planes' blended features at row `n`, column
    `o` of the projection matrix and entry `o` of the bias. -/
theorem GK_apply (A0 A1 A2 : Vec Ideal S4000000x32 .f32) (A3 : Vec Ideal S4000000x3 .f32) (A4 : Vec Ideal S24x8 .f32)
    (A5 : Vec Ideal S8 .f32) (n : Fin 4000000) (o : Fin 8) :
    GK A0 A1 A2 A3 A4 A5 (ix2 n o)
      = outRow (featA A0 (frac (A3 (ix2 n (0 : Fin 3)))) (frac (A3 (ix2 n (1 : Fin 3)))) n)
          (featA A1 (frac (A3 (ix2 n (0 : Fin 3)))) (frac (A3 (ix2 n (2 : Fin 3)))) n)
          (featA A2 (frac (A3 (ix2 n (1 : Fin 3)))) (frac (A3 (ix2 n (2 : Fin 3)))) n)
          (fun r => A4 (ix2 r o)) (A5 (ix1 o)) := by
  have e0 := rowsOf_apply A3 n (0 : Fin 3)
  have e1 := rowsOf_apply A3 n (1 : Fin 3)
  have e2 := rowsOf_apply A3 n (2 : Fin 3)
  rw [GK_eq_body, body_apply, e0, e1, e2, feat_rowsOf A0, feat_rowsOf A1, feat_rowsOf A2]

end Cert.KernelIdeal.Row

end
-- ==== Proof.LibSumBlocks3.lean ====
import Mathlib.Algebra.BigOperators.Fin

/-!
# Splitting a sum over twenty-four indices into three blocks of eight

In a commutative additive monoid (no cancellation, no finiteness: extended reals qualify) a
finite sum over `Fin (a + b + c)` is the sum of the three consecutive blocks of lengths `a`,
`b`, `c`.  The literal instance `24 = 8 + 8 + 8` is stated with explicit `Fin 24` terms so that
it can be used as a rewriting rule: it is how one contraction over twenty-four features becomes
the sum of three contractions over eight features each.
-/

namespace Cert.Lib.SumBlocks3

open Finset

/-- A sum over `Fin (a + b + c)` is the sum of its three consecutive blocks: the first `a`
indices, the next `b`, the last `c`.  Only associativity and commutativity of `+` are used. -/
theorem sum_fin_add3 {M : Type*} [AddCommMonoid M] (a b c : ℕ) (g : Fin (a + b + c) → M) :
    ∑ k : Fin (a + b + c), g k
      = ((∑ k : Fin a, g (Fin.castAdd c (Fin.castAdd b k)))
          + (∑ k : Fin b, g (Fin.castAdd c (Fin.natAdd a k))))
        + (∑ k : Fin c, g (Fin.natAdd (a + b) k)) := by
  rw [Fin.sum_univ_add, Fin.sum_univ_add]

/-- The same with the indices written by their values: block `0` is `k`, block `1` is `a + k`,
block `2` is `a + b + k`. -/
theorem sum_fin_add3_val {M : Type*} [AddCommMonoid M] (a b c : ℕ) (g : Fin (a + b + c) → M) :
    ∑ k : Fin (a + b + c), g k
      = ((∑ k : Fin a, g ⟨k.val, by omega⟩)
          + (∑ k : Fin b, g ⟨a + k.val, by omega⟩))
        + (∑ k : Fin c, g ⟨a + b + k.val, by omega⟩) := by
  rw [sum_fin_add3]
  rfl

/-- **Twenty-four is eight plus eight plus eight.**  For `g : Fin 24 → M`,
`∑ k, g k = (∑_{k<8} g k + ∑_{k<8} g (8+k)) + ∑_{k<8} g (16+k)`. -/
theorem sum_fin24 {M : Type*} [AddCommMonoid M] (g : Fin 24 → M) :
    ∑ k : Fin 24, g k
      = ((∑ k : Fin 8, g ⟨k.val, by omega⟩)
          + (∑ k : Fin 8, g ⟨8 + k.val, by omega⟩))
        + (∑ k : Fin 8, g ⟨16 + k.val, by omega⟩) :=
  sum_fin_add3_val 8 8 8 g

/-- The twenty-four–term sum of products `x k * w k` splits the same way (the shape of a
contraction of a concatenated feature row against a weight row). -/
theorem sum_fin24_mul {M : Type*} [NonUnitalNonAssocSemiring M] (x w : Fin 24 → M) :
    ∑ k : Fin 24, x k * w k
      = ((∑ k : Fin 8, x ⟨k.val, by omega⟩ * w ⟨k.val, by omega⟩)
          + (∑ k : Fin 8, x ⟨8 + k.val, by omega⟩ * w ⟨8 + k.val, by omega⟩))
        + (∑ k : Fin 8, x ⟨16 + k.val, by omega⟩ * w ⟨16 + k.val, by omega⟩) :=
  sum_fin24 (fun k => x k * w k)

end Cert.Lib.SumBlocks3
-- ==== Proof.Bridge.lean ====
/-
  THE TWO PROGRAMS COMPUTE ONE ARRAY: the abstract step, over variables only. Given
  • what the kernel program's six staged arrays are — the coordinates clipped into `[-1, 1]`; per plane, the four corner
    rows of the plane at the cells `(cellLo v | cellHi v, cellLo u | cellHi u)` of the row's two clipped coordinates `u`,
    `v`, laid side by side in lanes `8c + r`; the projection matrix transposed; the bias —, and
  • what the reference's result is — the clip into `[-10, 10]` of the 24-term contraction of the concatenated features
    with a row of the projection matrix, plus the bias; the concatenation of the three planes' features; each plane's
    feature the bilinear blend of the same four corner values with the weights `frac u`, `frac v` —,
  the reference's result is the kernel program's output array. The 24-term sum splits into the three 8-term sums in the
  order the kernel adds them; each term is the blend of the same corners with the same weights against the same matrix
  entry. Plane 1 uses coordinate columns 0 and 1, plane 2 columns 0 and 2, plane 3 columns 1 and 2.
-/
import proofs.«114771_j71983651881269_2_alg».proof.Proof.KernelRow
import proofs.«114771_j71983651881269_2_alg».proof.Proof.Spec
import proofs.«114771_j71983651881269_2_alg».proof.Proof.LibSumBlocks3

noncomputable section

namespace Cert.Bridge

open Idealize.ShloMosaic Idealize.ShloMosaic.ValueIdx Cert.KernelIdeal Cert.KernelIdeal.HandValue Cert.KernelIdeal.BodyValue
  Cert.KernelIdeal.Row Cert.TriPlane
open scoped BigOperators

/-- ONE PLANE, ONE FEATURE: if the staged corner array holds the plane's four corner rows of the cells of `u`, `v`, and
    the reference's feature is the blend of those corners with the weights of `u`, `v`, then the reference's feature is
    the kernel's blended feature, whatever names (`cu`, `cv`) the kernel has for the two clipped coordinates. -/
theorem plane_term (C : Vec Ideal S4000000x32 .f32) (P : (⟨3, ![512, 512, 8]⟩ : Shape).Idx → EReal)
    (R : (⟨2, ![4000000, 8]⟩ : Shape).Idx → EReal) (u v cu cv : EReal) (n : Fin 4000000) (hcu : cu = u) (hcv : cv = v)
    (hC : ∀ r : Fin 8, C (ix2 n (lane 0 r)) = P (ix3 (cellLo v) (cellLo u) r) ∧ C (ix2 n (lane 1 r)) = P (ix3 (cellLo v) (cellHi u) r)
        ∧ C (ix2 n (lane 2 r)) = P (ix3 (cellHi v) (cellLo u) r) ∧ C (ix2 n (lane 3 r)) = P (ix3 (cellHi v) (cellHi u) r))
    (hR : ∀ r : Fin 8, R (ix2 n r) = blend (P (ix3 (cellLo v) (cellLo u) r)) (P (ix3 (cellLo v) (cellHi u) r))
        (P (ix3 (cellHi v) (cellLo u) r)) (P (ix3 (cellHi v) (cellHi u) r)) (frac u) (frac v)) (k : Fin 8) :
    R (ix2 n k) = featA C (frac cu) (frac cv) n k := by
  subst hcu hcv
  obtain ⟨c0, c1, c2, c3⟩ := hC k
  exact (hR k).trans (blend_congr c0.symm c1.symm c2.symm c3.symm rfl rfl)

/-- THE BRIDGE: the reference's result array is the kernel program's output array. -/
theorem result_eq_of
    (C1 C2 C3 : Vec Ideal S4000000x32 .f32) (Cc : Vec Ideal S4000000x3 .f32) (Wt : Vec Ideal S24x8 .f32) (Bk : Vec Ideal S8 .f32)
    (X : (⟨2, ![4000000, 3]⟩ : Shape).Idx → EReal) (P1 P2 P3 : (⟨3, ![512, 512, 8]⟩ : Shape).Idx → EReal)
    (W : (⟨2, ![8, 24]⟩ : Shape).Idx → EReal) (b : (⟨1, ![8]⟩ : Shape).Idx → EReal)
    (R334 : (⟨2, ![4000000, 8]⟩ : Shape).Idx → EReal) (R328 : (⟨2, ![4000000, 24]⟩ : Shape).Idx → EReal)
    (R1 R2 R3 : (⟨2, ![4000000, 8]⟩ : Shape).Idx → EReal)
    (hCc : ∀ (n : Fin 4000000) (a : Fin 3), Cc (ix2 n a) = clip1 (X (ix2 n a)))
    (hC1 : ∀ (n : Fin 4000000) (r : Fin 8), let u := clip1 (X (ix2 n (0 : Fin 3))); let v := clip1 (X (ix2 n (1 : Fin 3)));
        C1 (ix2 n (lane 0 r)) = P1 (ix3 (cellLo v) (cellLo u) r) ∧ C1 (ix2 n (lane 1 r)) = P1 (ix3 (cellLo v) (cellHi u) r)
        ∧ C1 (ix2 n (lane 2 r)) = P1 (ix3 (cellHi v) (cellLo u) r) ∧ C1 (ix2 n (lane 3 r)) = P1 (ix3 (cellHi v) (cellHi u) r))
    (hC2 : ∀ (n : Fin 4000000) (r : Fin 8), let u := clip1 (X (ix2 n (0 : Fin 3))); let v := clip1 (X (ix2 n (2 : Fin 3)));
        C2 (ix2 n (lane 0 r)) = P2 (ix3 (cellLo v) (cellLo u) r) ∧ C2 (ix2 n (lane 1 r)) = P2 (ix3 (cellLo v) (cellHi u) r)
        ∧ C2 (ix2 n (lane 2 r)) = P2 (ix3 (cellHi v) (cellLo u) r) ∧ C2 (ix2 n (lane 3 r)) = P2 (ix3 (cellHi v) (cellHi u) r))
    (hC3 : ∀ (n : Fin 4000000) (r : Fin 8), let u := clip1 (X (ix2 n (1 : Fin 3))); let v := clip1 (X (ix2 n (2 : Fin 3)));
        C3 (ix2 n (lane 0 r)) = P3 (ix3 (cellLo v) (cellLo u) r) ∧ C3 (ix2 n (lane 1 r)) = P3 (ix3 (cellLo v) (cellHi u) r)
        ∧ C3 (ix2 n (lane 2 r)) = P3 (ix3 (cellHi v) (cellLo u) r) ∧ C3 (ix2 n (lane 3 r)) = P3 (ix3 (cellHi v) (cellHi u) r))
    (hWt : ∀ (k : Fin 24) (o : Fin 8), Wt (ix2 k o) = W (ix2 o k)) (hBk : ∀ o : Fin 8, Bk (ix1 o) = b (ix1 o))
    (h334 : ∀ (n : Fin 4000000) (o : Fin 8), R334 (ix2 n o)
        = min (Ideal.ofBits .f32 0x41200000#32) (max (Ideal.ofBits .f32 0xC1200000#32)
            ((∑ k : Fin 24, R328 (ix2 n k) * W (ix2 o k)) + b (ix1 o))))
    (h328 : ∀ (n : Fin 4000000) (k : Fin 8), R328 (ix2 n (wrow 0 k)) = R1 (ix2 n k) ∧ R328 (ix2 n (wrow 1 k)) = R2 (ix2 n k)
        ∧ R328 (ix2 n (wrow 2 k)) = R3 (ix2 n k))
    (hR1 : ∀ (n : Fin 4000000) (r : Fin 8), let u := clip1 (X (ix2 n (0 : Fin 3))); let v := clip1 (X (ix2 n (1 : Fin 3)));
        R1 (ix2 n r) = blend (P1 (ix3 (cellLo v) (cellLo u) r)) (P1 (ix3 (cellLo v) (cellHi u) r))
        (P1 (ix3 (cellHi v) (cellLo u) r)) (P1 (ix3 (cellHi v) (cellHi u) r)) (frac u) (frac v))
    (hR2 : ∀ (n : Fin 4000000) (r : Fin 8), let u := clip1 (X (ix2 n (0 : Fin 3))); let v := clip1 (X (ix2 n (2 : Fin 3)));
        R2 (ix2 n r) = blend (P2 (ix3 (cellLo v) (cellLo u) r)) (P2 (ix3 (cellLo v) (cellHi u) r))
        (P2 (ix3 (cellHi v) (cellLo u) r)) (P2 (ix3 (cellHi v) (cellHi u) r)) (frac u) (frac v))
    (hR3 : ∀ (n : Fin 4000000) (r : Fin 8), let u := clip1 (X (ix2 n (1 : Fin 3))); let v := clip1 (X (ix2 n (2 : Fin 3)));
        R3 (ix2 n r) = blend (P3 (ix3 (cellLo v) (cellLo u) r)) (P3 (ix3 (cellLo v) (cellHi u) r))
        (P3 (ix3 (cellHi v) (cellLo u) r)) (P3 (ix3 (cellHi v) (cellHi u) r)) (frac u) (frac v)) :
    R334 = GK (F := Ideal) C1 C2 C3 Cc Wt Bk := by
  funext i
  obtain ⟨n, o, rfl⟩ : ∃ (n : Fin 4000000) (o : Fin 8), i = ix2 n o := ⟨i 0, i 1, eq_ix2 i⟩
  have t1 : ∀ k : Fin 8, R328 (ix2 n (⟨k.val, by omega⟩ : Fin 24)) * W (ix2 o (⟨k.val, by omega⟩ : Fin 24))
      = featA C1 (frac (Cc (ix2 n (0 : Fin 3)))) (frac (Cc (ix2 n (1 : Fin 3)))) n k * Wt (ix2 (wrow 0 k) o) := fun k => by
    have hk : (⟨k.val, by omega⟩ : Fin 24) = wrow 0 k := Fin.ext (show k.val = 0 + k.val from (Nat.zero_add _).symm)
    exact congrArg₂ (· * ·)
      ((congrArg (fun q => R328 (ix2 n q)) hk).trans (((h328 n k).1).trans
        (plane_term C1 P1 R1 (clip1 (X (ix2 n (0 : Fin 3)))) (clip1 (X (ix2 n (1 : Fin 3)))) (Cc (ix2 n (0 : Fin 3)))
          (Cc (ix2 n (1 : Fin 3))) n (hCc n 0) (hCc n 1) (fun r => hC1 n r) (fun r => hR1 n r) k)))
      ((congrArg (fun q => W (ix2 o q)) hk).trans (hWt (wrow 0 k) o).symm)
  have t2 : ∀ k : Fin 8, R328 (ix2 n (⟨8 + k.val, by omega⟩ : Fin 24)) * W (ix2 o (⟨8 + k.val, by omega⟩ : Fin 24))
      = featA C2 (frac (Cc (ix2 n (0 : Fin 3)))) (frac (Cc (ix2 n (2 : Fin 3)))) n k * Wt (ix2 (wrow 1 k) o) := fun k => by
    have hk : (⟨8 + k.val, by omega⟩ : Fin 24) = wrow 1 k := Fin.ext rfl
    exact congrArg₂ (· * ·)
      ((congrArg (fun q => R328 (ix2 n q)) hk).trans (((h328 n k).2.1).trans
        (plane_term C2 P2 R2 (clip1 (X (ix2 n (0 : Fin 3)))) (clip1 (X (ix2 n (2 : Fin 3)))) (Cc (ix2 n (0 : Fin 3)))
          (Cc (ix2 n (2 : Fin 3))) n (hCc n 0) (hCc n 2) (fun r => hC2 n r) (fun r => hR2 n r) k)))
      ((congrArg (fun q => W (ix2 o q)) hk).trans (hWt (wrow 1 k) o).symm)
  have t3 : ∀ k : Fin 8, R328 (ix2 n (⟨16 + k.val, by omega⟩ : Fin 24)) * W (ix2 o (⟨16 + k.val, by omega⟩ : Fin 24))
      = featA C3 (frac (Cc (ix2 n (1 : Fin 3)))) (frac (Cc (ix2 n (2 : Fin 3)))) n k * Wt (ix2 (wrow 2 k) o) := fun k => by
    have hk : (⟨16 + k.val, by omega⟩ : Fin 24) = wrow 2 k := Fin.ext rfl
    exact congrArg₂ (· * ·)
      ((congrArg (fun q => R328 (ix2 n q)) hk).trans (((h328 n k).2.2).trans
        (plane_term C3 P3 R3 (clip1 (X (ix2 n (1 : Fin 3)))) (clip1 (X (ix2 n (2 : Fin 3)))) (Cc (ix2 n (1 : Fin 3)))
          (Cc (ix2 n (2 : Fin 3))) n (hCc n 1) (hCc n 2) (fun r => hC3 n r) (fun r => hR3 n r) k)))
      ((congrArg (fun q => W (ix2 o q)) hk).trans (hWt (wrow 2 k) o).symm)
  rw [GK_apply, h334, Cert.Lib.SumBlocks3.sum_fin24 (fun k => R328 (ix2 n k) * W (ix2 o k))]
  unfold outRow
  exact out_congr (Finset.sum_congr rfl fun k _ => t1 k) (Finset.sum_congr rfl fun k _ => t2 k)
    (Finset.sum_congr rfl fun k _ => t3 k) (hBk o).symm

end Cert.Bridge

end
-- ==== Proof.RefEqs0.lean ====
/- The reference program's line read one operation at a time, window 0: for each operation of the window, the buffer it
   writes holds, after the WHOLE line, the operation's function of what its operand buffers hold after the whole line —
   every value is defined once, before its uses, so nothing later in the line touches either side. One equation per
   operation, named after the buffer; a call's operations are read over the call's buffers, where a value moved through a
   typed reference is the value. -/
import proofs.«114771_j71983651881269_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- No operation writes an argument: after the line it holds its launch contents. -/
theorem after_arg0 (V : Valuation τ sig (Elt F)) : after ops V (Proc.devRef .tc main_arg0) = V (Proc.devRef .tc main_arg0) :=
  good.keep_lt V (by decide)

/-- No operation writes an argument: after the line it holds its launch contents. -/
theorem after_arg1 (V : Valuation τ sig (Elt F)) : after ops V (Proc.devRef .tc main_arg1) = V (Proc.devRef .tc main_arg1) :=
  good.keep_lt V (by decide)

/-- No operation writes an argument: after the line it holds its launch contents. -/
theorem after_arg2 (V : Valuation τ sig (Elt F)) : after ops V (Proc.devRef .tc main_arg2) = V (Proc.devRef .tc main_arg2) :=
  good.keep_lt V (by decide)

/-- No operation writes an argument: after the line it holds its launch contents. -/
theorem after_arg3 (V : Valuation τ sig (Elt F)) : after ops V (Proc.devRef .tc main_arg3) = V (Proc.devRef .tc main_arg3) :=
  good.keep_lt V (by decide)

/-- No operation writes an argument: after the line it holds its launch contents. -/
theorem after_arg4 (V : Valuation τ sig (Elt F)) : after ops V (Proc.devRef .tc main_arg4) = V (Proc.devRef .tc main_arg4) :=
  good.keep_lt V (by decide)

/-- No operation writes an argument: after the line it holds its launch contents. -/
theorem after_arg5 (V : Valuation τ sig (Elt F)) : after ops V (Proc.devRef .tc main_arg5) = V (Proc.devRef .tc main_arg5) :=
  good.keep_lt V (by decide)

theorem after_c (V : Valuation τ sig (Elt F)) :
    after ops V (Proc.devRef .tc main_c)
      = ((fun i => lit0 (S2.rowMajor i)) : (⟨S2, .i32⟩ : BufTy).Contents (Elt F)) :=
  good.at_nullary (y := main_c) rfl (by decide) V

theorem after_cst (V : Valuation τ sig (Elt F)) :
    after ops V (Proc.devRef .tc main_cst)
      = ((constant S_ .f32 0xBF800000#32) : (⟨S_, .f32⟩ : BufTy).Contents (Elt F)) :=
  good.at_nullary (y := main_cst) rfl (by decide) V

theorem after_cst_0 (V : Valuation τ sig (Elt F)) :
    after ops V (Proc.devRef .tc main_cst_0)
      = ((constant S_ .f32 0x3F800000#32) : (⟨S_, .f32⟩ : BufTy).Contents (Elt F)) :=
  good.at_nullary (y := main_cst_0) rfl (by decide) V

theorem after_call0_v0 (V : Valuation τ sig (Elt F)) :
    after ops V (Proc.devRef .tc main_call0_v0)
      = (id : (⟨S_, .f32⟩ : BufTy).Contents (Elt F) → (⟨S_, .f32⟩ : BufTy).Contents (Elt F))
        (after ops V (Proc.devRef .tc main_cst)) :=
  good.at_unary (x := main_cst) (y := main_call0_v0) rfl (by decide) (by decide) V

theorem after_call0_v1 (V : Valuation τ sig (Elt F)) :
    after ops V (Proc.devRef .tc main_call0_v1)
      = ((broadcastInDim S4000000x3 ![] bcast_S_S4000000x3) : (⟨S_, .f32⟩ : BufTy).Contents (Elt F) → (⟨S4000000x3, .f32⟩ : BufTy).Contents (Elt F))
        (after ops V (Proc.devRef .tc main_call0_v0)) :=
  good.at_unary (x := main_call0_v0) (y := main_call0_v1) rfl (by decide) (by decide) V

theorem after_call0_v2 (V : Valuation τ sig (Elt F)) :
    after ops V (Proc.devRef .tc main_call0_v2)
      = (maximumf : (⟨S4000000x3, .f32⟩ : BufTy).Contents (Elt F) → (⟨S4000000x3, .f32⟩ : BufTy).Contents (Elt F) → (⟨S4000000x3, .f32⟩ : BufTy).Contents (Elt F))
        (after ops V (Proc.devRef .tc main_call0_v1)) (after ops V (Proc.devRef .tc main_arg0)) :=
  good.at_binary (a := main_call0_v1) (b := main_arg0) (y := main_call0_v2) rfl (by decide) (by decide) (by decide) V

theorem after_call0_v3 (V : Valuation τ sig (Elt F)) :
    after ops V (Proc.devRef .tc main_call0_v3)
      = (id : (⟨S_, .f32⟩ : BufTy).Contents (Elt F) → (⟨S_, .f32⟩ : BufTy).Contents (Elt F))
        (after ops V (Proc.devRef .tc main_cst_0)) :=
  good.at_unary (x := main_cst_0) (y := main_call0_v3) rfl (by decide) (by decide) V

theorem after_call0_v4 (V : Valuation τ sig (Elt F)) :
    after ops V (Proc.devRef .tc main_call0_v4)
      = ((broadcastInDim S4000000x3 ![] bcast_S_S4000000x3) : (⟨S_, .f32⟩ : BufTy).Contents (Elt F) → (⟨S4000000x3, .f32⟩ : BufTy).Contents (Elt F))
        (after ops V (Proc.devRef .tc main_call0_v3)) :=
  good.at_unary (x := main_call0_v3) (y := main_call0_v4) rfl (by decide) (by decide) V

theorem after_v1 (V : Valuation τ sig (Elt F)) :
    after ops V (Proc.devRef .tc main_v1)
      = (((extractStridedSlice S4000000x2 ![0, 0] · slices_S4000000x3_S4000000x2_0_0) : (⟨S4000000x3, .f32⟩ : BufTy).Contents (Elt F) → (⟨S4000000x2, .f32⟩ : BufTy).Contents (Elt F)) : (⟨S4000000x3, .f32⟩ : BufTy).Contents (Elt F) → (⟨S4000000x2, .f32⟩ : BufTy).Contents (Elt F))
        (after ops V (Proc.devRef .tc main_v0)) :=
  good.at_unary (x := main_v0) (y := main_v1) rfl (by decide) (by decide) V

theorem after_v2 (V : Valuation τ sig (Elt F)) :
    after ops V (Proc.devRef .tc main_v2)
      = (((extractStridedSlice S4000000x1 ![0, 0] · slices_S4000000x2_S4000000x1_0_0) : (⟨S4000000x2, .f32⟩ : BufTy).Contents (Elt F) → (⟨S4000000x1, .f32⟩ : BufTy).Contents (Elt F)) : (⟨S4000000x2, .f32⟩ : BufTy).Contents (Elt F) → (⟨S4000000x1, .f32⟩ : BufTy).Contents (Elt F))
        (after ops V (Proc.devRef .tc main_v1)) :=
  good.at_unary (x := main_v1) (y := main_v2) rfl (by decide) (by decide) V

theorem after_v3 (V : Valuation τ sig (Elt F)) :
    after ops V (Proc.devRef .tc main_v3)
      = (shapeCast S4000000 (after ops V (Proc.devRef .tc main_v2)) shapeCasts_S4000000x1_S4000000 : (⟨S4000000, .f32⟩ : BufTy).Contents (Elt F)) :=
  good.at_reshape (x := main_v2) (y := main_v3) rfl (by decide) (by decide) V

theorem after_cst_1 (V : Valuation τ sig (Elt F)) :
    after ops V (Proc.devRef .tc main_cst_1)
      = ((constant S_ .f32 0x3F800000#32) : (⟨S_, .f32⟩ : BufTy).Contents (Elt F)) :=
  good.at_nullary (y := main_cst_1) rfl (by decide) V

theorem after_v4 (V : Valuation τ sig (Elt F)) :
    after ops V (Proc.devRef .tc main_v4)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_1)) :=
  good.at_unary (x := main_cst_1) (y := main_v4) rfl (by decide) (by decide) V

theorem after_v5 (V : Valuation τ sig (Elt F)) :
    after ops V (Proc.devRef .tc main_v5)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v3)) (after ops V (Proc.devRef .tc main_v4)) :=
  good.at_binary (a := main_v3) (b := main_v4) (y := main_v5) rfl (by decide) (by decide) (by decide) V

theorem after_cst_2 (V : Valuation τ sig (Elt F)) :
    after ops V (Proc.devRef .tc main_cst_2)
      = ((constant S_ .f32 0x44000000#32) : (⟨S_, .f32⟩ : BufTy).Contents (Elt F)) :=
  good.at_nullary (y := main_cst_2) rfl (by decide) V

theorem after_v6 (V : Valuation τ sig (Elt F)) :
    after ops V (Proc.devRef .tc main_v6)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_2)) :=
  good.at_unary (x := main_cst_2) (y := main_v6) rfl (by decide) (by decide) V

theorem after_v7 (V : Valuation τ sig (Elt F)) :
    after ops V (Proc.devRef .tc main_v7)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v5)) (after ops V (Proc.devRef .tc main_v6)) :=
  good.at_binary (a := main_v5) (b := main_v6) (y := main_v7) rfl (by decide) (by decide) (by decide) V

theorem after_cst_3 (V : Valuation τ sig (Elt F)) :
    after ops V (Proc.devRef .tc main_cst_3)
      = ((constant S_ .f32 0x3F800000#32) : (⟨S_, .f32⟩ : BufTy).Contents (Elt F)) :=
  good.at_nullary (y := main_cst_3) rfl (by decide) V

theorem after_v8 (V : Valuation τ sig (Elt F)) :
    after ops V (Proc.devRef .tc main_v8)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_3)) :=
  good.at_unary (x := main_cst_3) (y := main_v8) rfl (by decide) (by decide) V

theorem after_v9 (V : Valuation τ sig (Elt F)) :
    after ops V (Proc.devRef .tc main_v9)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v7)) (after ops V (Proc.devRef .tc main_v8)) :=
  good.at_binary (a := main_v7) (b := main_v8) (y := main_v9) rfl (by decide) (by decide) (by decide) V

theorem after_cst_4 (V : Valuation τ sig (Elt F)) :
    after ops V (Proc.devRef .tc main_cst_4)
      = ((constant S_ .f32 0x3F000000#32) : (⟨S_, .f32⟩ : BufTy).Contents (Elt F)) :=
  good.at_nullary (y := main_cst_4) rfl (by decide) V

theorem after_v10 (V : Valuation τ sig (Elt F)) :
    after ops V (Proc.devRef .tc main_v10)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_4)) :=
  good.at_unary (x := main_cst_4) (y := main_v10) rfl (by decide) (by decide) V

theorem after_v11 (V : Valuation τ sig (Elt F)) :
    after ops V (Proc.devRef .tc main_v11)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v9)) (after ops V (Proc.devRef .tc main_v10)) :=
  good.at_binary (a := main_v9) (b := main_v10) (y := main_v11) rfl (by decide) (by decide) (by decide) V

theorem after_cst_5 (V : Valuation τ sig (Elt F)) :
    after ops V (Proc.devRef .tc main_cst_5)
      = ((constant S_ .f32 0x00000000#32) : (⟨S_, .f32⟩ : BufTy).Contents (Elt F)) :=
  good.at_nullary (y := main_cst_5) rfl (by decide) V

theorem after_cst_6 (V : Valuation τ sig (Elt F)) :
    after ops V (Proc.devRef .tc main_cst_6)
      = ((constant S_ .f32 0x43FF8000#32) : (⟨S_, .f32⟩ : BufTy).Contents (Elt F)) :=
  good.at_nullary (y := main_cst_6) rfl (by decide) V

theorem after_call1_v0 (V : Valuation τ sig (Elt F)) :
    after ops V (Proc.devRef .tc main_call1_v0)
      = (id : (⟨S_, .f32⟩ : BufTy).Contents (Elt F) → (⟨S_, .f32⟩ : BufTy).Contents (Elt F))
        (after ops V (Proc.devRef .tc main_cst_5)) :=
  good.at_unary (x := main_cst_5) (y := main_call1_v0) rfl (by decide) (by decide) V

theorem after_call1_v1 (V : Valuation τ sig (Elt F)) :
    after ops V (Proc.devRef .tc main_call1_v1)
      = ((broadcastInDim S4000000 ![] bcast_S_S4000000) : (⟨S_, .f32⟩ : BufTy).Contents (Elt F) → (⟨S4000000, .f32⟩ : BufTy).Contents (Elt F))
        (after ops V (Proc.devRef .tc main_call1_v0)) :=
  good.at_unary (x := main_call1_v0) (y := main_call1_v1) rfl (by decide) (by decide) V

theorem after_call1_v2 (V : Valuation τ sig (Elt F)) :
    after ops V (Proc.devRef .tc main_call1_v2)
      = (maximumf : (⟨S4000000, .f32⟩ : BufTy).Contents (Elt F) → (⟨S4000000, .f32⟩ : BufTy).Contents (Elt F) → (⟨S4000000, .f32⟩ : BufTy).Contents (Elt F))
        (after ops V (Proc.devRef .tc main_call1_v1)) (after ops V (Proc.devRef .tc main_v11)) :=
  good.at_binary (a := main_call1_v1) (b := main_v11) (y := main_call1_v2) rfl (by decide) (by decide) (by decide) V

theorem after_call1_v3 (V : Valuation τ sig (Elt F)) :
    after ops V (Proc.devRef .tc main_call1_v3)
      = (id : (⟨S_, .f32⟩ : BufTy).Contents (Elt F) → (⟨S_, .f32⟩ : BufTy).Contents (Elt F))
        (after ops V (Proc.devRef .tc main_cst_6)) :=
  good.at_unary (x := main_cst_6) (y := main_call1_v3) rfl (by decide) (by decide) V

theorem after_call1_v4 (V : Valuation τ sig (Elt F)) :
    after ops V (Proc.devRef .tc main_call1_v4)
      = ((broadcastInDim S4000000 ![] bcast_S_S4000000) : (⟨S_, .f32⟩ : BufTy).Contents (Elt F) → (⟨S4000000, .f32⟩ : BufTy).Contents (Elt F))
        (after ops V (Proc.devRef .tc main_call1_v3)) :=
  good.at_unary (x := main_call1_v3) (y := main_call1_v4) rfl (by decide) (by decide) V

theorem after_v12 (V : Valuation τ sig (Elt F)) :
    after ops V (Proc.devRef .tc main_v12)
      = (minimumf : (⟨S4000000, .f32⟩ : BufTy).Contents (Elt F) → (⟨S4000000, .f32⟩ : BufTy).Contents (Elt F) → (⟨S4000000, .f32⟩ : BufTy).Contents (Elt F))
        (after ops V (Proc.devRef .tc main_call1_v4)) (after ops V (Proc.devRef .tc main_call1_v2)) :=
  good.at_binary (a := main_call1_v4) (b := main_call1_v2) (y := main_v12) rfl (by decide) (by decide) (by decide) V

theorem after_v13 (V : Valuation τ sig (Elt F)) :
    after ops V (Proc.devRef .tc main_v13)
      = (((extractStridedSlice S4000000x1 ![0, 1] · slices_S4000000x2_S4000000x1_0_1) : (⟨S4000000x2, .f32⟩ : BufTy).Contents (Elt F) → (⟨S4000000x1, .f32⟩ : BufTy).Contents (Elt F)) : (⟨S4000000x2, .f32⟩ : BufTy).Contents (Elt F) → (⟨S4000000x1, .f32⟩ : BufTy).Contents (Elt F))
        (after ops V (Proc.devRef .tc main_v1)) :=
  good.at_unary (x := main_v1) (y := main_v13) rfl (by decide) (by decide) V

theorem after_v14 (V : Valuation τ sig (Elt F)) :
    after ops V (Proc.devRef .tc main_v14)
      = (shapeCast S4000000 (after ops V (Proc.devRef .tc main_v13)) shapeCasts_S4000000x1_S4000000 : (⟨S4000000, .f32⟩ : BufTy).Contents (Elt F)) :=
  good.at_reshape (x := main_v13) (y := main_v14) rfl (by decide) (by decide) V

theorem after_cst_7 (V : Valuation τ sig (Elt F)) :
    after ops V (Proc.devRef .tc main_cst_7)
      = ((constant S_ .f32 0x3F800000#32) : (⟨S_, .f32⟩ : BufTy).Contents (Elt F)) :=
  good.at_nullary (y := main_cst_7) rfl (by decide) V

theorem after_v15 (V : Valuation τ sig (Elt F)) :
    after ops V (Proc.devRef .tc main_v15)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_7)) :=
  good.at_unary (x := main_cst_7) (y := main_v15) rfl (by decide) (by decide) V

theorem after_v16 (V : Valuation τ sig (Elt F)) :
    after ops V (Proc.devRef .tc main_v16)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v14)) (after ops V (Proc.devRef .tc main_v15)) :=
  good.at_binary (a := main_v14) (b := main_v15) (y := main_v16) rfl (by decide) (by decide) (by decide) V

theorem after_cst_8 (V : Valuation τ sig (Elt F)) :
    after ops V (Proc.devRef .tc main_cst_8)
      = ((constant S_ .f32 0x44000000#32) : (⟨S_, .f32⟩ : BufTy).Contents (Elt F)) :=
  good.at_nullary (y := main_cst_8) rfl (by decide) V

theorem after_v17 (V : Valuation τ sig (Elt F)) :
    after ops V (Proc.devRef .tc main_v17)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_8)) :=
  good.at_unary (x := main_cst_8) (y := main_v17) rfl (by decide) (by decide) V

theorem after_v18 (V : Valuation τ sig (Elt F)) :
    after ops V (Proc.devRef .tc main_v18)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v16)) (after ops V (Proc.devRef .tc main_v17)) :=
  good.at_binary (a := main_v16) (b := main_v17) (y := main_v18) rfl (by decide) (by decide) (by decide) V

theorem after_cst_9 (V : Valuation τ sig (Elt F)) :
    after ops V (Proc.devRef .tc main_cst_9)
      = ((constant S_ .f32 0x3F800000#32) : (⟨S_, .f32⟩ : BufTy).Contents (Elt F)) :=
  good.at_nullary (y := main_cst_9) rfl (by decide) V

theorem after_v19 (V : Valuation τ sig (Elt F)) :
    after ops V (Proc.devRef .tc main_v19)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_9)) :=
  good.at_unary (x := main_cst_9) (y := main_v19) rfl (by decide) (by decide) V

theorem after_v20 (V : Valuation τ sig (Elt F)) :
    after ops V (Proc.devRef .tc main_v20)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v18)) (after ops V (Proc.devRef .tc main_v19)) :=
  good.at_binary (a := main_v18) (b := main_v19) (y := main_v20) rfl (by decide) (by decide) (by decide) V

theorem after_cst_10 (V : Valuation τ sig (Elt F)) :
    after ops V (Proc.devRef .tc main_cst_10)
      = ((constant S_ .f32 0x3F000000#32) : (⟨S_, .f32⟩ : BufTy).Contents (Elt F)) :=
  good.at_nullary (y := main_cst_10) rfl (by decide) V

theorem after_v21 (V : Valuation τ sig (Elt F)) :
    after ops V (Proc.devRef .tc main_v21)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_10)) :=
  good.at_unary (x := main_cst_10) (y := main_v21) rfl (by decide) (by decide) V

theorem after_v22 (V : Valuation τ sig (Elt F)) :
    after ops V (Proc.devRef .tc main_v22)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v20)) (after ops V (Proc.devRef .tc main_v21)) :=
  good.at_binary (a := main_v20) (b := main_v21) (y := main_v22) rfl (by decide) (by decide) (by decide) V

theorem after_cst_11 (V : Valuation τ sig (Elt F)) :
    after ops V (Proc.devRef .tc main_cst_11)
      = ((constant S_ .f32 0x00000000#32) : (⟨S_, .f32⟩ : BufTy).Contents (Elt F)) :=
  good.at_nullary (y := main_cst_11) rfl (by decide) V

theorem after_cst_12 (V : Valuation τ sig (Elt F)) :
    after ops V (Proc.devRef .tc main_cst_12)
      = ((constant S_ .f32 0x43FF8000#32) : (⟨S_, .f32⟩ : BufTy).Contents (Elt F)) :=
  good.at_nullary (y := main_cst_12) rfl (by decide) V

theorem after_call2_v0 (V : Valuation τ sig (Elt F)) :
    after ops V (Proc.devRef .tc main_call2_v0)
      = (id : (⟨S_, .f32⟩ : BufTy).Contents (Elt F) → (⟨S_, .f32⟩ : BufTy).Contents (Elt F))
        (after ops V (Proc.devRef .tc main_cst_11)) :=
  good.at_unary (x := main_cst_11) (y := main_call2_v0) rfl (by decide) (by decide) V

theorem after_call2_v1 (V : Valuation τ sig (Elt F)) :
    after ops V (Proc.devRef .tc main_call2_v1)
      = ((broadcastInDim S4000000 ![] bcast_S_S4000000) : (⟨S_, .f32⟩ : BufTy).Contents (Elt F) → (⟨S4000000, .f32⟩ : BufTy).Contents (Elt F))
        (after ops V (Proc.devRef .tc main_call2_v0)) :=
  good.at_unary (x := main_call2_v0) (y := main_call2_v1) rfl (by decide) (by decide) V

theorem after_call2_v2 (V : Valuation τ sig (Elt F)) :
    after ops V (Proc.devRef .tc main_call2_v2)
      = (maximumf : (⟨S4000000, .f32⟩ : BufTy).Contents (Elt F) → (⟨S4000000, .f32⟩ : BufTy).Contents (Elt F) → (⟨S4000000, .f32⟩ : BufTy).Contents (Elt F))
        (after ops V (Proc.devRef .tc main_call2_v1)) (after ops V (Proc.devRef .tc main_v22)) :=
  good.at_binary (a := main_call2_v1) (b := main_v22) (y := main_call2_v2) rfl (by decide) (by decide) (by decide) V

theorem after_call2_v3 (V : Valuation τ sig (Elt F)) :
    after ops V (Proc.devRef .tc main_call2_v3)
      = (id : (⟨S_, .f32⟩ : BufTy).Contents (Elt F) → (⟨S_, .f32⟩ : BufTy).Contents (Elt F))
        (after ops V (Proc.devRef .tc main_cst_12)) :=
  good.at_unary (x := main_cst_12) (y := main_call2_v3) rfl (by decide) (by decide) V

theorem after_call2_v4 (V : Valuation τ sig (Elt F)) :
    after ops V (Proc.devRef .tc main_call2_v4)
      = ((broadcastInDim S4000000 ![] bcast_S_S4000000) : (⟨S_, .f32⟩ : BufTy).Contents (Elt F) → (⟨S4000000, .f32⟩ : BufTy).Contents (Elt F))
        (after ops V (Proc.devRef .tc main_call2_v3)) :=
  good.at_unary (x := main_call2_v3) (y := main_call2_v4) rfl (by decide) (by decide) V

theorem after_v23 (V : Valuation τ sig (Elt F)) :
    after ops V (Proc.devRef .tc main_v23)
      = (minimumf : (⟨S4000000, .f32⟩ : BufTy).Contents (Elt F) → (⟨S4000000, .f32⟩ : BufTy).Contents (Elt F) → (⟨S4000000, .f32⟩ : BufTy).Contents (Elt F))
        (after ops V (Proc.devRef .tc main_call2_v4)) (after ops V (Proc.devRef .tc main_call2_v2)) :=
  good.at_binary (a := main_call2_v4) (b := main_call2_v2) (y := main_v23) rfl (by decide) (by decide) (by decide) V

theorem after_v24 (V : Valuation τ sig (Elt F)) :
    after ops V (Proc.devRef .tc main_v24)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after ops V (Proc.devRef .tc main_v12)) :=
  good.at_unary (x := main_v12) (y := main_v24) rfl (by decide) (by decide) V

theorem after_v25 (V : Valuation τ sig (Elt F)) :
    after ops V (Proc.devRef .tc main_v25)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after ops V (Proc.devRef .tc main_v23)) :=
  good.at_unary (x := main_v23) (y := main_v25) rfl (by decide) (by decide) V

theorem after_v26 (V : Valuation τ sig (Elt F)) :
    after ops V (Proc.devRef .tc main_v26)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v12)) (after ops V (Proc.devRef .tc main_v24)) :=
  good.at_binary (a := main_v12) (b := main_v24) (y := main_v26) rfl (by decide) (by decide) (by decide) V

theorem after_v27 (V : Valuation τ sig (Elt F)) :
    after ops V (Proc.devRef .tc main_v27)
      = ((broadcastInDim S4000000x1 ![0] bcast_S4000000_S4000000x1_0 : (⟨S4000000, .f32⟩ : BufTy).Contents (Elt F) → (⟨S4000000x1, .f32⟩ : BufTy).Contents (Elt F)) : (⟨S4000000, .f32⟩ : BufTy).Contents (Elt F) → (⟨S4000000x1, .f32⟩ : BufTy).Contents (Elt F))
        (after ops V (Proc.devRef .tc main_v26)) :=
  good.at_unary (x := main_v26) (y := main_v27) rfl (by decide) (by decide) V

theorem after_v28 (V : Valuation τ sig (Elt F)) :
    after ops V (Proc.devRef .tc main_v28)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v23)) (after ops V (Proc.devRef .tc main_v25)) :=
  good.at_binary (a := main_v23) (b := main_v25) (y := main_v28) rfl (by decide) (by decide) (by decide) V

theorem after_v29 (V : Valuation τ sig (Elt F)) :
    after ops V (Proc.devRef .tc main_v29)
      = ((broadcastInDim S4000000x1 ![0] bcast_S4000000_S4000000x1_0 : (⟨S4000000, .f32⟩ : BufTy).Contents (Elt F) → (⟨S4000000x1, .f32⟩ : BufTy).Contents (Elt F)) : (⟨S4000000, .f32⟩ : BufTy).Contents (Elt F) → (⟨S4000000x1, .f32⟩ : BufTy).Contents (Elt F))
        (after ops V (Proc.devRef .tc main_v28)) :=
  good.at_unary (x := main_v28) (y := main_v29) rfl (by decide) (by decide) V

theorem after_v30 (V : Valuation τ sig (Elt F)) :
    after ops V (Proc.devRef .tc main_v30)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after ops V (Proc.devRef .tc main_v24)) :=
  good.at_unary (x := main_v24) (y := main_v30) rfl (by decide) (by decide) V

theorem after_v31 (V : Valuation τ sig (Elt F)) :
    after ops V (Proc.devRef .tc main_v31)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after ops V (Proc.devRef .tc main_v25)) :=
  good.at_unary (x := main_v25) (y := main_v31) rfl (by decide) (by decide) V

theorem after_c_13 (V : Valuation τ sig (Elt F)) :
    after ops V (Proc.devRef .tc main_c_13)
      = ((constantI S_ 32 1#32) : (⟨S_, .i32⟩ : BufTy).Contents (Elt F)) :=
  good.at_nullary (y := main_c_13) rfl (by decide) V

theorem after_v32 (V : Valuation τ sig (Elt F)) :
    after ops V (Proc.devRef .tc main_v32)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_13)) :=
  good.at_unary (x := main_c_13) (y := main_v32) rfl (by decide) (by decide) V

theorem after_v33 (V : Valuation τ sig (Elt F)) :
    after ops V (Proc.devRef .tc main_v33)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v30)) (after ops V (Proc.devRef .tc main_v32)) :=
  good.at_binary (a := main_v30) (b := main_v32) (y := main_v33) rfl (by decide) (by decide) (by decide) V

theorem after_c_14 (V : Valuation τ sig (Elt F)) :
    after ops V (Proc.devRef .tc main_c_14)
      = ((constantI S_ 32 511#32) : (⟨S_, .i32⟩ : BufTy).Contents (Elt F)) :=
  good.at_nullary (y := main_c_14) rfl (by decide) V

theorem after_v34 (V : Valuation τ sig (Elt F)) :
    after ops V (Proc.devRef .tc main_v34)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_14)) :=
  good.at_unary (x := main_c_14) (y := main_v34) rfl (by decide) (by decide) V

theorem after_v35 (V : Valuation τ sig (Elt F)) :
    after ops V (Proc.devRef .tc main_v35)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v33)) (after ops V (Proc.devRef .tc main_v34)) :=
  good.at_binary (a := main_v33) (b := main_v34) (y := main_v35) rfl (by decide) (by decide) (by decide) V

theorem after_c_15 (V : Valuation τ sig (Elt F)) :
    after ops V (Proc.devRef .tc main_c_15)
      = ((constantI S_ 32 1#32) : (⟨S_, .i32⟩ : BufTy).Contents (Elt F)) :=
  good.at_nullary (y := main_c_15) rfl (by decide) V

theorem after_v36 (V : Valuation τ sig (Elt F)) :
    after ops V (Proc.devRef .tc main_v36)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_15)) :=
  good.at_unary (x := main_c_15) (y := main_v36) rfl (by decide) (by decide) V

theorem after_v37 (V : Valuation τ sig (Elt F)) :
    after ops V (Proc.devRef .tc main_v37)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v31)) (after ops V (Proc.devRef .tc main_v36)) :=
  good.at_binary (a := main_v31) (b := main_v36) (y := main_v37) rfl (by decide) (by decide) (by decide) V

theorem after_c_16 (V : Valuation τ sig (Elt F)) :
    after ops V (Proc.devRef .tc main_c_16)
      = ((constantI S_ 32 511#32) : (⟨S_, .i32⟩ : BufTy).Contents (Elt F)) :=
  good.at_nullary (y := main_c_16) rfl (by decide) V

theorem after_v38 (V : Valuation τ sig (Elt F)) :
    after ops V (Proc.devRef .tc main_v38)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_16)) :=
  good.at_unary (x := main_c_16) (y := main_v38) rfl (by decide) (by decide) V

theorem after_v39 (V : Valuation τ sig (Elt F)) :
    after ops V (Proc.devRef .tc main_v39)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v37)) (after ops V (Proc.devRef .tc main_v38)) :=
  good.at_binary (a := main_v37) (b := main_v38) (y := main_v39) rfl (by decide) (by decide) (by decide) V

theorem after_c_17 (V : Valuation τ sig (Elt F)) :
    after ops V (Proc.devRef .tc main_c_17)
      = ((constantI S_ 32 0#32) : (⟨S_, .i32⟩ : BufTy).Contents (Elt F)) :=
  good.at_nullary (y := main_c_17) rfl (by decide) V

end Cert.ReferenceIdeal.HandRun

end
-- ==== Proof.RefEqs1.lean ====
/- The reference program's line read one operation at a time, window 1: for each operation of the window, the buffer it
   writes holds, after the WHOLE line, the operation's function of what its operand buffers hold after the whole line —
   every value is defined once, before its uses, so nothing later in the line touches either side. One equation per
   operation, named after the buffer; a call's operations are read over the call's buffers, where a value moved through a
   typed reference is the value. -/
import proofs.«114771_j71983651881269_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_v40 (V : Valuation τ sig (Elt F)) :
    after ops V (Proc.devRef .tc main_v40)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_17)) :=
  good.at_unary (x := main_c_17) (y := main_v40) rfl (by decide) (by decide) V

theorem after_v41 (V : Valuation τ sig (Elt F)) :
    after ops V (Proc.devRef .tc main_v41)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v31)) (after ops V (Proc.devRef .tc main_v40)) :=
  good.at_binary (a := main_v31) (b := main_v40) (y := main_v41) rfl (by decide) (by decide) (by decide) V

theorem after_c_18 (V : Valuation τ sig (Elt F)) :
    after ops V (Proc.devRef .tc main_c_18)
      = ((constantI S_ 32 512#32) : (⟨S_, .i32⟩ : BufTy).Contents (Elt F)) :=
  good.at_nullary (y := main_c_18) rfl (by decide) V

theorem after_v42 (V : Valuation τ sig (Elt F)) :
    after ops V (Proc.devRef .tc main_v42)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_18)) :=
  good.at_unary (x := main_c_18) (y := main_v42) rfl (by decide) (by decide) V

theorem after_v43 (V : Valuation τ sig (Elt F)) :
    after ops V (Proc.devRef .tc main_v43)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v31)) (after ops V (Proc.devRef .tc main_v42)) :=
  good.at_binary (a := main_v31) (b := main_v42) (y := main_v43) rfl (by decide) (by decide) (by decide) V

theorem after_v44 (V : Valuation τ sig (Elt F)) :
    after ops V (Proc.devRef .tc main_v44)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v41)) (after ops V (Proc.devRef .tc main_v43)) (after ops V (Proc.devRef .tc main_v31)) :=
  good.at_ternary (c := main_v41) (a := main_v43) (b := main_v31) (y := main_v44) rfl (by decide) (by decide) (by decide) (by decide) V

theorem after_c_19 (V : Valuation τ sig (Elt F)) :
    after ops V (Proc.devRef .tc main_c_19)
      = ((constantI S_ 32 0#32) : (⟨S_, .i32⟩ : BufTy).Contents (Elt F)) :=
  good.at_nullary (y := main_c_19) rfl (by decide) V

theorem after_v45 (V : Valuation τ sig (Elt F)) :
    after ops V (Proc.devRef .tc main_v45)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_19)) :=
  good.at_unary (x := main_c_19) (y := main_v45) rfl (by decide) (by decide) V

theorem after_v46 (V : Valuation τ sig (Elt F)) :
    after ops V (Proc.devRef .tc main_v46)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v30)) (after ops V (Proc.devRef .tc main_v45)) :=
  good.at_binary (a := main_v30) (b := main_v45) (y := main_v46) rfl (by decide) (by decide) (by decide) V

theorem after_c_20 (V : Valuation τ sig (Elt F)) :
    after ops V (Proc.devRef .tc main_c_20)
      = ((constantI S_ 32 512#32) : (⟨S_, .i32⟩ : BufTy).Contents (Elt F)) :=
  good.at_nullary (y := main_c_20) rfl (by decide) V

theorem after_v47 (V : Valuation τ sig (Elt F)) :
    after ops V (Proc.devRef .tc main_v47)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_20)) :=
  good.at_unary (x := main_c_20) (y := main_v47) rfl (by decide) (by decide) V

theorem after_v48 (V : Valuation τ sig (Elt F)) :
    after ops V (Proc.devRef .tc main_v48)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v30)) (after ops V (Proc.devRef .tc main_v47)) :=
  good.at_binary (a := main_v30) (b := main_v47) (y := main_v48) rfl (by decide) (by decide) (by decide) V

theorem after_v49 (V : Valuation τ sig (Elt F)) :
    after ops V (Proc.devRef .tc main_v49)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v46)) (after ops V (Proc.devRef .tc main_v48)) (after ops V (Proc.devRef .tc main_v30)) :=
  good.at_ternary (c := main_v46) (a := main_v48) (b := main_v30) (y := main_v49) rfl (by decide) (by decide) (by decide) (by decide) V

theorem after_v50 (V : Valuation τ sig (Elt F)) :
    after ops V (Proc.devRef .tc main_v50)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v44)) :=
  good.at_unary (x := main_v44) (y := main_v50) rfl (by decide) (by decide) V

theorem after_v51 (V : Valuation τ sig (Elt F)) :
    after ops V (Proc.devRef .tc main_v51)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v49)) :=
  good.at_unary (x := main_v49) (y := main_v51) rfl (by decide) (by decide) V

theorem after_v52 (V : Valuation τ sig (Elt F)) :
    after ops V (Proc.devRef .tc main_v52)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v50)) (after ops V (Proc.devRef .tc main_v51)) :=
  good.at_binary (a := main_v50) (b := main_v51) (y := main_v52) rfl (by decide) (by decide) (by decide) V

theorem after_v53 (V : Valuation τ sig (Elt F)) :
    after ops V (Proc.devRef .tc main_v53)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg1)) (after ops V (Proc.devRef .tc main_v52)) :=
  good.at_binary (a := main_arg1) (b := main_v52) (y := main_v53) rfl (by decide) (by decide) (by decide) V

theorem after_c_21 (V : Valuation τ sig (Elt F)) :
    after ops V (Proc.devRef .tc main_c_21)
      = ((constantI S_ 32 0#32) : (⟨S_, .i32⟩ : BufTy).Contents (Elt F)) :=
  good.at_nullary (y := main_c_21) rfl (by decide) V

theorem after_v54 (V : Valuation τ sig (Elt F)) :
    after ops V (Proc.devRef .tc main_v54)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_21)) :=
  good.at_unary (x := main_c_21) (y := main_v54) rfl (by decide) (by decide) V

theorem after_v55 (V : Valuation τ sig (Elt F)) :
    after ops V (Proc.devRef .tc main_v55)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v31)) (after ops V (Proc.devRef .tc main_v54)) :=
  good.at_binary (a := main_v31) (b := main_v54) (y := main_v55) rfl (by decide) (by decide) (by decide) V

theorem after_c_22 (V : Valuation τ sig (Elt F)) :
    after ops V (Proc.devRef .tc main_c_22)
      = ((constantI S_ 32 512#32) : (⟨S_, .i32⟩ : BufTy).Contents (Elt F)) :=
  good.at_nullary (y := main_c_22) rfl (by decide) V

theorem after_v56 (V : Valuation τ sig (Elt F)) :
    after ops V (Proc.devRef .tc main_v56)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_22)) :=
  good.at_unary (x := main_c_22) (y := main_v56) rfl (by decide) (by decide) V

theorem after_v57 (V : Valuation τ sig (Elt F)) :
    after ops V (Proc.devRef .tc main_v57)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v31)) (after ops V (Proc.devRef .tc main_v56)) :=
  good.at_binary (a := main_v31) (b := main_v56) (y := main_v57) rfl (by decide) (by decide) (by decide) V

theorem after_v58 (V : Valuation τ sig (Elt F)) :
    after ops V (Proc.devRef .tc main_v58)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v55)) (after ops V (Proc.devRef .tc main_v57)) (after ops V (Proc.devRef .tc main_v31)) :=
  good.at_ternary (c := main_v55) (a := main_v57) (b := main_v31) (y := main_v58) rfl (by decide) (by decide) (by decide) (by decide) V

theorem after_c_23 (V : Valuation τ sig (Elt F)) :
    after ops V (Proc.devRef .tc main_c_23)
      = ((constantI S_ 32 0#32) : (⟨S_, .i32⟩ : BufTy).Contents (Elt F)) :=
  good.at_nullary (y := main_c_23) rfl (by decide) V

theorem after_v59 (V : Valuation τ sig (Elt F)) :
    after ops V (Proc.devRef .tc main_v59)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_23)) :=
  good.at_unary (x := main_c_23) (y := main_v59) rfl (by decide) (by decide) V

theorem after_v60 (V : Valuation τ sig (Elt F)) :
    after ops V (Proc.devRef .tc main_v60)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v35)) (after ops V (Proc.devRef .tc main_v59)) :=
  good.at_binary (a := main_v35) (b := main_v59) (y := main_v60) rfl (by decide) (by decide) (by decide) V

theorem after_c_24 (V : Valuation τ sig (Elt F)) :
    after ops V (Proc.devRef .tc main_c_24)
      = ((constantI S_ 32 512#32) : (⟨S_, .i32⟩ : BufTy).Contents (Elt F)) :=
  good.at_nullary (y := main_c_24) rfl (by decide) V

theorem after_v61 (V : Valuation τ sig (Elt F)) :
    after ops V (Proc.devRef .tc main_v61)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_24)) :=
  good.at_unary (x := main_c_24) (y := main_v61) rfl (by decide) (by decide) V

theorem after_v62 (V : Valuation τ sig (Elt F)) :
    after ops V (Proc.devRef .tc main_v62)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v35)) (after ops V (Proc.devRef .tc main_v61)) :=
  good.at_binary (a := main_v35) (b := main_v61) (y := main_v62) rfl (by decide) (by decide) (by decide) V

theorem after_v63 (V : Valuation τ sig (Elt F)) :
    after ops V (Proc.devRef .tc main_v63)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v60)) (after ops V (Proc.devRef .tc main_v62)) (after ops V (Proc.devRef .tc main_v35)) :=
  good.at_ternary (c := main_v60) (a := main_v62) (b := main_v35) (y := main_v63) rfl (by decide) (by decide) (by decide) (by decide) V

theorem after_v64 (V : Valuation τ sig (Elt F)) :
    after ops V (Proc.devRef .tc main_v64)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v58)) :=
  good.at_unary (x := main_v58) (y := main_v64) rfl (by decide) (by decide) V

theorem after_v65 (V : Valuation τ sig (Elt F)) :
    after ops V (Proc.devRef .tc main_v65)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v63)) :=
  good.at_unary (x := main_v63) (y := main_v65) rfl (by decide) (by decide) V

theorem after_v66 (V : Valuation τ sig (Elt F)) :
    after ops V (Proc.devRef .tc main_v66)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v64)) (after ops V (Proc.devRef .tc main_v65)) :=
  good.at_binary (a := main_v64) (b := main_v65) (y := main_v66) rfl (by decide) (by decide) (by decide) V

theorem after_v67 (V : Valuation τ sig (Elt F)) :
    after ops V (Proc.devRef .tc main_v67)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg1)) (after ops V (Proc.devRef .tc main_v66)) :=
  good.at_binary (a := main_arg1) (b := main_v66) (y := main_v67) rfl (by decide) (by decide) (by decide) V

theorem after_c_25 (V : Valuation τ sig (Elt F)) :
    after ops V (Proc.devRef .tc main_c_25)
      = ((constantI S_ 32 0#32) : (⟨S_, .i32⟩ : BufTy).Contents (Elt F)) :=
  good.at_nullary (y := main_c_25) rfl (by decide) V

theorem after_v68 (V : Valuation τ sig (Elt F)) :
    after ops V (Proc.devRef .tc main_v68)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_25)) :=
  good.at_unary (x := main_c_25) (y := main_v68) rfl (by decide) (by decide) V

theorem after_v69 (V : Valuation τ sig (Elt F)) :
    after ops V (Proc.devRef .tc main_v69)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v39)) (after ops V (Proc.devRef .tc main_v68)) :=
  good.at_binary (a := main_v39) (b := main_v68) (y := main_v69) rfl (by decide) (by decide) (by decide) V

theorem after_c_26 (V : Valuation τ sig (Elt F)) :
    after ops V (Proc.devRef .tc main_c_26)
      = ((constantI S_ 32 512#32) : (⟨S_, .i32⟩ : BufTy).Contents (Elt F)) :=
  good.at_nullary (y := main_c_26) rfl (by decide) V

theorem after_v70 (V : Valuation τ sig (Elt F)) :
    after ops V (Proc.devRef .tc main_v70)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_26)) :=
  good.at_unary (x := main_c_26) (y := main_v70) rfl (by decide) (by decide) V

theorem after_v71 (V : Valuation τ sig (Elt F)) :
    after ops V (Proc.devRef .tc main_v71)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v39)) (after ops V (Proc.devRef .tc main_v70)) :=
  good.at_binary (a := main_v39) (b := main_v70) (y := main_v71) rfl (by decide) (by decide) (by decide) V

theorem after_v72 (V : Valuation τ sig (Elt F)) :
    after ops V (Proc.devRef .tc main_v72)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v69)) (after ops V (Proc.devRef .tc main_v71)) (after ops V (Proc.devRef .tc main_v39)) :=
  good.at_ternary (c := main_v69) (a := main_v71) (b := main_v39) (y := main_v72) rfl (by decide) (by decide) (by decide) (by decide) V

theorem after_c_27 (V : Valuation τ sig (Elt F)) :
    after ops V (Proc.devRef .tc main_c_27)
      = ((constantI S_ 32 0#32) : (⟨S_, .i32⟩ : BufTy).Contents (Elt F)) :=
  good.at_nullary (y := main_c_27) rfl (by decide) V

theorem after_v73 (V : Valuation τ sig (Elt F)) :
    after ops V (Proc.devRef .tc main_v73)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_27)) :=
  good.at_unary (x := main_c_27) (y := main_v73) rfl (by decide) (by decide) V

theorem after_v74 (V : Valuation τ sig (Elt F)) :
    after ops V (Proc.devRef .tc main_v74)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v30)) (after ops V (Proc.devRef .tc main_v73)) :=
  good.at_binary (a := main_v30) (b := main_v73) (y := main_v74) rfl (by decide) (by decide) (by decide) V

theorem after_c_28 (V : Valuation τ sig (Elt F)) :
    after ops V (Proc.devRef .tc main_c_28)
      = ((constantI S_ 32 512#32) : (⟨S_, .i32⟩ : BufTy).Contents (Elt F)) :=
  good.at_nullary (y := main_c_28) rfl (by decide) V

theorem after_v75 (V : Valuation τ sig (Elt F)) :
    after ops V (Proc.devRef .tc main_v75)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_28)) :=
  good.at_unary (x := main_c_28) (y := main_v75) rfl (by decide) (by decide) V

theorem after_v76 (V : Valuation τ sig (Elt F)) :
    after ops V (Proc.devRef .tc main_v76)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v30)) (after ops V (Proc.devRef .tc main_v75)) :=
  good.at_binary (a := main_v30) (b := main_v75) (y := main_v76) rfl (by decide) (by decide) (by decide) V

theorem after_v77 (V : Valuation τ sig (Elt F)) :
    after ops V (Proc.devRef .tc main_v77)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v74)) (after ops V (Proc.devRef .tc main_v76)) (after ops V (Proc.devRef .tc main_v30)) :=
  good.at_ternary (c := main_v74) (a := main_v76) (b := main_v30) (y := main_v77) rfl (by decide) (by decide) (by decide) (by decide) V

theorem after_v78 (V : Valuation τ sig (Elt F)) :
    after ops V (Proc.devRef .tc main_v78)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v72)) :=
  good.at_unary (x := main_v72) (y := main_v78) rfl (by decide) (by decide) V

theorem after_v79 (V : Valuation τ sig (Elt F)) :
    after ops V (Proc.devRef .tc main_v79)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v77)) :=
  good.at_unary (x := main_v77) (y := main_v79) rfl (by decide) (by decide) V

theorem after_v80 (V : Valuation τ sig (Elt F)) :
    after ops V (Proc.devRef .tc main_v80)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v78)) (after ops V (Proc.devRef .tc main_v79)) :=
  good.at_binary (a := main_v78) (b := main_v79) (y := main_v80) rfl (by decide) (by decide) (by decide) V

theorem after_v81 (V : Valuation τ sig (Elt F)) :
    after ops V (Proc.devRef .tc main_v81)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg1)) (after ops V (Proc.devRef .tc main_v80)) :=
  good.at_binary (a := main_arg1) (b := main_v80) (y := main_v81) rfl (by decide) (by decide) (by decide) V

theorem after_c_29 (V : Valuation τ sig (Elt F)) :
    after ops V (Proc.devRef .tc main_c_29)
      = ((constantI S_ 32 0#32) : (⟨S_, .i32⟩ : BufTy).Contents (Elt F)) :=
  good.at_nullary (y := main_c_29) rfl (by decide) V

theorem after_v82 (V : Valuation τ sig (Elt F)) :
    after ops V (Proc.devRef .tc main_v82)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_29)) :=
  good.at_unary (x := main_c_29) (y := main_v82) rfl (by decide) (by decide) V

theorem after_v83 (V : Valuation τ sig (Elt F)) :
    after ops V (Proc.devRef .tc main_v83)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v39)) (after ops V (Proc.devRef .tc main_v82)) :=
  good.at_binary (a := main_v39) (b := main_v82) (y := main_v83) rfl (by decide) (by decide) (by decide) V

theorem after_c_30 (V : Valuation τ sig (Elt F)) :
    after ops V (Proc.devRef .tc main_c_30)
      = ((constantI S_ 32 512#32) : (⟨S_, .i32⟩ : BufTy).Contents (Elt F)) :=
  good.at_nullary (y := main_c_30) rfl (by decide) V

theorem after_v84 (V : Valuation τ sig (Elt F)) :
    after ops V (Proc.devRef .tc main_v84)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_30)) :=
  good.at_unary (x := main_c_30) (y := main_v84) rfl (by decide) (by decide) V

theorem after_v85 (V : Valuation τ sig (Elt F)) :
    after ops V (Proc.devRef .tc main_v85)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v39)) (after ops V (Proc.devRef .tc main_v84)) :=
  good.at_binary (a := main_v39) (b := main_v84) (y := main_v85) rfl (by decide) (by decide) (by decide) V

theorem after_v86 (V : Valuation τ sig (Elt F)) :
    after ops V (Proc.devRef .tc main_v86)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v83)) (after ops V (Proc.devRef .tc main_v85)) (after ops V (Proc.devRef .tc main_v39)) :=
  good.at_ternary (c := main_v83) (a := main_v85) (b := main_v39) (y := main_v86) rfl (by decide) (by decide) (by decide) (by decide) V

end Cert.ReferenceIdeal.HandRun

end
-- ==== Proof.RefEqs2.lean ====
/- The reference program's line read one operation at a time, window 2: for each operation of the window, the buffer it
   writes holds, after the WHOLE line, the operation's function of what its operand buffers hold after the whole line —
   every value is defined once, before its uses, so nothing later in the line touches either side. One equation per
   operation, named after the buffer; a call's operations are read over the call's buffers, where a value moved through a
   typed reference is the value. -/
import proofs.«114771_j71983651881269_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_c_31 (V : Valuation τ sig (Elt F)) :
    after ops V (Proc.devRef .tc main_c_31)
      = ((constantI S_ 32 0#32) : (⟨S_, .i32⟩ : BufTy).Contents (Elt F)) :=
  good.at_nullary (y := main_c_31) rfl (by decide) V

theorem after_v87 (V : Valuation τ sig (Elt F)) :
    after ops V (Proc.devRef .tc main_v87)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_31)) :=
  good.at_unary (x := main_c_31) (y := main_v87) rfl (by decide) (by decide) V

theorem after_v88 (V : Valuation τ sig (Elt F)) :
    after ops V (Proc.devRef .tc main_v88)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v35)) (after ops V (Proc.devRef .tc main_v87)) :=
  good.at_binary (a := main_v35) (b := main_v87) (y := main_v88) rfl (by decide) (by decide) (by decide) V

theorem after_c_32 (V : Valuation τ sig (Elt F)) :
    after ops V (Proc.devRef .tc main_c_32)
      = ((constantI S_ 32 512#32) : (⟨S_, .i32⟩ : BufTy).Contents (Elt F)) :=
  good.at_nullary (y := main_c_32) rfl (by decide) V

theorem after_v89 (V : Valuation τ sig (Elt F)) :
    after ops V (Proc.devRef .tc main_v89)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_32)) :=
  good.at_unary (x := main_c_32) (y := main_v89) rfl (by decide) (by decide) V

theorem after_v90 (V : Valuation τ sig (Elt F)) :
    after ops V (Proc.devRef .tc main_v90)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v35)) (after ops V (Proc.devRef .tc main_v89)) :=
  good.at_binary (a := main_v35) (b := main_v89) (y := main_v90) rfl (by decide) (by decide) (by decide) V

theorem after_v91 (V : Valuation τ sig (Elt F)) :
    after ops V (Proc.devRef .tc main_v91)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v88)) (after ops V (Proc.devRef .tc main_v90)) (after ops V (Proc.devRef .tc main_v35)) :=
  good.at_ternary (c := main_v88) (a := main_v90) (b := main_v35) (y := main_v91) rfl (by decide) (by decide) (by decide) (by decide) V

theorem after_v92 (V : Valuation τ sig (Elt F)) :
    after ops V (Proc.devRef .tc main_v92)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v86)) :=
  good.at_unary (x := main_v86) (y := main_v92) rfl (by decide) (by decide) V

theorem after_v93 (V : Valuation τ sig (Elt F)) :
    after ops V (Proc.devRef .tc main_v93)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v91)) :=
  good.at_unary (x := main_v91) (y := main_v93) rfl (by decide) (by decide) V

theorem after_v94 (V : Valuation τ sig (Elt F)) :
    after ops V (Proc.devRef .tc main_v94)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v92)) (after ops V (Proc.devRef .tc main_v93)) :=
  good.at_binary (a := main_v92) (b := main_v93) (y := main_v94) rfl (by decide) (by decide) (by decide) V

theorem after_v95 (V : Valuation τ sig (Elt F)) :
    after ops V (Proc.devRef .tc main_v95)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg1)) (after ops V (Proc.devRef .tc main_v94)) :=
  good.at_binary (a := main_arg1) (b := main_v94) (y := main_v95) rfl (by decide) (by decide) (by decide) V

theorem after_v96 (V : Valuation τ sig (Elt F)) :
    after ops V (Proc.devRef .tc main_v96)
      = ((subf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v67)) (after ops V (Proc.devRef .tc main_v53)) :=
  good.at_binary (a := main_v67) (b := main_v53) (y := main_v96) rfl (by decide) (by decide) (by decide) V

theorem after_v97 (V : Valuation τ sig (Elt F)) :
    after ops V (Proc.devRef .tc main_v97)
      = ((broadcastInDim S4000000x8 ![0, 1] bcast_S4000000x1_S4000000x8_0_1 : (⟨S4000000x1, .f32⟩ : BufTy).Contents (Elt F) → (⟨S4000000x8, .f32⟩ : BufTy).Contents (Elt F)) : (⟨S4000000x1, .f32⟩ : BufTy).Contents (Elt F) → (⟨S4000000x8, .f32⟩ : BufTy).Contents (Elt F))
        (after ops V (Proc.devRef .tc main_v27)) :=
  good.at_unary (x := main_v27) (y := main_v97) rfl (by decide) (by decide) V

theorem after_v98 (V : Valuation τ sig (Elt F)) :
    after ops V (Proc.devRef .tc main_v98)
      = ((mulf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v97)) (after ops V (Proc.devRef .tc main_v96)) :=
  good.at_binary (a := main_v97) (b := main_v96) (y := main_v98) rfl (by decide) (by decide) (by decide) V

theorem after_v99 (V : Valuation τ sig (Elt F)) :
    after ops V (Proc.devRef .tc main_v99)
      = ((addf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v53)) (after ops V (Proc.devRef .tc main_v98)) :=
  good.at_binary (a := main_v53) (b := main_v98) (y := main_v99) rfl (by decide) (by decide) (by decide) V

theorem after_v100 (V : Valuation τ sig (Elt F)) :
    after ops V (Proc.devRef .tc main_v100)
      = ((subf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v95)) (after ops V (Proc.devRef .tc main_v81)) :=
  good.at_binary (a := main_v95) (b := main_v81) (y := main_v100) rfl (by decide) (by decide) (by decide) V

theorem after_v101 (V : Valuation τ sig (Elt F)) :
    after ops V (Proc.devRef .tc main_v101)
      = ((broadcastInDim S4000000x8 ![0, 1] bcast_S4000000x1_S4000000x8_0_1 : (⟨S4000000x1, .f32⟩ : BufTy).Contents (Elt F) → (⟨S4000000x8, .f32⟩ : BufTy).Contents (Elt F)) : (⟨S4000000x1, .f32⟩ : BufTy).Contents (Elt F) → (⟨S4000000x8, .f32⟩ : BufTy).Contents (Elt F))
        (after ops V (Proc.devRef .tc main_v27)) :=
  good.at_unary (x := main_v27) (y := main_v101) rfl (by decide) (by decide) V

theorem after_v102 (V : Valuation τ sig (Elt F)) :
    after ops V (Proc.devRef .tc main_v102)
      = ((mulf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v101)) (after ops V (Proc.devRef .tc main_v100)) :=
  good.at_binary (a := main_v101) (b := main_v100) (y := main_v102) rfl (by decide) (by decide) (by decide) V

theorem after_v103 (V : Valuation τ sig (Elt F)) :
    after ops V (Proc.devRef .tc main_v103)
      = ((addf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v81)) (after ops V (Proc.devRef .tc main_v102)) :=
  good.at_binary (a := main_v81) (b := main_v102) (y := main_v103) rfl (by decide) (by decide) (by decide) V

theorem after_v104 (V : Valuation τ sig (Elt F)) :
    after ops V (Proc.devRef .tc main_v104)
      = ((subf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v103)) (after ops V (Proc.devRef .tc main_v99)) :=
  good.at_binary (a := main_v103) (b := main_v99) (y := main_v104) rfl (by decide) (by decide) (by decide) V

theorem after_v105 (V : Valuation τ sig (Elt F)) :
    after ops V (Proc.devRef .tc main_v105)
      = ((broadcastInDim S4000000x8 ![0, 1] bcast_S4000000x1_S4000000x8_0_1 : (⟨S4000000x1, .f32⟩ : BufTy).Contents (Elt F) → (⟨S4000000x8, .f32⟩ : BufTy).Contents (Elt F)) : (⟨S4000000x1, .f32⟩ : BufTy).Contents (Elt F) → (⟨S4000000x8, .f32⟩ : BufTy).Contents (Elt F))
        (after ops V (Proc.devRef .tc main_v29)) :=
  good.at_unary (x := main_v29) (y := main_v105) rfl (by decide) (by decide) V

theorem after_v106 (V : Valuation τ sig (Elt F)) :
    after ops V (Proc.devRef .tc main_v106)
      = ((mulf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v105)) (after ops V (Proc.devRef .tc main_v104)) :=
  good.at_binary (a := main_v105) (b := main_v104) (y := main_v106) rfl (by decide) (by decide) (by decide) V

theorem after_c_33 (V : Valuation τ sig (Elt F)) :
    after ops V (Proc.devRef .tc main_c_33)
      = ((constantI S_ 32 0#32) : (⟨S_, .i32⟩ : BufTy).Contents (Elt F)) :=
  good.at_nullary (y := main_c_33) rfl (by decide) V

theorem after_v108 (V : Valuation τ sig (Elt F)) :
    after ops V (Proc.devRef .tc main_v108)
      = ((broadcastInDim S2 ![] bcast_S_S2 : (⟨S_, .i32⟩ : BufTy).Contents (Elt F) → (⟨S2, .i32⟩ : BufTy).Contents (Elt F)) : (⟨S_, .i32⟩ : BufTy).Contents (Elt F) → (⟨S2, .i32⟩ : BufTy).Contents (Elt F))
        (after ops V (Proc.devRef .tc main_c_33)) :=
  good.at_unary (x := main_c_33) (y := main_v108) rfl (by decide) (by decide) V

theorem after_v109 (V : Valuation τ sig (Elt F)) :
    after ops V (Proc.devRef .tc main_v109)
      = ((cmpi .slt : (⟨S2, .i32⟩ : BufTy).Contents (Elt F) → (⟨S2, .i32⟩ : BufTy).Contents (Elt F) → (⟨S2, .i1⟩ : BufTy).Contents (Elt F)) : (⟨S2, .i32⟩ : BufTy).Contents (Elt F) → (⟨S2, .i32⟩ : BufTy).Contents (Elt F) → (⟨S2, .i1⟩ : BufTy).Contents (Elt F))
        (after ops V (Proc.devRef .tc main_c)) (after ops V (Proc.devRef .tc main_v108)) :=
  good.at_binary (a := main_c) (b := main_v108) (y := main_v109) rfl (by decide) (by decide) (by decide) V

theorem after_c_34 (V : Valuation τ sig (Elt F)) :
    after ops V (Proc.devRef .tc main_c_34)
      = ((constantI S_ 32 3#32) : (⟨S_, .i32⟩ : BufTy).Contents (Elt F)) :=
  good.at_nullary (y := main_c_34) rfl (by decide) V

theorem after_v110 (V : Valuation τ sig (Elt F)) :
    after ops V (Proc.devRef .tc main_v110)
      = ((broadcastInDim S2 ![] bcast_S_S2 : (⟨S_, .i32⟩ : BufTy).Contents (Elt F) → (⟨S2, .i32⟩ : BufTy).Contents (Elt F)) : (⟨S_, .i32⟩ : BufTy).Contents (Elt F) → (⟨S2, .i32⟩ : BufTy).Contents (Elt F))
        (after ops V (Proc.devRef .tc main_c_34)) :=
  good.at_unary (x := main_c_34) (y := main_v110) rfl (by decide) (by decide) V

theorem after_v111 (V : Valuation τ sig (Elt F)) :
    after ops V (Proc.devRef .tc main_v111)
      = ((addi : (⟨S2, .i32⟩ : BufTy).Contents (Elt F) → (⟨S2, .i32⟩ : BufTy).Contents (Elt F) → (⟨S2, .i32⟩ : BufTy).Contents (Elt F)) : (⟨S2, .i32⟩ : BufTy).Contents (Elt F) → (⟨S2, .i32⟩ : BufTy).Contents (Elt F) → (⟨S2, .i32⟩ : BufTy).Contents (Elt F))
        (after ops V (Proc.devRef .tc main_c)) (after ops V (Proc.devRef .tc main_v110)) :=
  good.at_binary (a := main_c) (b := main_v110) (y := main_v111) rfl (by decide) (by decide) (by decide) V

theorem after_v112 (V : Valuation τ sig (Elt F)) :
    after ops V (Proc.devRef .tc main_v112)
      = ((select : (⟨S2, .i1⟩ : BufTy).Contents (Elt F) → (⟨S2, .i32⟩ : BufTy).Contents (Elt F) → (⟨S2, .i32⟩ : BufTy).Contents (Elt F) → (⟨S2, .i32⟩ : BufTy).Contents (Elt F)) : (⟨S2, .i1⟩ : BufTy).Contents (Elt F) → (⟨S2, .i32⟩ : BufTy).Contents (Elt F) → (⟨S2, .i32⟩ : BufTy).Contents (Elt F) → (⟨S2, .i32⟩ : BufTy).Contents (Elt F))
        (after ops V (Proc.devRef .tc main_v109)) (after ops V (Proc.devRef .tc main_v111)) (after ops V (Proc.devRef .tc main_c)) :=
  good.at_ternary (c := main_v109) (a := main_v111) (b := main_c) (y := main_v112) rfl (by decide) (by decide) (by decide) (by decide) V

theorem after_v113 (V : Valuation τ sig (Elt F)) :
    after ops V (Proc.devRef .tc main_v113)
      = ((broadcastInDim S2x1 ![0] bcast_S2_S2x1_0 : (⟨S2, .i32⟩ : BufTy).Contents (Elt F) → (⟨S2x1, .i32⟩ : BufTy).Contents (Elt F)) : (⟨S2, .i32⟩ : BufTy).Contents (Elt F) → (⟨S2x1, .i32⟩ : BufTy).Contents (Elt F))
        (after ops V (Proc.devRef .tc main_v112)) :=
  good.at_unary (x := main_v112) (y := main_v113) rfl (by decide) (by decide) V

theorem after_v114 (V : Valuation τ sig (Elt F)) :
    after ops V (Proc.devRef .tc main_v114)
      = (((fun x i => Host.gather gather_S4000000x3_S2x1_S4000000x2_0_1_n_n_1_1_40000001 x i) : (⟨S4000000x3, .f32⟩ : BufTy).Contents (Elt F) → (⟨S2x1, .i32⟩ : BufTy).Contents (Elt F) → (⟨S4000000x2, .f32⟩ : BufTy).Contents (Elt F)) : (⟨S4000000x3, .f32⟩ : BufTy).Contents (Elt F) → (⟨S2x1, .i32⟩ : BufTy).Contents (Elt F) → (⟨S4000000x2, .f32⟩ : BufTy).Contents (Elt F))
        (after ops V (Proc.devRef .tc main_v0)) (after ops V (Proc.devRef .tc main_v113)) :=
  good.at_binary (a := main_v0) (b := main_v113) (y := main_v114) rfl (by decide) (by decide) (by decide) V

theorem after_v115 (V : Valuation τ sig (Elt F)) :
    after ops V (Proc.devRef .tc main_v115)
      = (((extractStridedSlice S4000000x1 ![0, 0] · slices_S4000000x2_S4000000x1_0_0) : (⟨S4000000x2, .f32⟩ : BufTy).Contents (Elt F) → (⟨S4000000x1, .f32⟩ : BufTy).Contents (Elt F)) : (⟨S4000000x2, .f32⟩ : BufTy).Contents (Elt F) → (⟨S4000000x1, .f32⟩ : BufTy).Contents (Elt F))
        (after ops V (Proc.devRef .tc main_v114)) :=
  good.at_unary (x := main_v114) (y := main_v115) rfl (by decide) (by decide) V

theorem after_v116 (V : Valuation τ sig (Elt F)) :
    after ops V (Proc.devRef .tc main_v116)
      = (shapeCast S4000000 (after ops V (Proc.devRef .tc main_v115)) shapeCasts_S4000000x1_S4000000 : (⟨S4000000, .f32⟩ : BufTy).Contents (Elt F)) :=
  good.at_reshape (x := main_v115) (y := main_v116) rfl (by decide) (by decide) V

theorem after_cst_35 (V : Valuation τ sig (Elt F)) :
    after ops V (Proc.devRef .tc main_cst_35)
      = ((constant S_ .f32 0x3F800000#32) : (⟨S_, .f32⟩ : BufTy).Contents (Elt F)) :=
  good.at_nullary (y := main_cst_35) rfl (by decide) V

theorem after_v117 (V : Valuation τ sig (Elt F)) :
    after ops V (Proc.devRef .tc main_v117)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_35)) :=
  good.at_unary (x := main_cst_35) (y := main_v117) rfl (by decide) (by decide) V

theorem after_v118 (V : Valuation τ sig (Elt F)) :
    after ops V (Proc.devRef .tc main_v118)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v116)) (after ops V (Proc.devRef .tc main_v117)) :=
  good.at_binary (a := main_v116) (b := main_v117) (y := main_v118) rfl (by decide) (by decide) (by decide) V

theorem after_cst_36 (V : Valuation τ sig (Elt F)) :
    after ops V (Proc.devRef .tc main_cst_36)
      = ((constant S_ .f32 0x44000000#32) : (⟨S_, .f32⟩ : BufTy).Contents (Elt F)) :=
  good.at_nullary (y := main_cst_36) rfl (by decide) V

theorem after_v119 (V : Valuation τ sig (Elt F)) :
    after ops V (Proc.devRef .tc main_v119)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_36)) :=
  good.at_unary (x := main_cst_36) (y := main_v119) rfl (by decide) (by decide) V

theorem after_v120 (V : Valuation τ sig (Elt F)) :
    after ops V (Proc.devRef .tc main_v120)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v118)) (after ops V (Proc.devRef .tc main_v119)) :=
  good.at_binary (a := main_v118) (b := main_v119) (y := main_v120) rfl (by decide) (by decide) (by decide) V

theorem after_cst_37 (V : Valuation τ sig (Elt F)) :
    after ops V (Proc.devRef .tc main_cst_37)
      = ((constant S_ .f32 0x3F800000#32) : (⟨S_, .f32⟩ : BufTy).Contents (Elt F)) :=
  good.at_nullary (y := main_cst_37) rfl (by decide) V

theorem after_v121 (V : Valuation τ sig (Elt F)) :
    after ops V (Proc.devRef .tc main_v121)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_37)) :=
  good.at_unary (x := main_cst_37) (y := main_v121) rfl (by decide) (by decide) V

theorem after_v122 (V : Valuation τ sig (Elt F)) :
    after ops V (Proc.devRef .tc main_v122)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v120)) (after ops V (Proc.devRef .tc main_v121)) :=
  good.at_binary (a := main_v120) (b := main_v121) (y := main_v122) rfl (by decide) (by decide) (by decide) V

theorem after_cst_38 (V : Valuation τ sig (Elt F)) :
    after ops V (Proc.devRef .tc main_cst_38)
      = ((constant S_ .f32 0x3F000000#32) : (⟨S_, .f32⟩ : BufTy).Contents (Elt F)) :=
  good.at_nullary (y := main_cst_38) rfl (by decide) V

theorem after_v123 (V : Valuation τ sig (Elt F)) :
    after ops V (Proc.devRef .tc main_v123)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_38)) :=
  good.at_unary (x := main_cst_38) (y := main_v123) rfl (by decide) (by decide) V

theorem after_v124 (V : Valuation τ sig (Elt F)) :
    after ops V (Proc.devRef .tc main_v124)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v122)) (after ops V (Proc.devRef .tc main_v123)) :=
  good.at_binary (a := main_v122) (b := main_v123) (y := main_v124) rfl (by decide) (by decide) (by decide) V

theorem after_cst_39 (V : Valuation τ sig (Elt F)) :
    after ops V (Proc.devRef .tc main_cst_39)
      = ((constant S_ .f32 0x00000000#32) : (⟨S_, .f32⟩ : BufTy).Contents (Elt F)) :=
  good.at_nullary (y := main_cst_39) rfl (by decide) V

theorem after_cst_40 (V : Valuation τ sig (Elt F)) :
    after ops V (Proc.devRef .tc main_cst_40)
      = ((constant S_ .f32 0x43FF8000#32) : (⟨S_, .f32⟩ : BufTy).Contents (Elt F)) :=
  good.at_nullary (y := main_cst_40) rfl (by decide) V

theorem after_call3_v0 (V : Valuation τ sig (Elt F)) :
    after ops V (Proc.devRef .tc main_call3_v0)
      = (id : (⟨S_, .f32⟩ : BufTy).Contents (Elt F) → (⟨S_, .f32⟩ : BufTy).Contents (Elt F))
        (after ops V (Proc.devRef .tc main_cst_39)) :=
  good.at_unary (x := main_cst_39) (y := main_call3_v0) rfl (by decide) (by decide) V

theorem after_call3_v1 (V : Valuation τ sig (Elt F)) :
    after ops V (Proc.devRef .tc main_call3_v1)
      = ((broadcastInDim S4000000 ![] bcast_S_S4000000) : (⟨S_, .f32⟩ : BufTy).Contents (Elt F) → (⟨S4000000, .f32⟩ : BufTy).Contents (Elt F))
        (after ops V (Proc.devRef .tc main_call3_v0)) :=
  good.at_unary (x := main_call3_v0) (y := main_call3_v1) rfl (by decide) (by decide) V

theorem after_call3_v2 (V : Valuation τ sig (Elt F)) :
    after ops V (Proc.devRef .tc main_call3_v2)
      = (maximumf : (⟨S4000000, .f32⟩ : BufTy).Contents (Elt F) → (⟨S4000000, .f32⟩ : BufTy).Contents (Elt F) → (⟨S4000000, .f32⟩ : BufTy).Contents (Elt F))
        (after ops V (Proc.devRef .tc main_call3_v1)) (after ops V (Proc.devRef .tc main_v124)) :=
  good.at_binary (a := main_call3_v1) (b := main_v124) (y := main_call3_v2) rfl (by decide) (by decide) (by decide) V

theorem after_call3_v3 (V : Valuation τ sig (Elt F)) :
    after ops V (Proc.devRef .tc main_call3_v3)
      = (id : (⟨S_, .f32⟩ : BufTy).Contents (Elt F) → (⟨S_, .f32⟩ : BufTy).Contents (Elt F))
        (after ops V (Proc.devRef .tc main_cst_40)) :=
  good.at_unary (x := main_cst_40) (y := main_call3_v3) rfl (by decide) (by decide) V

theorem after_call3_v4 (V : Valuation τ sig (Elt F)) :
    after ops V (Proc.devRef .tc main_call3_v4)
      = ((broadcastInDim S4000000 ![] bcast_S_S4000000) : (⟨S_, .f32⟩ : BufTy).Contents (Elt F) → (⟨S4000000, .f32⟩ : BufTy).Contents (Elt F))
        (after ops V (Proc.devRef .tc main_call3_v3)) :=
  good.at_unary (x := main_call3_v3) (y := main_call3_v4) rfl (by decide) (by decide) V

theorem after_v125 (V : Valuation τ sig (Elt F)) :
    after ops V (Proc.devRef .tc main_v125)
      = (minimumf : (⟨S4000000, .f32⟩ : BufTy).Contents (Elt F) → (⟨S4000000, .f32⟩ : BufTy).Contents (Elt F) → (⟨S4000000, .f32⟩ : BufTy).Contents (Elt F))
        (after ops V (Proc.devRef .tc main_call3_v4)) (after ops V (Proc.devRef .tc main_call3_v2)) :=
  good.at_binary (a := main_call3_v4) (b := main_call3_v2) (y := main_v125) rfl (by decide) (by decide) (by decide) V

theorem after_v126 (V : Valuation τ sig (Elt F)) :
    after ops V (Proc.devRef .tc main_v126)
      = (((extractStridedSlice S4000000x1 ![0, 1] · slices_S4000000x2_S4000000x1_0_1) : (⟨S4000000x2, .f32⟩ : BufTy).Contents (Elt F) → (⟨S4000000x1, .f32⟩ : BufTy).Contents (Elt F)) : (⟨S4000000x2, .f32⟩ : BufTy).Contents (Elt F) → (⟨S4000000x1, .f32⟩ : BufTy).Contents (Elt F))
        (after ops V (Proc.devRef .tc main_v114)) :=
  good.at_unary (x := main_v114) (y := main_v126) rfl (by decide) (by decide) V

theorem after_v127 (V : Valuation τ sig (Elt F)) :
    after ops V (Proc.devRef .tc main_v127)
      = (shapeCast S4000000 (after ops V (Proc.devRef .tc main_v126)) shapeCasts_S4000000x1_S4000000 : (⟨S4000000, .f32⟩ : BufTy).Contents (Elt F)) :=
  good.at_reshape (x := main_v126) (y := main_v127) rfl (by decide) (by decide) V

theorem after_cst_41 (V : Valuation τ sig (Elt F)) :
    after ops V (Proc.devRef .tc main_cst_41)
      = ((constant S_ .f32 0x3F800000#32) : (⟨S_, .f32⟩ : BufTy).Contents (Elt F)) :=
  good.at_nullary (y := main_cst_41) rfl (by decide) V

theorem after_v128 (V : Valuation τ sig (Elt F)) :
    after ops V (Proc.devRef .tc main_v128)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_41)) :=
  good.at_unary (x := main_cst_41) (y := main_v128) rfl (by decide) (by decide) V

theorem after_v129 (V : Valuation τ sig (Elt F)) :
    after ops V (Proc.devRef .tc main_v129)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v127)) (after ops V (Proc.devRef .tc main_v128)) :=
  good.at_binary (a := main_v127) (b := main_v128) (y := main_v129) rfl (by decide) (by decide) (by decide) V

theorem after_cst_42 (V : Valuation τ sig (Elt F)) :
    after ops V (Proc.devRef .tc main_cst_42)
      = ((constant S_ .f32 0x44000000#32) : (⟨S_, .f32⟩ : BufTy).Contents (Elt F)) :=
  good.at_nullary (y := main_cst_42) rfl (by decide) V

theorem after_v130 (V : Valuation τ sig (Elt F)) :
    after ops V (Proc.devRef .tc main_v130)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_42)) :=
  good.at_unary (x := main_cst_42) (y := main_v130) rfl (by decide) (by decide) V

theorem after_v131 (V : Valuation τ sig (Elt F)) :
    after ops V (Proc.devRef .tc main_v131)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v129)) (after ops V (Proc.devRef .tc main_v130)) :=
  good.at_binary (a := main_v129) (b := main_v130) (y := main_v131) rfl (by decide) (by decide) (by decide) V

theorem after_cst_43 (V : Valuation τ sig (Elt F)) :
    after ops V (Proc.devRef .tc main_cst_43)
      = ((constant S_ .f32 0x3F800000#32) : (⟨S_, .f32⟩ : BufTy).Contents (Elt F)) :=
  good.at_nullary (y := main_cst_43) rfl (by decide) V

theorem after_v132 (V : Valuation τ sig (Elt F)) :
    after ops V (Proc.devRef .tc main_v132)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_43)) :=
  good.at_unary (x := main_cst_43) (y := main_v132) rfl (by decide) (by decide) V

theorem after_v133 (V : Valuation τ sig (Elt F)) :
    after ops V (Proc.devRef .tc main_v133)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v131)) (after ops V (Proc.devRef .tc main_v132)) :=
  good.at_binary (a := main_v131) (b := main_v132) (y := main_v133) rfl (by decide) (by decide) (by decide) V

end Cert.ReferenceIdeal.HandRun

end
-- ==== Proof.RefEqs3.lean ====
/- The reference program's line read one operation at a time, window 3: for each operation of the window, the buffer it
   writes holds, after the WHOLE line, the operation's function of what its operand buffers hold after the whole line —
   every value is defined once, before its uses, so nothing later in the line touches either side. One equation per
   operation, named after the buffer; a call's operations are read over the call's buffers, where a value moved through a
   typed reference is the value. -/
import proofs.«114771_j71983651881269_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_cst_44 (V : Valuation τ sig (Elt F)) :
    after ops V (Proc.devRef .tc main_cst_44)
      = ((constant S_ .f32 0x3F000000#32) : (⟨S_, .f32⟩ : BufTy).Contents (Elt F)) :=
  good.at_nullary (y := main_cst_44) rfl (by decide) V

theorem after_v134 (V : Valuation τ sig (Elt F)) :
    after ops V (Proc.devRef .tc main_v134)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_44)) :=
  good.at_unary (x := main_cst_44) (y := main_v134) rfl (by decide) (by decide) V

theorem after_v135 (V : Valuation τ sig (Elt F)) :
    after ops V (Proc.devRef .tc main_v135)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v133)) (after ops V (Proc.devRef .tc main_v134)) :=
  good.at_binary (a := main_v133) (b := main_v134) (y := main_v135) rfl (by decide) (by decide) (by decide) V

theorem after_cst_45 (V : Valuation τ sig (Elt F)) :
    after ops V (Proc.devRef .tc main_cst_45)
      = ((constant S_ .f32 0x00000000#32) : (⟨S_, .f32⟩ : BufTy).Contents (Elt F)) :=
  good.at_nullary (y := main_cst_45) rfl (by decide) V

theorem after_cst_46 (V : Valuation τ sig (Elt F)) :
    after ops V (Proc.devRef .tc main_cst_46)
      = ((constant S_ .f32 0x43FF8000#32) : (⟨S_, .f32⟩ : BufTy).Contents (Elt F)) :=
  good.at_nullary (y := main_cst_46) rfl (by decide) V

theorem after_call4_v0 (V : Valuation τ sig (Elt F)) :
    after ops V (Proc.devRef .tc main_call4_v0)
      = (id : (⟨S_, .f32⟩ : BufTy).Contents (Elt F) → (⟨S_, .f32⟩ : BufTy).Contents (Elt F))
        (after ops V (Proc.devRef .tc main_cst_45)) :=
  good.at_unary (x := main_cst_45) (y := main_call4_v0) rfl (by decide) (by decide) V

theorem after_call4_v1 (V : Valuation τ sig (Elt F)) :
    after ops V (Proc.devRef .tc main_call4_v1)
      = ((broadcastInDim S4000000 ![] bcast_S_S4000000) : (⟨S_, .f32⟩ : BufTy).Contents (Elt F) → (⟨S4000000, .f32⟩ : BufTy).Contents (Elt F))
        (after ops V (Proc.devRef .tc main_call4_v0)) :=
  good.at_unary (x := main_call4_v0) (y := main_call4_v1) rfl (by decide) (by decide) V

theorem after_call4_v2 (V : Valuation τ sig (Elt F)) :
    after ops V (Proc.devRef .tc main_call4_v2)
      = (maximumf : (⟨S4000000, .f32⟩ : BufTy).Contents (Elt F) → (⟨S4000000, .f32⟩ : BufTy).Contents (Elt F) → (⟨S4000000, .f32⟩ : BufTy).Contents (Elt F))
        (after ops V (Proc.devRef .tc main_call4_v1)) (after ops V (Proc.devRef .tc main_v135)) :=
  good.at_binary (a := main_call4_v1) (b := main_v135) (y := main_call4_v2) rfl (by decide) (by decide) (by decide) V

theorem after_call4_v3 (V : Valuation τ sig (Elt F)) :
    after ops V (Proc.devRef .tc main_call4_v3)
      = (id : (⟨S_, .f32⟩ : BufTy).Contents (Elt F) → (⟨S_, .f32⟩ : BufTy).Contents (Elt F))
        (after ops V (Proc.devRef .tc main_cst_46)) :=
  good.at_unary (x := main_cst_46) (y := main_call4_v3) rfl (by decide) (by decide) V

theorem after_call4_v4 (V : Valuation τ sig (Elt F)) :
    after ops V (Proc.devRef .tc main_call4_v4)
      = ((broadcastInDim S4000000 ![] bcast_S_S4000000) : (⟨S_, .f32⟩ : BufTy).Contents (Elt F) → (⟨S4000000, .f32⟩ : BufTy).Contents (Elt F))
        (after ops V (Proc.devRef .tc main_call4_v3)) :=
  good.at_unary (x := main_call4_v3) (y := main_call4_v4) rfl (by decide) (by decide) V

theorem after_v136 (V : Valuation τ sig (Elt F)) :
    after ops V (Proc.devRef .tc main_v136)
      = (minimumf : (⟨S4000000, .f32⟩ : BufTy).Contents (Elt F) → (⟨S4000000, .f32⟩ : BufTy).Contents (Elt F) → (⟨S4000000, .f32⟩ : BufTy).Contents (Elt F))
        (after ops V (Proc.devRef .tc main_call4_v4)) (after ops V (Proc.devRef .tc main_call4_v2)) :=
  good.at_binary (a := main_call4_v4) (b := main_call4_v2) (y := main_v136) rfl (by decide) (by decide) (by decide) V

theorem after_v137 (V : Valuation τ sig (Elt F)) :
    after ops V (Proc.devRef .tc main_v137)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after ops V (Proc.devRef .tc main_v125)) :=
  good.at_unary (x := main_v125) (y := main_v137) rfl (by decide) (by decide) V

theorem after_v138 (V : Valuation τ sig (Elt F)) :
    after ops V (Proc.devRef .tc main_v138)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after ops V (Proc.devRef .tc main_v136)) :=
  good.at_unary (x := main_v136) (y := main_v138) rfl (by decide) (by decide) V

theorem after_v139 (V : Valuation τ sig (Elt F)) :
    after ops V (Proc.devRef .tc main_v139)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v125)) (after ops V (Proc.devRef .tc main_v137)) :=
  good.at_binary (a := main_v125) (b := main_v137) (y := main_v139) rfl (by decide) (by decide) (by decide) V

theorem after_v140 (V : Valuation τ sig (Elt F)) :
    after ops V (Proc.devRef .tc main_v140)
      = ((broadcastInDim S4000000x1 ![0] bcast_S4000000_S4000000x1_0 : (⟨S4000000, .f32⟩ : BufTy).Contents (Elt F) → (⟨S4000000x1, .f32⟩ : BufTy).Contents (Elt F)) : (⟨S4000000, .f32⟩ : BufTy).Contents (Elt F) → (⟨S4000000x1, .f32⟩ : BufTy).Contents (Elt F))
        (after ops V (Proc.devRef .tc main_v139)) :=
  good.at_unary (x := main_v139) (y := main_v140) rfl (by decide) (by decide) V

theorem after_v141 (V : Valuation τ sig (Elt F)) :
    after ops V (Proc.devRef .tc main_v141)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v136)) (after ops V (Proc.devRef .tc main_v138)) :=
  good.at_binary (a := main_v136) (b := main_v138) (y := main_v141) rfl (by decide) (by decide) (by decide) V

theorem after_v142 (V : Valuation τ sig (Elt F)) :
    after ops V (Proc.devRef .tc main_v142)
      = ((broadcastInDim S4000000x1 ![0] bcast_S4000000_S4000000x1_0 : (⟨S4000000, .f32⟩ : BufTy).Contents (Elt F) → (⟨S4000000x1, .f32⟩ : BufTy).Contents (Elt F)) : (⟨S4000000, .f32⟩ : BufTy).Contents (Elt F) → (⟨S4000000x1, .f32⟩ : BufTy).Contents (Elt F))
        (after ops V (Proc.devRef .tc main_v141)) :=
  good.at_unary (x := main_v141) (y := main_v142) rfl (by decide) (by decide) V

theorem after_v143 (V : Valuation τ sig (Elt F)) :
    after ops V (Proc.devRef .tc main_v143)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after ops V (Proc.devRef .tc main_v137)) :=
  good.at_unary (x := main_v137) (y := main_v143) rfl (by decide) (by decide) V

theorem after_v144 (V : Valuation τ sig (Elt F)) :
    after ops V (Proc.devRef .tc main_v144)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after ops V (Proc.devRef .tc main_v138)) :=
  good.at_unary (x := main_v138) (y := main_v144) rfl (by decide) (by decide) V

theorem after_c_47 (V : Valuation τ sig (Elt F)) :
    after ops V (Proc.devRef .tc main_c_47)
      = ((constantI S_ 32 1#32) : (⟨S_, .i32⟩ : BufTy).Contents (Elt F)) :=
  good.at_nullary (y := main_c_47) rfl (by decide) V

theorem after_v145 (V : Valuation τ sig (Elt F)) :
    after ops V (Proc.devRef .tc main_v145)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_47)) :=
  good.at_unary (x := main_c_47) (y := main_v145) rfl (by decide) (by decide) V

theorem after_v146 (V : Valuation τ sig (Elt F)) :
    after ops V (Proc.devRef .tc main_v146)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v143)) (after ops V (Proc.devRef .tc main_v145)) :=
  good.at_binary (a := main_v143) (b := main_v145) (y := main_v146) rfl (by decide) (by decide) (by decide) V

theorem after_c_48 (V : Valuation τ sig (Elt F)) :
    after ops V (Proc.devRef .tc main_c_48)
      = ((constantI S_ 32 511#32) : (⟨S_, .i32⟩ : BufTy).Contents (Elt F)) :=
  good.at_nullary (y := main_c_48) rfl (by decide) V

theorem after_v147 (V : Valuation τ sig (Elt F)) :
    after ops V (Proc.devRef .tc main_v147)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_48)) :=
  good.at_unary (x := main_c_48) (y := main_v147) rfl (by decide) (by decide) V

theorem after_v148 (V : Valuation τ sig (Elt F)) :
    after ops V (Proc.devRef .tc main_v148)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v146)) (after ops V (Proc.devRef .tc main_v147)) :=
  good.at_binary (a := main_v146) (b := main_v147) (y := main_v148) rfl (by decide) (by decide) (by decide) V

theorem after_c_49 (V : Valuation τ sig (Elt F)) :
    after ops V (Proc.devRef .tc main_c_49)
      = ((constantI S_ 32 1#32) : (⟨S_, .i32⟩ : BufTy).Contents (Elt F)) :=
  good.at_nullary (y := main_c_49) rfl (by decide) V

theorem after_v149 (V : Valuation τ sig (Elt F)) :
    after ops V (Proc.devRef .tc main_v149)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_49)) :=
  good.at_unary (x := main_c_49) (y := main_v149) rfl (by decide) (by decide) V

theorem after_v150 (V : Valuation τ sig (Elt F)) :
    after ops V (Proc.devRef .tc main_v150)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v144)) (after ops V (Proc.devRef .tc main_v149)) :=
  good.at_binary (a := main_v144) (b := main_v149) (y := main_v150) rfl (by decide) (by decide) (by decide) V

theorem after_c_50 (V : Valuation τ sig (Elt F)) :
    after ops V (Proc.devRef .tc main_c_50)
      = ((constantI S_ 32 511#32) : (⟨S_, .i32⟩ : BufTy).Contents (Elt F)) :=
  good.at_nullary (y := main_c_50) rfl (by decide) V

theorem after_v151 (V : Valuation τ sig (Elt F)) :
    after ops V (Proc.devRef .tc main_v151)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_50)) :=
  good.at_unary (x := main_c_50) (y := main_v151) rfl (by decide) (by decide) V

theorem after_v152 (V : Valuation τ sig (Elt F)) :
    after ops V (Proc.devRef .tc main_v152)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v150)) (after ops V (Proc.devRef .tc main_v151)) :=
  good.at_binary (a := main_v150) (b := main_v151) (y := main_v152) rfl (by decide) (by decide) (by decide) V

theorem after_c_51 (V : Valuation τ sig (Elt F)) :
    after ops V (Proc.devRef .tc main_c_51)
      = ((constantI S_ 32 0#32) : (⟨S_, .i32⟩ : BufTy).Contents (Elt F)) :=
  good.at_nullary (y := main_c_51) rfl (by decide) V

theorem after_v153 (V : Valuation τ sig (Elt F)) :
    after ops V (Proc.devRef .tc main_v153)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_51)) :=
  good.at_unary (x := main_c_51) (y := main_v153) rfl (by decide) (by decide) V

theorem after_v154 (V : Valuation τ sig (Elt F)) :
    after ops V (Proc.devRef .tc main_v154)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v144)) (after ops V (Proc.devRef .tc main_v153)) :=
  good.at_binary (a := main_v144) (b := main_v153) (y := main_v154) rfl (by decide) (by decide) (by decide) V

theorem after_c_52 (V : Valuation τ sig (Elt F)) :
    after ops V (Proc.devRef .tc main_c_52)
      = ((constantI S_ 32 512#32) : (⟨S_, .i32⟩ : BufTy).Contents (Elt F)) :=
  good.at_nullary (y := main_c_52) rfl (by decide) V

theorem after_v155 (V : Valuation τ sig (Elt F)) :
    after ops V (Proc.devRef .tc main_v155)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_52)) :=
  good.at_unary (x := main_c_52) (y := main_v155) rfl (by decide) (by decide) V

theorem after_v156 (V : Valuation τ sig (Elt F)) :
    after ops V (Proc.devRef .tc main_v156)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v144)) (after ops V (Proc.devRef .tc main_v155)) :=
  good.at_binary (a := main_v144) (b := main_v155) (y := main_v156) rfl (by decide) (by decide) (by decide) V

theorem after_v157 (V : Valuation τ sig (Elt F)) :
    after ops V (Proc.devRef .tc main_v157)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v154)) (after ops V (Proc.devRef .tc main_v156)) (after ops V (Proc.devRef .tc main_v144)) :=
  good.at_ternary (c := main_v154) (a := main_v156) (b := main_v144) (y := main_v157) rfl (by decide) (by decide) (by decide) (by decide) V

theorem after_c_53 (V : Valuation τ sig (Elt F)) :
    after ops V (Proc.devRef .tc main_c_53)
      = ((constantI S_ 32 0#32) : (⟨S_, .i32⟩ : BufTy).Contents (Elt F)) :=
  good.at_nullary (y := main_c_53) rfl (by decide) V

theorem after_v158 (V : Valuation τ sig (Elt F)) :
    after ops V (Proc.devRef .tc main_v158)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_53)) :=
  good.at_unary (x := main_c_53) (y := main_v158) rfl (by decide) (by decide) V

theorem after_v159 (V : Valuation τ sig (Elt F)) :
    after ops V (Proc.devRef .tc main_v159)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v143)) (after ops V (Proc.devRef .tc main_v158)) :=
  good.at_binary (a := main_v143) (b := main_v158) (y := main_v159) rfl (by decide) (by decide) (by decide) V

theorem after_c_54 (V : Valuation τ sig (Elt F)) :
    after ops V (Proc.devRef .tc main_c_54)
      = ((constantI S_ 32 512#32) : (⟨S_, .i32⟩ : BufTy).Contents (Elt F)) :=
  good.at_nullary (y := main_c_54) rfl (by decide) V

theorem after_v160 (V : Valuation τ sig (Elt F)) :
    after ops V (Proc.devRef .tc main_v160)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_54)) :=
  good.at_unary (x := main_c_54) (y := main_v160) rfl (by decide) (by decide) V

theorem after_v161 (V : Valuation τ sig (Elt F)) :
    after ops V (Proc.devRef .tc main_v161)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v143)) (after ops V (Proc.devRef .tc main_v160)) :=
  good.at_binary (a := main_v143) (b := main_v160) (y := main_v161) rfl (by decide) (by decide) (by decide) V

theorem after_v162 (V : Valuation τ sig (Elt F)) :
    after ops V (Proc.devRef .tc main_v162)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v159)) (after ops V (Proc.devRef .tc main_v161)) (after ops V (Proc.devRef .tc main_v143)) :=
  good.at_ternary (c := main_v159) (a := main_v161) (b := main_v143) (y := main_v162) rfl (by decide) (by decide) (by decide) (by decide) V

theorem after_v163 (V : Valuation τ sig (Elt F)) :
    after ops V (Proc.devRef .tc main_v163)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v157)) :=
  good.at_unary (x := main_v157) (y := main_v163) rfl (by decide) (by decide) V

theorem after_v164 (V : Valuation τ sig (Elt F)) :
    after ops V (Proc.devRef .tc main_v164)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v162)) :=
  good.at_unary (x := main_v162) (y := main_v164) rfl (by decide) (by decide) V

theorem after_v165 (V : Valuation τ sig (Elt F)) :
    after ops V (Proc.devRef .tc main_v165)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v163)) (after ops V (Proc.devRef .tc main_v164)) :=
  good.at_binary (a := main_v163) (b := main_v164) (y := main_v165) rfl (by decide) (by decide) (by decide) V

theorem after_v166 (V : Valuation τ sig (Elt F)) :
    after ops V (Proc.devRef .tc main_v166)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg2)) (after ops V (Proc.devRef .tc main_v165)) :=
  good.at_binary (a := main_arg2) (b := main_v165) (y := main_v166) rfl (by decide) (by decide) (by decide) V

theorem after_c_55 (V : Valuation τ sig (Elt F)) :
    after ops V (Proc.devRef .tc main_c_55)
      = ((constantI S_ 32 0#32) : (⟨S_, .i32⟩ : BufTy).Contents (Elt F)) :=
  good.at_nullary (y := main_c_55) rfl (by decide) V

theorem after_v167 (V : Valuation τ sig (Elt F)) :
    after ops V (Proc.devRef .tc main_v167)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_55)) :=
  good.at_unary (x := main_c_55) (y := main_v167) rfl (by decide) (by decide) V

theorem after_v168 (V : Valuation τ sig (Elt F)) :
    after ops V (Proc.devRef .tc main_v168)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v144)) (after ops V (Proc.devRef .tc main_v167)) :=
  good.at_binary (a := main_v144) (b := main_v167) (y := main_v168) rfl (by decide) (by decide) (by decide) V

theorem after_c_56 (V : Valuation τ sig (Elt F)) :
    after ops V (Proc.devRef .tc main_c_56)
      = ((constantI S_ 32 512#32) : (⟨S_, .i32⟩ : BufTy).Contents (Elt F)) :=
  good.at_nullary (y := main_c_56) rfl (by decide) V

theorem after_v169 (V : Valuation τ sig (Elt F)) :
    after ops V (Proc.devRef .tc main_v169)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_56)) :=
  good.at_unary (x := main_c_56) (y := main_v169) rfl (by decide) (by decide) V

theorem after_v170 (V : Valuation τ sig (Elt F)) :
    after ops V (Proc.devRef .tc main_v170)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v144)) (after ops V (Proc.devRef .tc main_v169)) :=
  good.at_binary (a := main_v144) (b := main_v169) (y := main_v170) rfl (by decide) (by decide) (by decide) V

theorem after_v171 (V : Valuation τ sig (Elt F)) :
    after ops V (Proc.devRef .tc main_v171)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v168)) (after ops V (Proc.devRef .tc main_v170)) (after ops V (Proc.devRef .tc main_v144)) :=
  good.at_ternary (c := main_v168) (a := main_v170) (b := main_v144) (y := main_v171) rfl (by decide) (by decide) (by decide) (by decide) V

theorem after_c_57 (V : Valuation τ sig (Elt F)) :
    after ops V (Proc.devRef .tc main_c_57)
      = ((constantI S_ 32 0#32) : (⟨S_, .i32⟩ : BufTy).Contents (Elt F)) :=
  good.at_nullary (y := main_c_57) rfl (by decide) V

theorem after_v172 (V : Valuation τ sig (Elt F)) :
    after ops V (Proc.devRef .tc main_v172)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_57)) :=
  good.at_unary (x := main_c_57) (y := main_v172) rfl (by decide) (by decide) V

theorem after_v173 (V : Valuation τ sig (Elt F)) :
    after ops V (Proc.devRef .tc main_v173)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v148)) (after ops V (Proc.devRef .tc main_v172)) :=
  good.at_binary (a := main_v148) (b := main_v172) (y := main_v173) rfl (by decide) (by decide) (by decide) V

theorem after_c_58 (V : Valuation τ sig (Elt F)) :
    after ops V (Proc.devRef .tc main_c_58)
      = ((constantI S_ 32 512#32) : (⟨S_, .i32⟩ : BufTy).Contents (Elt F)) :=
  good.at_nullary (y := main_c_58) rfl (by decide) V

theorem after_v174 (V : Valuation τ sig (Elt F)) :
    after ops V (Proc.devRef .tc main_v174)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_58)) :=
  good.at_unary (x := main_c_58) (y := main_v174) rfl (by decide) (by decide) V

theorem after_v175 (V : Valuation τ sig (Elt F)) :
    after ops V (Proc.devRef .tc main_v175)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v148)) (after ops V (Proc.devRef .tc main_v174)) :=
  good.at_binary (a := main_v148) (b := main_v174) (y := main_v175) rfl (by decide) (by decide) (by decide) V

theorem after_v176 (V : Valuation τ sig (Elt F)) :
    after ops V (Proc.devRef .tc main_v176)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v173)) (after ops V (Proc.devRef .tc main_v175)) (after ops V (Proc.devRef .tc main_v148)) :=
  good.at_ternary (c := main_v173) (a := main_v175) (b := main_v148) (y := main_v176) rfl (by decide) (by decide) (by decide) (by decide) V

theorem after_v177 (V : Valuation τ sig (Elt F)) :
    after ops V (Proc.devRef .tc main_v177)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v171)) :=
  good.at_unary (x := main_v171) (y := main_v177) rfl (by decide) (by decide) V

theorem after_v178 (V : Valuation τ sig (Elt F)) :
    after ops V (Proc.devRef .tc main_v178)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v176)) :=
  good.at_unary (x := main_v176) (y := main_v178) rfl (by decide) (by decide) V

end Cert.ReferenceIdeal.HandRun

end
-- ==== Proof.RefEqs4.lean ====
/- The reference program's line read one operation at a time, window 4: for each operation of the window, the buffer it
   writes holds, after the WHOLE line, the operation's function of what its operand buffers hold after the whole line —
   every value is defined once, before its uses, so nothing later in the line touches either side. One equation per
   operation, named after the buffer; a call's operations are read over the call's buffers, where a value moved through a
   typed reference is the value. -/
import proofs.«114771_j71983651881269_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_v179 (V : Valuation τ sig (Elt F)) :
    after ops V (Proc.devRef .tc main_v179)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v177)) (after ops V (Proc.devRef .tc main_v178)) :=
  good.at_binary (a := main_v177) (b := main_v178) (y := main_v179) rfl (by decide) (by decide) (by decide) V

theorem after_v180 (V : Valuation τ sig (Elt F)) :
    after ops V (Proc.devRef .tc main_v180)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg2)) (after ops V (Proc.devRef .tc main_v179)) :=
  good.at_binary (a := main_arg2) (b := main_v179) (y := main_v180) rfl (by decide) (by decide) (by decide) V

theorem after_c_59 (V : Valuation τ sig (Elt F)) :
    after ops V (Proc.devRef .tc main_c_59)
      = ((constantI S_ 32 0#32) : (⟨S_, .i32⟩ : BufTy).Contents (Elt F)) :=
  good.at_nullary (y := main_c_59) rfl (by decide) V

theorem after_v181 (V : Valuation τ sig (Elt F)) :
    after ops V (Proc.devRef .tc main_v181)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_59)) :=
  good.at_unary (x := main_c_59) (y := main_v181) rfl (by decide) (by decide) V

theorem after_v182 (V : Valuation τ sig (Elt F)) :
    after ops V (Proc.devRef .tc main_v182)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v152)) (after ops V (Proc.devRef .tc main_v181)) :=
  good.at_binary (a := main_v152) (b := main_v181) (y := main_v182) rfl (by decide) (by decide) (by decide) V

theorem after_c_60 (V : Valuation τ sig (Elt F)) :
    after ops V (Proc.devRef .tc main_c_60)
      = ((constantI S_ 32 512#32) : (⟨S_, .i32⟩ : BufTy).Contents (Elt F)) :=
  good.at_nullary (y := main_c_60) rfl (by decide) V

theorem after_v183 (V : Valuation τ sig (Elt F)) :
    after ops V (Proc.devRef .tc main_v183)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_60)) :=
  good.at_unary (x := main_c_60) (y := main_v183) rfl (by decide) (by decide) V

theorem after_v184 (V : Valuation τ sig (Elt F)) :
    after ops V (Proc.devRef .tc main_v184)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v152)) (after ops V (Proc.devRef .tc main_v183)) :=
  good.at_binary (a := main_v152) (b := main_v183) (y := main_v184) rfl (by decide) (by decide) (by decide) V

theorem after_v185 (V : Valuation τ sig (Elt F)) :
    after ops V (Proc.devRef .tc main_v185)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v182)) (after ops V (Proc.devRef .tc main_v184)) (after ops V (Proc.devRef .tc main_v152)) :=
  good.at_ternary (c := main_v182) (a := main_v184) (b := main_v152) (y := main_v185) rfl (by decide) (by decide) (by decide) (by decide) V

theorem after_c_61 (V : Valuation τ sig (Elt F)) :
    after ops V (Proc.devRef .tc main_c_61)
      = ((constantI S_ 32 0#32) : (⟨S_, .i32⟩ : BufTy).Contents (Elt F)) :=
  good.at_nullary (y := main_c_61) rfl (by decide) V

theorem after_v186 (V : Valuation τ sig (Elt F)) :
    after ops V (Proc.devRef .tc main_v186)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_61)) :=
  good.at_unary (x := main_c_61) (y := main_v186) rfl (by decide) (by decide) V

theorem after_v187 (V : Valuation τ sig (Elt F)) :
    after ops V (Proc.devRef .tc main_v187)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v143)) (after ops V (Proc.devRef .tc main_v186)) :=
  good.at_binary (a := main_v143) (b := main_v186) (y := main_v187) rfl (by decide) (by decide) (by decide) V

theorem after_c_62 (V : Valuation τ sig (Elt F)) :
    after ops V (Proc.devRef .tc main_c_62)
      = ((constantI S_ 32 512#32) : (⟨S_, .i32⟩ : BufTy).Contents (Elt F)) :=
  good.at_nullary (y := main_c_62) rfl (by decide) V

theorem after_v188 (V : Valuation τ sig (Elt F)) :
    after ops V (Proc.devRef .tc main_v188)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_62)) :=
  good.at_unary (x := main_c_62) (y := main_v188) rfl (by decide) (by decide) V

theorem after_v189 (V : Valuation τ sig (Elt F)) :
    after ops V (Proc.devRef .tc main_v189)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v143)) (after ops V (Proc.devRef .tc main_v188)) :=
  good.at_binary (a := main_v143) (b := main_v188) (y := main_v189) rfl (by decide) (by decide) (by decide) V

theorem after_v190 (V : Valuation τ sig (Elt F)) :
    after ops V (Proc.devRef .tc main_v190)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v187)) (after ops V (Proc.devRef .tc main_v189)) (after ops V (Proc.devRef .tc main_v143)) :=
  good.at_ternary (c := main_v187) (a := main_v189) (b := main_v143) (y := main_v190) rfl (by decide) (by decide) (by decide) (by decide) V

theorem after_v191 (V : Valuation τ sig (Elt F)) :
    after ops V (Proc.devRef .tc main_v191)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v185)) :=
  good.at_unary (x := main_v185) (y := main_v191) rfl (by decide) (by decide) V

theorem after_v192 (V : Valuation τ sig (Elt F)) :
    after ops V (Proc.devRef .tc main_v192)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v190)) :=
  good.at_unary (x := main_v190) (y := main_v192) rfl (by decide) (by decide) V

theorem after_v193 (V : Valuation τ sig (Elt F)) :
    after ops V (Proc.devRef .tc main_v193)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v191)) (after ops V (Proc.devRef .tc main_v192)) :=
  good.at_binary (a := main_v191) (b := main_v192) (y := main_v193) rfl (by decide) (by decide) (by decide) V

theorem after_v194 (V : Valuation τ sig (Elt F)) :
    after ops V (Proc.devRef .tc main_v194)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg2)) (after ops V (Proc.devRef .tc main_v193)) :=
  good.at_binary (a := main_arg2) (b := main_v193) (y := main_v194) rfl (by decide) (by decide) (by decide) V

theorem after_c_63 (V : Valuation τ sig (Elt F)) :
    after ops V (Proc.devRef .tc main_c_63)
      = ((constantI S_ 32 0#32) : (⟨S_, .i32⟩ : BufTy).Contents (Elt F)) :=
  good.at_nullary (y := main_c_63) rfl (by decide) V

theorem after_v195 (V : Valuation τ sig (Elt F)) :
    after ops V (Proc.devRef .tc main_v195)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_63)) :=
  good.at_unary (x := main_c_63) (y := main_v195) rfl (by decide) (by decide) V

theorem after_v196 (V : Valuation τ sig (Elt F)) :
    after ops V (Proc.devRef .tc main_v196)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v152)) (after ops V (Proc.devRef .tc main_v195)) :=
  good.at_binary (a := main_v152) (b := main_v195) (y := main_v196) rfl (by decide) (by decide) (by decide) V

theorem after_c_64 (V : Valuation τ sig (Elt F)) :
    after ops V (Proc.devRef .tc main_c_64)
      = ((constantI S_ 32 512#32) : (⟨S_, .i32⟩ : BufTy).Contents (Elt F)) :=
  good.at_nullary (y := main_c_64) rfl (by decide) V

theorem after_v197 (V : Valuation τ sig (Elt F)) :
    after ops V (Proc.devRef .tc main_v197)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_64)) :=
  good.at_unary (x := main_c_64) (y := main_v197) rfl (by decide) (by decide) V

theorem after_v198 (V : Valuation τ sig (Elt F)) :
    after ops V (Proc.devRef .tc main_v198)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v152)) (after ops V (Proc.devRef .tc main_v197)) :=
  good.at_binary (a := main_v152) (b := main_v197) (y := main_v198) rfl (by decide) (by decide) (by decide) V

theorem after_v199 (V : Valuation τ sig (Elt F)) :
    after ops V (Proc.devRef .tc main_v199)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v196)) (after ops V (Proc.devRef .tc main_v198)) (after ops V (Proc.devRef .tc main_v152)) :=
  good.at_ternary (c := main_v196) (a := main_v198) (b := main_v152) (y := main_v199) rfl (by decide) (by decide) (by decide) (by decide) V

theorem after_c_65 (V : Valuation τ sig (Elt F)) :
    after ops V (Proc.devRef .tc main_c_65)
      = ((constantI S_ 32 0#32) : (⟨S_, .i32⟩ : BufTy).Contents (Elt F)) :=
  good.at_nullary (y := main_c_65) rfl (by decide) V

theorem after_v200 (V : Valuation τ sig (Elt F)) :
    after ops V (Proc.devRef .tc main_v200)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_65)) :=
  good.at_unary (x := main_c_65) (y := main_v200) rfl (by decide) (by decide) V

theorem after_v201 (V : Valuation τ sig (Elt F)) :
    after ops V (Proc.devRef .tc main_v201)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v148)) (after ops V (Proc.devRef .tc main_v200)) :=
  good.at_binary (a := main_v148) (b := main_v200) (y := main_v201) rfl (by decide) (by decide) (by decide) V

theorem after_c_66 (V : Valuation τ sig (Elt F)) :
    after ops V (Proc.devRef .tc main_c_66)
      = ((constantI S_ 32 512#32) : (⟨S_, .i32⟩ : BufTy).Contents (Elt F)) :=
  good.at_nullary (y := main_c_66) rfl (by decide) V

theorem after_v202 (V : Valuation τ sig (Elt F)) :
    after ops V (Proc.devRef .tc main_v202)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_66)) :=
  good.at_unary (x := main_c_66) (y := main_v202) rfl (by decide) (by decide) V

theorem after_v203 (V : Valuation τ sig (Elt F)) :
    after ops V (Proc.devRef .tc main_v203)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v148)) (after ops V (Proc.devRef .tc main_v202)) :=
  good.at_binary (a := main_v148) (b := main_v202) (y := main_v203) rfl (by decide) (by decide) (by decide) V

theorem after_v204 (V : Valuation τ sig (Elt F)) :
    after ops V (Proc.devRef .tc main_v204)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v201)) (after ops V (Proc.devRef .tc main_v203)) (after ops V (Proc.devRef .tc main_v148)) :=
  good.at_ternary (c := main_v201) (a := main_v203) (b := main_v148) (y := main_v204) rfl (by decide) (by decide) (by decide) (by decide) V

theorem after_v205 (V : Valuation τ sig (Elt F)) :
    after ops V (Proc.devRef .tc main_v205)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v199)) :=
  good.at_unary (x := main_v199) (y := main_v205) rfl (by decide) (by decide) V

theorem after_v206 (V : Valuation τ sig (Elt F)) :
    after ops V (Proc.devRef .tc main_v206)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v204)) :=
  good.at_unary (x := main_v204) (y := main_v206) rfl (by decide) (by decide) V

theorem after_v207 (V : Valuation τ sig (Elt F)) :
    after ops V (Proc.devRef .tc main_v207)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v205)) (after ops V (Proc.devRef .tc main_v206)) :=
  good.at_binary (a := main_v205) (b := main_v206) (y := main_v207) rfl (by decide) (by decide) (by decide) V

theorem after_v208 (V : Valuation τ sig (Elt F)) :
    after ops V (Proc.devRef .tc main_v208)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg2)) (after ops V (Proc.devRef .tc main_v207)) :=
  good.at_binary (a := main_arg2) (b := main_v207) (y := main_v208) rfl (by decide) (by decide) (by decide) V

theorem after_v209 (V : Valuation τ sig (Elt F)) :
    after ops V (Proc.devRef .tc main_v209)
      = ((subf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v180)) (after ops V (Proc.devRef .tc main_v166)) :=
  good.at_binary (a := main_v180) (b := main_v166) (y := main_v209) rfl (by decide) (by decide) (by decide) V

theorem after_v210 (V : Valuation τ sig (Elt F)) :
    after ops V (Proc.devRef .tc main_v210)
      = ((broadcastInDim S4000000x8 ![0, 1] bcast_S4000000x1_S4000000x8_0_1 : (⟨S4000000x1, .f32⟩ : BufTy).Contents (Elt F) → (⟨S4000000x8, .f32⟩ : BufTy).Contents (Elt F)) : (⟨S4000000x1, .f32⟩ : BufTy).Contents (Elt F) → (⟨S4000000x8, .f32⟩ : BufTy).Contents (Elt F))
        (after ops V (Proc.devRef .tc main_v140)) :=
  good.at_unary (x := main_v140) (y := main_v210) rfl (by decide) (by decide) V

theorem after_v211 (V : Valuation τ sig (Elt F)) :
    after ops V (Proc.devRef .tc main_v211)
      = ((mulf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v210)) (after ops V (Proc.devRef .tc main_v209)) :=
  good.at_binary (a := main_v210) (b := main_v209) (y := main_v211) rfl (by decide) (by decide) (by decide) V

theorem after_v212 (V : Valuation τ sig (Elt F)) :
    after ops V (Proc.devRef .tc main_v212)
      = ((addf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v166)) (after ops V (Proc.devRef .tc main_v211)) :=
  good.at_binary (a := main_v166) (b := main_v211) (y := main_v212) rfl (by decide) (by decide) (by decide) V

theorem after_v213 (V : Valuation τ sig (Elt F)) :
    after ops V (Proc.devRef .tc main_v213)
      = ((subf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v208)) (after ops V (Proc.devRef .tc main_v194)) :=
  good.at_binary (a := main_v208) (b := main_v194) (y := main_v213) rfl (by decide) (by decide) (by decide) V

theorem after_v214 (V : Valuation τ sig (Elt F)) :
    after ops V (Proc.devRef .tc main_v214)
      = ((broadcastInDim S4000000x8 ![0, 1] bcast_S4000000x1_S4000000x8_0_1 : (⟨S4000000x1, .f32⟩ : BufTy).Contents (Elt F) → (⟨S4000000x8, .f32⟩ : BufTy).Contents (Elt F)) : (⟨S4000000x1, .f32⟩ : BufTy).Contents (Elt F) → (⟨S4000000x8, .f32⟩ : BufTy).Contents (Elt F))
        (after ops V (Proc.devRef .tc main_v140)) :=
  good.at_unary (x := main_v140) (y := main_v214) rfl (by decide) (by decide) V

theorem after_v215 (V : Valuation τ sig (Elt F)) :
    after ops V (Proc.devRef .tc main_v215)
      = ((mulf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v214)) (after ops V (Proc.devRef .tc main_v213)) :=
  good.at_binary (a := main_v214) (b := main_v213) (y := main_v215) rfl (by decide) (by decide) (by decide) V

theorem after_v216 (V : Valuation τ sig (Elt F)) :
    after ops V (Proc.devRef .tc main_v216)
      = ((addf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v194)) (after ops V (Proc.devRef .tc main_v215)) :=
  good.at_binary (a := main_v194) (b := main_v215) (y := main_v216) rfl (by decide) (by decide) (by decide) V

theorem after_v217 (V : Valuation τ sig (Elt F)) :
    after ops V (Proc.devRef .tc main_v217)
      = ((subf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v216)) (after ops V (Proc.devRef .tc main_v212)) :=
  good.at_binary (a := main_v216) (b := main_v212) (y := main_v217) rfl (by decide) (by decide) (by decide) V

theorem after_v218 (V : Valuation τ sig (Elt F)) :
    after ops V (Proc.devRef .tc main_v218)
      = ((broadcastInDim S4000000x8 ![0, 1] bcast_S4000000x1_S4000000x8_0_1 : (⟨S4000000x1, .f32⟩ : BufTy).Contents (Elt F) → (⟨S4000000x8, .f32⟩ : BufTy).Contents (Elt F)) : (⟨S4000000x1, .f32⟩ : BufTy).Contents (Elt F) → (⟨S4000000x8, .f32⟩ : BufTy).Contents (Elt F))
        (after ops V (Proc.devRef .tc main_v142)) :=
  good.at_unary (x := main_v142) (y := main_v218) rfl (by decide) (by decide) V

theorem after_v219 (V : Valuation τ sig (Elt F)) :
    after ops V (Proc.devRef .tc main_v219)
      = ((mulf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v218)) (after ops V (Proc.devRef .tc main_v217)) :=
  good.at_binary (a := main_v218) (b := main_v217) (y := main_v219) rfl (by decide) (by decide) (by decide) V

theorem after_v221 (V : Valuation τ sig (Elt F)) :
    after ops V (Proc.devRef .tc main_v221)
      = (((extractStridedSlice S4000000x2 ![0, 1] · slices_S4000000x3_S4000000x2_0_1) : (⟨S4000000x3, .f32⟩ : BufTy).Contents (Elt F) → (⟨S4000000x2, .f32⟩ : BufTy).Contents (Elt F)) : (⟨S4000000x3, .f32⟩ : BufTy).Contents (Elt F) → (⟨S4000000x2, .f32⟩ : BufTy).Contents (Elt F))
        (after ops V (Proc.devRef .tc main_v0)) :=
  good.at_unary (x := main_v0) (y := main_v221) rfl (by decide) (by decide) V

theorem after_v222 (V : Valuation τ sig (Elt F)) :
    after ops V (Proc.devRef .tc main_v222)
      = (((extractStridedSlice S4000000x1 ![0, 0] · slices_S4000000x2_S4000000x1_0_0) : (⟨S4000000x2, .f32⟩ : BufTy).Contents (Elt F) → (⟨S4000000x1, .f32⟩ : BufTy).Contents (Elt F)) : (⟨S4000000x2, .f32⟩ : BufTy).Contents (Elt F) → (⟨S4000000x1, .f32⟩ : BufTy).Contents (Elt F))
        (after ops V (Proc.devRef .tc main_v221)) :=
  good.at_unary (x := main_v221) (y := main_v222) rfl (by decide) (by decide) V

theorem after_v223 (V : Valuation τ sig (Elt F)) :
    after ops V (Proc.devRef .tc main_v223)
      = (shapeCast S4000000 (after ops V (Proc.devRef .tc main_v222)) shapeCasts_S4000000x1_S4000000 : (⟨S4000000, .f32⟩ : BufTy).Contents (Elt F)) :=
  good.at_reshape (x := main_v222) (y := main_v223) rfl (by decide) (by decide) V

theorem after_cst_67 (V : Valuation τ sig (Elt F)) :
    after ops V (Proc.devRef .tc main_cst_67)
      = ((constant S_ .f32 0x3F800000#32) : (⟨S_, .f32⟩ : BufTy).Contents (Elt F)) :=
  good.at_nullary (y := main_cst_67) rfl (by decide) V

theorem after_v224 (V : Valuation τ sig (Elt F)) :
    after ops V (Proc.devRef .tc main_v224)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_67)) :=
  good.at_unary (x := main_cst_67) (y := main_v224) rfl (by decide) (by decide) V

theorem after_v225 (V : Valuation τ sig (Elt F)) :
    after ops V (Proc.devRef .tc main_v225)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v223)) (after ops V (Proc.devRef .tc main_v224)) :=
  good.at_binary (a := main_v223) (b := main_v224) (y := main_v225) rfl (by decide) (by decide) (by decide) V

theorem after_cst_68 (V : Valuation τ sig (Elt F)) :
    after ops V (Proc.devRef .tc main_cst_68)
      = ((constant S_ .f32 0x44000000#32) : (⟨S_, .f32⟩ : BufTy).Contents (Elt F)) :=
  good.at_nullary (y := main_cst_68) rfl (by decide) V

theorem after_v226 (V : Valuation τ sig (Elt F)) :
    after ops V (Proc.devRef .tc main_v226)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_68)) :=
  good.at_unary (x := main_cst_68) (y := main_v226) rfl (by decide) (by decide) V

theorem after_v227 (V : Valuation τ sig (Elt F)) :
    after ops V (Proc.devRef .tc main_v227)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v225)) (after ops V (Proc.devRef .tc main_v226)) :=
  good.at_binary (a := main_v225) (b := main_v226) (y := main_v227) rfl (by decide) (by decide) (by decide) V

theorem after_cst_69 (V : Valuation τ sig (Elt F)) :
    after ops V (Proc.devRef .tc main_cst_69)
      = ((constant S_ .f32 0x3F800000#32) : (⟨S_, .f32⟩ : BufTy).Contents (Elt F)) :=
  good.at_nullary (y := main_cst_69) rfl (by decide) V

end Cert.ReferenceIdeal.HandRun

end
-- ==== Proof.RefEqs5.lean ====
/- The reference program's line read one operation at a time, window 5: for each operation of the window, the buffer it
   writes holds, after the WHOLE line, the operation's function of what its operand buffers hold after the whole line —
   every value is defined once, before its uses, so nothing later in the line touches either side. One equation per
   operation, named after the buffer; a call's operations are read over the call's buffers, where a value moved through a
   typed reference is the value. -/
import proofs.«114771_j71983651881269_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_v228 (V : Valuation τ sig (Elt F)) :
    after ops V (Proc.devRef .tc main_v228)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_69)) :=
  good.at_unary (x := main_cst_69) (y := main_v228) rfl (by decide) (by decide) V

theorem after_v229 (V : Valuation τ sig (Elt F)) :
    after ops V (Proc.devRef .tc main_v229)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v227)) (after ops V (Proc.devRef .tc main_v228)) :=
  good.at_binary (a := main_v227) (b := main_v228) (y := main_v229) rfl (by decide) (by decide) (by decide) V

theorem after_cst_70 (V : Valuation τ sig (Elt F)) :
    after ops V (Proc.devRef .tc main_cst_70)
      = ((constant S_ .f32 0x3F000000#32) : (⟨S_, .f32⟩ : BufTy).Contents (Elt F)) :=
  good.at_nullary (y := main_cst_70) rfl (by decide) V

theorem after_v230 (V : Valuation τ sig (Elt F)) :
    after ops V (Proc.devRef .tc main_v230)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_70)) :=
  good.at_unary (x := main_cst_70) (y := main_v230) rfl (by decide) (by decide) V

theorem after_v231 (V : Valuation τ sig (Elt F)) :
    after ops V (Proc.devRef .tc main_v231)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v229)) (after ops V (Proc.devRef .tc main_v230)) :=
  good.at_binary (a := main_v229) (b := main_v230) (y := main_v231) rfl (by decide) (by decide) (by decide) V

theorem after_cst_71 (V : Valuation τ sig (Elt F)) :
    after ops V (Proc.devRef .tc main_cst_71)
      = ((constant S_ .f32 0x00000000#32) : (⟨S_, .f32⟩ : BufTy).Contents (Elt F)) :=
  good.at_nullary (y := main_cst_71) rfl (by decide) V

theorem after_cst_72 (V : Valuation τ sig (Elt F)) :
    after ops V (Proc.devRef .tc main_cst_72)
      = ((constant S_ .f32 0x43FF8000#32) : (⟨S_, .f32⟩ : BufTy).Contents (Elt F)) :=
  good.at_nullary (y := main_cst_72) rfl (by decide) V

theorem after_call5_v0 (V : Valuation τ sig (Elt F)) :
    after ops V (Proc.devRef .tc main_call5_v0)
      = (id : (⟨S_, .f32⟩ : BufTy).Contents (Elt F) → (⟨S_, .f32⟩ : BufTy).Contents (Elt F))
        (after ops V (Proc.devRef .tc main_cst_71)) :=
  good.at_unary (x := main_cst_71) (y := main_call5_v0) rfl (by decide) (by decide) V

theorem after_call5_v1 (V : Valuation τ sig (Elt F)) :
    after ops V (Proc.devRef .tc main_call5_v1)
      = ((broadcastInDim S4000000 ![] bcast_S_S4000000) : (⟨S_, .f32⟩ : BufTy).Contents (Elt F) → (⟨S4000000, .f32⟩ : BufTy).Contents (Elt F))
        (after ops V (Proc.devRef .tc main_call5_v0)) :=
  good.at_unary (x := main_call5_v0) (y := main_call5_v1) rfl (by decide) (by decide) V

theorem after_call5_v2 (V : Valuation τ sig (Elt F)) :
    after ops V (Proc.devRef .tc main_call5_v2)
      = (maximumf : (⟨S4000000, .f32⟩ : BufTy).Contents (Elt F) → (⟨S4000000, .f32⟩ : BufTy).Contents (Elt F) → (⟨S4000000, .f32⟩ : BufTy).Contents (Elt F))
        (after ops V (Proc.devRef .tc main_call5_v1)) (after ops V (Proc.devRef .tc main_v231)) :=
  good.at_binary (a := main_call5_v1) (b := main_v231) (y := main_call5_v2) rfl (by decide) (by decide) (by decide) V

theorem after_call5_v3 (V : Valuation τ sig (Elt F)) :
    after ops V (Proc.devRef .tc main_call5_v3)
      = (id : (⟨S_, .f32⟩ : BufTy).Contents (Elt F) → (⟨S_, .f32⟩ : BufTy).Contents (Elt F))
        (after ops V (Proc.devRef .tc main_cst_72)) :=
  good.at_unary (x := main_cst_72) (y := main_call5_v3) rfl (by decide) (by decide) V

theorem after_call5_v4 (V : Valuation τ sig (Elt F)) :
    after ops V (Proc.devRef .tc main_call5_v4)
      = ((broadcastInDim S4000000 ![] bcast_S_S4000000) : (⟨S_, .f32⟩ : BufTy).Contents (Elt F) → (⟨S4000000, .f32⟩ : BufTy).Contents (Elt F))
        (after ops V (Proc.devRef .tc main_call5_v3)) :=
  good.at_unary (x := main_call5_v3) (y := main_call5_v4) rfl (by decide) (by decide) V

theorem after_v232 (V : Valuation τ sig (Elt F)) :
    after ops V (Proc.devRef .tc main_v232)
      = (minimumf : (⟨S4000000, .f32⟩ : BufTy).Contents (Elt F) → (⟨S4000000, .f32⟩ : BufTy).Contents (Elt F) → (⟨S4000000, .f32⟩ : BufTy).Contents (Elt F))
        (after ops V (Proc.devRef .tc main_call5_v4)) (after ops V (Proc.devRef .tc main_call5_v2)) :=
  good.at_binary (a := main_call5_v4) (b := main_call5_v2) (y := main_v232) rfl (by decide) (by decide) (by decide) V

theorem after_v233 (V : Valuation τ sig (Elt F)) :
    after ops V (Proc.devRef .tc main_v233)
      = (((extractStridedSlice S4000000x1 ![0, 1] · slices_S4000000x2_S4000000x1_0_1) : (⟨S4000000x2, .f32⟩ : BufTy).Contents (Elt F) → (⟨S4000000x1, .f32⟩ : BufTy).Contents (Elt F)) : (⟨S4000000x2, .f32⟩ : BufTy).Contents (Elt F) → (⟨S4000000x1, .f32⟩ : BufTy).Contents (Elt F))
        (after ops V (Proc.devRef .tc main_v221)) :=
  good.at_unary (x := main_v221) (y := main_v233) rfl (by decide) (by decide) V

theorem after_v234 (V : Valuation τ sig (Elt F)) :
    after ops V (Proc.devRef .tc main_v234)
      = (shapeCast S4000000 (after ops V (Proc.devRef .tc main_v233)) shapeCasts_S4000000x1_S4000000 : (⟨S4000000, .f32⟩ : BufTy).Contents (Elt F)) :=
  good.at_reshape (x := main_v233) (y := main_v234) rfl (by decide) (by decide) V

theorem after_cst_73 (V : Valuation τ sig (Elt F)) :
    after ops V (Proc.devRef .tc main_cst_73)
      = ((constant S_ .f32 0x3F800000#32) : (⟨S_, .f32⟩ : BufTy).Contents (Elt F)) :=
  good.at_nullary (y := main_cst_73) rfl (by decide) V

theorem after_v235 (V : Valuation τ sig (Elt F)) :
    after ops V (Proc.devRef .tc main_v235)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_73)) :=
  good.at_unary (x := main_cst_73) (y := main_v235) rfl (by decide) (by decide) V

theorem after_v236 (V : Valuation τ sig (Elt F)) :
    after ops V (Proc.devRef .tc main_v236)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v234)) (after ops V (Proc.devRef .tc main_v235)) :=
  good.at_binary (a := main_v234) (b := main_v235) (y := main_v236) rfl (by decide) (by decide) (by decide) V

theorem after_cst_74 (V : Valuation τ sig (Elt F)) :
    after ops V (Proc.devRef .tc main_cst_74)
      = ((constant S_ .f32 0x44000000#32) : (⟨S_, .f32⟩ : BufTy).Contents (Elt F)) :=
  good.at_nullary (y := main_cst_74) rfl (by decide) V

theorem after_v237 (V : Valuation τ sig (Elt F)) :
    after ops V (Proc.devRef .tc main_v237)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_74)) :=
  good.at_unary (x := main_cst_74) (y := main_v237) rfl (by decide) (by decide) V

theorem after_v238 (V : Valuation τ sig (Elt F)) :
    after ops V (Proc.devRef .tc main_v238)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v236)) (after ops V (Proc.devRef .tc main_v237)) :=
  good.at_binary (a := main_v236) (b := main_v237) (y := main_v238) rfl (by decide) (by decide) (by decide) V

theorem after_cst_75 (V : Valuation τ sig (Elt F)) :
    after ops V (Proc.devRef .tc main_cst_75)
      = ((constant S_ .f32 0x3F800000#32) : (⟨S_, .f32⟩ : BufTy).Contents (Elt F)) :=
  good.at_nullary (y := main_cst_75) rfl (by decide) V

theorem after_v239 (V : Valuation τ sig (Elt F)) :
    after ops V (Proc.devRef .tc main_v239)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_75)) :=
  good.at_unary (x := main_cst_75) (y := main_v239) rfl (by decide) (by decide) V

theorem after_v240 (V : Valuation τ sig (Elt F)) :
    after ops V (Proc.devRef .tc main_v240)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v238)) (after ops V (Proc.devRef .tc main_v239)) :=
  good.at_binary (a := main_v238) (b := main_v239) (y := main_v240) rfl (by decide) (by decide) (by decide) V

theorem after_cst_76 (V : Valuation τ sig (Elt F)) :
    after ops V (Proc.devRef .tc main_cst_76)
      = ((constant S_ .f32 0x3F000000#32) : (⟨S_, .f32⟩ : BufTy).Contents (Elt F)) :=
  good.at_nullary (y := main_cst_76) rfl (by decide) V

theorem after_v241 (V : Valuation τ sig (Elt F)) :
    after ops V (Proc.devRef .tc main_v241)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after ops V (Proc.devRef .tc main_cst_76)) :=
  good.at_unary (x := main_cst_76) (y := main_v241) rfl (by decide) (by decide) V

theorem after_v242 (V : Valuation τ sig (Elt F)) :
    after ops V (Proc.devRef .tc main_v242)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v240)) (after ops V (Proc.devRef .tc main_v241)) :=
  good.at_binary (a := main_v240) (b := main_v241) (y := main_v242) rfl (by decide) (by decide) (by decide) V

theorem after_cst_77 (V : Valuation τ sig (Elt F)) :
    after ops V (Proc.devRef .tc main_cst_77)
      = ((constant S_ .f32 0x00000000#32) : (⟨S_, .f32⟩ : BufTy).Contents (Elt F)) :=
  good.at_nullary (y := main_cst_77) rfl (by decide) V

theorem after_cst_78 (V : Valuation τ sig (Elt F)) :
    after ops V (Proc.devRef .tc main_cst_78)
      = ((constant S_ .f32 0x43FF8000#32) : (⟨S_, .f32⟩ : BufTy).Contents (Elt F)) :=
  good.at_nullary (y := main_cst_78) rfl (by decide) V

theorem after_call6_v0 (V : Valuation τ sig (Elt F)) :
    after ops V (Proc.devRef .tc main_call6_v0)
      = (id : (⟨S_, .f32⟩ : BufTy).Contents (Elt F) → (⟨S_, .f32⟩ : BufTy).Contents (Elt F))
        (after ops V (Proc.devRef .tc main_cst_77)) :=
  good.at_unary (x := main_cst_77) (y := main_call6_v0) rfl (by decide) (by decide) V

theorem after_call6_v1 (V : Valuation τ sig (Elt F)) :
    after ops V (Proc.devRef .tc main_call6_v1)
      = ((broadcastInDim S4000000 ![] bcast_S_S4000000) : (⟨S_, .f32⟩ : BufTy).Contents (Elt F) → (⟨S4000000, .f32⟩ : BufTy).Contents (Elt F))
        (after ops V (Proc.devRef .tc main_call6_v0)) :=
  good.at_unary (x := main_call6_v0) (y := main_call6_v1) rfl (by decide) (by decide) V

theorem after_call6_v2 (V : Valuation τ sig (Elt F)) :
    after ops V (Proc.devRef .tc main_call6_v2)
      = (maximumf : (⟨S4000000, .f32⟩ : BufTy).Contents (Elt F) → (⟨S4000000, .f32⟩ : BufTy).Contents (Elt F) → (⟨S4000000, .f32⟩ : BufTy).Contents (Elt F))
        (after ops V (Proc.devRef .tc main_call6_v1)) (after ops V (Proc.devRef .tc main_v242)) :=
  good.at_binary (a := main_call6_v1) (b := main_v242) (y := main_call6_v2) rfl (by decide) (by decide) (by decide) V

theorem after_call6_v3 (V : Valuation τ sig (Elt F)) :
    after ops V (Proc.devRef .tc main_call6_v3)
      = (id : (⟨S_, .f32⟩ : BufTy).Contents (Elt F) → (⟨S_, .f32⟩ : BufTy).Contents (Elt F))
        (after ops V (Proc.devRef .tc main_cst_78)) :=
  good.at_unary (x := main_cst_78) (y := main_call6_v3) rfl (by decide) (by decide) V

theorem after_call6_v4 (V : Valuation τ sig (Elt F)) :
    after ops V (Proc.devRef .tc main_call6_v4)
      = ((broadcastInDim S4000000 ![] bcast_S_S4000000) : (⟨S_, .f32⟩ : BufTy).Contents (Elt F) → (⟨S4000000, .f32⟩ : BufTy).Contents (Elt F))
        (after ops V (Proc.devRef .tc main_call6_v3)) :=
  good.at_unary (x := main_call6_v3) (y := main_call6_v4) rfl (by decide) (by decide) V

theorem after_v243 (V : Valuation τ sig (Elt F)) :
    after ops V (Proc.devRef .tc main_v243)
      = (minimumf : (⟨S4000000, .f32⟩ : BufTy).Contents (Elt F) → (⟨S4000000, .f32⟩ : BufTy).Contents (Elt F) → (⟨S4000000, .f32⟩ : BufTy).Contents (Elt F))
        (after ops V (Proc.devRef .tc main_call6_v4)) (after ops V (Proc.devRef .tc main_call6_v2)) :=
  good.at_binary (a := main_call6_v4) (b := main_call6_v2) (y := main_v243) rfl (by decide) (by decide) (by decide) V

theorem after_v244 (V : Valuation τ sig (Elt F)) :
    after ops V (Proc.devRef .tc main_v244)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after ops V (Proc.devRef .tc main_v232)) :=
  good.at_unary (x := main_v232) (y := main_v244) rfl (by decide) (by decide) V

theorem after_v245 (V : Valuation τ sig (Elt F)) :
    after ops V (Proc.devRef .tc main_v245)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after ops V (Proc.devRef .tc main_v243)) :=
  good.at_unary (x := main_v243) (y := main_v245) rfl (by decide) (by decide) V

theorem after_v246 (V : Valuation τ sig (Elt F)) :
    after ops V (Proc.devRef .tc main_v246)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v232)) (after ops V (Proc.devRef .tc main_v244)) :=
  good.at_binary (a := main_v232) (b := main_v244) (y := main_v246) rfl (by decide) (by decide) (by decide) V

theorem after_v247 (V : Valuation τ sig (Elt F)) :
    after ops V (Proc.devRef .tc main_v247)
      = ((broadcastInDim S4000000x1 ![0] bcast_S4000000_S4000000x1_0 : (⟨S4000000, .f32⟩ : BufTy).Contents (Elt F) → (⟨S4000000x1, .f32⟩ : BufTy).Contents (Elt F)) : (⟨S4000000, .f32⟩ : BufTy).Contents (Elt F) → (⟨S4000000x1, .f32⟩ : BufTy).Contents (Elt F))
        (after ops V (Proc.devRef .tc main_v246)) :=
  good.at_unary (x := main_v246) (y := main_v247) rfl (by decide) (by decide) V

theorem after_v248 (V : Valuation τ sig (Elt F)) :
    after ops V (Proc.devRef .tc main_v248)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after ops V (Proc.devRef .tc main_v243)) (after ops V (Proc.devRef .tc main_v245)) :=
  good.at_binary (a := main_v243) (b := main_v245) (y := main_v248) rfl (by decide) (by decide) (by decide) V

theorem after_v249 (V : Valuation τ sig (Elt F)) :
    after ops V (Proc.devRef .tc main_v249)
      = ((broadcastInDim S4000000x1 ![0] bcast_S4000000_S4000000x1_0 : (⟨S4000000, .f32⟩ : BufTy).Contents (Elt F) → (⟨S4000000x1, .f32⟩ : BufTy).Contents (Elt F)) : (⟨S4000000, .f32⟩ : BufTy).Contents (Elt F) → (⟨S4000000x1, .f32⟩ : BufTy).Contents (Elt F))
        (after ops V (Proc.devRef .tc main_v248)) :=
  good.at_unary (x := main_v248) (y := main_v249) rfl (by decide) (by decide) V

theorem after_v250 (V : Valuation τ sig (Elt F)) :
    after ops V (Proc.devRef .tc main_v250)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after ops V (Proc.devRef .tc main_v244)) :=
  good.at_unary (x := main_v244) (y := main_v250) rfl (by decide) (by decide) V

theorem after_v251 (V : Valuation τ sig (Elt F)) :
    after ops V (Proc.devRef .tc main_v251)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after ops V (Proc.devRef .tc main_v245)) :=
  good.at_unary (x := main_v245) (y := main_v251) rfl (by decide) (by decide) V

theorem after_c_79 (V : Valuation τ sig (Elt F)) :
    after ops V (Proc.devRef .tc main_c_79)
      = ((constantI S_ 32 1#32) : (⟨S_, .i32⟩ : BufTy).Contents (Elt F)) :=
  good.at_nullary (y := main_c_79) rfl (by decide) V

theorem after_v252 (V : Valuation τ sig (Elt F)) :
    after ops V (Proc.devRef .tc main_v252)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_79)) :=
  good.at_unary (x := main_c_79) (y := main_v252) rfl (by decide) (by decide) V

theorem after_v253 (V : Valuation τ sig (Elt F)) :
    after ops V (Proc.devRef .tc main_v253)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v250)) (after ops V (Proc.devRef .tc main_v252)) :=
  good.at_binary (a := main_v250) (b := main_v252) (y := main_v253) rfl (by decide) (by decide) (by decide) V

theorem after_c_80 (V : Valuation τ sig (Elt F)) :
    after ops V (Proc.devRef .tc main_c_80)
      = ((constantI S_ 32 511#32) : (⟨S_, .i32⟩ : BufTy).Contents (Elt F)) :=
  good.at_nullary (y := main_c_80) rfl (by decide) V

theorem after_v254 (V : Valuation τ sig (Elt F)) :
    after ops V (Proc.devRef .tc main_v254)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_80)) :=
  good.at_unary (x := main_c_80) (y := main_v254) rfl (by decide) (by decide) V

theorem after_v255 (V : Valuation τ sig (Elt F)) :
    after ops V (Proc.devRef .tc main_v255)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v253)) (after ops V (Proc.devRef .tc main_v254)) :=
  good.at_binary (a := main_v253) (b := main_v254) (y := main_v255) rfl (by decide) (by decide) (by decide) V

theorem after_c_81 (V : Valuation τ sig (Elt F)) :
    after ops V (Proc.devRef .tc main_c_81)
      = ((constantI S_ 32 1#32) : (⟨S_, .i32⟩ : BufTy).Contents (Elt F)) :=
  good.at_nullary (y := main_c_81) rfl (by decide) V

theorem after_v256 (V : Valuation τ sig (Elt F)) :
    after ops V (Proc.devRef .tc main_v256)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_81)) :=
  good.at_unary (x := main_c_81) (y := main_v256) rfl (by decide) (by decide) V

theorem after_v257 (V : Valuation τ sig (Elt F)) :
    after ops V (Proc.devRef .tc main_v257)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v251)) (after ops V (Proc.devRef .tc main_v256)) :=
  good.at_binary (a := main_v251) (b := main_v256) (y := main_v257) rfl (by decide) (by decide) (by decide) V

theorem after_c_82 (V : Valuation τ sig (Elt F)) :
    after ops V (Proc.devRef .tc main_c_82)
      = ((constantI S_ 32 511#32) : (⟨S_, .i32⟩ : BufTy).Contents (Elt F)) :=
  good.at_nullary (y := main_c_82) rfl (by decide) V

theorem after_v258 (V : Valuation τ sig (Elt F)) :
    after ops V (Proc.devRef .tc main_v258)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_82)) :=
  good.at_unary (x := main_c_82) (y := main_v258) rfl (by decide) (by decide) V

theorem after_v259 (V : Valuation τ sig (Elt F)) :
    after ops V (Proc.devRef .tc main_v259)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v257)) (after ops V (Proc.devRef .tc main_v258)) :=
  good.at_binary (a := main_v257) (b := main_v258) (y := main_v259) rfl (by decide) (by decide) (by decide) V

theorem after_c_83 (V : Valuation τ sig (Elt F)) :
    after ops V (Proc.devRef .tc main_c_83)
      = ((constantI S_ 32 0#32) : (⟨S_, .i32⟩ : BufTy).Contents (Elt F)) :=
  good.at_nullary (y := main_c_83) rfl (by decide) V

theorem after_v260 (V : Valuation τ sig (Elt F)) :
    after ops V (Proc.devRef .tc main_v260)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_83)) :=
  good.at_unary (x := main_c_83) (y := main_v260) rfl (by decide) (by decide) V

theorem after_v261 (V : Valuation τ sig (Elt F)) :
    after ops V (Proc.devRef .tc main_v261)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v251)) (after ops V (Proc.devRef .tc main_v260)) :=
  good.at_binary (a := main_v251) (b := main_v260) (y := main_v261) rfl (by decide) (by decide) (by decide) V

theorem after_c_84 (V : Valuation τ sig (Elt F)) :
    after ops V (Proc.devRef .tc main_c_84)
      = ((constantI S_ 32 512#32) : (⟨S_, .i32⟩ : BufTy).Contents (Elt F)) :=
  good.at_nullary (y := main_c_84) rfl (by decide) V

theorem after_v262 (V : Valuation τ sig (Elt F)) :
    after ops V (Proc.devRef .tc main_v262)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_84)) :=
  good.at_unary (x := main_c_84) (y := main_v262) rfl (by decide) (by decide) V

theorem after_v263 (V : Valuation τ sig (Elt F)) :
    after ops V (Proc.devRef .tc main_v263)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v251)) (after ops V (Proc.devRef .tc main_v262)) :=
  good.at_binary (a := main_v251) (b := main_v262) (y := main_v263) rfl (by decide) (by decide) (by decide) V

theorem after_v264 (V : Valuation τ sig (Elt F)) :
    after ops V (Proc.devRef .tc main_v264)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v261)) (after ops V (Proc.devRef .tc main_v263)) (after ops V (Proc.devRef .tc main_v251)) :=
  good.at_ternary (c := main_v261) (a := main_v263) (b := main_v251) (y := main_v264) rfl (by decide) (by decide) (by decide) (by decide) V

theorem after_c_85 (V : Valuation τ sig (Elt F)) :
    after ops V (Proc.devRef .tc main_c_85)
      = ((constantI S_ 32 0#32) : (⟨S_, .i32⟩ : BufTy).Contents (Elt F)) :=
  good.at_nullary (y := main_c_85) rfl (by decide) V

theorem after_v265 (V : Valuation τ sig (Elt F)) :
    after ops V (Proc.devRef .tc main_v265)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_85)) :=
  good.at_unary (x := main_c_85) (y := main_v265) rfl (by decide) (by decide) V

theorem after_v266 (V : Valuation τ sig (Elt F)) :
    after ops V (Proc.devRef .tc main_v266)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v250)) (after ops V (Proc.devRef .tc main_v265)) :=
  good.at_binary (a := main_v250) (b := main_v265) (y := main_v266) rfl (by decide) (by decide) (by decide) V

theorem after_c_86 (V : Valuation τ sig (Elt F)) :
    after ops V (Proc.devRef .tc main_c_86)
      = ((constantI S_ 32 512#32) : (⟨S_, .i32⟩ : BufTy).Contents (Elt F)) :=
  good.at_nullary (y := main_c_86) rfl (by decide) V

theorem after_v267 (V : Valuation τ sig (Elt F)) :
    after ops V (Proc.devRef .tc main_v267)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_86)) :=
  good.at_unary (x := main_c_86) (y := main_v267) rfl (by decide) (by decide) V

theorem after_v268 (V : Valuation τ sig (Elt F)) :
    after ops V (Proc.devRef .tc main_v268)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v250)) (after ops V (Proc.devRef .tc main_v267)) :=
  good.at_binary (a := main_v250) (b := main_v267) (y := main_v268) rfl (by decide) (by decide) (by decide) V

theorem after_v269 (V : Valuation τ sig (Elt F)) :
    after ops V (Proc.devRef .tc main_v269)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v266)) (after ops V (Proc.devRef .tc main_v268)) (after ops V (Proc.devRef .tc main_v250)) :=
  good.at_ternary (c := main_v266) (a := main_v268) (b := main_v250) (y := main_v269) rfl (by decide) (by decide) (by decide) (by decide) V

theorem after_v270 (V : Valuation τ sig (Elt F)) :
    after ops V (Proc.devRef .tc main_v270)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v264)) :=
  good.at_unary (x := main_v264) (y := main_v270) rfl (by decide) (by decide) V

end Cert.ReferenceIdeal.HandRun

end
-- ==== Proof.RefEqs6.lean ====
/- The reference program's line read one operation at a time, window 6: for each operation of the window, the buffer it
   writes holds, after the WHOLE line, the operation's function of what its operand buffers hold after the whole line —
   every value is defined once, before its uses, so nothing later in the line touches either side. One equation per
   operation, named after the buffer; a call's operations are read over the call's buffers, where a value moved through a
   typed reference is the value. -/
import proofs.«114771_j71983651881269_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_v271 (V : Valuation τ sig (Elt F)) :
    after ops V (Proc.devRef .tc main_v271)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v269)) :=
  good.at_unary (x := main_v269) (y := main_v271) rfl (by decide) (by decide) V

theorem after_v272 (V : Valuation τ sig (Elt F)) :
    after ops V (Proc.devRef .tc main_v272)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v270)) (after ops V (Proc.devRef .tc main_v271)) :=
  good.at_binary (a := main_v270) (b := main_v271) (y := main_v272) rfl (by decide) (by decide) (by decide) V

theorem after_v273 (V : Valuation τ sig (Elt F)) :
    after ops V (Proc.devRef .tc main_v273)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg3)) (after ops V (Proc.devRef .tc main_v272)) :=
  good.at_binary (a := main_arg3) (b := main_v272) (y := main_v273) rfl (by decide) (by decide) (by decide) V

theorem after_c_87 (V : Valuation τ sig (Elt F)) :
    after ops V (Proc.devRef .tc main_c_87)
      = ((constantI S_ 32 0#32) : (⟨S_, .i32⟩ : BufTy).Contents (Elt F)) :=
  good.at_nullary (y := main_c_87) rfl (by decide) V

theorem after_v274 (V : Valuation τ sig (Elt F)) :
    after ops V (Proc.devRef .tc main_v274)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_87)) :=
  good.at_unary (x := main_c_87) (y := main_v274) rfl (by decide) (by decide) V

theorem after_v275 (V : Valuation τ sig (Elt F)) :
    after ops V (Proc.devRef .tc main_v275)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v251)) (after ops V (Proc.devRef .tc main_v274)) :=
  good.at_binary (a := main_v251) (b := main_v274) (y := main_v275) rfl (by decide) (by decide) (by decide) V

theorem after_c_88 (V : Valuation τ sig (Elt F)) :
    after ops V (Proc.devRef .tc main_c_88)
      = ((constantI S_ 32 512#32) : (⟨S_, .i32⟩ : BufTy).Contents (Elt F)) :=
  good.at_nullary (y := main_c_88) rfl (by decide) V

theorem after_v276 (V : Valuation τ sig (Elt F)) :
    after ops V (Proc.devRef .tc main_v276)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_88)) :=
  good.at_unary (x := main_c_88) (y := main_v276) rfl (by decide) (by decide) V

theorem after_v277 (V : Valuation τ sig (Elt F)) :
    after ops V (Proc.devRef .tc main_v277)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v251)) (after ops V (Proc.devRef .tc main_v276)) :=
  good.at_binary (a := main_v251) (b := main_v276) (y := main_v277) rfl (by decide) (by decide) (by decide) V

theorem after_v278 (V : Valuation τ sig (Elt F)) :
    after ops V (Proc.devRef .tc main_v278)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v275)) (after ops V (Proc.devRef .tc main_v277)) (after ops V (Proc.devRef .tc main_v251)) :=
  good.at_ternary (c := main_v275) (a := main_v277) (b := main_v251) (y := main_v278) rfl (by decide) (by decide) (by decide) (by decide) V

theorem after_c_89 (V : Valuation τ sig (Elt F)) :
    after ops V (Proc.devRef .tc main_c_89)
      = ((constantI S_ 32 0#32) : (⟨S_, .i32⟩ : BufTy).Contents (Elt F)) :=
  good.at_nullary (y := main_c_89) rfl (by decide) V

theorem after_v279 (V : Valuation τ sig (Elt F)) :
    after ops V (Proc.devRef .tc main_v279)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_89)) :=
  good.at_unary (x := main_c_89) (y := main_v279) rfl (by decide) (by decide) V

theorem after_v280 (V : Valuation τ sig (Elt F)) :
    after ops V (Proc.devRef .tc main_v280)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v255)) (after ops V (Proc.devRef .tc main_v279)) :=
  good.at_binary (a := main_v255) (b := main_v279) (y := main_v280) rfl (by decide) (by decide) (by decide) V

theorem after_c_90 (V : Valuation τ sig (Elt F)) :
    after ops V (Proc.devRef .tc main_c_90)
      = ((constantI S_ 32 512#32) : (⟨S_, .i32⟩ : BufTy).Contents (Elt F)) :=
  good.at_nullary (y := main_c_90) rfl (by decide) V

theorem after_v281 (V : Valuation τ sig (Elt F)) :
    after ops V (Proc.devRef .tc main_v281)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_90)) :=
  good.at_unary (x := main_c_90) (y := main_v281) rfl (by decide) (by decide) V

theorem after_v282 (V : Valuation τ sig (Elt F)) :
    after ops V (Proc.devRef .tc main_v282)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v255)) (after ops V (Proc.devRef .tc main_v281)) :=
  good.at_binary (a := main_v255) (b := main_v281) (y := main_v282) rfl (by decide) (by decide) (by decide) V

theorem after_v283 (V : Valuation τ sig (Elt F)) :
    after ops V (Proc.devRef .tc main_v283)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v280)) (after ops V (Proc.devRef .tc main_v282)) (after ops V (Proc.devRef .tc main_v255)) :=
  good.at_ternary (c := main_v280) (a := main_v282) (b := main_v255) (y := main_v283) rfl (by decide) (by decide) (by decide) (by decide) V

theorem after_v284 (V : Valuation τ sig (Elt F)) :
    after ops V (Proc.devRef .tc main_v284)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v278)) :=
  good.at_unary (x := main_v278) (y := main_v284) rfl (by decide) (by decide) V

theorem after_v285 (V : Valuation τ sig (Elt F)) :
    after ops V (Proc.devRef .tc main_v285)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v283)) :=
  good.at_unary (x := main_v283) (y := main_v285) rfl (by decide) (by decide) V

theorem after_v286 (V : Valuation τ sig (Elt F)) :
    after ops V (Proc.devRef .tc main_v286)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v284)) (after ops V (Proc.devRef .tc main_v285)) :=
  good.at_binary (a := main_v284) (b := main_v285) (y := main_v286) rfl (by decide) (by decide) (by decide) V

theorem after_v287 (V : Valuation τ sig (Elt F)) :
    after ops V (Proc.devRef .tc main_v287)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg3)) (after ops V (Proc.devRef .tc main_v286)) :=
  good.at_binary (a := main_arg3) (b := main_v286) (y := main_v287) rfl (by decide) (by decide) (by decide) V

theorem after_c_91 (V : Valuation τ sig (Elt F)) :
    after ops V (Proc.devRef .tc main_c_91)
      = ((constantI S_ 32 0#32) : (⟨S_, .i32⟩ : BufTy).Contents (Elt F)) :=
  good.at_nullary (y := main_c_91) rfl (by decide) V

theorem after_v288 (V : Valuation τ sig (Elt F)) :
    after ops V (Proc.devRef .tc main_v288)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_91)) :=
  good.at_unary (x := main_c_91) (y := main_v288) rfl (by decide) (by decide) V

theorem after_v289 (V : Valuation τ sig (Elt F)) :
    after ops V (Proc.devRef .tc main_v289)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v259)) (after ops V (Proc.devRef .tc main_v288)) :=
  good.at_binary (a := main_v259) (b := main_v288) (y := main_v289) rfl (by decide) (by decide) (by decide) V

theorem after_c_92 (V : Valuation τ sig (Elt F)) :
    after ops V (Proc.devRef .tc main_c_92)
      = ((constantI S_ 32 512#32) : (⟨S_, .i32⟩ : BufTy).Contents (Elt F)) :=
  good.at_nullary (y := main_c_92) rfl (by decide) V

theorem after_v290 (V : Valuation τ sig (Elt F)) :
    after ops V (Proc.devRef .tc main_v290)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_92)) :=
  good.at_unary (x := main_c_92) (y := main_v290) rfl (by decide) (by decide) V

theorem after_v291 (V : Valuation τ sig (Elt F)) :
    after ops V (Proc.devRef .tc main_v291)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v259)) (after ops V (Proc.devRef .tc main_v290)) :=
  good.at_binary (a := main_v259) (b := main_v290) (y := main_v291) rfl (by decide) (by decide) (by decide) V

theorem after_v292 (V : Valuation τ sig (Elt F)) :
    after ops V (Proc.devRef .tc main_v292)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v289)) (after ops V (Proc.devRef .tc main_v291)) (after ops V (Proc.devRef .tc main_v259)) :=
  good.at_ternary (c := main_v289) (a := main_v291) (b := main_v259) (y := main_v292) rfl (by decide) (by decide) (by decide) (by decide) V

theorem after_c_93 (V : Valuation τ sig (Elt F)) :
    after ops V (Proc.devRef .tc main_c_93)
      = ((constantI S_ 32 0#32) : (⟨S_, .i32⟩ : BufTy).Contents (Elt F)) :=
  good.at_nullary (y := main_c_93) rfl (by decide) V

theorem after_v293 (V : Valuation τ sig (Elt F)) :
    after ops V (Proc.devRef .tc main_v293)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_93)) :=
  good.at_unary (x := main_c_93) (y := main_v293) rfl (by decide) (by decide) V

theorem after_v294 (V : Valuation τ sig (Elt F)) :
    after ops V (Proc.devRef .tc main_v294)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v250)) (after ops V (Proc.devRef .tc main_v293)) :=
  good.at_binary (a := main_v250) (b := main_v293) (y := main_v294) rfl (by decide) (by decide) (by decide) V

theorem after_c_94 (V : Valuation τ sig (Elt F)) :
    after ops V (Proc.devRef .tc main_c_94)
      = ((constantI S_ 32 512#32) : (⟨S_, .i32⟩ : BufTy).Contents (Elt F)) :=
  good.at_nullary (y := main_c_94) rfl (by decide) V

theorem after_v295 (V : Valuation τ sig (Elt F)) :
    after ops V (Proc.devRef .tc main_v295)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_94)) :=
  good.at_unary (x := main_c_94) (y := main_v295) rfl (by decide) (by decide) V

theorem after_v296 (V : Valuation τ sig (Elt F)) :
    after ops V (Proc.devRef .tc main_v296)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v250)) (after ops V (Proc.devRef .tc main_v295)) :=
  good.at_binary (a := main_v250) (b := main_v295) (y := main_v296) rfl (by decide) (by decide) (by decide) V

theorem after_v297 (V : Valuation τ sig (Elt F)) :
    after ops V (Proc.devRef .tc main_v297)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v294)) (after ops V (Proc.devRef .tc main_v296)) (after ops V (Proc.devRef .tc main_v250)) :=
  good.at_ternary (c := main_v294) (a := main_v296) (b := main_v250) (y := main_v297) rfl (by decide) (by decide) (by decide) (by decide) V

theorem after_v298 (V : Valuation τ sig (Elt F)) :
    after ops V (Proc.devRef .tc main_v298)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v292)) :=
  good.at_unary (x := main_v292) (y := main_v298) rfl (by decide) (by decide) V

theorem after_v299 (V : Valuation τ sig (Elt F)) :
    after ops V (Proc.devRef .tc main_v299)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v297)) :=
  good.at_unary (x := main_v297) (y := main_v299) rfl (by decide) (by decide) V

theorem after_v300 (V : Valuation τ sig (Elt F)) :
    after ops V (Proc.devRef .tc main_v300)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v298)) (after ops V (Proc.devRef .tc main_v299)) :=
  good.at_binary (a := main_v298) (b := main_v299) (y := main_v300) rfl (by decide) (by decide) (by decide) V

theorem after_v301 (V : Valuation τ sig (Elt F)) :
    after ops V (Proc.devRef .tc main_v301)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg3)) (after ops V (Proc.devRef .tc main_v300)) :=
  good.at_binary (a := main_arg3) (b := main_v300) (y := main_v301) rfl (by decide) (by decide) (by decide) V

theorem after_c_95 (V : Valuation τ sig (Elt F)) :
    after ops V (Proc.devRef .tc main_c_95)
      = ((constantI S_ 32 0#32) : (⟨S_, .i32⟩ : BufTy).Contents (Elt F)) :=
  good.at_nullary (y := main_c_95) rfl (by decide) V

theorem after_v302 (V : Valuation τ sig (Elt F)) :
    after ops V (Proc.devRef .tc main_v302)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_95)) :=
  good.at_unary (x := main_c_95) (y := main_v302) rfl (by decide) (by decide) V

theorem after_v303 (V : Valuation τ sig (Elt F)) :
    after ops V (Proc.devRef .tc main_v303)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v259)) (after ops V (Proc.devRef .tc main_v302)) :=
  good.at_binary (a := main_v259) (b := main_v302) (y := main_v303) rfl (by decide) (by decide) (by decide) V

theorem after_c_96 (V : Valuation τ sig (Elt F)) :
    after ops V (Proc.devRef .tc main_c_96)
      = ((constantI S_ 32 512#32) : (⟨S_, .i32⟩ : BufTy).Contents (Elt F)) :=
  good.at_nullary (y := main_c_96) rfl (by decide) V

theorem after_v304 (V : Valuation τ sig (Elt F)) :
    after ops V (Proc.devRef .tc main_v304)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_96)) :=
  good.at_unary (x := main_c_96) (y := main_v304) rfl (by decide) (by decide) V

theorem after_v305 (V : Valuation τ sig (Elt F)) :
    after ops V (Proc.devRef .tc main_v305)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v259)) (after ops V (Proc.devRef .tc main_v304)) :=
  good.at_binary (a := main_v259) (b := main_v304) (y := main_v305) rfl (by decide) (by decide) (by decide) V

theorem after_v306 (V : Valuation τ sig (Elt F)) :
    after ops V (Proc.devRef .tc main_v306)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v303)) (after ops V (Proc.devRef .tc main_v305)) (after ops V (Proc.devRef .tc main_v259)) :=
  good.at_ternary (c := main_v303) (a := main_v305) (b := main_v259) (y := main_v306) rfl (by decide) (by decide) (by decide) (by decide) V

theorem after_c_97 (V : Valuation τ sig (Elt F)) :
    after ops V (Proc.devRef .tc main_c_97)
      = ((constantI S_ 32 0#32) : (⟨S_, .i32⟩ : BufTy).Contents (Elt F)) :=
  good.at_nullary (y := main_c_97) rfl (by decide) V

theorem after_v307 (V : Valuation τ sig (Elt F)) :
    after ops V (Proc.devRef .tc main_v307)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_97)) :=
  good.at_unary (x := main_c_97) (y := main_v307) rfl (by decide) (by decide) V

theorem after_v308 (V : Valuation τ sig (Elt F)) :
    after ops V (Proc.devRef .tc main_v308)
      = ((cmpi .slt : (⟨S4000000, .i32⟩ : BufTy).Contents (Elt F) → (⟨S4000000, .i32⟩ : BufTy).Contents (Elt F) → (⟨S4000000, .i1⟩ : BufTy).Contents (Elt F)) : (⟨S4000000, .i32⟩ : BufTy).Contents (Elt F) → (⟨S4000000, .i32⟩ : BufTy).Contents (Elt F) → (⟨S4000000, .i1⟩ : BufTy).Contents (Elt F))
        (after ops V (Proc.devRef .tc main_v255)) (after ops V (Proc.devRef .tc main_v307)) :=
  good.at_binary (a := main_v255) (b := main_v307) (y := main_v308) rfl (by decide) (by decide) (by decide) V

theorem after_c_98 (V : Valuation τ sig (Elt F)) :
    after ops V (Proc.devRef .tc main_c_98)
      = ((constantI S_ 32 512#32) : (⟨S_, .i32⟩ : BufTy).Contents (Elt F)) :=
  good.at_nullary (y := main_c_98) rfl (by decide) V

theorem after_v309 (V : Valuation τ sig (Elt F)) :
    after ops V (Proc.devRef .tc main_v309)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after ops V (Proc.devRef .tc main_c_98)) :=
  good.at_unary (x := main_c_98) (y := main_v309) rfl (by decide) (by decide) V

theorem after_v310 (V : Valuation τ sig (Elt F)) :
    after ops V (Proc.devRef .tc main_v310)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after ops V (Proc.devRef .tc main_v255)) (after ops V (Proc.devRef .tc main_v309)) :=
  good.at_binary (a := main_v255) (b := main_v309) (y := main_v310) rfl (by decide) (by decide) (by decide) V

theorem after_v311 (V : Valuation τ sig (Elt F)) :
    after ops V (Proc.devRef .tc main_v311)
      = ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
        (after ops V (Proc.devRef .tc main_v308)) (after ops V (Proc.devRef .tc main_v310)) (after ops V (Proc.devRef .tc main_v255)) :=
  good.at_ternary (c := main_v308) (a := main_v310) (b := main_v255) (y := main_v311) rfl (by decide) (by decide) (by decide) (by decide) V

theorem after_v312 (V : Valuation τ sig (Elt F)) :
    after ops V (Proc.devRef .tc main_v312)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v306)) :=
  good.at_unary (x := main_v306) (y := main_v312) rfl (by decide) (by decide) V

theorem after_v313 (V : Valuation τ sig (Elt F)) :
    after ops V (Proc.devRef .tc main_v313)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after ops V (Proc.devRef .tc main_v311)) :=
  good.at_unary (x := main_v311) (y := main_v313) rfl (by decide) (by decide) V

theorem after_v314 (V : Valuation τ sig (Elt F)) :
    after ops V (Proc.devRef .tc main_v314)
      = (((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)) : (⟨S4000000x1, .i32⟩ : BufTy).Contents (Elt F) → (⟨S4000000x1, .i32⟩ : BufTy).Contents (Elt F) → (⟨S4000000x2, .i32⟩ : BufTy).Contents (Elt F))
        (after ops V (Proc.devRef .tc main_v312)) (after ops V (Proc.devRef .tc main_v313)) :=
  good.at_binary (a := main_v312) (b := main_v313) (y := main_v314) rfl (by decide) (by decide) (by decide) V

theorem after_v315 (V : Valuation τ sig (Elt F)) :
    after ops V (Proc.devRef .tc main_v315)
      = (((fun x i => Host.gather gather_S512x512x8_S4000000x2_S4000000x8_1_01_n_n_01_1_118 x i) : (⟨S512x512x8, .f32⟩ : BufTy).Contents (Elt F) → (⟨S4000000x2, .i32⟩ : BufTy).Contents (Elt F) → (⟨S4000000x8, .f32⟩ : BufTy).Contents (Elt F)) : (⟨S512x512x8, .f32⟩ : BufTy).Contents (Elt F) → (⟨S4000000x2, .i32⟩ : BufTy).Contents (Elt F) → (⟨S4000000x8, .f32⟩ : BufTy).Contents (Elt F))
        (after ops V (Proc.devRef .tc main_arg3)) (after ops V (Proc.devRef .tc main_v314)) :=
  good.at_binary (a := main_arg3) (b := main_v314) (y := main_v315) rfl (by decide) (by decide) (by decide) V

theorem after_v316 (V : Valuation τ sig (Elt F)) :
    after ops V (Proc.devRef .tc main_v316)
      = ((subf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v287)) (after ops V (Proc.devRef .tc main_v273)) :=
  good.at_binary (a := main_v287) (b := main_v273) (y := main_v316) rfl (by decide) (by decide) (by decide) V

theorem after_v317 (V : Valuation τ sig (Elt F)) :
    after ops V (Proc.devRef .tc main_v317)
      = ((broadcastInDim S4000000x8 ![0, 1] bcast_S4000000x1_S4000000x8_0_1 : (⟨S4000000x1, .f32⟩ : BufTy).Contents (Elt F) → (⟨S4000000x8, .f32⟩ : BufTy).Contents (Elt F)) : (⟨S4000000x1, .f32⟩ : BufTy).Contents (Elt F) → (⟨S4000000x8, .f32⟩ : BufTy).Contents (Elt F))
        (after ops V (Proc.devRef .tc main_v247)) :=
  good.at_unary (x := main_v247) (y := main_v317) rfl (by decide) (by decide) V

theorem after_v318 (V : Valuation τ sig (Elt F)) :
    after ops V (Proc.devRef .tc main_v318)
      = ((mulf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v317)) (after ops V (Proc.devRef .tc main_v316)) :=
  good.at_binary (a := main_v317) (b := main_v316) (y := main_v318) rfl (by decide) (by decide) (by decide) V

end Cert.ReferenceIdeal.HandRun

end
-- ==== Proof.RefEqs7.lean ====
/- The reference program's line read one operation at a time, window 7: for each operation of the window, the buffer it
   writes holds, after the WHOLE line, the operation's function of what its operand buffers hold after the whole line —
   every value is defined once, before its uses, so nothing later in the line touches either side. One equation per
   operation, named after the buffer; a call's operations are read over the call's buffers, where a value moved through a
   typed reference is the value. -/
import proofs.«114771_j71983651881269_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_v319 (V : Valuation τ sig (Elt F)) :
    after ops V (Proc.devRef .tc main_v319)
      = ((addf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v273)) (after ops V (Proc.devRef .tc main_v318)) :=
  good.at_binary (a := main_v273) (b := main_v318) (y := main_v319) rfl (by decide) (by decide) (by decide) V

theorem after_v320 (V : Valuation τ sig (Elt F)) :
    after ops V (Proc.devRef .tc main_v320)
      = ((subf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v315)) (after ops V (Proc.devRef .tc main_v301)) :=
  good.at_binary (a := main_v315) (b := main_v301) (y := main_v320) rfl (by decide) (by decide) (by decide) V

theorem after_v321 (V : Valuation τ sig (Elt F)) :
    after ops V (Proc.devRef .tc main_v321)
      = ((broadcastInDim S4000000x8 ![0, 1] bcast_S4000000x1_S4000000x8_0_1 : (⟨S4000000x1, .f32⟩ : BufTy).Contents (Elt F) → (⟨S4000000x8, .f32⟩ : BufTy).Contents (Elt F)) : (⟨S4000000x1, .f32⟩ : BufTy).Contents (Elt F) → (⟨S4000000x8, .f32⟩ : BufTy).Contents (Elt F))
        (after ops V (Proc.devRef .tc main_v247)) :=
  good.at_unary (x := main_v247) (y := main_v321) rfl (by decide) (by decide) V

theorem after_v322 (V : Valuation τ sig (Elt F)) :
    after ops V (Proc.devRef .tc main_v322)
      = ((mulf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v321)) (after ops V (Proc.devRef .tc main_v320)) :=
  good.at_binary (a := main_v321) (b := main_v320) (y := main_v322) rfl (by decide) (by decide) (by decide) V

theorem after_v323 (V : Valuation τ sig (Elt F)) :
    after ops V (Proc.devRef .tc main_v323)
      = ((addf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v301)) (after ops V (Proc.devRef .tc main_v322)) :=
  good.at_binary (a := main_v301) (b := main_v322) (y := main_v323) rfl (by decide) (by decide) (by decide) V

theorem after_v324 (V : Valuation τ sig (Elt F)) :
    after ops V (Proc.devRef .tc main_v324)
      = ((subf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v323)) (after ops V (Proc.devRef .tc main_v319)) :=
  good.at_binary (a := main_v323) (b := main_v319) (y := main_v324) rfl (by decide) (by decide) (by decide) V

theorem after_v325 (V : Valuation τ sig (Elt F)) :
    after ops V (Proc.devRef .tc main_v325)
      = ((broadcastInDim S4000000x8 ![0, 1] bcast_S4000000x1_S4000000x8_0_1 : (⟨S4000000x1, .f32⟩ : BufTy).Contents (Elt F) → (⟨S4000000x8, .f32⟩ : BufTy).Contents (Elt F)) : (⟨S4000000x1, .f32⟩ : BufTy).Contents (Elt F) → (⟨S4000000x8, .f32⟩ : BufTy).Contents (Elt F))
        (after ops V (Proc.devRef .tc main_v249)) :=
  good.at_unary (x := main_v249) (y := main_v325) rfl (by decide) (by decide) V

theorem after_v326 (V : Valuation τ sig (Elt F)) :
    after ops V (Proc.devRef .tc main_v326)
      = ((mulf : (⟨S4000000x8, .f32⟩ : BufTy).Contents (Elt F) → (⟨S4000000x8, .f32⟩ : BufTy).Contents (Elt F) → (⟨S4000000x8, .f32⟩ : BufTy).Contents (Elt F)) : (⟨S4000000x8, .f32⟩ : BufTy).Contents (Elt F) → (⟨S4000000x8, .f32⟩ : BufTy).Contents (Elt F) → (⟨S4000000x8, .f32⟩ : BufTy).Contents (Elt F))
        (after ops V (Proc.devRef .tc main_v325)) (after ops V (Proc.devRef .tc main_v324)) :=
  good.at_binary (a := main_v325) (b := main_v324) (y := main_v326) rfl (by decide) (by decide) (by decide) V

theorem after_v331 (V : Valuation τ sig (Elt F)) :
    after ops V (Proc.devRef .tc main_v331)
      = ((broadcastInDim S1x8 ![1] bcast_S8_S1x8_1 : (⟨S8, .f32⟩ : BufTy).Contents (Elt F) → (⟨S1x8, .f32⟩ : BufTy).Contents (Elt F)) : (⟨S8, .f32⟩ : BufTy).Contents (Elt F) → (⟨S1x8, .f32⟩ : BufTy).Contents (Elt F))
        (after ops V (Proc.devRef .tc main_arg5)) :=
  good.at_unary (x := main_arg5) (y := main_v331) rfl (by decide) (by decide) V

theorem after_v332 (V : Valuation τ sig (Elt F)) :
    after ops V (Proc.devRef .tc main_v332)
      = ((broadcastInDim S4000000x8 ![0, 1] bcast_S1x8_S4000000x8_0_1 : (⟨S1x8, .f32⟩ : BufTy).Contents (Elt F) → (⟨S4000000x8, .f32⟩ : BufTy).Contents (Elt F)) : (⟨S1x8, .f32⟩ : BufTy).Contents (Elt F) → (⟨S4000000x8, .f32⟩ : BufTy).Contents (Elt F))
        (after ops V (Proc.devRef .tc main_v331)) :=
  good.at_unary (x := main_v331) (y := main_v332) rfl (by decide) (by decide) V

theorem after_cst_99 (V : Valuation τ sig (Elt F)) :
    after ops V (Proc.devRef .tc main_cst_99)
      = ((constant S_ .f32 0xC1200000#32) : (⟨S_, .f32⟩ : BufTy).Contents (Elt F)) :=
  good.at_nullary (y := main_cst_99) rfl (by decide) V

theorem after_cst_100 (V : Valuation τ sig (Elt F)) :
    after ops V (Proc.devRef .tc main_cst_100)
      = ((constant S_ .f32 0x41200000#32) : (⟨S_, .f32⟩ : BufTy).Contents (Elt F)) :=
  good.at_nullary (y := main_cst_100) rfl (by decide) V

theorem after_call7_v0 (V : Valuation τ sig (Elt F)) :
    after ops V (Proc.devRef .tc main_call7_v0)
      = (id : (⟨S_, .f32⟩ : BufTy).Contents (Elt F) → (⟨S_, .f32⟩ : BufTy).Contents (Elt F))
        (after ops V (Proc.devRef .tc main_cst_99)) :=
  good.at_unary (x := main_cst_99) (y := main_call7_v0) rfl (by decide) (by decide) V

theorem after_call7_v1 (V : Valuation τ sig (Elt F)) :
    after ops V (Proc.devRef .tc main_call7_v1)
      = ((broadcastInDim S4000000x8 ![] bcast_S_S4000000x8) : (⟨S_, .f32⟩ : BufTy).Contents (Elt F) → (⟨S4000000x8, .f32⟩ : BufTy).Contents (Elt F))
        (after ops V (Proc.devRef .tc main_call7_v0)) :=
  good.at_unary (x := main_call7_v0) (y := main_call7_v1) rfl (by decide) (by decide) V

theorem after_call7_v2 (V : Valuation τ sig (Elt F)) :
    after ops V (Proc.devRef .tc main_call7_v2)
      = (maximumf : (⟨S4000000x8, .f32⟩ : BufTy).Contents (Elt F) → (⟨S4000000x8, .f32⟩ : BufTy).Contents (Elt F) → (⟨S4000000x8, .f32⟩ : BufTy).Contents (Elt F))
        (after ops V (Proc.devRef .tc main_call7_v1)) (after ops V (Proc.devRef .tc main_v333)) :=
  good.at_binary (a := main_call7_v1) (b := main_v333) (y := main_call7_v2) rfl (by decide) (by decide) (by decide) V

theorem after_call7_v3 (V : Valuation τ sig (Elt F)) :
    after ops V (Proc.devRef .tc main_call7_v3)
      = (id : (⟨S_, .f32⟩ : BufTy).Contents (Elt F) → (⟨S_, .f32⟩ : BufTy).Contents (Elt F))
        (after ops V (Proc.devRef .tc main_cst_100)) :=
  good.at_unary (x := main_cst_100) (y := main_call7_v3) rfl (by decide) (by decide) V

theorem after_call7_v4 (V : Valuation τ sig (Elt F)) :
    after ops V (Proc.devRef .tc main_call7_v4)
      = ((broadcastInDim S4000000x8 ![] bcast_S_S4000000x8) : (⟨S_, .f32⟩ : BufTy).Contents (Elt F) → (⟨S4000000x8, .f32⟩ : BufTy).Contents (Elt F))
        (after ops V (Proc.devRef .tc main_call7_v3)) :=
  good.at_unary (x := main_call7_v3) (y := main_call7_v4) rfl (by decide) (by decide) V

end Cert.ReferenceIdeal.HandRun

end
-- ==== Proof.LibPixelIndex.lean ====
import Idealize.ShloMosaic.PureOps.Ideal

/-!
# From a clipped pixel coordinate to a pixel index

The arithmetic that turns an extended-real pixel coordinate into an in-range integer index,
with no program in sight.

1. **The constants.**  The `f32` words that spell `0`, `511`, `1`, `512`, `1/2` and `-1`, as the
   extended reals they denote.
2. **The clip.**  For every extended real `z` — finite or not — `min 511 (max 0 z)` is a real
   number in `[0, 511]`.  This is why no finiteness hypothesis is needed downstream: the clip
   lands in the reals whatever came in.
3. **Floor, then conversion.**  For a real `r ∈ [0, 511]` the floor is the integer `⌊r⌋ ∈ [0, 511]`,
   the conversion to a signed 32-bit word is exact (no clamping happens), and the word reads
   back as `⌊r⌋`, signed or unsigned.
4. **Index arithmetic on 32-bit words.**  For words whose signed reading lies in `[0, 511]`:
   the successor capped at `511`, the flattened index `a * 512 + b ∈ [0, 262143]`, none of it
   wraps; the sign tests `· < 0` are false and the range tests `0 ≤ · ≤ 262143` are true, so
   the negative-index normalisation `if i < 0 then i + n else i` is the identity and the
   in-range mask is `1`.
-/

noncomputable section

namespace Cert.Lib.PixelIndex

open Idealize.ShloMosaic

/-! ## 1. The constants -/

/-- The word `0x00000000` (`+0.0`) denotes `0`. -/
theorem ofBits_zero : Ideal.ofBits .f32 0x00000000#32 = 0 := by
  simp [Ideal.ofBits, Ideal.ieee]

/-- The word `0x43FF8000` denotes `511 = 2^8 · (1 + 8355840 / 2^23)`. -/
theorem ofBits_511 : Ideal.ofBits .f32 0x43FF8000#32 = ((511 : ℝ) : EReal) := by
  simp [Ideal.ofBits, Ideal.ieee, -EReal.coe_mul]; norm_num

/-- The word `0x3F800000` denotes `1`. -/
theorem ofBits_one : Ideal.ofBits .f32 0x3F800000#32 = ((1 : ℝ) : EReal) := by
  simp [Ideal.ofBits, Ideal.ieee, -EReal.coe_mul]; norm_num

/-- The word `0x44000000` denotes `512 = 2^9`. -/
theorem ofBits_512 : Ideal.ofBits .f32 0x44000000#32 = ((512 : ℝ) : EReal) := by
  simp [Ideal.ofBits, Ideal.ieee, -EReal.coe_mul]; norm_num

/-- The word `0x3F000000` denotes `1/2 = 2^(-1)`. -/
theorem ofBits_half : Ideal.ofBits .f32 0x3F000000#32 = ((1 / 2 : ℝ) : EReal) := by
  simp [Ideal.ofBits, Ideal.ieee, -EReal.coe_mul]; norm_num

/-- The word `0xBF800000` denotes `-1`. -/
theorem ofBits_neg_one : Ideal.ofBits .f32 0xBF800000#32 = ((-1 : ℝ) : EReal) := by
  simp [Ideal.ofBits, Ideal.ieee, -EReal.coe_mul]; norm_num

/-! ## 2. The clip lands in the reals -/

/-- Clipping any extended real to a real interval `[lo, hi]` (`lo ≤ hi`) gives a real number of
that interval: `-∞` goes to `lo`, `+∞` to `hi`, a real `x` to `min hi (max lo x)`. -/
theorem clip_real (lo hi : ℝ) (h : lo ≤ hi) (z : EReal) :
    ∃ r : ℝ, min (hi : EReal) (max (lo : EReal) z) = (r : EReal) ∧ lo ≤ r ∧ r ≤ hi := by
  induction z using EReal.rec with
  | bot =>
    refine ⟨lo, ?_, le_refl _, h⟩
    rw [max_bot_right, min_eq_right (EReal.coe_le_coe_iff.mpr h)]
  | coe x =>
    refine ⟨min hi (max lo x), ?_, le_min h (le_max_left _ _), min_le_left _ _⟩
    rw [← EReal.coe_strictMono.monotone.map_max, ← EReal.coe_strictMono.monotone.map_min]
  | top =>
    refine ⟨hi, ?_, h, le_refl _⟩
    rw [max_top_right, min_top_right]

/-- **The pixel coordinate is a real in `[0, 511]`, whatever the input.** -/
theorem pixel_clip (z : EReal) :
    ∃ r : ℝ, min ((511 : ℝ) : EReal) (max ((0 : ℝ) : EReal) z) = (r : EReal) ∧ 0 ≤ r ∧ r ≤ 511 :=
  clip_real 0 511 (by norm_num) z

/-- The same with the bounds spelled by their `f32` words, in the order the clip applies them:
`minimumf 511 (maximumf 0 z)`. -/
theorem pixel_clip_words (z : EReal) :
    ∃ r : ℝ, min (Ideal.ofBits .f32 0x43FF8000#32) (max (Ideal.ofBits .f32 0x00000000#32) z)
        = (r : EReal) ∧ 0 ≤ r ∧ r ≤ 511 := by
  rw [ofBits_511, ofBits_zero, ← EReal.coe_zero]
  exact pixel_clip z

/-- The same through the float-operation names. -/
theorem pixel_clip_ops (z : Ideal .f32) :
    ∃ r : ℝ, FloatOps.minimumf (F := Ideal) (φ := .f32) (FloatOps.ofBits (F := Ideal) .f32 0x43FF8000#32)
        (FloatOps.maximumf (F := Ideal) (φ := .f32) (FloatOps.ofBits (F := Ideal) .f32 0x00000000#32) z)
        = ((r : EReal) : Ideal .f32) ∧ 0 ≤ r ∧ r ≤ 511 :=
  pixel_clip_words z

/-- The coordinate clip: `min 1 (max (-1) z)` is a real in `[-1, 1]`, whatever the input. -/
theorem coord_clip (z : EReal) :
    ∃ r : ℝ, min ((1 : ℝ) : EReal) (max ((-1 : ℝ) : EReal) z) = (r : EReal) ∧ -1 ≤ r ∧ r ≤ 1 :=
  clip_real (-1) 1 (by norm_num) z

/-! ## 3. Floor and conversion to a 32-bit word -/

/-- The floor of a real, read as an extended real, is the integer `⌊r⌋`. -/
theorem floor_coe (r : ℝ) : Ideal.liftRound Int.floor (r : EReal) = (((⌊r⌋ : ℤ) : ℝ) : EReal) := rfl

/-- For `0 ≤ r ≤ 511` the floor is an integer of `[0, 511]`. -/
theorem floor_mem {r : ℝ} (h0 : 0 ≤ r) (h1 : r ≤ 511) : 0 ≤ ⌊r⌋ ∧ ⌊r⌋ ≤ 511 := by
  refine ⟨Int.floor_nonneg.mpr h0, ?_⟩
  have h : ((⌊r⌋ : ℤ) : ℝ) ≤ 511 := (Int.floor_le r).trans h1
  exact_mod_cast h

/-- A reduction of an integer into the balanced residues modulo `2^32` leaves an integer of
`[-2^31, 2^31)` alone. -/
theorem bmod_two_pow_32 {n : ℤ} (h1 : -2147483648 ≤ n) (h2 : n < 2147483648) :
    n.bmod (2 ^ 32) = n := by
  apply Int.bmod_eq_of_le <;> omega

/-- Converting an integer-valued real of the signed 32-bit range to a signed 32-bit word is
exact: truncation toward zero does nothing to an integer and the clamp is not reached. -/
theorem fptosi_intCast {n : ℤ} (h1 : -2147483648 ≤ n) (h2 : n ≤ 2147483647) :
    Ideal.fptosi 32 (((n : ℝ)) : EReal) = BitVec.ofInt 32 n := by
  have hn : (if (0 : ℝ) ≤ (n : ℝ) then ⌊(n : ℝ)⌋ else ⌈(n : ℝ)⌉) = n := by
    split_ifs <;> simp
  have e : ((2 ^ (32 - 1) : ℕ) : ℤ) = 2147483648 := by norm_num
  rw [Ideal.fptosi, Ideal.toIntClamped_coe, hn, e]
  congr 1
  omega

/-- **Floor then conversion.**  For a real `0 ≤ r ≤ 511`, converting `⌊r⌋` to a signed 32-bit
word gives the word of the integer `⌊r⌋`. -/
theorem fptosi_floor {r : ℝ} (h0 : 0 ≤ r) (h1 : r ≤ 511) :
    Ideal.fptosi 32 (Ideal.liftRound Int.floor (r : EReal)) = BitVec.ofInt 32 ⌊r⌋ := by
  obtain ⟨hf0, hf1⟩ := floor_mem h0 h1
  rw [floor_coe]
  exact fptosi_intCast (by omega) (by omega)

/-- The same through the float-operation names (`floor` of the kernel and of the host are both
this rounding). -/
theorem fptosi_floor_ops {r : ℝ} (h0 : 0 ≤ r) (h1 : r ≤ 511) :
    FloatOps.fptosi (F := Ideal) (φ := .f32) 32 (FloatOps.floor (F := Ideal) (φ := .f32) ((r : EReal) : Ideal .f32))
      = BitVec.ofInt 32 ⌊r⌋ :=
  fptosi_floor h0 h1

/-- The signed reading of the word of an integer of the signed 32-bit range is that integer. -/
theorem toInt_ofInt_32 {n : ℤ} (h1 : -2147483648 ≤ n) (h2 : n ≤ 2147483647) :
    (BitVec.ofInt 32 n).toInt = n := by
  rw [BitVec.toInt_ofInt]
  exact bmod_two_pow_32 h1 (by omega)

/-- The unsigned reading of the word of a non-negative integer below `2^32` is that integer. -/
theorem toNat_ofInt_32 {n : ℤ} (h1 : 0 ≤ n) (h2 : n ≤ 4294967295) :
    (BitVec.ofInt 32 n).toNat = n.toNat := by
  rw [BitVec.toNat_ofInt]
  congr 1
  omega

/-- For `0 ≤ r ≤ 511`: the signed reading of the converted floor is `⌊r⌋`, which lies in `[0, 511]`. -/
theorem toInt_fptosi_floor {r : ℝ} (h0 : 0 ≤ r) (h1 : r ≤ 511) :
    (Ideal.fptosi 32 (Ideal.liftRound Int.floor (r : EReal))).toInt = ⌊r⌋
      ∧ 0 ≤ ⌊r⌋ ∧ ⌊r⌋ ≤ 511 := by
  obtain ⟨hf0, hf1⟩ := floor_mem h0 h1
  refine ⟨?_, hf0, hf1⟩
  rw [fptosi_floor h0 h1]
  exact toInt_ofInt_32 (by omega) (by omega)

/-- For `0 ≤ r ≤ 511`: the unsigned reading of the converted floor is `⌊r⌋` as a natural number. -/
theorem toNat_fptosi_floor {r : ℝ} (h0 : 0 ≤ r) (h1 : r ≤ 511) :
    (Ideal.fptosi 32 (Ideal.liftRound Int.floor (r : EReal))).toNat = ⌊r⌋.toNat := by
  obtain ⟨hf0, hf1⟩ := floor_mem h0 h1
  rw [fptosi_floor h0 h1]
  exact toNat_ofInt_32 hf0 (by omega)

/-! ## 4. Index arithmetic on 32-bit words -/

/-- A word with a non-negative signed reading has the same unsigned reading. -/
theorem toNat_eq_toInt {a : BitVec 32} (h : 0 ≤ a.toInt) : (a.toNat : ℤ) = a.toInt := by
  have hlt := a.isLt
  rw [BitVec.toInt_eq_toNat_cond] at h ⊢
  split_ifs at h ⊢ with hc <;> omega

theorem toInt_lit_0 : (0#32 : BitVec 32).toInt = 0 := by decide
theorem toInt_lit_1 : (1#32 : BitVec 32).toInt = 1 := by decide
theorem toInt_lit_511 : (511#32 : BitVec 32).toInt = 511 := by decide
theorem toInt_lit_512 : (512#32 : BitVec 32).toInt = 512 := by decide
theorem toInt_lit_262143 : (262143#32 : BitVec 32).toInt = 262143 := by decide
theorem toInt_lit_262144 : (262144#32 : BitVec 32).toInt = 262144 := by decide

/-- The successor of a word of `[0, 511]` does not wrap. -/
theorem toInt_add_one {a : BitVec 32} (h0 : 0 ≤ a.toInt) (h1 : a.toInt ≤ 511) :
    (a + 1#32).toInt = a.toInt + 1 := by
  rw [BitVec.toInt_add, toInt_lit_1]
  exact bmod_two_pow_32 (by omega) (by omega)

/-- **The capped successor**: `min (a + 1) 511` on words of `[0, 511]`, signed minimum. -/
theorem toInt_minsi_succ {a : BitVec 32} (h0 : 0 ≤ a.toInt) (h1 : a.toInt ≤ 511) :
    (IntOp.minsi (IntOp.addi a 1#32) 511#32).toInt = min (a.toInt + 1) 511 := by
  have e := toInt_add_one h0 h1
  show (if (a + 1#32).slt 511#32 then a + 1#32 else 511#32).toInt = min (a.toInt + 1) 511
  split_ifs with hc
  · rw [BitVec.slt_iff_toInt_lt, e, toInt_lit_511] at hc
    rw [e]; omega
  · rw [BitVec.slt_iff_toInt_lt, e, toInt_lit_511] at hc
    rw [toInt_lit_511]; omega

/-- The capped successor stays in `[0, 511]`. -/
theorem toInt_minsi_succ_mem {a : BitVec 32} (h0 : 0 ≤ a.toInt) (h1 : a.toInt ≤ 511) :
    0 ≤ (IntOp.minsi (IntOp.addi a 1#32) 511#32).toInt
      ∧ (IntOp.minsi (IntOp.addi a 1#32) 511#32).toInt ≤ 511 := by
  rw [toInt_minsi_succ h0 h1]; omega

/-- **The flattened index** `a * 512 + b` of two words of `[0, 511]` does not wrap. -/
theorem toInt_flat {a b : BitVec 32} (ha0 : 0 ≤ a.toInt) (ha1 : a.toInt ≤ 511)
    (hb0 : 0 ≤ b.toInt) (hb1 : b.toInt ≤ 511) :
    (IntOp.addi (IntOp.muli a 512#32) b).toInt = a.toInt * 512 + b.toInt := by
  show (a * 512#32 + b).toInt = a.toInt * 512 + b.toInt
  have hm : (a * 512#32).toInt = a.toInt * 512 := by
    rw [BitVec.toInt_mul, toInt_lit_512]
    exact bmod_two_pow_32 (by omega) (by omega)
  rw [BitVec.toInt_add, hm]
  exact bmod_two_pow_32 (by omega) (by omega)

/-- The flattened index lies in `[0, 262143]`. -/
theorem toInt_flat_mem {a b : BitVec 32} (ha0 : 0 ≤ a.toInt) (ha1 : a.toInt ≤ 511)
    (hb0 : 0 ≤ b.toInt) (hb1 : b.toInt ≤ 511) :
    0 ≤ (IntOp.addi (IntOp.muli a 512#32) b).toInt
      ∧ (IntOp.addi (IntOp.muli a 512#32) b).toInt ≤ 262143 := by
  rw [toInt_flat ha0 ha1 hb0 hb1]; omega

/-- The unsigned reading of the flattened index. -/
theorem toNat_flat {a b : BitVec 32} (ha0 : 0 ≤ a.toInt) (ha1 : a.toInt ≤ 511)
    (hb0 : 0 ≤ b.toInt) (hb1 : b.toInt ≤ 511) :
    (IntOp.addi (IntOp.muli a 512#32) b).toNat = a.toNat * 512 + b.toNat := by
  have hk := toInt_flat ha0 ha1 hb0 hb1
  have hk0 := (toInt_flat_mem ha0 ha1 hb0 hb1).1
  have e1 := toNat_eq_toInt hk0
  have e2 := toNat_eq_toInt ha0
  have e3 := toNat_eq_toInt hb0
  omega

/-- A signed test `k < 0` on a word with non-negative signed reading answers `0`. -/
theorem cmpi_slt_zero {k : BitVec 32} (h0 : 0 ≤ k.toInt) : IntOp.cmpi .slt k 0#32 = 0#1 := by
  have hf : k.slt 0#32 = false := by
    rw [Bool.eq_false_iff]
    intro hc
    rw [BitVec.slt_iff_toInt_lt, toInt_lit_0] at hc
    omega
  show BitVec.ofBool (k.slt 0#32) = 0#1
  rw [hf]; rfl

/-- A signed test `k ≥ 0` on a word with non-negative signed reading answers `1`. -/
theorem cmpi_sge_zero {k : BitVec 32} (h0 : 0 ≤ k.toInt) : IntOp.cmpi .sge k 0#32 = 1#1 := by
  have ht : (0#32 : BitVec 32).sle k = true := by
    rw [BitVec.sle_iff_toInt_le, toInt_lit_0]; exact h0
  show BitVec.ofBool ((0#32 : BitVec 32).sle k) = 1#1
  rw [ht]; rfl

/-- A signed test `k ≤ 262143` on a word whose signed reading is at most `262143` answers `1`. -/
theorem cmpi_sle_262143 {k : BitVec 32} (h1 : k.toInt ≤ 262143) :
    IntOp.cmpi .sle k 262143#32 = 1#1 := by
  have ht : k.sle 262143#32 = true := by
    rw [BitVec.sle_iff_toInt_le, toInt_lit_262143]; exact h1
  show BitVec.ofBool (k.sle 262143#32) = 1#1
  rw [ht]; rfl

/-- **The in-range mask is `1`** for a word of `[0, 262143]`: `(k ≥ 0) and (k ≤ 262143)`. -/
theorem mask_in_range {k : BitVec 32} (h0 : 0 ≤ k.toInt) (h1 : k.toInt ≤ 262143) :
    IntOp.andi (IntOp.cmpi .sge k 0#32) (IntOp.cmpi .sle k 262143#32) = 1#1 := by
  rw [cmpi_sge_zero h0, cmpi_sle_262143 h1]; rfl

/-- A selection on the condition `0` takes the second branch. -/
theorem select_zero {α : Type} (x y : α) : Scalar.select 0#1 x y = y := by
  show (if (0#1 : BitVec 1) = 1 then x else y) = y
  rw [if_neg (by decide)]

/-- A selection on the condition `1` takes the first branch. -/
theorem select_one {α : Type} (x y : α) : Scalar.select 1#1 x y = x := by
  show (if (1#1 : BitVec 1) = 1 then x else y) = x
  rw [if_pos (by decide)]

/-- **Negative-index normalisation is the identity on a non-negative word**:
`if k < 0 then k + n else k` is `k`, whatever `n`. -/
theorem select_slt_zero {k : BitVec 32} (h0 : 0 ≤ k.toInt) (n : BitVec 32) :
    Scalar.select (IntOp.cmpi .slt k 0#32) (IntOp.addi k n) k = k := by
  rw [cmpi_slt_zero h0, select_zero]

/-- The capped successor as a word: the word of the integer `min (a + 1) 511`. -/
theorem minsi_succ_eq_ofInt {a : BitVec 32} (h0 : 0 ≤ a.toInt) (h1 : a.toInt ≤ 511) :
    IntOp.minsi (IntOp.addi a 1#32) 511#32 = BitVec.ofInt 32 (min (a.toInt + 1) 511) := by
  apply BitVec.eq_of_toInt_eq
  rw [toInt_minsi_succ h0 h1, toInt_ofInt_32 (by omega) (by omega)]

/-- The flattened index as a word: the word of the integer `a * 512 + b`. -/
theorem flat_eq_ofInt {a b : BitVec 32} (ha0 : 0 ≤ a.toInt) (ha1 : a.toInt ≤ 511)
    (hb0 : 0 ≤ b.toInt) (hb1 : b.toInt ≤ 511) :
    IntOp.addi (IntOp.muli a 512#32) b = BitVec.ofInt 32 (a.toInt * 512 + b.toInt) := by
  apply BitVec.eq_of_toInt_eq
  rw [toInt_flat ha0 ha1 hb0 hb1, toInt_ofInt_32 (by omega) (by omega)]

/-- **A flattened index needs no normalisation and is never masked**: for words `a, b` of
`[0, 511]` and `k = a * 512 + b`, `if k < 0 then k + 262144 else k` is `k` and
`(k ≥ 0) and (k ≤ 262143)` is `1`. -/
theorem flat_select_mask {a b : BitVec 32} (ha0 : 0 ≤ a.toInt) (ha1 : a.toInt ≤ 511)
    (hb0 : 0 ≤ b.toInt) (hb1 : b.toInt ≤ 511) :
    Scalar.select (IntOp.cmpi .slt (IntOp.addi (IntOp.muli a 512#32) b) 0#32)
        (IntOp.addi (IntOp.addi (IntOp.muli a 512#32) b) 262144#32) (IntOp.addi (IntOp.muli a 512#32) b)
      = IntOp.addi (IntOp.muli a 512#32) b
    ∧ IntOp.andi (IntOp.cmpi .sge (IntOp.addi (IntOp.muli a 512#32) b) 0#32)
        (IntOp.cmpi .sle (IntOp.addi (IntOp.muli a 512#32) b) 262143#32) = 1#1 := by
  obtain ⟨hk0, hk1⟩ := toInt_flat_mem ha0 ha1 hb0 hb1
  exact ⟨select_slt_zero hk0 _, mask_in_range hk0 hk1⟩

end Cert.Lib.PixelIndex

end
-- ==== Proof.SpecRange.lean ====
/-
  RANGE FACTS OF THE TRI-PLANE SAMPLER'S SCALAR VOCABULARY, for every extended real — no finiteness hypothesis.

  The pixel coordinate `pix u` is a clip into `[0, 511]`, so it is a real number of that interval whatever `u` is
  (`-∞` goes to 0, `+∞` to 511). Hence the cell word `xw u` reads, signed, as the integer `⌊pix u⌋ ∈ [0, 511]`, the
  capped next cell `xw1 u` as `min (⌊pix u⌋ + 1) 511 ∈ [0, 511]`, and the interpolation weight `frac u` is a real of
  `[0, 1)`. A word with signed reading in `[0, 511]` is called a CELL word (`IsCell`). On cell words `a` (the row) and
  `b` (the column): the flattened word `a · 512 + b` reads as `512 · a + b ∈ [0, 262143]` with no wrap-around; it is not
  negative, so "add the extent if negative" leaves it alone, and it passes both range tests, so the in-range mask is
  1; and the same "add 512 if negative" normalisation leaves a cell word alone. Clamped into their axes, a cell word
  is its own row number and the flattened word is row `512 · row + column` of the flattened plane.
-/
import proofs.«114771_j71983651881269_2_alg».proof.Proof.Spec
import proofs.«114771_j71983651881269_2_alg».proof.Proof.LibPixelIndex

noncomputable section

namespace Cert.TriPlane

open Idealize.ShloMosaic
open Cert.Lib.PixelIndex

/-! ## The pixel coordinate, its floor and its fractional part -/

/-- The pixel coordinate is a real number of `[0, 511]`, whatever the coordinate. -/
theorem pix_real (u : EReal) : ∃ r : ℝ, pix u = (r : EReal) ∧ 0 ≤ r ∧ r ≤ 511 :=
  pixel_clip_words _

/-- The clipped coordinate is a real number of `[-1, 1]`, whatever the coordinate. -/
theorem clip1_real (x : EReal) : ∃ r : ℝ, clip1 x = (r : EReal) ∧ -1 ≤ r ∧ r ≤ 1 := by
  unfold clip1
  rw [ofBits_one, ofBits_neg_one]
  exact coord_clip x

/-- Where the pixel coordinate is the real `r`, the cell word is the word of `⌊r⌋`. -/
theorem xw_eq_ofInt (u : EReal) {r : ℝ} (hr : pix u = (r : EReal)) (h0 : 0 ≤ r) (h1 : r ≤ 511) :
    xw u = BitVec.ofInt 32 ⌊r⌋ := by
  unfold xw
  rw [hr]
  exact fptosi_floor h0 h1

/-- Where the pixel coordinate is the real `r`, the cell word reads, signed, as `⌊r⌋`. -/
theorem xw_toInt_eq_floor (u : EReal) {r : ℝ} (hr : pix u = (r : EReal)) (h0 : 0 ≤ r) (h1 : r ≤ 511) :
    (xw u).toInt = ⌊r⌋ := by
  unfold xw
  rw [hr]
  exact (toInt_fptosi_floor h0 h1).1

/-- Where the pixel coordinate is the real `r`, the interpolation weight is the fractional part of `r`. -/
theorem frac_eq_fract (u : EReal) {r : ℝ} (hr : pix u = (r : EReal)) :
    frac u = ((Int.fract r : ℝ) : EReal) := by
  unfold frac
  rw [hr, floor_coe, ← EReal.coe_sub, Int.self_sub_floor]

/-- The interpolation weight is a real number of `[0, 1)`, whatever the coordinate. -/
theorem frac_real (u : EReal) : ∃ t : ℝ, frac u = (t : EReal) ∧ 0 ≤ t ∧ t < 1 := by
  obtain ⟨r, hr, _, _⟩ := pix_real u
  exact ⟨Int.fract r, frac_eq_fract u hr, Int.fract_nonneg r, Int.fract_lt_one r⟩

/-! ## Cell words -/

/-- A CELL word: a 32-bit word whose signed reading lies in `[0, 511]`. -/
def IsCell (a : BitVec 32) : Prop := 0 ≤ a.toInt ∧ a.toInt ≤ 511

/-- The cell word of any coordinate reads, signed, in `[0, 511]`. -/
theorem xw_range (u : EReal) : 0 ≤ (xw u).toInt ∧ (xw u).toInt ≤ 511 := by
  obtain ⟨r, hr, h0, h1⟩ := pix_real u
  rw [xw_toInt_eq_floor u hr h0 h1]
  exact floor_mem h0 h1

/-- The capped next cell of any coordinate reads, signed, as `min (cell + 1) 511`. -/
theorem xw1_toInt (u : EReal) : (xw1 u).toInt = min ((xw u).toInt + 1) 511 :=
  toInt_minsi_succ (xw_range u).1 (xw_range u).2

/-- The capped next cell of any coordinate reads, signed, in `[0, 511]`. -/
theorem xw1_range (u : EReal) : 0 ≤ (xw1 u).toInt ∧ (xw1 u).toInt ≤ 511 :=
  toInt_minsi_succ_mem (xw_range u).1 (xw_range u).2

theorem xw_isCell (u : EReal) : IsCell (xw u) := xw_range u
theorem xw1_isCell (u : EReal) : IsCell (xw1 u) := xw1_range u

/-- A cell word, clamped into an axis of extent 512, is its own row number. -/
theorem clampIdx_cell {a : BitVec 32} (ha : IsCell a) :
    ((Cert.Lib.TakeRows.clampIdx 512 (by norm_num) a).val : Int) = a.toInt :=
  Cert.Lib.TakeRows.clampIdx_val_of_range 512 (by norm_num) a ha.1 (by have := ha.2; omega)

/-- The row number of the cell is the cell word's signed reading. -/
theorem cellLo_val (u : EReal) : ((cellLo u).val : Int) = (xw u).toInt := clampIdx_cell (xw_isCell u)

/-- The row number of the next cell is the next-cell word's signed reading. -/
theorem cellHi_val (u : EReal) : ((cellHi u).val : Int) = (xw1 u).toInt := clampIdx_cell (xw1_isCell u)

/-- The cell word's signed reading is the cell's row number (the orientation an index hypothesis takes). -/
theorem xw_toInt (u : EReal) : (xw u).toInt = ((cellLo u).val : Int) := (cellLo_val u).symm

/-- The next-cell word's signed reading is the next cell's row number. -/
theorem xw1_toInt_cellHi (u : EReal) : (xw1 u).toInt = ((cellHi u).val : Int) := (cellHi_val u).symm

/-- The next cell is the cell plus one, capped at 511, as row numbers. -/
theorem cellHi_val_eq (u : EReal) : (cellHi u).val = min ((cellLo u).val + 1) 511 := by
  have h1 := cellHi_val u
  have h2 := cellLo_val u
  have h3 := xw1_toInt u
  omega

/-! ## The reference's index normalisation on a cell word -/

/-- A cell word is not negative: the signed test against 0 answers 0. -/
theorem cmpi_slt_cell {a : BitVec 32} (ha : IsCell a) : IntOp.cmpi .slt a 0#32 = 0#1 := cmpi_slt_zero ha.1

/-- "Add 512 if negative" leaves a cell word alone. -/
theorem select_norm_cell {a : BitVec 32} (ha : IsCell a) :
    Scalar.select (IntOp.cmpi .slt a 0#32) (IntOp.addi a 512#32) a = a := select_slt_zero ha.1 _

theorem select_norm_xw (u : EReal) :
    Scalar.select (IntOp.cmpi .slt (xw u) 0#32) (IntOp.addi (xw u) 512#32) (xw u) = xw u :=
  select_norm_cell (xw_isCell u)

theorem select_norm_xw1 (u : EReal) :
    Scalar.select (IntOp.cmpi .slt (xw1 u) 0#32) (IntOp.addi (xw1 u) 512#32) (xw1 u) = xw1 u :=
  select_norm_cell (xw1_isCell u)

/-! ## The flattened word `row · 512 + column` of two cell words -/

/-- The flattened word of a row cell `a` and a column cell `b`: `a · 512 + b` on 32-bit words. -/
abbrev flatW (a b : BitVec 32) : BitVec 32 := IntOp.addi (IntOp.muli a 512#32) b

/-- The flattened word reads, signed, as `512 · a + b`: nothing wraps. -/
theorem flatW_toInt {a b : BitVec 32} (ha : IsCell a) (hb : IsCell b) :
    (IntOp.addi (IntOp.muli a 512#32) b).toInt = 512 * a.toInt + b.toInt := by
  rw [toInt_flat ha.1 ha.2 hb.1 hb.2]; omega

/-- The flattened word reads, signed, in `[0, 262143]`. -/
theorem flatW_range {a b : BitVec 32} (ha : IsCell a) (hb : IsCell b) :
    0 ≤ (IntOp.addi (IntOp.muli a 512#32) b).toInt ∧ (IntOp.addi (IntOp.muli a 512#32) b).toInt ≤ 262143 :=
  toInt_flat_mem ha.1 ha.2 hb.1 hb.2

/-- The flattened word is not negative: the signed test against 0 answers 0. -/
theorem flatW_slt {a b : BitVec 32} (ha : IsCell a) (hb : IsCell b) :
    IntOp.cmpi .slt (IntOp.addi (IntOp.muli a 512#32) b) 0#32 = 0#1 :=
  cmpi_slt_zero (flatW_range ha hb).1

/-- "Add 262144 if negative" leaves the flattened word alone. -/
theorem flatW_select {a b : BitVec 32} (ha : IsCell a) (hb : IsCell b) :
    Scalar.select (IntOp.cmpi .slt (IntOp.addi (IntOp.muli a 512#32) b) 0#32)
      (IntOp.addi (IntOp.addi (IntOp.muli a 512#32) b) 262144#32) (IntOp.addi (IntOp.muli a 512#32) b)
      = IntOp.addi (IntOp.muli a 512#32) b :=
  select_slt_zero (flatW_range ha hb).1 _

/-- The flattened word passes the lower range test. -/
theorem flatW_sge {a b : BitVec 32} (ha : IsCell a) (hb : IsCell b) :
    IntOp.cmpi .sge (IntOp.addi (IntOp.muli a 512#32) b) 0#32 = 1#1 :=
  cmpi_sge_zero (flatW_range ha hb).1

/-- The flattened word passes the upper range test. -/
theorem flatW_sle {a b : BitVec 32} (ha : IsCell a) (hb : IsCell b) :
    IntOp.cmpi .sle (IntOp.addi (IntOp.muli a 512#32) b) 262143#32 = 1#1 :=
  cmpi_sle_262143 (flatW_range ha hb).2

/-- The in-range mask of the flattened word is 1. -/
theorem flatW_mask {a b : BitVec 32} (ha : IsCell a) (hb : IsCell b) :
    IntOp.andi (IntOp.cmpi .sge (IntOp.addi (IntOp.muli a 512#32) b) 0#32)
      (IntOp.cmpi .sle (IntOp.addi (IntOp.muli a 512#32) b) 262143#32) = 1#1 :=
  mask_in_range (flatW_range ha hb).1 (flatW_range ha hb).2

/-- Row `512 · y + x` of the flattened plane, for a row `y` and a column `x` of the plane. -/
def flatRow (y x : Fin 512) : Fin 262144 := ⟨512 * y.val + x.val, by have := y.isLt; have := x.isLt; omega⟩

@[simp] theorem flatRow_val (y x : Fin 512) : (flatRow y x).val = 512 * y.val + x.val := rfl

/-- The flattened word of two cell words reads, signed, as the flattened row of their row numbers. -/
theorem flatW_toInt_row {a b : BitVec 32} (ha : IsCell a) (hb : IsCell b) :
    (IntOp.addi (IntOp.muli a 512#32) b).toInt
      = ((flatRow (Cert.Lib.TakeRows.clampIdx 512 (by norm_num) a)
          (Cert.Lib.TakeRows.clampIdx 512 (by norm_num) b)).val : Int) := by
  rw [flatW_toInt ha hb, flatRow_val]
  push_cast
  rw [clampIdx_cell ha, clampIdx_cell hb]

/-- The four corners' flattened words, as flattened rows of the cells (`v` gives the row, `u` the column). -/
theorem flat00_toInt (u v : EReal) :
    (IntOp.addi (IntOp.muli (xw v) 512#32) (xw u)).toInt = ((flatRow (cellLo v) (cellLo u)).val : Int) :=
  flatW_toInt_row (xw_isCell v) (xw_isCell u)

theorem flat01_toInt (u v : EReal) :
    (IntOp.addi (IntOp.muli (xw v) 512#32) (xw1 u)).toInt = ((flatRow (cellLo v) (cellHi u)).val : Int) :=
  flatW_toInt_row (xw_isCell v) (xw1_isCell u)

theorem flat10_toInt (u v : EReal) :
    (IntOp.addi (IntOp.muli (xw1 v) 512#32) (xw u)).toInt = ((flatRow (cellHi v) (cellLo u)).val : Int) :=
  flatW_toInt_row (xw1_isCell v) (xw_isCell u)

theorem flat11_toInt (u v : EReal) :
    (IntOp.addi (IntOp.muli (xw1 v) 512#32) (xw1 u)).toInt = ((flatRow (cellHi v) (cellHi u)).val : Int) :=
  flatW_toInt_row (xw1_isCell v) (xw1_isCell u)

end Cert.TriPlane

end
-- ==== Proof.LibPlaneGather.lean ====
/-
  Reading a cell's row of features out of a plane, and picking columns of a matrix through a table, at an index.

  * A plane with H × W cells, each a row of L features, is read through an N × 2 integer array whose row n holds the
    pair (y, x) of cell coordinates: entry (n, l) of the result is the plane at (y', x', l), where y' and x' are the
    two words of row n read as signed integers and clamped into [0, H − 1] and [0, W − 1] — negative to 0, beyond the
    end to the last cell — as a gather clamps every start index.  When the words read signed are already cell
    coordinates, y' and x' are those coordinates.
  * A matrix with N rows and C columns is read through a K × 1 table of column numbers: entry (n, a) of the result is
    the matrix at (n, c'), c' the table's word a read signed and clamped into [0, C − 1].
-/
import Idealize.ShloMosaic.PureOps.ShapeOps
import Idealize.ShloMosaic.Lib.ValueIdx

noncomputable section

namespace Cert.Lib.PlaneGather

open Idealize.ShloMosaic Idealize.ShloMosaic.ValueIdx

variable {α : Type}

/-- An index word read as a signed integer and clamped into an axis of positive extent `A`: negative words to 0,
    words beyond the end to `A − 1`. -/
def clampIdx {w : Nat} (A : Nat) (hA : 0 < A) (v : BitVec w) : Fin A := ⟨min v.toInt.toNat (A - 1), by omega⟩

/-- A word that, read signed, is a coordinate of the axis is clamped to that coordinate. -/
theorem clampIdx_of_toInt {w : Nat} (A : Nat) (hA : 0 < A) (v : BitVec w) (k : Fin A) (hk : v.toInt = (k.val : Int)) :
    clampIdx A hA v = k := by
  apply Fin.ext
  show min v.toInt.toNat (A - 1) = k.val
  rw [hk, Int.toNat_natCast]
  have := k.isLt
  omega

/-- A word whose signed reading lies in `[0, A)` is clamped to that reading. -/
theorem clampIdx_val_of_range {w : Nat} (A : Nat) (hA : 0 < A) (v : BitVec w) (h0 : 0 ≤ v.toInt) (h1 : v.toInt < (A : Int)) :
    ((clampIdx A hA v).val : Int) = v.toInt := by
  show ((min v.toInt.toNat (A - 1) : Nat) : Int) = v.toInt
  omega

/-! ## A cell's row of a plane -/

/-- The dimension numbers of the gather of cell rows: operand `[H, W, L]`, start indices `[N, 2]` (axis 1 holds the
    two-component index vector (y, x)), result `[N, L]`; the operand's two cell axes are collapsed and indexed, the
    result's last axis runs along the feature row. -/
abbrev planeDims (H W L N : Nat)
    (wf : GatherDims.WF ⟨3, ![H, W, L]⟩ ⟨2, ![N, 2]⟩ ⟨2, ![N, L]⟩ [1] [0, 1] [] [0, 1] [] 1 ![1, 1, L]) :
    GatherDims ⟨3, ![H, W, L]⟩ ⟨2, ![N, 2]⟩ ⟨2, ![N, L]⟩ where
  offsetDims := [1]
  collapsedSliceDims := [0, 1]
  operandBatchingDims := []
  startIndicesBatchingDims := []
  startIndexMap := [0, 1]
  indexVectorDim := 1
  sliceSizes := ![1, 1, L]
  wf := wf

/-- THE PLANE GATHER READ AT `(n, l)`: the plane at `(y', x', l)`, where `y'` and `x'` are the words `idx[n, 0]` and
    `idx[n, 1]` read signed and clamped into the plane's two cell axes. -/
theorem gather_plane_apply_clamp {H W L N w : Nat} (hH : 0 < H) (hW : 0 < W)
    (wf : GatherDims.WF ⟨3, ![H, W, L]⟩ ⟨2, ![N, 2]⟩ ⟨2, ![N, L]⟩ [1] [0, 1] [] [0, 1] [] 1 ![1, 1, L])
    (p : (⟨3, ![H, W, L]⟩ : Shape).Idx → α) (idx : IVec ⟨2, ![N, 2]⟩ w) (n : Fin N) (l : Fin L) :
    Host.gather (planeDims H W L N wf) p idx (ix2 n l)
      = p (ix3 (clampIdx H hH (idx (ix2 n (0 : Fin 2)))) (clampIdx W hW (idx (ix2 n (1 : Fin 2)))) l) := by
  unfold Host.gather
  congr 1
  funext a
  refine Fin.ext ?_
  match a with
  | ⟨0, _⟩ =>
    have hcol : (0 : Fin 3) ∈ (planeDims H W L N wf).collapsedSliceDims := List.mem_cons_self
    show (planeDims H W L N wf).start (ix2 n l) idx 0 + (planeDims H W L N wf).batchCoord (ix2 n l) 0
      + (planeDims H W L N wf).offCoord (ix2 n l) 0 = _
    rw [GatherDims.batchCoord_eq_zero _ _ _ List.not_mem_nil,
      GatherDims.offCoord_eq_zero _ _ _ (fun h => ((GatherDims.mem_sKept _ _).mp h).1 hcol)]
    simp only [Nat.add_zero]
    unfold GatherDims.start
    rw [dif_pos (show (0 : Fin 3) ∈ (planeDims H W L N wf).startIndexMap from hcol)]
    have hsi : (planeDims H W L N wf).siIdx (ix2 n l) ⟨List.idxOf (0 : Fin 3) (planeDims H W L N wf).startIndexMap,
        List.idxOf_lt_length_iff.2 hcol⟩ = ix2 n (0 : Fin 2) := by
      funext b; refine Fin.ext ?_
      match b with
      | ⟨0, _⟩ => rfl
      | ⟨1, _⟩ => rfl
    rw [hsi]
    rfl
  | ⟨1, _⟩ =>
    have hcol : (1 : Fin 3) ∈ (planeDims H W L N wf).collapsedSliceDims := List.mem_cons_of_mem _ List.mem_cons_self
    show (planeDims H W L N wf).start (ix2 n l) idx 1 + (planeDims H W L N wf).batchCoord (ix2 n l) 1
      + (planeDims H W L N wf).offCoord (ix2 n l) 1 = _
    rw [GatherDims.batchCoord_eq_zero _ _ _ List.not_mem_nil,
      GatherDims.offCoord_eq_zero _ _ _ (fun h => ((GatherDims.mem_sKept _ _).mp h).1 hcol)]
    simp only [Nat.add_zero]
    unfold GatherDims.start
    rw [dif_pos (show (1 : Fin 3) ∈ (planeDims H W L N wf).startIndexMap from hcol)]
    have hsi : (planeDims H W L N wf).siIdx (ix2 n l) ⟨List.idxOf (1 : Fin 3) (planeDims H W L N wf).startIndexMap,
        List.idxOf_lt_length_iff.2 hcol⟩ = ix2 n (1 : Fin 2) := by
      funext b; refine Fin.ext ?_
      match b with
      | ⟨0, _⟩ => rfl
      | ⟨1, _⟩ => rfl
    rw [hsi]
    rfl
  | ⟨2, _⟩ =>
    show (planeDims H W L N wf).start (ix2 n l) idx 2 + (planeDims H W L N wf).batchCoord (ix2 n l) 2
      + (planeDims H W L N wf).offCoord (ix2 n l) 2 = l.val
    rw [GatherDims.batchCoord_eq_zero _ _ _ List.not_mem_nil]
    have hs : (planeDims H W L N wf).start (ix2 n l) idx 2 = 0 := by
      unfold GatherDims.start
      rw [dif_neg (show (2 : Fin 3) ∉ (planeDims H W L N wf).startIndexMap from
        by show (2 : Fin 3) ∉ ([0, 1] : List (Fin 3)); decide)]
    rw [hs]
    simp only [Nat.add_zero, Nat.zero_add]
    rfl

/-- THE PLANE GATHER AT IN-RANGE CELL COORDINATES: when the words `idx[n, 0]` and `idx[n, 1]`, read as signed
    integers, are the cell coordinates `ky < H` and `kx < W`, entry `(n, l)` of the result is the plane at
    `(ky, kx, l)`. -/
theorem gather_plane_apply {H W L N w : Nat}
    (wf : GatherDims.WF ⟨3, ![H, W, L]⟩ ⟨2, ![N, 2]⟩ ⟨2, ![N, L]⟩ [1] [0, 1] [] [0, 1] [] 1 ![1, 1, L])
    (p : (⟨3, ![H, W, L]⟩ : Shape).Idx → α) (idx : IVec ⟨2, ![N, 2]⟩ w) (n : Fin N) (l : Fin L)
    (ky : Fin H) (kx : Fin W) (hy : (idx (ix2 n (0 : Fin 2))).toInt = (ky.val : Int))
    (hx : (idx (ix2 n (1 : Fin 2))).toInt = (kx.val : Int)) :
    Host.gather (planeDims H W L N wf) p idx (ix2 n l) = p (ix3 ky kx l) := by
  rw [gather_plane_apply_clamp (Fin.pos ky) (Fin.pos kx) wf p idx n l, clampIdx_of_toInt H (Fin.pos ky) _ ky hy,
    clampIdx_of_toInt W (Fin.pos kx) _ kx hx]

/-! ## Columns of a matrix picked through a table -/

/-- The dimension numbers of the gather of whole columns: operand `[N, C]`, start indices `[K, 1]` (axis 1 holds the
    one-component index vector: a column number), result `[N, K]`; the operand's column axis is collapsed and indexed,
    the result's first axis runs along the whole column. -/
abbrev colsDims (N C K : Nat)
    (wf : GatherDims.WF ⟨2, ![N, C]⟩ ⟨2, ![K, 1]⟩ ⟨2, ![N, K]⟩ [0] [1] [] [1] [] 1 ![N, 1]) :
    GatherDims ⟨2, ![N, C]⟩ ⟨2, ![K, 1]⟩ ⟨2, ![N, K]⟩ where
  offsetDims := [0]
  collapsedSliceDims := [1]
  operandBatchingDims := []
  startIndicesBatchingDims := []
  startIndexMap := [1]
  indexVectorDim := 1
  sliceSizes := ![N, 1]
  wf := wf

/-- THE COLUMN GATHER READ AT `(n, a)`: the matrix at `(n, c')`, `c'` the table's word `t[a, 0]` read signed and
    clamped into `[0, C − 1]`. -/
theorem gather_cols_apply_clamp {N C K w : Nat} (hC : 0 < C)
    (wf : GatherDims.WF ⟨2, ![N, C]⟩ ⟨2, ![K, 1]⟩ ⟨2, ![N, K]⟩ [0] [1] [] [1] [] 1 ![N, 1])
    (x : (⟨2, ![N, C]⟩ : Shape).Idx → α) (t : IVec ⟨2, ![K, 1]⟩ w) (n : Fin N) (a : Fin K) :
    Host.gather (colsDims N C K wf) x t (ix2 n a) = x (ix2 n (clampIdx C hC (t (ix2 a (0 : Fin 1))))) := by
  unfold Host.gather
  congr 1
  funext b
  refine Fin.ext ?_
  match b with
  | ⟨0, _⟩ =>
    show (colsDims N C K wf).start (ix2 n a) t 0 + (colsDims N C K wf).batchCoord (ix2 n a) 0
      + (colsDims N C K wf).offCoord (ix2 n a) 0 = n.val
    rw [GatherDims.batchCoord_eq_zero _ _ _ List.not_mem_nil]
    have hs : (colsDims N C K wf).start (ix2 n a) t 0 = 0 := by
      unfold GatherDims.start
      rw [dif_neg (show (0 : Fin 2) ∉ (colsDims N C K wf).startIndexMap from
        by show (0 : Fin 2) ∉ ([1] : List (Fin 2)); decide)]
    rw [hs]
    simp only [Nat.add_zero, Nat.zero_add]
    rfl
  | ⟨1, _⟩ =>
    have hcol : (1 : Fin 2) ∈ (colsDims N C K wf).collapsedSliceDims := List.mem_singleton.mpr rfl
    show (colsDims N C K wf).start (ix2 n a) t 1 + (colsDims N C K wf).batchCoord (ix2 n a) 1
      + (colsDims N C K wf).offCoord (ix2 n a) 1 = _
    rw [GatherDims.batchCoord_eq_zero _ _ _ List.not_mem_nil,
      GatherDims.offCoord_eq_zero _ _ _ (fun h => ((GatherDims.mem_sKept _ _).mp h).1 hcol)]
    simp only [Nat.add_zero]
    unfold GatherDims.start
    rw [dif_pos (show (1 : Fin 2) ∈ (colsDims N C K wf).startIndexMap from hcol)]
    have hsi : (colsDims N C K wf).siIdx (ix2 n a) ⟨List.idxOf (1 : Fin 2) (colsDims N C K wf).startIndexMap,
        List.idxOf_lt_length_iff.2 hcol⟩ = ix2 a (0 : Fin 1) := by
      funext b; refine Fin.ext ?_
      match b with
      | ⟨0, _⟩ => rfl
      | ⟨1, _⟩ => rfl
    rw [hsi]
    rfl

/-- THE COLUMN GATHER AT AN IN-RANGE TABLE ENTRY: when the table's word `t[a, 0]`, read as a signed integer, is the
    column number `c < C`, entry `(n, a)` of the result is the matrix at `(n, c)`. -/
theorem gather_cols_apply {N C K w : Nat}
    (wf : GatherDims.WF ⟨2, ![N, C]⟩ ⟨2, ![K, 1]⟩ ⟨2, ![N, K]⟩ [0] [1] [] [1] [] 1 ![N, 1])
    (x : (⟨2, ![N, C]⟩ : Shape).Idx → α) (t : IVec ⟨2, ![K, 1]⟩ w) (n : Fin N) (a : Fin K)
    (c : Fin C) (hc : (t (ix2 a (0 : Fin 1))).toInt = (c.val : Int)) :
    Host.gather (colsDims N C K wf) x t (ix2 n a) = x (ix2 n c) := by
  rw [gather_cols_apply_clamp (Fin.pos c) wf x t n a, clampIdx_of_toInt C (Fin.pos c) _ c hc]

end Cert.Lib.PlaneGather

end
-- ==== Proof.LibConcatCols.lean ====
/-
  Concatenation along the column axis of a matrix, read at an index.

  Matrices with the same N rows laid side by side: the entry of the result at (n, c) is the entry of the piece whose
  span of columns holds c, at row n and at c less the widths of the pieces before it.  Stated here for

  * two and four single-column pieces (result N × 2, N × 4): column c of the result is piece c;
  * three pieces of a common width L (result N × M with M = 3·L): column q·L + l of the result is column l of piece q.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- The shape of an N × L matrix. -/
abbrev Mat (N L : Nat) : Shape := ⟨2, ![N, L]⟩

/-! ## Three blocks of a common width -/

/-- THREE BLOCKS, THE FIRST: a column below the common width `L` reads the first block at that column. -/
theorem concat3_apply_0 {N L M : Nat} (x0 x1 x2 : (Mat N L).Idx → α)
    (h : Shape.Concatenates [Mat N L, Mat N L, Mat N L] (Mat N M) 1) (n : Fin N) (c : Fin M) (l : Fin L)
    (hc : c.val = l.val) :
    concatenate (Mat N M) 1 [⟨Mat N L, x0⟩, ⟨Mat N L, x1⟩, ⟨Mat N L, x2⟩] h (ix2 n c) = x0 (ix2 n l) := by
  refine concatenate_apply_piece (1 : Fin (Mat N M).rank) [⟨Mat N L, x0⟩, ⟨Mat N L, x1⟩, ⟨Mat N L, x2⟩] h (ix2 n c) 0 (by simp) (Mat N L) x0 rfl rfl 0 rfl (ix2 n l) ?_ ?_
  · intro b hb
    match b with
    | ⟨0, _⟩ => rfl
    | ⟨1, _⟩ => exact absurd rfl hb
  · show 0 + l.val = c.val
    omega

/-- THREE BLOCKS, THE SECOND: column `L + l` reads the second block at column `l`. -/
theorem concat3_apply_1 {N L M : Nat} (x0 x1 x2 : (Mat N L).Idx → α)
    (h : Shape.Concatenates [Mat N L, Mat N L, Mat N L] (Mat N M) 1) (n : Fin N) (c : Fin M) (l : Fin L)
    (hc : c.val = L + l.val) :
    concatenate (Mat N M) 1 [⟨Mat N L, x0⟩, ⟨Mat N L, x1⟩, ⟨Mat N L, x2⟩] h (ix2 n c) = x1 (ix2 n l) := by
  refine concatenate_apply_piece (1 : Fin (Mat N M).rank) [⟨Mat N L, x0⟩, ⟨Mat N L, x1⟩, ⟨Mat N L, x2⟩] h (ix2 n c) 1 (by simp) (Mat N L) x1 rfl rfl L ?_ (ix2 n l) ?_ ?_
  · simp
  · intro b hb
    match b with
    | ⟨0, _⟩ => rfl
    | ⟨1, _⟩ => exact absurd rfl hb
  · show L + l.val = c.val
    omega

/-- THREE BLOCKS, THE THIRD: column `2·L + l` reads the third block at column `l`. -/
theorem concat3_apply_2 {N L M : Nat} (x0 x1 x2 : (Mat N L).Idx → α)
    (h : Shape.Concatenates [Mat N L, Mat N L, Mat N L] (Mat N M) 1) (n : Fin N) (c : Fin M) (l : Fin L)
    (hc : c.val = 2 * L + l.val) :
    concatenate (Mat N M) 1 [⟨Mat N L, x0⟩, ⟨Mat N L, x1⟩, ⟨Mat N L, x2⟩] h (ix2 n c) = x2 (ix2 n l) := by
  refine concatenate_apply_piece (1 : Fin (Mat N M).rank) [⟨Mat N L, x0⟩, ⟨Mat N L, x1⟩, ⟨Mat N L, x2⟩] h (ix2 n c) 2 (by simp) (Mat N L) x2 rfl rfl (2 * L) ?_ (ix2 n l) ?_ ?_
  · simp; omega
  · intro b hb
    match b with
    | ⟨0, _⟩ => rfl
    | ⟨1, _⟩ => exact absurd rfl hb
  · show 2 * L + l.val = c.val
    omega

/-- THREE BLOCKS: column `q·L + l` (`q < 3`, `l < L`) of the result reads block `q` at column `l`. -/
theorem concat3_apply {N L M : Nat} (x0 x1 x2 : (Mat N L).Idx → α)
    (h : Shape.Concatenates [Mat N L, Mat N L, Mat N L] (Mat N M) 1) (n : Fin N) (c : Fin M) (q : Fin 3) (l : Fin L)
    (hc : c.val = q.val * L + l.val) :
    concatenate (Mat N M) 1 [⟨Mat N L, x0⟩, ⟨Mat N L, x1⟩, ⟨Mat N L, x2⟩] h (ix2 n c) = (![x0, x1, x2] q) (ix2 n l) := by
  match q, hc with
  | ⟨0, _⟩, hc => exact concat3_apply_0 x0 x1 x2 h n c l (by simpa using hc)
  | ⟨1, _⟩, hc => exact concat3_apply_1 x0 x1 x2 h n c l (by simpa using hc)
  | ⟨2, _⟩, hc => exact concat3_apply_2 x0 x1 x2 h n c l (by simpa using hc)

/-- The width of the result of three blocks of width `L` is `3·L`. -/
theorem concat3_width {N L M : Nat} (h : Shape.Concatenates [Mat N L, Mat N L, Mat N L] (Mat N M) 1) : M = 3 * L := by
  have := h.2.2
  simp at this
  omega

/-! ## Single columns -/

/-- The one index of row `n` of a single column. -/
abbrev col0 {N : Nat} (n : Fin N) : (Mat N 1).Idx := ix2 n (0 : Fin 1)

/-- FOUR COLUMNS: column `c` of the result is the `c`-th piece. -/
theorem concat4_cols_apply {N : Nat} (x0 x1 x2 x3 : (Mat N 1).Idx → α)
    (h : Shape.Concatenates [Mat N 1, Mat N 1, Mat N 1, Mat N 1] (Mat N 4) 1) (n : Fin N) (c : Fin 4) :
    concatenate (Mat N 4) 1 [⟨Mat N 1, x0⟩, ⟨Mat N 1, x1⟩, ⟨Mat N 1, x2⟩, ⟨Mat N 1, x3⟩] h (ix2 n c)
      = (![x0, x1, x2, x3] c) (col0 n) := by
  have hi : ∀ b : Fin (Mat N 1).rank, b.cast (rfl : (Mat N 1).rank = (Mat N 4).rank) ≠ (1 : Fin (Mat N 4).rank) →
      ((col0 n) b).val = ((ix2 n c) (b.cast rfl)).val := by
    intro b hb
    match b with
    | ⟨0, _⟩ => rfl
    | ⟨1, _⟩ => exact absurd rfl hb
  match c with
  | ⟨0, _⟩ =>
    exact concatenate_apply_piece (1 : Fin (Mat N 4).rank) [⟨Mat N 1, x0⟩, ⟨Mat N 1, x1⟩, ⟨Mat N 1, x2⟩, ⟨Mat N 1, x3⟩] h _ 0 (by simp) (Mat N 1) x0 rfl rfl 0 rfl (col0 n) hi rfl
  | ⟨1, _⟩ =>
    exact concatenate_apply_piece (1 : Fin (Mat N 4).rank) [⟨Mat N 1, x0⟩, ⟨Mat N 1, x1⟩, ⟨Mat N 1, x2⟩, ⟨Mat N 1, x3⟩] h _ 1 (by simp) (Mat N 1) x1 rfl rfl 1 rfl (col0 n) hi rfl
  | ⟨2, _⟩ =>
    exact concatenate_apply_piece (1 : Fin (Mat N 4).rank) [⟨Mat N 1, x0⟩, ⟨Mat N 1, x1⟩, ⟨Mat N 1, x2⟩, ⟨Mat N 1, x3⟩] h _ 2 (by simp) (Mat N 1) x2 rfl rfl 2 rfl (col0 n) hi rfl
  | ⟨3, _⟩ =>
    exact concatenate_apply_piece (1 : Fin (Mat N 4).rank) [⟨Mat N 1, x0⟩, ⟨Mat N 1, x1⟩, ⟨Mat N 1, x2⟩, ⟨Mat N 1, x3⟩] h _ 3 (by simp) (Mat N 1) x3 rfl rfl 3 rfl (col0 n) hi rfl

/-- TWO COLUMNS: column `c` of the result is the `c`-th piece. -/
theorem concat2_cols_apply {N : Nat} (x0 x1 : (Mat N 1).Idx → α)
    (h : Shape.Concatenates [Mat N 1, Mat N 1] (Mat N 2) 1) (n : Fin N) (c : Fin 2) :
    concatenate (Mat N 2) 1 [⟨Mat N 1, x0⟩, ⟨Mat N 1, x1⟩] h (ix2 n c) = (![x0, x1] c) (col0 n) := by
  have hi : ∀ b : Fin (Mat N 1).rank, b.cast (rfl : (Mat N 1).rank = (Mat N 2).rank) ≠ (1 : Fin (Mat N 2).rank) →
      ((col0 n) b).val = ((ix2 n c) (b.cast rfl)).val := by
    intro b hb
    match b with
    | ⟨0, _⟩ => rfl
    | ⟨1, _⟩ => exact absurd rfl hb
  match c with
  | ⟨0, _⟩ =>
    exact concatenate_apply_piece (1 : Fin (Mat N 2).rank) [⟨Mat N 1, x0⟩, ⟨Mat N 1, x1⟩] h _ 0 (by simp) (Mat N 1) x0 rfl rfl 0 rfl (col0 n) hi rfl
  | ⟨1, _⟩ =>
    exact concatenate_apply_piece (1 : Fin (Mat N 2).rank) [⟨Mat N 1, x0⟩, ⟨Mat N 1, x1⟩] h _ 1 (by simp) (Mat N 1) x1 rfl rfl 1 rfl (col0 n) hi rfl

end Cert.Lib.ConcatCols

end
-- ==== Proof.LibKeepdimsColumn.lean ====
/-
  The keepdims column forms, read at an index.

  A sum or a maximum over the last axis of an [a, b] array that keeps the reduced axis yields an [a, 1] column, which
  is then broadcast back along the rows. Five layout facts carry an index through that round trip, for any element
  type: the cast of an [a] vector to an [a, 1] column and the broadcast of an [a, 1] column to [a, b] in the vector
  dialect; and, in the host dialect, a scalar broadcast to any shape, an [a] vector placed as an [a, 1] column, and an
  [a, 1] column broadcast to [a, b]. Each reads its operand at the row coordinate alone.
-/
import Idealize.ShloMosaic.Lib.Pipeline.Value
import Idealize.ShloMosaic.Lib.ValueIdx

namespace Cert.Lib.KeepdimsColumn

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast to any shape reads the scalar everywhere. -/
theorem broadcastInDim_scalar_apply {t : Shape} (h : (⟨0, ![]⟩ : Shape).BroadcastsInDim t (![] : Fin 0 → Fin t.rank))
    (x : (⟨0, ![]⟩ : Shape).Idx → α) (i : t.Idx) : broadcastInDim t ![] h x i = x ix0 :=
  broadcastInDim_apply _ h x i ix0 fun ax => ax.elim0

/-- An [a] array placed as the column of an [a, 1] array reads, at (p, u), the operand at p. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An [a, 1] column broadcast along the rows of an [a, b] array reads, at (p, c), the column at p. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn
-- ==== Proof.RefPlane.lean ====
/-
  THE REFERENCE'S PER-PLANE SAMPLING CHAIN, as one function of vectors, read at an index.

  The reference samples a plane `[512, 512, 8]` at `N` points whose (already clipped) coordinates are the two columns of
  `uv : [N, 2]` — column 0 the width coordinate `u`, column 1 the height coordinate `v`. Per point: the pixel coordinates
  `x = pix u`, `y = pix v`; the weights `wx = x − ⌊x⌋`, `wy = y − ⌊y⌋` kept as `[N, 1]` columns; the cells `x0 = ⌊x⌋`,
  `y0 = ⌊y⌋` as 32-bit integers and the next cells `x1 = min (x0 + 1) 511`, `y1 = min (y0 + 1) 511`; the four corner rows
  `plane[y?, x?, :]`, each fetched by a gather whose `[N, 2]` index array is the two cell vectors, each first passed through
  "add 512 if negative" and set side by side (row cell first); and the bilinear blend
  `top = v00 + wx·(v01 − v00)`, `bot = v10 + wx·(v11 − v10)`, `top + wy·(bot − top)`.

  `samplePlane` is that composition spelt with the very vector operations the program prints, in stages (`pixOfCol`,
  `fracCol`, `cell0`, `cell1`, `normIdx`, `corner`, `lerp`), each stage read at an index by its own lemma; the last
  theorem reads the whole at `(n, r)`: the blend of the plane at the four cell corners of point `n`, feature `r`, with
  the weights `frac u`, `frac v` — for every extended-real input, the clip into `[0, 511]` making every cell a row number.
-/
import proofs.«114771_j71983651881269_2_alg».proof.ReferenceIdeal
import proofs.«114771_j71983651881269_2_alg».proof.Proof.Spec
import proofs.«114771_j71983651881269_2_alg».proof.Proof.SpecRange
import proofs.«114771_j71983651881269_2_alg».proof.Proof.LibPlaneGather
import proofs.«114771_j71983651881269_2_alg».proof.Proof.LibConcatCols
import proofs.«114771_j71983651881269_2_alg».proof.Proof.LibPixelIndex
import proofs.«114771_j71983651881269_2_alg».proof.Proof.LibKeepdimsColumn
import Idealize.ShloMosaic.Lib.ValueIdx
import Idealize.ShloMosaic.Lib.ValueLayout

noncomputable section

namespace Cert.ReferenceIdeal.Plane

open Cert.ReferenceIdeal Idealize.ShloMosaic Idealize.ShloMosaic.ValueIdx Cert.TriPlane

variable [Facts₀]
open Facts₀

/-! ## Constants spread over the points -/

/-- A float word spread over the `N` points. -/
abbrev fconst (b : BitVec 32) : FVec Ideal S4000000 .f32 :=
  broadcastInDim S4000000 ![] bcast_S_S4000000 (constant (F := Ideal) S_ .f32 b)

/-- An integer word spread over the `N` points. -/
abbrev iconst (b : BitVec 32) : IVec S4000000 32 :=
  broadcastInDim S4000000 ![] bcast_S_S4000000 (constantI S_ 32 b)

theorem fconst_apply (b : BitVec 32) (i : S4000000.Idx) : fconst b i = Ideal.ofBits .f32 b :=
  Cert.Lib.KeepdimsColumn.broadcastInDim_scalar_apply bcast_S_S4000000 _ i

theorem iconst_apply (b : BitVec 32) (i : S4000000.Idx) : iconst b i = b :=
  Cert.Lib.KeepdimsColumn.broadcastInDim_scalar_apply bcast_S_S4000000 _ i

/-- An `[a, 1]` column cast to an `[a]` vector reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The pixel coordinate of a coordinate column -/

/-- The pixel coordinates of an `[N, 1]` column of clipped coordinates: the column as a vector, `((· + 1) · 512 − 1) · ½`,
    then the clip into `[0, 511]` (first the maximum with 0, then the minimum with 511). -/
def pixOfCol (col : FVec Ideal S4000000x1 .f32) : FVec Ideal S4000000 .f32 :=
  minimumf (fconst 0x43FF8000#32)
    (maximumf (fconst 0x00000000#32)
      (mulf (subf (mulf (addf (shapeCast S4000000 col shapeCasts_S4000000x1_S4000000) (fconst 0x3F800000#32))
        (fconst 0x44000000#32)) (fconst 0x3F800000#32)) (fconst 0x3F000000#32)))

/-- At point `n` it is the pixel coordinate of the column's entry. -/
theorem pixOfCol_apply (col : FVec Ideal S4000000x1 .f32) (n : Fin 4000000) :
    pixOfCol col (ix1 n) = pix (col (ix2 n (0 : Fin 1))) := by
  unfold pixOfCol pix
  simp only [minimumf_apply, maximumf_apply, mulf_apply, subf_apply, addf_apply, fconst_apply]
  rw [shapeCast_a1_a_apply]

/-- The width pixel coordinates of the points: column 0 of `uv`. -/
def pixX (uv : FVec Ideal S4000000x2 .f32) : FVec Ideal S4000000 .f32 :=
  pixOfCol (extractStridedSlice S4000000x1 ![0, 0] uv slices_S4000000x2_S4000000x1_0_0)

/-- The height pixel coordinates of the points: column 1 of `uv`. -/
def pixY (uv : FVec Ideal S4000000x2 .f32) : FVec Ideal S4000000 .f32 :=
  pixOfCol (extractStridedSlice S4000000x1 ![0, 1] uv slices_S4000000x2_S4000000x1_0_1)

theorem pixX_apply (uv : FVec Ideal S4000000x2 .f32) (n : Fin 4000000) :
    pixX uv (ix1 n) = pix (uv (ix2 n (0 : Fin 2))) := by
  unfold pixX
  rw [pixOfCol_apply, slice2_axis1_apply 0 uv slices_S4000000x2_S4000000x1_0_0 n (0 : Fin 1) (0 : Fin 2) rfl]

theorem pixY_apply (uv : FVec Ideal S4000000x2 .f32) (n : Fin 4000000) :
    pixY uv (ix1 n) = pix (uv (ix2 n (1 : Fin 2))) := by
  unfold pixY
  rw [pixOfCol_apply, slice2_axis1_apply 1 uv slices_S4000000x2_S4000000x1_0_1 n (0 : Fin 1) (1 : Fin 2) rfl]

/-! ## Weights and cells -/

/-- The interpolation weights of a vector of pixel coordinates, as an `[N, 1]` column: `p − ⌊p⌋`. -/
def fracCol (p : FVec Ideal S4000000 .f32) : FVec Ideal S4000000x1 .f32 :=
  broadcastInDim S4000000x1 ![0] bcast_S4000000_S4000000x1_0 (subf p (Host.floor p))

theorem fracCol_apply (p : FVec Ideal S4000000 .f32) (n : Fin 4000000) :
    fracCol p (ix2 n (0 : Fin 1)) = p (ix1 n) - Ideal.liftRound Int.floor (p (ix1 n)) := by
  unfold fracCol
  rw [Cert.Lib.KeepdimsColumn.broadcastInDim_a_a1_apply]
  rfl

/-- The cells of a vector of pixel coordinates: the floor, converted to 32-bit integers. -/
def cell0 (p : FVec Ideal S4000000 .f32) : IVec S4000000 32 := fptosi 32 (Host.floor p)

theorem cell0_apply (p : FVec Ideal S4000000 .f32) (n : Fin 4000000) :
    cell0 p (ix1 n) = Ideal.fptosi 32 (Ideal.liftRound Int.floor (p (ix1 n))) := rfl

/-- The next cells, capped at the last one: `min (c + 1) 511`. -/
def cell1 (c : IVec S4000000 32) : IVec S4000000 32 := minsi (addi c (iconst 1#32)) (iconst 511#32)

theorem cell1_apply (c : IVec S4000000 32) (n : Fin 4000000) :
    cell1 c (ix1 n) = IntOp.minsi (IntOp.addi (c (ix1 n)) 1#32) 511#32 := by
  show IntOp.minsi (IntOp.addi (c (ix1 n)) (iconst 1#32 (ix1 n))) (iconst 511#32 (ix1 n)) = _
  rw [iconst_apply, iconst_apply]

/-- "Add 512 if negative" on a vector of index words. -/
def normIdx (a : IVec S4000000 32) : IVec S4000000 32 :=
  select (cmpi .slt a (iconst 0#32)) (addi a (iconst 512#32)) a

theorem normIdx_apply (a : IVec S4000000 32) (n : Fin 4000000) :
    normIdx a (ix1 n)
      = Scalar.select (IntOp.cmpi .slt (a (ix1 n)) 0#32) (IntOp.addi (a (ix1 n)) 512#32) (a (ix1 n)) := by
  show Scalar.select (IntOp.cmpi .slt (a (ix1 n)) (iconst 0#32 (ix1 n))) (IntOp.addi (a (ix1 n)) (iconst 512#32 (ix1 n)))
    (a (ix1 n)) = _
  rw [iconst_apply, iconst_apply]

/-- On a cell word the normalisation does nothing. -/
theorem normIdx_apply_cell (a : IVec S4000000 32) (n : Fin 4000000) (ha : IsCell (a (ix1 n))) :
    normIdx a (ix1 n) = a (ix1 n) := by
  rw [normIdx_apply, select_norm_cell ha]

/-! ## One corner: the gather of the rows `plane[ya, xa, :]` -/

/-- The rows `plane[ya[n], xa[n], :]`: both cell vectors normalised, made `[N, 1]` columns, set side by side (row cell
    first) into the `[N, 2]` index array of the gather. -/
def corner (plane : FVec Ideal S512x512x8 .f32) (ya xa : IVec S4000000 32) : FVec Ideal S4000000x8 .f32 :=
  Host.gather gather_S512x512x8_S4000000x2_S4000000x8_1_01_n_n_01_1_118 plane
    (concatenate S4000000x2 1
      [⟨S4000000x1, broadcastInDim S4000000x1 ![0] bcast_S4000000_S4000000x1_0 (normIdx ya)⟩,
       ⟨S4000000x1, broadcastInDim S4000000x1 ![0] bcast_S4000000_S4000000x1_0 (normIdx xa)⟩]
      concatenates_S4000000x1_S4000000x1_S4000000x2_d1)

/-- Where both words at point `n` are cell words, the corner reads the plane at those two cells. -/
theorem corner_apply (plane : FVec Ideal S512x512x8 .f32) (ya xa : IVec S4000000 32) (n : Fin 4000000) (r : Fin 8)
    (hy : IsCell (ya (ix1 n))) (hx : IsCell (xa (ix1 n))) :
    corner plane ya xa (ix2 n r)
      = plane (ix3 (Cert.Lib.TakeRows.clampIdx 512 (by norm_num) (ya (ix1 n)))
          (Cert.Lib.TakeRows.clampIdx 512 (by norm_num) (xa (ix1 n))) r) := by
  refine Cert.Lib.PlaneGather.gather_plane_apply gather_S512x512x8_S4000000x2_S4000000x8_1_01_n_n_01_1_118_wf plane _ n r
    _ _ ?_ ?_
  · rw [Cert.Lib.ConcatCols.concat2_cols_apply]
    show (broadcastInDim S4000000x1 ![0] bcast_S4000000_S4000000x1_0 (normIdx ya) (ix2 n (0 : Fin 1))).toInt = _
    rw [Cert.Lib.KeepdimsColumn.broadcastInDim_a_a1_apply, normIdx_apply_cell ya n hy]
    exact (clampIdx_cell hy).symm
  · rw [Cert.Lib.ConcatCols.concat2_cols_apply]
    show (broadcastInDim S4000000x1 ![0] bcast_S4000000_S4000000x1_0 (normIdx xa) (ix2 n (0 : Fin 1))).toInt = _
    rw [Cert.Lib.KeepdimsColumn.broadcastInDim_a_a1_apply, normIdx_apply_cell xa n hx]
    exact (clampIdx_cell hx).symm

/-! ## The linear interpolation of two row arrays by a weight column -/

/-- `a + w · (b − a)`, the `[N, 1]` weight column spread over the eight features. -/
def lerp (w : FVec Ideal S4000000x1 .f32) (a b : FVec Ideal S4000000x8 .f32) : FVec Ideal S4000000x8 .f32 :=
  addf a (mulf (broadcastInDim S4000000x8 ![0, 1] bcast_S4000000x1_S4000000x8_0_1 w) (subf b a))

theorem lerp_apply (w : FVec Ideal S4000000x1 .f32) (a b : FVec Ideal S4000000x8 .f32) (n : Fin 4000000) (r : Fin 8) :
    lerp w a b (ix2 n r) = a (ix2 n r) + w (ix2 n (0 : Fin 1)) * (b (ix2 n r) - a (ix2 n r)) := by
  unfold lerp
  simp only [addf_apply, mulf_apply, subf_apply]
  rw [Cert.Lib.KeepdimsColumn.broadcastInDim_a1_ab_apply]

/-! ## The whole chain -/

/-- **The reference's sampling of one plane at the points `uv`.** -/
def samplePlane (plane : FVec Ideal S512x512x8 .f32) (uv : FVec Ideal S4000000x2 .f32) : FVec Ideal S4000000x8 .f32 :=
  let x := pixX uv
  let y := pixY uv
  let wx := fracCol x
  let wy := fracCol y
  let x0 := cell0 x
  let y0 := cell0 y
  let x1 := cell1 x0
  let y1 := cell1 y0
  lerp wy (lerp wx (corner plane y0 x0) (corner plane y0 x1)) (lerp wx (corner plane y1 x0) (corner plane y1 x1))

/-- **The sampled feature `r` of point `n`**: the bilinear blend of the plane at the four cell corners of the point —
    rows by the height coordinate `v = uv[n, 1]`, columns by the width coordinate `u = uv[n, 0]` — with the weights
    `frac u` along the width and `frac v` along the height. No hypothesis on `uv`. -/
theorem samplePlane_apply (plane : FVec Ideal S512x512x8 .f32) (uv : FVec Ideal S4000000x2 .f32) (n : Fin 4000000)
    (r : Fin 8) :
    samplePlane plane uv (ix2 n r)
      = blend (plane (ix3 (cellLo (uv (ix2 n (1 : Fin 2)))) (cellLo (uv (ix2 n (0 : Fin 2)))) r))
          (plane (ix3 (cellLo (uv (ix2 n (1 : Fin 2)))) (cellHi (uv (ix2 n (0 : Fin 2)))) r))
          (plane (ix3 (cellHi (uv (ix2 n (1 : Fin 2)))) (cellLo (uv (ix2 n (0 : Fin 2)))) r))
          (plane (ix3 (cellHi (uv (ix2 n (1 : Fin 2)))) (cellHi (uv (ix2 n (0 : Fin 2)))) r))
          (frac (uv (ix2 n (0 : Fin 2)))) (frac (uv (ix2 n (1 : Fin 2)))) := by
  -- the four index words at point n are the cell words of u and v
  have hx0 : cell0 (pixX uv) (ix1 n) = xw (uv (ix2 n (0 : Fin 2))) := by rw [cell0_apply, pixX_apply]; rfl
  have hy0 : cell0 (pixY uv) (ix1 n) = xw (uv (ix2 n (1 : Fin 2))) := by rw [cell0_apply, pixY_apply]; rfl
  have hx1 : cell1 (cell0 (pixX uv)) (ix1 n) = xw1 (uv (ix2 n (0 : Fin 2))) := by rw [cell1_apply, hx0]; rfl
  have hy1 : cell1 (cell0 (pixY uv)) (ix1 n) = xw1 (uv (ix2 n (1 : Fin 2))) := by rw [cell1_apply, hy0]; rfl
  have cx0 : IsCell (cell0 (pixX uv) (ix1 n)) := hx0 ▸ xw_isCell _
  have cy0 : IsCell (cell0 (pixY uv) (ix1 n)) := hy0 ▸ xw_isCell _
  have cx1 : IsCell (cell1 (cell0 (pixX uv)) (ix1 n)) := hx1 ▸ xw1_isCell _
  have cy1 : IsCell (cell1 (cell0 (pixY uv)) (ix1 n)) := hy1 ▸ xw1_isCell _
  have hwx : fracCol (pixX uv) (ix2 n (0 : Fin 1)) = frac (uv (ix2 n (0 : Fin 2))) := by
    rw [fracCol_apply, pixX_apply]; rfl
  have hwy : fracCol (pixY uv) (ix2 n (0 : Fin 1)) = frac (uv (ix2 n (1 : Fin 2))) := by
    rw [fracCol_apply, pixY_apply]; rfl
  show lerp (fracCol (pixY uv))
      (lerp (fracCol (pixX uv)) (corner plane (cell0 (pixY uv)) (cell0 (pixX uv)))
        (corner plane (cell0 (pixY uv)) (cell1 (cell0 (pixX uv)))))
      (lerp (fracCol (pixX uv)) (corner plane (cell1 (cell0 (pixY uv))) (cell0 (pixX uv)))
        (corner plane (cell1 (cell0 (pixY uv))) (cell1 (cell0 (pixX uv))))) (ix2 n r) = _
  rw [lerp_apply, lerp_apply, lerp_apply, hwx, hwy,
    corner_apply plane _ _ n r cy0 cx0, corner_apply plane _ _ n r cy0 cx1,
    corner_apply plane _ _ n r cy1 cx0, corner_apply plane _ _ n r cy1 cx1,
    hx0, hy0, hx1, hy1]
  rfl

end Cert.ReferenceIdeal.Plane

end
-- ==== Proof.RefFold.lean ====
/-
  The reference's three per-plane chains folded: each plane's feature buffer, after the whole run, holds the
  sampling function of that plane's array and of the plane's [N, 2] coordinate buffer. Every buffer between the
  two is written once, by one operation, from buffers written before it, so replacing each by its operation's
  value leaves exactly the staged composition.
-/
import proofs.«114771_j71983651881269_2_alg».proof.Proof.RefEqs0
import proofs.«114771_j71983651881269_2_alg».proof.Proof.RefEqs1
import proofs.«114771_j71983651881269_2_alg».proof.Proof.RefEqs2
import proofs.«114771_j71983651881269_2_alg».proof.Proof.RefEqs3
import proofs.«114771_j71983651881269_2_alg».proof.Proof.RefEqs4
import proofs.«114771_j71983651881269_2_alg».proof.Proof.RefEqs5
import proofs.«114771_j71983651881269_2_alg».proof.Proof.RefEqs6
import proofs.«114771_j71983651881269_2_alg».proof.Proof.RefEqs7
import proofs.«114771_j71983651881269_2_alg».proof.Proof.RefPlane

set_option maxRecDepth 16384

noncomputable section

namespace Cert.ReferenceIdeal.Fold

open Cert.ReferenceIdeal Cert.ReferenceIdeal.Gen Cert.ReferenceIdeal.HandRun Cert.ReferenceIdeal.Plane
open Idealize.ShloMosaic Idealize.ShloMosaic.TcCoe Idealize.SL.Sem Idealize.ShloMosaic.StableHlo

set_option maxHeartbeats 8000000 in
/-- Plane 1: the feature buffer holds the plane's sampling chain of the plane's array and the plane's two coordinate
    columns: every intermediate buffer replaced by its one operation's value, the chain is the staged function. -/
theorem fold_plane1 (V : Valuation τ sig (Elt Ideal)) :
    after ops V (Proc.devRef .tc main_v107) = samplePlane (after ops V (Proc.devRef .tc main_arg1)) (after ops V (Proc.devRef .tc main_v1)) := by
  try rw [after_v107]
  try rw [after_v106]
  try rw [after_v105]
  try rw [after_v104]
  try rw [after_v103]
  try rw [after_v102]
  try rw [after_v101]
  try rw [after_v100]
  try rw [after_v99]
  try rw [after_v98]
  try rw [after_v97]
  try rw [after_v96]
  try rw [after_v95]
  try rw [after_v94]
  try rw [after_v93]
  try rw [after_v92]
  try rw [after_v91]
  try rw [after_v90]
  try rw [after_v89]
  try rw [after_c_32]
  try rw [after_v88]
  try rw [after_v87]
  try rw [after_c_31]
  try rw [after_v86]
  try rw [after_v85]
  try rw [after_v84]
  try rw [after_c_30]
  try rw [after_v83]
  try rw [after_v82]
  try rw [after_c_29]
  try rw [after_v81]
  try rw [after_v80]
  try rw [after_v79]
  try rw [after_v78]
  try rw [after_v77]
  try rw [after_v76]
  try rw [after_v75]
  try rw [after_c_28]
  try rw [after_v74]
  try rw [after_v73]
  try rw [after_c_27]
  try rw [after_v72]
  try rw [after_v71]
  try rw [after_v70]
  try rw [after_c_26]
  try rw [after_v69]
  try rw [after_v68]
  try rw [after_c_25]
  try rw [after_v67]
  try rw [after_v66]
  try rw [after_v65]
  try rw [after_v64]
  try rw [after_v63]
  try rw [after_v62]
  try rw [after_v61]
  try rw [after_c_24]
  try rw [after_v60]
  try rw [after_v59]
  try rw [after_c_23]
  try rw [after_v58]
  try rw [after_v57]
  try rw [after_v56]
  try rw [after_c_22]
  try rw [after_v55]
  try rw [after_v54]
  try rw [after_c_21]
  try rw [after_v53]
  try rw [after_v52]
  try rw [after_v51]
  try rw [after_v50]
  try rw [after_v49]
  try rw [after_v48]
  try rw [after_v47]
  try rw [after_c_20]
  try rw [after_v46]
  try rw [after_v45]
  try rw [after_c_19]
  try rw [after_v44]
  try rw [after_v43]
  try rw [after_v42]
  try rw [after_c_18]
  try rw [after_v41]
  try rw [after_v40]
  try rw [after_c_17]
  try rw [after_v39]
  try rw [after_v38]
  try rw [after_c_16]
  try rw [after_v37]
  try rw [after_v36]
  try rw [after_c_15]
  try rw [after_v35]
  try rw [after_v34]
  try rw [after_c_14]
  try rw [after_v33]
  try rw [after_v32]
  try rw [after_c_13]
  try rw [after_v31]
  try rw [after_v30]
  try rw [after_v29]
  try rw [after_v28]
  try rw [after_v27]
  try rw [after_v26]
  try rw [after_v25]
  try rw [after_v24]
  try rw [after_v23]
  try rw [after_call2_v4]
  try rw [after_call2_v3]
  try rw [after_call2_v2]
  try rw [after_call2_v1]
  try rw [after_call2_v0]
  try rw [after_cst_12]
  try rw [after_cst_11]
  try rw [after_v22]
  try rw [after_v21]
  try rw [after_cst_10]
  try rw [after_v20]
  try rw [after_v19]
  try rw [after_cst_9]
  try rw [after_v18]
  try rw [after_v17]
  try rw [after_cst_8]
  try rw [after_v16]
  try rw [after_v15]
  try rw [after_cst_7]
  try rw [after_v14]
  try rw [after_v13]
  try rw [after_v12]
  try rw [after_call1_v4]
  try rw [after_call1_v3]
  try rw [after_call1_v2]
  try rw [after_call1_v1]
  try rw [after_call1_v0]
  try rw [after_cst_6]
  try rw [after_cst_5]
  try rw [after_v11]
  try rw [after_v10]
  try rw [after_cst_4]
  try rw [after_v9]
  try rw [after_v8]
  try rw [after_cst_3]
  try rw [after_v7]
  try rw [after_v6]
  try rw [after_cst_2]
  try rw [after_v5]
  try rw [after_v4]
  try rw [after_cst_1]
  try rw [after_v3]
  try rw [after_v2]
  rfl

set_option maxHeartbeats 8000000 in
/-- Plane 2: the feature buffer holds the plane's sampling chain of the plane's array and the plane's two coordinate
    columns: every intermediate buffer replaced by its one operation's value, the chain is the staged function. -/
theorem fold_plane2 (V : Valuation τ sig (Elt Ideal)) :
    after ops V (Proc.devRef .tc main_v220) = samplePlane (after ops V (Proc.devRef .tc main_arg2)) (after ops V (Proc.devRef .tc main_v114)) := by
  try rw [after_v220]
  try rw [after_v219]
  try rw [after_v218]
  try rw [after_v217]
  try rw [after_v216]
  try rw [after_v215]
  try rw [after_v214]
  try rw [after_v213]
  try rw [after_v212]
  try rw [after_v211]
  try rw [after_v210]
  try rw [after_v209]
  try rw [after_v208]
  try rw [after_v207]
  try rw [after_v206]
  try rw [after_v205]
  try rw [after_v204]
  try rw [after_v203]
  try rw [after_v202]
  try rw [after_c_66]
  try rw [after_v201]
  try rw [after_v200]
  try rw [after_c_65]
  try rw [after_v199]
  try rw [after_v198]
  try rw [after_v197]
  try rw [after_c_64]
  try rw [after_v196]
  try rw [after_v195]
  try rw [after_c_63]
  try rw [after_v194]
  try rw [after_v193]
  try rw [after_v192]
  try rw [after_v191]
  try rw [after_v190]
  try rw [after_v189]
  try rw [after_v188]
  try rw [after_c_62]
  try rw [after_v187]
  try rw [after_v186]
  try rw [after_c_61]
  try rw [after_v185]
  try rw [after_v184]
  try rw [after_v183]
  try rw [after_c_60]
  try rw [after_v182]
  try rw [after_v181]
  try rw [after_c_59]
  try rw [after_v180]
  try rw [after_v179]
  try rw [after_v178]
  try rw [after_v177]
  try rw [after_v176]
  try rw [after_v175]
  try rw [after_v174]
  try rw [after_c_58]
  try rw [after_v173]
  try rw [after_v172]
  try rw [after_c_57]
  try rw [after_v171]
  try rw [after_v170]
  try rw [after_v169]
  try rw [after_c_56]
  try rw [after_v168]
  try rw [after_v167]
  try rw [after_c_55]
  try rw [after_v166]
  try rw [after_v165]
  try rw [after_v164]
  try rw [after_v163]
  try rw [after_v162]
  try rw [after_v161]
  try rw [after_v160]
  try rw [after_c_54]
  try rw [after_v159]
  try rw [after_v158]
  try rw [after_c_53]
  try rw [after_v157]
  try rw [after_v156]
  try rw [after_v155]
  try rw [after_c_52]
  try rw [after_v154]
  try rw [after_v153]
  try rw [after_c_51]
  try rw [after_v152]
  try rw [after_v151]
  try rw [after_c_50]
  try rw [after_v150]
  try rw [after_v149]
  try rw [after_c_49]
  try rw [after_v148]
  try rw [after_v147]
  try rw [after_c_48]
  try rw [after_v146]
  try rw [after_v145]
  try rw [after_c_47]
  try rw [after_v144]
  try rw [after_v143]
  try rw [after_v142]
  try rw [after_v141]
  try rw [after_v140]
  try rw [after_v139]
  try rw [after_v138]
  try rw [after_v137]
  try rw [after_v136]
  try rw [after_call4_v4]
  try rw [after_call4_v3]
  try rw [after_call4_v2]
  try rw [after_call4_v1]
  try rw [after_call4_v0]
  try rw [after_cst_46]
  try rw [after_cst_45]
  try rw [after_v135]
  try rw [after_v134]
  try rw [after_cst_44]
  try rw [after_v133]
  try rw [after_v132]
  try rw [after_cst_43]
  try rw [after_v131]
  try rw [after_v130]
  try rw [after_cst_42]
  try rw [after_v129]
  try rw [after_v128]
  try rw [after_cst_41]
  try rw [after_v127]
  try rw [after_v126]
  try rw [after_v125]
  try rw [after_call3_v4]
  try rw [after_call3_v3]
  try rw [after_call3_v2]
  try rw [after_call3_v1]
  try rw [after_call3_v0]
  try rw [after_cst_40]
  try rw [after_cst_39]
  try rw [after_v124]
  try rw [after_v123]
  try rw [after_cst_38]
  try rw [after_v122]
  try rw [after_v121]
  try rw [after_cst_37]
  try rw [after_v120]
  try rw [after_v119]
  try rw [after_cst_36]
  try rw [after_v118]
  try rw [after_v117]
  try rw [after_cst_35]
  try rw [after_v116]
  try rw [after_v115]
  rfl

set_option maxHeartbeats 8000000 in
/-- Plane 3: the feature buffer holds the plane's sampling chain of the plane's array and the plane's two coordinate
    columns: every intermediate buffer replaced by its one operation's value, the chain is the staged function. -/
theorem fold_plane3 (V : Valuation τ sig (Elt Ideal)) :
    after ops V (Proc.devRef .tc main_v327) = samplePlane (after ops V (Proc.devRef .tc main_arg3)) (after ops V (Proc.devRef .tc main_v221)) := by
  try rw [after_v327]
  try rw [after_v326]
  try rw [after_v325]
  try rw [after_v324]
  try rw [after_v323]
  try rw [after_v322]
  try rw [after_v321]
  try rw [after_v320]
  try rw [after_v319]
  try rw [after_v318]
  try rw [after_v317]
  try rw [after_v316]
  try rw [after_v315]
  try rw [after_v314]
  try rw [after_v313]
  try rw [after_v312]
  try rw [after_v311]
  try rw [after_v310]
  try rw [after_v309]
  try rw [after_c_98]
  try rw [after_v308]
  try rw [after_v307]
  try rw [after_c_97]
  try rw [after_v306]
  try rw [after_v305]
  try rw [after_v304]
  try rw [after_c_96]
  try rw [after_v303]
  try rw [after_v302]
  try rw [after_c_95]
  try rw [after_v301]
  try rw [after_v300]
  try rw [after_v299]
  try rw [after_v298]
  try rw [after_v297]
  try rw [after_v296]
  try rw [after_v295]
  try rw [after_c_94]
  try rw [after_v294]
  try rw [after_v293]
  try rw [after_c_93]
  try rw [after_v292]
  try rw [after_v291]
  try rw [after_v290]
  try rw [after_c_92]
  try rw [after_v289]
  try rw [after_v288]
  try rw [after_c_91]
  try rw [after_v287]
  try rw [after_v286]
  try rw [after_v285]
  try rw [after_v284]
  try rw [after_v283]
  try rw [after_v282]
  try rw [after_v281]
  try rw [after_c_90]
  try rw [after_v280]
  try rw [after_v279]
  try rw [after_c_89]
  try rw [after_v278]
  try rw [after_v277]
  try rw [after_v276]
  try rw [after_c_88]
  try rw [after_v275]
  try rw [after_v274]
  try rw [after_c_87]
  try rw [after_v273]
  try rw [after_v272]
  try rw [after_v271]
  try rw [after_v270]
  try rw [after_v269]
  try rw [after_v268]
  try rw [after_v267]
  try rw [after_c_86]
  try rw [after_v266]
  try rw [after_v265]
  try rw [after_c_85]
  try rw [after_v264]
  try rw [after_v263]
  try rw [after_v262]
  try rw [after_c_84]
  try rw [after_v261]
  try rw [after_v260]
  try rw [after_c_83]
  try rw [after_v259]
  try rw [after_v258]
  try rw [after_c_82]
  try rw [after_v257]
  try rw [after_v256]
  try rw [after_c_81]
  try rw [after_v255]
  try rw [after_v254]
  try rw [after_c_80]
  try rw [after_v253]
  try rw [after_v252]
  try rw [after_c_79]
  try rw [after_v251]
  try rw [after_v250]
  try rw [after_v249]
  try rw [after_v248]
  try rw [after_v247]
  try rw [after_v246]
  try rw [after_v245]
  try rw [after_v244]
  try rw [after_v243]
  try rw [after_call6_v4]
  try rw [after_call6_v3]
  try rw [after_call6_v2]
  try rw [after_call6_v1]
  try rw [after_call6_v0]
  try rw [after_cst_78]
  try rw [after_cst_77]
  try rw [after_v242]
  try rw [after_v241]
  try rw [after_cst_76]
  try rw [after_v240]
  try rw [after_v239]
  try rw [after_cst_75]
  try rw [after_v238]
  try rw [after_v237]
  try rw [after_cst_74]
  try rw [after_v236]
  try rw [after_v235]
  try rw [after_cst_73]
  try rw [after_v234]
  try rw [after_v233]
  try rw [after_v232]
  try rw [after_call5_v4]
  try rw [after_call5_v3]
  try rw [after_call5_v2]
  try rw [after_call5_v1]
  try rw [after_call5_v0]
  try rw [after_cst_72]
  try rw [after_cst_71]
  try rw [after_v231]
  try rw [after_v230]
  try rw [after_cst_70]
  try rw [after_v229]
  try rw [after_v228]
  try rw [after_cst_69]
  try rw [after_v227]
  try rw [after_v226]
  try rw [after_cst_68]
  try rw [after_v225]
  try rw [after_v224]
  try rw [after_cst_67]
  try rw [after_v223]
  try rw [after_v222]
  rfl

end Cert.ReferenceIdeal.Fold

end
-- ==== Proof.RefTail.lean ====
/- The reference program's line read at an index, at the exact arithmetic: its head (the clamped coordinates and the three
   pairs of coordinate columns the planes are sampled at) and its tail (the projection of the 24 sampled features, the bias
   and the final clamp). `V` is any contents the line is run from; every statement is about what buffers hold after the
   whole line, `after ops V`, read at an entry.

   * The clamped coordinates are the coordinates clipped into [-1, 1], entry by entry (`head_v0`).
   * The plane (x, y) is sampled at columns 0 and 1 of the clamped coordinates, a slice (`head_v1`); the plane (y, z) at
     columns 1 and 2, a slice from column 1 (`head_v221`); the plane (x, z) at columns 0 and 2, picked through the constant
     table [0, 2] after jax's index normalisation — a negative entry would have the extent 3 added; neither is negative —
     by a gather of whole columns (`head_v114`).
   * The result at (n, o) is the sum over the 24 features of feature k of point n times entry (o, k) of the projection
     matrix — the matrix enters transposed, contracted along its rows —, plus entry o of the bias, clamped into [-10, 10]:
     the minimum of 10 and (the maximum of -10 and it) (`tail_v334`). -/
import proofs.«114771_j71983651881269_2_alg».proof.Proof.RefEqs0
import proofs.«114771_j71983651881269_2_alg».proof.Proof.RefEqs2
import proofs.«114771_j71983651881269_2_alg».proof.Proof.RefEqs4
import proofs.«114771_j71983651881269_2_alg».proof.Proof.RefEqs7
import proofs.«114771_j71983651881269_2_alg».proof.Proof.Spec
import proofs.«114771_j71983651881269_2_alg».proof.Proof.LibPlaneGather
import Idealize.ShloMosaic.Lib.ValueLayout
import Idealize.ShloMosaic.Lib.KernelVsHost
import Idealize.ShloMosaic.Lib.IdealHost
import Idealize.ShloMosaic.Lib.StackMember

noncomputable section

namespace Cert.ReferenceIdeal.Tail

open Cert.ReferenceIdeal Cert.ReferenceIdeal.Gen Cert.ReferenceIdeal.HandRun Idealize.ShloMosaic Idealize.ShloMosaic.TcCoe
  Idealize.ShloMosaic.StableHlo Idealize.ShloMosaic.ValueIdx Cert.TriPlane
open scoped BigOperators

variable (V : Valuation τ sig (Elt Ideal))

/-! ## The head -/

/-- The clamped coordinates at (n, a): the coordinate clipped into [-1, 1] — the minimum of 1 and (the maximum of -1 and
    it), the two bounds scalars broadcast over the array. -/
theorem head_v0 (n : Fin 4000000) (a : Fin 3) :
    after ops V (Proc.devRef .tc main_v0) (ix2 n a) = clip1 (V (Proc.devRef .tc main_arg0) (ix2 n a)) := by
  rw [after_v0, after_call0_v4, after_call0_v3, after_cst_0, after_call0_v2, after_call0_v1, after_call0_v0, after_cst,
    after_arg0]
  rfl

/-- Columns 0 and 1 of the clamped coordinates: a slice from column 0. -/
theorem head_v1 (n : Fin 4000000) (a : Fin 2) :
    after ops V (Proc.devRef .tc main_v1) (ix2 n a) = after ops V (Proc.devRef .tc main_v0) (ix2 n (⟨a.val, by omega⟩ : Fin 3)) := by
  rw [after_v1]
  exact slice2_axis1_apply 0 _ _ n a ⟨a.val, by omega⟩ (by simp)

/-- Columns 1 and 2 of the clamped coordinates: a slice from column 1. -/
theorem head_v221 (n : Fin 4000000) (a : Fin 2) :
    after ops V (Proc.devRef .tc main_v221) (ix2 n a) = after ops V (Proc.devRef .tc main_v0) (ix2 n (⟨1 + a.val, by omega⟩ : Fin 3)) := by
  rw [after_v221]
  exact slice2_axis1_apply 1 _ _ n a ⟨1 + a.val, by omega⟩ rfl

/-- The table of column numbers the gather reads, as it reaches the gather: entry a of [0, 2] — the comparison with 0
    is false at both entries, so the select keeps the table — as a 2 × 1 array. Read signed: 0 and 2. -/
theorem table_toInt (a : Fin 2) :
    (after ops V (Proc.devRef .tc main_v113) (ix2 a (0 : Fin 1))).toInt = (((if a = 0 then (0 : Fin 3) else 2) : Fin 3).val : Int) := by
  rw [after_v113, after_v112, after_v109, after_v108, after_c_33, after_v111, after_v110, after_c_34, after_c]
  fin_cases a <;> rfl

/-- Columns 0 and 2 of the clamped coordinates: whole columns picked through the table [0, 2]. -/
theorem head_v114 (n : Fin 4000000) (a : Fin 2) :
    after ops V (Proc.devRef .tc main_v114) (ix2 n a) = after ops V (Proc.devRef .tc main_v0) (ix2 n (if a = 0 then (0 : Fin 3) else 2)) := by
  rw [after_v114]
  exact Cert.Lib.PlaneGather.gather_cols_apply (N := 4000000) (C := 3) (K := 2) gather_S4000000x3_S2x1_S4000000x2_0_1_n_n_1_1_40000001_wf
    (after ops V (Proc.devRef .tc main_v0)) (after ops V (Proc.devRef .tc main_v113)) n a _ (table_toInt V a)

/-! ## The tail

The arrays the tail's arithmetic is stated over, at their types (arrays of extended reals): reads of what the buffers hold
after the line, and of the launch contents of the projection matrix and the bias. -/

/-- The result after the line. -/
abbrev out : FVec Ideal S4000000x8 .f32 := after ops V (Proc.devRef .tc main_v334)
/-- The 24 sampled features of every point after the line. -/
abbrev feat : FVec Ideal S4000000x24 .f32 := after ops V (Proc.devRef .tc main_v328)
/-- The projection after the line. -/
abbrev proj : FVec Ideal S4000000x8 .f32 := after ops V (Proc.devRef .tc main_v330)
/-- The bias as it is added, after the line. -/
abbrev biasRows : FVec Ideal S4000000x8 .f32 := after ops V (Proc.devRef .tc main_v332)
/-- The projection matrix, 8 × 24, at launch. -/
abbrev wmat : FVec Ideal S8x24 .f32 := V (Proc.devRef .tc main_arg4)
/-- The bias, 8 entries, at launch. -/
abbrev bias : FVec Ideal S8 .f32 := V (Proc.devRef .tc main_arg5)

/-- The bias as it is added: entry o of the bias at every point (broadcast to one row, the row down the points). -/
theorem bias_apply (n : Fin 4000000) (o : Fin 8) : biasRows V (ix2 n o) = bias V (ix1 o) := by
  show after ops V (Proc.devRef .tc main_v332) (ix2 n o) = V (Proc.devRef .tc main_arg5) (ix1 o)
  rw [after_v332, after_v331, after_arg5]
  refine (broadcastInDim_oneRow_apply _ _ n o).trans ?_
  refine broadcastInDim_apply _ _ _ _ (ix1 o) fun ax => ?_
  match ax with
  | ⟨0, _⟩ => rfl

/-- The projection at (n, o): the sum over the 24 features of feature k of point n times entry (o, k) of the matrix. -/
theorem proj_apply (n : Fin 4000000) (o : Fin 8) :
    proj V (ix2 n o) = ∑ k : Fin 24, feat V (ix2 n k) * wmat V (ix2 o k) := by
  show after ops V (Proc.devRef .tc main_v330) (ix2 n o) = _
  rw [after_v330, after_v329]
  refine (Idealize.ShloMosaic.StackMember.dotGeneral_plain_apply (m := 4000000) (n := 8) (k := 24) none _ _ n o).trans ?_
  refine Finset.sum_congr rfl fun k _ => ?_
  rw [transpose_ix2_apply]

/-- The result at (n, o): the projection plus the bias, clamped into [-10, 10]. -/
theorem tail_v334 (n : Fin 4000000) (o : Fin 8) :
    out V (ix2 n o)
      = min (Ideal.ofBits .f32 0x41200000#32) (max (Ideal.ofBits .f32 0xC1200000#32)
          ((∑ k : Fin 24, feat V (ix2 n k) * wmat V (ix2 o k)) + bias V (ix1 o))) := by
  rw [← proj_apply V n o, ← bias_apply V n o]
  show after ops V (Proc.devRef .tc main_v334) (ix2 n o) = _
  rw [after_v334, after_call7_v4, after_call7_v3, after_cst_100, after_call7_v2, after_call7_v1, after_call7_v0, after_cst_99,
    after_v333]
  rfl

end Cert.ReferenceIdeal.Tail

end
-- ==== Proof.RefFacts.lean ====
/-
  THE REFERENCE-SIDE FACTS, in the forms the abstract bridge takes. From a launch memory and a device: the coordinates
  `X`, the three planes, the projection matrix and the bias are what the six argument buffers hold at launch; after the
  whole run,
  • each plane's feature buffer holds, at point `n` and feature `r`, the bilinear blend of the plane at the four cell
    corners of the point's two clipped coordinates (plane 1: columns 0 and 1 of `X`; plane 2: columns 0 and 2; plane 3:
    columns 1 and 2 — the first the width coordinate, the second the height coordinate), with the weights `frac` of the
    two coordinates: the folded sampling chain read at an index, its coordinate array traced back to the clipped
    coordinates;
  • the 24-lane feature buffer holds the three planes' features side by side, lane `8p + k` feature `k` of plane `p`;
  • the result buffer holds the clip into `[-10, 10]` of the 24-term contraction of the features with a row of the
    projection matrix, plus the bias.
  No hypothesis on the memory: every statement holds for every extended-real input.
-/
import proofs.«114771_j71983651881269_2_alg».proof.Proof.RefFold
import proofs.«114771_j71983651881269_2_alg».proof.Proof.RefTail
import proofs.«114771_j71983651881269_2_alg».proof.Proof.RefPlane
import proofs.«114771_j71983651881269_2_alg».proof.Proof.Spec
import proofs.«114771_j71983651881269_2_alg».proof.Proof.LibConcatCols

noncomputable section

namespace Cert.ReferenceIdeal.Facts

open Cert.ReferenceIdeal Cert.ReferenceIdeal.Gen Cert.ReferenceIdeal.HandRun Cert.ReferenceIdeal.Plane Cert.TriPlane
open Idealize.ShloMosaic Idealize.ShloMosaic.ValueIdx Idealize.ShloMosaic.TcCoe Idealize.SL.Sem Idealize.ShloMosaic.StableHlo
open scoped BigOperators

/-! ## Generic steps -/

/-- ONE PLANE'S FEATURE IN THE BLEND FORM: if a feature array is the sampling chain of a plane and a coordinate array
    whose two entries at point `n` are `u` (width) and `v` (height), its entry `(n, r)` is the bilinear blend of the
    plane at the four cell corners of `(v, u)` with the weights `frac u`, `frac v`. -/
theorem plane_fact (plane : FVec Ideal S512x512x8 .f32) (uv : FVec Ideal S4000000x2 .f32)
    (Rout : FVec Ideal S4000000x8 .f32) (hfold : Rout = samplePlane plane uv) (u v : EReal) (n : Fin 4000000)
    (hu : uv (ix2 n (0 : Fin 2)) = u) (hv : uv (ix2 n (1 : Fin 2)) = v) (r : Fin 8) :
    Rout (ix2 n r) = blend (plane (ix3 (cellLo v) (cellLo u) r)) (plane (ix3 (cellLo v) (cellHi u) r))
      (plane (ix3 (cellHi v) (cellLo u) r)) (plane (ix3 (cellHi v) (cellHi u) r)) (frac u) (frac v) := by
  rw [hfold, samplePlane_apply, hu, hv]

/-- THE CONCATENATED FEATURES: lane `8p + k` of the 24-lane array is feature `k` of plane `p`. -/
theorem tail_v328 (V : Valuation τ sig (Elt Ideal)) (n : Fin 4000000) (k : Fin 8) :
    after ops V (Proc.devRef .tc main_v328) (ix2 n (wrow 0 k)) = after ops V (Proc.devRef .tc main_v107) (ix2 n k)
    ∧ after ops V (Proc.devRef .tc main_v328) (ix2 n (wrow 1 k)) = after ops V (Proc.devRef .tc main_v220) (ix2 n k)
    ∧ after ops V (Proc.devRef .tc main_v328) (ix2 n (wrow 2 k)) = after ops V (Proc.devRef .tc main_v327) (ix2 n k) := by
  rw [after_v328]
  refine ⟨?_, ?_, ?_⟩
  · exact Cert.Lib.ConcatCols.concat3_apply_0 _ _ _ _ n (wrow 0 k) k (by show 8 * 0 + k.val = k.val; omega)
  · exact Cert.Lib.ConcatCols.concat3_apply_1 _ _ _ _ n (wrow 1 k) k (by show 8 * 1 + k.val = 8 + k.val; omega)
  · exact Cert.Lib.ConcatCols.concat3_apply_2 _ _ _ _ n (wrow 2 k) k (by show 8 * 2 + k.val = 2 * 8 + k.val; omega)

/-! ## The coordinate columns of the three planes, as clipped columns of the coordinates -/

section cols
variable (V : Valuation τ sig (Elt Ideal)) (n : Fin 4000000)

theorem v1_col0 : after ops V (Proc.devRef .tc main_v1) (ix2 n (0 : Fin 2))
    = clip1 (V (Proc.devRef .tc main_arg0) (ix2 n (0 : Fin 3))) := by
  rw [Tail.head_v1, Tail.head_v0]; rfl

theorem v1_col1 : after ops V (Proc.devRef .tc main_v1) (ix2 n (1 : Fin 2))
    = clip1 (V (Proc.devRef .tc main_arg0) (ix2 n (1 : Fin 3))) := by
  rw [Tail.head_v1, Tail.head_v0]; rfl

theorem v114_col0 : after ops V (Proc.devRef .tc main_v114) (ix2 n (0 : Fin 2))
    = clip1 (V (Proc.devRef .tc main_arg0) (ix2 n (0 : Fin 3))) := by
  rw [Tail.head_v114, Tail.head_v0, if_pos rfl]

theorem v114_col1 : after ops V (Proc.devRef .tc main_v114) (ix2 n (1 : Fin 2))
    = clip1 (V (Proc.devRef .tc main_arg0) (ix2 n (2 : Fin 3))) := by
  rw [Tail.head_v114, Tail.head_v0, if_neg (by decide)]

theorem v221_col0 : after ops V (Proc.devRef .tc main_v221) (ix2 n (0 : Fin 2))
    = clip1 (V (Proc.devRef .tc main_arg0) (ix2 n (1 : Fin 3))) := by
  rw [Tail.head_v221, Tail.head_v0]; rfl

theorem v221_col1 : after ops V (Proc.devRef .tc main_v221) (ix2 n (1 : Fin 2))
    = clip1 (V (Proc.devRef .tc main_arg0) (ix2 n (2 : Fin 3))) := by
  rw [Tail.head_v221, Tail.head_v0]; rfl

end cols

/-! ## The reference-side facts, from a launch memory -/

variable (m' : (ℓ : Loc nD τ sig) → Buf (Elt Ideal) ℓ) (c : Dev nD)

/-- The launch contents on device `c`. -/
abbrev Vof : Valuation τ sig (Elt Ideal) := fun b => m' (c, b)

/-- What a buffer holds after the whole run from those contents. -/
abbrev Rof (b : Ref sig .tc) : b.ty.Contents (Elt Ideal) := after ops (Vof m' c) (Proc.devRef .tc b)

/-- The coordinates, the three planes, the projection matrix and the bias at launch. -/
abbrev Xof : FVec Ideal S4000000x3 .f32 := Vof m' c (Proc.devRef .tc main_arg0)
abbrev P1of : FVec Ideal S512x512x8 .f32 := Vof m' c (Proc.devRef .tc main_arg1)
abbrev P2of : FVec Ideal S512x512x8 .f32 := Vof m' c (Proc.devRef .tc main_arg2)
abbrev P3of : FVec Ideal S512x512x8 .f32 := Vof m' c (Proc.devRef .tc main_arg3)
abbrev Wof : FVec Ideal S8x24 .f32 := Tail.wmat (Vof m' c)
abbrev bof : FVec Ideal S8 .f32 := Tail.bias (Vof m' c)

/-- The three planes' features, the concatenated features and the result after the run. -/
abbrev R1of : FVec Ideal S4000000x8 .f32 := Rof m' c main_v107
abbrev R2of : FVec Ideal S4000000x8 .f32 := Rof m' c main_v220
abbrev R3of : FVec Ideal S4000000x8 .f32 := Rof m' c main_v327
abbrev R328of : FVec Ideal S4000000x24 .f32 := Tail.feat (Vof m' c)
abbrev R334of : FVec Ideal S4000000x8 .f32 := Tail.out (Vof m' c)

/-- Plane 1's feature: the blend at the cells of coordinate columns 0 (width) and 1 (height). -/
theorem hR1 : ∀ (n : Fin 4000000) (r : Fin 8),
    let u := clip1 (Xof m' c (ix2 n (0 : Fin 3))); let v := clip1 (Xof m' c (ix2 n (1 : Fin 3)));
    R1of m' c (ix2 n r) = blend (P1of m' c (ix3 (cellLo v) (cellLo u) r)) (P1of m' c (ix3 (cellLo v) (cellHi u) r))
      (P1of m' c (ix3 (cellHi v) (cellLo u) r)) (P1of m' c (ix3 (cellHi v) (cellHi u) r)) (frac u) (frac v) := by
  intro n r
  exact plane_fact (P1of m' c) (Rof m' c main_v1) (R1of m' c)
    ((Fold.fold_plane1 (Vof m' c)).trans (by rw [after_arg (r := main_arg1)])) _ _ n (v1_col0 _ n) (v1_col1 _ n) r

/-- Plane 2's feature: columns 0 (width) and 2 (height). -/
theorem hR2 : ∀ (n : Fin 4000000) (r : Fin 8),
    let u := clip1 (Xof m' c (ix2 n (0 : Fin 3))); let v := clip1 (Xof m' c (ix2 n (2 : Fin 3)));
    R2of m' c (ix2 n r) = blend (P2of m' c (ix3 (cellLo v) (cellLo u) r)) (P2of m' c (ix3 (cellLo v) (cellHi u) r))
      (P2of m' c (ix3 (cellHi v) (cellLo u) r)) (P2of m' c (ix3 (cellHi v) (cellHi u) r)) (frac u) (frac v) := by
  intro n r
  exact plane_fact (P2of m' c) (Rof m' c main_v114) (R2of m' c)
    ((Fold.fold_plane2 (Vof m' c)).trans (by rw [after_arg (r := main_arg2)])) _ _ n (v114_col0 _ n) (v114_col1 _ n) r

/-- Plane 3's feature: columns 1 (width) and 2 (height). -/
theorem hR3 : ∀ (n : Fin 4000000) (r : Fin 8),
    let u := clip1 (Xof m' c (ix2 n (1 : Fin 3))); let v := clip1 (Xof m' c (ix2 n (2 : Fin 3)));
    R3of m' c (ix2 n r) = blend (P3of m' c (ix3 (cellLo v) (cellLo u) r)) (P3of m' c (ix3 (cellLo v) (cellHi u) r))
      (P3of m' c (ix3 (cellHi v) (cellLo u) r)) (P3of m' c (ix3 (cellHi v) (cellHi u) r)) (frac u) (frac v) := by
  intro n r
  exact plane_fact (P3of m' c) (Rof m' c main_v221) (R3of m' c)
    ((Fold.fold_plane3 (Vof m' c)).trans (by rw [after_arg (r := main_arg3)])) _ _ n (v221_col0 _ n) (v221_col1 _ n) r

/-- The concatenated features, plane by plane. -/
theorem h328 : ∀ (n : Fin 4000000) (k : Fin 8), R328of m' c (ix2 n (wrow 0 k)) = R1of m' c (ix2 n k)
    ∧ R328of m' c (ix2 n (wrow 1 k)) = R2of m' c (ix2 n k) ∧ R328of m' c (ix2 n (wrow 2 k)) = R3of m' c (ix2 n k) :=
  fun n k => tail_v328 (Vof m' c) n k

/-- The result: the clip into `[-10, 10]` of the 24-term contraction with a row of the matrix, plus the bias. -/
theorem h334 : ∀ (n : Fin 4000000) (o : Fin 8), R334of m' c (ix2 n o)
    = min (Ideal.ofBits .f32 0x41200000#32) (max (Ideal.ofBits .f32 0xC1200000#32)
        ((∑ k : Fin 24, R328of m' c (ix2 n k) * Wof m' c (ix2 o k)) + bof m' c (ix1 o))) :=
  fun n o => Tail.tail_v334 (Vof m' c) n o

end Cert.ReferenceIdeal.Facts

end
-- ==== Proof.KOpsBase.lean ====
/- What a line of host operations must be for its fold to be read one operation at a time, and what such a line then gives:
   here for the kernel program's host operations before its region. The program names one HBM buffer per tensor value,
   numbered in the order the values are defined: the six arguments are indices 0 … 5, and the operation at position `i` of
   the line writes the buffer of index `6 + i`, reading only buffers of smaller index (each value is defined once, before
   its uses). `GoodFrom n l` states the first half of that of a line `l` whose first operation writes index `n` — with the
   two side conditions of the library's `run_seq` (TensorCore references only, every result determined). From it: the line
   leaves every buffer of index below `n` as it was (`keep_lt`); after the whole line a buffer of index below `n + i` holds
   what it held after the first `i` operations (`after_eq_take`); and so the buffer an operation writes ends holding that
   operation's function of what its operands END holding (`at_unary`, `at_binary`, …: one equation per operation, all
   about the one final valuation `after l V`). -/
import proofs.«114771_j71983651881269_2_alg».proof.Proof.Gen.KernelIdeal.Launch
import Idealize.ShloMosaic.Lib.StableHlo.Run

noncomputable section

namespace Cert.KernelIdeal.HostRun

open Cert.KernelIdeal Cert.KernelIdeal.Gen Idealize.ShloMosaic Idealize.ShloMosaic.TcCoe Idealize.SL.Sem Idealize.ShloMosaic.StableHlo

variable {F : FTy → Type} [FloatOps F]

/-- The buffers after the line `l₁ ++ l₂`: the line `l₂`'s fold over what `l₁` leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation the run accepts that writes the buffer of index `n`: everything it touches is a TensorCore reference, it
    determines what it writes, and it writes exactly one buffer, a reference of index `n` in its memory space. -/
def GoodAt (n : Nat) (op : HloOp τ sig (Elt F)) : Prop :=
  op.bufs ⊆ tcRefs τ sig ∧ op.fresh = ∅ ∧ ∃ y : Ref sig .tc, op.writes = {Proc.devRef .tc y} ∧ y.idx.val = n

/-- A line of such operations writing the indices `n`, `n + 1`, … in order. -/
def GoodFrom : Nat → List (HloOp τ sig (Elt F)) → Prop
  | _, [] => True
  | n, op :: l => GoodAt n op ∧ GoodFrom (n + 1) l

/-- Two such lines one after the other, the second starting at the index the first stops before. -/
theorem GoodFrom.append {l₁ l₂ : List (HloOp τ sig (Elt F))} : ∀ {n m : Nat}, GoodFrom n l₁ → GoodFrom m l₂ → m = n + l₁.length →
    GoodFrom n (l₁ ++ l₂) := by
  induction l₁ with
  | nil => intro n m _ h e; simp only [List.length_nil, Nat.add_zero] at e; subst e; exact h
  | cons op l ih =>
    intro n m h₁ h₂ e
    refine ⟨h₁.1, ih h₁.2 h₂ ?_⟩
    rw [List.length_cons] at e
    omega

/-- Each operation of such a line, with a lower bound on the index it writes. -/
theorem GoodFrom.mem {l : List (HloOp τ sig (Elt F))} : ∀ {n : Nat}, GoodFrom n l → ∀ op ∈ l,
    op.bufs ⊆ tcRefs τ sig ∧ op.fresh = ∅ ∧ ∃ y : Ref sig .tc, op.writes = {Proc.devRef .tc y} ∧ n ≤ y.idx.val := by
  induction l with
  | nil => intro n _ op h; exact nomatch h
  | cons o l ih =>
    intro n h op hop
    rcases List.mem_cons.mp hop with rfl | hop
    · obtain ⟨hb, hf, y, hw, hy⟩ := h.1
      exact ⟨hb, hf, y, hw, hy.ge⟩
    · obtain ⟨hb, hf, y, hw, hy⟩ := ih h.2 op hop
      exact ⟨hb, hf, y, hw, by omega⟩

/-- The first side condition of the run: the operations touch TensorCore references only. -/
theorem GoodFrom.bufs_sub {n : Nat} {l : List (HloOp τ sig (Elt F))} (h : GoodFrom n l) :
    l.Forall fun op => op.bufs ⊆ tcRefs τ sig :=
  List.forall_iff_forall_mem.mpr fun op hop => (h.mem op hop).1

/-- The second: each determines its results. -/
theorem GoodFrom.fresh {n : Nat} {l : List (HloOp τ sig (Elt F))} (h : GoodFrom n l) : ∀ op ∈ l, op.fresh = ∅ :=
  fun op hop => (h.mem op hop).2.1

/-- The line leaves a buffer of index below `n` at the contents it had: no operation of it writes that buffer. -/
theorem GoodFrom.keep_lt {n : Nat} {l : List (HloOp τ sig (Elt F))} (h : GoodFrom n l) (V : Valuation τ sig (Elt F))
    {r : Ref sig .tc} (hr : r.idx.val < n) : after l V (Proc.devRef .tc r) = V (Proc.devRef .tc r) :=
  after_of_forall_not_mem l V fun op hop hb => by
    obtain ⟨-, -, y, hw, hy⟩ := h.mem op hop
    rw [hw, Finset.mem_singleton] at hb
    have e : r = y := Proc.devRef_injective _ hb
    subst e
    omega

theorem GoodFrom.take {l : List (HloOp τ sig (Elt F))} : ∀ {n : Nat} (i : Nat), GoodFrom n l → GoodFrom n (l.take i) := by
  induction l with
  | nil => intro n i _; simp [GoodFrom]
  | cons o l ih =>
    intro n i h
    cases i with
    | zero => trivial
    | succ i => exact ⟨h.1, ih i h.2⟩

theorem GoodFrom.drop {l : List (HloOp τ sig (Elt F))} : ∀ {n : Nat} (i : Nat), GoodFrom n l → GoodFrom (n + i) (l.drop i) := by
  induction l with
  | nil => intro n i _; simp [GoodFrom]
  | cons o l ih =>
    intro n i h
    cases i with
    | zero => exact h
    | succ i =>
      have := ih i h.2
      rwa [Nat.add_assoc, Nat.add_comm 1] at this

/-- The operation at position `i` writes the buffer of index `n + i`. -/
theorem GoodFrom.getElem {l : List (HloOp τ sig (Elt F))} : ∀ {n : Nat} (i : Nat) (hi : i < l.length), GoodFrom n l →
    GoodAt (n + i) l[i] := by
  induction l with
  | nil => intro n i hi; exact absurd hi (Nat.not_lt_zero _)
  | cons o l ih =>
    intro n i hi h
    cases i with
    | zero => exact h.1
    | succ i =>
      have := ih i (Nat.lt_of_succ_lt_succ hi) h.2
      rwa [Nat.add_assoc, Nat.add_comm 1] at this

/-- After the whole line a buffer of index below `n + i` holds what it held after the first `i` operations: the rest write
    indices from `n + i` on. -/
theorem GoodFrom.after_eq_take {n : Nat} {l : List (HloOp τ sig (Elt F))} (h : GoodFrom n l) (V : Valuation τ sig (Elt F)) (i : Nat)
    {r : Ref sig .tc} (hr : r.idx.val < n + i) :
    after l V (Proc.devRef .tc r) = after (l.take i) V (Proc.devRef .tc r) := by
  conv_lhs => rw [← List.take_append_drop i l, after_append]
  exact (h.drop i).keep_lt _ hr

/-- After the whole line a buffer of index at most `n + i` holds what the operation at position `i` left there, run from what
    the first `i` operations leave. -/
theorem GoodFrom.after_eq_result {n : Nat} {l : List (HloOp τ sig (Elt F))} (h : GoodFrom n l) (V : Valuation τ sig (Elt F)) (i : Nat)
    (hi : i < l.length) {r : Ref sig .tc} (hr : r.idx.val ≤ n + i) :
    after l V (Proc.devRef .tc r) = l[i].result (after (l.take i) V) (Proc.devRef .tc r) := by
  rw [h.after_eq_take V (i + 1) (by omega), List.take_succ_eq_append_getElem hi, after_append]
  rfl

/-- The operation at the position of the buffer `y` (its index less `n`), if it is one that writes `y'`, is at position
    `y'`'s: the two are one buffer. -/
private theorem pos_eq {n : Nat} {l : List (HloOp τ sig (Elt F))} (h : GoodFrom n l) {y y' : Ref sig .tc} {op : HloOp τ sig (Elt F)}
    (he : l[y.idx.val - n]? = some op) (hw : op.writes = {Proc.devRef .tc y'}) (hn : n ≤ y.idx.val) :
    ∃ hi : y.idx.val - n < l.length, l[y.idx.val - n] = op ∧ y'.idx.val = y.idx.val := by
  obtain ⟨hi, e⟩ := List.getElem?_eq_some_iff.mp he
  obtain ⟨-, -, z, hz, hzi⟩ := h.getElem _ hi
  rw [e, hw] at hz
  have : y' = z := Proc.devRef_injective _ (Finset.singleton_inj.mp hz)
  subst this
  exact ⟨hi, e, by omega⟩

variable {n : Nat} {l : List (HloOp τ sig (Elt F))}

/-- A constant's buffer ends holding the constant. -/
theorem GoodFrom.at_nullary (h : GoodFrom n l) {y : Ref sig .tc} {v : y.ty.Contents (Elt F)} {hy}
    (he : l[y.idx.val - n]? = some (nullary y v hy)) (hn : n ≤ y.idx.val) (V : Valuation τ sig (Elt F)) :
    after l V (Proc.devRef .tc y) = v := by
  obtain ⟨hi, e, -⟩ := pos_eq h he (y' := y) rfl hn
  rw [h.after_eq_result V _ hi (by omega), e, nullary_result]

/-- A one-operand operation's result buffer ends holding its function of what the operand ends holding. -/
theorem GoodFrom.at_unary (h : GoodFrom n l) {x y : Ref sig .tc} {f : x.ty.Contents (Elt F) → y.ty.Contents (Elt F)} {hx hy}
    (he : l[y.idx.val - n]? = some (unary x y f hx hy)) (hn : n ≤ y.idx.val) (hxy : x.idx.val < y.idx.val)
    (V : Valuation τ sig (Elt F)) :
    after l V (Proc.devRef .tc y) = f (after l V (Proc.devRef .tc x)) := by
  obtain ⟨hi, e, -⟩ := pos_eq h he (y' := y) rfl hn
  rw [h.after_eq_result V _ hi (by omega), e, unary_result, h.after_eq_take V (y.idx.val - n) (r := x) (by omega)]

/-- A two-operand operation's. -/
theorem GoodFrom.at_binary (h : GoodFrom n l) {a b y : Ref sig .tc}
    {f : a.ty.Contents (Elt F) → b.ty.Contents (Elt F) → y.ty.Contents (Elt F)} {ha hb hy}
    (he : l[y.idx.val - n]? = some (binary a b y f ha hb hy)) (hn : n ≤ y.idx.val) (hay : a.idx.val < y.idx.val)
    (hby : b.idx.val < y.idx.val) (V : Valuation τ sig (Elt F)) :
    after l V (Proc.devRef .tc y) = f (after l V (Proc.devRef .tc a)) (after l V (Proc.devRef .tc b)) := by
  obtain ⟨hi, e, -⟩ := pos_eq h he (y' := y) rfl hn
  rw [h.after_eq_result V _ hi (by omega), e, binary_result, h.after_eq_take V (y.idx.val - n) (r := a) (by omega),
    h.after_eq_take V (y.idx.val - n) (r := b) (by omega)]

/-- A three-operand operation's (a select: the mask first). -/
theorem GoodFrom.at_ternary (h : GoodFrom n l) {c a b y : Ref sig .tc}
    {f : c.ty.Contents (Elt F) → a.ty.Contents (Elt F) → b.ty.Contents (Elt F) → y.ty.Contents (Elt F)} {hc ha hb hy}
    (he : l[y.idx.val - n]? = some (ternary c a b y f hc ha hb hy)) (hn : n ≤ y.idx.val) (hcy : c.idx.val < y.idx.val)
    (hay : a.idx.val < y.idx.val) (hby : b.idx.val < y.idx.val) (V : Valuation τ sig (Elt F)) :
    after l V (Proc.devRef .tc y)
      = f (after l V (Proc.devRef .tc c)) (after l V (Proc.devRef .tc a)) (after l V (Proc.devRef .tc b)) := by
  obtain ⟨hi, e, -⟩ := pos_eq h he (y' := y) rfl hn
  rw [h.after_eq_result V _ hi (by omega), e, ternary_result, h.after_eq_take V (y.idx.val - n) (r := c) (by omega),
    h.after_eq_take V (y.idx.val - n) (r := a) (by omega), h.after_eq_take V (y.idx.val - n) (r := b) (by omega)]

/-- A reshape's: the operand's elements in row-major order at the result's shape. -/
theorem GoodFrom.at_reshape (h : GoodFrom n l) {x y : Ref sig .tc} {hel : x.ty.elt = y.ty.elt} {hsc : x.ty.shape.ShapeCasts y.ty.shape} {hx hy}
    (he : l[y.idx.val - n]? = some (reshape x y hel hsc hx hy)) (hn : n ≤ y.idx.val) (hxy : x.idx.val < y.idx.val)
    (V : Valuation τ sig (Elt F)) :
    after l V (Proc.devRef .tc y) = fun i => hel ▸ shapeCast y.ty.shape (after l V (Proc.devRef .tc x)) hsc i := by
  obtain ⟨hi, e, -⟩ := pos_eq h he (y' := y) rfl hn
  rw [h.after_eq_result V _ hi (by omega), e, reshape_result, h.after_eq_take V (y.idx.val - n) (r := x) (by omega)]

/-- An operation's over a family of operands (a concatenation): its function of the family of what the operands end holding. -/
theorem GoodFrom.at_nary (h : GoodFrom n l) {k : Nat} {xs : Fin k → Ref sig .tc} {y : Ref sig .tc}
    {f : ((j : Fin k) → (xs j).ty.Contents (Elt F)) → y.ty.Contents (Elt F)} {hxs hy}
    (he : l[y.idx.val - n]? = some (nary xs y f hxs hy)) (hn : n ≤ y.idx.val) (hxy : ∀ j, (xs j).idx.val < y.idx.val)
    (V : Valuation τ sig (Elt F)) :
    after l V (Proc.devRef .tc y) = f (fun j => after l V (Proc.devRef .tc (xs j))) := by
  obtain ⟨hi, e, -⟩ := pos_eq h he (y' := y) rfl hn
  rw [h.after_eq_result V _ hi (by omega), e, nary_result]
  congr 1
  funext j
  exact (h.after_eq_take V (y.idx.val - n) (r := xs j) (by have := hxy j; omega)).symm

end Cert.KernelIdeal.HostRun

end
-- ==== Proof.KOpsGood.lean ====
/- The kernel program's host operations before its region: twenty-one stretches (the program's own lines and, at each call
   of an outlined function, the callee's operations over that call's buffers), 327 operations in all. Every operation
   touches TensorCore references only, determines its result, and writes one buffer: the operation at position `i` of the
   whole line the HBM buffer of index `6 + i`, past the six arguments (`goodJ` per stretch, `good` for the line `kops`, the
   stretches one after the other). -/
import proofs.«114771_j71983651881269_2_alg».proof.Proof.KOpsBase

set_option maxRecDepth 16384

noncomputable section

namespace Cert.KernelIdeal.HostRun

open Cert.KernelIdeal Cert.KernelIdeal.Gen Idealize.ShloMosaic Idealize.ShloMosaic.TcCoe Idealize.SL.Sem Idealize.ShloMosaic.StableHlo

variable {F : FTy → Type} [FloatOps F]

/-- Stretch 0 (2 operations of @main) writes the HBM buffers of indices 6 … 7 in order, each operation
    acceptable to the run. -/
theorem good0 : GoodFrom 6 (hostOps0 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (nullary_bufs_sub ..), trivial⟩

/-- Stretch 1 (6 operations of @clip (main_call0)) writes the HBM buffers of indices 8 … 13 in order, each operation
    acceptable to the run. -/
theorem good1 : GoodFrom 8 (hostOps0_1 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (binary_bufs_sub ..), g (unary_bufs_sub ..),
   g (unary_bufs_sub ..), g (binary_bufs_sub ..), trivial⟩

/-- Stretch 2 (18 operations of @main) writes the HBM buffers of indices 14 … 31 in order, each operation
    acceptable to the run. -/
theorem good2 : GoodFrom 14 (hostOps0_2 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (reshape_bufs_sub ..), g (unary_bufs_sub ..), g (reshape_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (nullary_bufs_sub ..), g (nullary_bufs_sub ..), trivial⟩

/-- Stretch 3 (6 operations of @clip_0 (main_call1)) writes the HBM buffers of indices 32 … 37 in order, each operation
    acceptable to the run. -/
theorem good3 : GoodFrom 32 (hostOps0_3 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (binary_bufs_sub ..), g (unary_bufs_sub ..),
   g (unary_bufs_sub ..), g (binary_bufs_sub ..), trivial⟩

/-- Stretch 4 (14 operations of @main) writes the HBM buffers of indices 38 … 51 in order, each operation
    acceptable to the run. -/
theorem good4 : GoodFrom 38 (hostOps0_4 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (nullary_bufs_sub ..), g (nullary_bufs_sub ..), trivial⟩

/-- Stretch 5 (6 operations of @clip_0 (main_call2)) writes the HBM buffers of indices 52 … 57 in order, each operation
    acceptable to the run. -/
theorem good5 : GoodFrom 52 (hostOps0_5 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (binary_bufs_sub ..), g (unary_bufs_sub ..),
   g (unary_bufs_sub ..), g (binary_bufs_sub ..), trivial⟩

/-- Stretch 6 (38 operations of @main) writes the HBM buffers of indices 58 … 95 in order, each operation
    acceptable to the run. -/
theorem good6 : GoodFrom 58 (hostOps0_6 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (unary_bufs_sub ..), g (unary_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (reshape_bufs_sub ..), g (nullary_bufs_sub ..), g (unary_bufs_sub ..), g (binary_bufs_sub ..),
   g (binary_bufs_sub ..), g (nullary_bufs_sub ..), g (unary_bufs_sub ..), g (binary_bufs_sub ..),
   g (binary_bufs_sub ..), g (nullary_bufs_sub ..), g (unary_bufs_sub ..), g (binary_bufs_sub ..),
   g (binary_bufs_sub ..), g (nullary_bufs_sub ..), g (unary_bufs_sub ..), g (binary_bufs_sub ..),
   g (binary_bufs_sub ..), g (unary_bufs_sub ..), g (unary_bufs_sub ..), g (unary_bufs_sub ..),
   g (unary_bufs_sub ..), g (nary_bufs_sub ..), trivial⟩

/-- Stretch 7 (23 operations of @_take (main_call3)) writes the HBM buffers of indices 96 … 118 in order, each operation
    acceptable to the run. -/
theorem good7 : GoodFrom 96 (hostOps0_7 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (unary_bufs_sub ..), g (binary_bufs_sub ..), g (nullary_bufs_sub ..),
   g (unary_bufs_sub ..), g (binary_bufs_sub ..), g (ternary_bufs_sub ..), g (unary_bufs_sub ..),
   g (nullary_bufs_sub ..), g (nullary_bufs_sub ..), g (unary_bufs_sub ..), g (binary_bufs_sub ..),
   g (unary_bufs_sub ..), g (unary_bufs_sub ..), g (binary_bufs_sub ..), g (binary_bufs_sub ..),
   g (nullary_bufs_sub ..), g (binary_bufs_sub ..), g (binary_bufs_sub ..), g (unary_bufs_sub ..),
   g (nullary_bufs_sub ..), g (unary_bufs_sub ..), g (ternary_bufs_sub ..), trivial⟩

/-- Stretch 8 (19 operations of @main) writes the HBM buffers of indices 119 … 137 in order, each operation
    acceptable to the run. -/
theorem good8 : GoodFrom 119 (hostOps0_8 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (reshape_bufs_sub ..), g (unary_bufs_sub ..), g (reshape_bufs_sub ..), g (unary_bufs_sub ..),
   g (reshape_bufs_sub ..), g (nullary_bufs_sub ..), g (unary_bufs_sub ..), g (binary_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (nullary_bufs_sub ..), trivial⟩

/-- Stretch 9 (6 operations of @clip_0 (main_call4)) writes the HBM buffers of indices 138 … 143 in order, each operation
    acceptable to the run. -/
theorem good9 : GoodFrom 138 (hostOps0_9 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (binary_bufs_sub ..), g (unary_bufs_sub ..),
   g (unary_bufs_sub ..), g (binary_bufs_sub ..), trivial⟩

/-- Stretch 10 (14 operations of @main) writes the HBM buffers of indices 144 … 157 in order, each operation
    acceptable to the run. -/
theorem good10 : GoodFrom 144 (hostOps0_10 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (nullary_bufs_sub ..), g (nullary_bufs_sub ..), trivial⟩

/-- Stretch 11 (6 operations of @clip_0 (main_call5)) writes the HBM buffers of indices 158 … 163 in order, each operation
    acceptable to the run. -/
theorem good11 : GoodFrom 158 (hostOps0_11 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (binary_bufs_sub ..), g (unary_bufs_sub ..),
   g (unary_bufs_sub ..), g (binary_bufs_sub ..), trivial⟩

/-- Stretch 12 (38 operations of @main) writes the HBM buffers of indices 164 … 201 in order, each operation
    acceptable to the run. -/
theorem good12 : GoodFrom 164 (hostOps0_12 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (unary_bufs_sub ..), g (unary_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (reshape_bufs_sub ..), g (nullary_bufs_sub ..), g (unary_bufs_sub ..), g (binary_bufs_sub ..),
   g (binary_bufs_sub ..), g (nullary_bufs_sub ..), g (unary_bufs_sub ..), g (binary_bufs_sub ..),
   g (binary_bufs_sub ..), g (nullary_bufs_sub ..), g (unary_bufs_sub ..), g (binary_bufs_sub ..),
   g (binary_bufs_sub ..), g (nullary_bufs_sub ..), g (unary_bufs_sub ..), g (binary_bufs_sub ..),
   g (binary_bufs_sub ..), g (unary_bufs_sub ..), g (unary_bufs_sub ..), g (unary_bufs_sub ..),
   g (unary_bufs_sub ..), g (nary_bufs_sub ..), trivial⟩

/-- Stretch 13 (23 operations of @_take (main_call6)) writes the HBM buffers of indices 202 … 224 in order, each operation
    acceptable to the run. -/
theorem good13 : GoodFrom 202 (hostOps0_13 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (unary_bufs_sub ..), g (binary_bufs_sub ..), g (nullary_bufs_sub ..),
   g (unary_bufs_sub ..), g (binary_bufs_sub ..), g (ternary_bufs_sub ..), g (unary_bufs_sub ..),
   g (nullary_bufs_sub ..), g (nullary_bufs_sub ..), g (unary_bufs_sub ..), g (binary_bufs_sub ..),
   g (unary_bufs_sub ..), g (unary_bufs_sub ..), g (binary_bufs_sub ..), g (binary_bufs_sub ..),
   g (nullary_bufs_sub ..), g (binary_bufs_sub ..), g (binary_bufs_sub ..), g (unary_bufs_sub ..),
   g (nullary_bufs_sub ..), g (unary_bufs_sub ..), g (ternary_bufs_sub ..), trivial⟩

/-- Stretch 14 (19 operations of @main) writes the HBM buffers of indices 225 … 243 in order, each operation
    acceptable to the run. -/
theorem good14 : GoodFrom 225 (hostOps0_14 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (reshape_bufs_sub ..), g (unary_bufs_sub ..), g (reshape_bufs_sub ..), g (unary_bufs_sub ..),
   g (reshape_bufs_sub ..), g (nullary_bufs_sub ..), g (unary_bufs_sub ..), g (binary_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (nullary_bufs_sub ..), trivial⟩

/-- Stretch 15 (6 operations of @clip_0 (main_call7)) writes the HBM buffers of indices 244 … 249 in order, each operation
    acceptable to the run. -/
theorem good15 : GoodFrom 244 (hostOps0_15 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (binary_bufs_sub ..), g (unary_bufs_sub ..),
   g (unary_bufs_sub ..), g (binary_bufs_sub ..), trivial⟩

/-- Stretch 16 (14 operations of @main) writes the HBM buffers of indices 250 … 263 in order, each operation
    acceptable to the run. -/
theorem good16 : GoodFrom 250 (hostOps0_16 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (nullary_bufs_sub ..), g (nullary_bufs_sub ..), trivial⟩

/-- Stretch 17 (6 operations of @clip_0 (main_call8)) writes the HBM buffers of indices 264 … 269 in order, each operation
    acceptable to the run. -/
theorem good17 : GoodFrom 264 (hostOps0_17 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (binary_bufs_sub ..), g (unary_bufs_sub ..),
   g (unary_bufs_sub ..), g (binary_bufs_sub ..), trivial⟩

/-- Stretch 18 (38 operations of @main) writes the HBM buffers of indices 270 … 307 in order, each operation
    acceptable to the run. -/
theorem good18 : GoodFrom 270 (hostOps0_18 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (unary_bufs_sub ..), g (unary_bufs_sub ..), g (unary_bufs_sub ..), g (unary_bufs_sub ..),
   g (nullary_bufs_sub ..), g (unary_bufs_sub ..), g (binary_bufs_sub ..), g (nullary_bufs_sub ..),
   g (unary_bufs_sub ..), g (binary_bufs_sub ..), g (nullary_bufs_sub ..), g (unary_bufs_sub ..),
   g (binary_bufs_sub ..), g (nullary_bufs_sub ..), g (unary_bufs_sub ..), g (binary_bufs_sub ..),
   g (reshape_bufs_sub ..), g (nullary_bufs_sub ..), g (unary_bufs_sub ..), g (binary_bufs_sub ..),
   g (binary_bufs_sub ..), g (nullary_bufs_sub ..), g (unary_bufs_sub ..), g (binary_bufs_sub ..),
   g (binary_bufs_sub ..), g (nullary_bufs_sub ..), g (unary_bufs_sub ..), g (binary_bufs_sub ..),
   g (binary_bufs_sub ..), g (nullary_bufs_sub ..), g (unary_bufs_sub ..), g (binary_bufs_sub ..),
   g (binary_bufs_sub ..), g (unary_bufs_sub ..), g (unary_bufs_sub ..), g (unary_bufs_sub ..),
   g (unary_bufs_sub ..), g (nary_bufs_sub ..), trivial⟩

/-- Stretch 19 (23 operations of @_take (main_call9)) writes the HBM buffers of indices 308 … 330 in order, each operation
    acceptable to the run. -/
theorem good19 : GoodFrom 308 (hostOps0_19 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (nullary_bufs_sub ..), g (unary_bufs_sub ..), g (binary_bufs_sub ..), g (nullary_bufs_sub ..),
   g (unary_bufs_sub ..), g (binary_bufs_sub ..), g (ternary_bufs_sub ..), g (unary_bufs_sub ..),
   g (nullary_bufs_sub ..), g (nullary_bufs_sub ..), g (unary_bufs_sub ..), g (binary_bufs_sub ..),
   g (unary_bufs_sub ..), g (unary_bufs_sub ..), g (binary_bufs_sub ..), g (binary_bufs_sub ..),
   g (nullary_bufs_sub ..), g (binary_bufs_sub ..), g (binary_bufs_sub ..), g (unary_bufs_sub ..),
   g (nullary_bufs_sub ..), g (unary_bufs_sub ..), g (ternary_bufs_sub ..), trivial⟩

/-- Stretch 20 (2 operations of @main) writes the HBM buffers of indices 331 … 332 in order, each operation
    acceptable to the run. -/
theorem good20 : GoodFrom 331 (hostOps0_20 (F := F)) :=
  have g {n : Nat} {op : HloOp τ sig (Elt F)} (hb : op.bufs ⊆ tcRefs τ sig) {y : Ref sig .tc} (hw : op.writes = {Proc.devRef .tc y} := by rfl)
      (hf : op.fresh = ∅ := by rfl) (hy : y.idx.val = n := by rfl) : GoodAt n op := ⟨hb, hf, y, hw, hy⟩
  ⟨g (reshape_bufs_sub ..), g (unary_bufs_sub ..), trivial⟩

/-- ALL the host operations before the region, in order: the twenty-one stretches one after the other. -/
abbrev kops : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- The line writes the HBM buffers of indices 6, 7, …, 332 in order, one per operation (stretch by stretch: each starts at
    the index the one before stops at). -/
theorem good : GoodFrom 6 (kops (F := F)) :=
  show GoodFrom 6 (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ ([])))))))))))))))))))))) from
  (good0.append (good1.append (good2.append (good3.append (good4.append (good5.append (good6.append (good7.append (good8.append (good9.append (good10.append (good11.append (good12.append (good13.append (good14.append (good15.append (good16.append (good17.append (good18.append (good19.append (good20.append (trivial : GoodFrom 333 ([] : List (HloOp τ sig (Elt F)))) rfl) rfl) rfl) rfl) rfl) rfl) rfl) rfl) rfl) rfl) rfl) rfl) rfl) rfl) rfl) rfl) rfl) rfl) rfl) rfl) rfl)

end Cert.KernelIdeal.HostRun

end
-- ==== Proof.KEqs0.lean ====
/- The kernel program's host line read one operation at a time, stretches 0 … 5 (HBM buffers 6 … 57): for each
   operation, the buffer it writes holds, after the WHOLE line, the operation's function of what its operand buffers hold
   after the whole line — every value is defined once, before its uses, so nothing later in the line touches either
   side. One equation per operation, named after the buffer; a call's operations are read over the call's buffers, where
   a value moved through a typed reference is the value. -/
import proofs.«114771_j71983651881269_2_alg».proof.Proof.KOpsGood

set_option maxRecDepth 16384

noncomputable section

namespace Cert.KernelIdeal.HostRun

open Cert.KernelIdeal Cert.KernelIdeal.Gen Idealize.ShloMosaic Idealize.ShloMosaic.TcCoe Idealize.SL.Sem Idealize.ShloMosaic.StableHlo

variable {F : FTy → Type} [FloatOps F]

-- the equations are between folds, reductions and gathers as wholes: none of the three is opened here
attribute [local irreducible] Idealize.ShloMosaic.StableHlo.after Idealize.ShloMosaic.Host.reduce Idealize.ShloMosaic.Host.gather

/-- No operation writes an argument: after the line it holds its launch contents. -/
theorem after_arg0 (V : Valuation τ sig (Elt F)) : after kops V (Proc.devRef .tc main_arg0) = V (Proc.devRef .tc main_arg0) :=
  good.keep_lt V (by decide)

/-- No operation writes an argument: after the line it holds its launch contents. -/
theorem after_arg1 (V : Valuation τ sig (Elt F)) : after kops V (Proc.devRef .tc main_arg1) = V (Proc.devRef .tc main_arg1) :=
  good.keep_lt V (by decide)

/-- No operation writes an argument: after the line it holds its launch contents. -/
theorem after_arg2 (V : Valuation τ sig (Elt F)) : after kops V (Proc.devRef .tc main_arg2) = V (Proc.devRef .tc main_arg2) :=
  good.keep_lt V (by decide)

/-- No operation writes an argument: after the line it holds its launch contents. -/
theorem after_arg3 (V : Valuation τ sig (Elt F)) : after kops V (Proc.devRef .tc main_arg3) = V (Proc.devRef .tc main_arg3) :=
  good.keep_lt V (by decide)

/-- No operation writes an argument: after the line it holds its launch contents. -/
theorem after_arg4 (V : Valuation τ sig (Elt F)) : after kops V (Proc.devRef .tc main_arg4) = V (Proc.devRef .tc main_arg4) :=
  good.keep_lt V (by decide)

/-- No operation writes an argument: after the line it holds its launch contents. -/
theorem after_arg5 (V : Valuation τ sig (Elt F)) : after kops V (Proc.devRef .tc main_arg5) = V (Proc.devRef .tc main_arg5) :=
  good.keep_lt V (by decide)

theorem after_cst (V : Valuation τ sig (Elt F)) :
    after kops V (Proc.devRef .tc main_cst)
      = ((constant S_ .f32 0xBF800000#32) : (⟨S_, .f32⟩ : BufTy).Contents (Elt F)) :=
  good.at_nullary (y := main_cst) rfl (by decide) V

theorem after_cst_0 (V : Valuation τ sig (Elt F)) :
    after kops V (Proc.devRef .tc main_cst_0)
      = ((constant S_ .f32 0x3F800000#32) : (⟨S_, .f32⟩ : BufTy).Contents (Elt F)) :=
  good.at_nullary (y := main_cst_0) rfl (by decide) V

theorem after_call0_v0 (V : Valuation τ sig (Elt F)) :
    after kops V (Proc.devRef .tc main_call0_v0)
      = (id : (⟨S_, .f32⟩ : BufTy).Contents (Elt F) → (⟨S_, .f32⟩ : BufTy).Contents (Elt F))
        (after kops V (Proc.devRef .tc main_cst)) :=
  good.at_unary (x := main_cst) (y := main_call0_v0) rfl (by decide) (by decide) V

theorem after_call0_v1 (V : Valuation τ sig (Elt F)) :
    after kops V (Proc.devRef .tc main_call0_v1)
      = ((broadcastInDim S4000000x3 ![] bcast_S_S4000000x3) : (⟨S_, .f32⟩ : BufTy).Contents (Elt F) → (⟨S4000000x3, .f32⟩ : BufTy).Contents (Elt F))
        (after kops V (Proc.devRef .tc main_call0_v0)) :=
  good.at_unary (x := main_call0_v0) (y := main_call0_v1) rfl (by decide) (by decide) V

theorem after_call0_v2 (V : Valuation τ sig (Elt F)) :
    after kops V (Proc.devRef .tc main_call0_v2)
      = (maximumf : (⟨S4000000x3, .f32⟩ : BufTy).Contents (Elt F) → (⟨S4000000x3, .f32⟩ : BufTy).Contents (Elt F) → (⟨S4000000x3, .f32⟩ : BufTy).Contents (Elt F))
        (after kops V (Proc.devRef .tc main_call0_v1)) (after kops V (Proc.devRef .tc main_arg0)) :=
  good.at_binary (a := main_call0_v1) (b := main_arg0) (y := main_call0_v2) rfl (by decide) (by decide) (by decide) V

theorem after_call0_v3 (V : Valuation τ sig (Elt F)) :
    after kops V (Proc.devRef .tc main_call0_v3)
      = (id : (⟨S_, .f32⟩ : BufTy).Contents (Elt F) → (⟨S_, .f32⟩ : BufTy).Contents (Elt F))
        (after kops V (Proc.devRef .tc main_cst_0)) :=
  good.at_unary (x := main_cst_0) (y := main_call0_v3) rfl (by decide) (by decide) V

theorem after_call0_v4 (V : Valuation τ sig (Elt F)) :
    after kops V (Proc.devRef .tc main_call0_v4)
      = ((broadcastInDim S4000000x3 ![] bcast_S_S4000000x3) : (⟨S_, .f32⟩ : BufTy).Contents (Elt F) → (⟨S4000000x3, .f32⟩ : BufTy).Contents (Elt F))
        (after kops V (Proc.devRef .tc main_call0_v3)) :=
  good.at_unary (x := main_call0_v3) (y := main_call0_v4) rfl (by decide) (by decide) V

theorem after_v0 (V : Valuation τ sig (Elt F)) :
    after kops V (Proc.devRef .tc main_v0)
      = (minimumf : (⟨S4000000x3, .f32⟩ : BufTy).Contents (Elt F) → (⟨S4000000x3, .f32⟩ : BufTy).Contents (Elt F) → (⟨S4000000x3, .f32⟩ : BufTy).Contents (Elt F))
        (after kops V (Proc.devRef .tc main_call0_v4)) (after kops V (Proc.devRef .tc main_call0_v2)) :=
  good.at_binary (a := main_call0_v4) (b := main_call0_v2) (y := main_v0) rfl (by decide) (by decide) (by decide) V

theorem after_v1 (V : Valuation τ sig (Elt F)) :
    after kops V (Proc.devRef .tc main_v1)
      = (((extractStridedSlice S4000000x1 ![0, 0] · slices_S4000000x3_S4000000x1_0_0) : (⟨S4000000x3, .f32⟩ : BufTy).Contents (Elt F) → (⟨S4000000x1, .f32⟩ : BufTy).Contents (Elt F)) : (⟨S4000000x3, .f32⟩ : BufTy).Contents (Elt F) → (⟨S4000000x1, .f32⟩ : BufTy).Contents (Elt F))
        (after kops V (Proc.devRef .tc main_v0)) :=
  good.at_unary (x := main_v0) (y := main_v1) rfl (by decide) (by decide) V

theorem after_v2 (V : Valuation τ sig (Elt F)) :
    after kops V (Proc.devRef .tc main_v2)
      = (shapeCast S4000000 (after kops V (Proc.devRef .tc main_v1)) shapeCasts_S4000000x1_S4000000 : (⟨S4000000, .f32⟩ : BufTy).Contents (Elt F)) :=
  good.at_reshape (x := main_v1) (y := main_v2) rfl (by decide) (by decide) V

theorem after_v3 (V : Valuation τ sig (Elt F)) :
    after kops V (Proc.devRef .tc main_v3)
      = (((extractStridedSlice S4000000x1 ![0, 1] · slices_S4000000x3_S4000000x1_0_1) : (⟨S4000000x3, .f32⟩ : BufTy).Contents (Elt F) → (⟨S4000000x1, .f32⟩ : BufTy).Contents (Elt F)) : (⟨S4000000x3, .f32⟩ : BufTy).Contents (Elt F) → (⟨S4000000x1, .f32⟩ : BufTy).Contents (Elt F))
        (after kops V (Proc.devRef .tc main_v0)) :=
  good.at_unary (x := main_v0) (y := main_v3) rfl (by decide) (by decide) V

theorem after_v4 (V : Valuation τ sig (Elt F)) :
    after kops V (Proc.devRef .tc main_v4)
      = (shapeCast S4000000 (after kops V (Proc.devRef .tc main_v3)) shapeCasts_S4000000x1_S4000000 : (⟨S4000000, .f32⟩ : BufTy).Contents (Elt F)) :=
  good.at_reshape (x := main_v3) (y := main_v4) rfl (by decide) (by decide) V

theorem after_cst_1 (V : Valuation τ sig (Elt F)) :
    after kops V (Proc.devRef .tc main_cst_1)
      = ((constant S_ .f32 0x3F800000#32) : (⟨S_, .f32⟩ : BufTy).Contents (Elt F)) :=
  good.at_nullary (y := main_cst_1) rfl (by decide) V

theorem after_v5 (V : Valuation τ sig (Elt F)) :
    after kops V (Proc.devRef .tc main_v5)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_1)) :=
  good.at_unary (x := main_cst_1) (y := main_v5) rfl (by decide) (by decide) V

theorem after_v6 (V : Valuation τ sig (Elt F)) :
    after kops V (Proc.devRef .tc main_v6)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v2)) (after kops V (Proc.devRef .tc main_v5)) :=
  good.at_binary (a := main_v2) (b := main_v5) (y := main_v6) rfl (by decide) (by decide) (by decide) V

theorem after_cst_2 (V : Valuation τ sig (Elt F)) :
    after kops V (Proc.devRef .tc main_cst_2)
      = ((constant S_ .f32 0x44000000#32) : (⟨S_, .f32⟩ : BufTy).Contents (Elt F)) :=
  good.at_nullary (y := main_cst_2) rfl (by decide) V

theorem after_v7 (V : Valuation τ sig (Elt F)) :
    after kops V (Proc.devRef .tc main_v7)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_2)) :=
  good.at_unary (x := main_cst_2) (y := main_v7) rfl (by decide) (by decide) V

theorem after_v8 (V : Valuation τ sig (Elt F)) :
    after kops V (Proc.devRef .tc main_v8)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v6)) (after kops V (Proc.devRef .tc main_v7)) :=
  good.at_binary (a := main_v6) (b := main_v7) (y := main_v8) rfl (by decide) (by decide) (by decide) V

theorem after_cst_3 (V : Valuation τ sig (Elt F)) :
    after kops V (Proc.devRef .tc main_cst_3)
      = ((constant S_ .f32 0x3F800000#32) : (⟨S_, .f32⟩ : BufTy).Contents (Elt F)) :=
  good.at_nullary (y := main_cst_3) rfl (by decide) V

theorem after_v9 (V : Valuation τ sig (Elt F)) :
    after kops V (Proc.devRef .tc main_v9)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_3)) :=
  good.at_unary (x := main_cst_3) (y := main_v9) rfl (by decide) (by decide) V

theorem after_v10 (V : Valuation τ sig (Elt F)) :
    after kops V (Proc.devRef .tc main_v10)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v8)) (after kops V (Proc.devRef .tc main_v9)) :=
  good.at_binary (a := main_v8) (b := main_v9) (y := main_v10) rfl (by decide) (by decide) (by decide) V

theorem after_cst_4 (V : Valuation τ sig (Elt F)) :
    after kops V (Proc.devRef .tc main_cst_4)
      = ((constant S_ .f32 0x3F000000#32) : (⟨S_, .f32⟩ : BufTy).Contents (Elt F)) :=
  good.at_nullary (y := main_cst_4) rfl (by decide) V

theorem after_v11 (V : Valuation τ sig (Elt F)) :
    after kops V (Proc.devRef .tc main_v11)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_4)) :=
  good.at_unary (x := main_cst_4) (y := main_v11) rfl (by decide) (by decide) V

theorem after_v12 (V : Valuation τ sig (Elt F)) :
    after kops V (Proc.devRef .tc main_v12)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v10)) (after kops V (Proc.devRef .tc main_v11)) :=
  good.at_binary (a := main_v10) (b := main_v11) (y := main_v12) rfl (by decide) (by decide) (by decide) V

theorem after_cst_5 (V : Valuation τ sig (Elt F)) :
    after kops V (Proc.devRef .tc main_cst_5)
      = ((constant S_ .f32 0x00000000#32) : (⟨S_, .f32⟩ : BufTy).Contents (Elt F)) :=
  good.at_nullary (y := main_cst_5) rfl (by decide) V

theorem after_cst_6 (V : Valuation τ sig (Elt F)) :
    after kops V (Proc.devRef .tc main_cst_6)
      = ((constant S_ .f32 0x43FF8000#32) : (⟨S_, .f32⟩ : BufTy).Contents (Elt F)) :=
  good.at_nullary (y := main_cst_6) rfl (by decide) V

theorem after_call1_v0 (V : Valuation τ sig (Elt F)) :
    after kops V (Proc.devRef .tc main_call1_v0)
      = (id : (⟨S_, .f32⟩ : BufTy).Contents (Elt F) → (⟨S_, .f32⟩ : BufTy).Contents (Elt F))
        (after kops V (Proc.devRef .tc main_cst_5)) :=
  good.at_unary (x := main_cst_5) (y := main_call1_v0) rfl (by decide) (by decide) V

theorem after_call1_v1 (V : Valuation τ sig (Elt F)) :
    after kops V (Proc.devRef .tc main_call1_v1)
      = ((broadcastInDim S4000000 ![] bcast_S_S4000000) : (⟨S_, .f32⟩ : BufTy).Contents (Elt F) → (⟨S4000000, .f32⟩ : BufTy).Contents (Elt F))
        (after kops V (Proc.devRef .tc main_call1_v0)) :=
  good.at_unary (x := main_call1_v0) (y := main_call1_v1) rfl (by decide) (by decide) V

theorem after_call1_v2 (V : Valuation τ sig (Elt F)) :
    after kops V (Proc.devRef .tc main_call1_v2)
      = (maximumf : (⟨S4000000, .f32⟩ : BufTy).Contents (Elt F) → (⟨S4000000, .f32⟩ : BufTy).Contents (Elt F) → (⟨S4000000, .f32⟩ : BufTy).Contents (Elt F))
        (after kops V (Proc.devRef .tc main_call1_v1)) (after kops V (Proc.devRef .tc main_v12)) :=
  good.at_binary (a := main_call1_v1) (b := main_v12) (y := main_call1_v2) rfl (by decide) (by decide) (by decide) V

theorem after_call1_v3 (V : Valuation τ sig (Elt F)) :
    after kops V (Proc.devRef .tc main_call1_v3)
      = (id : (⟨S_, .f32⟩ : BufTy).Contents (Elt F) → (⟨S_, .f32⟩ : BufTy).Contents (Elt F))
        (after kops V (Proc.devRef .tc main_cst_6)) :=
  good.at_unary (x := main_cst_6) (y := main_call1_v3) rfl (by decide) (by decide) V

theorem after_call1_v4 (V : Valuation τ sig (Elt F)) :
    after kops V (Proc.devRef .tc main_call1_v4)
      = ((broadcastInDim S4000000 ![] bcast_S_S4000000) : (⟨S_, .f32⟩ : BufTy).Contents (Elt F) → (⟨S4000000, .f32⟩ : BufTy).Contents (Elt F))
        (after kops V (Proc.devRef .tc main_call1_v3)) :=
  good.at_unary (x := main_call1_v3) (y := main_call1_v4) rfl (by decide) (by decide) V

theorem after_v13 (V : Valuation τ sig (Elt F)) :
    after kops V (Proc.devRef .tc main_v13)
      = (minimumf : (⟨S4000000, .f32⟩ : BufTy).Contents (Elt F) → (⟨S4000000, .f32⟩ : BufTy).Contents (Elt F) → (⟨S4000000, .f32⟩ : BufTy).Contents (Elt F))
        (after kops V (Proc.devRef .tc main_call1_v4)) (after kops V (Proc.devRef .tc main_call1_v2)) :=
  good.at_binary (a := main_call1_v4) (b := main_call1_v2) (y := main_v13) rfl (by decide) (by decide) (by decide) V

theorem after_cst_7 (V : Valuation τ sig (Elt F)) :
    after kops V (Proc.devRef .tc main_cst_7)
      = ((constant S_ .f32 0x3F800000#32) : (⟨S_, .f32⟩ : BufTy).Contents (Elt F)) :=
  good.at_nullary (y := main_cst_7) rfl (by decide) V

theorem after_v14 (V : Valuation τ sig (Elt F)) :
    after kops V (Proc.devRef .tc main_v14)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_7)) :=
  good.at_unary (x := main_cst_7) (y := main_v14) rfl (by decide) (by decide) V

theorem after_v15 (V : Valuation τ sig (Elt F)) :
    after kops V (Proc.devRef .tc main_v15)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v4)) (after kops V (Proc.devRef .tc main_v14)) :=
  good.at_binary (a := main_v4) (b := main_v14) (y := main_v15) rfl (by decide) (by decide) (by decide) V

theorem after_cst_8 (V : Valuation τ sig (Elt F)) :
    after kops V (Proc.devRef .tc main_cst_8)
      = ((constant S_ .f32 0x44000000#32) : (⟨S_, .f32⟩ : BufTy).Contents (Elt F)) :=
  good.at_nullary (y := main_cst_8) rfl (by decide) V

theorem after_v16 (V : Valuation τ sig (Elt F)) :
    after kops V (Proc.devRef .tc main_v16)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_8)) :=
  good.at_unary (x := main_cst_8) (y := main_v16) rfl (by decide) (by decide) V

theorem after_v17 (V : Valuation τ sig (Elt F)) :
    after kops V (Proc.devRef .tc main_v17)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v15)) (after kops V (Proc.devRef .tc main_v16)) :=
  good.at_binary (a := main_v15) (b := main_v16) (y := main_v17) rfl (by decide) (by decide) (by decide) V

theorem after_cst_9 (V : Valuation τ sig (Elt F)) :
    after kops V (Proc.devRef .tc main_cst_9)
      = ((constant S_ .f32 0x3F800000#32) : (⟨S_, .f32⟩ : BufTy).Contents (Elt F)) :=
  good.at_nullary (y := main_cst_9) rfl (by decide) V

theorem after_v18 (V : Valuation τ sig (Elt F)) :
    after kops V (Proc.devRef .tc main_v18)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_9)) :=
  good.at_unary (x := main_cst_9) (y := main_v18) rfl (by decide) (by decide) V

theorem after_v19 (V : Valuation τ sig (Elt F)) :
    after kops V (Proc.devRef .tc main_v19)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v17)) (after kops V (Proc.devRef .tc main_v18)) :=
  good.at_binary (a := main_v17) (b := main_v18) (y := main_v19) rfl (by decide) (by decide) (by decide) V

theorem after_cst_10 (V : Valuation τ sig (Elt F)) :
    after kops V (Proc.devRef .tc main_cst_10)
      = ((constant S_ .f32 0x3F000000#32) : (⟨S_, .f32⟩ : BufTy).Contents (Elt F)) :=
  good.at_nullary (y := main_cst_10) rfl (by decide) V

theorem after_v20 (V : Valuation τ sig (Elt F)) :
    after kops V (Proc.devRef .tc main_v20)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_10)) :=
  good.at_unary (x := main_cst_10) (y := main_v20) rfl (by decide) (by decide) V

theorem after_v21 (V : Valuation τ sig (Elt F)) :
    after kops V (Proc.devRef .tc main_v21)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v19)) (after kops V (Proc.devRef .tc main_v20)) :=
  good.at_binary (a := main_v19) (b := main_v20) (y := main_v21) rfl (by decide) (by decide) (by decide) V

theorem after_cst_11 (V : Valuation τ sig (Elt F)) :
    after kops V (Proc.devRef .tc main_cst_11)
      = ((constant S_ .f32 0x00000000#32) : (⟨S_, .f32⟩ : BufTy).Contents (Elt F)) :=
  good.at_nullary (y := main_cst_11) rfl (by decide) V

theorem after_cst_12 (V : Valuation τ sig (Elt F)) :
    after kops V (Proc.devRef .tc main_cst_12)
      = ((constant S_ .f32 0x43FF8000#32) : (⟨S_, .f32⟩ : BufTy).Contents (Elt F)) :=
  good.at_nullary (y := main_cst_12) rfl (by decide) V

theorem after_call2_v0 (V : Valuation τ sig (Elt F)) :
    after kops V (Proc.devRef .tc main_call2_v0)
      = (id : (⟨S_, .f32⟩ : BufTy).Contents (Elt F) → (⟨S_, .f32⟩ : BufTy).Contents (Elt F))
        (after kops V (Proc.devRef .tc main_cst_11)) :=
  good.at_unary (x := main_cst_11) (y := main_call2_v0) rfl (by decide) (by decide) V

theorem after_call2_v1 (V : Valuation τ sig (Elt F)) :
    after kops V (Proc.devRef .tc main_call2_v1)
      = ((broadcastInDim S4000000 ![] bcast_S_S4000000) : (⟨S_, .f32⟩ : BufTy).Contents (Elt F) → (⟨S4000000, .f32⟩ : BufTy).Contents (Elt F))
        (after kops V (Proc.devRef .tc main_call2_v0)) :=
  good.at_unary (x := main_call2_v0) (y := main_call2_v1) rfl (by decide) (by decide) V

theorem after_call2_v2 (V : Valuation τ sig (Elt F)) :
    after kops V (Proc.devRef .tc main_call2_v2)
      = (maximumf : (⟨S4000000, .f32⟩ : BufTy).Contents (Elt F) → (⟨S4000000, .f32⟩ : BufTy).Contents (Elt F) → (⟨S4000000, .f32⟩ : BufTy).Contents (Elt F))
        (after kops V (Proc.devRef .tc main_call2_v1)) (after kops V (Proc.devRef .tc main_v21)) :=
  good.at_binary (a := main_call2_v1) (b := main_v21) (y := main_call2_v2) rfl (by decide) (by decide) (by decide) V

theorem after_call2_v3 (V : Valuation τ sig (Elt F)) :
    after kops V (Proc.devRef .tc main_call2_v3)
      = (id : (⟨S_, .f32⟩ : BufTy).Contents (Elt F) → (⟨S_, .f32⟩ : BufTy).Contents (Elt F))
        (after kops V (Proc.devRef .tc main_cst_12)) :=
  good.at_unary (x := main_cst_12) (y := main_call2_v3) rfl (by decide) (by decide) V

theorem after_call2_v4 (V : Valuation τ sig (Elt F)) :
    after kops V (Proc.devRef .tc main_call2_v4)
      = ((broadcastInDim S4000000 ![] bcast_S_S4000000) : (⟨S_, .f32⟩ : BufTy).Contents (Elt F) → (⟨S4000000, .f32⟩ : BufTy).Contents (Elt F))
        (after kops V (Proc.devRef .tc main_call2_v3)) :=
  good.at_unary (x := main_call2_v3) (y := main_call2_v4) rfl (by decide) (by decide) V

theorem after_v22 (V : Valuation τ sig (Elt F)) :
    after kops V (Proc.devRef .tc main_v22)
      = (minimumf : (⟨S4000000, .f32⟩ : BufTy).Contents (Elt F) → (⟨S4000000, .f32⟩ : BufTy).Contents (Elt F) → (⟨S4000000, .f32⟩ : BufTy).Contents (Elt F))
        (after kops V (Proc.devRef .tc main_call2_v4)) (after kops V (Proc.devRef .tc main_call2_v2)) :=
  good.at_binary (a := main_call2_v4) (b := main_call2_v2) (y := main_v22) rfl (by decide) (by decide) (by decide) V

end Cert.KernelIdeal.HostRun

end
-- ==== Proof.KEqs1.lean ====
/- The kernel program's host line read one operation at a time, stretches 6 … 7 (HBM buffers 58 … 118): for each
   operation, the buffer it writes holds, after the WHOLE line, the operation's function of what its operand buffers hold
   after the whole line — every value is defined once, before its uses, so nothing later in the line touches either
   side. One equation per operation, named after the buffer; a call's operations are read over the call's buffers, where
   a value moved through a typed reference is the value. -/
import proofs.«114771_j71983651881269_2_alg».proof.Proof.KOpsGood

set_option maxRecDepth 16384

noncomputable section

namespace Cert.KernelIdeal.HostRun

open Cert.KernelIdeal Cert.KernelIdeal.Gen Idealize.ShloMosaic Idealize.ShloMosaic.TcCoe Idealize.SL.Sem Idealize.ShloMosaic.StableHlo

variable {F : FTy → Type} [FloatOps F]

-- the equations are between folds, reductions and gathers as wholes: none of the three is opened here
attribute [local irreducible] Idealize.ShloMosaic.StableHlo.after Idealize.ShloMosaic.Host.reduce Idealize.ShloMosaic.Host.gather

theorem after_v23 (V : Valuation τ sig (Elt F)) :
    after kops V (Proc.devRef .tc main_v23)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after kops V (Proc.devRef .tc main_v13)) :=
  good.at_unary (x := main_v13) (y := main_v23) rfl (by decide) (by decide) V

theorem after_v24 (V : Valuation τ sig (Elt F)) :
    after kops V (Proc.devRef .tc main_v24)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after kops V (Proc.devRef .tc main_v23)) :=
  good.at_unary (x := main_v23) (y := main_v24) rfl (by decide) (by decide) V

theorem after_v25 (V : Valuation τ sig (Elt F)) :
    after kops V (Proc.devRef .tc main_v25)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after kops V (Proc.devRef .tc main_v22)) :=
  good.at_unary (x := main_v22) (y := main_v25) rfl (by decide) (by decide) V

theorem after_v26 (V : Valuation τ sig (Elt F)) :
    after kops V (Proc.devRef .tc main_v26)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after kops V (Proc.devRef .tc main_v25)) :=
  good.at_unary (x := main_v25) (y := main_v26) rfl (by decide) (by decide) V

theorem after_c (V : Valuation τ sig (Elt F)) :
    after kops V (Proc.devRef .tc main_c)
      = ((constantI S_ 32 1#32) : (⟨S_, .i32⟩ : BufTy).Contents (Elt F)) :=
  good.at_nullary (y := main_c) rfl (by decide) V

theorem after_v27 (V : Valuation τ sig (Elt F)) :
    after kops V (Proc.devRef .tc main_v27)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c)) :=
  good.at_unary (x := main_c) (y := main_v27) rfl (by decide) (by decide) V

theorem after_v28 (V : Valuation τ sig (Elt F)) :
    after kops V (Proc.devRef .tc main_v28)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v24)) (after kops V (Proc.devRef .tc main_v27)) :=
  good.at_binary (a := main_v24) (b := main_v27) (y := main_v28) rfl (by decide) (by decide) (by decide) V

theorem after_c_13 (V : Valuation τ sig (Elt F)) :
    after kops V (Proc.devRef .tc main_c_13)
      = ((constantI S_ 32 511#32) : (⟨S_, .i32⟩ : BufTy).Contents (Elt F)) :=
  good.at_nullary (y := main_c_13) rfl (by decide) V

theorem after_v29 (V : Valuation τ sig (Elt F)) :
    after kops V (Proc.devRef .tc main_v29)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_13)) :=
  good.at_unary (x := main_c_13) (y := main_v29) rfl (by decide) (by decide) V

theorem after_v30 (V : Valuation τ sig (Elt F)) :
    after kops V (Proc.devRef .tc main_v30)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v28)) (after kops V (Proc.devRef .tc main_v29)) :=
  good.at_binary (a := main_v28) (b := main_v29) (y := main_v30) rfl (by decide) (by decide) (by decide) V

theorem after_c_14 (V : Valuation τ sig (Elt F)) :
    after kops V (Proc.devRef .tc main_c_14)
      = ((constantI S_ 32 1#32) : (⟨S_, .i32⟩ : BufTy).Contents (Elt F)) :=
  good.at_nullary (y := main_c_14) rfl (by decide) V

theorem after_v31 (V : Valuation τ sig (Elt F)) :
    after kops V (Proc.devRef .tc main_v31)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_14)) :=
  good.at_unary (x := main_c_14) (y := main_v31) rfl (by decide) (by decide) V

theorem after_v32 (V : Valuation τ sig (Elt F)) :
    after kops V (Proc.devRef .tc main_v32)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v26)) (after kops V (Proc.devRef .tc main_v31)) :=
  good.at_binary (a := main_v26) (b := main_v31) (y := main_v32) rfl (by decide) (by decide) (by decide) V

theorem after_c_15 (V : Valuation τ sig (Elt F)) :
    after kops V (Proc.devRef .tc main_c_15)
      = ((constantI S_ 32 511#32) : (⟨S_, .i32⟩ : BufTy).Contents (Elt F)) :=
  good.at_nullary (y := main_c_15) rfl (by decide) V

theorem after_v33 (V : Valuation τ sig (Elt F)) :
    after kops V (Proc.devRef .tc main_v33)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_15)) :=
  good.at_unary (x := main_c_15) (y := main_v33) rfl (by decide) (by decide) V

theorem after_v34 (V : Valuation τ sig (Elt F)) :
    after kops V (Proc.devRef .tc main_v34)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v32)) (after kops V (Proc.devRef .tc main_v33)) :=
  good.at_binary (a := main_v32) (b := main_v33) (y := main_v34) rfl (by decide) (by decide) (by decide) V

theorem after_v35 (V : Valuation τ sig (Elt F)) :
    after kops V (Proc.devRef .tc main_v35)
      = (shapeCast S262144x8 (after kops V (Proc.devRef .tc main_arg1)) shapeCasts_S512x512x8_S262144x8 : (⟨S262144x8, .f32⟩ : BufTy).Contents (Elt F)) :=
  good.at_reshape (x := main_arg1) (y := main_v35) rfl (by decide) (by decide) V

theorem after_c_16 (V : Valuation τ sig (Elt F)) :
    after kops V (Proc.devRef .tc main_c_16)
      = ((constantI S_ 32 512#32) : (⟨S_, .i32⟩ : BufTy).Contents (Elt F)) :=
  good.at_nullary (y := main_c_16) rfl (by decide) V

theorem after_v36 (V : Valuation τ sig (Elt F)) :
    after kops V (Proc.devRef .tc main_v36)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_16)) :=
  good.at_unary (x := main_c_16) (y := main_v36) rfl (by decide) (by decide) V

theorem after_v37 (V : Valuation τ sig (Elt F)) :
    after kops V (Proc.devRef .tc main_v37)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v26)) (after kops V (Proc.devRef .tc main_v36)) :=
  good.at_binary (a := main_v26) (b := main_v36) (y := main_v37) rfl (by decide) (by decide) (by decide) V

theorem after_v38 (V : Valuation τ sig (Elt F)) :
    after kops V (Proc.devRef .tc main_v38)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v37)) (after kops V (Proc.devRef .tc main_v24)) :=
  good.at_binary (a := main_v37) (b := main_v24) (y := main_v38) rfl (by decide) (by decide) (by decide) V

theorem after_c_17 (V : Valuation τ sig (Elt F)) :
    after kops V (Proc.devRef .tc main_c_17)
      = ((constantI S_ 32 512#32) : (⟨S_, .i32⟩ : BufTy).Contents (Elt F)) :=
  good.at_nullary (y := main_c_17) rfl (by decide) V

theorem after_v39 (V : Valuation τ sig (Elt F)) :
    after kops V (Proc.devRef .tc main_v39)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_17)) :=
  good.at_unary (x := main_c_17) (y := main_v39) rfl (by decide) (by decide) V

theorem after_v40 (V : Valuation τ sig (Elt F)) :
    after kops V (Proc.devRef .tc main_v40)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v26)) (after kops V (Proc.devRef .tc main_v39)) :=
  good.at_binary (a := main_v26) (b := main_v39) (y := main_v40) rfl (by decide) (by decide) (by decide) V

theorem after_v41 (V : Valuation τ sig (Elt F)) :
    after kops V (Proc.devRef .tc main_v41)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v40)) (after kops V (Proc.devRef .tc main_v30)) :=
  good.at_binary (a := main_v40) (b := main_v30) (y := main_v41) rfl (by decide) (by decide) (by decide) V

theorem after_c_18 (V : Valuation τ sig (Elt F)) :
    after kops V (Proc.devRef .tc main_c_18)
      = ((constantI S_ 32 512#32) : (⟨S_, .i32⟩ : BufTy).Contents (Elt F)) :=
  good.at_nullary (y := main_c_18) rfl (by decide) V

theorem after_v42 (V : Valuation τ sig (Elt F)) :
    after kops V (Proc.devRef .tc main_v42)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_18)) :=
  good.at_unary (x := main_c_18) (y := main_v42) rfl (by decide) (by decide) V

theorem after_v43 (V : Valuation τ sig (Elt F)) :
    after kops V (Proc.devRef .tc main_v43)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v34)) (after kops V (Proc.devRef .tc main_v42)) :=
  good.at_binary (a := main_v34) (b := main_v42) (y := main_v43) rfl (by decide) (by decide) (by decide) V

theorem after_v44 (V : Valuation τ sig (Elt F)) :
    after kops V (Proc.devRef .tc main_v44)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v43)) (after kops V (Proc.devRef .tc main_v24)) :=
  good.at_binary (a := main_v43) (b := main_v24) (y := main_v44) rfl (by decide) (by decide) (by decide) V

theorem after_c_19 (V : Valuation τ sig (Elt F)) :
    after kops V (Proc.devRef .tc main_c_19)
      = ((constantI S_ 32 512#32) : (⟨S_, .i32⟩ : BufTy).Contents (Elt F)) :=
  good.at_nullary (y := main_c_19) rfl (by decide) V

theorem after_v45 (V : Valuation τ sig (Elt F)) :
    after kops V (Proc.devRef .tc main_v45)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_19)) :=
  good.at_unary (x := main_c_19) (y := main_v45) rfl (by decide) (by decide) V

theorem after_v46 (V : Valuation τ sig (Elt F)) :
    after kops V (Proc.devRef .tc main_v46)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v34)) (after kops V (Proc.devRef .tc main_v45)) :=
  good.at_binary (a := main_v34) (b := main_v45) (y := main_v46) rfl (by decide) (by decide) (by decide) V

theorem after_v47 (V : Valuation τ sig (Elt F)) :
    after kops V (Proc.devRef .tc main_v47)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v46)) (after kops V (Proc.devRef .tc main_v30)) :=
  good.at_binary (a := main_v46) (b := main_v30) (y := main_v47) rfl (by decide) (by decide) (by decide) V

theorem after_v48 (V : Valuation τ sig (Elt F)) :
    after kops V (Proc.devRef .tc main_v48)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v38)) :=
  good.at_unary (x := main_v38) (y := main_v48) rfl (by decide) (by decide) V

theorem after_v49 (V : Valuation τ sig (Elt F)) :
    after kops V (Proc.devRef .tc main_v49)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v41)) :=
  good.at_unary (x := main_v41) (y := main_v49) rfl (by decide) (by decide) V

theorem after_v50 (V : Valuation τ sig (Elt F)) :
    after kops V (Proc.devRef .tc main_v50)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v44)) :=
  good.at_unary (x := main_v44) (y := main_v50) rfl (by decide) (by decide) V

theorem after_v51 (V : Valuation τ sig (Elt F)) :
    after kops V (Proc.devRef .tc main_v51)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v47)) :=
  good.at_unary (x := main_v47) (y := main_v51) rfl (by decide) (by decide) V

theorem after_v52 (V : Valuation τ sig (Elt F)) :
    after kops V (Proc.devRef .tc main_v52)
      = (concatenate S4000000x4 1 [⟨S4000000x1, after kops V (Proc.devRef .tc main_v48)⟩, ⟨S4000000x1, after kops V (Proc.devRef .tc main_v49)⟩, ⟨S4000000x1, after kops V (Proc.devRef .tc main_v50)⟩, ⟨S4000000x1, after kops V (Proc.devRef .tc main_v51)⟩] concatenates_S4000000x1_S4000000x1_S4000000x1_S4000000x1_S4000000x4_d1 : (⟨S4000000x4, .i32⟩ : BufTy).Contents (Elt F)) :=
  good.at_nary (xs := ![main_v48, main_v49, main_v50, main_v51]) (y := main_v52) rfl (by decide) (by decide) V

theorem after_call3_c (V : Valuation τ sig (Elt F)) :
    after kops V (Proc.devRef .tc main_call3_c)
      = ((constantI S_ 32 0#32) : (⟨S_, .i32⟩ : BufTy).Contents (Elt F)) :=
  good.at_nullary (y := main_call3_c) rfl (by decide) V

theorem after_call3_v0 (V : Valuation τ sig (Elt F)) :
    after kops V (Proc.devRef .tc main_call3_v0)
      = ((broadcastInDim S4000000x4 ![] bcast_S_S4000000x4) : (⟨S_, .i32⟩ : BufTy).Contents (Elt F) → (⟨S4000000x4, .i32⟩ : BufTy).Contents (Elt F))
        (after kops V (Proc.devRef .tc main_call3_c)) :=
  good.at_unary (x := main_call3_c) (y := main_call3_v0) rfl (by decide) (by decide) V

theorem after_call3_v1 (V : Valuation τ sig (Elt F)) :
    after kops V (Proc.devRef .tc main_call3_v1)
      = ((cmpi .slt) : (⟨S4000000x4, .i32⟩ : BufTy).Contents (Elt F) → (⟨S4000000x4, .i32⟩ : BufTy).Contents (Elt F) → (⟨S4000000x4, .i1⟩ : BufTy).Contents (Elt F))
        (after kops V (Proc.devRef .tc main_v52)) (after kops V (Proc.devRef .tc main_call3_v0)) :=
  good.at_binary (a := main_v52) (b := main_call3_v0) (y := main_call3_v1) rfl (by decide) (by decide) (by decide) V

theorem after_call3_c_0 (V : Valuation τ sig (Elt F)) :
    after kops V (Proc.devRef .tc main_call3_c_0)
      = ((constantI S_ 32 262144#32) : (⟨S_, .i32⟩ : BufTy).Contents (Elt F)) :=
  good.at_nullary (y := main_call3_c_0) rfl (by decide) V

theorem after_call3_v2 (V : Valuation τ sig (Elt F)) :
    after kops V (Proc.devRef .tc main_call3_v2)
      = ((broadcastInDim S4000000x4 ![] bcast_S_S4000000x4) : (⟨S_, .i32⟩ : BufTy).Contents (Elt F) → (⟨S4000000x4, .i32⟩ : BufTy).Contents (Elt F))
        (after kops V (Proc.devRef .tc main_call3_c_0)) :=
  good.at_unary (x := main_call3_c_0) (y := main_call3_v2) rfl (by decide) (by decide) V

theorem after_call3_v3 (V : Valuation τ sig (Elt F)) :
    after kops V (Proc.devRef .tc main_call3_v3)
      = (addi : (⟨S4000000x4, .i32⟩ : BufTy).Contents (Elt F) → (⟨S4000000x4, .i32⟩ : BufTy).Contents (Elt F) → (⟨S4000000x4, .i32⟩ : BufTy).Contents (Elt F))
        (after kops V (Proc.devRef .tc main_v52)) (after kops V (Proc.devRef .tc main_call3_v2)) :=
  good.at_binary (a := main_v52) (b := main_call3_v2) (y := main_call3_v3) rfl (by decide) (by decide) (by decide) V

theorem after_call3_v4 (V : Valuation τ sig (Elt F)) :
    after kops V (Proc.devRef .tc main_call3_v4)
      = (select : (⟨S4000000x4, .i1⟩ : BufTy).Contents (Elt F) → (⟨S4000000x4, .i32⟩ : BufTy).Contents (Elt F) → (⟨S4000000x4, .i32⟩ : BufTy).Contents (Elt F) → (⟨S4000000x4, .i32⟩ : BufTy).Contents (Elt F))
        (after kops V (Proc.devRef .tc main_call3_v1)) (after kops V (Proc.devRef .tc main_call3_v3)) (after kops V (Proc.devRef .tc main_v52)) :=
  good.at_ternary (c := main_call3_v1) (a := main_call3_v3) (b := main_v52) (y := main_call3_v4) rfl (by decide) (by decide) (by decide) (by decide) V

theorem after_call3_v5 (V : Valuation τ sig (Elt F)) :
    after kops V (Proc.devRef .tc main_call3_v5)
      = ((broadcastInDim S4000000x4x1 ![0, 1] bcast_S4000000x4_S4000000x4x1_0_1) : (⟨S4000000x4, .i32⟩ : BufTy).Contents (Elt F) → (⟨S4000000x4x1, .i32⟩ : BufTy).Contents (Elt F))
        (after kops V (Proc.devRef .tc main_call3_v4)) :=
  good.at_unary (x := main_call3_v4) (y := main_call3_v5) rfl (by decide) (by decide) V

theorem after_call3_c_1 (V : Valuation τ sig (Elt F)) :
    after kops V (Proc.devRef .tc main_call3_c_1)
      = ((constantI S1 32 262143#32) : (⟨S1, .i32⟩ : BufTy).Contents (Elt F)) :=
  good.at_nullary (y := main_call3_c_1) rfl (by decide) V

theorem after_call3_c_2 (V : Valuation τ sig (Elt F)) :
    after kops V (Proc.devRef .tc main_call3_c_2)
      = ((constantI S_ 32 0#32) : (⟨S_, .i32⟩ : BufTy).Contents (Elt F)) :=
  good.at_nullary (y := main_call3_c_2) rfl (by decide) V

theorem after_call3_v6 (V : Valuation τ sig (Elt F)) :
    after kops V (Proc.devRef .tc main_call3_v6)
      = ((broadcastInDim S4000000x4x1 ![] bcast_S_S4000000x4x1) : (⟨S_, .i32⟩ : BufTy).Contents (Elt F) → (⟨S4000000x4x1, .i32⟩ : BufTy).Contents (Elt F))
        (after kops V (Proc.devRef .tc main_call3_c_2)) :=
  good.at_unary (x := main_call3_c_2) (y := main_call3_v6) rfl (by decide) (by decide) V

theorem after_call3_v7 (V : Valuation τ sig (Elt F)) :
    after kops V (Proc.devRef .tc main_call3_v7)
      = ((cmpi .sge) : (⟨S4000000x4x1, .i32⟩ : BufTy).Contents (Elt F) → (⟨S4000000x4x1, .i32⟩ : BufTy).Contents (Elt F) → (⟨S4000000x4x1, .i1⟩ : BufTy).Contents (Elt F))
        (after kops V (Proc.devRef .tc main_call3_v5)) (after kops V (Proc.devRef .tc main_call3_v6)) :=
  good.at_binary (a := main_call3_v5) (b := main_call3_v6) (y := main_call3_v7) rfl (by decide) (by decide) (by decide) V

theorem after_call3_v8 (V : Valuation τ sig (Elt F)) :
    after kops V (Proc.devRef .tc main_call3_v8)
      = ((broadcastInDim S1x1x1 ![2] bcast_S1_S1x1x1_2) : (⟨S1, .i32⟩ : BufTy).Contents (Elt F) → (⟨S1x1x1, .i32⟩ : BufTy).Contents (Elt F))
        (after kops V (Proc.devRef .tc main_call3_c_1)) :=
  good.at_unary (x := main_call3_c_1) (y := main_call3_v8) rfl (by decide) (by decide) V

theorem after_call3_v9 (V : Valuation τ sig (Elt F)) :
    after kops V (Proc.devRef .tc main_call3_v9)
      = ((broadcastInDim S4000000x4x1 ![0, 1, 2] bcast_S1x1x1_S4000000x4x1_0_1_2) : (⟨S1x1x1, .i32⟩ : BufTy).Contents (Elt F) → (⟨S4000000x4x1, .i32⟩ : BufTy).Contents (Elt F))
        (after kops V (Proc.devRef .tc main_call3_v8)) :=
  good.at_unary (x := main_call3_v8) (y := main_call3_v9) rfl (by decide) (by decide) V

theorem after_call3_v10 (V : Valuation τ sig (Elt F)) :
    after kops V (Proc.devRef .tc main_call3_v10)
      = ((cmpi .sle) : (⟨S4000000x4x1, .i32⟩ : BufTy).Contents (Elt F) → (⟨S4000000x4x1, .i32⟩ : BufTy).Contents (Elt F) → (⟨S4000000x4x1, .i1⟩ : BufTy).Contents (Elt F))
        (after kops V (Proc.devRef .tc main_call3_v5)) (after kops V (Proc.devRef .tc main_call3_v9)) :=
  good.at_binary (a := main_call3_v5) (b := main_call3_v9) (y := main_call3_v10) rfl (by decide) (by decide) (by decide) V

theorem after_call3_v11 (V : Valuation τ sig (Elt F)) :
    after kops V (Proc.devRef .tc main_call3_v11)
      = (andi : (⟨S4000000x4x1, .i1⟩ : BufTy).Contents (Elt F) → (⟨S4000000x4x1, .i1⟩ : BufTy).Contents (Elt F) → (⟨S4000000x4x1, .i1⟩ : BufTy).Contents (Elt F))
        (after kops V (Proc.devRef .tc main_call3_v7)) (after kops V (Proc.devRef .tc main_call3_v10)) :=
  good.at_binary (a := main_call3_v7) (b := main_call3_v10) (y := main_call3_v11) rfl (by decide) (by decide) (by decide) V

theorem after_call3_c_3 (V : Valuation τ sig (Elt F)) :
    after kops V (Proc.devRef .tc main_call3_c_3)
      = ((constantI S_ 1 1#1) : (⟨S_, .i1⟩ : BufTy).Contents (Elt F)) :=
  good.at_nullary (y := main_call3_c_3) rfl (by decide) V

theorem after_call3_v12 (V : Valuation τ sig (Elt F)) :
    after kops V (Proc.devRef .tc main_call3_v12)
      = ((fun x v => Host.reduce IntOp.andi x v reducesTo_S4000000x4x1_S4000000x4_d2 h_S_) : (⟨S4000000x4x1, .i1⟩ : BufTy).Contents (Elt F) → (⟨S_, .i1⟩ : BufTy).Contents (Elt F) → (⟨S4000000x4, .i1⟩ : BufTy).Contents (Elt F))
        (after kops V (Proc.devRef .tc main_call3_v11)) (after kops V (Proc.devRef .tc main_call3_c_3)) :=
  good.at_binary (a := main_call3_v11) (b := main_call3_c_3) (y := main_call3_v12) rfl (by decide) (by decide) (by decide) V

theorem after_call3_v13 (V : Valuation τ sig (Elt F)) :
    after kops V (Proc.devRef .tc main_call3_v13)
      = ((fun x i => Host.gather gather_S262144x8_S4000000x4x1_S4000000x4x8_2_0_n_n_0_2_18 x i) : (⟨S262144x8, .f32⟩ : BufTy).Contents (Elt F) → (⟨S4000000x4x1, .i32⟩ : BufTy).Contents (Elt F) → (⟨S4000000x4x8, .f32⟩ : BufTy).Contents (Elt F))
        (after kops V (Proc.devRef .tc main_v35)) (after kops V (Proc.devRef .tc main_call3_v5)) :=
  good.at_binary (a := main_v35) (b := main_call3_v5) (y := main_call3_v13) rfl (by decide) (by decide) (by decide) V

theorem after_call3_v14 (V : Valuation τ sig (Elt F)) :
    after kops V (Proc.devRef .tc main_call3_v14)
      = ((broadcastInDim S4000000x4x8 ![0, 1] bcast_S4000000x4_S4000000x4x8_0_1) : (⟨S4000000x4, .i1⟩ : BufTy).Contents (Elt F) → (⟨S4000000x4x8, .i1⟩ : BufTy).Contents (Elt F))
        (after kops V (Proc.devRef .tc main_call3_v12)) :=
  good.at_unary (x := main_call3_v12) (y := main_call3_v14) rfl (by decide) (by decide) V

theorem after_call3_cst (V : Valuation τ sig (Elt F)) :
    after kops V (Proc.devRef .tc main_call3_cst)
      = ((constant S_ .f32 0x7FC00000#32) : (⟨S_, .f32⟩ : BufTy).Contents (Elt F)) :=
  good.at_nullary (y := main_call3_cst) rfl (by decide) V

theorem after_call3_v15 (V : Valuation τ sig (Elt F)) :
    after kops V (Proc.devRef .tc main_call3_v15)
      = ((broadcastInDim S4000000x4x8 ![] bcast_S_S4000000x4x8) : (⟨S_, .f32⟩ : BufTy).Contents (Elt F) → (⟨S4000000x4x8, .f32⟩ : BufTy).Contents (Elt F))
        (after kops V (Proc.devRef .tc main_call3_cst)) :=
  good.at_unary (x := main_call3_cst) (y := main_call3_v15) rfl (by decide) (by decide) V

theorem after_v53 (V : Valuation τ sig (Elt F)) :
    after kops V (Proc.devRef .tc main_v53)
      = (select : (⟨S4000000x4x8, .i1⟩ : BufTy).Contents (Elt F) → (⟨S4000000x4x8, .f32⟩ : BufTy).Contents (Elt F) → (⟨S4000000x4x8, .f32⟩ : BufTy).Contents (Elt F) → (⟨S4000000x4x8, .f32⟩ : BufTy).Contents (Elt F))
        (after kops V (Proc.devRef .tc main_call3_v14)) (after kops V (Proc.devRef .tc main_call3_v13)) (after kops V (Proc.devRef .tc main_call3_v15)) :=
  good.at_ternary (c := main_call3_v14) (a := main_call3_v13) (b := main_call3_v15) (y := main_v53) rfl (by decide) (by decide) (by decide) (by decide) V

end Cert.KernelIdeal.HostRun

end
-- ==== Proof.KHostChainDefs.lean ====
/-
  The host side of the tri-plane sampler's kernel program as functions of whole arrays.

  The operations before the region, grouped and spelled exactly as the program applies them, with the arrays they
  read as variables, at any float instance: the clip of the coordinates (`clipVec`), a column of the clipped
  coordinates (`colVec0/1/2`), the pixel coordinate (`pixVec`), the cell words (`cellVec`, `cellVec1`), the four
  corners' flat row numbers `y · 512 + x` (`flat00 … flat11`, side by side in `cornerIdx`), the rows of the flattened
  plane taken at them with the in-range mask (`normIdx`, `maskRows`, `flatPlane`, `gatherRows`, `maskB`, `fillVec`,
  `takeRows`), and the N × 32 array of corner rows (`cornersK`).
-/
import proofs.«114771_j71983651881269_2_alg».proof.Proof.Gen.KernelIdeal

set_option maxRecDepth 16384

noncomputable section

namespace Cert.KernelIdeal.HostChain

open Idealize.ShloMosaic
open Cert.KernelIdeal Cert.KernelIdeal.Gen

section Defs
variable {F : FTy → Type} [FloatOps F]

/-- The clip of every coordinate into `[-1, 1]`: the minimum with 1 of the maximum with −1. -/
def clipVec (A : (⟨S4000000x3, .f32⟩ : BufTy).Contents (Elt F)) : (⟨S4000000x3, .f32⟩ : BufTy).Contents (Elt F) :=
  (minimumf
    ((broadcastInDim S4000000x3 ![] bcast_S_S4000000x3)
      (id
        ((constant S_ .f32 0x3F800000#32) : (⟨S_, .f32⟩ : BufTy).Contents (Elt F)) : (⟨S_, .f32⟩ : BufTy).Contents (Elt F)) : (⟨S4000000x3, .f32⟩ : BufTy).Contents (Elt F))
    (maximumf
      ((broadcastInDim S4000000x3 ![] bcast_S_S4000000x3)
        (id
          ((constant S_ .f32 0xBF800000#32) : (⟨S_, .f32⟩ : BufTy).Contents (Elt F)) : (⟨S_, .f32⟩ : BufTy).Contents (Elt F)) : (⟨S4000000x3, .f32⟩ : BufTy).Contents (Elt F))
      A : (⟨S4000000x3, .f32⟩ : BufTy).Contents (Elt F)) : (⟨S4000000x3, .f32⟩ : BufTy).Contents (Elt F))

/-- Column 0 of an N × 3 array as a vector of N entries. -/
def colVec0 (U : (⟨S4000000x3, .f32⟩ : BufTy).Contents (Elt F)) : (⟨S4000000, .f32⟩ : BufTy).Contents (Elt F) :=
  (shapeCast S4000000 (((extractStridedSlice S4000000x1 ![0, 0] · slices_S4000000x3_S4000000x1_0_0) : (⟨S4000000x3, .f32⟩ : BufTy).Contents (Elt F) → (⟨S4000000x1, .f32⟩ : BufTy).Contents (Elt F))
      U : (⟨S4000000x1, .f32⟩ : BufTy).Contents (Elt F)) shapeCasts_S4000000x1_S4000000 : (⟨S4000000, .f32⟩ : BufTy).Contents (Elt F))

/-- Column 1 of an N × 3 array as a vector of N entries. -/
def colVec1 (U : (⟨S4000000x3, .f32⟩ : BufTy).Contents (Elt F)) : (⟨S4000000, .f32⟩ : BufTy).Contents (Elt F) :=
  (shapeCast S4000000 (((extractStridedSlice S4000000x1 ![0, 1] · slices_S4000000x3_S4000000x1_0_1) : (⟨S4000000x3, .f32⟩ : BufTy).Contents (Elt F) → (⟨S4000000x1, .f32⟩ : BufTy).Contents (Elt F))
      U : (⟨S4000000x1, .f32⟩ : BufTy).Contents (Elt F)) shapeCasts_S4000000x1_S4000000 : (⟨S4000000, .f32⟩ : BufTy).Contents (Elt F))

/-- Column 2 of an N × 3 array as a vector of N entries. -/
def colVec2 (U : (⟨S4000000x3, .f32⟩ : BufTy).Contents (Elt F)) : (⟨S4000000, .f32⟩ : BufTy).Contents (Elt F) :=
  (shapeCast S4000000 (((extractStridedSlice S4000000x1 ![0, 2] · slices_S4000000x3_S4000000x1_0_2) : (⟨S4000000x3, .f32⟩ : BufTy).Contents (Elt F) → (⟨S4000000x1, .f32⟩ : BufTy).Contents (Elt F))
      U : (⟨S4000000x1, .f32⟩ : BufTy).Contents (Elt F)) shapeCasts_S4000000x1_S4000000 : (⟨S4000000, .f32⟩ : BufTy).Contents (Elt F))

/-- The pixel coordinate of every clipped coordinate: `((c + 1) · 512 − 1) · ½` clamped into `[0, 511]`. -/
def pixVec (C : (⟨S4000000, .f32⟩ : BufTy).Contents (Elt F)) : (⟨S4000000, .f32⟩ : BufTy).Contents (Elt F) :=
  (minimumf
    ((broadcastInDim S4000000 ![] bcast_S_S4000000)
      (id
        ((constant S_ .f32 0x43FF8000#32) : (⟨S_, .f32⟩ : BufTy).Contents (Elt F)) : (⟨S_, .f32⟩ : BufTy).Contents (Elt F)) : (⟨S4000000, .f32⟩ : BufTy).Contents (Elt F))
    (maximumf
      ((broadcastInDim S4000000 ![] bcast_S_S4000000)
        (id
          ((constant S_ .f32 0x00000000#32) : (⟨S_, .f32⟩ : BufTy).Contents (Elt F)) : (⟨S_, .f32⟩ : BufTy).Contents (Elt F)) : (⟨S4000000, .f32⟩ : BufTy).Contents (Elt F))
      ((mulf : (⟨S4000000, .f32⟩ : BufTy).Contents (Elt F) → (⟨S4000000, .f32⟩ : BufTy).Contents (Elt F) → (⟨S4000000, .f32⟩ : BufTy).Contents (Elt F))
        ((subf : (⟨S4000000, .f32⟩ : BufTy).Contents (Elt F) → (⟨S4000000, .f32⟩ : BufTy).Contents (Elt F) → (⟨S4000000, .f32⟩ : BufTy).Contents (Elt F))
          ((mulf : (⟨S4000000, .f32⟩ : BufTy).Contents (Elt F) → (⟨S4000000, .f32⟩ : BufTy).Contents (Elt F) → (⟨S4000000, .f32⟩ : BufTy).Contents (Elt F))
            ((addf : (⟨S4000000, .f32⟩ : BufTy).Contents (Elt F) → (⟨S4000000, .f32⟩ : BufTy).Contents (Elt F) → (⟨S4000000, .f32⟩ : BufTy).Contents (Elt F))
              C
              ((broadcastInDim S4000000 ![] bcast_S_S4000000 : (⟨S_, .f32⟩ : BufTy).Contents (Elt F) → (⟨S4000000, .f32⟩ : BufTy).Contents (Elt F))
                ((constant S_ .f32 0x3F800000#32) : (⟨S_, .f32⟩ : BufTy).Contents (Elt F)) : (⟨S4000000, .f32⟩ : BufTy).Contents (Elt F)) : (⟨S4000000, .f32⟩ : BufTy).Contents (Elt F))
            ((broadcastInDim S4000000 ![] bcast_S_S4000000 : (⟨S_, .f32⟩ : BufTy).Contents (Elt F) → (⟨S4000000, .f32⟩ : BufTy).Contents (Elt F))
              ((constant S_ .f32 0x44000000#32) : (⟨S_, .f32⟩ : BufTy).Contents (Elt F)) : (⟨S4000000, .f32⟩ : BufTy).Contents (Elt F)) : (⟨S4000000, .f32⟩ : BufTy).Contents (Elt F))
          ((broadcastInDim S4000000 ![] bcast_S_S4000000 : (⟨S_, .f32⟩ : BufTy).Contents (Elt F) → (⟨S4000000, .f32⟩ : BufTy).Contents (Elt F))
            ((constant S_ .f32 0x3F800000#32) : (⟨S_, .f32⟩ : BufTy).Contents (Elt F)) : (⟨S4000000, .f32⟩ : BufTy).Contents (Elt F)) : (⟨S4000000, .f32⟩ : BufTy).Contents (Elt F))
        ((broadcastInDim S4000000 ![] bcast_S_S4000000 : (⟨S_, .f32⟩ : BufTy).Contents (Elt F) → (⟨S4000000, .f32⟩ : BufTy).Contents (Elt F))
          ((constant S_ .f32 0x3F000000#32) : (⟨S_, .f32⟩ : BufTy).Contents (Elt F)) : (⟨S4000000, .f32⟩ : BufTy).Contents (Elt F)) : (⟨S4000000, .f32⟩ : BufTy).Contents (Elt F)) : (⟨S4000000, .f32⟩ : BufTy).Contents (Elt F)) : (⟨S4000000, .f32⟩ : BufTy).Contents (Elt F))

/-- The cell word of every pixel coordinate: its floor converted to a 32-bit integer. -/
def cellVec (X : (⟨S4000000, .f32⟩ : BufTy).Contents (Elt F)) : (⟨S4000000, .i32⟩ : BufTy).Contents (Elt F) :=
  ((fptosi 32 : (⟨S4000000, .f32⟩ : BufTy).Contents (Elt F) → (⟨S4000000, .i32⟩ : BufTy).Contents (Elt F))
    ((Host.floor : (⟨S4000000, .f32⟩ : BufTy).Contents (Elt F) → (⟨S4000000, .f32⟩ : BufTy).Contents (Elt F))
      X : (⟨S4000000, .f32⟩ : BufTy).Contents (Elt F)) : (⟨S4000000, .i32⟩ : BufTy).Contents (Elt F))

/-- The next cell's word, capped at 511, of every pixel coordinate. -/
def cellVec1 (X : (⟨S4000000, .f32⟩ : BufTy).Contents (Elt F)) : (⟨S4000000, .i32⟩ : BufTy).Contents (Elt F) :=
  ((minsi : (⟨S4000000, .i32⟩ : BufTy).Contents (Elt F) → (⟨S4000000, .i32⟩ : BufTy).Contents (Elt F) → (⟨S4000000, .i32⟩ : BufTy).Contents (Elt F))
    ((addi : (⟨S4000000, .i32⟩ : BufTy).Contents (Elt F) → (⟨S4000000, .i32⟩ : BufTy).Contents (Elt F) → (⟨S4000000, .i32⟩ : BufTy).Contents (Elt F))
      ((fptosi 32 : (⟨S4000000, .f32⟩ : BufTy).Contents (Elt F) → (⟨S4000000, .i32⟩ : BufTy).Contents (Elt F))
        ((Host.floor : (⟨S4000000, .f32⟩ : BufTy).Contents (Elt F) → (⟨S4000000, .f32⟩ : BufTy).Contents (Elt F))
          X : (⟨S4000000, .f32⟩ : BufTy).Contents (Elt F)) : (⟨S4000000, .i32⟩ : BufTy).Contents (Elt F))
      ((broadcastInDim S4000000 ![] bcast_S_S4000000 : (⟨S_, .i32⟩ : BufTy).Contents (Elt F) → (⟨S4000000, .i32⟩ : BufTy).Contents (Elt F))
        ((constantI S_ 32 1#32) : (⟨S_, .i32⟩ : BufTy).Contents (Elt F)) : (⟨S4000000, .i32⟩ : BufTy).Contents (Elt F)) : (⟨S4000000, .i32⟩ : BufTy).Contents (Elt F))
    ((broadcastInDim S4000000 ![] bcast_S_S4000000 : (⟨S_, .i32⟩ : BufTy).Contents (Elt F) → (⟨S4000000, .i32⟩ : BufTy).Contents (Elt F))
      ((constantI S_ 32 511#32) : (⟨S_, .i32⟩ : BufTy).Contents (Elt F)) : (⟨S4000000, .i32⟩ : BufTy).Contents (Elt F)) : (⟨S4000000, .i32⟩ : BufTy).Contents (Elt F))

/-- The flat row number `y0 · 512 + x0` of corner (y0, x0), for every point. -/
def flat00 (X Y : (⟨S4000000, .f32⟩ : BufTy).Contents (Elt F)) : (⟨S4000000, .i32⟩ : BufTy).Contents (Elt F) :=
  ((addi : (⟨S4000000, .i32⟩ : BufTy).Contents (Elt F) → (⟨S4000000, .i32⟩ : BufTy).Contents (Elt F) → (⟨S4000000, .i32⟩ : BufTy).Contents (Elt F))
    ((muli : (⟨S4000000, .i32⟩ : BufTy).Contents (Elt F) → (⟨S4000000, .i32⟩ : BufTy).Contents (Elt F) → (⟨S4000000, .i32⟩ : BufTy).Contents (Elt F))
      ((fptosi 32 : (⟨S4000000, .f32⟩ : BufTy).Contents (Elt F) → (⟨S4000000, .i32⟩ : BufTy).Contents (Elt F))
        ((Host.floor : (⟨S4000000, .f32⟩ : BufTy).Contents (Elt F) → (⟨S4000000, .f32⟩ : BufTy).Contents (Elt F))
          Y : (⟨S4000000, .f32⟩ : BufTy).Contents (Elt F)) : (⟨S4000000, .i32⟩ : BufTy).Contents (Elt F))
      ((broadcastInDim S4000000 ![] bcast_S_S4000000 : (⟨S_, .i32⟩ : BufTy).Contents (Elt F) → (⟨S4000000, .i32⟩ : BufTy).Contents (Elt F))
        ((constantI S_ 32 512#32) : (⟨S_, .i32⟩ : BufTy).Contents (Elt F)) : (⟨S4000000, .i32⟩ : BufTy).Contents (Elt F)) : (⟨S4000000, .i32⟩ : BufTy).Contents (Elt F))
    ((fptosi 32 : (⟨S4000000, .f32⟩ : BufTy).Contents (Elt F) → (⟨S4000000, .i32⟩ : BufTy).Contents (Elt F))
      ((Host.floor : (⟨S4000000, .f32⟩ : BufTy).Contents (Elt F) → (⟨S4000000, .f32⟩ : BufTy).Contents (Elt F))
        X : (⟨S4000000, .f32⟩ : BufTy).Contents (Elt F)) : (⟨S4000000, .i32⟩ : BufTy).Contents (Elt F)) : (⟨S4000000, .i32⟩ : BufTy).Contents (Elt F))

/-- The flat row number `y0 · 512 + x1` of corner (y0, x1), for every point. -/
def flat01 (X Y : (⟨S4000000, .f32⟩ : BufTy).Contents (Elt F)) : (⟨S4000000, .i32⟩ : BufTy).Contents (Elt F) :=
  ((addi : (⟨S4000000, .i32⟩ : BufTy).Contents (Elt F) → (⟨S4000000, .i32⟩ : BufTy).Contents (Elt F) → (⟨S4000000, .i32⟩ : BufTy).Contents (Elt F))
    ((muli : (⟨S4000000, .i32⟩ : BufTy).Contents (Elt F) → (⟨S4000000, .i32⟩ : BufTy).Contents (Elt F) → (⟨S4000000, .i32⟩ : BufTy).Contents (Elt F))
      ((fptosi 32 : (⟨S4000000, .f32⟩ : BufTy).Contents (Elt F) → (⟨S4000000, .i32⟩ : BufTy).Contents (Elt F))
        ((Host.floor : (⟨S4000000, .f32⟩ : BufTy).Contents (Elt F) → (⟨S4000000, .f32⟩ : BufTy).Contents (Elt F))
          Y : (⟨S4000000, .f32⟩ : BufTy).Contents (Elt F)) : (⟨S4000000, .i32⟩ : BufTy).Contents (Elt F))
      ((broadcastInDim S4000000 ![] bcast_S_S4000000 : (⟨S_, .i32⟩ : BufTy).Contents (Elt F) → (⟨S4000000, .i32⟩ : BufTy).Contents (Elt F))
        ((constantI S_ 32 512#32) : (⟨S_, .i32⟩ : BufTy).Contents (Elt F)) : (⟨S4000000, .i32⟩ : BufTy).Contents (Elt F)) : (⟨S4000000, .i32⟩ : BufTy).Contents (Elt F))
    ((minsi : (⟨S4000000, .i32⟩ : BufTy).Contents (Elt F) → (⟨S4000000, .i32⟩ : BufTy).Contents (Elt F) → (⟨S4000000, .i32⟩ : BufTy).Contents (Elt F))
      ((addi : (⟨S4000000, .i32⟩ : BufTy).Contents (Elt F) → (⟨S4000000, .i32⟩ : BufTy).Contents (Elt F) → (⟨S4000000, .i32⟩ : BufTy).Contents (Elt F))
        ((fptosi 32 : (⟨S4000000, .f32⟩ : BufTy).Contents (Elt F) → (⟨S4000000, .i32⟩ : BufTy).Contents (Elt F))
          ((Host.floor : (⟨S4000000, .f32⟩ : BufTy).Contents (Elt F) → (⟨S4000000, .f32⟩ : BufTy).Contents (Elt F))
            X : (⟨S4000000, .f32⟩ : BufTy).Contents (Elt F)) : (⟨S4000000, .i32⟩ : BufTy).Contents (Elt F))
        ((broadcastInDim S4000000 ![] bcast_S_S4000000 : (⟨S_, .i32⟩ : BufTy).Contents (Elt F) → (⟨S4000000, .i32⟩ : BufTy).Contents (Elt F))
          ((constantI S_ 32 1#32) : (⟨S_, .i32⟩ : BufTy).Contents (Elt F)) : (⟨S4000000, .i32⟩ : BufTy).Contents (Elt F)) : (⟨S4000000, .i32⟩ : BufTy).Contents (Elt F))
      ((broadcastInDim S4000000 ![] bcast_S_S4000000 : (⟨S_, .i32⟩ : BufTy).Contents (Elt F) → (⟨S4000000, .i32⟩ : BufTy).Contents (Elt F))
        ((constantI S_ 32 511#32) : (⟨S_, .i32⟩ : BufTy).Contents (Elt F)) : (⟨S4000000, .i32⟩ : BufTy).Contents (Elt F)) : (⟨S4000000, .i32⟩ : BufTy).Contents (Elt F)) : (⟨S4000000, .i32⟩ : BufTy).Contents (Elt F))

/-- The flat row number `y1 · 512 + x0` of corner (y1, x0), for every point. -/
def flat10 (X Y : (⟨S4000000, .f32⟩ : BufTy).Contents (Elt F)) : (⟨S4000000, .i32⟩ : BufTy).Contents (Elt F) :=
  ((addi : (⟨S4000000, .i32⟩ : BufTy).Contents (Elt F) → (⟨S4000000, .i32⟩ : BufTy).Contents (Elt F) → (⟨S4000000, .i32⟩ : BufTy).Contents (Elt F))
    ((muli : (⟨S4000000, .i32⟩ : BufTy).Contents (Elt F) → (⟨S4000000, .i32⟩ : BufTy).Contents (Elt F) → (⟨S4000000, .i32⟩ : BufTy).Contents (Elt F))
      ((minsi : (⟨S4000000, .i32⟩ : BufTy).Contents (Elt F) → (⟨S4000000, .i32⟩ : BufTy).Contents (Elt F) → (⟨S4000000, .i32⟩ : BufTy).Contents (Elt F))
        ((addi : (⟨S4000000, .i32⟩ : BufTy).Contents (Elt F) → (⟨S4000000, .i32⟩ : BufTy).Contents (Elt F) → (⟨S4000000, .i32⟩ : BufTy).Contents (Elt F))
          ((fptosi 32 : (⟨S4000000, .f32⟩ : BufTy).Contents (Elt F) → (⟨S4000000, .i32⟩ : BufTy).Contents (Elt F))
            ((Host.floor : (⟨S4000000, .f32⟩ : BufTy).Contents (Elt F) → (⟨S4000000, .f32⟩ : BufTy).Contents (Elt F))
              Y : (⟨S4000000, .f32⟩ : BufTy).Contents (Elt F)) : (⟨S4000000, .i32⟩ : BufTy).Contents (Elt F))
          ((broadcastInDim S4000000 ![] bcast_S_S4000000 : (⟨S_, .i32⟩ : BufTy).Contents (Elt F) → (⟨S4000000, .i32⟩ : BufTy).Contents (Elt F))
            ((constantI S_ 32 1#32) : (⟨S_, .i32⟩ : BufTy).Contents (Elt F)) : (⟨S4000000, .i32⟩ : BufTy).Contents (Elt F)) : (⟨S4000000, .i32⟩ : BufTy).Contents (Elt F))
        ((broadcastInDim S4000000 ![] bcast_S_S4000000 : (⟨S_, .i32⟩ : BufTy).Contents (Elt F) → (⟨S4000000, .i32⟩ : BufTy).Contents (Elt F))
          ((constantI S_ 32 511#32) : (⟨S_, .i32⟩ : BufTy).Contents (Elt F)) : (⟨S4000000, .i32⟩ : BufTy).Contents (Elt F)) : (⟨S4000000, .i32⟩ : BufTy).Contents (Elt F))
      ((broadcastInDim S4000000 ![] bcast_S_S4000000 : (⟨S_, .i32⟩ : BufTy).Contents (Elt F) → (⟨S4000000, .i32⟩ : BufTy).Contents (Elt F))
        ((constantI S_ 32 512#32) : (⟨S_, .i32⟩ : BufTy).Contents (Elt F)) : (⟨S4000000, .i32⟩ : BufTy).Contents (Elt F)) : (⟨S4000000, .i32⟩ : BufTy).Contents (Elt F))
    ((fptosi 32 : (⟨S4000000, .f32⟩ : BufTy).Contents (Elt F) → (⟨S4000000, .i32⟩ : BufTy).Contents (Elt F))
      ((Host.floor : (⟨S4000000, .f32⟩ : BufTy).Contents (Elt F) → (⟨S4000000, .f32⟩ : BufTy).Contents (Elt F))
        X : (⟨S4000000, .f32⟩ : BufTy).Contents (Elt F)) : (⟨S4000000, .i32⟩ : BufTy).Contents (Elt F)) : (⟨S4000000, .i32⟩ : BufTy).Contents (Elt F))

/-- The flat row number `y1 · 512 + x1` of corner (y1, x1), for every point. -/
def flat11 (X Y : (⟨S4000000, .f32⟩ : BufTy).Contents (Elt F)) : (⟨S4000000, .i32⟩ : BufTy).Contents (Elt F) :=
  ((addi : (⟨S4000000, .i32⟩ : BufTy).Contents (Elt F) → (⟨S4000000, .i32⟩ : BufTy).Contents (Elt F) → (⟨S4000000, .i32⟩ : BufTy).Contents (Elt F))
    ((muli : (⟨S4000000, .i32⟩ : BufTy).Contents (Elt F) → (⟨S4000000, .i32⟩ : BufTy).Contents (Elt F) → (⟨S4000000, .i32⟩ : BufTy).Contents (Elt F))
      ((minsi : (⟨S4000000, .i32⟩ : BufTy).Contents (Elt F) → (⟨S4000000, .i32⟩ : BufTy).Contents (Elt F) → (⟨S4000000, .i32⟩ : BufTy).Contents (Elt F))
        ((addi : (⟨S4000000, .i32⟩ : BufTy).Contents (Elt F) → (⟨S4000000, .i32⟩ : BufTy).Contents (Elt F) → (⟨S4000000, .i32⟩ : BufTy).Contents (Elt F))
          ((fptosi 32 : (⟨S4000000, .f32⟩ : BufTy).Contents (Elt F) → (⟨S4000000, .i32⟩ : BufTy).Contents (Elt F))
            ((Host.floor : (⟨S4000000, .f32⟩ : BufTy).Contents (Elt F) → (⟨S4000000, .f32⟩ : BufTy).Contents (Elt F))
              Y : (⟨S4000000, .f32⟩ : BufTy).Contents (Elt F)) : (⟨S4000000, .i32⟩ : BufTy).Contents (Elt F))
          ((broadcastInDim S4000000 ![] bcast_S_S4000000 : (⟨S_, .i32⟩ : BufTy).Contents (Elt F) → (⟨S4000000, .i32⟩ : BufTy).Contents (Elt F))
            ((constantI S_ 32 1#32) : (⟨S_, .i32⟩ : BufTy).Contents (Elt F)) : (⟨S4000000, .i32⟩ : BufTy).Contents (Elt F)) : (⟨S4000000, .i32⟩ : BufTy).Contents (Elt F))
        ((broadcastInDim S4000000 ![] bcast_S_S4000000 : (⟨S_, .i32⟩ : BufTy).Contents (Elt F) → (⟨S4000000, .i32⟩ : BufTy).Contents (Elt F))
          ((constantI S_ 32 511#32) : (⟨S_, .i32⟩ : BufTy).Contents (Elt F)) : (⟨S4000000, .i32⟩ : BufTy).Contents (Elt F)) : (⟨S4000000, .i32⟩ : BufTy).Contents (Elt F))
      ((broadcastInDim S4000000 ![] bcast_S_S4000000 : (⟨S_, .i32⟩ : BufTy).Contents (Elt F) → (⟨S4000000, .i32⟩ : BufTy).Contents (Elt F))
        ((constantI S_ 32 512#32) : (⟨S_, .i32⟩ : BufTy).Contents (Elt F)) : (⟨S4000000, .i32⟩ : BufTy).Contents (Elt F)) : (⟨S4000000, .i32⟩ : BufTy).Contents (Elt F))
    ((minsi : (⟨S4000000, .i32⟩ : BufTy).Contents (Elt F) → (⟨S4000000, .i32⟩ : BufTy).Contents (Elt F) → (⟨S4000000, .i32⟩ : BufTy).Contents (Elt F))
      ((addi : (⟨S4000000, .i32⟩ : BufTy).Contents (Elt F) → (⟨S4000000, .i32⟩ : BufTy).Contents (Elt F) → (⟨S4000000, .i32⟩ : BufTy).Contents (Elt F))
        ((fptosi 32 : (⟨S4000000, .f32⟩ : BufTy).Contents (Elt F) → (⟨S4000000, .i32⟩ : BufTy).Contents (Elt F))
          ((Host.floor : (⟨S4000000, .f32⟩ : BufTy).Contents (Elt F) → (⟨S4000000, .f32⟩ : BufTy).Contents (Elt F))
            X : (⟨S4000000, .f32⟩ : BufTy).Contents (Elt F)) : (⟨S4000000, .i32⟩ : BufTy).Contents (Elt F))
        ((broadcastInDim S4000000 ![] bcast_S_S4000000 : (⟨S_, .i32⟩ : BufTy).Contents (Elt F) → (⟨S4000000, .i32⟩ : BufTy).Contents (Elt F))
          ((constantI S_ 32 1#32) : (⟨S_, .i32⟩ : BufTy).Contents (Elt F)) : (⟨S4000000, .i32⟩ : BufTy).Contents (Elt F)) : (⟨S4000000, .i32⟩ : BufTy).Contents (Elt F))
      ((broadcastInDim S4000000 ![] bcast_S_S4000000 : (⟨S_, .i32⟩ : BufTy).Contents (Elt F) → (⟨S4000000, .i32⟩ : BufTy).Contents (Elt F))
        ((constantI S_ 32 511#32) : (⟨S_, .i32⟩ : BufTy).Contents (Elt F)) : (⟨S4000000, .i32⟩ : BufTy).Contents (Elt F)) : (⟨S4000000, .i32⟩ : BufTy).Contents (Elt F)) : (⟨S4000000, .i32⟩ : BufTy).Contents (Elt F))

/-- The four corners' flat row numbers side by side: an N × 4 array of 32-bit integers. -/
def cornerIdx (X Y : (⟨S4000000, .f32⟩ : BufTy).Contents (Elt F)) : (⟨S4000000x4, .i32⟩ : BufTy).Contents (Elt F) :=
  (concatenate S4000000x4 1 [⟨S4000000x1, ((broadcastInDim S4000000x1 ![0] bcast_S4000000_S4000000x1_0 : (⟨S4000000, .i32⟩ : BufTy).Contents (Elt F) → (⟨S4000000x1, .i32⟩ : BufTy).Contents (Elt F))
      (flat00 X Y) : (⟨S4000000x1, .i32⟩ : BufTy).Contents (Elt F))⟩, ⟨S4000000x1, ((broadcastInDim S4000000x1 ![0] bcast_S4000000_S4000000x1_0 : (⟨S4000000, .i32⟩ : BufTy).Contents (Elt F) → (⟨S4000000x1, .i32⟩ : BufTy).Contents (Elt F))
      (flat01 X Y) : (⟨S4000000x1, .i32⟩ : BufTy).Contents (Elt F))⟩, ⟨S4000000x1, ((broadcastInDim S4000000x1 ![0] bcast_S4000000_S4000000x1_0 : (⟨S4000000, .i32⟩ : BufTy).Contents (Elt F) → (⟨S4000000x1, .i32⟩ : BufTy).Contents (Elt F))
      (flat10 X Y) : (⟨S4000000x1, .i32⟩ : BufTy).Contents (Elt F))⟩, ⟨S4000000x1, ((broadcastInDim S4000000x1 ![0] bcast_S4000000_S4000000x1_0 : (⟨S4000000, .i32⟩ : BufTy).Contents (Elt F) → (⟨S4000000x1, .i32⟩ : BufTy).Contents (Elt F))
      (flat11 X Y) : (⟨S4000000x1, .i32⟩ : BufTy).Contents (Elt F))⟩] concatenates_S4000000x1_S4000000x1_S4000000x1_S4000000x1_S4000000x4_d1 : (⟨S4000000x4, .i32⟩ : BufTy).Contents (Elt F))

/-- The row numbers as the gather takes them: a negative one moved up by the number of rows, then a unit axis
    appended. -/
def normIdx (I : (⟨S4000000x4, .i32⟩ : BufTy).Contents (Elt F)) : (⟨S4000000x4x1, .i32⟩ : BufTy).Contents (Elt F) :=
  ((broadcastInDim S4000000x4x1 ![0, 1] bcast_S4000000x4_S4000000x4x1_0_1)
    (select
      ((cmpi .slt)
        I
        ((broadcastInDim S4000000x4 ![] bcast_S_S4000000x4)
          ((constantI S_ 32 0#32) : (⟨S_, .i32⟩ : BufTy).Contents (Elt F)) : (⟨S4000000x4, .i32⟩ : BufTy).Contents (Elt F)) : (⟨S4000000x4, .i1⟩ : BufTy).Contents (Elt F))
      (addi
        I
        ((broadcastInDim S4000000x4 ![] bcast_S_S4000000x4)
          ((constantI S_ 32 262144#32) : (⟨S_, .i32⟩ : BufTy).Contents (Elt F)) : (⟨S4000000x4, .i32⟩ : BufTy).Contents (Elt F)) : (⟨S4000000x4, .i32⟩ : BufTy).Contents (Elt F))
      I : (⟨S4000000x4, .i32⟩ : BufTy).Contents (Elt F)) : (⟨S4000000x4x1, .i32⟩ : BufTy).Contents (Elt F))

/-- The in-range mask of the row numbers: `0 ≤ k` and `k ≤ 262143`, reduced by "and" over the unit axis. -/
def maskRows (J : (⟨S4000000x4x1, .i32⟩ : BufTy).Contents (Elt F)) : (⟨S4000000x4, .i1⟩ : BufTy).Contents (Elt F) :=
  ((fun x v => Host.reduce IntOp.andi x v reducesTo_S4000000x4x1_S4000000x4_d2 h_S_)
    (andi
      ((cmpi .sge)
        J
        ((broadcastInDim S4000000x4x1 ![] bcast_S_S4000000x4x1)
          ((constantI S_ 32 0#32) : (⟨S_, .i32⟩ : BufTy).Contents (Elt F)) : (⟨S4000000x4x1, .i32⟩ : BufTy).Contents (Elt F)) : (⟨S4000000x4x1, .i1⟩ : BufTy).Contents (Elt F))
      ((cmpi .sle)
        J
        ((broadcastInDim S4000000x4x1 ![0, 1, 2] bcast_S1x1x1_S4000000x4x1_0_1_2)
          ((broadcastInDim S1x1x1 ![2] bcast_S1_S1x1x1_2)
            ((constantI S1 32 262143#32) : (⟨S1, .i32⟩ : BufTy).Contents (Elt F)) : (⟨S1x1x1, .i32⟩ : BufTy).Contents (Elt F)) : (⟨S4000000x4x1, .i32⟩ : BufTy).Contents (Elt F)) : (⟨S4000000x4x1, .i1⟩ : BufTy).Contents (Elt F)) : (⟨S4000000x4x1, .i1⟩ : BufTy).Contents (Elt F))
    ((constantI S_ 1 1#1) : (⟨S_, .i1⟩ : BufTy).Contents (Elt F)) : (⟨S4000000x4, .i1⟩ : BufTy).Contents (Elt F))

/-- The plane flattened to 262144 rows of 8 features: cell (y, x) is row `y · 512 + x`. -/
def flatPlane (P : (⟨S512x512x8, .f32⟩ : BufTy).Contents (Elt F)) : (⟨S262144x8, .f32⟩ : BufTy).Contents (Elt F) :=
  (shapeCast S262144x8 P shapeCasts_S512x512x8_S262144x8 : (⟨S262144x8, .f32⟩ : BufTy).Contents (Elt F))

/-- Rows of the flattened plane gathered at the row numbers `J`. -/
def gatherRows (P : (⟨S512x512x8, .f32⟩ : BufTy).Contents (Elt F)) (J : (⟨S4000000x4x1, .i32⟩ : BufTy).Contents (Elt F)) : (⟨S4000000x4x8, .f32⟩ : BufTy).Contents (Elt F) :=
  ((fun x i => Host.gather gather_S262144x8_S4000000x4x1_S4000000x4x8_2_0_n_n_0_2_18 x i)
    (flatPlane P)
    J : (⟨S4000000x4x8, .f32⟩ : BufTy).Contents (Elt F))

/-- The mask repeated along each gathered row. -/
def maskB (M : (⟨S4000000x4, .i1⟩ : BufTy).Contents (Elt F)) : (⟨S4000000x4x8, .i1⟩ : BufTy).Contents (Elt F) :=
  ((broadcastInDim S4000000x4x8 ![0, 1] bcast_S4000000x4_S4000000x4x8_0_1)
    M : (⟨S4000000x4x8, .i1⟩ : BufTy).Contents (Elt F))

/-- The fill value of a row out of range, everywhere. -/
def fillVec  : (⟨S4000000x4x8, .f32⟩ : BufTy).Contents (Elt F) :=
  ((broadcastInDim S4000000x4x8 ![] bcast_S_S4000000x4x8)
    ((constant S_ .f32 0x7FC00000#32) : (⟨S_, .f32⟩ : BufTy).Contents (Elt F)) : (⟨S4000000x4x8, .f32⟩ : BufTy).Contents (Elt F))

/-- Rows of the flattened plane taken at the row numbers `I`, a row out of range replaced by the fill value. -/
def takeRows (P : (⟨S512x512x8, .f32⟩ : BufTy).Contents (Elt F)) (I : (⟨S4000000x4, .i32⟩ : BufTy).Contents (Elt F)) : (⟨S4000000x4x8, .f32⟩ : BufTy).Contents (Elt F) :=
  (select
    (maskB (maskRows (normIdx I)))
    (gatherRows P (normIdx I))
    (fillVec (F := F)) : (⟨S4000000x4x8, .f32⟩ : BufTy).Contents (Elt F))

/-- A plane's four corner rows per point, side by side in one N × 32 array: corner `j`'s feature `r` in lane
    `8 j + r`. -/
def cornersK (P : (⟨S512x512x8, .f32⟩ : BufTy).Contents (Elt F)) (X Y : (⟨S4000000, .f32⟩ : BufTy).Contents (Elt F)) : (⟨S4000000x32, .f32⟩ : BufTy).Contents (Elt F) :=
  (shapeCast S4000000x32 (takeRows P (cornerIdx X Y)) shapeCasts_S4000000x4x8_S4000000x32 : (⟨S4000000x32, .f32⟩ : BufTy).Contents (Elt F))

end Defs

end Cert.KernelIdeal.HostChain

end
-- ==== Proof.KFold1.lean ====
/- The kernel program's host line folded, plane 1: its corner array as a composition of the clipped coordinates and the plane.
   Each equation is between what buffers hold after the whole host line. Every buffer between its two sides is written
   once, by one operation, from buffers written before it; replacing each by its operation's value leaves exactly the
   composition on the right: the pixel coordinates of a column of the clipped coordinates, the four corners' flat row
   numbers of two pixel vectors, the plane's rows taken at them, the rows laid side by side in 32 lanes. -/
import proofs.«114771_j71983651881269_2_alg».proof.Proof.KEqs0
import proofs.«114771_j71983651881269_2_alg».proof.Proof.KEqs1
import proofs.«114771_j71983651881269_2_alg».proof.Proof.KHostChainDefs

set_option maxRecDepth 16384

noncomputable section

namespace Cert.KernelIdeal.Fold

open Cert.KernelIdeal Cert.KernelIdeal.Gen Cert.KernelIdeal.HostRun Cert.KernelIdeal.HostChain
open Idealize.ShloMosaic Idealize.ShloMosaic.TcCoe Idealize.SL.Sem Idealize.ShloMosaic.StableHlo

variable {F : FTy → Type} [FloatOps F]

-- the equations are between folds of the line at different buffers: never a question of what a fold, a reduction or a gather computes
attribute [local irreducible] Idealize.ShloMosaic.StableHlo.after Idealize.ShloMosaic.Host.reduce Idealize.ShloMosaic.Host.gather

set_option maxHeartbeats 8000000 in
/-- Plane 1: the column pixel vector is the pixel coordinates of column 0 of the clipped coordinates (the buffers between
    replaced each by its operation's value). -/
theorem pixX1 (V : Valuation τ sig (Elt F)) :
    after kops V (Proc.devRef .tc main_v13)
      = pixVec (colVec0 (after kops V (Proc.devRef .tc main_v0))) := by
  try rw [after_v13]
  try rw [after_call1_v4]
  try rw [after_call1_v3]
  try rw [after_call1_v2]
  try rw [after_call1_v1]
  try rw [after_call1_v0]
  try rw [after_cst_6]
  try rw [after_cst_5]
  try rw [after_v12]
  try rw [after_v11]
  try rw [after_cst_4]
  try rw [after_v10]
  try rw [after_v9]
  try rw [after_cst_3]
  try rw [after_v8]
  try rw [after_v7]
  try rw [after_cst_2]
  try rw [after_v6]
  try rw [after_v5]
  try rw [after_cst_1]
  try rw [after_v4]
  try rw [after_v3]
  try rw [after_v2]
  try rw [after_v1]
  rfl

set_option maxHeartbeats 8000000 in
/-- Plane 1: the row pixel vector is the pixel coordinates of column 1 of the clipped coordinates. -/
theorem pixY1 (V : Valuation τ sig (Elt F)) :
    after kops V (Proc.devRef .tc main_v22)
      = pixVec (colVec1 (after kops V (Proc.devRef .tc main_v0))) := by
  try rw [after_v22]
  try rw [after_call2_v4]
  try rw [after_call2_v3]
  try rw [after_call2_v2]
  try rw [after_call2_v1]
  try rw [after_call2_v0]
  try rw [after_cst_12]
  try rw [after_cst_11]
  try rw [after_v21]
  try rw [after_v20]
  try rw [after_cst_10]
  try rw [after_v19]
  try rw [after_v18]
  try rw [after_cst_9]
  try rw [after_v17]
  try rw [after_v16]
  try rw [after_cst_8]
  try rw [after_v15]
  try rw [after_v14]
  try rw [after_cst_7]
  try rw [after_v13]
  try rw [after_call1_v4]
  try rw [after_call1_v3]
  try rw [after_call1_v2]
  try rw [after_call1_v1]
  try rw [after_call1_v0]
  try rw [after_cst_6]
  try rw [after_cst_5]
  try rw [after_v12]
  try rw [after_v11]
  try rw [after_cst_4]
  try rw [after_v10]
  try rw [after_v9]
  try rw [after_cst_3]
  try rw [after_v8]
  try rw [after_v7]
  try rw [after_cst_2]
  try rw [after_v6]
  try rw [after_v5]
  try rw [after_cst_1]
  try rw [after_v4]
  try rw [after_v3]
  try rw [after_v2]
  try rw [after_v1]
  rfl

set_option maxHeartbeats 8000000 in
/-- Plane 1: the N × 4 array of flat row numbers is the four corners' of the two pixel vectors. -/
theorem idx1 (V : Valuation τ sig (Elt F)) :
    after kops V (Proc.devRef .tc main_v52)
      = cornerIdx (after kops V (Proc.devRef .tc main_v13)) (after kops V (Proc.devRef .tc main_v22)) := by
  try rw [after_v52]
  try rw [after_v51]
  try rw [after_v50]
  try rw [after_v49]
  try rw [after_v48]
  try rw [after_v47]
  try rw [after_v46]
  try rw [after_v45]
  try rw [after_c_19]
  try rw [after_v44]
  try rw [after_v43]
  try rw [after_v42]
  try rw [after_c_18]
  try rw [after_v41]
  try rw [after_v40]
  try rw [after_v39]
  try rw [after_c_17]
  try rw [after_v38]
  try rw [after_v37]
  try rw [after_v36]
  try rw [after_c_16]
  try rw [after_v35]
  try rw [after_v34]
  try rw [after_v33]
  try rw [after_c_15]
  try rw [after_v32]
  try rw [after_v31]
  try rw [after_c_14]
  try rw [after_v30]
  try rw [after_v29]
  try rw [after_c_13]
  try rw [after_v28]
  try rw [after_v27]
  try rw [after_c]
  try rw [after_v26]
  try rw [after_v25]
  try rw [after_v24]
  try rw [after_v23]
  rfl

set_option maxHeartbeats 8000000 in
/-- Plane 1: the N × 4 × 8 array of corner rows is the plane's rows taken at the flat row numbers (the plane
    flattened to rows of 8 features first). -/
theorem rows1 (V : Valuation τ sig (Elt F)) :
    after kops V (Proc.devRef .tc main_v53)
      = takeRows (after kops V (Proc.devRef .tc main_arg1)) (after kops V (Proc.devRef .tc main_v52)) := by
  try rw [after_v53]
  try rw [after_call3_v15]
  try rw [after_call3_cst]
  try rw [after_call3_v14]
  try rw [after_call3_v13]
  try rw [after_call3_v12]
  try rw [after_call3_c_3]
  try rw [after_call3_v11]
  try rw [after_call3_v10]
  try rw [after_call3_v9]
  try rw [after_call3_v8]
  try rw [after_call3_v7]
  try rw [after_call3_v6]
  try rw [after_call3_c_2]
  try rw [after_call3_c_1]
  try rw [after_call3_v5]
  try rw [after_call3_v4]
  try rw [after_call3_v3]
  try rw [after_call3_v2]
  try rw [after_call3_c_0]
  try rw [after_call3_v1]
  try rw [after_call3_v0]
  try rw [after_call3_c]
  try rw [after_v35]
  rfl

/-- Plane 1: the staged corner array holds, after the host line, the four corner rows of the plane's array at the cells
    of the pixel coordinates of columns 0 and 1 of the clipped coordinates: the four stages composed, the rows laid
    side by side in 32 lanes (a reshape of the N × 4 × 8 array of corner rows). -/
theorem fold_corners1 (V : Valuation τ sig (Elt F)) :
    after kops V (Proc.devRef .tc main_v54)
      = cornersK (after kops V (Proc.devRef .tc main_arg1)) (pixVec (colVec0 (after kops V (Proc.devRef .tc main_v0))))
          (pixVec (colVec1 (after kops V (Proc.devRef .tc main_v0)))) := by
  rw [show after kops V (Proc.devRef .tc main_v54) = shapeCast S4000000x32 (after kops V (Proc.devRef .tc main_v53)) shapeCasts_S4000000x4x8_S4000000x32 from
      good.at_reshape (x := main_v53) (y := main_v54) rfl (by decide) (by decide) V, rows1, idx1, pixX1, pixY1]
  rfl

end Cert.KernelIdeal.Fold

end
-- ==== Proof.KEqs2.lean ====
/- The kernel program's host line read one operation at a time, stretches 8 … 11 (HBM buffers 119 … 163): for each
   operation, the buffer it writes holds, after the WHOLE line, the operation's function of what its operand buffers hold
   after the whole line — every value is defined once, before its uses, so nothing later in the line touches either
   side. One equation per operation, named after the buffer; a call's operations are read over the call's buffers, where
   a value moved through a typed reference is the value. -/
import proofs.«114771_j71983651881269_2_alg».proof.Proof.KOpsGood

set_option maxRecDepth 16384

noncomputable section

namespace Cert.KernelIdeal.HostRun

open Cert.KernelIdeal Cert.KernelIdeal.Gen Idealize.ShloMosaic Idealize.ShloMosaic.TcCoe Idealize.SL.Sem Idealize.ShloMosaic.StableHlo

variable {F : FTy → Type} [FloatOps F]

-- the equations are between folds, reductions and gathers as wholes: none of the three is opened here
attribute [local irreducible] Idealize.ShloMosaic.StableHlo.after Idealize.ShloMosaic.Host.reduce Idealize.ShloMosaic.Host.gather

theorem after_v54 (V : Valuation τ sig (Elt F)) :
    after kops V (Proc.devRef .tc main_v54)
      = (shapeCast S4000000x32 (after kops V (Proc.devRef .tc main_v53)) shapeCasts_S4000000x4x8_S4000000x32 : (⟨S4000000x32, .f32⟩ : BufTy).Contents (Elt F)) :=
  good.at_reshape (x := main_v53) (y := main_v54) rfl (by decide) (by decide) V

theorem after_v55 (V : Valuation τ sig (Elt F)) :
    after kops V (Proc.devRef .tc main_v55)
      = (((extractStridedSlice S4000000x1 ![0, 0] · slices_S4000000x3_S4000000x1_0_0) : (⟨S4000000x3, .f32⟩ : BufTy).Contents (Elt F) → (⟨S4000000x1, .f32⟩ : BufTy).Contents (Elt F)) : (⟨S4000000x3, .f32⟩ : BufTy).Contents (Elt F) → (⟨S4000000x1, .f32⟩ : BufTy).Contents (Elt F))
        (after kops V (Proc.devRef .tc main_v0)) :=
  good.at_unary (x := main_v0) (y := main_v55) rfl (by decide) (by decide) V

theorem after_v56 (V : Valuation τ sig (Elt F)) :
    after kops V (Proc.devRef .tc main_v56)
      = (shapeCast S4000000 (after kops V (Proc.devRef .tc main_v55)) shapeCasts_S4000000x1_S4000000 : (⟨S4000000, .f32⟩ : BufTy).Contents (Elt F)) :=
  good.at_reshape (x := main_v55) (y := main_v56) rfl (by decide) (by decide) V

theorem after_v57 (V : Valuation τ sig (Elt F)) :
    after kops V (Proc.devRef .tc main_v57)
      = (((extractStridedSlice S4000000x1 ![0, 2] · slices_S4000000x3_S4000000x1_0_2) : (⟨S4000000x3, .f32⟩ : BufTy).Contents (Elt F) → (⟨S4000000x1, .f32⟩ : BufTy).Contents (Elt F)) : (⟨S4000000x3, .f32⟩ : BufTy).Contents (Elt F) → (⟨S4000000x1, .f32⟩ : BufTy).Contents (Elt F))
        (after kops V (Proc.devRef .tc main_v0)) :=
  good.at_unary (x := main_v0) (y := main_v57) rfl (by decide) (by decide) V

theorem after_v58 (V : Valuation τ sig (Elt F)) :
    after kops V (Proc.devRef .tc main_v58)
      = (shapeCast S4000000 (after kops V (Proc.devRef .tc main_v57)) shapeCasts_S4000000x1_S4000000 : (⟨S4000000, .f32⟩ : BufTy).Contents (Elt F)) :=
  good.at_reshape (x := main_v57) (y := main_v58) rfl (by decide) (by decide) V

theorem after_cst_20 (V : Valuation τ sig (Elt F)) :
    after kops V (Proc.devRef .tc main_cst_20)
      = ((constant S_ .f32 0x3F800000#32) : (⟨S_, .f32⟩ : BufTy).Contents (Elt F)) :=
  good.at_nullary (y := main_cst_20) rfl (by decide) V

theorem after_v59 (V : Valuation τ sig (Elt F)) :
    after kops V (Proc.devRef .tc main_v59)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_20)) :=
  good.at_unary (x := main_cst_20) (y := main_v59) rfl (by decide) (by decide) V

theorem after_v60 (V : Valuation τ sig (Elt F)) :
    after kops V (Proc.devRef .tc main_v60)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v56)) (after kops V (Proc.devRef .tc main_v59)) :=
  good.at_binary (a := main_v56) (b := main_v59) (y := main_v60) rfl (by decide) (by decide) (by decide) V

theorem after_cst_21 (V : Valuation τ sig (Elt F)) :
    after kops V (Proc.devRef .tc main_cst_21)
      = ((constant S_ .f32 0x44000000#32) : (⟨S_, .f32⟩ : BufTy).Contents (Elt F)) :=
  good.at_nullary (y := main_cst_21) rfl (by decide) V

theorem after_v61 (V : Valuation τ sig (Elt F)) :
    after kops V (Proc.devRef .tc main_v61)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_21)) :=
  good.at_unary (x := main_cst_21) (y := main_v61) rfl (by decide) (by decide) V

theorem after_v62 (V : Valuation τ sig (Elt F)) :
    after kops V (Proc.devRef .tc main_v62)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v60)) (after kops V (Proc.devRef .tc main_v61)) :=
  good.at_binary (a := main_v60) (b := main_v61) (y := main_v62) rfl (by decide) (by decide) (by decide) V

theorem after_cst_22 (V : Valuation τ sig (Elt F)) :
    after kops V (Proc.devRef .tc main_cst_22)
      = ((constant S_ .f32 0x3F800000#32) : (⟨S_, .f32⟩ : BufTy).Contents (Elt F)) :=
  good.at_nullary (y := main_cst_22) rfl (by decide) V

theorem after_v63 (V : Valuation τ sig (Elt F)) :
    after kops V (Proc.devRef .tc main_v63)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_22)) :=
  good.at_unary (x := main_cst_22) (y := main_v63) rfl (by decide) (by decide) V

theorem after_v64 (V : Valuation τ sig (Elt F)) :
    after kops V (Proc.devRef .tc main_v64)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v62)) (after kops V (Proc.devRef .tc main_v63)) :=
  good.at_binary (a := main_v62) (b := main_v63) (y := main_v64) rfl (by decide) (by decide) (by decide) V

theorem after_cst_23 (V : Valuation τ sig (Elt F)) :
    after kops V (Proc.devRef .tc main_cst_23)
      = ((constant S_ .f32 0x3F000000#32) : (⟨S_, .f32⟩ : BufTy).Contents (Elt F)) :=
  good.at_nullary (y := main_cst_23) rfl (by decide) V

theorem after_v65 (V : Valuation τ sig (Elt F)) :
    after kops V (Proc.devRef .tc main_v65)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_23)) :=
  good.at_unary (x := main_cst_23) (y := main_v65) rfl (by decide) (by decide) V

theorem after_v66 (V : Valuation τ sig (Elt F)) :
    after kops V (Proc.devRef .tc main_v66)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v64)) (after kops V (Proc.devRef .tc main_v65)) :=
  good.at_binary (a := main_v64) (b := main_v65) (y := main_v66) rfl (by decide) (by decide) (by decide) V

theorem after_cst_24 (V : Valuation τ sig (Elt F)) :
    after kops V (Proc.devRef .tc main_cst_24)
      = ((constant S_ .f32 0x00000000#32) : (⟨S_, .f32⟩ : BufTy).Contents (Elt F)) :=
  good.at_nullary (y := main_cst_24) rfl (by decide) V

theorem after_cst_25 (V : Valuation τ sig (Elt F)) :
    after kops V (Proc.devRef .tc main_cst_25)
      = ((constant S_ .f32 0x43FF8000#32) : (⟨S_, .f32⟩ : BufTy).Contents (Elt F)) :=
  good.at_nullary (y := main_cst_25) rfl (by decide) V

theorem after_call4_v0 (V : Valuation τ sig (Elt F)) :
    after kops V (Proc.devRef .tc main_call4_v0)
      = (id : (⟨S_, .f32⟩ : BufTy).Contents (Elt F) → (⟨S_, .f32⟩ : BufTy).Contents (Elt F))
        (after kops V (Proc.devRef .tc main_cst_24)) :=
  good.at_unary (x := main_cst_24) (y := main_call4_v0) rfl (by decide) (by decide) V

theorem after_call4_v1 (V : Valuation τ sig (Elt F)) :
    after kops V (Proc.devRef .tc main_call4_v1)
      = ((broadcastInDim S4000000 ![] bcast_S_S4000000) : (⟨S_, .f32⟩ : BufTy).Contents (Elt F) → (⟨S4000000, .f32⟩ : BufTy).Contents (Elt F))
        (after kops V (Proc.devRef .tc main_call4_v0)) :=
  good.at_unary (x := main_call4_v0) (y := main_call4_v1) rfl (by decide) (by decide) V

theorem after_call4_v2 (V : Valuation τ sig (Elt F)) :
    after kops V (Proc.devRef .tc main_call4_v2)
      = (maximumf : (⟨S4000000, .f32⟩ : BufTy).Contents (Elt F) → (⟨S4000000, .f32⟩ : BufTy).Contents (Elt F) → (⟨S4000000, .f32⟩ : BufTy).Contents (Elt F))
        (after kops V (Proc.devRef .tc main_call4_v1)) (after kops V (Proc.devRef .tc main_v66)) :=
  good.at_binary (a := main_call4_v1) (b := main_v66) (y := main_call4_v2) rfl (by decide) (by decide) (by decide) V

theorem after_call4_v3 (V : Valuation τ sig (Elt F)) :
    after kops V (Proc.devRef .tc main_call4_v3)
      = (id : (⟨S_, .f32⟩ : BufTy).Contents (Elt F) → (⟨S_, .f32⟩ : BufTy).Contents (Elt F))
        (after kops V (Proc.devRef .tc main_cst_25)) :=
  good.at_unary (x := main_cst_25) (y := main_call4_v3) rfl (by decide) (by decide) V

theorem after_call4_v4 (V : Valuation τ sig (Elt F)) :
    after kops V (Proc.devRef .tc main_call4_v4)
      = ((broadcastInDim S4000000 ![] bcast_S_S4000000) : (⟨S_, .f32⟩ : BufTy).Contents (Elt F) → (⟨S4000000, .f32⟩ : BufTy).Contents (Elt F))
        (after kops V (Proc.devRef .tc main_call4_v3)) :=
  good.at_unary (x := main_call4_v3) (y := main_call4_v4) rfl (by decide) (by decide) V

theorem after_v67 (V : Valuation τ sig (Elt F)) :
    after kops V (Proc.devRef .tc main_v67)
      = (minimumf : (⟨S4000000, .f32⟩ : BufTy).Contents (Elt F) → (⟨S4000000, .f32⟩ : BufTy).Contents (Elt F) → (⟨S4000000, .f32⟩ : BufTy).Contents (Elt F))
        (after kops V (Proc.devRef .tc main_call4_v4)) (after kops V (Proc.devRef .tc main_call4_v2)) :=
  good.at_binary (a := main_call4_v4) (b := main_call4_v2) (y := main_v67) rfl (by decide) (by decide) (by decide) V

theorem after_cst_26 (V : Valuation τ sig (Elt F)) :
    after kops V (Proc.devRef .tc main_cst_26)
      = ((constant S_ .f32 0x3F800000#32) : (⟨S_, .f32⟩ : BufTy).Contents (Elt F)) :=
  good.at_nullary (y := main_cst_26) rfl (by decide) V

theorem after_v68 (V : Valuation τ sig (Elt F)) :
    after kops V (Proc.devRef .tc main_v68)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_26)) :=
  good.at_unary (x := main_cst_26) (y := main_v68) rfl (by decide) (by decide) V

theorem after_v69 (V : Valuation τ sig (Elt F)) :
    after kops V (Proc.devRef .tc main_v69)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v58)) (after kops V (Proc.devRef .tc main_v68)) :=
  good.at_binary (a := main_v58) (b := main_v68) (y := main_v69) rfl (by decide) (by decide) (by decide) V

theorem after_cst_27 (V : Valuation τ sig (Elt F)) :
    after kops V (Proc.devRef .tc main_cst_27)
      = ((constant S_ .f32 0x44000000#32) : (⟨S_, .f32⟩ : BufTy).Contents (Elt F)) :=
  good.at_nullary (y := main_cst_27) rfl (by decide) V

theorem after_v70 (V : Valuation τ sig (Elt F)) :
    after kops V (Proc.devRef .tc main_v70)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_27)) :=
  good.at_unary (x := main_cst_27) (y := main_v70) rfl (by decide) (by decide) V

theorem after_v71 (V : Valuation τ sig (Elt F)) :
    after kops V (Proc.devRef .tc main_v71)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v69)) (after kops V (Proc.devRef .tc main_v70)) :=
  good.at_binary (a := main_v69) (b := main_v70) (y := main_v71) rfl (by decide) (by decide) (by decide) V

theorem after_cst_28 (V : Valuation τ sig (Elt F)) :
    after kops V (Proc.devRef .tc main_cst_28)
      = ((constant S_ .f32 0x3F800000#32) : (⟨S_, .f32⟩ : BufTy).Contents (Elt F)) :=
  good.at_nullary (y := main_cst_28) rfl (by decide) V

theorem after_v72 (V : Valuation τ sig (Elt F)) :
    after kops V (Proc.devRef .tc main_v72)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_28)) :=
  good.at_unary (x := main_cst_28) (y := main_v72) rfl (by decide) (by decide) V

theorem after_v73 (V : Valuation τ sig (Elt F)) :
    after kops V (Proc.devRef .tc main_v73)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v71)) (after kops V (Proc.devRef .tc main_v72)) :=
  good.at_binary (a := main_v71) (b := main_v72) (y := main_v73) rfl (by decide) (by decide) (by decide) V

theorem after_cst_29 (V : Valuation τ sig (Elt F)) :
    after kops V (Proc.devRef .tc main_cst_29)
      = ((constant S_ .f32 0x3F000000#32) : (⟨S_, .f32⟩ : BufTy).Contents (Elt F)) :=
  good.at_nullary (y := main_cst_29) rfl (by decide) V

theorem after_v74 (V : Valuation τ sig (Elt F)) :
    after kops V (Proc.devRef .tc main_v74)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_29)) :=
  good.at_unary (x := main_cst_29) (y := main_v74) rfl (by decide) (by decide) V

theorem after_v75 (V : Valuation τ sig (Elt F)) :
    after kops V (Proc.devRef .tc main_v75)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v73)) (after kops V (Proc.devRef .tc main_v74)) :=
  good.at_binary (a := main_v73) (b := main_v74) (y := main_v75) rfl (by decide) (by decide) (by decide) V

theorem after_cst_30 (V : Valuation τ sig (Elt F)) :
    after kops V (Proc.devRef .tc main_cst_30)
      = ((constant S_ .f32 0x00000000#32) : (⟨S_, .f32⟩ : BufTy).Contents (Elt F)) :=
  good.at_nullary (y := main_cst_30) rfl (by decide) V

theorem after_cst_31 (V : Valuation τ sig (Elt F)) :
    after kops V (Proc.devRef .tc main_cst_31)
      = ((constant S_ .f32 0x43FF8000#32) : (⟨S_, .f32⟩ : BufTy).Contents (Elt F)) :=
  good.at_nullary (y := main_cst_31) rfl (by decide) V

theorem after_call5_v0 (V : Valuation τ sig (Elt F)) :
    after kops V (Proc.devRef .tc main_call5_v0)
      = (id : (⟨S_, .f32⟩ : BufTy).Contents (Elt F) → (⟨S_, .f32⟩ : BufTy).Contents (Elt F))
        (after kops V (Proc.devRef .tc main_cst_30)) :=
  good.at_unary (x := main_cst_30) (y := main_call5_v0) rfl (by decide) (by decide) V

theorem after_call5_v1 (V : Valuation τ sig (Elt F)) :
    after kops V (Proc.devRef .tc main_call5_v1)
      = ((broadcastInDim S4000000 ![] bcast_S_S4000000) : (⟨S_, .f32⟩ : BufTy).Contents (Elt F) → (⟨S4000000, .f32⟩ : BufTy).Contents (Elt F))
        (after kops V (Proc.devRef .tc main_call5_v0)) :=
  good.at_unary (x := main_call5_v0) (y := main_call5_v1) rfl (by decide) (by decide) V

theorem after_call5_v2 (V : Valuation τ sig (Elt F)) :
    after kops V (Proc.devRef .tc main_call5_v2)
      = (maximumf : (⟨S4000000, .f32⟩ : BufTy).Contents (Elt F) → (⟨S4000000, .f32⟩ : BufTy).Contents (Elt F) → (⟨S4000000, .f32⟩ : BufTy).Contents (Elt F))
        (after kops V (Proc.devRef .tc main_call5_v1)) (after kops V (Proc.devRef .tc main_v75)) :=
  good.at_binary (a := main_call5_v1) (b := main_v75) (y := main_call5_v2) rfl (by decide) (by decide) (by decide) V

theorem after_call5_v3 (V : Valuation τ sig (Elt F)) :
    after kops V (Proc.devRef .tc main_call5_v3)
      = (id : (⟨S_, .f32⟩ : BufTy).Contents (Elt F) → (⟨S_, .f32⟩ : BufTy).Contents (Elt F))
        (after kops V (Proc.devRef .tc main_cst_31)) :=
  good.at_unary (x := main_cst_31) (y := main_call5_v3) rfl (by decide) (by decide) V

theorem after_call5_v4 (V : Valuation τ sig (Elt F)) :
    after kops V (Proc.devRef .tc main_call5_v4)
      = ((broadcastInDim S4000000 ![] bcast_S_S4000000) : (⟨S_, .f32⟩ : BufTy).Contents (Elt F) → (⟨S4000000, .f32⟩ : BufTy).Contents (Elt F))
        (after kops V (Proc.devRef .tc main_call5_v3)) :=
  good.at_unary (x := main_call5_v3) (y := main_call5_v4) rfl (by decide) (by decide) V

theorem after_v76 (V : Valuation τ sig (Elt F)) :
    after kops V (Proc.devRef .tc main_v76)
      = (minimumf : (⟨S4000000, .f32⟩ : BufTy).Contents (Elt F) → (⟨S4000000, .f32⟩ : BufTy).Contents (Elt F) → (⟨S4000000, .f32⟩ : BufTy).Contents (Elt F))
        (after kops V (Proc.devRef .tc main_call5_v4)) (after kops V (Proc.devRef .tc main_call5_v2)) :=
  good.at_binary (a := main_call5_v4) (b := main_call5_v2) (y := main_v76) rfl (by decide) (by decide) (by decide) V

end Cert.KernelIdeal.HostRun

end
-- ==== Proof.KEqs3.lean ====
/- The kernel program's host line read one operation at a time, stretches 12 … 13 (HBM buffers 164 … 224): for each
   operation, the buffer it writes holds, after the WHOLE line, the operation's function of what its operand buffers hold
   after the whole line — every value is defined once, before its uses, so nothing later in the line touches either
   side. One equation per operation, named after the buffer; a call's operations are read over the call's buffers, where
   a value moved through a typed reference is the value. -/
import proofs.«114771_j71983651881269_2_alg».proof.Proof.KOpsGood

set_option maxRecDepth 16384

noncomputable section

namespace Cert.KernelIdeal.HostRun

open Cert.KernelIdeal Cert.KernelIdeal.Gen Idealize.ShloMosaic Idealize.ShloMosaic.TcCoe Idealize.SL.Sem Idealize.ShloMosaic.StableHlo

variable {F : FTy → Type} [FloatOps F]

-- the equations are between folds, reductions and gathers as wholes: none of the three is opened here
attribute [local irreducible] Idealize.ShloMosaic.StableHlo.after Idealize.ShloMosaic.Host.reduce Idealize.ShloMosaic.Host.gather

theorem after_v77 (V : Valuation τ sig (Elt F)) :
    after kops V (Proc.devRef .tc main_v77)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after kops V (Proc.devRef .tc main_v67)) :=
  good.at_unary (x := main_v67) (y := main_v77) rfl (by decide) (by decide) V

theorem after_v78 (V : Valuation τ sig (Elt F)) :
    after kops V (Proc.devRef .tc main_v78)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after kops V (Proc.devRef .tc main_v77)) :=
  good.at_unary (x := main_v77) (y := main_v78) rfl (by decide) (by decide) V

theorem after_v79 (V : Valuation τ sig (Elt F)) :
    after kops V (Proc.devRef .tc main_v79)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after kops V (Proc.devRef .tc main_v76)) :=
  good.at_unary (x := main_v76) (y := main_v79) rfl (by decide) (by decide) V

theorem after_v80 (V : Valuation τ sig (Elt F)) :
    after kops V (Proc.devRef .tc main_v80)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after kops V (Proc.devRef .tc main_v79)) :=
  good.at_unary (x := main_v79) (y := main_v80) rfl (by decide) (by decide) V

theorem after_c_32 (V : Valuation τ sig (Elt F)) :
    after kops V (Proc.devRef .tc main_c_32)
      = ((constantI S_ 32 1#32) : (⟨S_, .i32⟩ : BufTy).Contents (Elt F)) :=
  good.at_nullary (y := main_c_32) rfl (by decide) V

theorem after_v81 (V : Valuation τ sig (Elt F)) :
    after kops V (Proc.devRef .tc main_v81)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_32)) :=
  good.at_unary (x := main_c_32) (y := main_v81) rfl (by decide) (by decide) V

theorem after_v82 (V : Valuation τ sig (Elt F)) :
    after kops V (Proc.devRef .tc main_v82)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v78)) (after kops V (Proc.devRef .tc main_v81)) :=
  good.at_binary (a := main_v78) (b := main_v81) (y := main_v82) rfl (by decide) (by decide) (by decide) V

theorem after_c_33 (V : Valuation τ sig (Elt F)) :
    after kops V (Proc.devRef .tc main_c_33)
      = ((constantI S_ 32 511#32) : (⟨S_, .i32⟩ : BufTy).Contents (Elt F)) :=
  good.at_nullary (y := main_c_33) rfl (by decide) V

theorem after_v83 (V : Valuation τ sig (Elt F)) :
    after kops V (Proc.devRef .tc main_v83)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_33)) :=
  good.at_unary (x := main_c_33) (y := main_v83) rfl (by decide) (by decide) V

theorem after_v84 (V : Valuation τ sig (Elt F)) :
    after kops V (Proc.devRef .tc main_v84)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v82)) (after kops V (Proc.devRef .tc main_v83)) :=
  good.at_binary (a := main_v82) (b := main_v83) (y := main_v84) rfl (by decide) (by decide) (by decide) V

theorem after_c_34 (V : Valuation τ sig (Elt F)) :
    after kops V (Proc.devRef .tc main_c_34)
      = ((constantI S_ 32 1#32) : (⟨S_, .i32⟩ : BufTy).Contents (Elt F)) :=
  good.at_nullary (y := main_c_34) rfl (by decide) V

theorem after_v85 (V : Valuation τ sig (Elt F)) :
    after kops V (Proc.devRef .tc main_v85)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_34)) :=
  good.at_unary (x := main_c_34) (y := main_v85) rfl (by decide) (by decide) V

theorem after_v86 (V : Valuation τ sig (Elt F)) :
    after kops V (Proc.devRef .tc main_v86)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v80)) (after kops V (Proc.devRef .tc main_v85)) :=
  good.at_binary (a := main_v80) (b := main_v85) (y := main_v86) rfl (by decide) (by decide) (by decide) V

theorem after_c_35 (V : Valuation τ sig (Elt F)) :
    after kops V (Proc.devRef .tc main_c_35)
      = ((constantI S_ 32 511#32) : (⟨S_, .i32⟩ : BufTy).Contents (Elt F)) :=
  good.at_nullary (y := main_c_35) rfl (by decide) V

theorem after_v87 (V : Valuation τ sig (Elt F)) :
    after kops V (Proc.devRef .tc main_v87)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_35)) :=
  good.at_unary (x := main_c_35) (y := main_v87) rfl (by decide) (by decide) V

theorem after_v88 (V : Valuation τ sig (Elt F)) :
    after kops V (Proc.devRef .tc main_v88)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v86)) (after kops V (Proc.devRef .tc main_v87)) :=
  good.at_binary (a := main_v86) (b := main_v87) (y := main_v88) rfl (by decide) (by decide) (by decide) V

theorem after_v89 (V : Valuation τ sig (Elt F)) :
    after kops V (Proc.devRef .tc main_v89)
      = (shapeCast S262144x8 (after kops V (Proc.devRef .tc main_arg2)) shapeCasts_S512x512x8_S262144x8 : (⟨S262144x8, .f32⟩ : BufTy).Contents (Elt F)) :=
  good.at_reshape (x := main_arg2) (y := main_v89) rfl (by decide) (by decide) V

theorem after_c_36 (V : Valuation τ sig (Elt F)) :
    after kops V (Proc.devRef .tc main_c_36)
      = ((constantI S_ 32 512#32) : (⟨S_, .i32⟩ : BufTy).Contents (Elt F)) :=
  good.at_nullary (y := main_c_36) rfl (by decide) V

theorem after_v90 (V : Valuation τ sig (Elt F)) :
    after kops V (Proc.devRef .tc main_v90)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_36)) :=
  good.at_unary (x := main_c_36) (y := main_v90) rfl (by decide) (by decide) V

theorem after_v91 (V : Valuation τ sig (Elt F)) :
    after kops V (Proc.devRef .tc main_v91)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v80)) (after kops V (Proc.devRef .tc main_v90)) :=
  good.at_binary (a := main_v80) (b := main_v90) (y := main_v91) rfl (by decide) (by decide) (by decide) V

theorem after_v92 (V : Valuation τ sig (Elt F)) :
    after kops V (Proc.devRef .tc main_v92)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v91)) (after kops V (Proc.devRef .tc main_v78)) :=
  good.at_binary (a := main_v91) (b := main_v78) (y := main_v92) rfl (by decide) (by decide) (by decide) V

theorem after_c_37 (V : Valuation τ sig (Elt F)) :
    after kops V (Proc.devRef .tc main_c_37)
      = ((constantI S_ 32 512#32) : (⟨S_, .i32⟩ : BufTy).Contents (Elt F)) :=
  good.at_nullary (y := main_c_37) rfl (by decide) V

theorem after_v93 (V : Valuation τ sig (Elt F)) :
    after kops V (Proc.devRef .tc main_v93)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_37)) :=
  good.at_unary (x := main_c_37) (y := main_v93) rfl (by decide) (by decide) V

theorem after_v94 (V : Valuation τ sig (Elt F)) :
    after kops V (Proc.devRef .tc main_v94)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v80)) (after kops V (Proc.devRef .tc main_v93)) :=
  good.at_binary (a := main_v80) (b := main_v93) (y := main_v94) rfl (by decide) (by decide) (by decide) V

theorem after_v95 (V : Valuation τ sig (Elt F)) :
    after kops V (Proc.devRef .tc main_v95)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v94)) (after kops V (Proc.devRef .tc main_v84)) :=
  good.at_binary (a := main_v94) (b := main_v84) (y := main_v95) rfl (by decide) (by decide) (by decide) V

theorem after_c_38 (V : Valuation τ sig (Elt F)) :
    after kops V (Proc.devRef .tc main_c_38)
      = ((constantI S_ 32 512#32) : (⟨S_, .i32⟩ : BufTy).Contents (Elt F)) :=
  good.at_nullary (y := main_c_38) rfl (by decide) V

theorem after_v96 (V : Valuation τ sig (Elt F)) :
    after kops V (Proc.devRef .tc main_v96)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_38)) :=
  good.at_unary (x := main_c_38) (y := main_v96) rfl (by decide) (by decide) V

theorem after_v97 (V : Valuation τ sig (Elt F)) :
    after kops V (Proc.devRef .tc main_v97)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v88)) (after kops V (Proc.devRef .tc main_v96)) :=
  good.at_binary (a := main_v88) (b := main_v96) (y := main_v97) rfl (by decide) (by decide) (by decide) V

theorem after_v98 (V : Valuation τ sig (Elt F)) :
    after kops V (Proc.devRef .tc main_v98)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v97)) (after kops V (Proc.devRef .tc main_v78)) :=
  good.at_binary (a := main_v97) (b := main_v78) (y := main_v98) rfl (by decide) (by decide) (by decide) V

theorem after_c_39 (V : Valuation τ sig (Elt F)) :
    after kops V (Proc.devRef .tc main_c_39)
      = ((constantI S_ 32 512#32) : (⟨S_, .i32⟩ : BufTy).Contents (Elt F)) :=
  good.at_nullary (y := main_c_39) rfl (by decide) V

theorem after_v99 (V : Valuation τ sig (Elt F)) :
    after kops V (Proc.devRef .tc main_v99)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_39)) :=
  good.at_unary (x := main_c_39) (y := main_v99) rfl (by decide) (by decide) V

theorem after_v100 (V : Valuation τ sig (Elt F)) :
    after kops V (Proc.devRef .tc main_v100)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v88)) (after kops V (Proc.devRef .tc main_v99)) :=
  good.at_binary (a := main_v88) (b := main_v99) (y := main_v100) rfl (by decide) (by decide) (by decide) V

theorem after_v101 (V : Valuation τ sig (Elt F)) :
    after kops V (Proc.devRef .tc main_v101)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v100)) (after kops V (Proc.devRef .tc main_v84)) :=
  good.at_binary (a := main_v100) (b := main_v84) (y := main_v101) rfl (by decide) (by decide) (by decide) V

theorem after_v102 (V : Valuation τ sig (Elt F)) :
    after kops V (Proc.devRef .tc main_v102)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v92)) :=
  good.at_unary (x := main_v92) (y := main_v102) rfl (by decide) (by decide) V

theorem after_v103 (V : Valuation τ sig (Elt F)) :
    after kops V (Proc.devRef .tc main_v103)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v95)) :=
  good.at_unary (x := main_v95) (y := main_v103) rfl (by decide) (by decide) V

theorem after_v104 (V : Valuation τ sig (Elt F)) :
    after kops V (Proc.devRef .tc main_v104)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v98)) :=
  good.at_unary (x := main_v98) (y := main_v104) rfl (by decide) (by decide) V

theorem after_v105 (V : Valuation τ sig (Elt F)) :
    after kops V (Proc.devRef .tc main_v105)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v101)) :=
  good.at_unary (x := main_v101) (y := main_v105) rfl (by decide) (by decide) V

theorem after_v106 (V : Valuation τ sig (Elt F)) :
    after kops V (Proc.devRef .tc main_v106)
      = (concatenate S4000000x4 1 [⟨S4000000x1, after kops V (Proc.devRef .tc main_v102)⟩, ⟨S4000000x1, after kops V (Proc.devRef .tc main_v103)⟩, ⟨S4000000x1, after kops V (Proc.devRef .tc main_v104)⟩, ⟨S4000000x1, after kops V (Proc.devRef .tc main_v105)⟩] concatenates_S4000000x1_S4000000x1_S4000000x1_S4000000x1_S4000000x4_d1 : (⟨S4000000x4, .i32⟩ : BufTy).Contents (Elt F)) :=
  good.at_nary (xs := ![main_v102, main_v103, main_v104, main_v105]) (y := main_v106) rfl (by decide) (by decide) V

theorem after_call6_c (V : Valuation τ sig (Elt F)) :
    after kops V (Proc.devRef .tc main_call6_c)
      = ((constantI S_ 32 0#32) : (⟨S_, .i32⟩ : BufTy).Contents (Elt F)) :=
  good.at_nullary (y := main_call6_c) rfl (by decide) V

theorem after_call6_v0 (V : Valuation τ sig (Elt F)) :
    after kops V (Proc.devRef .tc main_call6_v0)
      = ((broadcastInDim S4000000x4 ![] bcast_S_S4000000x4) : (⟨S_, .i32⟩ : BufTy).Contents (Elt F) → (⟨S4000000x4, .i32⟩ : BufTy).Contents (Elt F))
        (after kops V (Proc.devRef .tc main_call6_c)) :=
  good.at_unary (x := main_call6_c) (y := main_call6_v0) rfl (by decide) (by decide) V

theorem after_call6_v1 (V : Valuation τ sig (Elt F)) :
    after kops V (Proc.devRef .tc main_call6_v1)
      = ((cmpi .slt) : (⟨S4000000x4, .i32⟩ : BufTy).Contents (Elt F) → (⟨S4000000x4, .i32⟩ : BufTy).Contents (Elt F) → (⟨S4000000x4, .i1⟩ : BufTy).Contents (Elt F))
        (after kops V (Proc.devRef .tc main_v106)) (after kops V (Proc.devRef .tc main_call6_v0)) :=
  good.at_binary (a := main_v106) (b := main_call6_v0) (y := main_call6_v1) rfl (by decide) (by decide) (by decide) V

theorem after_call6_c_0 (V : Valuation τ sig (Elt F)) :
    after kops V (Proc.devRef .tc main_call6_c_0)
      = ((constantI S_ 32 262144#32) : (⟨S_, .i32⟩ : BufTy).Contents (Elt F)) :=
  good.at_nullary (y := main_call6_c_0) rfl (by decide) V

theorem after_call6_v2 (V : Valuation τ sig (Elt F)) :
    after kops V (Proc.devRef .tc main_call6_v2)
      = ((broadcastInDim S4000000x4 ![] bcast_S_S4000000x4) : (⟨S_, .i32⟩ : BufTy).Contents (Elt F) → (⟨S4000000x4, .i32⟩ : BufTy).Contents (Elt F))
        (after kops V (Proc.devRef .tc main_call6_c_0)) :=
  good.at_unary (x := main_call6_c_0) (y := main_call6_v2) rfl (by decide) (by decide) V

theorem after_call6_v3 (V : Valuation τ sig (Elt F)) :
    after kops V (Proc.devRef .tc main_call6_v3)
      = (addi : (⟨S4000000x4, .i32⟩ : BufTy).Contents (Elt F) → (⟨S4000000x4, .i32⟩ : BufTy).Contents (Elt F) → (⟨S4000000x4, .i32⟩ : BufTy).Contents (Elt F))
        (after kops V (Proc.devRef .tc main_v106)) (after kops V (Proc.devRef .tc main_call6_v2)) :=
  good.at_binary (a := main_v106) (b := main_call6_v2) (y := main_call6_v3) rfl (by decide) (by decide) (by decide) V

theorem after_call6_v4 (V : Valuation τ sig (Elt F)) :
    after kops V (Proc.devRef .tc main_call6_v4)
      = (select : (⟨S4000000x4, .i1⟩ : BufTy).Contents (Elt F) → (⟨S4000000x4, .i32⟩ : BufTy).Contents (Elt F) → (⟨S4000000x4, .i32⟩ : BufTy).Contents (Elt F) → (⟨S4000000x4, .i32⟩ : BufTy).Contents (Elt F))
        (after kops V (Proc.devRef .tc main_call6_v1)) (after kops V (Proc.devRef .tc main_call6_v3)) (after kops V (Proc.devRef .tc main_v106)) :=
  good.at_ternary (c := main_call6_v1) (a := main_call6_v3) (b := main_v106) (y := main_call6_v4) rfl (by decide) (by decide) (by decide) (by decide) V

theorem after_call6_v5 (V : Valuation τ sig (Elt F)) :
    after kops V (Proc.devRef .tc main_call6_v5)
      = ((broadcastInDim S4000000x4x1 ![0, 1] bcast_S4000000x4_S4000000x4x1_0_1) : (⟨S4000000x4, .i32⟩ : BufTy).Contents (Elt F) → (⟨S4000000x4x1, .i32⟩ : BufTy).Contents (Elt F))
        (after kops V (Proc.devRef .tc main_call6_v4)) :=
  good.at_unary (x := main_call6_v4) (y := main_call6_v5) rfl (by decide) (by decide) V

theorem after_call6_c_1 (V : Valuation τ sig (Elt F)) :
    after kops V (Proc.devRef .tc main_call6_c_1)
      = ((constantI S1 32 262143#32) : (⟨S1, .i32⟩ : BufTy).Contents (Elt F)) :=
  good.at_nullary (y := main_call6_c_1) rfl (by decide) V

theorem after_call6_c_2 (V : Valuation τ sig (Elt F)) :
    after kops V (Proc.devRef .tc main_call6_c_2)
      = ((constantI S_ 32 0#32) : (⟨S_, .i32⟩ : BufTy).Contents (Elt F)) :=
  good.at_nullary (y := main_call6_c_2) rfl (by decide) V

theorem after_call6_v6 (V : Valuation τ sig (Elt F)) :
    after kops V (Proc.devRef .tc main_call6_v6)
      = ((broadcastInDim S4000000x4x1 ![] bcast_S_S4000000x4x1) : (⟨S_, .i32⟩ : BufTy).Contents (Elt F) → (⟨S4000000x4x1, .i32⟩ : BufTy).Contents (Elt F))
        (after kops V (Proc.devRef .tc main_call6_c_2)) :=
  good.at_unary (x := main_call6_c_2) (y := main_call6_v6) rfl (by decide) (by decide) V

theorem after_call6_v7 (V : Valuation τ sig (Elt F)) :
    after kops V (Proc.devRef .tc main_call6_v7)
      = ((cmpi .sge) : (⟨S4000000x4x1, .i32⟩ : BufTy).Contents (Elt F) → (⟨S4000000x4x1, .i32⟩ : BufTy).Contents (Elt F) → (⟨S4000000x4x1, .i1⟩ : BufTy).Contents (Elt F))
        (after kops V (Proc.devRef .tc main_call6_v5)) (after kops V (Proc.devRef .tc main_call6_v6)) :=
  good.at_binary (a := main_call6_v5) (b := main_call6_v6) (y := main_call6_v7) rfl (by decide) (by decide) (by decide) V

theorem after_call6_v8 (V : Valuation τ sig (Elt F)) :
    after kops V (Proc.devRef .tc main_call6_v8)
      = ((broadcastInDim S1x1x1 ![2] bcast_S1_S1x1x1_2) : (⟨S1, .i32⟩ : BufTy).Contents (Elt F) → (⟨S1x1x1, .i32⟩ : BufTy).Contents (Elt F))
        (after kops V (Proc.devRef .tc main_call6_c_1)) :=
  good.at_unary (x := main_call6_c_1) (y := main_call6_v8) rfl (by decide) (by decide) V

theorem after_call6_v9 (V : Valuation τ sig (Elt F)) :
    after kops V (Proc.devRef .tc main_call6_v9)
      = ((broadcastInDim S4000000x4x1 ![0, 1, 2] bcast_S1x1x1_S4000000x4x1_0_1_2) : (⟨S1x1x1, .i32⟩ : BufTy).Contents (Elt F) → (⟨S4000000x4x1, .i32⟩ : BufTy).Contents (Elt F))
        (after kops V (Proc.devRef .tc main_call6_v8)) :=
  good.at_unary (x := main_call6_v8) (y := main_call6_v9) rfl (by decide) (by decide) V

theorem after_call6_v10 (V : Valuation τ sig (Elt F)) :
    after kops V (Proc.devRef .tc main_call6_v10)
      = ((cmpi .sle) : (⟨S4000000x4x1, .i32⟩ : BufTy).Contents (Elt F) → (⟨S4000000x4x1, .i32⟩ : BufTy).Contents (Elt F) → (⟨S4000000x4x1, .i1⟩ : BufTy).Contents (Elt F))
        (after kops V (Proc.devRef .tc main_call6_v5)) (after kops V (Proc.devRef .tc main_call6_v9)) :=
  good.at_binary (a := main_call6_v5) (b := main_call6_v9) (y := main_call6_v10) rfl (by decide) (by decide) (by decide) V

theorem after_call6_v11 (V : Valuation τ sig (Elt F)) :
    after kops V (Proc.devRef .tc main_call6_v11)
      = (andi : (⟨S4000000x4x1, .i1⟩ : BufTy).Contents (Elt F) → (⟨S4000000x4x1, .i1⟩ : BufTy).Contents (Elt F) → (⟨S4000000x4x1, .i1⟩ : BufTy).Contents (Elt F))
        (after kops V (Proc.devRef .tc main_call6_v7)) (after kops V (Proc.devRef .tc main_call6_v10)) :=
  good.at_binary (a := main_call6_v7) (b := main_call6_v10) (y := main_call6_v11) rfl (by decide) (by decide) (by decide) V

theorem after_call6_c_3 (V : Valuation τ sig (Elt F)) :
    after kops V (Proc.devRef .tc main_call6_c_3)
      = ((constantI S_ 1 1#1) : (⟨S_, .i1⟩ : BufTy).Contents (Elt F)) :=
  good.at_nullary (y := main_call6_c_3) rfl (by decide) V

theorem after_call6_v12 (V : Valuation τ sig (Elt F)) :
    after kops V (Proc.devRef .tc main_call6_v12)
      = ((fun x v => Host.reduce IntOp.andi x v reducesTo_S4000000x4x1_S4000000x4_d2 h_S_) : (⟨S4000000x4x1, .i1⟩ : BufTy).Contents (Elt F) → (⟨S_, .i1⟩ : BufTy).Contents (Elt F) → (⟨S4000000x4, .i1⟩ : BufTy).Contents (Elt F))
        (after kops V (Proc.devRef .tc main_call6_v11)) (after kops V (Proc.devRef .tc main_call6_c_3)) :=
  good.at_binary (a := main_call6_v11) (b := main_call6_c_3) (y := main_call6_v12) rfl (by decide) (by decide) (by decide) V

theorem after_call6_v13 (V : Valuation τ sig (Elt F)) :
    after kops V (Proc.devRef .tc main_call6_v13)
      = ((fun x i => Host.gather gather_S262144x8_S4000000x4x1_S4000000x4x8_2_0_n_n_0_2_18 x i) : (⟨S262144x8, .f32⟩ : BufTy).Contents (Elt F) → (⟨S4000000x4x1, .i32⟩ : BufTy).Contents (Elt F) → (⟨S4000000x4x8, .f32⟩ : BufTy).Contents (Elt F))
        (after kops V (Proc.devRef .tc main_v89)) (after kops V (Proc.devRef .tc main_call6_v5)) :=
  good.at_binary (a := main_v89) (b := main_call6_v5) (y := main_call6_v13) rfl (by decide) (by decide) (by decide) V

theorem after_call6_v14 (V : Valuation τ sig (Elt F)) :
    after kops V (Proc.devRef .tc main_call6_v14)
      = ((broadcastInDim S4000000x4x8 ![0, 1] bcast_S4000000x4_S4000000x4x8_0_1) : (⟨S4000000x4, .i1⟩ : BufTy).Contents (Elt F) → (⟨S4000000x4x8, .i1⟩ : BufTy).Contents (Elt F))
        (after kops V (Proc.devRef .tc main_call6_v12)) :=
  good.at_unary (x := main_call6_v12) (y := main_call6_v14) rfl (by decide) (by decide) V

theorem after_call6_cst (V : Valuation τ sig (Elt F)) :
    after kops V (Proc.devRef .tc main_call6_cst)
      = ((constant S_ .f32 0x7FC00000#32) : (⟨S_, .f32⟩ : BufTy).Contents (Elt F)) :=
  good.at_nullary (y := main_call6_cst) rfl (by decide) V

theorem after_call6_v15 (V : Valuation τ sig (Elt F)) :
    after kops V (Proc.devRef .tc main_call6_v15)
      = ((broadcastInDim S4000000x4x8 ![] bcast_S_S4000000x4x8) : (⟨S_, .f32⟩ : BufTy).Contents (Elt F) → (⟨S4000000x4x8, .f32⟩ : BufTy).Contents (Elt F))
        (after kops V (Proc.devRef .tc main_call6_cst)) :=
  good.at_unary (x := main_call6_cst) (y := main_call6_v15) rfl (by decide) (by decide) V

theorem after_v107 (V : Valuation τ sig (Elt F)) :
    after kops V (Proc.devRef .tc main_v107)
      = (select : (⟨S4000000x4x8, .i1⟩ : BufTy).Contents (Elt F) → (⟨S4000000x4x8, .f32⟩ : BufTy).Contents (Elt F) → (⟨S4000000x4x8, .f32⟩ : BufTy).Contents (Elt F) → (⟨S4000000x4x8, .f32⟩ : BufTy).Contents (Elt F))
        (after kops V (Proc.devRef .tc main_call6_v14)) (after kops V (Proc.devRef .tc main_call6_v13)) (after kops V (Proc.devRef .tc main_call6_v15)) :=
  good.at_ternary (c := main_call6_v14) (a := main_call6_v13) (b := main_call6_v15) (y := main_v107) rfl (by decide) (by decide) (by decide) (by decide) V

end Cert.KernelIdeal.HostRun

end
-- ==== Proof.KFold2.lean ====
/- The kernel program's host line folded, plane 2: its corner array as a composition of the clipped coordinates and the plane.
   Each equation is between what buffers hold after the whole host line. Every buffer between its two sides is written
   once, by one operation, from buffers written before it; replacing each by its operation's value leaves exactly the
   composition on the right: the pixel coordinates of a column of the clipped coordinates, the four corners' flat row
   numbers of two pixel vectors, the plane's rows taken at them, the rows laid side by side in 32 lanes. -/
import proofs.«114771_j71983651881269_2_alg».proof.Proof.KEqs2
import proofs.«114771_j71983651881269_2_alg».proof.Proof.KEqs3
import proofs.«114771_j71983651881269_2_alg».proof.Proof.KHostChainDefs

set_option maxRecDepth 16384

noncomputable section

namespace Cert.KernelIdeal.Fold

open Cert.KernelIdeal Cert.KernelIdeal.Gen Cert.KernelIdeal.HostRun Cert.KernelIdeal.HostChain
open Idealize.ShloMosaic Idealize.ShloMosaic.TcCoe Idealize.SL.Sem Idealize.ShloMosaic.StableHlo

variable {F : FTy → Type} [FloatOps F]

-- the equations are between folds of the line at different buffers: never a question of what a fold, a reduction or a gather computes
attribute [local irreducible] Idealize.ShloMosaic.StableHlo.after Idealize.ShloMosaic.Host.reduce Idealize.ShloMosaic.Host.gather

set_option maxHeartbeats 8000000 in
/-- Plane 2: the column pixel vector is the pixel coordinates of column 0 of the clipped coordinates (the buffers between
    replaced each by its operation's value). -/
theorem pixX2 (V : Valuation τ sig (Elt F)) :
    after kops V (Proc.devRef .tc main_v67)
      = pixVec (colVec0 (after kops V (Proc.devRef .tc main_v0))) := by
  try rw [after_v67]
  try rw [after_call4_v4]
  try rw [after_call4_v3]
  try rw [after_call4_v2]
  try rw [after_call4_v1]
  try rw [after_call4_v0]
  try rw [after_cst_25]
  try rw [after_cst_24]
  try rw [after_v66]
  try rw [after_v65]
  try rw [after_cst_23]
  try rw [after_v64]
  try rw [after_v63]
  try rw [after_cst_22]
  try rw [after_v62]
  try rw [after_v61]
  try rw [after_cst_21]
  try rw [after_v60]
  try rw [after_v59]
  try rw [after_cst_20]
  try rw [after_v58]
  try rw [after_v57]
  try rw [after_v56]
  try rw [after_v55]
  rfl

set_option maxHeartbeats 8000000 in
/-- Plane 2: the row pixel vector is the pixel coordinates of column 2 of the clipped coordinates. -/
theorem pixY2 (V : Valuation τ sig (Elt F)) :
    after kops V (Proc.devRef .tc main_v76)
      = pixVec (colVec2 (after kops V (Proc.devRef .tc main_v0))) := by
  try rw [after_v76]
  try rw [after_call5_v4]
  try rw [after_call5_v3]
  try rw [after_call5_v2]
  try rw [after_call5_v1]
  try rw [after_call5_v0]
  try rw [after_cst_31]
  try rw [after_cst_30]
  try rw [after_v75]
  try rw [after_v74]
  try rw [after_cst_29]
  try rw [after_v73]
  try rw [after_v72]
  try rw [after_cst_28]
  try rw [after_v71]
  try rw [after_v70]
  try rw [after_cst_27]
  try rw [after_v69]
  try rw [after_v68]
  try rw [after_cst_26]
  try rw [after_v67]
  try rw [after_call4_v4]
  try rw [after_call4_v3]
  try rw [after_call4_v2]
  try rw [after_call4_v1]
  try rw [after_call4_v0]
  try rw [after_cst_25]
  try rw [after_cst_24]
  try rw [after_v66]
  try rw [after_v65]
  try rw [after_cst_23]
  try rw [after_v64]
  try rw [after_v63]
  try rw [after_cst_22]
  try rw [after_v62]
  try rw [after_v61]
  try rw [after_cst_21]
  try rw [after_v60]
  try rw [after_v59]
  try rw [after_cst_20]
  try rw [after_v58]
  try rw [after_v57]
  try rw [after_v56]
  try rw [after_v55]
  rfl

set_option maxHeartbeats 8000000 in
/-- Plane 2: the N × 4 array of flat row numbers is the four corners' of the two pixel vectors. -/
theorem idx2 (V : Valuation τ sig (Elt F)) :
    after kops V (Proc.devRef .tc main_v106)
      = cornerIdx (after kops V (Proc.devRef .tc main_v67)) (after kops V (Proc.devRef .tc main_v76)) := by
  try rw [after_v106]
  try rw [after_v105]
  try rw [after_v104]
  try rw [after_v103]
  try rw [after_v102]
  try rw [after_v101]
  try rw [after_v100]
  try rw [after_v99]
  try rw [after_c_39]
  try rw [after_v98]
  try rw [after_v97]
  try rw [after_v96]
  try rw [after_c_38]
  try rw [after_v95]
  try rw [after_v94]
  try rw [after_v93]
  try rw [after_c_37]
  try rw [after_v92]
  try rw [after_v91]
  try rw [after_v90]
  try rw [after_c_36]
  try rw [after_v89]
  try rw [after_v88]
  try rw [after_v87]
  try rw [after_c_35]
  try rw [after_v86]
  try rw [after_v85]
  try rw [after_c_34]
  try rw [after_v84]
  try rw [after_v83]
  try rw [after_c_33]
  try rw [after_v82]
  try rw [after_v81]
  try rw [after_c_32]
  try rw [after_v80]
  try rw [after_v79]
  try rw [after_v78]
  try rw [after_v77]
  rfl

set_option maxHeartbeats 8000000 in
/-- Plane 2: the N × 4 × 8 array of corner rows is the plane's rows taken at the flat row numbers (the plane
    flattened to rows of 8 features first). -/
theorem rows2 (V : Valuation τ sig (Elt F)) :
    after kops V (Proc.devRef .tc main_v107)
      = takeRows (after kops V (Proc.devRef .tc main_arg2)) (after kops V (Proc.devRef .tc main_v106)) := by
  try rw [after_v107]
  try rw [after_call6_v15]
  try rw [after_call6_cst]
  try rw [after_call6_v14]
  try rw [after_call6_v13]
  try rw [after_call6_v12]
  try rw [after_call6_c_3]
  try rw [after_call6_v11]
  try rw [after_call6_v10]
  try rw [after_call6_v9]
  try rw [after_call6_v8]
  try rw [after_call6_v7]
  try rw [after_call6_v6]
  try rw [after_call6_c_2]
  try rw [after_call6_c_1]
  try rw [after_call6_v5]
  try rw [after_call6_v4]
  try rw [after_call6_v3]
  try rw [after_call6_v2]
  try rw [after_call6_c_0]
  try rw [after_call6_v1]
  try rw [after_call6_v0]
  try rw [after_call6_c]
  try rw [after_v89]
  rfl

/-- Plane 2: the staged corner array holds, after the host line, the four corner rows of the plane's array at the cells
    of the pixel coordinates of columns 0 and 2 of the clipped coordinates: the four stages composed, the rows laid
    side by side in 32 lanes (a reshape of the N × 4 × 8 array of corner rows). -/
theorem fold_corners2 (V : Valuation τ sig (Elt F)) :
    after kops V (Proc.devRef .tc main_v108)
      = cornersK (after kops V (Proc.devRef .tc main_arg2)) (pixVec (colVec0 (after kops V (Proc.devRef .tc main_v0))))
          (pixVec (colVec2 (after kops V (Proc.devRef .tc main_v0)))) := by
  rw [show after kops V (Proc.devRef .tc main_v108) = shapeCast S4000000x32 (after kops V (Proc.devRef .tc main_v107)) shapeCasts_S4000000x4x8_S4000000x32 from
      good.at_reshape (x := main_v107) (y := main_v108) rfl (by decide) (by decide) V, rows2, idx2, pixX2, pixY2]
  rfl

end Cert.KernelIdeal.Fold

end
-- ==== Proof.KEqs4.lean ====
/- The kernel program's host line read one operation at a time, stretches 14 … 17 (HBM buffers 225 … 269): for each
   operation, the buffer it writes holds, after the WHOLE line, the operation's function of what its operand buffers hold
   after the whole line — every value is defined once, before its uses, so nothing later in the line touches either
   side. One equation per operation, named after the buffer; a call's operations are read over the call's buffers, where
   a value moved through a typed reference is the value. -/
import proofs.«114771_j71983651881269_2_alg».proof.Proof.KOpsGood

set_option maxRecDepth 16384

noncomputable section

namespace Cert.KernelIdeal.HostRun

open Cert.KernelIdeal Cert.KernelIdeal.Gen Idealize.ShloMosaic Idealize.ShloMosaic.TcCoe Idealize.SL.Sem Idealize.ShloMosaic.StableHlo

variable {F : FTy → Type} [FloatOps F]

-- the equations are between folds, reductions and gathers as wholes: none of the three is opened here
attribute [local irreducible] Idealize.ShloMosaic.StableHlo.after Idealize.ShloMosaic.Host.reduce Idealize.ShloMosaic.Host.gather

theorem after_v108 (V : Valuation τ sig (Elt F)) :
    after kops V (Proc.devRef .tc main_v108)
      = (shapeCast S4000000x32 (after kops V (Proc.devRef .tc main_v107)) shapeCasts_S4000000x4x8_S4000000x32 : (⟨S4000000x32, .f32⟩ : BufTy).Contents (Elt F)) :=
  good.at_reshape (x := main_v107) (y := main_v108) rfl (by decide) (by decide) V

theorem after_v109 (V : Valuation τ sig (Elt F)) :
    after kops V (Proc.devRef .tc main_v109)
      = (((extractStridedSlice S4000000x1 ![0, 1] · slices_S4000000x3_S4000000x1_0_1) : (⟨S4000000x3, .f32⟩ : BufTy).Contents (Elt F) → (⟨S4000000x1, .f32⟩ : BufTy).Contents (Elt F)) : (⟨S4000000x3, .f32⟩ : BufTy).Contents (Elt F) → (⟨S4000000x1, .f32⟩ : BufTy).Contents (Elt F))
        (after kops V (Proc.devRef .tc main_v0)) :=
  good.at_unary (x := main_v0) (y := main_v109) rfl (by decide) (by decide) V

theorem after_v110 (V : Valuation τ sig (Elt F)) :
    after kops V (Proc.devRef .tc main_v110)
      = (shapeCast S4000000 (after kops V (Proc.devRef .tc main_v109)) shapeCasts_S4000000x1_S4000000 : (⟨S4000000, .f32⟩ : BufTy).Contents (Elt F)) :=
  good.at_reshape (x := main_v109) (y := main_v110) rfl (by decide) (by decide) V

theorem after_v111 (V : Valuation τ sig (Elt F)) :
    after kops V (Proc.devRef .tc main_v111)
      = (((extractStridedSlice S4000000x1 ![0, 2] · slices_S4000000x3_S4000000x1_0_2) : (⟨S4000000x3, .f32⟩ : BufTy).Contents (Elt F) → (⟨S4000000x1, .f32⟩ : BufTy).Contents (Elt F)) : (⟨S4000000x3, .f32⟩ : BufTy).Contents (Elt F) → (⟨S4000000x1, .f32⟩ : BufTy).Contents (Elt F))
        (after kops V (Proc.devRef .tc main_v0)) :=
  good.at_unary (x := main_v0) (y := main_v111) rfl (by decide) (by decide) V

theorem after_v112 (V : Valuation τ sig (Elt F)) :
    after kops V (Proc.devRef .tc main_v112)
      = (shapeCast S4000000 (after kops V (Proc.devRef .tc main_v111)) shapeCasts_S4000000x1_S4000000 : (⟨S4000000, .f32⟩ : BufTy).Contents (Elt F)) :=
  good.at_reshape (x := main_v111) (y := main_v112) rfl (by decide) (by decide) V

theorem after_cst_40 (V : Valuation τ sig (Elt F)) :
    after kops V (Proc.devRef .tc main_cst_40)
      = ((constant S_ .f32 0x3F800000#32) : (⟨S_, .f32⟩ : BufTy).Contents (Elt F)) :=
  good.at_nullary (y := main_cst_40) rfl (by decide) V

theorem after_v113 (V : Valuation τ sig (Elt F)) :
    after kops V (Proc.devRef .tc main_v113)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_40)) :=
  good.at_unary (x := main_cst_40) (y := main_v113) rfl (by decide) (by decide) V

theorem after_v114 (V : Valuation τ sig (Elt F)) :
    after kops V (Proc.devRef .tc main_v114)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v110)) (after kops V (Proc.devRef .tc main_v113)) :=
  good.at_binary (a := main_v110) (b := main_v113) (y := main_v114) rfl (by decide) (by decide) (by decide) V

theorem after_cst_41 (V : Valuation τ sig (Elt F)) :
    after kops V (Proc.devRef .tc main_cst_41)
      = ((constant S_ .f32 0x44000000#32) : (⟨S_, .f32⟩ : BufTy).Contents (Elt F)) :=
  good.at_nullary (y := main_cst_41) rfl (by decide) V

theorem after_v115 (V : Valuation τ sig (Elt F)) :
    after kops V (Proc.devRef .tc main_v115)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_41)) :=
  good.at_unary (x := main_cst_41) (y := main_v115) rfl (by decide) (by decide) V

theorem after_v116 (V : Valuation τ sig (Elt F)) :
    after kops V (Proc.devRef .tc main_v116)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v114)) (after kops V (Proc.devRef .tc main_v115)) :=
  good.at_binary (a := main_v114) (b := main_v115) (y := main_v116) rfl (by decide) (by decide) (by decide) V

theorem after_cst_42 (V : Valuation τ sig (Elt F)) :
    after kops V (Proc.devRef .tc main_cst_42)
      = ((constant S_ .f32 0x3F800000#32) : (⟨S_, .f32⟩ : BufTy).Contents (Elt F)) :=
  good.at_nullary (y := main_cst_42) rfl (by decide) V

theorem after_v117 (V : Valuation τ sig (Elt F)) :
    after kops V (Proc.devRef .tc main_v117)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_42)) :=
  good.at_unary (x := main_cst_42) (y := main_v117) rfl (by decide) (by decide) V

theorem after_v118 (V : Valuation τ sig (Elt F)) :
    after kops V (Proc.devRef .tc main_v118)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v116)) (after kops V (Proc.devRef .tc main_v117)) :=
  good.at_binary (a := main_v116) (b := main_v117) (y := main_v118) rfl (by decide) (by decide) (by decide) V

theorem after_cst_43 (V : Valuation τ sig (Elt F)) :
    after kops V (Proc.devRef .tc main_cst_43)
      = ((constant S_ .f32 0x3F000000#32) : (⟨S_, .f32⟩ : BufTy).Contents (Elt F)) :=
  good.at_nullary (y := main_cst_43) rfl (by decide) V

theorem after_v119 (V : Valuation τ sig (Elt F)) :
    after kops V (Proc.devRef .tc main_v119)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_43)) :=
  good.at_unary (x := main_cst_43) (y := main_v119) rfl (by decide) (by decide) V

theorem after_v120 (V : Valuation τ sig (Elt F)) :
    after kops V (Proc.devRef .tc main_v120)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v118)) (after kops V (Proc.devRef .tc main_v119)) :=
  good.at_binary (a := main_v118) (b := main_v119) (y := main_v120) rfl (by decide) (by decide) (by decide) V

theorem after_cst_44 (V : Valuation τ sig (Elt F)) :
    after kops V (Proc.devRef .tc main_cst_44)
      = ((constant S_ .f32 0x00000000#32) : (⟨S_, .f32⟩ : BufTy).Contents (Elt F)) :=
  good.at_nullary (y := main_cst_44) rfl (by decide) V

theorem after_cst_45 (V : Valuation τ sig (Elt F)) :
    after kops V (Proc.devRef .tc main_cst_45)
      = ((constant S_ .f32 0x43FF8000#32) : (⟨S_, .f32⟩ : BufTy).Contents (Elt F)) :=
  good.at_nullary (y := main_cst_45) rfl (by decide) V

theorem after_call7_v0 (V : Valuation τ sig (Elt F)) :
    after kops V (Proc.devRef .tc main_call7_v0)
      = (id : (⟨S_, .f32⟩ : BufTy).Contents (Elt F) → (⟨S_, .f32⟩ : BufTy).Contents (Elt F))
        (after kops V (Proc.devRef .tc main_cst_44)) :=
  good.at_unary (x := main_cst_44) (y := main_call7_v0) rfl (by decide) (by decide) V

theorem after_call7_v1 (V : Valuation τ sig (Elt F)) :
    after kops V (Proc.devRef .tc main_call7_v1)
      = ((broadcastInDim S4000000 ![] bcast_S_S4000000) : (⟨S_, .f32⟩ : BufTy).Contents (Elt F) → (⟨S4000000, .f32⟩ : BufTy).Contents (Elt F))
        (after kops V (Proc.devRef .tc main_call7_v0)) :=
  good.at_unary (x := main_call7_v0) (y := main_call7_v1) rfl (by decide) (by decide) V

theorem after_call7_v2 (V : Valuation τ sig (Elt F)) :
    after kops V (Proc.devRef .tc main_call7_v2)
      = (maximumf : (⟨S4000000, .f32⟩ : BufTy).Contents (Elt F) → (⟨S4000000, .f32⟩ : BufTy).Contents (Elt F) → (⟨S4000000, .f32⟩ : BufTy).Contents (Elt F))
        (after kops V (Proc.devRef .tc main_call7_v1)) (after kops V (Proc.devRef .tc main_v120)) :=
  good.at_binary (a := main_call7_v1) (b := main_v120) (y := main_call7_v2) rfl (by decide) (by decide) (by decide) V

theorem after_call7_v3 (V : Valuation τ sig (Elt F)) :
    after kops V (Proc.devRef .tc main_call7_v3)
      = (id : (⟨S_, .f32⟩ : BufTy).Contents (Elt F) → (⟨S_, .f32⟩ : BufTy).Contents (Elt F))
        (after kops V (Proc.devRef .tc main_cst_45)) :=
  good.at_unary (x := main_cst_45) (y := main_call7_v3) rfl (by decide) (by decide) V

theorem after_call7_v4 (V : Valuation τ sig (Elt F)) :
    after kops V (Proc.devRef .tc main_call7_v4)
      = ((broadcastInDim S4000000 ![] bcast_S_S4000000) : (⟨S_, .f32⟩ : BufTy).Contents (Elt F) → (⟨S4000000, .f32⟩ : BufTy).Contents (Elt F))
        (after kops V (Proc.devRef .tc main_call7_v3)) :=
  good.at_unary (x := main_call7_v3) (y := main_call7_v4) rfl (by decide) (by decide) V

theorem after_v121 (V : Valuation τ sig (Elt F)) :
    after kops V (Proc.devRef .tc main_v121)
      = (minimumf : (⟨S4000000, .f32⟩ : BufTy).Contents (Elt F) → (⟨S4000000, .f32⟩ : BufTy).Contents (Elt F) → (⟨S4000000, .f32⟩ : BufTy).Contents (Elt F))
        (after kops V (Proc.devRef .tc main_call7_v4)) (after kops V (Proc.devRef .tc main_call7_v2)) :=
  good.at_binary (a := main_call7_v4) (b := main_call7_v2) (y := main_v121) rfl (by decide) (by decide) (by decide) V

theorem after_cst_46 (V : Valuation τ sig (Elt F)) :
    after kops V (Proc.devRef .tc main_cst_46)
      = ((constant S_ .f32 0x3F800000#32) : (⟨S_, .f32⟩ : BufTy).Contents (Elt F)) :=
  good.at_nullary (y := main_cst_46) rfl (by decide) V

theorem after_v122 (V : Valuation τ sig (Elt F)) :
    after kops V (Proc.devRef .tc main_v122)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_46)) :=
  good.at_unary (x := main_cst_46) (y := main_v122) rfl (by decide) (by decide) V

theorem after_v123 (V : Valuation τ sig (Elt F)) :
    after kops V (Proc.devRef .tc main_v123)
      = ((addf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v112)) (after kops V (Proc.devRef .tc main_v122)) :=
  good.at_binary (a := main_v112) (b := main_v122) (y := main_v123) rfl (by decide) (by decide) (by decide) V

theorem after_cst_47 (V : Valuation τ sig (Elt F)) :
    after kops V (Proc.devRef .tc main_cst_47)
      = ((constant S_ .f32 0x44000000#32) : (⟨S_, .f32⟩ : BufTy).Contents (Elt F)) :=
  good.at_nullary (y := main_cst_47) rfl (by decide) V

theorem after_v124 (V : Valuation τ sig (Elt F)) :
    after kops V (Proc.devRef .tc main_v124)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_47)) :=
  good.at_unary (x := main_cst_47) (y := main_v124) rfl (by decide) (by decide) V

theorem after_v125 (V : Valuation τ sig (Elt F)) :
    after kops V (Proc.devRef .tc main_v125)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v123)) (after kops V (Proc.devRef .tc main_v124)) :=
  good.at_binary (a := main_v123) (b := main_v124) (y := main_v125) rfl (by decide) (by decide) (by decide) V

theorem after_cst_48 (V : Valuation τ sig (Elt F)) :
    after kops V (Proc.devRef .tc main_cst_48)
      = ((constant S_ .f32 0x3F800000#32) : (⟨S_, .f32⟩ : BufTy).Contents (Elt F)) :=
  good.at_nullary (y := main_cst_48) rfl (by decide) V

theorem after_v126 (V : Valuation τ sig (Elt F)) :
    after kops V (Proc.devRef .tc main_v126)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_48)) :=
  good.at_unary (x := main_cst_48) (y := main_v126) rfl (by decide) (by decide) V

theorem after_v127 (V : Valuation τ sig (Elt F)) :
    after kops V (Proc.devRef .tc main_v127)
      = ((subf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v125)) (after kops V (Proc.devRef .tc main_v126)) :=
  good.at_binary (a := main_v125) (b := main_v126) (y := main_v127) rfl (by decide) (by decide) (by decide) V

theorem after_cst_49 (V : Valuation τ sig (Elt F)) :
    after kops V (Proc.devRef .tc main_cst_49)
      = ((constant S_ .f32 0x3F000000#32) : (⟨S_, .f32⟩ : BufTy).Contents (Elt F)) :=
  good.at_nullary (y := main_cst_49) rfl (by decide) V

theorem after_v128 (V : Valuation τ sig (Elt F)) :
    after kops V (Proc.devRef .tc main_v128)
      = ((broadcastInDim S4000000 ![] bcast_S_S4000000 : (⟨S_, .f32⟩ : BufTy).Contents (Elt F) → (⟨S4000000, .f32⟩ : BufTy).Contents (Elt F)) : (⟨S_, .f32⟩ : BufTy).Contents (Elt F) → (⟨S4000000, .f32⟩ : BufTy).Contents (Elt F))
        (after kops V (Proc.devRef .tc main_cst_49)) :=
  good.at_unary (x := main_cst_49) (y := main_v128) rfl (by decide) (by decide) V

theorem after_v129 (V : Valuation τ sig (Elt F)) :
    after kops V (Proc.devRef .tc main_v129)
      = ((mulf : (⟨S4000000, .f32⟩ : BufTy).Contents (Elt F) → (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F) → (⟨S4000000, .f32⟩ : BufTy).Contents (Elt F))
        (after kops V (Proc.devRef .tc main_v127)) (after kops V (Proc.devRef .tc main_v128)) :=
  good.at_binary (a := main_v127) (b := main_v128) (y := main_v129) rfl (by decide) (by decide) (by decide) V

theorem after_cst_50 (V : Valuation τ sig (Elt F)) :
    after kops V (Proc.devRef .tc main_cst_50)
      = ((constant S_ .f32 0x00000000#32) : (⟨S_, .f32⟩ : BufTy).Contents (Elt F)) :=
  good.at_nullary (y := main_cst_50) rfl (by decide) V

theorem after_cst_51 (V : Valuation τ sig (Elt F)) :
    after kops V (Proc.devRef .tc main_cst_51)
      = ((constant S_ .f32 0x43FF8000#32) : (⟨S_, .f32⟩ : BufTy).Contents (Elt F)) :=
  good.at_nullary (y := main_cst_51) rfl (by decide) V

theorem after_call8_v0 (V : Valuation τ sig (Elt F)) :
    after kops V (Proc.devRef .tc main_call8_v0)
      = (id : (⟨S_, .f32⟩ : BufTy).Contents (Elt F) → (⟨S_, .f32⟩ : BufTy).Contents (Elt F))
        (after kops V (Proc.devRef .tc main_cst_50)) :=
  good.at_unary (x := main_cst_50) (y := main_call8_v0) rfl (by decide) (by decide) V

theorem after_call8_v1 (V : Valuation τ sig (Elt F)) :
    after kops V (Proc.devRef .tc main_call8_v1)
      = ((broadcastInDim S4000000 ![] bcast_S_S4000000) : (⟨S_, .f32⟩ : BufTy).Contents (Elt F) → (⟨S4000000, .f32⟩ : BufTy).Contents (Elt F))
        (after kops V (Proc.devRef .tc main_call8_v0)) :=
  good.at_unary (x := main_call8_v0) (y := main_call8_v1) rfl (by decide) (by decide) V

theorem after_call8_v2 (V : Valuation τ sig (Elt F)) :
    after kops V (Proc.devRef .tc main_call8_v2)
      = (maximumf : (⟨S4000000, .f32⟩ : BufTy).Contents (Elt F) → (⟨S4000000, .f32⟩ : BufTy).Contents (Elt F) → (⟨S4000000, .f32⟩ : BufTy).Contents (Elt F))
        (after kops V (Proc.devRef .tc main_call8_v1)) (after kops V (Proc.devRef .tc main_v129)) :=
  good.at_binary (a := main_call8_v1) (b := main_v129) (y := main_call8_v2) rfl (by decide) (by decide) (by decide) V

theorem after_call8_v3 (V : Valuation τ sig (Elt F)) :
    after kops V (Proc.devRef .tc main_call8_v3)
      = (id : (⟨S_, .f32⟩ : BufTy).Contents (Elt F) → (⟨S_, .f32⟩ : BufTy).Contents (Elt F))
        (after kops V (Proc.devRef .tc main_cst_51)) :=
  good.at_unary (x := main_cst_51) (y := main_call8_v3) rfl (by decide) (by decide) V

theorem after_call8_v4 (V : Valuation τ sig (Elt F)) :
    after kops V (Proc.devRef .tc main_call8_v4)
      = ((broadcastInDim S4000000 ![] bcast_S_S4000000) : (⟨S_, .f32⟩ : BufTy).Contents (Elt F) → (⟨S4000000, .f32⟩ : BufTy).Contents (Elt F))
        (after kops V (Proc.devRef .tc main_call8_v3)) :=
  good.at_unary (x := main_call8_v3) (y := main_call8_v4) rfl (by decide) (by decide) V

theorem after_v130 (V : Valuation τ sig (Elt F)) :
    after kops V (Proc.devRef .tc main_v130)
      = (minimumf : (⟨S4000000, .f32⟩ : BufTy).Contents (Elt F) → (⟨S4000000, .f32⟩ : BufTy).Contents (Elt F) → (⟨S4000000, .f32⟩ : BufTy).Contents (Elt F))
        (after kops V (Proc.devRef .tc main_call8_v4)) (after kops V (Proc.devRef .tc main_call8_v2)) :=
  good.at_binary (a := main_call8_v4) (b := main_call8_v2) (y := main_v130) rfl (by decide) (by decide) (by decide) V

end Cert.KernelIdeal.HostRun

end
-- ==== Proof.KEqs5.lean ====
/- The kernel program's host line read one operation at a time, stretches 18 … 20 (HBM buffers 270 … 332): for each
   operation, the buffer it writes holds, after the WHOLE line, the operation's function of what its operand buffers hold
   after the whole line — every value is defined once, before its uses, so nothing later in the line touches either
   side. One equation per operation, named after the buffer; a call's operations are read over the call's buffers, where
   a value moved through a typed reference is the value. -/
import proofs.«114771_j71983651881269_2_alg».proof.Proof.KOpsGood

set_option maxRecDepth 16384

noncomputable section

namespace Cert.KernelIdeal.HostRun

open Cert.KernelIdeal Cert.KernelIdeal.Gen Idealize.ShloMosaic Idealize.ShloMosaic.TcCoe Idealize.SL.Sem Idealize.ShloMosaic.StableHlo

variable {F : FTy → Type} [FloatOps F]

-- the equations are between folds, reductions and gathers as wholes: none of the three is opened here
attribute [local irreducible] Idealize.ShloMosaic.StableHlo.after Idealize.ShloMosaic.Host.reduce Idealize.ShloMosaic.Host.gather

theorem after_v131 (V : Valuation τ sig (Elt F)) :
    after kops V (Proc.devRef .tc main_v131)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after kops V (Proc.devRef .tc main_v121)) :=
  good.at_unary (x := main_v121) (y := main_v131) rfl (by decide) (by decide) V

theorem after_v132 (V : Valuation τ sig (Elt F)) :
    after kops V (Proc.devRef .tc main_v132)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after kops V (Proc.devRef .tc main_v131)) :=
  good.at_unary (x := main_v131) (y := main_v132) rfl (by decide) (by decide) V

theorem after_v133 (V : Valuation τ sig (Elt F)) :
    after kops V (Proc.devRef .tc main_v133)
      = ((Host.floor : (⟨S4000000, .f32⟩ : BufTy).Contents (Elt F) → (⟨S4000000, .f32⟩ : BufTy).Contents (Elt F)) : (⟨S4000000, .f32⟩ : BufTy).Contents (Elt F) → (⟨S4000000, .f32⟩ : BufTy).Contents (Elt F))
        (after kops V (Proc.devRef .tc main_v130)) :=
  good.at_unary (x := main_v130) (y := main_v133) rfl (by decide) (by decide) V

theorem after_v134 (V : Valuation τ sig (Elt F)) :
    after kops V (Proc.devRef .tc main_v134)
      = ((fptosi 32 : (⟨S4000000, .f32⟩ : BufTy).Contents (Elt F) → (⟨S4000000, .i32⟩ : BufTy).Contents (Elt F)) : (⟨S4000000, .f32⟩ : BufTy).Contents (Elt F) → (⟨S4000000, .i32⟩ : BufTy).Contents (Elt F))
        (after kops V (Proc.devRef .tc main_v133)) :=
  good.at_unary (x := main_v133) (y := main_v134) rfl (by decide) (by decide) V

theorem after_c_52 (V : Valuation τ sig (Elt F)) :
    after kops V (Proc.devRef .tc main_c_52)
      = ((constantI S_ 32 1#32) : (⟨S_, .i32⟩ : BufTy).Contents (Elt F)) :=
  good.at_nullary (y := main_c_52) rfl (by decide) V

theorem after_v135 (V : Valuation τ sig (Elt F)) :
    after kops V (Proc.devRef .tc main_v135)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_52)) :=
  good.at_unary (x := main_c_52) (y := main_v135) rfl (by decide) (by decide) V

theorem after_v136 (V : Valuation τ sig (Elt F)) :
    after kops V (Proc.devRef .tc main_v136)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v132)) (after kops V (Proc.devRef .tc main_v135)) :=
  good.at_binary (a := main_v132) (b := main_v135) (y := main_v136) rfl (by decide) (by decide) (by decide) V

theorem after_c_53 (V : Valuation τ sig (Elt F)) :
    after kops V (Proc.devRef .tc main_c_53)
      = ((constantI S_ 32 511#32) : (⟨S_, .i32⟩ : BufTy).Contents (Elt F)) :=
  good.at_nullary (y := main_c_53) rfl (by decide) V

theorem after_v137 (V : Valuation τ sig (Elt F)) :
    after kops V (Proc.devRef .tc main_v137)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_53)) :=
  good.at_unary (x := main_c_53) (y := main_v137) rfl (by decide) (by decide) V

theorem after_v138 (V : Valuation τ sig (Elt F)) :
    after kops V (Proc.devRef .tc main_v138)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v136)) (after kops V (Proc.devRef .tc main_v137)) :=
  good.at_binary (a := main_v136) (b := main_v137) (y := main_v138) rfl (by decide) (by decide) (by decide) V

theorem after_c_54 (V : Valuation τ sig (Elt F)) :
    after kops V (Proc.devRef .tc main_c_54)
      = ((constantI S_ 32 1#32) : (⟨S_, .i32⟩ : BufTy).Contents (Elt F)) :=
  good.at_nullary (y := main_c_54) rfl (by decide) V

theorem after_v139 (V : Valuation τ sig (Elt F)) :
    after kops V (Proc.devRef .tc main_v139)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_54)) :=
  good.at_unary (x := main_c_54) (y := main_v139) rfl (by decide) (by decide) V

theorem after_v140 (V : Valuation τ sig (Elt F)) :
    after kops V (Proc.devRef .tc main_v140)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v134)) (after kops V (Proc.devRef .tc main_v139)) :=
  good.at_binary (a := main_v134) (b := main_v139) (y := main_v140) rfl (by decide) (by decide) (by decide) V

theorem after_c_55 (V : Valuation τ sig (Elt F)) :
    after kops V (Proc.devRef .tc main_c_55)
      = ((constantI S_ 32 511#32) : (⟨S_, .i32⟩ : BufTy).Contents (Elt F)) :=
  good.at_nullary (y := main_c_55) rfl (by decide) V

theorem after_v141 (V : Valuation τ sig (Elt F)) :
    after kops V (Proc.devRef .tc main_v141)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_55)) :=
  good.at_unary (x := main_c_55) (y := main_v141) rfl (by decide) (by decide) V

theorem after_v142 (V : Valuation τ sig (Elt F)) :
    after kops V (Proc.devRef .tc main_v142)
      = ((minsi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v140)) (after kops V (Proc.devRef .tc main_v141)) :=
  good.at_binary (a := main_v140) (b := main_v141) (y := main_v142) rfl (by decide) (by decide) (by decide) V

theorem after_v143 (V : Valuation τ sig (Elt F)) :
    after kops V (Proc.devRef .tc main_v143)
      = (shapeCast S262144x8 (after kops V (Proc.devRef .tc main_arg3)) shapeCasts_S512x512x8_S262144x8 : (⟨S262144x8, .f32⟩ : BufTy).Contents (Elt F)) :=
  good.at_reshape (x := main_arg3) (y := main_v143) rfl (by decide) (by decide) V

theorem after_c_56 (V : Valuation τ sig (Elt F)) :
    after kops V (Proc.devRef .tc main_c_56)
      = ((constantI S_ 32 512#32) : (⟨S_, .i32⟩ : BufTy).Contents (Elt F)) :=
  good.at_nullary (y := main_c_56) rfl (by decide) V

theorem after_v144 (V : Valuation τ sig (Elt F)) :
    after kops V (Proc.devRef .tc main_v144)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_56)) :=
  good.at_unary (x := main_c_56) (y := main_v144) rfl (by decide) (by decide) V

theorem after_v145 (V : Valuation τ sig (Elt F)) :
    after kops V (Proc.devRef .tc main_v145)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v134)) (after kops V (Proc.devRef .tc main_v144)) :=
  good.at_binary (a := main_v134) (b := main_v144) (y := main_v145) rfl (by decide) (by decide) (by decide) V

theorem after_v146 (V : Valuation τ sig (Elt F)) :
    after kops V (Proc.devRef .tc main_v146)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v145)) (after kops V (Proc.devRef .tc main_v132)) :=
  good.at_binary (a := main_v145) (b := main_v132) (y := main_v146) rfl (by decide) (by decide) (by decide) V

theorem after_c_57 (V : Valuation τ sig (Elt F)) :
    after kops V (Proc.devRef .tc main_c_57)
      = ((constantI S_ 32 512#32) : (⟨S_, .i32⟩ : BufTy).Contents (Elt F)) :=
  good.at_nullary (y := main_c_57) rfl (by decide) V

theorem after_v147 (V : Valuation τ sig (Elt F)) :
    after kops V (Proc.devRef .tc main_v147)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_57)) :=
  good.at_unary (x := main_c_57) (y := main_v147) rfl (by decide) (by decide) V

theorem after_v148 (V : Valuation τ sig (Elt F)) :
    after kops V (Proc.devRef .tc main_v148)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v134)) (after kops V (Proc.devRef .tc main_v147)) :=
  good.at_binary (a := main_v134) (b := main_v147) (y := main_v148) rfl (by decide) (by decide) (by decide) V

theorem after_v149 (V : Valuation τ sig (Elt F)) :
    after kops V (Proc.devRef .tc main_v149)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v148)) (after kops V (Proc.devRef .tc main_v138)) :=
  good.at_binary (a := main_v148) (b := main_v138) (y := main_v149) rfl (by decide) (by decide) (by decide) V

theorem after_c_58 (V : Valuation τ sig (Elt F)) :
    after kops V (Proc.devRef .tc main_c_58)
      = ((constantI S_ 32 512#32) : (⟨S_, .i32⟩ : BufTy).Contents (Elt F)) :=
  good.at_nullary (y := main_c_58) rfl (by decide) V

theorem after_v150 (V : Valuation τ sig (Elt F)) :
    after kops V (Proc.devRef .tc main_v150)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_58)) :=
  good.at_unary (x := main_c_58) (y := main_v150) rfl (by decide) (by decide) V

theorem after_v151 (V : Valuation τ sig (Elt F)) :
    after kops V (Proc.devRef .tc main_v151)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v142)) (after kops V (Proc.devRef .tc main_v150)) :=
  good.at_binary (a := main_v142) (b := main_v150) (y := main_v151) rfl (by decide) (by decide) (by decide) V

theorem after_v152 (V : Valuation τ sig (Elt F)) :
    after kops V (Proc.devRef .tc main_v152)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v151)) (after kops V (Proc.devRef .tc main_v132)) :=
  good.at_binary (a := main_v151) (b := main_v132) (y := main_v152) rfl (by decide) (by decide) (by decide) V

theorem after_c_59 (V : Valuation τ sig (Elt F)) :
    after kops V (Proc.devRef .tc main_c_59)
      = ((constantI S_ 32 512#32) : (⟨S_, .i32⟩ : BufTy).Contents (Elt F)) :=
  good.at_nullary (y := main_c_59) rfl (by decide) V

theorem after_v153 (V : Valuation τ sig (Elt F)) :
    after kops V (Proc.devRef .tc main_v153)
      = ((broadcastInDim S4000000 ![] bcast_S_S4000000 : (⟨S_, .i32⟩ : BufTy).Contents (Elt F) → (⟨S4000000, .i32⟩ : BufTy).Contents (Elt F)) : (⟨S_, .i32⟩ : BufTy).Contents (Elt F) → (⟨S4000000, .i32⟩ : BufTy).Contents (Elt F))
        (after kops V (Proc.devRef .tc main_c_59)) :=
  good.at_unary (x := main_c_59) (y := main_v153) rfl (by decide) (by decide) V

theorem after_v154 (V : Valuation τ sig (Elt F)) :
    after kops V (Proc.devRef .tc main_v154)
      = ((muli : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v142)) (after kops V (Proc.devRef .tc main_v153)) :=
  good.at_binary (a := main_v142) (b := main_v153) (y := main_v154) rfl (by decide) (by decide) (by decide) V

theorem after_v155 (V : Valuation τ sig (Elt F)) :
    after kops V (Proc.devRef .tc main_v155)
      = ((addi : (⟨S4000000, .i32⟩ : BufTy).Contents (Elt F) → (⟨S4000000, .i32⟩ : BufTy).Contents (Elt F) → (⟨S4000000, .i32⟩ : BufTy).Contents (Elt F)) : (⟨S4000000, .i32⟩ : BufTy).Contents (Elt F) → (⟨S4000000, .i32⟩ : BufTy).Contents (Elt F) → (⟨S4000000, .i32⟩ : BufTy).Contents (Elt F))
        (after kops V (Proc.devRef .tc main_v154)) (after kops V (Proc.devRef .tc main_v138)) :=
  good.at_binary (a := main_v154) (b := main_v138) (y := main_v155) rfl (by decide) (by decide) (by decide) V

theorem after_v156 (V : Valuation τ sig (Elt F)) :
    after kops V (Proc.devRef .tc main_v156)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v146)) :=
  good.at_unary (x := main_v146) (y := main_v156) rfl (by decide) (by decide) V

theorem after_v157 (V : Valuation τ sig (Elt F)) :
    after kops V (Proc.devRef .tc main_v157)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v149)) :=
  good.at_unary (x := main_v149) (y := main_v157) rfl (by decide) (by decide) V

theorem after_v158 (V : Valuation τ sig (Elt F)) :
    after kops V (Proc.devRef .tc main_v158)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v152)) :=
  good.at_unary (x := main_v152) (y := main_v158) rfl (by decide) (by decide) V

theorem after_v159 (V : Valuation τ sig (Elt F)) :
    after kops V (Proc.devRef .tc main_v159)
      = ((broadcastInDim S4000000x1 ![0] bcast_S4000000_S4000000x1_0 : (⟨S4000000, .i32⟩ : BufTy).Contents (Elt F) → (⟨S4000000x1, .i32⟩ : BufTy).Contents (Elt F)) : (⟨S4000000, .i32⟩ : BufTy).Contents (Elt F) → (⟨S4000000x1, .i32⟩ : BufTy).Contents (Elt F))
        (after kops V (Proc.devRef .tc main_v155)) :=
  good.at_unary (x := main_v155) (y := main_v159) rfl (by decide) (by decide) V

theorem after_v160 (V : Valuation τ sig (Elt F)) :
    after kops V (Proc.devRef .tc main_v160)
      = (concatenate S4000000x4 1 [⟨S4000000x1, after kops V (Proc.devRef .tc main_v156)⟩, ⟨S4000000x1, after kops V (Proc.devRef .tc main_v157)⟩, ⟨S4000000x1, after kops V (Proc.devRef .tc main_v158)⟩, ⟨S4000000x1, after kops V (Proc.devRef .tc main_v159)⟩] concatenates_S4000000x1_S4000000x1_S4000000x1_S4000000x1_S4000000x4_d1 : (⟨S4000000x4, .i32⟩ : BufTy).Contents (Elt F)) :=
  good.at_nary (xs := ![main_v156, main_v157, main_v158, main_v159]) (y := main_v160) rfl (by decide) (by decide) V

theorem after_call9_c (V : Valuation τ sig (Elt F)) :
    after kops V (Proc.devRef .tc main_call9_c)
      = ((constantI S_ 32 0#32) : (⟨S_, .i32⟩ : BufTy).Contents (Elt F)) :=
  good.at_nullary (y := main_call9_c) rfl (by decide) V

theorem after_call9_v0 (V : Valuation τ sig (Elt F)) :
    after kops V (Proc.devRef .tc main_call9_v0)
      = ((broadcastInDim S4000000x4 ![] bcast_S_S4000000x4) : (⟨S_, .i32⟩ : BufTy).Contents (Elt F) → (⟨S4000000x4, .i32⟩ : BufTy).Contents (Elt F))
        (after kops V (Proc.devRef .tc main_call9_c)) :=
  good.at_unary (x := main_call9_c) (y := main_call9_v0) rfl (by decide) (by decide) V

theorem after_call9_v1 (V : Valuation τ sig (Elt F)) :
    after kops V (Proc.devRef .tc main_call9_v1)
      = ((cmpi .slt) : (⟨S4000000x4, .i32⟩ : BufTy).Contents (Elt F) → (⟨S4000000x4, .i32⟩ : BufTy).Contents (Elt F) → (⟨S4000000x4, .i1⟩ : BufTy).Contents (Elt F))
        (after kops V (Proc.devRef .tc main_v160)) (after kops V (Proc.devRef .tc main_call9_v0)) :=
  good.at_binary (a := main_v160) (b := main_call9_v0) (y := main_call9_v1) rfl (by decide) (by decide) (by decide) V

theorem after_call9_c_0 (V : Valuation τ sig (Elt F)) :
    after kops V (Proc.devRef .tc main_call9_c_0)
      = ((constantI S_ 32 262144#32) : (⟨S_, .i32⟩ : BufTy).Contents (Elt F)) :=
  good.at_nullary (y := main_call9_c_0) rfl (by decide) V

theorem after_call9_v2 (V : Valuation τ sig (Elt F)) :
    after kops V (Proc.devRef .tc main_call9_v2)
      = ((broadcastInDim S4000000x4 ![] bcast_S_S4000000x4) : (⟨S_, .i32⟩ : BufTy).Contents (Elt F) → (⟨S4000000x4, .i32⟩ : BufTy).Contents (Elt F))
        (after kops V (Proc.devRef .tc main_call9_c_0)) :=
  good.at_unary (x := main_call9_c_0) (y := main_call9_v2) rfl (by decide) (by decide) V

theorem after_call9_v3 (V : Valuation τ sig (Elt F)) :
    after kops V (Proc.devRef .tc main_call9_v3)
      = (addi : (⟨S4000000x4, .i32⟩ : BufTy).Contents (Elt F) → (⟨S4000000x4, .i32⟩ : BufTy).Contents (Elt F) → (⟨S4000000x4, .i32⟩ : BufTy).Contents (Elt F))
        (after kops V (Proc.devRef .tc main_v160)) (after kops V (Proc.devRef .tc main_call9_v2)) :=
  good.at_binary (a := main_v160) (b := main_call9_v2) (y := main_call9_v3) rfl (by decide) (by decide) (by decide) V

theorem after_call9_v4 (V : Valuation τ sig (Elt F)) :
    after kops V (Proc.devRef .tc main_call9_v4)
      = (select : (⟨S4000000x4, .i1⟩ : BufTy).Contents (Elt F) → (⟨S4000000x4, .i32⟩ : BufTy).Contents (Elt F) → (⟨S4000000x4, .i32⟩ : BufTy).Contents (Elt F) → (⟨S4000000x4, .i32⟩ : BufTy).Contents (Elt F))
        (after kops V (Proc.devRef .tc main_call9_v1)) (after kops V (Proc.devRef .tc main_call9_v3)) (after kops V (Proc.devRef .tc main_v160)) :=
  good.at_ternary (c := main_call9_v1) (a := main_call9_v3) (b := main_v160) (y := main_call9_v4) rfl (by decide) (by decide) (by decide) (by decide) V

theorem after_call9_v5 (V : Valuation τ sig (Elt F)) :
    after kops V (Proc.devRef .tc main_call9_v5)
      = ((broadcastInDim S4000000x4x1 ![0, 1] bcast_S4000000x4_S4000000x4x1_0_1) : (⟨S4000000x4, .i32⟩ : BufTy).Contents (Elt F) → (⟨S4000000x4x1, .i32⟩ : BufTy).Contents (Elt F))
        (after kops V (Proc.devRef .tc main_call9_v4)) :=
  good.at_unary (x := main_call9_v4) (y := main_call9_v5) rfl (by decide) (by decide) V

theorem after_call9_c_1 (V : Valuation τ sig (Elt F)) :
    after kops V (Proc.devRef .tc main_call9_c_1)
      = ((constantI S1 32 262143#32) : (⟨S1, .i32⟩ : BufTy).Contents (Elt F)) :=
  good.at_nullary (y := main_call9_c_1) rfl (by decide) V

theorem after_call9_c_2 (V : Valuation τ sig (Elt F)) :
    after kops V (Proc.devRef .tc main_call9_c_2)
      = ((constantI S_ 32 0#32) : (⟨S_, .i32⟩ : BufTy).Contents (Elt F)) :=
  good.at_nullary (y := main_call9_c_2) rfl (by decide) V

theorem after_call9_v6 (V : Valuation τ sig (Elt F)) :
    after kops V (Proc.devRef .tc main_call9_v6)
      = ((broadcastInDim S4000000x4x1 ![] bcast_S_S4000000x4x1) : (⟨S_, .i32⟩ : BufTy).Contents (Elt F) → (⟨S4000000x4x1, .i32⟩ : BufTy).Contents (Elt F))
        (after kops V (Proc.devRef .tc main_call9_c_2)) :=
  good.at_unary (x := main_call9_c_2) (y := main_call9_v6) rfl (by decide) (by decide) V

theorem after_call9_v7 (V : Valuation τ sig (Elt F)) :
    after kops V (Proc.devRef .tc main_call9_v7)
      = ((cmpi .sge) : (⟨S4000000x4x1, .i32⟩ : BufTy).Contents (Elt F) → (⟨S4000000x4x1, .i32⟩ : BufTy).Contents (Elt F) → (⟨S4000000x4x1, .i1⟩ : BufTy).Contents (Elt F))
        (after kops V (Proc.devRef .tc main_call9_v5)) (after kops V (Proc.devRef .tc main_call9_v6)) :=
  good.at_binary (a := main_call9_v5) (b := main_call9_v6) (y := main_call9_v7) rfl (by decide) (by decide) (by decide) V

theorem after_call9_v8 (V : Valuation τ sig (Elt F)) :
    after kops V (Proc.devRef .tc main_call9_v8)
      = ((broadcastInDim S1x1x1 ![2] bcast_S1_S1x1x1_2) : (⟨S1, .i32⟩ : BufTy).Contents (Elt F) → (⟨S1x1x1, .i32⟩ : BufTy).Contents (Elt F))
        (after kops V (Proc.devRef .tc main_call9_c_1)) :=
  good.at_unary (x := main_call9_c_1) (y := main_call9_v8) rfl (by decide) (by decide) V

theorem after_call9_v9 (V : Valuation τ sig (Elt F)) :
    after kops V (Proc.devRef .tc main_call9_v9)
      = ((broadcastInDim S4000000x4x1 ![0, 1, 2] bcast_S1x1x1_S4000000x4x1_0_1_2) : (⟨S1x1x1, .i32⟩ : BufTy).Contents (Elt F) → (⟨S4000000x4x1, .i32⟩ : BufTy).Contents (Elt F))
        (after kops V (Proc.devRef .tc main_call9_v8)) :=
  good.at_unary (x := main_call9_v8) (y := main_call9_v9) rfl (by decide) (by decide) V

theorem after_call9_v10 (V : Valuation τ sig (Elt F)) :
    after kops V (Proc.devRef .tc main_call9_v10)
      = ((cmpi .sle) : (⟨S4000000x4x1, .i32⟩ : BufTy).Contents (Elt F) → (⟨S4000000x4x1, .i32⟩ : BufTy).Contents (Elt F) → (⟨S4000000x4x1, .i1⟩ : BufTy).Contents (Elt F))
        (after kops V (Proc.devRef .tc main_call9_v5)) (after kops V (Proc.devRef .tc main_call9_v9)) :=
  good.at_binary (a := main_call9_v5) (b := main_call9_v9) (y := main_call9_v10) rfl (by decide) (by decide) (by decide) V

theorem after_call9_v11 (V : Valuation τ sig (Elt F)) :
    after kops V (Proc.devRef .tc main_call9_v11)
      = (andi : (⟨S4000000x4x1, .i1⟩ : BufTy).Contents (Elt F) → (⟨S4000000x4x1, .i1⟩ : BufTy).Contents (Elt F) → (⟨S4000000x4x1, .i1⟩ : BufTy).Contents (Elt F))
        (after kops V (Proc.devRef .tc main_call9_v7)) (after kops V (Proc.devRef .tc main_call9_v10)) :=
  good.at_binary (a := main_call9_v7) (b := main_call9_v10) (y := main_call9_v11) rfl (by decide) (by decide) (by decide) V

theorem after_call9_c_3 (V : Valuation τ sig (Elt F)) :
    after kops V (Proc.devRef .tc main_call9_c_3)
      = ((constantI S_ 1 1#1) : (⟨S_, .i1⟩ : BufTy).Contents (Elt F)) :=
  good.at_nullary (y := main_call9_c_3) rfl (by decide) V

theorem after_call9_v12 (V : Valuation τ sig (Elt F)) :
    after kops V (Proc.devRef .tc main_call9_v12)
      = ((fun x v => Host.reduce IntOp.andi x v reducesTo_S4000000x4x1_S4000000x4_d2 h_S_) : (⟨S4000000x4x1, .i1⟩ : BufTy).Contents (Elt F) → (⟨S_, .i1⟩ : BufTy).Contents (Elt F) → (⟨S4000000x4, .i1⟩ : BufTy).Contents (Elt F))
        (after kops V (Proc.devRef .tc main_call9_v11)) (after kops V (Proc.devRef .tc main_call9_c_3)) :=
  good.at_binary (a := main_call9_v11) (b := main_call9_c_3) (y := main_call9_v12) rfl (by decide) (by decide) (by decide) V

theorem after_call9_v13 (V : Valuation τ sig (Elt F)) :
    after kops V (Proc.devRef .tc main_call9_v13)
      = ((fun x i => Host.gather gather_S262144x8_S4000000x4x1_S4000000x4x8_2_0_n_n_0_2_18 x i) : (⟨S262144x8, .f32⟩ : BufTy).Contents (Elt F) → (⟨S4000000x4x1, .i32⟩ : BufTy).Contents (Elt F) → (⟨S4000000x4x8, .f32⟩ : BufTy).Contents (Elt F))
        (after kops V (Proc.devRef .tc main_v143)) (after kops V (Proc.devRef .tc main_call9_v5)) :=
  good.at_binary (a := main_v143) (b := main_call9_v5) (y := main_call9_v13) rfl (by decide) (by decide) (by decide) V

theorem after_call9_v14 (V : Valuation τ sig (Elt F)) :
    after kops V (Proc.devRef .tc main_call9_v14)
      = ((broadcastInDim S4000000x4x8 ![0, 1] bcast_S4000000x4_S4000000x4x8_0_1) : (⟨S4000000x4, .i1⟩ : BufTy).Contents (Elt F) → (⟨S4000000x4x8, .i1⟩ : BufTy).Contents (Elt F))
        (after kops V (Proc.devRef .tc main_call9_v12)) :=
  good.at_unary (x := main_call9_v12) (y := main_call9_v14) rfl (by decide) (by decide) V

theorem after_call9_cst (V : Valuation τ sig (Elt F)) :
    after kops V (Proc.devRef .tc main_call9_cst)
      = ((constant S_ .f32 0x7FC00000#32) : (⟨S_, .f32⟩ : BufTy).Contents (Elt F)) :=
  good.at_nullary (y := main_call9_cst) rfl (by decide) V

theorem after_call9_v15 (V : Valuation τ sig (Elt F)) :
    after kops V (Proc.devRef .tc main_call9_v15)
      = ((broadcastInDim S4000000x4x8 ![] bcast_S_S4000000x4x8) : (⟨S_, .f32⟩ : BufTy).Contents (Elt F) → (⟨S4000000x4x8, .f32⟩ : BufTy).Contents (Elt F))
        (after kops V (Proc.devRef .tc main_call9_cst)) :=
  good.at_unary (x := main_call9_cst) (y := main_call9_v15) rfl (by decide) (by decide) V

theorem after_v161 (V : Valuation τ sig (Elt F)) :
    after kops V (Proc.devRef .tc main_v161)
      = (select : (⟨S4000000x4x8, .i1⟩ : BufTy).Contents (Elt F) → (⟨S4000000x4x8, .f32⟩ : BufTy).Contents (Elt F) → (⟨S4000000x4x8, .f32⟩ : BufTy).Contents (Elt F) → (⟨S4000000x4x8, .f32⟩ : BufTy).Contents (Elt F))
        (after kops V (Proc.devRef .tc main_call9_v14)) (after kops V (Proc.devRef .tc main_call9_v13)) (after kops V (Proc.devRef .tc main_call9_v15)) :=
  good.at_ternary (c := main_call9_v14) (a := main_call9_v13) (b := main_call9_v15) (y := main_v161) rfl (by decide) (by decide) (by decide) (by decide) V

theorem after_v162 (V : Valuation τ sig (Elt F)) :
    after kops V (Proc.devRef .tc main_v162)
      = (shapeCast S4000000x32 (after kops V (Proc.devRef .tc main_v161)) shapeCasts_S4000000x4x8_S4000000x32 : (⟨S4000000x32, .f32⟩ : BufTy).Contents (Elt F)) :=
  good.at_reshape (x := main_v161) (y := main_v162) rfl (by decide) (by decide) V

theorem after_v163 (V : Valuation τ sig (Elt F)) :
    after kops V (Proc.devRef .tc main_v163)
      = (((transpose S24x8 [1, 0] · transposes_S8x24_S24x8_1_0) : (⟨S8x24, .f32⟩ : BufTy).Contents (Elt F) → (⟨S24x8, .f32⟩ : BufTy).Contents (Elt F)) : (⟨S8x24, .f32⟩ : BufTy).Contents (Elt F) → (⟨S24x8, .f32⟩ : BufTy).Contents (Elt F))
        (after kops V (Proc.devRef .tc main_arg4)) :=
  good.at_unary (x := main_arg4) (y := main_v163) rfl (by decide) (by decide) V

end Cert.KernelIdeal.HostRun

end
-- ==== Proof.KFold3.lean ====
/- The kernel program's host line folded, plane 3: its corner array as a composition of the clipped coordinates and the plane.
   Each equation is between what buffers hold after the whole host line. Every buffer between its two sides is written
   once, by one operation, from buffers written before it; replacing each by its operation's value leaves exactly the
   composition on the right: the pixel coordinates of a column of the clipped coordinates, the four corners' flat row
   numbers of two pixel vectors, the plane's rows taken at them, the rows laid side by side in 32 lanes. -/
import proofs.«114771_j71983651881269_2_alg».proof.Proof.KEqs4
import proofs.«114771_j71983651881269_2_alg».proof.Proof.KEqs5
import proofs.«114771_j71983651881269_2_alg».proof.Proof.KHostChainDefs

set_option maxRecDepth 16384

noncomputable section

namespace Cert.KernelIdeal.Fold

open Cert.KernelIdeal Cert.KernelIdeal.Gen Cert.KernelIdeal.HostRun Cert.KernelIdeal.HostChain
open Idealize.ShloMosaic Idealize.ShloMosaic.TcCoe Idealize.SL.Sem Idealize.ShloMosaic.StableHlo

variable {F : FTy → Type} [FloatOps F]

-- the equations are between folds of the line at different buffers: never a question of what a fold, a reduction or a gather computes
attribute [local irreducible] Idealize.ShloMosaic.StableHlo.after Idealize.ShloMosaic.Host.reduce Idealize.ShloMosaic.Host.gather

set_option maxHeartbeats 8000000 in
/-- Plane 3: the column pixel vector is the pixel coordinates of column 1 of the clipped coordinates (the buffers between
    replaced each by its operation's value). -/
theorem pixX3 (V : Valuation τ sig (Elt F)) :
    after kops V (Proc.devRef .tc main_v121)
      = pixVec (colVec1 (after kops V (Proc.devRef .tc main_v0))) := by
  try rw [after_v121]
  try rw [after_call7_v4]
  try rw [after_call7_v3]
  try rw [after_call7_v2]
  try rw [after_call7_v1]
  try rw [after_call7_v0]
  try rw [after_cst_45]
  try rw [after_cst_44]
  try rw [after_v120]
  try rw [after_v119]
  try rw [after_cst_43]
  try rw [after_v118]
  try rw [after_v117]
  try rw [after_cst_42]
  try rw [after_v116]
  try rw [after_v115]
  try rw [after_cst_41]
  try rw [after_v114]
  try rw [after_v113]
  try rw [after_cst_40]
  try rw [after_v112]
  try rw [after_v111]
  try rw [after_v110]
  try rw [after_v109]
  rfl

set_option maxHeartbeats 8000000 in
/-- Plane 3: the row pixel vector is the pixel coordinates of column 2 of the clipped coordinates. -/
theorem pixY3 (V : Valuation τ sig (Elt F)) :
    after kops V (Proc.devRef .tc main_v130)
      = pixVec (colVec2 (after kops V (Proc.devRef .tc main_v0))) := by
  try rw [after_v130]
  try rw [after_call8_v4]
  try rw [after_call8_v3]
  try rw [after_call8_v2]
  try rw [after_call8_v1]
  try rw [after_call8_v0]
  try rw [after_cst_51]
  try rw [after_cst_50]
  try rw [after_v129]
  try rw [after_v128]
  try rw [after_cst_49]
  try rw [after_v127]
  try rw [after_v126]
  try rw [after_cst_48]
  try rw [after_v125]
  try rw [after_v124]
  try rw [after_cst_47]
  try rw [after_v123]
  try rw [after_v122]
  try rw [after_cst_46]
  try rw [after_v121]
  try rw [after_call7_v4]
  try rw [after_call7_v3]
  try rw [after_call7_v2]
  try rw [after_call7_v1]
  try rw [after_call7_v0]
  try rw [after_cst_45]
  try rw [after_cst_44]
  try rw [after_v120]
  try rw [after_v119]
  try rw [after_cst_43]
  try rw [after_v118]
  try rw [after_v117]
  try rw [after_cst_42]
  try rw [after_v116]
  try rw [after_v115]
  try rw [after_cst_41]
  try rw [after_v114]
  try rw [after_v113]
  try rw [after_cst_40]
  try rw [after_v112]
  try rw [after_v111]
  try rw [after_v110]
  try rw [after_v109]
  rfl

set_option maxHeartbeats 8000000 in
/-- Plane 3: the N × 4 array of flat row numbers is the four corners' of the two pixel vectors. -/
theorem idx3 (V : Valuation τ sig (Elt F)) :
    after kops V (Proc.devRef .tc main_v160)
      = cornerIdx (after kops V (Proc.devRef .tc main_v121)) (after kops V (Proc.devRef .tc main_v130)) := by
  try rw [after_v160]
  try rw [after_v159]
  try rw [after_v158]
  try rw [after_v157]
  try rw [after_v156]
  try rw [after_v155]
  try rw [after_v154]
  try rw [after_v153]
  try rw [after_c_59]
  try rw [after_v152]
  try rw [after_v151]
  try rw [after_v150]
  try rw [after_c_58]
  try rw [after_v149]
  try rw [after_v148]
  try rw [after_v147]
  try rw [after_c_57]
  try rw [after_v146]
  try rw [after_v145]
  try rw [after_v144]
  try rw [after_c_56]
  try rw [after_v143]
  try rw [after_v142]
  try rw [after_v141]
  try rw [after_c_55]
  try rw [after_v140]
  try rw [after_v139]
  try rw [after_c_54]
  try rw [after_v138]
  try rw [after_v137]
  try rw [after_c_53]
  try rw [after_v136]
  try rw [after_v135]
  try rw [after_c_52]
  try rw [after_v134]
  try rw [after_v133]
  try rw [after_v132]
  try rw [after_v131]
  rfl

set_option maxHeartbeats 8000000 in
/-- Plane 3: the N × 4 × 8 array of corner rows is the plane's rows taken at the flat row numbers (the plane
    flattened to rows of 8 features first). -/
theorem rows3 (V : Valuation τ sig (Elt F)) :
    after kops V (Proc.devRef .tc main_v161)
      = takeRows (after kops V (Proc.devRef .tc main_arg3)) (after kops V (Proc.devRef .tc main_v160)) := by
  try rw [after_v161]
  try rw [after_call9_v15]
  try rw [after_call9_cst]
  try rw [after_call9_v14]
  try rw [after_call9_v13]
  try rw [after_call9_v12]
  try rw [after_call9_c_3]
  try rw [after_call9_v11]
  try rw [after_call9_v10]
  try rw [after_call9_v9]
  try rw [after_call9_v8]
  try rw [after_call9_v7]
  try rw [after_call9_v6]
  try rw [after_call9_c_2]
  try rw [after_call9_c_1]
  try rw [after_call9_v5]
  try rw [after_call9_v4]
  try rw [after_call9_v3]
  try rw [after_call9_v2]
  try rw [after_call9_c_0]
  try rw [after_call9_v1]
  try rw [after_call9_v0]
  try rw [after_call9_c]
  try rw [after_v143]
  rfl

/-- Plane 3: the staged corner array holds, after the host line, the four corner rows of the plane's array at the cells
    of the pixel coordinates of columns 1 and 2 of the clipped coordinates: the four stages composed, the rows laid
    side by side in 32 lanes (a reshape of the N × 4 × 8 array of corner rows). -/
theorem fold_corners3 (V : Valuation τ sig (Elt F)) :
    after kops V (Proc.devRef .tc main_v162)
      = cornersK (after kops V (Proc.devRef .tc main_arg3)) (pixVec (colVec1 (after kops V (Proc.devRef .tc main_v0))))
          (pixVec (colVec2 (after kops V (Proc.devRef .tc main_v0)))) := by
  rw [after_v162, rows3, idx3, pixX3, pixY3]
  rfl

end Cert.KernelIdeal.Fold

end
-- ==== Proof.KHostChain.lean ====
/-
  The host side of the tri-plane sampler's kernel program, read at an index at the ideal instance.

  A pixel coordinate is a real number of [0, 511], so its cell words are row numbers of an axis of extent 512, the
  flat row number `y · 512 + x` is in range, never negative and never masked, and lane 8 j + r of row n of
  `cornersK P X Y` is the plane `P` at (y, x, r), where (y, x) is corner j of the cell of point n, corners in the order
  (y0, x0), (y0, x1), (y1, x0), (y1, x1).
-/
import proofs.«114771_j71983651881269_2_alg».proof.Proof.KHostChainDefs
import proofs.«114771_j71983651881269_2_alg».proof.Proof.Spec
import proofs.«114771_j71983651881269_2_alg».proof.Proof.SpecRange
import proofs.«114771_j71983651881269_2_alg».proof.Proof.LibTakeRows
import proofs.«114771_j71983651881269_2_alg».proof.Proof.LibConcatCols
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.HostChain

open Idealize.ShloMosaic Idealize.ShloMosaic.ValueIdx
open Cert.KernelIdeal Cert.KernelIdeal.Gen
open Cert.TriPlane

section AtIdeal

/-- A vector of extended reals over the shape `S`, as the program's buffers hold it at the ideal instance. -/
abbrev VF (S : Shape) : Type := (⟨S, .f32⟩ : BufTy).Contents (Elt Ideal)
/-- A vector of 32-bit integers over the shape `S`. -/
abbrev VI (S : Shape) : Type := (⟨S, .i32⟩ : BufTy).Contents (Elt Ideal)

/-- The cell word of a pixel coordinate `p`: its floor converted to a 32-bit integer. -/
abbrev cw (p : EReal) : BitVec 32 := Ideal.fptosi 32 (Ideal.liftRound Int.floor p)
/-- The next cell's word, capped at 511. -/
abbrev cw1 (p : EReal) : BitVec 32 := IntOp.minsi (IntOp.addi (cw p) 1#32) 511#32

/-! ## The elementwise stretches -/

/-- The clip read at an index. -/
theorem clipVec_apply (A : VF S4000000x3) (i : S4000000x3.Idx) : clipVec A i = clip1 (A i) := rfl

/-- The pixel coordinate read at an index. -/
theorem pixVec_apply (C : VF S4000000) (i : S4000000.Idx) : pixVec C i = pix (C i) := rfl

/-- The cell word read at an index. -/
theorem cellVec_apply (X : VF S4000000) (i : S4000000.Idx) : cellVec X i = cw (X i) := rfl

/-- The next cell's word read at an index. -/
theorem cellVec1_apply (X : VF S4000000) (i : S4000000.Idx) : cellVec1 X i = cw1 (X i) := rfl

/-- Corner (y0, x0)'s flat row number read at an index. -/
theorem flat00_apply (X Y : VF S4000000) (i : S4000000.Idx) : flat00 X Y i = flatW (cw (Y i)) (cw (X i)) := rfl
/-- Corner (y0, x1)'s flat row number read at an index. -/
theorem flat01_apply (X Y : VF S4000000) (i : S4000000.Idx) : flat01 X Y i = flatW (cw (Y i)) (cw1 (X i)) := rfl
/-- Corner (y1, x0)'s flat row number read at an index. -/
theorem flat10_apply (X Y : VF S4000000) (i : S4000000.Idx) : flat10 X Y i = flatW (cw1 (Y i)) (cw (X i)) := rfl
/-- Corner (y1, x1)'s flat row number read at an index. -/
theorem flat11_apply (X Y : VF S4000000) (i : S4000000.Idx) : flat11 X Y i = flatW (cw1 (Y i)) (cw1 (X i)) := rfl

/-! ## Columns of the coordinates -/

/-- A column cut out of an N × 3 array and flattened reads, at `n`, the array at `(n, k)`. -/
theorem col_apply (U : VF S4000000x3) (k : Fin 3) (h : S4000000x3.Slices ![0, k.val] S4000000x1) (n : Fin 4000000) :
    shapeCast S4000000 (extractStridedSlice S4000000x1 ![0, k.val] U h) shapeCasts_S4000000x1_S4000000 (ix1 n)
      = U (ix2 n k) := by
  refine (shapeCast_apply _ _ (ix1 n) (ix2 n (0 : Fin 1)) ?_).trans ?_
  · rw [Shape.rowMajor_val_two, Shape.rowMajor_val_one]
    show n.val * 1 + 0 = n.val
    omega
  · exact Idealize.ShloMosaic.ValueIdx.slice2_axis1_apply k.val U h n (0 : Fin 1) k (by simp)

/-- Column 0 read at `n`. -/
theorem colVec0_apply (U : VF S4000000x3) (n : Fin 4000000) : colVec0 U (ix1 n) = U (ix2 n (0 : Fin 3)) :=
  col_apply U 0 slices_S4000000x3_S4000000x1_0_0 n
/-- Column 1 read at `n`. -/
theorem colVec1_apply (U : VF S4000000x3) (n : Fin 4000000) : colVec1 U (ix1 n) = U (ix2 n (1 : Fin 3)) :=
  col_apply U 1 slices_S4000000x3_S4000000x1_0_1 n
/-- Column 2 read at `n`. -/
theorem colVec2_apply (U : VF S4000000x3) (n : Fin 4000000) : colVec2 U (ix1 n) = U (ix2 n (2 : Fin 3)) :=
  col_apply U 2 slices_S4000000x3_S4000000x1_0_2 n

end AtIdeal

section AtIdealIdx

/-! ## The index array -/

/-- A vector made a single column reads, at `(n, 0)`, the vector at `n`. -/
theorem asCol_apply {α : Type} (v : S4000000.Idx → α) (n : Fin 4000000) :
    broadcastInDim S4000000x1 ![0] bcast_S4000000_S4000000x1_0 v (ix2 n (0 : Fin 1)) = v (ix1 n) := by
  refine broadcastInDim_apply _ _ _ _ (ix1 n) ?_
  intro a
  match a with
  | ⟨0, _⟩ => exact (if_neg (show ¬ (4000000 : Nat) = 1 by decide)).symm

/-- THE INDEX ARRAY READ AT `(n, j)`: corner `j`'s flat row number at `n`, corners in the order (y0, x0), (y0, x1),
    (y1, x0), (y1, x1). -/
theorem cornerIdx_apply (X Y : VF S4000000) (n : Fin 4000000) (j : Fin 4) :
    cornerIdx X Y (ix2 n j) = (![flat00 X Y, flat01 X Y, flat10 X Y, flat11 X Y] j) (ix1 n) := by
  unfold cornerIdx
  refine (Cert.Lib.ConcatCols.concat4_cols_apply _ _ _ _ _ n j).trans ?_
  match j with
  | ⟨0, _⟩ => exact asCol_apply (flat00 X Y) n
  | ⟨1, _⟩ => exact asCol_apply (flat01 X Y) n
  | ⟨2, _⟩ => exact asCol_apply (flat10 X Y) n
  | ⟨3, _⟩ => exact asCol_apply (flat11 X Y) n

/-! ## Taking the rows -/

/-- The row number the gather takes at `(n, j, 0)`: the one at `(n, j)`, moved up by 262144 when negative. -/
theorem normIdx_apply (I : VI S4000000x4) (n : Fin 4000000) (j : Fin 4) :
    normIdx I (ix3 n j (0 : Fin 1))
      = Scalar.select (IntOp.cmpi .slt (I (ix2 n j)) 0#32) (IntOp.addi (I (ix2 n j)) 262144#32) (I (ix2 n j)) := by
  unfold normIdx
  refine (broadcastInDim_apply _ _ _ (ix3 n j (0 : Fin 1)) (ix2 n j) ?_).trans ?_
  · intro a
    match a with
    | ⟨0, _⟩ => exact (if_neg (show ¬ (4000000 : Nat) = 1 by decide)).symm
    | ⟨1, _⟩ => exact (if_neg (show ¬ (4 : Nat) = 1 by decide)).symm
  · rfl

/-- The in-range mask read at `(n, j)`: the two comparisons of the row number at `(n, j, 0)`. -/
theorem maskRows_apply (J : VI S4000000x4x1) (n : Fin 4000000) (j : Fin 4) :
    maskRows J (ix2 n j)
      = IntOp.andi (IntOp.cmpi .sge (J (ix3 n j (0 : Fin 1))) 0#32) (IntOp.cmpi .sle (J (ix3 n j (0 : Fin 1))) 262143#32) := by
  unfold maskRows
  refine (Cert.Lib.TakeRows.reduce_andi_unit_apply_one _ _ _ _ (fun _ => rfl) n j).trans ?_
  rfl

/-- The mask repeated along the rows reads, at `(n, j, r)`, the mask at `(n, j)`. -/
theorem maskB_apply (M : (⟨S4000000x4, .i1⟩ : BufTy).Contents (Elt Ideal)) (n : Fin 4000000) (j : Fin 4) (r : Fin 8) :
    maskB M (ix3 n j r) = M (ix2 n j) := by
  unfold maskB
  refine broadcastInDim_apply _ _ _ (ix3 n j r) (ix2 n j) ?_
  intro a
  match a with
  | ⟨0, _⟩ => exact (if_neg (show ¬ (4000000 : Nat) = 1 by decide)).symm
  | ⟨1, _⟩ => exact (if_neg (show ¬ (4 : Nat) = 1 by decide)).symm

/-- The flattened plane read at row `y · 512 + x`: the plane at cell `(y, x)`. -/
theorem flatPlane_apply (P : VF S512x512x8) (y x : Fin 512) (r : Fin 8) :
    flatPlane P (ix2 (flatRow y x) r) = P (ix3 y x r) := by
  unfold flatPlane
  refine shapeCast_apply _ _ _ (ix3 y x r) ?_
  rw [Shape.rowMajor_val_three, Shape.rowMajor_val_two]
  show (y.val * 512 + x.val) * 8 + r.val = (512 * y.val + x.val) * 8 + r.val
  omega

/-- The gathered rows read at `(n, j, r)`, when the row number at `(n, j, 0)` reads, signed, as the row `k`. -/
theorem gatherRows_apply (P : VF S512x512x8) (J : VI S4000000x4x1) (n : Fin 4000000) (j : Fin 4) (r : Fin 8)
    (k : Fin 262144) (hk : (J (ix3 n j (0 : Fin 1))).toInt = (k.val : Int)) :
    gatherRows P J (ix3 n j r) = flatPlane P (ix2 k r) := by
  unfold gatherRows
  exact Cert.Lib.TakeRows.gather_rows_apply gather_S262144x8_S4000000x4x1_S4000000x4x8_2_0_n_n_0_2_18_wf (flatPlane P) J n j r k hk

/-- THE ROWS TAKEN, READ AT `(n, j, r)`: when the row number at `(n, j)` is the flat word `a · 512 + b` of two cell
    words, it is in range, so the entry is the plane at cell `(a, b)`, feature `r`. -/
theorem takeRows_apply (P : VF S512x512x8) (I : VI S4000000x4) (n : Fin 4000000) (j : Fin 4) (r : Fin 8)
    (a b : BitVec 32) (ha : IsCell a) (hb : IsCell b) (hI : I (ix2 n j) = flatW a b) :
    takeRows P I (ix3 n j r)
      = P (ix3 (Cert.Lib.TakeRows.clampIdx 512 (by norm_num) a) (Cert.Lib.TakeRows.clampIdx 512 (by norm_num) b) r) := by
  have hJ : normIdx I (ix3 n j (0 : Fin 1)) = flatW a b := by
    rw [normIdx_apply, hI]; exact flatW_select ha hb
  have hM : maskB (maskRows (normIdx I)) (ix3 n j r) = 1#1 := by
    rw [maskB_apply, maskRows_apply, hJ]; exact flatW_mask ha hb
  have hG : gatherRows P (normIdx I) (ix3 n j r)
      = P (ix3 (Cert.Lib.TakeRows.clampIdx 512 (by norm_num) a) (Cert.Lib.TakeRows.clampIdx 512 (by norm_num) b) r) := by
    refine (gatherRows_apply P (normIdx I) n j r _ ?_).trans (flatPlane_apply P _ _ r)
    rw [hJ]; exact flatW_toInt_row ha hb
  show Scalar.select (maskB (maskRows (normIdx I)) (ix3 n j r)) (gatherRows P (normIdx I) (ix3 n j r)) (fillVec (ix3 n j r)) = _
  rw [hM, hG]
  exact Cert.Lib.PixelIndex.select_one _ _

/-! ## The corner rows -/

/-- The N × 32 array read at lane `8 j + r` of row `n`: the rows taken at `(n, j, r)`. -/
theorem cornersK_eq_takeRows (P : VF S512x512x8) (X Y : VF S4000000) (n : Fin 4000000) (j : Fin 4) (r : Fin 8) :
    cornersK P X Y (ix2 n (lane j r)) = takeRows P (cornerIdx X Y) (ix3 n j r) := by
  unfold cornersK
  refine shapeCast_apply _ _ _ (ix3 n j r) ?_
  rw [Shape.rowMajor_val_three, Shape.rowMajor_val_two]
  show (n.val * 4 + j.val) * 8 + r.val = n.val * 32 + (8 * j.val + r.val)
  omega

variable (P : VF S512x512x8) (X Y : VF S4000000) (n : Fin 4000000) (r : Fin 8) (u v : EReal)

/-- CORNER (y0, x0): lanes 0 … 7 of row `n` hold the plane at the cell of the point, when the two pixel vectors hold
    at `n` the pixel coordinates of `u` (column) and `v` (row). -/
theorem cornersK_apply_00 (hX : X (ix1 n) = pix u) (hY : Y (ix1 n) = pix v) :
    cornersK P X Y (ix2 n (lane 0 r)) = P (ix3 (cellLo v) (cellLo u) r) := by
  rw [cornersK_eq_takeRows]
  refine takeRows_apply P _ n 0 r (xw v) (xw u) (xw_isCell v) (xw_isCell u) ?_
  rw [cornerIdx_apply]
  show flat00 X Y (ix1 n) = _
  rw [flat00_apply, hX, hY]
  rfl

/-- CORNER (y0, x1): lanes 8 … 15. -/
theorem cornersK_apply_01 (hX : X (ix1 n) = pix u) (hY : Y (ix1 n) = pix v) :
    cornersK P X Y (ix2 n (lane 1 r)) = P (ix3 (cellLo v) (cellHi u) r) := by
  rw [cornersK_eq_takeRows]
  refine takeRows_apply P _ n 1 r (xw v) (xw1 u) (xw_isCell v) (xw1_isCell u) ?_
  rw [cornerIdx_apply]
  show flat01 X Y (ix1 n) = _
  rw [flat01_apply, hX, hY]
  rfl

/-- CORNER (y1, x0): lanes 16 … 23. -/
theorem cornersK_apply_10 (hX : X (ix1 n) = pix u) (hY : Y (ix1 n) = pix v) :
    cornersK P X Y (ix2 n (lane 2 r)) = P (ix3 (cellHi v) (cellLo u) r) := by
  rw [cornersK_eq_takeRows]
  refine takeRows_apply P _ n 2 r (xw1 v) (xw u) (xw1_isCell v) (xw_isCell u) ?_
  rw [cornerIdx_apply]
  show flat10 X Y (ix1 n) = _
  rw [flat10_apply, hX, hY]
  rfl

/-- CORNER (y1, x1): lanes 24 … 31. -/
theorem cornersK_apply_11 (hX : X (ix1 n) = pix u) (hY : Y (ix1 n) = pix v) :
    cornersK P X Y (ix2 n (lane 3 r)) = P (ix3 (cellHi v) (cellHi u) r) := by
  rw [cornersK_eq_takeRows]
  refine takeRows_apply P _ n 3 r (xw1 v) (xw1 u) (xw1_isCell v) (xw1_isCell u) ?_
  rw [cornerIdx_apply]
  show flat11 X Y (ix1 n) = _
  rw [flat11_apply, hX, hY]
  rfl

/-! ## From the clipped coordinates to a pixel vector -/

/-- The pixel vector of column 0 of `U` holds, at `n`, the pixel coordinate of `U (n, 0)`. -/
theorem pixCol0_apply (U : VF S4000000x3) : pixVec (colVec0 U) (ix1 n) = pix (U (ix2 n (0 : Fin 3))) := by
  rw [pixVec_apply, colVec0_apply]
/-- The pixel vector of column 1 of `U` holds, at `n`, the pixel coordinate of `U (n, 1)`. -/
theorem pixCol1_apply (U : VF S4000000x3) : pixVec (colVec1 U) (ix1 n) = pix (U (ix2 n (1 : Fin 3))) := by
  rw [pixVec_apply, colVec1_apply]
/-- The pixel vector of column 2 of `U` holds, at `n`, the pixel coordinate of `U (n, 2)`. -/
theorem pixCol2_apply (U : VF S4000000x3) : pixVec (colVec2 U) (ix1 n) = pix (U (ix2 n (2 : Fin 3))) := by
  rw [pixVec_apply, colVec2_apply]

end AtIdealIdx

end Cert.KernelIdeal.HostChain

end
-- ==== Proof.KHostValue.lean ====
/-
  The kernel program's host side read at an index, at the ideal instance: what two of the region's operand arrays
  hold when the region starts, as functions of the launch memory.

  * The clipped coordinates: entry (n, a) is the launched coordinate (n, a) clipped into [-1, 1].
  * The transposed projection matrix: entry (k, o) is the launched matrix at (o, k).
-/
import proofs.«114771_j71983651881269_2_alg».proof.Proof.FrameKIHost
import proofs.«114771_j71983651881269_2_alg».proof.Proof.Spec
import Idealize.ShloMosaic.Lib.StableHlo.Run
import Idealize.ShloMosaic.Lib.ValueLayout
import Idealize.ShloMosaic.PureOps.Ideal

set_option maxRecDepth 16384

noncomputable section

namespace Cert.KernelIdeal.HostValue

open Idealize.ShloMosaic Idealize.ShloMosaic.TcCoe Idealize.SL.Sem Idealize.ShloMosaic.ValueIdx
open Cert.KernelIdeal Cert.KernelIdeal.Gen Cert.KernelIdeal.Hand
open Cert.TriPlane

variable (m : (ℓ : Loc nD τ sig) → Buf (Elt Ideal) ℓ)

/-- The launched coordinates of core `c`: an N × 3 array of extended reals. -/
abbrev A0 (c : Dev nD) : S4000000x3.Idx → EReal := m (c, Proc.tc.devRef main_arg0)
/-- The launched projection matrix of core `c`: an 8 × 24 array of extended reals. -/
abbrev A4 (c : Dev nD) : S8x24.Idx → EReal := m (c, Proc.tc.devRef main_arg4)

set_option maxHeartbeats 4000000 in
/-- The clipped coordinates as a whole array: the minimum with 1 of the maximum with −1 of the launched ones. -/
theorem V_v0_eq (c : Dev nD) :
    (V m c main_v0 : S4000000x3.Idx → EReal)
      = minimumf (F := Ideal) (φ := .f32) (broadcastInDim S4000000x3 ![] bcast_S_S4000000x3 (id (constant S_ .f32 0x3F800000#32)))
          (maximumf (broadcastInDim S4000000x3 ![] bcast_S_S4000000x3 (id (constant S_ .f32 0xBF800000#32))) (A0 m c)) := by
  dsimp only [V, stretches]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  simp only [StableHlo.TRef.toBuf, StableHlo.TRef.ofBuf, cast_eq]

/-- THE CLIPPED COORDINATES READ AT `(n, a)`: the launched coordinate clipped into `[-1, 1]`. -/
theorem V_v0_apply (c : Dev nD) (n : Fin 4000000) (a : Fin 3) :
    (V m c main_v0 : S4000000x3.Idx → EReal) (ix2 n a) = clip1 (A0 m c (ix2 n a)) := by
  rw [V_v0_eq]
  rfl

set_option maxHeartbeats 4000000 in
/-- The projection matrix as the region finds it: the launched matrix transposed. -/
theorem V_v163_eq (c : Dev nD) :
    (V m c main_v163 : S24x8.Idx → EReal) = transpose S24x8 [1, 0] (A4 m c) transposes_S8x24_S24x8_1_0 := by
  dsimp only [V, stretches]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp

/-- THE TRANSPOSED PROJECTION MATRIX READ AT `(k, o)`: the launched matrix at `(o, k)`. -/
theorem V_v163_apply (c : Dev nD) (k : Fin 24) (o : Fin 8) :
    (V m c main_v163 : S24x8.Idx → EReal) (ix2 k o) = A4 m c (ix2 o k) := by
  rw [V_v163_eq]
  exact transpose_ix2_apply (A4 m c) transposes_S8x24_S24x8_1_0 k o

end Cert.KernelIdeal.HostValue

end
-- ==== Proof.KFacts.lean ====
/- The kernel program's host side, as the facts the comparison of the two programs takes: what the six arrays the kernel is
   launched on hold when the region starts, read at an index, as functions of the launch memory.

   * The clipped coordinates: entry (n, a) is the launched coordinate clipped into [-1, 1] (`hCc`).
   * Per plane, the staged corner array: row n holds, in lanes 8j + r, feature r of the plane at corner j of the cell of
     the point — rows ⌊pix v⌋ and the next (capped), columns ⌊pix u⌋ and the next (capped), u and v two of the point's
     clipped coordinates: columns 0 and 1 for the first plane, 0 and 2 for the second, 1 and 2 for the third
     (`hC1`, `hC2`, `hC3`). Each follows from the host line folded into the staged composition `cornersK` of the plane and the
     clipped coordinates (`Fold.fold_corners1` … `3`), whose entries are the plane's at the cells.
   * The projection matrix transposed (`hWt`) and the bias, an argument no host operation writes (`hBk`). -/
import proofs.«114771_j71983651881269_2_alg».proof.Proof.KFold1
import proofs.«114771_j71983651881269_2_alg».proof.Proof.KFold2
import proofs.«114771_j71983651881269_2_alg».proof.Proof.KFold3
import proofs.«114771_j71983651881269_2_alg».proof.Proof.KHostChain
import proofs.«114771_j71983651881269_2_alg».proof.Proof.KHostValue
import proofs.«114771_j71983651881269_2_alg».proof.Proof.Spec

set_option maxRecDepth 16384

noncomputable section

namespace Cert.KernelIdeal.Facts

open Cert.KernelIdeal Cert.KernelIdeal.Gen Cert.KernelIdeal.HostRun Cert.KernelIdeal.HostChain Cert.KernelIdeal.Hand Cert.KernelIdeal.Fold
open Idealize.ShloMosaic Idealize.ShloMosaic.TcCoe Idealize.SL.Sem Idealize.ShloMosaic.StableHlo Idealize.ShloMosaic.ValueIdx
open Cert.TriPlane

/-! ## The arrays the comparison is stated over -/

variable (m : (ℓ : Loc nD τ sig) → Buf (Elt Ideal) ℓ)

/-- The clipped coordinates when the region starts. -/
abbrev Cc (c : Dev nD) : Vec Ideal S4000000x3 .f32 := V m c main_v0
/-- The three staged corner arrays when the region starts. -/
abbrev C1 (c : Dev nD) : Vec Ideal S4000000x32 .f32 := V m c main_v54
@[inherit_doc C1] abbrev C2 (c : Dev nD) : Vec Ideal S4000000x32 .f32 := V m c main_v108
@[inherit_doc C1] abbrev C3 (c : Dev nD) : Vec Ideal S4000000x32 .f32 := V m c main_v162
/-- The transposed projection matrix when the region starts. -/
abbrev Wt (c : Dev nD) : Vec Ideal S24x8 .f32 := V m c main_v163
/-- The bias when the region starts. -/
abbrev Bk (c : Dev nD) : Vec Ideal S8 .f32 := V m c main_arg5
/-- The launched coordinates. -/
abbrev X (c : Dev nD) : (⟨2, ![4000000, 3]⟩ : Shape).Idx → EReal := m (c, Proc.tc.devRef main_arg0)
/-- The three launched planes. -/
abbrev P1 (c : Dev nD) : (⟨3, ![512, 512, 8]⟩ : Shape).Idx → EReal := m (c, Proc.tc.devRef main_arg1)
@[inherit_doc P1] abbrev P2 (c : Dev nD) : (⟨3, ![512, 512, 8]⟩ : Shape).Idx → EReal := m (c, Proc.tc.devRef main_arg2)
@[inherit_doc P1] abbrev P3 (c : Dev nD) : (⟨3, ![512, 512, 8]⟩ : Shape).Idx → EReal := m (c, Proc.tc.devRef main_arg3)
/-- The launched projection matrix. -/
abbrev W (c : Dev nD) : (⟨2, ![8, 24]⟩ : Shape).Idx → EReal := m (c, Proc.tc.devRef main_arg4)
/-- The launched bias. -/
abbrev b (c : Dev nD) : (⟨1, ![8]⟩ : Shape).Idx → EReal := m (c, Proc.tc.devRef main_arg5)

/-! ## The facts -/

/-- The clipped coordinates at (n, a): the launched coordinate clipped into [-1, 1]. -/
theorem hCc (c : Dev nD) : ∀ (n : Fin 4000000) (a : Fin 3), Cc m c (ix2 n a) = clip1 (X m c (ix2 n a)) :=
  fun n a => Cert.KernelIdeal.HostValue.V_v0_apply m c n a

/-- Plane 1's staged corners: at row n, lanes 8j + r hold the plane at the four cells (low or high row of v, low or
    high column of u) of the point's clipped coordinates u (column 0) and v (column 1). -/
theorem hC1 (c : Dev nD) : ∀ (n : Fin 4000000) (r : Fin 8), let u := clip1 (X m c (ix2 n (0 : Fin 3))); let v := clip1 (X m c (ix2 n (1 : Fin 3)));
        C1 m c (ix2 n (lane 0 r)) = P1 m c (ix3 (cellLo v) (cellLo u) r) ∧ C1 m c (ix2 n (lane 1 r)) = P1 m c (ix3 (cellLo v) (cellHi u) r)
        ∧ C1 m c (ix2 n (lane 2 r)) = P1 m c (ix3 (cellHi v) (cellLo u) r) ∧ C1 m c (ix2 n (lane 3 r)) = P1 m c (ix3 (cellHi v) (cellHi u) r) := by
  intro n r u v
  have hf : C1 m c = cornersK (P1 m c) (pixVec (colVec0 (Cc m c))) (pixVec (colVec1 (Cc m c))) :=
    (fold_corners1 (F := Ideal) (fun b => m (c, b))).trans (by rw [after_arg1])
  have hX : pixVec (colVec0 (Cc m c)) (ix1 n) = pix u := (pixCol0_apply n (Cc m c)).trans (congrArg pix (hCc m c n 0))
  have hY : pixVec (colVec1 (Cc m c)) (ix1 n) = pix v := (pixCol1_apply n (Cc m c)).trans (congrArg pix (hCc m c n 1))
  rw [hf]
  exact ⟨cornersK_apply_00 _ _ _ n r u v hX hY, cornersK_apply_01 _ _ _ n r u v hX hY, cornersK_apply_10 _ _ _ n r u v hX hY,
    cornersK_apply_11 _ _ _ n r u v hX hY⟩

/-- Plane 2's staged corners: at row n, lanes 8j + r hold the plane at the four cells (low or high row of v, low or
    high column of u) of the point's clipped coordinates u (column 0) and v (column 2). -/
theorem hC2 (c : Dev nD) : ∀ (n : Fin 4000000) (r : Fin 8), let u := clip1 (X m c (ix2 n (0 : Fin 3))); let v := clip1 (X m c (ix2 n (2 : Fin 3)));
        C2 m c (ix2 n (lane 0 r)) = P2 m c (ix3 (cellLo v) (cellLo u) r) ∧ C2 m c (ix2 n (lane 1 r)) = P2 m c (ix3 (cellLo v) (cellHi u) r)
        ∧ C2 m c (ix2 n (lane 2 r)) = P2 m c (ix3 (cellHi v) (cellLo u) r) ∧ C2 m c (ix2 n (lane 3 r)) = P2 m c (ix3 (cellHi v) (cellHi u) r) := by
  intro n r u v
  have hf : C2 m c = cornersK (P2 m c) (pixVec (colVec0 (Cc m c))) (pixVec (colVec2 (Cc m c))) :=
    (fold_corners2 (F := Ideal) (fun b => m (c, b))).trans (by rw [after_arg2])
  have hX : pixVec (colVec0 (Cc m c)) (ix1 n) = pix u := (pixCol0_apply n (Cc m c)).trans (congrArg pix (hCc m c n 0))
  have hY : pixVec (colVec2 (Cc m c)) (ix1 n) = pix v := (pixCol2_apply n (Cc m c)).trans (congrArg pix (hCc m c n 2))
  rw [hf]
  exact ⟨cornersK_apply_00 _ _ _ n r u v hX hY, cornersK_apply_01 _ _ _ n r u v hX hY, cornersK_apply_10 _ _ _ n r u v hX hY,
    cornersK_apply_11 _ _ _ n r u v hX hY⟩

/-- Plane 3's staged corners: at row n, lanes 8j + r hold the plane at the four cells (low or high row of v, low or
    high column of u) of the point's clipped coordinates u (column 1) and v (column 2). -/
theorem hC3 (c : Dev nD) : ∀ (n : Fin 4000000) (r : Fin 8), let u := clip1 (X m c (ix2 n (1 : Fin 3))); let v := clip1 (X m c (ix2 n (2 : Fin 3)));
        C3 m c (ix2 n (lane 0 r)) = P3 m c (ix3 (cellLo v) (cellLo u) r) ∧ C3 m c (ix2 n (lane 1 r)) = P3 m c (ix3 (cellLo v) (cellHi u) r)
        ∧ C3 m c (ix2 n (lane 2 r)) = P3 m c (ix3 (cellHi v) (cellLo u) r) ∧ C3 m c (ix2 n (lane 3 r)) = P3 m c (ix3 (cellHi v) (cellHi u) r) := by
  intro n r u v
  have hf : C3 m c = cornersK (P3 m c) (pixVec (colVec1 (Cc m c))) (pixVec (colVec2 (Cc m c))) :=
    (fold_corners3 (F := Ideal) (fun b => m (c, b))).trans (by rw [after_arg3])
  have hX : pixVec (colVec1 (Cc m c)) (ix1 n) = pix u := (pixCol1_apply n (Cc m c)).trans (congrArg pix (hCc m c n 1))
  have hY : pixVec (colVec2 (Cc m c)) (ix1 n) = pix v := (pixCol2_apply n (Cc m c)).trans (congrArg pix (hCc m c n 2))
  rw [hf]
  exact ⟨cornersK_apply_00 _ _ _ n r u v hX hY, cornersK_apply_01 _ _ _ n r u v hX hY, cornersK_apply_10 _ _ _ n r u v hX hY,
    cornersK_apply_11 _ _ _ n r u v hX hY⟩

/-- The projection matrix as the region finds it: entry (k, o) is the launched matrix at (o, k). -/
theorem hWt (c : Dev nD) : ∀ (k : Fin 24) (o : Fin 8), Wt m c (ix2 k o) = W m c (ix2 o k) :=
  fun k o => Cert.KernelIdeal.HostValue.V_v163_apply m c k o

/-- The bias as the region finds it: the launched bias, which no host operation writes. -/
theorem hBk (c : Dev nD) : ∀ o : Fin 8, Bk m c (ix1 o) = b m c (ix1 o) :=
  fun o => congrFun (V_main_arg5 m c) (ix1 o)

end Cert.KernelIdeal.Facts

end
-- ==== Proof.ResultEq.lean ====
/-
  The two results are one function of the arguments. The reference's result buffer after its run and the kernel
  program's result array after its run are both read entry by entry: the reference's is the clip of a 24-term
  contraction of the three planes' blended features with a row of the projection, plus the bias; the kernel's is
  the clip of the three 8-term contractions of the same blended features, summed, plus the bias. The planes'
  corner entries and the interpolation weights agree (both sides derive them from the same clipped coordinates),
  so the abstract bridge applies; the launch memories agree on the six arguments.
-/
import proofs.«114771_j71983651881269_2_alg».proof.Proof.Bridge
import proofs.«114771_j71983651881269_2_alg».proof.Proof.RefFacts
import proofs.«114771_j71983651881269_2_alg».proof.Proof.KFacts

noncomputable section

namespace Cert.Proof

open Idealize.ShloMosaic Idealize.ShloMosaic.TcCoe Idealize.SL.Sem

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after (Cert.ReferenceIdeal.HandRun.ops (F := Ideal)) (fun b => m' (c, b)) (Proc.devRef .tc Cert.ReferenceIdeal.main_v334)
      = Cert.KernelIdeal.HandValue.GK (F := Ideal)
          (Cert.KernelIdeal.Hand.V m c Cert.KernelIdeal.main_v54) (Cert.KernelIdeal.Hand.V m c Cert.KernelIdeal.main_v108)
          (Cert.KernelIdeal.Hand.V m c Cert.KernelIdeal.main_v162) (Cert.KernelIdeal.Hand.V m c Cert.KernelIdeal.main_v0)
          (Cert.KernelIdeal.Hand.V m c Cert.KernelIdeal.main_v163) (Cert.KernelIdeal.Hand.V m c Cert.KernelIdeal.main_arg5) := by
  obtain ⟨h0, h1, h2, h3, h4, h5⟩ := hagree
  -- the reference's launch contents are the kernel program's
  have e0 : Cert.ReferenceIdeal.Facts.Xof m' c = m ((c.tc : Thread Cert.KernelIdeal.nD Cert.KernelIdeal.τ).loc Cert.KernelIdeal.main_arg0) := h0
  have e1 : Cert.ReferenceIdeal.Facts.P1of m' c = m ((c.tc : Thread Cert.KernelIdeal.nD Cert.KernelIdeal.τ).loc Cert.KernelIdeal.main_arg1) := h1
  have e2 : Cert.ReferenceIdeal.Facts.P2of m' c = m ((c.tc : Thread Cert.KernelIdeal.nD Cert.KernelIdeal.τ).loc Cert.KernelIdeal.main_arg2) := h2
  have e3 : Cert.ReferenceIdeal.Facts.P3of m' c = m ((c.tc : Thread Cert.KernelIdeal.nD Cert.KernelIdeal.τ).loc Cert.KernelIdeal.main_arg3) := h3
  have e4 : Cert.ReferenceIdeal.Facts.Wof m' c = m ((c.tc : Thread Cert.KernelIdeal.nD Cert.KernelIdeal.τ).loc Cert.KernelIdeal.main_arg4) := h4
  have e5 : Cert.ReferenceIdeal.Facts.bof m' c = m ((c.tc : Thread Cert.KernelIdeal.nD Cert.KernelIdeal.τ).loc Cert.KernelIdeal.main_arg5) := h5
  refine Cert.Bridge.result_eq_of _ _ _ _ _ _
    (Cert.ReferenceIdeal.Facts.Xof m' c) (Cert.ReferenceIdeal.Facts.P1of m' c) (Cert.ReferenceIdeal.Facts.P2of m' c)
    (Cert.ReferenceIdeal.Facts.P3of m' c) (Cert.ReferenceIdeal.Facts.Wof m' c) (Cert.ReferenceIdeal.Facts.bof m' c)
    (Cert.ReferenceIdeal.Facts.R334of m' c) (Cert.ReferenceIdeal.Facts.R328of m' c) (Cert.ReferenceIdeal.Facts.R1of m' c)
    (Cert.ReferenceIdeal.Facts.R2of m' c) (Cert.ReferenceIdeal.Facts.R3of m' c)
    ?_ ?_ ?_ ?_ ?_ ?_
    (Cert.ReferenceIdeal.Facts.h334 m' c) (Cert.ReferenceIdeal.Facts.h328 m' c) (Cert.ReferenceIdeal.Facts.hR1 m' c)
    (Cert.ReferenceIdeal.Facts.hR2 m' c) (Cert.ReferenceIdeal.Facts.hR3 m' c)
  · rw [e0]; exact Cert.KernelIdeal.Facts.hCc m c
  · rw [e0, e1]; exact Cert.KernelIdeal.Facts.hC1 m c
  · rw [e0, e2]; exact Cert.KernelIdeal.Facts.hC2 m c
  · rw [e0, e3]; exact Cert.KernelIdeal.Facts.hC3 m c
  · rw [e4]; exact Cert.KernelIdeal.Facts.hWt m c
  · rw [e5]; exact Cert.KernelIdeal.Facts.hBk m c

end Cert.Proof

end
-- ==== Proof.lean ====
/-
  The certificate of the tri-plane feature sampler: a Pallas kernel program (per plane, the four bilinear corner
  rows gathered on the host by flat index; a blocked kernel that recomputes the interpolation weights from the
  clipped coordinates, blends, projects by three 8 x 8 products and clips) against the plain reference (per plane,
  the corners gathered by a two-index gather and blended on the host; one 24 x 8 product; the clip).
  Both programs end, faulting nowhere, with their six arguments unchanged; the idealization rewrote nothing; and
  on the extended reals the two results are one function of the arguments: the same corner entries of the planes
  enter the same blend with the same weights, and a sum over 24 products is the sum of its three runs of 8.
-/
import proofs.«114771_j71983651881269_2_alg».proof.Defs
import proofs.«114771_j71983651881269_2_alg».proof.Proof.Gen.Kernel
import proofs.«114771_j71983651881269_2_alg».proof.Proof.Gen.KernelIdeal
import proofs.«114771_j71983651881269_2_alg».proof.Proof.Gen.ReferenceIdeal
import proofs.«114771_j71983651881269_2_alg».proof.Proof.Gen.Pre_finite_inputs
import proofs.«114771_j71983651881269_2_alg».proof.Proof.FrameK
import proofs.«114771_j71983651881269_2_alg».proof.Proof.KernelValue
import proofs.«114771_j71983651881269_2_alg».proof.Proof.RefRun
import proofs.«114771_j71983651881269_2_alg».proof.Proof.ResultEq
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- So does the reference: its run with the result dropped. -/
theorem frame_ri : Cert.frame_ReferenceIdeal := fun m ρ _ => Cert.ReferenceIdeal.HandRun.frame m ρ

/-- The idealization rewrote no operation. -/
theorem preserves : Cert.preserves_Kernel_KernelIdeal := trivial

/-- On the extended reals the kernel program's result array (the blocks' function of the staged arrays) and the
    reference's result (its operations' value of the arguments) are one function of arguments that agree. -/
theorem algebraic : Cert.algebraic_KernelIdeal_ReferenceIdeal := by
  intro m ρ m' ρ' _ hagree
  refine ⟨fun c => Cert.KernelIdeal.HandValue.GK (F := Ideal)
      (Cert.KernelIdeal.Hand.V m c Cert.KernelIdeal.main_v54) (Cert.KernelIdeal.Hand.V m c Cert.KernelIdeal.main_v108)
      (Cert.KernelIdeal.Hand.V m c Cert.KernelIdeal.main_v162) (Cert.KernelIdeal.Hand.V m c Cert.KernelIdeal.main_v0)
      (Cert.KernelIdeal.Hand.V m c Cert.KernelIdeal.main_v163) (Cert.KernelIdeal.Hand.V m c Cert.KernelIdeal.main_arg5),
    Cert.KernelIdeal.HandValue.run (F := Ideal) m ρ, ?_⟩
  refine (θ_run Cert.ReferenceIdeal.defs _ _).mono (fun _ h c => ⟨(h c).1.trans ?_, (h c).2⟩)
    (Cert.ReferenceIdeal.HandRun.run (F := Ideal) m' ρ')
  exact result_eq m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
